-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S4 : Shape := ⟨1, ![4]⟩
abbrev S4x128x128 : Shape := ⟨3, ![4, 128, 128]⟩
abbrev S4x128 : Shape := ⟨2, ![4, 128]⟩
abbrev S640x256 : Shape := ⟨2, ![640, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg10 : FVec F S640x256 .f32) (main_arg11 : FVec F S256 .f32) (main_arg12 : FVec F S256x10 .f32) (main_arg13 : FVec F S10 .f32) (main_v33 : IVec S_ 1) : IVec S_ 1 :=
  let main_v34 : FVec F S640x256 .f32 := Host.absf main_arg10
  let main_cst_12 : FVec F S_ .f32 := constant S_ .f32 0x7F800000#32
  let main_v35 : FVec F S640x256 .f32 := broadcastInDim S640x256 ![] bcast_S_S640x256 main_cst_12
  let main_v36 : IVec S640x256 1 := cmpf .olt main_v34 main_v35
  let main_c_13 : IVec S_ 1 := constantI S_ 1 1#1
  let main_v37 : IVec S_ 1 := (fun x v => Host.reduce IntOp.andi x v reducesTo_S640x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x10 .f32 := Host.absf main_arg12
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg7 : FVec F S4x128 .f32) (main_arg8 : FVec F S4x128 .f32) (main_arg9 : FVec F S4x128 .f32) (main_arg10 : FVec F S640x256 .f32) (main_arg11 : FVec F S256 .f32) (main_arg12 : FVec F S256x10 .f32) (main_arg13 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg8
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S100000 32) (main_arg1 : IVec S2x1600000 32) (main_arg2 : IVec S100000 32) (main_arg3 : FVec F S4 .f32) (main_arg4 : FVec F S4x128x128 .f32) (main_arg5 : FVec F S4x128 .f32) (main_arg6 : FVec F S4x128x128 .f32) (main_arg7 : FVec F S4x128 .f32) (main_arg8 : FVec F S4x128 .f32) (main_arg9 : FVec F S4x128 .f32) (main_arg10 : FVec F S640x256 .f32) (main_arg11 : FVec F S256 .f32) (main_arg12 : FVec F S256x10 .f32) (main_arg13 : FVec F S10 .f32) : IVec S_ 1 :=
  let main_v0 : FVec F S4 .f32 := Host.absf main_arg3
  let main_cst : FVec F S_ .f32 := constant S_ .f32 0x7F800000#32
  let main_v1 : FVec F S4 .f32 := broadcastInDim S4 ![] bcast_S_S4 main_cst
  let main_v2 : IVec S4 1 := cmpf .olt main_v0 main_v1
  let main_c : IVec S_ 1 := constantI S_ 1 1#1
  let main_v3 : IVec S_ 1 := (fun x v => Host.reduce IntOp.andi x v reducesTo_S4_S_d0 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg6
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg7 main_arg8 main_arg9 main_arg10 main_arg11 main_arg12 main_arg13 main_v13 main_v16
-- ==== Kernel.lean ====
abbrev S100000 : Shape := ⟨1, ![100000]⟩
abbrev S2x1600000 : Shape := ⟨2, ![2, 1600000]⟩
abbrev S4 : Shape := ⟨1, ![4]⟩
abbrev S4x128x128 : Shape := ⟨3, ![4, 128, 128]⟩
abbrev S4x128 : Shape := ⟨2, ![4, 128]⟩
abbrev S640x256 : Shape := ⟨2, ![640, 256]⟩
abbrev S256 : Shape := ⟨1, ![256]⟩
abbrev S256x10 : Shape := ⟨2, ![256, 10]⟩
abbrev S10 : Shape := ⟨1, ![10]⟩
abbrev S100000x1 : Shape := ⟨2, ![100000, 1]⟩
abbrev S1x128 : Shape := ⟨2, ![1, 128]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S5000x128 : Shape := ⟨2, ![5000, 128]⟩
abbrev S100000x640 : Shape := ⟨2, ![100000, 640]⟩
abbrev S64x640 : Shape := ⟨2, ![64, 640]⟩
abbrev S1x256 : Shape := ⟨2, ![1, 256]⟩
abbrev S1x10 : Shape := ⟨2, ![1, 10]⟩
abbrev S64x10 : Shape := ⟨2, ![64, 10]⟩
abbrev S64x256 : Shape := ⟨2, ![64, 256]⟩

abbrev nBuf : Space → Nat
  | .hbm => 251
  | .vmem => 90
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S4, .f32⟩
  | 4 => ⟨S4x128x128, .f32⟩
  | 5 => ⟨S4x128, .f32⟩
  | 6 => ⟨S4x128x128, .f32⟩
  | 7 => ⟨S4x128, .f32⟩
  | 8 => ⟨S4x128, .f32⟩
  | 9 => ⟨S4x128, .f32⟩
  | 10 => ⟨S640x256, .f32⟩
  | 11 => ⟨S256, .f32⟩
  | 12 => ⟨S256x10, .f32⟩
  | 13 => ⟨S10, .f32⟩
  | 14 => ⟨S100000x1, .i32⟩
  | 15 => ⟨S1x128, .i32⟩
  | 16 => ⟨S100000x128, .i32⟩
  | 17 => ⟨S100000x128, .i32⟩
  | 18 => ⟨S100000x128, .i1⟩
  | 19 => ⟨S100000x128, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S1, .f32⟩
  | 38 => ⟨S_, .f32⟩
  | 39 => ⟨S1x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S100000x128, .f32⟩
  | 51 => ⟨S1x128, .f32⟩
  | 52 => ⟨S1x128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S1x128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S1x128, .f32⟩
  | 71 => ⟨S128, .f32⟩
  | 72 => ⟨S128, .f32⟩
  | 73 => ⟨S128, .f32⟩
  | 74 => ⟨S1x128, .f32⟩
  | 75 => ⟨S1x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S1, .f32⟩
  | 91 => ⟨S_, .f32⟩
  | 92 => ⟨S1x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S100000x128, .f32⟩
  | 104 => ⟨S1x128, .f32⟩
  | 105 => ⟨S1x128, .f32⟩
  | 106 => ⟨S128, .f32⟩
  | 107 => ⟨S_, .f32⟩
  | 108 => ⟨S128, .f32⟩
  | 109 => ⟨S128, .f32⟩
  | 110 => ⟨S128, .f32⟩
  | 111 => ⟨S_, .f32⟩
  | 112 => ⟨S128, .f32⟩
  | 113 => ⟨S128, .f32⟩
  | 114 => ⟨S128, .f32⟩
  | 115 => ⟨S128, .f32⟩
  | 116 => ⟨S1x128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S1x128, .f32⟩
  | 124 => ⟨S128, .f32⟩
  | 125 => ⟨S128, .f32⟩
  | 126 => ⟨S128, .f32⟩
  | 127 => ⟨S1x128, .f32⟩
  | _ => ⟨S100000, .i32⟩

abbrev hbmTy0_1 (i : Nat) : BufTy := match i % 128 with
  | 0 => ⟨S1x128, .f32⟩
  | 1 => ⟨S100000x128, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S1, .f32⟩
  | 16 => ⟨S_, .f32⟩
  | 17 => ⟨S1x128, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S100000x128, .f32⟩
  | 29 => ⟨S1x128, .f32⟩
  | 30 => ⟨S1x128, .f32⟩
  | 31 => ⟨S128, .f32⟩
  | 32 => ⟨S_, .f32⟩
  | 33 => ⟨S128, .f32⟩
  | 34 => ⟨S128, .f32⟩
  | 35 => ⟨S128, .f32⟩
  | 36 => ⟨S_, .f32⟩
  | 37 => ⟨S128, .f32⟩
  | 38 => ⟨S128, .f32⟩
  | 39 => ⟨S128, .f32⟩
  | 40 => ⟨S128, .f32⟩
  | 41 => ⟨S1x128, .f32⟩
  | 42 => ⟨S128, .f32⟩
  | 43 => ⟨S_, .f32⟩
  | 44 => ⟨S128, .f32⟩
  | 45 => ⟨S128, .f32⟩
  | 46 => ⟨S128, .f32⟩
  | 47 => ⟨S128, .f32⟩
  | 48 => ⟨S1x128, .f32⟩
  | 49 => ⟨S128, .f32⟩
  | 50 => ⟨S128, .f32⟩
  | 51 => ⟨S128, .f32⟩
  | 52 => ⟨S1x128, .f32⟩
  | 53 => ⟨S1x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1, .f32⟩
  | 69 => ⟨S_, .f32⟩
  | 70 => ⟨S1x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S100000x128, .f32⟩
  | 82 => ⟨S1x128, .f32⟩
  | 83 => ⟨S1x128, .f32⟩
  | 84 => ⟨S128, .f32⟩
  | 85 => ⟨S_, .f32⟩
  | 86 => ⟨S128, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S128, .f32⟩
  | 94 => ⟨S1x128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S1x128, .f32⟩
  | 102 => ⟨S128, .f32⟩
  | 103 => ⟨S128, .f32⟩
  | 104 => ⟨S128, .f32⟩
  | 105 => ⟨S1x128, .f32⟩
  | 106 => ⟨S1x128, .f32⟩
  | 107 => ⟨S100000x128, .f32⟩
  | 108 => ⟨S100000x640, .f32⟩
  | 109 => ⟨S_, .f32⟩
  | 110 => ⟨S64x640, .f32⟩
  | 111 => ⟨S100000x1, .i32⟩
  | 112 => ⟨S64x640, .f32⟩
  | 113 => ⟨S_, .f32⟩
  | 114 => ⟨S64x640, .f32⟩
  | 115 => ⟨S64x640, .i1⟩
  | 116 => ⟨S_, .f32⟩
  | 117 => ⟨S64x640, .f32⟩
  | 118 => ⟨S64x640, .f32⟩
  | 119 => ⟨S64x640, .f32⟩
  | 120 => ⟨S1x256, .f32⟩
  | 121 => ⟨S1x10, .f32⟩
  | 122 => ⟨S64x10, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S1x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S5000x128, .f32⟩
  | .local _ .vmem, ⟨58, _⟩ => ⟨S5000x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S128x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S1x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S64x640, .f32⟩
  | .local _ .vmem, ⟨85, _⟩ => ⟨S640x256, .f32⟩
  | .local _ .vmem, ⟨86, _⟩ => ⟨S1x256, .f32⟩
  | .local _ .vmem, ⟨87, _⟩ => ⟨S256x10, .f32⟩
  | .local _ .vmem, ⟨88, _⟩ => ⟨S1x10, .f32⟩
  | .local _ .vmem, ⟨89, _⟩ => ⟨S64x10, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_4 : Ref sig .tc := ⟨.hbm, 77, rfl⟩
abbrev main_v50 : Ref sig .tc := ⟨.hbm, 78, rfl⟩
abbrev main_v51 : Ref sig .tc := ⟨.hbm, 79, rfl⟩
abbrev main_c_5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73_0 : Ref sig .tc := ⟨.hbm, 103, rfl⟩
abbrev main_v73_1 : Ref sig .tc := ⟨.hbm, 104, rfl⟩
abbrev main_v73_2 : Ref sig .tc := ⟨.hbm, 105, rfl⟩
abbrev main_v74 : Ref sig .tc := ⟨.hbm, 106, rfl⟩
abbrev main_cst_7 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_9 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_10 : Ref sig .tc := ⟨.hbm, 130, rfl⟩
abbrev main_v95 : Ref sig .tc := ⟨.hbm, 131, rfl⟩
abbrev main_v96 : Ref sig .tc := ⟨.hbm, 132, rfl⟩
abbrev main_c_11 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_12 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118_0 : Ref sig .tc := ⟨.hbm, 156, rfl⟩
abbrev main_v118_1 : Ref sig .tc := ⟨.hbm, 157, rfl⟩
abbrev main_v118_2 : Ref sig .tc := ⟨.hbm, 158, rfl⟩
abbrev main_v119 : Ref sig .tc := ⟨.hbm, 159, rfl⟩
abbrev main_cst_13 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_14 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_15 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_16 : Ref sig .tc := ⟨.hbm, 183, rfl⟩
abbrev main_v140 : Ref sig .tc := ⟨.hbm, 184, rfl⟩
abbrev main_v141 : Ref sig .tc := ⟨.hbm, 185, rfl⟩
abbrev main_c_17 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_18 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163_0 : Ref sig .tc := ⟨.hbm, 209, rfl⟩
abbrev main_v163_1 : Ref sig .tc := ⟨.hbm, 210, rfl⟩
abbrev main_v163_2 : Ref sig .tc := ⟨.hbm, 211, rfl⟩
abbrev main_v164 : Ref sig .tc := ⟨.hbm, 212, rfl⟩
abbrev main_cst_19 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_20 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_21 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_22 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_call1_cst : Ref sig .tc := ⟨.hbm, 241, rfl⟩
abbrev main_call1_v0 : Ref sig .tc := ⟨.hbm, 242, rfl⟩
abbrev main_call1_v1 : Ref sig .tc := ⟨.hbm, 243, rfl⟩
abbrev main_call1_cst_0 : Ref sig .tc := ⟨.hbm, 244, rfl⟩
abbrev main_call1_v2 : Ref sig .tc := ⟨.hbm, 245, rfl⟩
abbrev main_call1_v3 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg9_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc4_stg8_0 : Ref sig .tc := ⟨.vmem, 53, rfl⟩
abbrev cc4_stg9_0 : Ref sig .tc := ⟨.vmem, 54, rfl⟩
abbrev cc4_scratch0 : Ref sig .tc := ⟨.vmem, 55, rfl⟩
abbrev cc4_scratch1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg3_1 : Ref sig .tc := ⟨.vmem, 62, rfl⟩
abbrev cc6_stg0_0 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg2_1 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg6_0 : Ref sig .tc := ⟨.vmem, 71, rfl⟩
abbrev cc6_stg7_0 : Ref sig .tc := ⟨.vmem, 72, rfl⟩
abbrev cc6_stg7_1 : Ref sig .tc := ⟨.vmem, 73, rfl⟩
abbrev cc6_stg8_0 : Ref sig .tc := ⟨.vmem, 74, rfl⟩
abbrev cc6_stg9_0 : Ref sig .tc := ⟨.vmem, 75, rfl⟩
abbrev cc6_scratch0 : Ref sig .tc := ⟨.vmem, 76, rfl⟩
abbrev cc6_scratch1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg2_0 : Ref sig .tc := ⟨.vmem, 81, rfl⟩
abbrev cc7_stg3_0 : Ref sig .tc := ⟨.vmem, 82, rfl⟩
abbrev cc7_stg3_1 : Ref sig .tc := ⟨.vmem, 83, rfl⟩
abbrev cc8_stg0_0 : Ref sig .tc := ⟨.vmem, 84, rfl⟩
abbrev cc8_stg1_0 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg5_0 : Ref sig .tc := ⟨.vmem, 89, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem9_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc4_sem0_0 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem7_1 : DmaSem sig := 48
abbrev cc4_sem8_0 : DmaSem sig := 49
abbrev cc4_sem9_0 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem3_1 : DmaSem sig := 56
abbrev cc6_sem0_0 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem7_1 : DmaSem sig := 67
abbrev cc6_sem8_0 : DmaSem sig := 68
abbrev cc6_sem9_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem3_1 : DmaSem sig := 75
abbrev cc8_sem0_0 : DmaSem sig := 76
abbrev cc8_sem1_0 : DmaSem sig := 77
abbrev cc8_sem2_0 : DmaSem sig := 78
abbrev cc8_sem3_0 : DmaSem sig := 79
abbrev cc8_sem4_0 : DmaSem sig := 80
abbrev cc8_sem5_0 : DmaSem sig := 81

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x640 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S640x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  bcast_S_S128 : S_.BroadcastsInDim S128 (![] : Fin 0 → Fin S128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x128_S100000x640_d1 : Shape.Concatenates [S100000x128, S100000x128, S100000x128, S100000x128, S100000x128] S100000x640 1
  bcast_S_S64x640 : S_.BroadcastsInDim S64x640 (![] : Fin 0 → Fin S64x640.rank)
  shapeCasts_S256_S1x256 : S256.ShapeCasts S1x256
  shapeCasts_S10_S1x10 : S10.ShapeCasts S1x10
  inb_S64x640_S64x640_0_0 : ∀ a, (![0, 0] : Fin 2 → Nat) a + S64x640.size a ≤ S64x640.size a
  h_S64x640 : 0 < S64x640.numel
  shapeCasts_S64x640_S64x640 : S64x640.ShapeCasts S64x640
  inb_S640x256_S640x256_0_0 : ∀ a, (![0, 0] : Fin 2 → Nat) a + S640x256.size a ≤ S640x256.size a
  h_S640x256 : 0 < S640x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x640_S100000x1_S100000x640_1_0_0_1_wf : ScatterDims.WF S64x640 S100000x1 S100000x640 [1] [0] [0] 1
  dot_S64x640_S640x256_S64x256_1_0_0_1_n_n_wf : DotDims.WF S64x640 S640x256 S64x256 [1] [0] [0] [1] [] []
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128.size a ≤ S1x128.size a
  hwx2_0 : ∀ i : grid2.Coords, EltTy.bits .f32 = 32 ∨ (Rect.block (s := S1x128) S1x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x128.size a ≤ S1x128.size a
  hwx4_0 : ∀ i : grid4.Coords, EltTy.bits .f32 = 32 ∨ (Rect.block (s := S1x128) S1x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x128.size a ≤ S1x128.size a
  hwx6_0 : ∀ i : grid6.Coords, EltTy.bits .f32 = 32 ∨ (Rect.block (s := S1x128) S1x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x640.size a ≤ S64x640.size a
  hwx8_0 : ∀ i : grid8.Coords, EltTy.bits .f32 = 32 ∨ (Rect.block (s := S64x640) S64x640.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S640x256.size a ≤ S640x256.size a
  hwx8_1 : ∀ i : grid8.Coords, EltTy.bits .f32 = 32 ∨ (Rect.block (s := S640x256) S640x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x10.size a ≤ S256x10.size a
  hwx8_3 : ∀ i : grid8.Coords, EltTy.bits .f32 = 32 ∨ (Rect.block (s := S256x10) S256x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x10.size a ≤ S64x10.size a
  hwx8_5 : ∀ i : grid8.Coords, EltTy.bits .f32 = 32 ∨ (Rect.block (s := S64x10) S64x10.size (cc8_transform_5 i) (hinb8_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x640_S100000x1_S100000x640_1_0_0_1 : ScatterDims S64x640 S100000x1 S100000x640 where
  updateWindowDims := [1]
  insertedWindowDims := [0]
  scatterDimsToOperandDims := [0]
  indexVectorDim := 1
  wf := scatter_S64x640_S100000x1_S100000x640_1_0_0_1_wf
def dot_S64x640_S640x256_S64x256_1_0_0_1_n_n : DotDims S64x640 S640x256 S64x256 where
  lhsContracting := [1]
  rhsContracting := [0]
  lhsNonContracting := [0]
  rhsNonContracting := [1]
  lhsBatch := []
  rhsBatch := []
  wf := dot_S64x640_S640x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v17) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v73_1) S1x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v73_2) S1x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v73_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v107) S1x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v94) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v109) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v112) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v117) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v118_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v118_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v118_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v118_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v137) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v138) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v139) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v152) S1x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v139) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v149) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v154) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v157) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v159) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v162) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v163_0) S5000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v163_1) S1x128.size cc6_transform_8 reads6_8 true true 1 stage6_8 sem6_8
    hrank6 hreads6_8 hinb6_8 nbuf6_8 (Memref.isWhole_whole _) hwx6_8 hstage6_8

abbrev win6_9 : Pipeline.Window sig grid6 :=
  Pipeline.Window.ofSpec (Memref.whole main_v163_2) S1x128.size cc6_transform_9 reads6_9 true true 1 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v163_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v182) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v183) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v184) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v189) S64x640.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S640x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v190) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg12) S256x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v191) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v192) S64x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000 : Shape := ⟨1, ![100000]⟩
abbrev S2x1600000 : Shape := ⟨2, ![2, 1600000]⟩
abbrev S4 : Shape := ⟨1, ![4]⟩
abbrev S4x128x128 : Shape := ⟨3, ![4, 128, 128]⟩
abbrev S4x128 : Shape := ⟨2, ![4, 128]⟩
abbrev S640x256 : Shape := ⟨2, ![640, 256]⟩
abbrev S256 : Shape := ⟨1, ![256]⟩
abbrev S256x10 : Shape := ⟨2, ![256, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S1x128 : Shape := ⟨2, ![1, 128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S100000x640 : Shape := ⟨2, ![100000, 640]⟩
abbrev S64x640 : Shape := ⟨2, ![64, 640]⟩
abbrev S64x256 : Shape := ⟨2, ![64, 256]⟩
abbrev S1x256 : Shape := ⟨2, ![1, 256]⟩
abbrev S64x10 : Shape := ⟨2, ![64, 10]⟩
abbrev S1x10 : Shape := ⟨2, ![1, 10]⟩

abbrev nBuf : Space → Nat
  | .hbm => 443
  | .vmem => 0
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S4, .f32⟩
  | 4 => ⟨S4x128x128, .f32⟩
  | 5 => ⟨S4x128, .f32⟩
  | 6 => ⟨S4x128x128, .f32⟩
  | 7 => ⟨S4x128, .f32⟩
  | 8 => ⟨S4x128, .f32⟩
  | 9 => ⟨S4x128, .f32⟩
  | 10 => ⟨S640x256, .f32⟩
  | 11 => ⟨S256, .f32⟩
  | 12 => ⟨S256x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S100000x1, .i32⟩
  | 19 => ⟨S1x128, .i32⟩
  | 20 => ⟨S100000x128, .i32⟩
  | 21 => ⟨S100000x128, .i32⟩
  | 22 => ⟨S100000x128, .i1⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S1, .f32⟩
  | 38 => ⟨S_, .f32⟩
  | 39 => ⟨S_, .f32⟩
  | 40 => ⟨S_, .f32⟩
  | 41 => ⟨S100000x128, .f32⟩
  | 42 => ⟨S100000x128, .f32⟩
  | 43 => ⟨S100000x128, .f32⟩
  | 44 => ⟨S1x128x128, .f32⟩
  | 45 => ⟨S128x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S1x128x128, .f32⟩
  | 60 => ⟨S128x128, .f32⟩
  | 61 => ⟨S100000x128, .f32⟩
  | 62 => ⟨S1x128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .i1⟩
  | 118 => ⟨S_, .f32⟩
  | 119 => ⟨S100000x128, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000, .i32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S1, .f32⟩
  | 8 => ⟨S_, .f32⟩
  | 9 => ⟨S_, .f32⟩
  | 10 => ⟨S_, .f32⟩
  | 11 => ⟨S100000x128, .f32⟩
  | 12 => ⟨S100000x128, .f32⟩
  | 13 => ⟨S100000x128, .f32⟩
  | 14 => ⟨S1x128x128, .f32⟩
  | 15 => ⟨S128x128, .f32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S100000x128, .f32⟩
  | 50 => ⟨S100000x128, .f32⟩
  | 51 => ⟨S100000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .i1⟩
  | 88 => ⟨S_, .f32⟩
  | 89 => ⟨S100000x128, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S1, .f32⟩
  | 106 => ⟨S_, .f32⟩
  | 107 => ⟨S_, .f32⟩
  | 108 => ⟨S_, .f32⟩
  | 109 => ⟨S100000x128, .f32⟩
  | 110 => ⟨S100000x128, .f32⟩
  | 111 => ⟨S100000x128, .f32⟩
  | 112 => ⟨S1x128x128, .f32⟩
  | 113 => ⟨S128x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .i1⟩
  | 123 => ⟨S_, .f32⟩
  | 124 => ⟨S100000x128, .f32⟩
  | 125 => ⟨S100000x128, .f32⟩
  | 126 => ⟨S100000x128, .f32⟩
  | 127 => ⟨S1x128x128, .f32⟩
  | _ => ⟨S100000, .i32⟩

abbrev hbmTy0_2 (i : Nat) : BufTy := match i % 128 with
  | 0 => ⟨S128x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .i1⟩
  | 58 => ⟨S_, .f32⟩
  | 59 => ⟨S100000x128, .f32⟩
  | 60 => ⟨S100000x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S1, .f32⟩
  | 76 => ⟨S_, .f32⟩
  | 77 => ⟨S_, .f32⟩
  | 78 => ⟨S_, .f32⟩
  | 79 => ⟨S100000x128, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .i1⟩
  | 93 => ⟨S_, .f32⟩
  | 94 => ⟨S100000x128, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S100000x128, .f32⟩
  | 118 => ⟨S100000x128, .f32⟩
  | 119 => ⟨S100000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S100000, .i32⟩

abbrev hbmTy0_3 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .i1⟩
  | 28 => ⟨S_, .f32⟩
  | 29 => ⟨S100000x128, .f32⟩
  | 30 => ⟨S100000x128, .f32⟩
  | 31 => ⟨S100000x128, .f32⟩
  | 32 => ⟨S100000x640, .f32⟩
  | 33 => ⟨S_, .f32⟩
  | 34 => ⟨S64x640, .f32⟩
  | 35 => ⟨S100000x1, .i32⟩
  | 36 => ⟨S64x640, .f32⟩
  | 37 => ⟨S_, .f32⟩
  | 38 => ⟨S64x640, .f32⟩
  | 39 => ⟨S64x640, .i1⟩
  | 40 => ⟨S_, .f32⟩
  | 41 => ⟨S64x640, .f32⟩
  | 42 => ⟨S64x640, .f32⟩
  | 43 => ⟨S64x640, .f32⟩
  | 44 => ⟨S64x256, .f32⟩
  | 45 => ⟨S1x256, .f32⟩
  | 46 => ⟨S64x256, .f32⟩
  | 47 => ⟨S64x256, .f32⟩
  | 48 => ⟨S_, .f32⟩
  | 49 => ⟨S64x256, .f32⟩
  | 50 => ⟨S64x256, .i1⟩
  | 51 => ⟨S_, .f32⟩
  | 52 => ⟨S64x256, .f32⟩
  | 53 => ⟨S64x256, .f32⟩
  | 54 => ⟨S64x256, .f32⟩
  | 55 => ⟨S64x10, .f32⟩
  | 56 => ⟨S1x10, .f32⟩
  | 57 => ⟨S64x10, .f32⟩
  | 58 => ⟨S64x10, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_v40 : Ref sig .tc := ⟨.hbm, 71, rfl⟩
abbrev main_c_4 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_5 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_call3_cst : Ref sig .tc := ⟨.hbm, 115, rfl⟩
abbrev main_call3_v0 : Ref sig .tc := ⟨.hbm, 116, rfl⟩
abbrev main_call3_v1 : Ref sig .tc := ⟨.hbm, 117, rfl⟩
abbrev main_call3_cst_0 : Ref sig .tc := ⟨.hbm, 118, rfl⟩
abbrev main_call3_v2 : Ref sig .tc := ⟨.hbm, 119, rfl⟩
abbrev main_call3_v3 : Ref sig .tc := ⟨.hbm, 120, rfl⟩
abbrev main_v61 : Ref sig .tc := ⟨.hbm, 121, rfl⟩
abbrev main_c_6 : Ref sig .tc := ⟨.hbm, 122, rfl⟩
abbrev main_v62 : Ref sig .tc := ⟨.hbm, 123, rfl⟩
abbrev main_v63 : Ref sig .tc := ⟨.hbm, 124, rfl⟩
abbrev main_c_7 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_8 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_cst_9 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_cst_0 : Ref sig .tc := ⟨.hbm, 153, rfl⟩
abbrev main_call4_v2 : Ref sig .tc := ⟨.hbm, 154, rfl⟩
abbrev main_call4_v3 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_10 : Ref sig .tc := ⟨.hbm, 165, rfl⟩
abbrev main_v95 : Ref sig .tc := ⟨.hbm, 166, rfl⟩
abbrev main_cst_11 : Ref sig .tc := ⟨.hbm, 167, rfl⟩
abbrev main_v96 : Ref sig .tc := ⟨.hbm, 168, rfl⟩
abbrev main_v97 : Ref sig .tc := ⟨.hbm, 169, rfl⟩
abbrev main_c_12 : Ref sig .tc := ⟨.hbm, 170, rfl⟩
abbrev main_call5_cst : Ref sig .tc := ⟨.hbm, 171, rfl⟩
abbrev main_call5_v0 : Ref sig .tc := ⟨.hbm, 172, rfl⟩
abbrev main_call5_v1 : Ref sig .tc := ⟨.hbm, 173, rfl⟩
abbrev main_call5_cst_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_v5 : Ref sig .tc := ⟨.hbm, 178, rfl⟩
abbrev main_call5_v6 : Ref sig .tc := ⟨.hbm, 179, rfl⟩
abbrev main_call5_v7 : Ref sig .tc := ⟨.hbm, 180, rfl⟩
abbrev main_call5_cst_1 : Ref sig .tc := ⟨.hbm, 181, rfl⟩
abbrev main_call5_v8 : Ref sig .tc := ⟨.hbm, 182, rfl⟩
abbrev main_call5_cst_2 : Ref sig .tc := ⟨.hbm, 183, rfl⟩
abbrev main_call5_v9 : Ref sig .tc := ⟨.hbm, 184, rfl⟩
abbrev main_call5_v10 : Ref sig .tc := ⟨.hbm, 185, rfl⟩
abbrev main_call5_v11 : Ref sig .tc := ⟨.hbm, 186, rfl⟩
abbrev main_call5_cst_3 : Ref sig .tc := ⟨.hbm, 187, rfl⟩
abbrev main_call5_v12 : Ref sig .tc := ⟨.hbm, 188, rfl⟩
abbrev main_call5_cst_4 : Ref sig .tc := ⟨.hbm, 189, rfl⟩
abbrev main_call5_call0_v0 : Ref sig .tc := ⟨.hbm, 190, rfl⟩
abbrev main_call5_call0_v1 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_cst_13 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_call6_cst : Ref sig .tc := ⟨.hbm, 213, rfl⟩
abbrev main_call6_v0 : Ref sig .tc := ⟨.hbm, 214, rfl⟩
abbrev main_call6_v1 : Ref sig .tc := ⟨.hbm, 215, rfl⟩
abbrev main_call6_cst_0 : Ref sig .tc := ⟨.hbm, 216, rfl⟩
abbrev main_call6_v2 : Ref sig .tc := ⟨.hbm, 217, rfl⟩
abbrev main_call6_v3 : Ref sig .tc := ⟨.hbm, 218, rfl⟩
abbrev main_v118 : Ref sig .tc := ⟨.hbm, 219, rfl⟩
abbrev main_c_14 : Ref sig .tc := ⟨.hbm, 220, rfl⟩
abbrev main_v119 : Ref sig .tc := ⟨.hbm, 221, rfl⟩
abbrev main_v120 : Ref sig .tc := ⟨.hbm, 222, rfl⟩
abbrev main_c_15 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_cst_16 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_cst_17 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_call7_cst : Ref sig .tc := ⟨.hbm, 248, rfl⟩
abbrev main_call7_v0 : Ref sig .tc := ⟨.hbm, 249, rfl⟩
abbrev main_call7_v1 : Ref sig .tc := ⟨.hbm, 250, rfl⟩
abbrev main_call7_cst_0 : Ref sig .tc := ⟨.hbm, 251, rfl⟩
abbrev main_call7_v2 : Ref sig .tc := ⟨.hbm, 252, rfl⟩
abbrev main_call7_v3 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_cst_18 : Ref sig .tc := ⟨.hbm, 263, rfl⟩
abbrev main_v152 : Ref sig .tc := ⟨.hbm, 264, rfl⟩
abbrev main_cst_19 : Ref sig .tc := ⟨.hbm, 265, rfl⟩
abbrev main_v153 : Ref sig .tc := ⟨.hbm, 266, rfl⟩
abbrev main_v154 : Ref sig .tc := ⟨.hbm, 267, rfl⟩
abbrev main_c_20 : Ref sig .tc := ⟨.hbm, 268, rfl⟩
abbrev main_call8_cst : Ref sig .tc := ⟨.hbm, 269, rfl⟩
abbrev main_call8_v0 : Ref sig .tc := ⟨.hbm, 270, rfl⟩
abbrev main_call8_v1 : Ref sig .tc := ⟨.hbm, 271, rfl⟩
abbrev main_call8_cst_0 : Ref sig .tc := ⟨.hbm, 272, rfl⟩
abbrev main_call8_v2 : Ref sig .tc := ⟨.hbm, 273, rfl⟩
abbrev main_call8_v3 : Ref sig .tc := ⟨.hbm, 274, rfl⟩
abbrev main_call8_v4 : Ref sig .tc := ⟨.hbm, 275, rfl⟩
abbrev main_call8_v5 : Ref sig .tc := ⟨.hbm, 276, rfl⟩
abbrev main_call8_v6 : Ref sig .tc := ⟨.hbm, 277, rfl⟩
abbrev main_call8_v7 : Ref sig .tc := ⟨.hbm, 278, rfl⟩
abbrev main_call8_cst_1 : Ref sig .tc := ⟨.hbm, 279, rfl⟩
abbrev main_call8_v8 : Ref sig .tc := ⟨.hbm, 280, rfl⟩
abbrev main_call8_cst_2 : Ref sig .tc := ⟨.hbm, 281, rfl⟩
abbrev main_call8_v9 : Ref sig .tc := ⟨.hbm, 282, rfl⟩
abbrev main_call8_v10 : Ref sig .tc := ⟨.hbm, 283, rfl⟩
abbrev main_call8_v11 : Ref sig .tc := ⟨.hbm, 284, rfl⟩
abbrev main_call8_cst_3 : Ref sig .tc := ⟨.hbm, 285, rfl⟩
abbrev main_call8_v12 : Ref sig .tc := ⟨.hbm, 286, rfl⟩
abbrev main_call8_cst_4 : Ref sig .tc := ⟨.hbm, 287, rfl⟩
abbrev main_call8_call0_v0 : Ref sig .tc := ⟨.hbm, 288, rfl⟩
abbrev main_call8_call0_v1 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_cst_21 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_call9_cst : Ref sig .tc := ⟨.hbm, 311, rfl⟩
abbrev main_call9_v0 : Ref sig .tc := ⟨.hbm, 312, rfl⟩
abbrev main_call9_v1 : Ref sig .tc := ⟨.hbm, 313, rfl⟩
abbrev main_call9_cst_0 : Ref sig .tc := ⟨.hbm, 314, rfl⟩
abbrev main_call9_v2 : Ref sig .tc := ⟨.hbm, 315, rfl⟩
abbrev main_call9_v3 : Ref sig .tc := ⟨.hbm, 316, rfl⟩
abbrev main_v175 : Ref sig .tc := ⟨.hbm, 317, rfl⟩
abbrev main_c_22 : Ref sig .tc := ⟨.hbm, 318, rfl⟩
abbrev main_v176 : Ref sig .tc := ⟨.hbm, 319, rfl⟩
abbrev main_v177 : Ref sig .tc := ⟨.hbm, 320, rfl⟩
abbrev main_c_23 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_cst_24 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_cst_25 : Ref sig .tc := ⟨.hbm, 333, rfl⟩
abbrev main_v188 : Ref sig .tc := ⟨.hbm, 334, rfl⟩
abbrev main_v189 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_call10_cst : Ref sig .tc := ⟨.hbm, 346, rfl⟩
abbrev main_call10_v0 : Ref sig .tc := ⟨.hbm, 347, rfl⟩
abbrev main_call10_v1 : Ref sig .tc := ⟨.hbm, 348, rfl⟩
abbrev main_call10_cst_0 : Ref sig .tc := ⟨.hbm, 349, rfl⟩
abbrev main_call10_v2 : Ref sig .tc := ⟨.hbm, 350, rfl⟩
abbrev main_call10_v3 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_v205 : Ref sig .tc := ⟨.hbm, 357, rfl⟩
abbrev main_v206 : Ref sig .tc := ⟨.hbm, 358, rfl⟩
abbrev main_v207 : Ref sig .tc := ⟨.hbm, 359, rfl⟩
abbrev main_v208 : Ref sig .tc := ⟨.hbm, 360, rfl⟩
abbrev main_cst_26 : Ref sig .tc := ⟨.hbm, 361, rfl⟩
abbrev main_v209 : Ref sig .tc := ⟨.hbm, 362, rfl⟩
abbrev main_cst_27 : Ref sig .tc := ⟨.hbm, 363, rfl⟩
abbrev main_v210 : Ref sig .tc := ⟨.hbm, 364, rfl⟩
abbrev main_v211 : Ref sig .tc := ⟨.hbm, 365, rfl⟩
abbrev main_c_28 : Ref sig .tc := ⟨.hbm, 366, rfl⟩
abbrev main_call11_cst : Ref sig .tc := ⟨.hbm, 367, rfl⟩
abbrev main_call11_v0 : Ref sig .tc := ⟨.hbm, 368, rfl⟩
abbrev main_call11_v1 : Ref sig .tc := ⟨.hbm, 369, rfl⟩
abbrev main_call11_cst_0 : Ref sig .tc := ⟨.hbm, 370, rfl⟩
abbrev main_call11_v2 : Ref sig .tc := ⟨.hbm, 371, rfl⟩
abbrev main_call11_v3 : Ref sig .tc := ⟨.hbm, 372, rfl⟩
abbrev main_call11_v4 : Ref sig .tc := ⟨.hbm, 373, rfl⟩
abbrev main_call11_v5 : Ref sig .tc := ⟨.hbm, 374, rfl⟩
abbrev main_call11_v6 : Ref sig .tc := ⟨.hbm, 375, rfl⟩
abbrev main_call11_v7 : Ref sig .tc := ⟨.hbm, 376, rfl⟩
abbrev main_call11_cst_1 : Ref sig .tc := ⟨.hbm, 377, rfl⟩
abbrev main_call11_v8 : Ref sig .tc := ⟨.hbm, 378, rfl⟩
abbrev main_call11_cst_2 : Ref sig .tc := ⟨.hbm, 379, rfl⟩
abbrev main_call11_v9 : Ref sig .tc := ⟨.hbm, 380, rfl⟩
abbrev main_call11_v10 : Ref sig .tc := ⟨.hbm, 381, rfl⟩
abbrev main_call11_v11 : Ref sig .tc := ⟨.hbm, 382, rfl⟩
abbrev main_call11_cst_3 : Ref sig .tc := ⟨.hbm, 383, rfl⟩
abbrev main_call11_v12 : Ref sig .tc := ⟨.hbm, 384, rfl⟩
abbrev main_call11_cst_4 : Ref sig .tc := ⟨.hbm, 385, rfl⟩
abbrev main_call11_call0_v0 : Ref sig .tc := ⟨.hbm, 386, rfl⟩
abbrev main_call11_call0_v1 : Ref sig .tc := ⟨.hbm, 387, rfl⟩
abbrev main_v212 : Ref sig .tc := ⟨.hbm, 388, rfl⟩
abbrev main_v213 : Ref sig .tc := ⟨.hbm, 389, rfl⟩
abbrev main_v214 : Ref sig .tc := ⟨.hbm, 390, rfl⟩
abbrev main_v215 : Ref sig .tc := ⟨.hbm, 391, rfl⟩
abbrev main_cst_29 : Ref sig .tc := ⟨.hbm, 392, rfl⟩
abbrev main_v216 : Ref sig .tc := ⟨.hbm, 393, rfl⟩
abbrev main_v217 : Ref sig .tc := ⟨.hbm, 394, rfl⟩
abbrev main_v218 : Ref sig .tc := ⟨.hbm, 395, rfl⟩
abbrev main_v219 : Ref sig .tc := ⟨.hbm, 396, rfl⟩
abbrev main_v220 : Ref sig .tc := ⟨.hbm, 397, rfl⟩
abbrev main_v221 : Ref sig .tc := ⟨.hbm, 398, rfl⟩
abbrev main_v222 : Ref sig .tc := ⟨.hbm, 399, rfl⟩
abbrev main_v223 : Ref sig .tc := ⟨.hbm, 400, rfl⟩
abbrev main_v224 : Ref sig .tc := ⟨.hbm, 401, rfl⟩
abbrev main_v225 : Ref sig .tc := ⟨.hbm, 402, rfl⟩
abbrev main_v226 : Ref sig .tc := ⟨.hbm, 403, rfl⟩
abbrev main_v227 : Ref sig .tc := ⟨.hbm, 404, rfl⟩
abbrev main_v228 : Ref sig .tc := ⟨.hbm, 405, rfl⟩
abbrev main_v229 : Ref sig .tc := ⟨.hbm, 406, rfl⟩
abbrev main_v230 : Ref sig .tc := ⟨.hbm, 407, rfl⟩
abbrev main_v231 : Ref sig .tc := ⟨.hbm, 408, rfl⟩
abbrev main_call12_cst : Ref sig .tc := ⟨.hbm, 409, rfl⟩
abbrev main_call12_v0 : Ref sig .tc := ⟨.hbm, 410, rfl⟩
abbrev main_call12_v1 : Ref sig .tc := ⟨.hbm, 411, rfl⟩
abbrev main_call12_cst_0 : Ref sig .tc := ⟨.hbm, 412, rfl⟩
abbrev main_call12_v2 : Ref sig .tc := ⟨.hbm, 413, rfl⟩
abbrev main_call12_v3 : Ref sig .tc := ⟨.hbm, 414, rfl⟩
abbrev main_v232 : Ref sig .tc := ⟨.hbm, 415, rfl⟩
abbrev main_v233 : Ref sig .tc := ⟨.hbm, 416, rfl⟩
abbrev main_cst_30 : Ref sig .tc := ⟨.hbm, 417, rfl⟩
abbrev main_v234 : Ref sig .tc := ⟨.hbm, 418, rfl⟩
abbrev main_v235 : Ref sig .tc := ⟨.hbm, 419, rfl⟩
abbrev main_v236 : Ref sig .tc := ⟨.hbm, 420, rfl⟩
abbrev main_call13_cst : Ref sig .tc := ⟨.hbm, 421, rfl⟩
abbrev main_call13_v0 : Ref sig .tc := ⟨.hbm, 422, rfl⟩
abbrev main_call13_v1 : Ref sig .tc := ⟨.hbm, 423, rfl⟩
abbrev main_call13_cst_0 : Ref sig .tc := ⟨.hbm, 424, rfl⟩
abbrev main_call13_v2 : Ref sig .tc := ⟨.hbm, 425, rfl⟩
abbrev main_call13_v3 : Ref sig .tc := ⟨.hbm, 426, rfl⟩
abbrev main_v237 : Ref sig .tc := ⟨.hbm, 427, rfl⟩
abbrev main_v238 : Ref sig .tc := ⟨.hbm, 428, rfl⟩
abbrev main_v239 : Ref sig .tc := ⟨.hbm, 429, rfl⟩
abbrev main_v240 : Ref sig .tc := ⟨.hbm, 430, rfl⟩
abbrev main_v241 : Ref sig .tc := ⟨.hbm, 431, rfl⟩
abbrev main_call14_cst : Ref sig .tc := ⟨.hbm, 432, rfl⟩
abbrev main_call14_v0 : Ref sig .tc := ⟨.hbm, 433, rfl⟩
abbrev main_call14_v1 : Ref sig .tc := ⟨.hbm, 434, rfl⟩
abbrev main_call14_cst_0 : Ref sig .tc := ⟨.hbm, 435, rfl⟩
abbrev main_call14_v2 : Ref sig .tc := ⟨.hbm, 436, rfl⟩
abbrev main_call14_v3 : Ref sig .tc := ⟨.hbm, 437, rfl⟩
abbrev main_v242 : Ref sig .tc := ⟨.hbm, 438, rfl⟩
abbrev main_v243 : Ref sig .tc := ⟨.hbm, 439, rfl⟩
abbrev main_v244 : Ref sig .tc := ⟨.hbm, 440, rfl⟩
abbrev main_v245 : Ref sig .tc := ⟨.hbm, 441, rfl⟩
abbrev main_v246 : Ref sig .tc := ⟨.hbm, 442, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  concatenates_S100000x128_S100000x128_S100000x128_S100000x128_S100000x128_S100000x640_d1 : Shape.Concatenates [S100000x128, S100000x128, S100000x128, S100000x128, S100000x128] S100000x640 1
  bcast_S_S64x640 : S_.BroadcastsInDim S64x640 (![] : Fin 0 → Fin S64x640.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x640_S100000x1_S100000x640_1_0_0_1_wf : ScatterDims.WF S64x640 S100000x1 S100000x640 [1] [0] [0] 1
  dot_S64x640_S640x256_S64x256_1_0_0_1_n_n_wf : DotDims.WF S64x640 S640x256 S64x256 [1] [0] [0] [1] [] []
  dot_S64x256_S256x10_S64x10_1_0_0_1_n_n_wf : DotDims.WF S64x256 S256x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x640_S100000x1_S100000x640_1_0_0_1 : ScatterDims S64x640 S100000x1 S100000x640 where
  updateWindowDims := [1]
  insertedWindowDims := [0]
  scatterDimsToOperandDims := [0]
  indexVectorDim := 1
  wf := scatter_S64x640_S100000x1_S100000x640_1_0_0_1_wf
def dot_S64x640_S640x256_S64x256_1_0_0_1_n_n : DotDims S64x640 S640x256 S64x256 where
  lhsContracting := [1]
  rhsContracting := [0]
  lhsNonContracting := [0]
  rhsNonContracting := [1]
  lhsBatch := []
  rhsBatch := []
  wf := dot_S64x640_S640x256_S64x256_1_0_0_1_n_n_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.K.RegA0.lean ====
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of @main: the first pass of a GIN layer (`cc0__pass_a_kernel`), at the entry contents `V`

The body at grid point `t` computes, from the seven input blocks, the rows `h_pre` of tile `t` before batch
normalisation (the payload `k0_pay5`), stores them into output window 7, and adds their column sums and column
sums of squares into two scratch rows that live across the grid (`k0_pay1`, `k0_pay2`), which the first point
zeroes beforehand (`k0_pay3`, `k0_pay4`); each point copies the two running rows into output windows 8 and 9,
which the pipeline writes back after the last point only. So the invariant carries the scratch contents point by
point. -/

/-- The zero offsets of a whole-buffer rectangle of rank 2, as a constant function. -/
theorem hz0 : (![0, 0] : Fin 2 → Nat) = fun _ => 0 := funext fun a => by fin_cases a <;> rfl

/-- One store through the whole-buffer rectangle, made LAST, leaves its payload: the rectangle covers every index. -/
theorem read_writes_cons_whole0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole0 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA0 : Rect S1x128 := Rect.unit (s := S1x128) ![0, 0] S1x128.size inb_S1x128_S1x128_0_0
abbrev rB0 : Rect S5000x128 := Rect.unit (s := S5000x128) ![0, 0] S5000x128.size inb_S5000x128_S5000x128_0_0
abbrev rC0 : Rect S128x128 := Rect.unit (s := S128x128) ![0, 0] S128x128.size inb_S128x128_S128x128_0_0

/-- A load through a whole-buffer rectangle reads the contents. -/
theorem ldA0 (x : Vec F S1x128 .f32) : View.ld x rA0 = x := View.ld_unit_zero hz0 _ x
theorem ldB0 (x : Vec F S5000x128 .f32) : View.ld x rB0 = x := View.ld_unit_zero hz0 _ x
theorem ldC0 (x : Vec F S128x128 .f32) : View.ld x rC0 = x := View.ld_unit_zero hz0 _ x

/-- The rows before batch normalisation as the body computes them, from what its seven loads read. -/
def preL0 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k0_pay5 (View.ld x0 rA0) (View.ld x1 rB0) (View.ld x2 rB0) (View.ld x3 rC0) (View.ld x4 rA0) (View.ld x5 rC0) (View.ld x6 rA0)

/-- The loads read the whole blocks. -/
theorem preL0_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL0 x0 x1 x2 x3 x4 x5 x6 = k0_pay5 x0 x1 x2 x3 x4 x5 x6 := by
  unfold preL0; rw [ldA0, ldB0, ldB0, ldC0, ldA0, ldC0, ldA0]

/-! ## The body's branch: the reset of the two running rows at the first point -/

/-- The condition of the body's `scf.if` (`k0_h1`), from the grid coordinates: the point is the first. -/
abbrev cond0 (i : grid0.Coords) : Prop := (Scalar.cmpi .ne (Scalar.extui (Scalar.cmpi .eq (BitVec.ofNat 32 (i 0).val) 0#32)) 0#32) = 1#1

/-- It holds at point 0 only — decided over the grid. -/
theorem hcond0 : ∀ t : Fin cfg0.N, cond0 (grid0.coords t) ↔ t.val % 20 = 0 :=
  (by decide +kernel : ∀ t : Fin grid0.N, cond0 (grid0.coords t) ↔ t.val % 20 = 0)

/-! ## The body's triples, one per case of the branch -/

set_option maxHeartbeats 4000000 in
/-- The run of the body at a later point, the loads spelt through their rectangles (`preL0`, `View.ld`): the printed functions
    are their skeletons, which the executor runs through the part call and the decided branch; each buffer the body
    stores into ends at its last store's payload, the store covering it. -/
theorem sound_kernel0_later_ld (c : Dev nD) (E : Set ℕ) (i : grid0.Coords) (hc : ¬cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL0 x0 x1 x2 x3 x4 x5 x6)
            ∗ owns (c : Thread nD τ) arg9 fullShare (k0_pay1 (preL0 x0 x1 x2 x3 x4 x5 x6) (View.ld s0 rA0)) ∗ owns (c : Thread nD τ) arg10 fullShare (k0_pay2 (preL0 x0 x1 x2 x3 x4 x5 x6) (View.ld s1 rA0))
            ∗ owns (c : Thread nD τ) arg11 fullShare (k0_pay1 (preL0 x0 x1 x2 x3 x4 x5 x6) (View.ld s0 rA0)) ∗ owns (c : Thread nD τ) arg12 fullShare (k0_pay2 (preL0 x0 x1 x2 x3 x4 x5 x6) (View.ld s1 rA0))) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  simp only [cc0__pass_a_kernel_eq_skeleton]; unfold cc0__pass_a_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole0 _ _ hz0 _ _ _).trans ?_
    (try sl_unfold_words)
    (repeat rw [readCov_cons_whole0])
    (try rfl)
  isplitl [H8]
  · iexists _; isplitr
    swap; · iexact H8
    ipureintro
    refine (read_writes_cons_whole0 _ _ hz0 _ _ _).trans ?_
    (try sl_unfold_words)
    (repeat rw [readCov_cons_whole0])
    (try rfl)
  isplitl [H9]
  · iexists _; isplitr
    swap; · iexact H9
    ipureintro
    refine (read_writes_cons_whole0 _ _ hz0 _ _ _).trans ?_
    (try sl_unfold_words)
    (repeat rw [readCov_cons_whole0])
    (try rfl)
  isplitl [HS0]
  · iexists _; isplitr
    swap; · iexact HS0
    ipureintro
    refine (read_writes_cons_whole0 _ _ hz0 _ _ _).trans ?_
    (try sl_unfold_words)
    (repeat rw [readCov_cons_whole0])
    (try rfl)
  iexists _; isplitr
  swap; · iexact HS1
  ipureintro
  refine (read_writes_cons_whole0 _ _ hz0 _ _ _).trans ?_
  (try sl_unfold_words)
  (repeat rw [readCov_cons_whole0])
  (try rfl)

/-- AT A LATER POINT (the branch not taken): on whole memrefs, the inputs' at read contents `xW`, the outputs' at
    anything and the two running rows at `s0`, `s1`, the body runs to the continuation holding the inputs as they
    were, output 7 at the rows `k0_pay5` of the inputs, and both the scratch rows and outputs 8, 9 at the running
    rows with this tile's column sums (`k0_pay1`) and column sums of squares (`k0_pay2`) added. -/
theorem sound_kernel0_later (c : Dev nD) (E : Set ℕ) (i : grid0.Coords) (hc : ¬cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6)
            ∗ owns (c : Thread nD τ) arg9 fullShare (k0_pay1 (k0_pay5 x0 x1 x2 x3 x4 x5 x6) s0) ∗ owns (c : Thread nD τ) arg10 fullShare (k0_pay2 (k0_pay5 x0 x1 x2 x3 x4 x5 x6) s1)
            ∗ owns (c : Thread nD τ) arg11 fullShare (k0_pay1 (k0_pay5 x0 x1 x2 x3 x4 x5 x6) s0) ∗ owns (c : Thread nD τ) arg12 fullShare (k0_pay2 (k0_pay5 x0 x1 x2 x3 x4 x5 x6) s1)) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  have h := sound_kernel0_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL0_eq, ldA0, ldA0] at h
  exact h

set_option maxHeartbeats 4000000 in
/-- The run of the body at the first point, the loads spelt through their rectangles (`preL0`, `View.ld`): the printed functions
    are their skeletons, which the executor runs through the part call and the decided branch; each buffer the body
    stores into ends at its last store's payload, the store covering it. -/
theorem sound_kernel0_first_ld (c : Dev nD) (E : Set ℕ) (i : grid0.Coords) (hc : cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL0 x0 x1 x2 x3 x4 x5 x6)
            ∗ owns (c : Thread nD τ) arg9 fullShare (k0_pay1 (preL0 x0 x1 x2 x3 x4 x5 x6) (k0_pay3 (F := F))) ∗ owns (c : Thread nD τ) arg10 fullShare (k0_pay2 (preL0 x0 x1 x2 x3 x4 x5 x6) (k0_pay4 (F := F)))
            ∗ owns (c : Thread nD τ) arg11 fullShare (k0_pay1 (preL0 x0 x1 x2 x3 x4 x5 x6) (k0_pay3 (F := F))) ∗ owns (c : Thread nD τ) arg12 fullShare (k0_pay2 (preL0 x0 x1 x2 x3 x4 x5 x6) (k0_pay4 (F := F)))) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  simp only [cc0__pass_a_kernel_eq_skeleton]; unfold cc0__pass_a_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole0 _ _ hz0 _ _ _).trans ?_
    (try sl_unfold_words)
    (repeat rw [readCov_cons_whole0])
    (try rfl)
  isplitl [H8]
  · iexists _; isplitr
    swap; · iexact H8
    ipureintro
    refine (read_writes_cons_whole0 _ _ hz0 _ _ _).trans ?_
    (try sl_unfold_words)
    (repeat rw [readCov_cons_whole0])
    (try rfl)
  isplitl [H9]
  · iexists _; isplitr
    swap; · iexact H9
    ipureintro
    refine (read_writes_cons_whole0 _ _ hz0 _ _ _).trans ?_
    (try sl_unfold_words)
    (repeat rw [readCov_cons_whole0])
    (try rfl)
  isplitl [HS0]
  · iexists _; isplitr
    swap; · iexact HS0
    ipureintro
    refine (read_writes_cons_whole0 _ _ hz0 _ _ _).trans ?_
    (try sl_unfold_words)
    (repeat rw [readCov_cons_whole0])
    (try rfl)
  iexists _; isplitr
  swap; · iexact HS1
  ipureintro
  refine (read_writes_cons_whole0 _ _ hz0 _ _ _).trans ?_
  (try sl_unfold_words)
  (repeat rw [readCov_cons_whole0])
  (try rfl)

/-- AT THE FIRST POINT (the branch taken): the two scratch rows, found at anything, are zeroed (`k0_pay3`,
    `k0_pay4`) before the accumulation, so the body leaves them, and outputs 8 and 9, at this tile's sums added to
    the zero rows. -/
theorem sound_kernel0_first (c : Dev nD) (E : Set ℕ) (i : grid0.Coords) (hc : cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6)
            ∗ owns (c : Thread nD τ) arg9 fullShare (k0_pay1 (k0_pay5 x0 x1 x2 x3 x4 x5 x6) (k0_pay3 (F := F))) ∗ owns (c : Thread nD τ) arg10 fullShare (k0_pay2 (k0_pay5 x0 x1 x2 x3 x4 x5 x6) (k0_pay4 (F := F)))
            ∗ owns (c : Thread nD τ) arg11 fullShare (k0_pay1 (k0_pay5 x0 x1 x2 x3 x4 x5 x6) (k0_pay3 (F := F))) ∗ owns (c : Thread nD τ) arg12 fullShare (k0_pay2 (k0_pay5 x0 x1 x2 x3 x4 x5 x6) (k0_pay4 (F := F)))) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  have h := sound_kernel0_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL0_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for ANY proof
    data whose array is `V`'s (`hA`) and whose body leaves the block in place (`hafter`): an unfetched window's block
    index has not moved; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the points compute -/

/-- The rows of tile `t` before batch normalisation: the body's payload at the seven input blocks of point `t`. -/
def hpre0 (c : Dev nD) (t : Fin cfg0.N) : Vec F S5000x128 .f32 :=
  k0_pay5 (iblk0 V c 0 t) (iblk0 V c 1 t) (iblk0 V c 2 t) (iblk0 V c 3 t) (iblk0 V c 4 t) (iblk0 V c 5 t) (iblk0 V c 6 t)

/-- The running row of column sums AFTER `n` points: the zero row, then each tile's column sums added in point order. -/
def sumAt0 (c : Dev nD) : ℕ → Vec F S1x128 .f32
  | 0 => k0_pay3
  | n + 1 => if h : n < cfg0.N then k0_pay1 (hpre0 V c ⟨n, h⟩) (sumAt0 c n) else sumAt0 c n

/-- The running row of column sums of squares AFTER `n` points, likewise. -/
def sqAt0 (c : Dev nD) : ℕ → Vec F S1x128 .f32
  | 0 => k0_pay4
  | n + 1 => if h : n < cfg0.N then k0_pay2 (hpre0 V c ⟨n, h⟩) (sqAt0 c n) else sqAt0 c n

theorem sumAt0_zero (c : Dev nD) : sumAt0 V c 0 = k0_pay3 := rfl
theorem sqAt0_zero (c : Dev nD) : sqAt0 V c 0 = k0_pay4 := rfl

/-- After point `t` the running sums are the previous ones with tile `t`'s column sums added. -/
theorem sumAt0_succ (c : Dev nD) (t : Fin cfg0.N) :
    sumAt0 V c (t.val + 1) = k0_pay1 (hpre0 V c t) (sumAt0 V c t.val) := by
  rw [sumAt0, dif_pos t.isLt]
theorem sqAt0_succ (c : Dev nD) (t : Fin cfg0.N) :
    sqAt0 V c (t.val + 1) = k0_pay2 (hpre0 V c t) (sqAt0 V c t.val) := by
  rw [sqAt0, dif_pos t.isLt]

/-! ## The invariant: the two running rows, point by point -/

/-- The scratch operands: whole scoped buffers of the kernel's own, passed beside the windows. -/
abbrev sc0_0 : Memref sig .tc .vmem S1x128 .f32 := Memref.whole cc0_scratch0
abbrev sc0_1 : Memref sig .tc .vmem S1x128 .f32 := Memref.whole cc0_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS0 (c : Dev nD) : ℕ → sProp 𝕄
  | 0 => Pipeline.ΦA spec0 c
  | n + 1 => iprop(iprop(iprop(owns (c : Thread nD τ) sc0_0 fullShare (sumAt0 V c (n + 1)) ∗ owns (c : Thread nD τ) sc0_1 fullShare (sqAt0 V c (n + 1)))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) : PhiS0 V c 0 = Pipeline.ΦA spec0 c := rfl
theorem PhiS0_succ (c : Dev nD) (n : ℕ) :
    PhiS0 V c (n + 1) = iprop(iprop(iprop(owns (c : Thread nD τ) sc0_0 fullShare (sumAt0 V c (n + 1)) ∗ owns (c : Thread nD τ) sc0_1 fullShare (sqAt0 V c (n + 1)))
      ∗ Pipeline.scopedRestBut (Ix := Unit) (Name := ℕ) (U := UR sig nD τ) (Lvl := ℕ) (Val := Elt F) spec0 c [cc0_scratch0, cc0_scratch1]) ∗ (∃ r, prngReg c r)) := rfl

/-- The class invariant with the two scratch operands as memrefs owned at some contents. -/
theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [sc0_0, sc0_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hpre0 V c t
    | ⟨8, _⟩ => sumAt0 V c (t.val + 1)
    | ⟨9, _⟩ => sqAt0 V c (t.val + 1)
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hpre0 V c t := by dsimp only [dat0]
theorem after0_8 (c : Dev nD) (t : Fin cfg0.N) : (dat0 V c).after 8 t = sumAt0 V c (t.val + 1) := by dsimp only [dat0]
theorem after0_9 (c : Dev nD) (t : Fin cfg0.N) : (dat0 V c).after 9 t = sqAt0 V c (t.val + 1) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at a point's start and end, restated at the point's number. -/
theorem Phi0_castSucc (c : Dev nD) (t : Fin cfg0.N) : (dat0 V c).Φ t.castSucc = PhiS0 V c t.val := rfl
theorem Phi0_succ (c : Dev nD) (t : Fin cfg0.N) : (dat0 V c).Φ t.succ = PhiS0 V c (t.val + 1) := rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9,
    Phi0_castSucc, Phi0_succ, PhiS0_succ, sumAt0_succ, sqAt0_succ]
  have hN : t.val < 20 := lt_of_lt_of_eq t.isLt (show cfg0.N = 20 from N_0)
  by_cases hz : t.val = 0
  · rw [hz, PhiS0_zero, PhiA0_eq, sumAt0_zero, sqAt0_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_first c Set.univ (grid0.coords t) ((hcond0 t).mpr (by omega)) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS0_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_later c Set.univ (grid0.coords t) (fun h => by have := (hcond0 t).mp h; omega) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      (sumAt0 V c (n + 1)) (sqAt0 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant at the region's entry, out of it at its exit -/

/-- What the region hands the kernel — the generator register at some state and the scoped rest at any contents —
    is the invariant before the first point. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- After the last point the invariant gives them back: the running rows' named contents are forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (19 + 1) from rfl, PhiS0_succ, scopedRest0_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.Kernel.Hand

end
-- ==== Proof.K.RegA2.lean ====
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of @main: the first pass of a GIN layer (`cc2__pass_a_kernel`), at the entry contents `V`

The body at grid point `t` computes, from the seven input blocks, the rows `h_pre` of tile `t` before batch
normalisation (the payload `k2_pay5`), stores them into output window 7, and adds their column sums and column
sums of squares into two scratch rows that live across the grid (`k2_pay1`, `k2_pay2`), which the first point
zeroes beforehand (`k2_pay3`, `k2_pay4`); each point copies the two running rows into output windows 8 and 9,
which the pipeline writes back after the last point only. So the invariant carries the scratch contents point by
point. -/

/-- The zero offsets of a whole-buffer rectangle of rank 2, as a constant function. -/
theorem hz2 : (![0, 0] : Fin 2 → Nat) = fun _ => 0 := funext fun a => by fin_cases a <;> rfl

/-- One store through the whole-buffer rectangle, made LAST, leaves its payload: the rectangle covers every index. -/
theorem read_writes_cons_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole2 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA2 : Rect S1x128 := Rect.unit (s := S1x128) ![0, 0] S1x128.size inb_S1x128_S1x128_0_0
abbrev rB2 : Rect S5000x128 := Rect.unit (s := S5000x128) ![0, 0] S5000x128.size inb_S5000x128_S5000x128_0_0
abbrev rC2 : Rect S128x128 := Rect.unit (s := S128x128) ![0, 0] S128x128.size inb_S128x128_S128x128_0_0

/-- A load through a whole-buffer rectangle reads the contents. -/
theorem ldA2 (x : Vec F S1x128 .f32) : View.ld x rA2 = x := View.ld_unit_zero hz2 _ x
theorem ldB2 (x : Vec F S5000x128 .f32) : View.ld x rB2 = x := View.ld_unit_zero hz2 _ x
theorem ldC2 (x : Vec F S128x128 .f32) : View.ld x rC2 = x := View.ld_unit_zero hz2 _ x

/-- The rows before batch normalisation as the body computes them, from what its seven loads read. -/
def preL2 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k2_pay5 (View.ld x0 rA2) (View.ld x1 rB2) (View.ld x2 rB2) (View.ld x3 rC2) (View.ld x4 rA2) (View.ld x5 rC2) (View.ld x6 rA2)

/-- The loads read the whole blocks. -/
theorem preL2_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL2 x0 x1 x2 x3 x4 x5 x6 = k2_pay5 x0 x1 x2 x3 x4 x5 x6 := by
  unfold preL2; rw [ldA2, ldB2, ldB2, ldC2, ldA2, ldC2, ldA2]

/-! ## The body's branch: the reset of the two running rows at the first point -/

/-- The condition of the body's `scf.if` (`k2_h1`), from the grid coordinates: the point is the first. -/
abbrev cond2 (i : grid2.Coords) : Prop := (Scalar.cmpi .ne (Scalar.extui (Scalar.cmpi .eq (BitVec.ofNat 32 (i 0).val) 0#32)) 0#32) = 1#1

/-- It holds at point 0 only — decided over the grid. -/
theorem hcond2 : ∀ t : Fin cfg2.N, cond2 (grid2.coords t) ↔ t.val % 20 = 0 :=
  (by decide +kernel : ∀ t : Fin grid2.N, cond2 (grid2.coords t) ↔ t.val % 20 = 0)

/-! ## The body's triples, one per case of the branch -/

set_option maxHeartbeats 4000000 in
/-- The run of the body at a later point, the loads spelt through their rectangles (`preL2`, `View.ld`): the printed functions
    are their skeletons, which the executor runs through the part call and the decided branch; each buffer the body
    stores into ends at its last store's payload, the store covering it. -/
theorem sound_kernel2_later_ld (c : Dev nD) (E : Set ℕ) (i : grid2.Coords) (hc : ¬cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL2 x0 x1 x2 x3 x4 x5 x6)
            ∗ owns (c : Thread nD τ) arg9 fullShare (k2_pay1 (preL2 x0 x1 x2 x3 x4 x5 x6) (View.ld s0 rA2)) ∗ owns (c : Thread nD τ) arg10 fullShare (k2_pay2 (preL2 x0 x1 x2 x3 x4 x5 x6) (View.ld s1 rA2))
            ∗ owns (c : Thread nD τ) arg11 fullShare (k2_pay1 (preL2 x0 x1 x2 x3 x4 x5 x6) (View.ld s0 rA2)) ∗ owns (c : Thread nD τ) arg12 fullShare (k2_pay2 (preL2 x0 x1 x2 x3 x4 x5 x6) (View.ld s1 rA2))) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  simp only [cc2__pass_a_kernel_eq_skeleton]; unfold cc2__pass_a_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole2 _ _ hz2 _ _ _).trans ?_
    (try sl_unfold_words)
    (repeat rw [readCov_cons_whole2])
    (try rfl)
  isplitl [H8]
  · iexists _; isplitr
    swap; · iexact H8
    ipureintro
    refine (read_writes_cons_whole2 _ _ hz2 _ _ _).trans ?_
    (try sl_unfold_words)
    (repeat rw [readCov_cons_whole2])
    (try rfl)
  isplitl [H9]
  · iexists _; isplitr
    swap; · iexact H9
    ipureintro
    refine (read_writes_cons_whole2 _ _ hz2 _ _ _).trans ?_
    (try sl_unfold_words)
    (repeat rw [readCov_cons_whole2])
    (try rfl)
  isplitl [HS0]
  · iexists _; isplitr
    swap; · iexact HS0
    ipureintro
    refine (read_writes_cons_whole2 _ _ hz2 _ _ _).trans ?_
    (try sl_unfold_words)
    (repeat rw [readCov_cons_whole2])
    (try rfl)
  iexists _; isplitr
  swap; · iexact HS1
  ipureintro
  refine (read_writes_cons_whole2 _ _ hz2 _ _ _).trans ?_
  (try sl_unfold_words)
  (repeat rw [readCov_cons_whole2])
  (try rfl)

/-- AT A LATER POINT (the branch not taken): on whole memrefs, the inputs' at read contents `xW`, the outputs' at
    anything and the two running rows at `s0`, `s1`, the body runs to the continuation holding the inputs as they
    were, output 7 at the rows `k2_pay5` of the inputs, and both the scratch rows and outputs 8, 9 at the running
    rows with this tile's column sums (`k2_pay1`) and column sums of squares (`k2_pay2`) added. -/
theorem sound_kernel2_later (c : Dev nD) (E : Set ℕ) (i : grid2.Coords) (hc : ¬cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6)
            ∗ owns (c : Thread nD τ) arg9 fullShare (k2_pay1 (k2_pay5 x0 x1 x2 x3 x4 x5 x6) s0) ∗ owns (c : Thread nD τ) arg10 fullShare (k2_pay2 (k2_pay5 x0 x1 x2 x3 x4 x5 x6) s1)
            ∗ owns (c : Thread nD τ) arg11 fullShare (k2_pay1 (k2_pay5 x0 x1 x2 x3 x4 x5 x6) s0) ∗ owns (c : Thread nD τ) arg12 fullShare (k2_pay2 (k2_pay5 x0 x1 x2 x3 x4 x5 x6) s1)) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  have h := sound_kernel2_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL2_eq, ldA2, ldA2] at h
  exact h

set_option maxHeartbeats 4000000 in
/-- The run of the body at the first point, the loads spelt through their rectangles (`preL2`, `View.ld`): the printed functions
    are their skeletons, which the executor runs through the part call and the decided branch; each buffer the body
    stores into ends at its last store's payload, the store covering it. -/
theorem sound_kernel2_first_ld (c : Dev nD) (E : Set ℕ) (i : grid2.Coords) (hc : cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL2 x0 x1 x2 x3 x4 x5 x6)
            ∗ owns (c : Thread nD τ) arg9 fullShare (k2_pay1 (preL2 x0 x1 x2 x3 x4 x5 x6) (k2_pay3 (F := F))) ∗ owns (c : Thread nD τ) arg10 fullShare (k2_pay2 (preL2 x0 x1 x2 x3 x4 x5 x6) (k2_pay4 (F := F)))
            ∗ owns (c : Thread nD τ) arg11 fullShare (k2_pay1 (preL2 x0 x1 x2 x3 x4 x5 x6) (k2_pay3 (F := F))) ∗ owns (c : Thread nD τ) arg12 fullShare (k2_pay2 (preL2 x0 x1 x2 x3 x4 x5 x6) (k2_pay4 (F := F)))) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  simp only [cc2__pass_a_kernel_eq_skeleton]; unfold cc2__pass_a_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole2 _ _ hz2 _ _ _).trans ?_
    (try sl_unfold_words)
    (repeat rw [readCov_cons_whole2])
    (try rfl)
  isplitl [H8]
  · iexists _; isplitr
    swap; · iexact H8
    ipureintro
    refine (read_writes_cons_whole2 _ _ hz2 _ _ _).trans ?_
    (try sl_unfold_words)
    (repeat rw [readCov_cons_whole2])
    (try rfl)
  isplitl [H9]
  · iexists _; isplitr
    swap; · iexact H9
    ipureintro
    refine (read_writes_cons_whole2 _ _ hz2 _ _ _).trans ?_
    (try sl_unfold_words)
    (repeat rw [readCov_cons_whole2])
    (try rfl)
  isplitl [HS0]
  · iexists _; isplitr
    swap; · iexact HS0
    ipureintro
    refine (read_writes_cons_whole2 _ _ hz2 _ _ _).trans ?_
    (try sl_unfold_words)
    (repeat rw [readCov_cons_whole2])
    (try rfl)
  iexists _; isplitr
  swap; · iexact HS1
  ipureintro
  refine (read_writes_cons_whole2 _ _ hz2 _ _ _).trans ?_
  (try sl_unfold_words)
  (repeat rw [readCov_cons_whole2])
  (try rfl)

/-- AT THE FIRST POINT (the branch taken): the two scratch rows, found at anything, are zeroed (`k2_pay3`,
    `k2_pay4`) before the accumulation, so the body leaves them, and outputs 8 and 9, at this tile's sums added to
    the zero rows. -/
theorem sound_kernel2_first (c : Dev nD) (E : Set ℕ) (i : grid2.Coords) (hc : cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6)
            ∗ owns (c : Thread nD τ) arg9 fullShare (k2_pay1 (k2_pay5 x0 x1 x2 x3 x4 x5 x6) (k2_pay3 (F := F))) ∗ owns (c : Thread nD τ) arg10 fullShare (k2_pay2 (k2_pay5 x0 x1 x2 x3 x4 x5 x6) (k2_pay4 (F := F)))
            ∗ owns (c : Thread nD τ) arg11 fullShare (k2_pay1 (k2_pay5 x0 x1 x2 x3 x4 x5 x6) (k2_pay3 (F := F))) ∗ owns (c : Thread nD τ) arg12 fullShare (k2_pay2 (k2_pay5 x0 x1 x2 x3 x4 x5 x6) (k2_pay4 (F := F)))) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  have h := sound_kernel2_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL2_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for ANY proof
    data whose array is `V`'s (`hA`) and whose body leaves the block in place (`hafter`): an unfetched window's block
    index has not moved; the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the points compute -/

/-- The rows of tile `t` before batch normalisation: the body's payload at the seven input blocks of point `t`. -/
def hpre2 (c : Dev nD) (t : Fin cfg2.N) : Vec F S5000x128 .f32 :=
  k2_pay5 (iblk2 V c 0 t) (iblk2 V c 1 t) (iblk2 V c 2 t) (iblk2 V c 3 t) (iblk2 V c 4 t) (iblk2 V c 5 t) (iblk2 V c 6 t)

/-- The running row of column sums AFTER `n` points: the zero row, then each tile's column sums added in point order. -/
def sumAt2 (c : Dev nD) : ℕ → Vec F S1x128 .f32
  | 0 => k2_pay3
  | n + 1 => if h : n < cfg2.N then k2_pay1 (hpre2 V c ⟨n, h⟩) (sumAt2 c n) else sumAt2 c n

/-- The running row of column sums of squares AFTER `n` points, likewise. -/
def sqAt2 (c : Dev nD) : ℕ → Vec F S1x128 .f32
  | 0 => k2_pay4
  | n + 1 => if h : n < cfg2.N then k2_pay2 (hpre2 V c ⟨n, h⟩) (sqAt2 c n) else sqAt2 c n

theorem sumAt2_zero (c : Dev nD) : sumAt2 V c 0 = k2_pay3 := rfl
theorem sqAt2_zero (c : Dev nD) : sqAt2 V c 0 = k2_pay4 := rfl

/-- After point `t` the running sums are the previous ones with tile `t`'s column sums added. -/
theorem sumAt2_succ (c : Dev nD) (t : Fin cfg2.N) :
    sumAt2 V c (t.val + 1) = k2_pay1 (hpre2 V c t) (sumAt2 V c t.val) := by
  rw [sumAt2, dif_pos t.isLt]
theorem sqAt2_succ (c : Dev nD) (t : Fin cfg2.N) :
    sqAt2 V c (t.val + 1) = k2_pay2 (hpre2 V c t) (sqAt2 V c t.val) := by
  rw [sqAt2, dif_pos t.isLt]

/-! ## The invariant: the two running rows, point by point -/

/-- The scratch operands: whole scoped buffers of the kernel's own, passed beside the windows. -/
abbrev sc2_0 : Memref sig .tc .vmem S1x128 .f32 := Memref.whole cc2_scratch0
abbrev sc2_1 : Memref sig .tc .vmem S1x128 .f32 := Memref.whole cc2_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS2 (c : Dev nD) : ℕ → sProp 𝕄
  | 0 => Pipeline.ΦA spec2 c
  | n + 1 => iprop(iprop(iprop(owns (c : Thread nD τ) sc2_0 fullShare (sumAt2 V c (n + 1)) ∗ owns (c : Thread nD τ) sc2_1 fullShare (sqAt2 V c (n + 1)))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) : PhiS2 V c 0 = Pipeline.ΦA spec2 c := rfl
theorem PhiS2_succ (c : Dev nD) (n : ℕ) :
    PhiS2 V c (n + 1) = iprop(iprop(iprop(owns (c : Thread nD τ) sc2_0 fullShare (sumAt2 V c (n + 1)) ∗ owns (c : Thread nD τ) sc2_1 fullShare (sqAt2 V c (n + 1)))
      ∗ Pipeline.scopedRestBut (Ix := Unit) (Name := ℕ) (U := UR sig nD τ) (Lvl := ℕ) (Val := Elt F) spec2 c [cc2_scratch0, cc2_scratch1]) ∗ (∃ r, prngReg c r)) := rfl

/-- The class invariant with the two scratch operands as memrefs owned at some contents. -/
theorem PhiA2_eq (c : Dev nD) :
    (Pipeline.ΦA spec2 c : sProp 𝕄)
      = iprop(iprop(iprop((∃ d, owns (c : Thread nD τ) sc2_0 fullShare d) ∗ (∃ d, owns (c : Thread nD τ) sc2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [sc2_0, sc2_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => hpre2 V c t
    | ⟨8, _⟩ => sumAt2 V c (t.val + 1)
    | ⟨9, _⟩ => sqAt2 V c (t.val + 1)
  Φ t := PhiS2 V c t.val
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = hpre2 V c t := by dsimp only [dat2]
theorem after2_8 (c : Dev nD) (t : Fin cfg2.N) : (dat2 V c).after 8 t = sumAt2 V c (t.val + 1) := by dsimp only [dat2]
theorem after2_9 (c : Dev nD) (t : Fin cfg2.N) : (dat2 V c).after 9 t = sqAt2 V c (t.val + 1) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The invariant at a point's start and end, restated at the point's number. -/
theorem Phi2_castSucc (c : Dev nD) (t : Fin cfg2.N) : (dat2 V c).Φ t.castSucc = PhiS2 V c t.val := rfl
theorem Phi2_succ (c : Dev nD) (t : Fin cfg2.N) : (dat2 V c).Φ t.succ = PhiS2 V c (t.val + 1) := rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    after2_0, after2_1, after2_2, after2_3, after2_4, after2_5, after2_6, after2_7, after2_8, after2_9,
    Phi2_castSucc, Phi2_succ, PhiS2_succ, sumAt2_succ, sqAt2_succ]
  have hN : t.val < 20 := lt_of_lt_of_eq t.isLt (show cfg2.N = 20 from N_2)
  by_cases hz : t.val = 0
  · rw [hz, PhiS2_zero, PhiA2_eq, sumAt2_zero, sqAt2_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_first c Set.univ (grid2.coords t) ((hcond2 t).mpr (by omega)) _ _ _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS2_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_later c Set.univ (grid2.coords t) (fun h => by have := (hcond2 t).mp h; omega) _ _ _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t)
      (sumAt2 V c (n + 1)) (sqAt2 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant at the region's entry, out of it at its exit -/

/-- What the region hands the kernel — the generator register at some state and the scoped rest at any contents —
    is the invariant before the first point. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- After the last point the invariant gives them back: the running rows' named contents are forgotten. -/
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = PhiS2 V c (19 + 1) from rfl, PhiS2_succ, scopedRest2_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.Kernel.Hand

end
-- ==== Proof.K.RegA4.lean ====
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 of @main: the first pass of a GIN layer (`cc4__pass_a_kernel`), at the entry contents `V`

The body at grid point `t` computes, from the seven input blocks, the rows `h_pre` of tile `t` before batch
normalisation (the payload `k4_pay5`), stores them into output window 7, and adds their column sums and column
sums of squares into two scratch rows that live across the grid (`k4_pay1`, `k4_pay2`), which the first point
zeroes beforehand (`k4_pay3`, `k4_pay4`); each point copies the two running rows into output windows 8 and 9,
which the pipeline writes back after the last point only. So the invariant carries the scratch contents point by
point. -/

/-- The zero offsets of a whole-buffer rectangle of rank 2, as a constant function. -/
theorem hz4 : (![0, 0] : Fin 2 → Nat) = fun _ => 0 := funext fun a => by fin_cases a <;> rfl

/-- One store through the whole-buffer rectangle, made LAST, leaves its payload: the rectangle covers every index. -/
theorem read_writes_cons_whole4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole4 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA4 : Rect S1x128 := Rect.unit (s := S1x128) ![0, 0] S1x128.size inb_S1x128_S1x128_0_0
abbrev rB4 : Rect S5000x128 := Rect.unit (s := S5000x128) ![0, 0] S5000x128.size inb_S5000x128_S5000x128_0_0
abbrev rC4 : Rect S128x128 := Rect.unit (s := S128x128) ![0, 0] S128x128.size inb_S128x128_S128x128_0_0

/-- A load through a whole-buffer rectangle reads the contents. -/
theorem ldA4 (x : Vec F S1x128 .f32) : View.ld x rA4 = x := View.ld_unit_zero hz4 _ x
theorem ldB4 (x : Vec F S5000x128 .f32) : View.ld x rB4 = x := View.ld_unit_zero hz4 _ x
theorem ldC4 (x : Vec F S128x128 .f32) : View.ld x rC4 = x := View.ld_unit_zero hz4 _ x

/-- The rows before batch normalisation as the body computes them, from what its seven loads read. -/
def preL4 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k4_pay5 (View.ld x0 rA4) (View.ld x1 rB4) (View.ld x2 rB4) (View.ld x3 rC4) (View.ld x4 rA4) (View.ld x5 rC4) (View.ld x6 rA4)

/-- The loads read the whole blocks. -/
theorem preL4_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL4 x0 x1 x2 x3 x4 x5 x6 = k4_pay5 x0 x1 x2 x3 x4 x5 x6 := by
  unfold preL4; rw [ldA4, ldB4, ldB4, ldC4, ldA4, ldC4, ldA4]

/-! ## The body's branch: the reset of the two running rows at the first point -/

/-- The condition of the body's `scf.if` (`k4_h1`), from the grid coordinates: the point is the first. -/
abbrev cond4 (i : grid4.Coords) : Prop := (Scalar.cmpi .ne (Scalar.extui (Scalar.cmpi .eq (BitVec.ofNat 32 (i 0).val) 0#32)) 0#32) = 1#1

/-- It holds at point 0 only — decided over the grid. -/
theorem hcond4 : ∀ t : Fin cfg4.N, cond4 (grid4.coords t) ↔ t.val % 20 = 0 :=
  (by decide +kernel : ∀ t : Fin grid4.N, cond4 (grid4.coords t) ↔ t.val % 20 = 0)

/-! ## The body's triples, one per case of the branch -/

set_option maxHeartbeats 4000000 in
/-- The run of the body at a later point, the loads spelt through their rectangles (`preL4`, `View.ld`): the printed functions
    are their skeletons, which the executor runs through the part call and the decided branch; each buffer the body
    stores into ends at its last store's payload, the store covering it. -/
theorem sound_kernel4_later_ld (c : Dev nD) (E : Set ℕ) (i : grid4.Coords) (hc : ¬cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL4 x0 x1 x2 x3 x4 x5 x6)
            ∗ owns (c : Thread nD τ) arg9 fullShare (k4_pay1 (preL4 x0 x1 x2 x3 x4 x5 x6) (View.ld s0 rA4)) ∗ owns (c : Thread nD τ) arg10 fullShare (k4_pay2 (preL4 x0 x1 x2 x3 x4 x5 x6) (View.ld s1 rA4))
            ∗ owns (c : Thread nD τ) arg11 fullShare (k4_pay1 (preL4 x0 x1 x2 x3 x4 x5 x6) (View.ld s0 rA4)) ∗ owns (c : Thread nD τ) arg12 fullShare (k4_pay2 (preL4 x0 x1 x2 x3 x4 x5 x6) (View.ld s1 rA4))) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  simp only [cc4__pass_a_kernel_eq_skeleton]; unfold cc4__pass_a_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole4 _ _ hz4 _ _ _).trans ?_
    (try sl_unfold_words)
    (repeat rw [readCov_cons_whole4])
    (try rfl)
  isplitl [H8]
  · iexists _; isplitr
    swap; · iexact H8
    ipureintro
    refine (read_writes_cons_whole4 _ _ hz4 _ _ _).trans ?_
    (try sl_unfold_words)
    (repeat rw [readCov_cons_whole4])
    (try rfl)
  isplitl [H9]
  · iexists _; isplitr
    swap; · iexact H9
    ipureintro
    refine (read_writes_cons_whole4 _ _ hz4 _ _ _).trans ?_
    (try sl_unfold_words)
    (repeat rw [readCov_cons_whole4])
    (try rfl)
  isplitl [HS0]
  · iexists _; isplitr
    swap; · iexact HS0
    ipureintro
    refine (read_writes_cons_whole4 _ _ hz4 _ _ _).trans ?_
    (try sl_unfold_words)
    (repeat rw [readCov_cons_whole4])
    (try rfl)
  iexists _; isplitr
  swap; · iexact HS1
  ipureintro
  refine (read_writes_cons_whole4 _ _ hz4 _ _ _).trans ?_
  (try sl_unfold_words)
  (repeat rw [readCov_cons_whole4])
  (try rfl)

/-- AT A LATER POINT (the branch not taken): on whole memrefs, the inputs' at read contents `xW`, the outputs' at
    anything and the two running rows at `s0`, `s1`, the body runs to the continuation holding the inputs as they
    were, output 7 at the rows `k4_pay5` of the inputs, and both the scratch rows and outputs 8, 9 at the running
    rows with this tile's column sums (`k4_pay1`) and column sums of squares (`k4_pay2`) added. -/
theorem sound_kernel4_later (c : Dev nD) (E : Set ℕ) (i : grid4.Coords) (hc : ¬cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6)
            ∗ owns (c : Thread nD τ) arg9 fullShare (k4_pay1 (k4_pay5 x0 x1 x2 x3 x4 x5 x6) s0) ∗ owns (c : Thread nD τ) arg10 fullShare (k4_pay2 (k4_pay5 x0 x1 x2 x3 x4 x5 x6) s1)
            ∗ owns (c : Thread nD τ) arg11 fullShare (k4_pay1 (k4_pay5 x0 x1 x2 x3 x4 x5 x6) s0) ∗ owns (c : Thread nD τ) arg12 fullShare (k4_pay2 (k4_pay5 x0 x1 x2 x3 x4 x5 x6) s1)) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  have h := sound_kernel4_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL4_eq, ldA4, ldA4] at h
  exact h

set_option maxHeartbeats 4000000 in
/-- The run of the body at the first point, the loads spelt through their rectangles (`preL4`, `View.ld`): the printed functions
    are their skeletons, which the executor runs through the part call and the decided branch; each buffer the body
    stores into ends at its last store's payload, the store covering it. -/
theorem sound_kernel4_first_ld (c : Dev nD) (E : Set ℕ) (i : grid4.Coords) (hc : cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL4 x0 x1 x2 x3 x4 x5 x6)
            ∗ owns (c : Thread nD τ) arg9 fullShare (k4_pay1 (preL4 x0 x1 x2 x3 x4 x5 x6) (k4_pay3 (F := F))) ∗ owns (c : Thread nD τ) arg10 fullShare (k4_pay2 (preL4 x0 x1 x2 x3 x4 x5 x6) (k4_pay4 (F := F)))
            ∗ owns (c : Thread nD τ) arg11 fullShare (k4_pay1 (preL4 x0 x1 x2 x3 x4 x5 x6) (k4_pay3 (F := F))) ∗ owns (c : Thread nD τ) arg12 fullShare (k4_pay2 (preL4 x0 x1 x2 x3 x4 x5 x6) (k4_pay4 (F := F)))) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  simp only [cc4__pass_a_kernel_eq_skeleton]; unfold cc4__pass_a_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole4 _ _ hz4 _ _ _).trans ?_
    (try sl_unfold_words)
    (repeat rw [readCov_cons_whole4])
    (try rfl)
  isplitl [H8]
  · iexists _; isplitr
    swap; · iexact H8
    ipureintro
    refine (read_writes_cons_whole4 _ _ hz4 _ _ _).trans ?_
    (try sl_unfold_words)
    (repeat rw [readCov_cons_whole4])
    (try rfl)
  isplitl [H9]
  · iexists _; isplitr
    swap; · iexact H9
    ipureintro
    refine (read_writes_cons_whole4 _ _ hz4 _ _ _).trans ?_
    (try sl_unfold_words)
    (repeat rw [readCov_cons_whole4])
    (try rfl)
  isplitl [HS0]
  · iexists _; isplitr
    swap; · iexact HS0
    ipureintro
    refine (read_writes_cons_whole4 _ _ hz4 _ _ _).trans ?_
    (try sl_unfold_words)
    (repeat rw [readCov_cons_whole4])
    (try rfl)
  iexists _; isplitr
  swap; · iexact HS1
  ipureintro
  refine (read_writes_cons_whole4 _ _ hz4 _ _ _).trans ?_
  (try sl_unfold_words)
  (repeat rw [readCov_cons_whole4])
  (try rfl)

/-- AT THE FIRST POINT (the branch taken): the two scratch rows, found at anything, are zeroed (`k4_pay3`,
    `k4_pay4`) before the accumulation, so the body leaves them, and outputs 8 and 9, at this tile's sums added to
    the zero rows. -/
theorem sound_kernel4_first (c : Dev nD) (E : Set ℕ) (i : grid4.Coords) (hc : cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6)
            ∗ owns (c : Thread nD τ) arg9 fullShare (k4_pay1 (k4_pay5 x0 x1 x2 x3 x4 x5 x6) (k4_pay3 (F := F))) ∗ owns (c : Thread nD τ) arg10 fullShare (k4_pay2 (k4_pay5 x0 x1 x2 x3 x4 x5 x6) (k4_pay4 (F := F)))
            ∗ owns (c : Thread nD τ) arg11 fullShare (k4_pay1 (k4_pay5 x0 x1 x2 x3 x4 x5 x6) (k4_pay3 (F := F))) ∗ owns (c : Thread nD τ) arg12 fullShare (k4_pay2 (k4_pay5 x0 x1 x2 x3 x4 x5 x6) (k4_pay4 (F := F)))) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  have h := sound_kernel4_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL4_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for ANY proof
    data whose array is `V`'s (`hA`) and whose body leaves the block in place (`hafter`): an unfetched window's block
    index has not moved; the windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## What the points compute -/

/-- The rows of tile `t` before batch normalisation: the body's payload at the seven input blocks of point `t`. -/
def hpre4 (c : Dev nD) (t : Fin cfg4.N) : Vec F S5000x128 .f32 :=
  k4_pay5 (iblk4 V c 0 t) (iblk4 V c 1 t) (iblk4 V c 2 t) (iblk4 V c 3 t) (iblk4 V c 4 t) (iblk4 V c 5 t) (iblk4 V c 6 t)

/-- The running row of column sums AFTER `n` points: the zero row, then each tile's column sums added in point order. -/
def sumAt4 (c : Dev nD) : ℕ → Vec F S1x128 .f32
  | 0 => k4_pay3
  | n + 1 => if h : n < cfg4.N then k4_pay1 (hpre4 V c ⟨n, h⟩) (sumAt4 c n) else sumAt4 c n

/-- The running row of column sums of squares AFTER `n` points, likewise. -/
def sqAt4 (c : Dev nD) : ℕ → Vec F S1x128 .f32
  | 0 => k4_pay4
  | n + 1 => if h : n < cfg4.N then k4_pay2 (hpre4 V c ⟨n, h⟩) (sqAt4 c n) else sqAt4 c n

theorem sumAt4_zero (c : Dev nD) : sumAt4 V c 0 = k4_pay3 := rfl
theorem sqAt4_zero (c : Dev nD) : sqAt4 V c 0 = k4_pay4 := rfl

/-- After point `t` the running sums are the previous ones with tile `t`'s column sums added. -/
theorem sumAt4_succ (c : Dev nD) (t : Fin cfg4.N) :
    sumAt4 V c (t.val + 1) = k4_pay1 (hpre4 V c t) (sumAt4 V c t.val) := by
  rw [sumAt4, dif_pos t.isLt]
theorem sqAt4_succ (c : Dev nD) (t : Fin cfg4.N) :
    sqAt4 V c (t.val + 1) = k4_pay2 (hpre4 V c t) (sqAt4 V c t.val) := by
  rw [sqAt4, dif_pos t.isLt]

/-! ## The invariant: the two running rows, point by point -/

/-- The scratch operands: whole scoped buffers of the kernel's own, passed beside the windows. -/
abbrev sc4_0 : Memref sig .tc .vmem S1x128 .f32 := Memref.whole cc4_scratch0
abbrev sc4_1 : Memref sig .tc .vmem S1x128 .f32 := Memref.whole cc4_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS4 (c : Dev nD) : ℕ → sProp 𝕄
  | 0 => Pipeline.ΦA spec4 c
  | n + 1 => iprop(iprop(iprop(owns (c : Thread nD τ) sc4_0 fullShare (sumAt4 V c (n + 1)) ∗ owns (c : Thread nD τ) sc4_1 fullShare (sqAt4 V c (n + 1)))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) : PhiS4 V c 0 = Pipeline.ΦA spec4 c := rfl
theorem PhiS4_succ (c : Dev nD) (n : ℕ) :
    PhiS4 V c (n + 1) = iprop(iprop(iprop(owns (c : Thread nD τ) sc4_0 fullShare (sumAt4 V c (n + 1)) ∗ owns (c : Thread nD τ) sc4_1 fullShare (sqAt4 V c (n + 1)))
      ∗ Pipeline.scopedRestBut (Ix := Unit) (Name := ℕ) (U := UR sig nD τ) (Lvl := ℕ) (Val := Elt F) spec4 c [cc4_scratch0, cc4_scratch1]) ∗ (∃ r, prngReg c r)) := rfl

/-- The class invariant with the two scratch operands as memrefs owned at some contents. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sc4_0, sc4_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => hpre4 V c t
    | ⟨8, _⟩ => sumAt4 V c (t.val + 1)
    | ⟨9, _⟩ => sqAt4 V c (t.val + 1)
  Φ t := PhiS4 V c t.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = hpre4 V c t := by dsimp only [dat4]
theorem after4_8 (c : Dev nD) (t : Fin cfg4.N) : (dat4 V c).after 8 t = sumAt4 V c (t.val + 1) := by dsimp only [dat4]
theorem after4_9 (c : Dev nD) (t : Fin cfg4.N) : (dat4 V c).after 9 t = sqAt4 V c (t.val + 1) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- The invariant at a point's start and end, restated at the point's number. -/
theorem Phi4_castSucc (c : Dev nD) (t : Fin cfg4.N) : (dat4 V c).Φ t.castSucc = PhiS4 V c t.val := rfl
theorem Phi4_succ (c : Dev nD) (t : Fin cfg4.N) : (dat4 V c).Φ t.succ = PhiS4 V c (t.val + 1) := rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl,
    after4_0, after4_1, after4_2, after4_3, after4_4, after4_5, after4_6, after4_7, after4_8, after4_9,
    Phi4_castSucc, Phi4_succ, PhiS4_succ, sumAt4_succ, sqAt4_succ]
  have hN : t.val < 20 := lt_of_lt_of_eq t.isLt (show cfg4.N = 20 from N_4)
  by_cases hz : t.val = 0
  · rw [hz, PhiS4_zero, PhiA4_eq, sumAt4_zero, sqAt4_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel4_first c Set.univ (grid4.coords t) ((hcond4 t).mpr (by omega)) _ _ _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS4_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel4_later c Set.univ (grid4.coords t) (fun h => by have := (hcond4 t).mp h; omega) _ _ _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t)
      (sumAt4 V c (n + 1)) (sqAt4 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant at the region's entry, out of it at its exit -/

/-- What the region hands the kernel — the generator register at some state and the scoped rest at any contents —
    is the invariant before the first point. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- After the last point the invariant gives them back: the running rows' named contents are forgotten. -/
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (19 + 1) from rfl, PhiS4_succ, scopedRest4_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.Kernel.Hand

end
-- ==== Proof.K.RegA6.lean ====
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 of @main: the first pass of a GIN layer (`cc6__pass_a_kernel`), at the entry contents `V`

The body at grid point `t` computes, from the seven input blocks, the rows `h_pre` of tile `t` before batch
normalisation (the payload `k6_pay5`), stores them into output window 7, and adds their column sums and column
sums of squares into two scratch rows that live across the grid (`k6_pay1`, `k6_pay2`), which the first point
zeroes beforehand (`k6_pay3`, `k6_pay4`); each point copies the two running rows into output windows 8 and 9,
which the pipeline writes back after the last point only. So the invariant carries the scratch contents point by
point. -/

/-- The zero offsets of a whole-buffer rectangle of rank 2, as a constant function. -/
theorem hz6 : (![0, 0] : Fin 2 → Nat) = fun _ => 0 := funext fun a => by fin_cases a <;> rfl

/-- One store through the whole-buffer rectangle, made LAST, leaves its payload: the rectangle covers every index. -/
theorem read_writes_cons_whole6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole6 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA6 : Rect S1x128 := Rect.unit (s := S1x128) ![0, 0] S1x128.size inb_S1x128_S1x128_0_0
abbrev rB6 : Rect S5000x128 := Rect.unit (s := S5000x128) ![0, 0] S5000x128.size inb_S5000x128_S5000x128_0_0
abbrev rC6 : Rect S128x128 := Rect.unit (s := S128x128) ![0, 0] S128x128.size inb_S128x128_S128x128_0_0

/-- A load through a whole-buffer rectangle reads the contents. -/
theorem ldA6 (x : Vec F S1x128 .f32) : View.ld x rA6 = x := View.ld_unit_zero hz6 _ x
theorem ldB6 (x : Vec F S5000x128 .f32) : View.ld x rB6 = x := View.ld_unit_zero hz6 _ x
theorem ldC6 (x : Vec F S128x128 .f32) : View.ld x rC6 = x := View.ld_unit_zero hz6 _ x

/-- The rows before batch normalisation as the body computes them, from what its seven loads read. -/
def preL6 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k6_pay5 (View.ld x0 rA6) (View.ld x1 rB6) (View.ld x2 rB6) (View.ld x3 rC6) (View.ld x4 rA6) (View.ld x5 rC6) (View.ld x6 rA6)

/-- The loads read the whole blocks. -/
theorem preL6_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL6 x0 x1 x2 x3 x4 x5 x6 = k6_pay5 x0 x1 x2 x3 x4 x5 x6 := by
  unfold preL6; rw [ldA6, ldB6, ldB6, ldC6, ldA6, ldC6, ldA6]

/-! ## The body's branch: the reset of the two running rows at the first point -/

/-- The condition of the body's `scf.if` (`k6_h1`), from the grid coordinates: the point is the first. -/
abbrev cond6 (i : grid6.Coords) : Prop := (Scalar.cmpi .ne (Scalar.extui (Scalar.cmpi .eq (BitVec.ofNat 32 (i 0).val) 0#32)) 0#32) = 1#1

/-- It holds at point 0 only — decided over the grid. -/
theorem hcond6 : ∀ t : Fin cfg6.N, cond6 (grid6.coords t) ↔ t.val % 20 = 0 :=
  (by decide +kernel : ∀ t : Fin grid6.N, cond6 (grid6.coords t) ↔ t.val % 20 = 0)

/-! ## The body's triples, one per case of the branch -/

set_option maxHeartbeats 4000000 in
/-- The run of the body at a later point, the loads spelt through their rectangles (`preL6`, `View.ld`): the printed functions
    are their skeletons, which the executor runs through the part call and the decided branch; each buffer the body
    stores into ends at its last store's payload, the store covering it. -/
theorem sound_kernel6_later_ld (c : Dev nD) (E : Set ℕ) (i : grid6.Coords) (hc : ¬cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL6 x0 x1 x2 x3 x4 x5 x6)
            ∗ owns (c : Thread nD τ) arg9 fullShare (k6_pay1 (preL6 x0 x1 x2 x3 x4 x5 x6) (View.ld s0 rA6)) ∗ owns (c : Thread nD τ) arg10 fullShare (k6_pay2 (preL6 x0 x1 x2 x3 x4 x5 x6) (View.ld s1 rA6))
            ∗ owns (c : Thread nD τ) arg11 fullShare (k6_pay1 (preL6 x0 x1 x2 x3 x4 x5 x6) (View.ld s0 rA6)) ∗ owns (c : Thread nD τ) arg12 fullShare (k6_pay2 (preL6 x0 x1 x2 x3 x4 x5 x6) (View.ld s1 rA6))) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  simp only [cc6__pass_a_kernel_eq_skeleton]; unfold cc6__pass_a_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole6 _ _ hz6 _ _ _).trans ?_
    (try sl_unfold_words)
    (repeat rw [readCov_cons_whole6])
    (try rfl)
  isplitl [H8]
  · iexists _; isplitr
    swap; · iexact H8
    ipureintro
    refine (read_writes_cons_whole6 _ _ hz6 _ _ _).trans ?_
    (try sl_unfold_words)
    (repeat rw [readCov_cons_whole6])
    (try rfl)
  isplitl [H9]
  · iexists _; isplitr
    swap; · iexact H9
    ipureintro
    refine (read_writes_cons_whole6 _ _ hz6 _ _ _).trans ?_
    (try sl_unfold_words)
    (repeat rw [readCov_cons_whole6])
    (try rfl)
  isplitl [HS0]
  · iexists _; isplitr
    swap; · iexact HS0
    ipureintro
    refine (read_writes_cons_whole6 _ _ hz6 _ _ _).trans ?_
    (try sl_unfold_words)
    (repeat rw [readCov_cons_whole6])
    (try rfl)
  iexists _; isplitr
  swap; · iexact HS1
  ipureintro
  refine (read_writes_cons_whole6 _ _ hz6 _ _ _).trans ?_
  (try sl_unfold_words)
  (repeat rw [readCov_cons_whole6])
  (try rfl)

/-- AT A LATER POINT (the branch not taken): on whole memrefs, the inputs' at read contents `xW`, the outputs' at
    anything and the two running rows at `s0`, `s1`, the body runs to the continuation holding the inputs as they
    were, output 7 at the rows `k6_pay5` of the inputs, and both the scratch rows and outputs 8, 9 at the running
    rows with this tile's column sums (`k6_pay1`) and column sums of squares (`k6_pay2`) added. -/
theorem sound_kernel6_later (c : Dev nD) (E : Set ℕ) (i : grid6.Coords) (hc : ¬cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k6_pay5 x0 x1 x2 x3 x4 x5 x6)
            ∗ owns (c : Thread nD τ) arg9 fullShare (k6_pay1 (k6_pay5 x0 x1 x2 x3 x4 x5 x6) s0) ∗ owns (c : Thread nD τ) arg10 fullShare (k6_pay2 (k6_pay5 x0 x1 x2 x3 x4 x5 x6) s1)
            ∗ owns (c : Thread nD τ) arg11 fullShare (k6_pay1 (k6_pay5 x0 x1 x2 x3 x4 x5 x6) s0) ∗ owns (c : Thread nD τ) arg12 fullShare (k6_pay2 (k6_pay5 x0 x1 x2 x3 x4 x5 x6) s1)) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  have h := sound_kernel6_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL6_eq, ldA6, ldA6] at h
  exact h

set_option maxHeartbeats 4000000 in
/-- The run of the body at the first point, the loads spelt through their rectangles (`preL6`, `View.ld`): the printed functions
    are their skeletons, which the executor runs through the part call and the decided branch; each buffer the body
    stores into ends at its last store's payload, the store covering it. -/
theorem sound_kernel6_first_ld (c : Dev nD) (E : Set ℕ) (i : grid6.Coords) (hc : cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL6 x0 x1 x2 x3 x4 x5 x6)
            ∗ owns (c : Thread nD τ) arg9 fullShare (k6_pay1 (preL6 x0 x1 x2 x3 x4 x5 x6) (k6_pay3 (F := F))) ∗ owns (c : Thread nD τ) arg10 fullShare (k6_pay2 (preL6 x0 x1 x2 x3 x4 x5 x6) (k6_pay4 (F := F)))
            ∗ owns (c : Thread nD τ) arg11 fullShare (k6_pay1 (preL6 x0 x1 x2 x3 x4 x5 x6) (k6_pay3 (F := F))) ∗ owns (c : Thread nD τ) arg12 fullShare (k6_pay2 (preL6 x0 x1 x2 x3 x4 x5 x6) (k6_pay4 (F := F)))) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  simp only [cc6__pass_a_kernel_eq_skeleton]; unfold cc6__pass_a_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole6 _ _ hz6 _ _ _).trans ?_
    (try sl_unfold_words)
    (repeat rw [readCov_cons_whole6])
    (try rfl)
  isplitl [H8]
  · iexists _; isplitr
    swap; · iexact H8
    ipureintro
    refine (read_writes_cons_whole6 _ _ hz6 _ _ _).trans ?_
    (try sl_unfold_words)
    (repeat rw [readCov_cons_whole6])
    (try rfl)
  isplitl [H9]
  · iexists _; isplitr
    swap; · iexact H9
    ipureintro
    refine (read_writes_cons_whole6 _ _ hz6 _ _ _).trans ?_
    (try sl_unfold_words)
    (repeat rw [readCov_cons_whole6])
    (try rfl)
  isplitl [HS0]
  · iexists _; isplitr
    swap; · iexact HS0
    ipureintro
    refine (read_writes_cons_whole6 _ _ hz6 _ _ _).trans ?_
    (try sl_unfold_words)
    (repeat rw [readCov_cons_whole6])
    (try rfl)
  iexists _; isplitr
  swap; · iexact HS1
  ipureintro
  refine (read_writes_cons_whole6 _ _ hz6 _ _ _).trans ?_
  (try sl_unfold_words)
  (repeat rw [readCov_cons_whole6])
  (try rfl)

/-- AT THE FIRST POINT (the branch taken): the two scratch rows, found at anything, are zeroed (`k6_pay3`,
    `k6_pay4`) before the accumulation, so the body leaves them, and outputs 8 and 9, at this tile's sums added to
    the zero rows. -/
theorem sound_kernel6_first (c : Dev nD) (E : Set ℕ) (i : grid6.Coords) (hc : cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k6_pay5 x0 x1 x2 x3 x4 x5 x6)
            ∗ owns (c : Thread nD τ) arg9 fullShare (k6_pay1 (k6_pay5 x0 x1 x2 x3 x4 x5 x6) (k6_pay3 (F := F))) ∗ owns (c : Thread nD τ) arg10 fullShare (k6_pay2 (k6_pay5 x0 x1 x2 x3 x4 x5 x6) (k6_pay4 (F := F)))
            ∗ owns (c : Thread nD τ) arg11 fullShare (k6_pay1 (k6_pay5 x0 x1 x2 x3 x4 x5 x6) (k6_pay3 (F := F))) ∗ owns (c : Thread nD τ) arg12 fullShare (k6_pay2 (k6_pay5 x0 x1 x2 x3 x4 x5 x6) (k6_pay4 (F := F)))) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  have h := sound_kernel6_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL6_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, fetched there or not, for ANY proof
    data whose array is `V`'s (`hA`) and whose body leaves the block in place (`hafter`): an unfetched window's block
    index has not moved; the windows are uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## What the points compute -/

/-- The rows of tile `t` before batch normalisation: the body's payload at the seven input blocks of point `t`. -/
def hpre6 (c : Dev nD) (t : Fin cfg6.N) : Vec F S5000x128 .f32 :=
  k6_pay5 (iblk6 V c 0 t) (iblk6 V c 1 t) (iblk6 V c 2 t) (iblk6 V c 3 t) (iblk6 V c 4 t) (iblk6 V c 5 t) (iblk6 V c 6 t)

/-- The running row of column sums AFTER `n` points: the zero row, then each tile's column sums added in point order. -/
def sumAt6 (c : Dev nD) : ℕ → Vec F S1x128 .f32
  | 0 => k6_pay3
  | n + 1 => if h : n < cfg6.N then k6_pay1 (hpre6 V c ⟨n, h⟩) (sumAt6 c n) else sumAt6 c n

/-- The running row of column sums of squares AFTER `n` points, likewise. -/
def sqAt6 (c : Dev nD) : ℕ → Vec F S1x128 .f32
  | 0 => k6_pay4
  | n + 1 => if h : n < cfg6.N then k6_pay2 (hpre6 V c ⟨n, h⟩) (sqAt6 c n) else sqAt6 c n

theorem sumAt6_zero (c : Dev nD) : sumAt6 V c 0 = k6_pay3 := rfl
theorem sqAt6_zero (c : Dev nD) : sqAt6 V c 0 = k6_pay4 := rfl

/-- After point `t` the running sums are the previous ones with tile `t`'s column sums added. -/
theorem sumAt6_succ (c : Dev nD) (t : Fin cfg6.N) :
    sumAt6 V c (t.val + 1) = k6_pay1 (hpre6 V c t) (sumAt6 V c t.val) := by
  rw [sumAt6, dif_pos t.isLt]
theorem sqAt6_succ (c : Dev nD) (t : Fin cfg6.N) :
    sqAt6 V c (t.val + 1) = k6_pay2 (hpre6 V c t) (sqAt6 V c t.val) := by
  rw [sqAt6, dif_pos t.isLt]

/-! ## The invariant: the two running rows, point by point -/

/-- The scratch operands: whole scoped buffers of the kernel's own, passed beside the windows. -/
abbrev sc6_0 : Memref sig .tc .vmem S1x128 .f32 := Memref.whole cc6_scratch0
abbrev sc6_1 : Memref sig .tc .vmem S1x128 .f32 := Memref.whole cc6_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS6 (c : Dev nD) : ℕ → sProp 𝕄
  | 0 => Pipeline.ΦA spec6 c
  | n + 1 => iprop(iprop(iprop(owns (c : Thread nD τ) sc6_0 fullShare (sumAt6 V c (n + 1)) ∗ owns (c : Thread nD τ) sc6_1 fullShare (sqAt6 V c (n + 1)))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) : PhiS6 V c 0 = Pipeline.ΦA spec6 c := rfl
theorem PhiS6_succ (c : Dev nD) (n : ℕ) :
    PhiS6 V c (n + 1) = iprop(iprop(iprop(owns (c : Thread nD τ) sc6_0 fullShare (sumAt6 V c (n + 1)) ∗ owns (c : Thread nD τ) sc6_1 fullShare (sqAt6 V c (n + 1)))
      ∗ Pipeline.scopedRestBut (Ix := Unit) (Name := ℕ) (U := UR sig nD τ) (Lvl := ℕ) (Val := Elt F) spec6 c [cc6_scratch0, cc6_scratch1]) ∗ (∃ r, prngReg c r)) := rfl

/-- The class invariant with the two scratch operands as memrefs owned at some contents. -/
theorem PhiA6_eq (c : Dev nD) :
    (Pipeline.ΦA spec6 c : sProp 𝕄)
      = iprop(iprop(iprop((∃ d, owns (c : Thread nD τ) sc6_0 fullShare d) ∗ (∃ d, owns (c : Thread nD τ) sc6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [sc6_0, sc6_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => hpre6 V c t
    | ⟨8, _⟩ => sumAt6 V c (t.val + 1)
    | ⟨9, _⟩ => sqAt6 V c (t.val + 1)
  Φ t := PhiS6 V c t.val
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = hpre6 V c t := by dsimp only [dat6]
theorem after6_8 (c : Dev nD) (t : Fin cfg6.N) : (dat6 V c).after 8 t = sumAt6 V c (t.val + 1) := by dsimp only [dat6]
theorem after6_9 (c : Dev nD) (t : Fin cfg6.N) : (dat6 V c).after 9 t = sqAt6 V c (t.val + 1) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-- The invariant at a point's start and end, restated at the point's number. -/
theorem Phi6_castSucc (c : Dev nD) (t : Fin cfg6.N) : (dat6 V c).Φ t.castSucc = PhiS6 V c t.val := rfl
theorem Phi6_succ (c : Dev nD) (t : Fin cfg6.N) : (dat6 V c).Φ t.succ = PhiS6 V c (t.val + 1) := rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).owesAt () t.succ = (dat6 V c).owesAt () t.castSucc from rfl,
    after6_0, after6_1, after6_2, after6_3, after6_4, after6_5, after6_6, after6_7, after6_8, after6_9,
    Phi6_castSucc, Phi6_succ, PhiS6_succ, sumAt6_succ, sqAt6_succ]
  have hN : t.val < 20 := lt_of_lt_of_eq t.isLt (show cfg6.N = 20 from N_6)
  by_cases hz : t.val = 0
  · rw [hz, PhiS6_zero, PhiA6_eq, sumAt6_zero, sqAt6_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel6_first c Set.univ (grid6.coords t) ((hcond6 t).mpr (by omega)) _ _ _ _ _ _ _ _ _ _ _ _ _ _ _ _ _ _ _ _ _ _ _ _
      (iblk6 V c 0 t) (iblk6 V c 1 t) (iblk6 V c 2 t) (iblk6 V c 3 t) (iblk6 V c 4 t) (iblk6 V c 5 t) (iblk6 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS6_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel6_later c Set.univ (grid6.coords t) (fun h => by have := (hcond6 t).mp h; omega) _ _ _ _ _ _ _ _ _ _ _ _ _ _ _ _ _ _ _ _ _ _ _ _
      (iblk6 V c 0 t) (iblk6 V c 1 t) (iblk6 V c 2 t) (iblk6 V c 3 t) (iblk6 V c 4 t) (iblk6 V c 5 t) (iblk6 V c 6 t)
      (sumAt6 V c (n + 1)) (sqAt6 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant at the region's entry, out of it at its exit -/

/-- What the region hands the kernel — the generator register at some state and the scoped rest at any contents —
    is the invariant before the first point. -/
theorem hin6 (c : Dev nD) : iprop((∃ r, prngReg c r) ∗ Pipeline.scopedRest (Ix := Unit) (Name := ℕ) (U := UR sig nD τ) (Lvl := ℕ) (Val := Elt F) spec6 c) ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- After the last point the invariant gives them back: the running rows' named contents are forgotten. -/
theorem hout6 (c : Dev nD) : (dat6 V c).Φ (Fin.last cfg6.N) ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = PhiS6 V c (19 + 1) from rfl, PhiS6_succ, scopedRest6_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.Kernel.Hand

end
-- ==== Proof.K.RegB1.lean ====
/- Region 1 of @main: the pointwise pass (pipeline 1). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window fetched at
    the first point only keeps its block index, so what it was left with is still its block), for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out1_3 (x0 : Vec F S5000x128 .f32) (x1 x2 : Vec F S1x128 .f32) : Vec F S5000x128 .f32 :=
  View.canon [⟨r1_0, k1_pay1 (View.ld x0 r1_0) (View.ld x1 r1_1) (View.ld x2 r1_1)⟩]

/-- The one store is of the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out1_3` of the inputs'. -/
theorem sound_kernel1 (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__pass_b_kernel i arg0 harg0 arg1 harg1 arg2 harg2 arg3 harg3) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant of a body that
    touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RegB3.lean ====
/- Region 3 of @main: the pointwise pass (pipeline 3). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a window fetched at
    the first point only keeps its block index, so what it was left with is still its block), for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out3_3 (x0 : Vec F S5000x128 .f32) (x1 x2 : Vec F S1x128 .f32) : Vec F S5000x128 .f32 :=
  View.canon [⟨r3_0, k3_pay1 (View.ld x0 r3_0) (View.ld x1 r3_1) (View.ld x2 r3_1)⟩]

/-- The one store is of the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out3_3` of the inputs'. -/
theorem sound_kernel3 (c : Dev nD) (E : Set ℕ) (i : grid3.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__pass_b_kernel i arg0 harg0 arg1 harg1 arg2 harg2 arg3 harg3) K := by
  simp only [cc3__pass_b_kernel_eq_skeleton]; unfold cc3__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant of a body that
    touches nothing but its windows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RegB5.lean ====
/- Region 5 of @main: the pointwise pass (pipeline 5). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (a window fetched at
    the first point only keeps its block index, so what it was left with is still its block), for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out5_3 (x0 : Vec F S5000x128 .f32) (x1 x2 : Vec F S1x128 .f32) : Vec F S5000x128 .f32 :=
  View.canon [⟨r5_0, k5_pay1 (View.ld x0 r5_0) (View.ld x1 r5_1) (View.ld x2 r5_1)⟩]

/-- The one store is of the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out5_3` of the inputs'. -/
theorem sound_kernel5 (c : Dev nD) (E : Set ℕ) (i : grid5.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__pass_b_kernel i arg0 harg0 arg1 harg1 arg2 harg2 arg3 harg3) K := by
  simp only [cc5__pass_b_kernel_eq_skeleton]; unfold cc5__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant of a body that
    touches nothing but its windows; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.RegB7.lean ====
/- Region 7 of @main: the pointwise pass (pipeline 7). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window fetched at
    the first point only keeps its block index, so what it was left with is still its block), for any proof data
    whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out7_3 (x0 : Vec F S5000x128 .f32) (x1 x2 : Vec F S1x128 .f32) : Vec F S5000x128 .f32 :=
  View.canon [⟨r7_0, k7_pay1 (View.ld x0 r7_0) (View.ld x1 r7_1) (View.ld x2 r7_1)⟩]

/-- The one store is of the whole buffer, so it covers it. -/
theorem cover7_3 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out7_3` of the inputs'. -/
theorem sound_kernel7 (c : Dev nD) (E : Set ℕ) (i : grid7.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out7_3 x0 x1 x2)) -∗ K ⟨⟩))
      ⊢ wp frame (wpE (defs₀ (F := F)) Variants.none c none) E (cc7__pass_b_kernel i arg0 harg0 arg1 harg1 arg2 harg2 arg3 harg3) K := by
  simp only [cc7__pass_b_kernel_eq_skeleton]; unfold cc7__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the input blocks; the invariant of a body that
    touches nothing but its windows; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.RegC8.lean ====
/- Region 8 of @main: the classifier (pipeline 8; a grid of one point). Per core, at the buffer contents `V` the
   region is entered with: each window's block at the point, what the body leaves in the output window's staging
   buffer as a function of the five input blocks, the body's triple, the pipeline's proof data and the body
   obligation. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at the point, for any proof data whose array is `V`'s
    and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S64x640 := Rect.unit (s := S64x640) ![0, 0] S64x640.size inb_S64x640_S64x640_0_0
abbrev r8_1 : Rect S640x256 := Rect.unit (s := S640x256) ![0, 0] S640x256.size inb_S640x256_S640x256_0_0
abbrev r8_2 : Rect S1x256 := Rect.unit (s := S1x256) ![0, 0] S1x256.size inb_S1x256_S1x256_0_0
abbrev r8_3 : Rect S256x10 := Rect.unit (s := S256x10) ![0, 0] S256x10.size inb_S256x10_S256x10_0_0
abbrev r8_4 : Rect S1x10 := Rect.unit (s := S1x10) ![0, 0] S1x10.size inb_S1x10_S1x10_0_0
abbrev r8_5 : Rect S64x10 := Rect.unit (s := S64x10) ![0, 0] S64x10.size inb_S64x10_S64x10_0_0

/-! ## What the body leaves in the output window's buffer -/

/-- Window 5's staging buffer after the body, from the input windows' blocks: its one store, of the payload over
    the five loads. -/
def out8_5 (x0 : Vec F S64x640 .f32) (x1 : Vec F S640x256 .f32) (x2 : Vec F S1x256 .f32) (x3 : Vec F S256x10 .f32) (x4 : Vec F S1x10 .f32) : Vec F S64x10 .f32 :=
  View.canon [⟨r8_5, k8_pay1 (View.ld x0 r8_0) (View.ld x1 r8_1) (View.ld x2 r8_2) (View.ld x3 r8_3) (View.ld x4 r8_4)⟩]

/-- The one store is of the whole buffer, so it covers it. -/
theorem cover8_5 (p0 : Vec F S64x10 .f32) (y : S64x10.Idx) :
    ∃ pc ∈ ([⟨r8_5, p0⟩] : List (View.Piece (Elt F) S64x10 .f32)), y ∈ pc.1.set :=
  View.cover_of_tiled [⟨r8_5, p0⟩] S64x10.size (by rfl) y

/-! ## The body's triple -/

set_option maxHeartbeats 1000000 in
/-- The kernel body on whole staging memrefs, the inputs' at read contents `x0 … x4` and the output's at anything
    (the body loads it before it stores over the whole of it), runs to the continuation holding the inputs' as
    they were and the output's at `out8_5` of the inputs'. -/
theorem sound_kernel8 (c : Dev nD) (E : Set ℕ) (i : grid8.Coords)
    (arg0 : Memref sig .tc .vmem S64x640 .f32) (harg0 : arg0.IsWhole)
    (arg1 : Memref sig .tc .vmem S640x256 .f32) (harg1 : arg1.IsWhole)
    (arg2 : Memref sig .tc .vmem S1x256 .f32) (harg2 : arg2.IsWhole)
    (arg3 : Memref sig .tc .vmem S256x10 .f32) (harg3 : arg3.IsWhole)
    (arg4 : Memref sig .tc .vmem S1x10 .f32) (harg4 : arg4.IsWhole)
    (arg5 : Memref sig .tc .vmem S64x10 .f32) (harg5 : arg5.IsWhole)
    (x0 : Vec F S64x640 .f32) (x1 : Vec F S640x256 .f32) (x2 : Vec F S1x256 .f32) (x3 : Vec F S256x10 .f32) (x4 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__classifier_kernel i arg0 harg0 arg1 harg1 arg2 harg2 arg3 harg3 arg4 harg4 arg5 harg5) K := by
  simp only [cc8__classifier_kernel_eq_skeleton]; unfold cc8__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body each input's
    buffer at its block and the output's at `out8_5` of the input blocks; the invariant of a body that touches
    nothing but its windows; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- Each input's current staging buffer holds its block at the point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at the point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Regs.lean ====
/- The nine regions' proof data, gathered. -/
import proofs.«116561_j3624952397847_1_alg».proof.Proof.K.RegA0
import proofs.«116561_j3624952397847_1_alg».proof.Proof.K.RegA2
import proofs.«116561_j3624952397847_1_alg».proof.Proof.K.RegA4
import proofs.«116561_j3624952397847_1_alg».proof.Proof.K.RegA6
import proofs.«116561_j3624952397847_1_alg».proof.Proof.K.RegB1
import proofs.«116561_j3624952397847_1_alg».proof.Proof.K.RegB3
import proofs.«116561_j3624952397847_1_alg».proof.Proof.K.RegB5
import proofs.«116561_j3624952397847_1_alg».proof.Proof.K.RegB7
import proofs.«116561_j3624952397847_1_alg».proof.Proof.K.RegC8
-- ==== Proof.K.Fold.lean ====
/- The run of the kernel's program: what every unscoped buffer of a core holds between two items of the
   program (a stretch of host operations applies them; a kernel region leaves each of its arrays at what its
   write-backs fold to and every other buffer alone), each region's record over those contents, and the launch:
   every weakly fair execution ends, nothing faulting, every unscoped buffer holding the last contents. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import proofs.«116561_j3624952397847_1_alg».proof.Proof.Gen.Kernel.Regions
import proofs.«116561_j3624952397847_1_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between two items, from the launch on -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the stretch `hostOps0_1`. -/
abbrev W2 : Dev nD → Valuation τ sig (Elt F) := fun c => StableHlo.after hostOps0_1 (W1 m ρ c)
abbrev U2 : (c : Dev nD) → (b : Ref sig .tc) → Buf (Elt F) ((c : Thread nD τ).loc b) := fun c b => W2 m ρ c b
/-- After region 0: its arrays at what the pipeline leaves, every other buffer as the region found it. -/
def W3 (c : Dev nD) : Valuation τ sig (Elt F) :=
  Pipeline.withArrays spec0 c (W2 m ρ c) fun w => (dat0 (U2 m ρ) c).arrAt w cfg0.N
theorem W3_arr (c : Dev nD) (w : Fin cfg0.W) :
    W3 m ρ c (Proc.devRef .tc (Pipeline.arrRef spec0 w)) = (dat0 (U2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev U3 : (c : Dev nD) → (b : Ref sig .tc) → Buf (Elt F) ((c : Thread nD τ).loc b) := fun c b => W3 m ρ c b
theorem hF0 (c : Dev nD) (w : Fin cfg0.W) : (dat0 (U2 m ρ) c).arrAt w cfg0.N = U3 m ρ c (Pipeline.arrRef spec0 w) :=
  (W3_arr m ρ c w).symm
theorem hrest0 (c : Dev nD) : ∀ b, b ∉ Finset.univ.image (Pipeline.arrRef spec0) → U3 m ρ c b = U2 m ρ c b :=
  fun b hb => W3_of_ne m ρ c b fun w e => hb (Finset.mem_image.mpr ⟨w, Finset.mem_univ _, e⟩)
/-- After the stretch `hostOps1`. -/
abbrev W4 : Dev nD → Valuation τ sig (Elt F) := fun c => StableHlo.after hostOps1 (W3 m ρ c)
abbrev U4 : (c : Dev nD) → (b : Ref sig .tc) → Buf (Elt F) ((c : Thread nD τ).loc b) := fun c b => W4 m ρ c b
/-- After region 1: its arrays at what the pipeline leaves, every other buffer as the region found it. -/
def W5 (c : Dev nD) : Valuation τ sig (Elt F) :=
  Pipeline.withArrays spec1 c (W4 m ρ c) fun w => (dat1 (U4 m ρ) c).arrAt w cfg1.N
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev U5 : (c : Dev nD) → (b : Ref sig .tc) → Buf (Elt F) ((c : Thread nD τ).loc b) := fun c b => W5 m ρ c b
theorem hF1 (c : Dev nD) (w : Fin cfg1.W) : (dat1 (U4 m ρ) c).arrAt w cfg1.N = U5 m ρ c (Pipeline.arrRef spec1 w) :=
  (W5_arr m ρ c w).symm
theorem hrest1 (c : Dev nD) : ∀ b, b ∉ Finset.univ.image (Pipeline.arrRef spec1) → U5 m ρ c b = U4 m ρ c b :=
  fun b hb => W5_of_ne m ρ c b fun w e => hb (Finset.mem_image.mpr ⟨w, Finset.mem_univ _, e⟩)
/-- After the stretch `hostOps2`. -/
abbrev W6 : Dev nD → Valuation τ sig (Elt F) := fun c => StableHlo.after hostOps2 (W5 m ρ c)
abbrev U6 : (c : Dev nD) → (b : Ref sig .tc) → Buf (Elt F) ((c : Thread nD τ).loc b) := fun c b => W6 m ρ c b
/-- After region 2: its arrays at what the pipeline leaves, every other buffer as the region found it. -/
def W7 (c : Dev nD) : Valuation τ sig (Elt F) :=
  Pipeline.withArrays spec2 c (W6 m ρ c) fun w => (dat2 (U6 m ρ) c).arrAt w cfg2.N
theorem W7_arr (c : Dev nD) (w : Fin cfg2.W) :
    W7 m ρ c (Proc.devRef .tc (Pipeline.arrRef spec2 w)) = (dat2 (U6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev U7 : (c : Dev nD) → (b : Ref sig .tc) → Buf (Elt F) ((c : Thread nD τ).loc b) := fun c b => W7 m ρ c b
theorem hF2 (c : Dev nD) (w : Fin cfg2.W) : (dat2 (U6 m ρ) c).arrAt w cfg2.N = U7 m ρ c (Pipeline.arrRef spec2 w) :=
  (W7_arr m ρ c w).symm
theorem hrest2 (c : Dev nD) : ∀ b, b ∉ Finset.univ.image (Pipeline.arrRef spec2) → U7 m ρ c b = U6 m ρ c b :=
  fun b hb => W7_of_ne m ρ c b fun w e => hb (Finset.mem_image.mpr ⟨w, Finset.mem_univ _, e⟩)
/-- After the stretch `hostOps3`. -/
abbrev W8 : Dev nD → Valuation τ sig (Elt F) := fun c => StableHlo.after hostOps3 (W7 m ρ c)
abbrev U8 : (c : Dev nD) → (b : Ref sig .tc) → Buf (Elt F) ((c : Thread nD τ).loc b) := fun c b => W8 m ρ c b
/-- After region 3: its arrays at what the pipeline leaves, every other buffer as the region found it. -/
def W9 (c : Dev nD) : Valuation τ sig (Elt F) :=
  Pipeline.withArrays spec3 c (W8 m ρ c) fun w => (dat3 (U8 m ρ) c).arrAt w cfg3.N
theorem W9_arr (c : Dev nD) (w : Fin cfg3.W) :
    W9 m ρ c (Proc.devRef .tc (Pipeline.arrRef spec3 w)) = (dat3 (U8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev U9 : (c : Dev nD) → (b : Ref sig .tc) → Buf (Elt F) ((c : Thread nD τ).loc b) := fun c b => W9 m ρ c b
theorem hF3 (c : Dev nD) (w : Fin cfg3.W) : (dat3 (U8 m ρ) c).arrAt w cfg3.N = U9 m ρ c (Pipeline.arrRef spec3 w) :=
  (W9_arr m ρ c w).symm
theorem hrest3 (c : Dev nD) : ∀ b, b ∉ Finset.univ.image (Pipeline.arrRef spec3) → U9 m ρ c b = U8 m ρ c b :=
  fun b hb => W9_of_ne m ρ c b fun w e => hb (Finset.mem_image.mpr ⟨w, Finset.mem_univ _, e⟩)
/-- After the stretch `hostOps4`. -/
abbrev W10 : Dev nD → Valuation τ sig (Elt F) := fun c => StableHlo.after hostOps4 (W9 m ρ c)
abbrev U10 : (c : Dev nD) → (b : Ref sig .tc) → Buf (Elt F) ((c : Thread nD τ).loc b) := fun c b => W10 m ρ c b
/-- After region 4: its arrays at what the pipeline leaves, every other buffer as the region found it. -/
def W11 (c : Dev nD) : Valuation τ sig (Elt F) :=
  Pipeline.withArrays spec4 c (W10 m ρ c) fun w => (dat4 (U10 m ρ) c).arrAt w cfg4.N
theorem W11_arr (c : Dev nD) (w : Fin cfg4.W) :
    W11 m ρ c (Proc.devRef .tc (Pipeline.arrRef spec4 w)) = (dat4 (U10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev U11 : (c : Dev nD) → (b : Ref sig .tc) → Buf (Elt F) ((c : Thread nD τ).loc b) := fun c b => W11 m ρ c b
theorem hF4 (c : Dev nD) (w : Fin cfg4.W) : (dat4 (U10 m ρ) c).arrAt w cfg4.N = U11 m ρ c (Pipeline.arrRef spec4 w) :=
  (W11_arr m ρ c w).symm
theorem hrest4 (c : Dev nD) : ∀ b, b ∉ Finset.univ.image (Pipeline.arrRef spec4) → U11 m ρ c b = U10 m ρ c b :=
  fun b hb => W11_of_ne m ρ c b fun w e => hb (Finset.mem_image.mpr ⟨w, Finset.mem_univ _, e⟩)
/-- After the stretch `hostOps5`. -/
abbrev W12 : Dev nD → Valuation τ sig (Elt F) := fun c => StableHlo.after hostOps5 (W11 m ρ c)
abbrev U12 : (c : Dev nD) → (b : Ref sig .tc) → Buf (Elt F) ((c : Thread nD τ).loc b) := fun c b => W12 m ρ c b
/-- After region 5: its arrays at what the pipeline leaves, every other buffer as the region found it. -/
def W13 (c : Dev nD) : Valuation τ sig (Elt F) :=
  Pipeline.withArrays spec5 c (W12 m ρ c) fun w => (dat5 (U12 m ρ) c).arrAt w cfg5.N
theorem W13_arr (c : Dev nD) (w : Fin cfg5.W) :
    W13 m ρ c (Proc.devRef .tc (Pipeline.arrRef spec5 w)) = (dat5 (U12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev U13 : (c : Dev nD) → (b : Ref sig .tc) → Buf (Elt F) ((c : Thread nD τ).loc b) := fun c b => W13 m ρ c b
theorem hF5 (c : Dev nD) (w : Fin cfg5.W) : (dat5 (U12 m ρ) c).arrAt w cfg5.N = U13 m ρ c (Pipeline.arrRef spec5 w) :=
  (W13_arr m ρ c w).symm
theorem hrest5 (c : Dev nD) : ∀ b, b ∉ Finset.univ.image (Pipeline.arrRef spec5) → U13 m ρ c b = U12 m ρ c b :=
  fun b hb => W13_of_ne m ρ c b fun w e => hb (Finset.mem_image.mpr ⟨w, Finset.mem_univ _, e⟩)
/-- After the stretch `hostOps6`. -/
abbrev W14 : Dev nD → Valuation τ sig (Elt F) := fun c => StableHlo.after hostOps6 (W13 m ρ c)
abbrev U14 : (c : Dev nD) → (b : Ref sig .tc) → Buf (Elt F) ((c : Thread nD τ).loc b) := fun c b => W14 m ρ c b
/-- After region 6: its arrays at what the pipeline leaves, every other buffer as the region found it. -/
def W15 (c : Dev nD) : Valuation τ sig (Elt F) :=
  Pipeline.withArrays spec6 c (W14 m ρ c) fun w => (dat6 (U14 m ρ) c).arrAt w cfg6.N
theorem W15_arr (c : Dev nD) (w : Fin cfg6.W) :
    W15 m ρ c (Proc.devRef .tc (Pipeline.arrRef spec6 w)) = (dat6 (U14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev U15 : (c : Dev nD) → (b : Ref sig .tc) → Buf (Elt F) ((c : Thread nD τ).loc b) := fun c b => W15 m ρ c b
theorem hF6 (c : Dev nD) (w : Fin cfg6.W) : (dat6 (U14 m ρ) c).arrAt w cfg6.N = U15 m ρ c (Pipeline.arrRef spec6 w) :=
  (W15_arr m ρ c w).symm
theorem hrest6 (c : Dev nD) : ∀ b, b ∉ Finset.univ.image (Pipeline.arrRef spec6) → U15 m ρ c b = U14 m ρ c b :=
  fun b hb => W15_of_ne m ρ c b fun w e => hb (Finset.mem_image.mpr ⟨w, Finset.mem_univ _, e⟩)
/-- After the stretch `hostOps7`. -/
abbrev W16 : Dev nD → Valuation τ sig (Elt F) := fun c => StableHlo.after hostOps7 (W15 m ρ c)
abbrev U16 : (c : Dev nD) → (b : Ref sig .tc) → Buf (Elt F) ((c : Thread nD τ).loc b) := fun c b => W16 m ρ c b
/-- After region 7: its arrays at what the pipeline leaves, every other buffer as the region found it. -/
def W17 (c : Dev nD) : Valuation τ sig (Elt F) :=
  Pipeline.withArrays spec7 c (W16 m ρ c) fun w => (dat7 (U16 m ρ) c).arrAt w cfg7.N
theorem W17_arr (c : Dev nD) (w : Fin cfg7.W) :
    W17 m ρ c (Proc.devRef .tc (Pipeline.arrRef spec7 w)) = (dat7 (U16 m ρ) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m ρ c (Proc.devRef .tc b) = W16 m ρ c (Proc.devRef .tc b) := by
  unfold W17; exact Pipeline.withArrays_of_ne spec7 c _ _ b hb
abbrev U17 : (c : Dev nD) → (b : Ref sig .tc) → Buf (Elt F) ((c : Thread nD τ).loc b) := fun c b => W17 m ρ c b
theorem hF7 (c : Dev nD) (w : Fin cfg7.W) : (dat7 (U16 m ρ) c).arrAt w cfg7.N = U17 m ρ c (Pipeline.arrRef spec7 w) :=
  (W17_arr m ρ c w).symm
theorem hrest7 (c : Dev nD) : ∀ b, b ∉ Finset.univ.image (Pipeline.arrRef spec7) → U17 m ρ c b = U16 m ρ c b :=
  fun b hb => W17_of_ne m ρ c b fun w e => hb (Finset.mem_image.mpr ⟨w, Finset.mem_univ _, e⟩)
/-- After the stretch `hostOps8`. -/
abbrev W18 : Dev nD → Valuation τ sig (Elt F) := fun c => StableHlo.after hostOps8 (W17 m ρ c)
abbrev U18 : (c : Dev nD) → (b : Ref sig .tc) → Buf (Elt F) ((c : Thread nD τ).loc b) := fun c b => W18 m ρ c b
/-- After the stretch `hostOps8_1`. -/
abbrev W19 : Dev nD → Valuation τ sig (Elt F) := fun c => StableHlo.after hostOps8_1 (W18 m ρ c)
abbrev U19 : (c : Dev nD) → (b : Ref sig .tc) → Buf (Elt F) ((c : Thread nD τ).loc b) := fun c b => W19 m ρ c b
/-- After the stretch `hostOps8_2`. -/
abbrev W20 : Dev nD → Valuation τ sig (Elt F) := fun c => StableHlo.after hostOps8_2 (W19 m ρ c)
abbrev U20 : (c : Dev nD) → (b : Ref sig .tc) → Buf (Elt F) ((c : Thread nD τ).loc b) := fun c b => W20 m ρ c b
/-- After region 8: its arrays at what the pipeline leaves, every other buffer as the region found it. -/
def W21 (c : Dev nD) : Valuation τ sig (Elt F) :=
  Pipeline.withArrays spec8 c (W20 m ρ c) fun w => (dat8 (U20 m ρ) c).arrAt w cfg8.N
theorem W21_arr (c : Dev nD) (w : Fin cfg8.W) :
    W21 m ρ c (Proc.devRef .tc (Pipeline.arrRef spec8 w)) = (dat8 (U20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev U21 : (c : Dev nD) → (b : Ref sig .tc) → Buf (Elt F) ((c : Thread nD τ).loc b) := fun c b => W21 m ρ c b
theorem hF8 (c : Dev nD) (w : Fin cfg8.W) : (dat8 (U20 m ρ) c).arrAt w cfg8.N = U21 m ρ c (Pipeline.arrRef spec8 w) :=
  (W21_arr m ρ c w).symm
theorem hrest8 (c : Dev nD) : ∀ b, b ∉ Finset.univ.image (Pipeline.arrRef spec8) → U21 m ρ c b = U20 m ρ c b :=
  fun b hb => W21_of_ne m ρ c b fun w e => hb (Finset.mem_image.mpr ⟨w, Finset.mem_univ _, e⟩)

/-! ## The proof data of every pipeline, each at its region's entry contents -/

def pdats : (p : Fin 9) → (c : Dev nD) → Dat τ (Elt F) Unit ℕ (UR sig nD τ) ℕ (Pipeline.pin (pcfgs (F := F)) adm p) c
  | ⟨0, _⟩ => fun c => dat0 (U2 m ρ) c
  | ⟨1, _⟩ => fun c => dat1 (U4 m ρ) c
  | ⟨2, _⟩ => fun c => dat2 (U6 m ρ) c
  | ⟨3, _⟩ => fun c => dat3 (U8 m ρ) c
  | ⟨4, _⟩ => fun c => dat4 (U10 m ρ) c
  | ⟨5, _⟩ => fun c => dat5 (U12 m ρ) c
  | ⟨6, _⟩ => fun c => dat6 (U14 m ρ) c
  | ⟨7, _⟩ => fun c => dat7 (U16 m ρ) c
  | ⟨8, _⟩ => fun c => dat8 (U20 m ρ) c

abbrev 𝒱ₙ : Variants := Variants.none
/-- No core owes another anything: no level is assigned. -/
abbrev L0 : GSem nD τ sig → Finset Unit := fun _ => ∅
abbrev lv0 : GSem nD τ sig → Unit → ℕ := fun _ _ => 0
/-- What rides beside the buffers through every item: the generator register at some state, nothing owed. -/
abbrev Rr (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last contents beside the generator register. -/
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0: entered from every unscoped buffer at `W2`, left at `W3`. -/
def reg0 : Pipeline.RegionSeg (pcfgs (F := F)) adm (pdats m ρ) () defs₀ 𝒱ₙ L0 lv0 0 where
  win := launch0.win.to₀
  block_pos := launch0.block_pos
  stage_whole := launch0.stage_whole
  K := PEmpty
  osem k := k.elim
  ho := Pipeline.OwnSemFacts.none _
  hbody c := (body_obligation0 (U2 m ρ) c).loose
  hwaits := Pipeline.hwaits_of_owed_zero _ _ _ _ L0 lv0 0 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (U2 m ρ) c).Φ 0 from rfl]
    iintro ⟨Hp, -, Hr⟩
    iapply (hin0 (U2 m ρ) c)
    isplitl [Hp]; · iexact Hp
    iexact Hr
  hout c := by
    rw [Pipeline.ownSems0_none, show (pdats m ρ 0 c).Φ (Fin.last _) = (dat0 (U2 m ρ) c).Φ (Fin.last cfg0.N) from rfl]
    iintro H
    ihave H' := (hout0 (U2 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U2 m ρ c) (U3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin1 (V : (c : Dev nD) → (b : Ref sig .tc) → Buf (Elt F) ((c : Thread nD τ).loc b)) (c : Dev nD) :
    (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp
theorem hout1 (V : (c : Dev nD) → (b : Ref sig .tc) → Buf (Elt F) ((c : Thread nD τ).loc b)) (c : Dev nD) :
    (dat1 V c).Φ (Fin.last cfg1.N) ⊢ (iprop((∃ r, prngReg c r) ∗ Pipeline.scopedRest spec1 c) : sProp 𝕄) := by
  rw [show (dat1 V c).Φ (Fin.last _) = Pipeline.ΦA spec1 c from rfl]; unfold Pipeline.ΦA
  iintro ⟨Hr, Hp⟩
  isplitl [Hp]; · iexact Hp
  iexact Hr

set_option backward.isDefEq.respectTransparency.types false in
/-- Region 1: entered from every unscoped buffer at `W4`, left at `W5`. -/
def reg1 : Pipeline.RegionSeg (pcfgs (F := F)) adm (pdats m ρ) () defs₀ 𝒱ₙ L0 lv0 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ L0 lv0 1 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U4 m ρ) c).Φ 0 from rfl]
    iintro ⟨Hp, -, Hr⟩
    iapply (hin1 (U4 m ρ) c)
    isplitl [Hp]; · iexact Hp
    iexact Hr
  hout c := by
    rw [Pipeline.ownSems0_none, show (pdats m ρ 1 c).Φ (Fin.last _) = (dat1 (U4 m ρ) c).Φ (Fin.last cfg1.N) from rfl]
    iintro H
    ihave H' := (hout1 (U4 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (U5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W6`, left at `W7`. -/
def reg2 : Pipeline.RegionSeg (pcfgs (F := F)) adm (pdats m ρ) () defs₀ 𝒱ₙ L0 lv0 2 where
  win := launch2.win.to₀
  block_pos := launch2.block_pos
  stage_whole := launch2.stage_whole
  K := PEmpty
  osem k := k.elim
  ho := Pipeline.OwnSemFacts.none _
  hbody c := (body_obligation2 (U6 m ρ) c).loose
  hwaits := Pipeline.hwaits_of_owed_zero _ _ _ _ L0 lv0 2 fun _ _ => rfl
  pre c := iprop(StableHlo.held (c : Thread nD τ) (Pipeline.ucRefs τ sig) (W6 m ρ c) ∗ Rr c)
  post c := iprop(StableHlo.held (c : Thread nD τ) (Pipeline.ucRefs τ sig) (W7 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (U6 m ρ) c).Φ 0 from rfl]
    iintro ⟨Hp, -, Hr⟩
    iapply (hin2 (U6 m ρ) c)
    isplitl [Hp]; · iexact Hp
    iexact Hr
  hout c := by
    rw [Pipeline.ownSems0_none, show (pdats m ρ 2 c).Φ (Fin.last _) = (dat2 (U6 m ρ) c).Φ (Fin.last cfg2.N) from rfl]
    iintro H
    ihave H' := (hout2 (U6 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U6 m ρ c) (U7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin3 (V : (c : Dev nD) → (b : Ref sig .tc) → Buf (Elt F) ((c : Thread nD τ).loc b)) (c : Dev nD) :
    (iprop((∃ r, prngReg c r) ∗ Pipeline.scopedRest spec3 c) : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp
theorem hout3 (V : (c : Dev nD) → (b : Ref sig .tc) → Buf (Elt F) ((c : Thread nD τ).loc b)) (c : Dev nD) :
    (dat3 V c).Φ (Fin.last cfg3.N) ⊢ (iprop((∃ r, prngReg c r) ∗ Pipeline.scopedRest spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

set_option backward.isDefEq.respectTransparency.types false in
/-- Region 3: entered from every unscoped buffer at `W8`, left at `W9`. -/
def reg3 : Pipeline.RegionSeg (pcfgs (F := F)) adm (pdats m ρ) () defs₀ 𝒱ₙ L0 lv0 3 where
  win := launch3.win.to₀
  block_pos := launch3.block_pos
  stage_whole := launch3.stage_whole
  K := PEmpty
  osem k := k.elim
  ho := Pipeline.OwnSemFacts.none _
  hbody c := (body_obligation3 (U8 m ρ) c).loose
  hwaits := Pipeline.hwaits_of_owed_zero _ _ _ _ L0 lv0 3 fun _ _ => rfl
  pre c := iprop(StableHlo.held (c : Thread nD τ) (Pipeline.ucRefs τ sig) (W8 m ρ c) ∗ Rr c)
  post c := iprop(StableHlo.held (c : Thread nD τ) (Pipeline.ucRefs τ sig) (W9 m ρ c) ∗ Rr c)
  X c := iprop(∃ r, prngReg c r)
  Y c := iprop(∃ r, prngReg c r)
  Z c := Pipeline.unscopedRest (Ix := Unit) (Name := ℕ) (U := UR sig nD τ) (Lvl := ℕ) spec3 c (U8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (U8 m ρ) c).Φ 0 from rfl]
    iintro ⟨Hp, -, Hr⟩
    iapply (hin3 (U8 m ρ) c)
    isplitl [Hp]; · iexact Hp
    iexact Hr
  hout c := by
    rw [Pipeline.ownSems0_none, show (pdats m ρ 3 c).Φ (Fin.last _) = (dat3 (U8 m ρ) c).Φ (Fin.last cfg3.N) from rfl]
    iintro H
    ihave H' := (hout3 (U8 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U8 m ρ c) (U9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W10`, left at `W11`. -/
def reg4 : Pipeline.RegionSeg (pcfgs (F := F)) adm (pdats m ρ) () defs₀ 𝒱ₙ L0 lv0 4 where
  win := launch4.win.to₀
  block_pos := launch4.block_pos
  stage_whole := launch4.stage_whole
  K := PEmpty
  osem k := k.elim
  ho := Pipeline.OwnSemFacts.none _
  hbody c := (body_obligation4 (U10 m ρ) c).loose
  hwaits := Pipeline.hwaits_of_owed_zero _ _ _ _ L0 lv0 4 fun _ _ => rfl
  pre c := iprop(StableHlo.held (c : Thread nD τ) (Pipeline.ucRefs τ sig) (W10 m ρ c) ∗ Rr c)
  post c := iprop(StableHlo.held (c : Thread nD τ) (Pipeline.ucRefs τ sig) (W11 m ρ c) ∗ Rr c)
  X c := iprop(∃ r, prngReg c r)
  Y c := iprop(∃ r, prngReg c r)
  Z c := Pipeline.unscopedRest (Ix := Unit) (Name := ℕ) (U := UR sig nD τ) (Lvl := ℕ) spec4 c (U10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (U10 m ρ) c).Φ 0 from rfl]
    iintro ⟨Hp, -, Hr⟩
    iapply (hin4 (U10 m ρ) c)
    isplitl [Hp]; · iexact Hp
    iexact Hr
  hout c := by
    rw [Pipeline.ownSems0_none, show (pdats m ρ 4 c).Φ (Fin.last _) = (dat4 (U10 m ρ) c).Φ (Fin.last cfg4.N) from rfl]
    iintro H
    ihave H' := (hout4 (U10 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U10 m ρ c) (U11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin5 (V : (c : Dev nD) → (b : Ref sig .tc) → Buf (Elt F) ((c : Thread nD τ).loc b)) (c : Dev nD) :
    (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp
theorem hout5 (V : (c : Dev nD) → (b : Ref sig .tc) → Buf (Elt F) ((c : Thread nD τ).loc b)) (c : Dev nD) :
    (dat5 V c).Φ (Fin.last cfg5.N) ⊢ (iprop((∃ r, prngReg c r) ∗ Pipeline.scopedRest spec5 c) : sProp 𝕄) := by
  rw [show (dat5 V c).Φ (Fin.last _) = Pipeline.ΦA spec5 c from rfl]; unfold Pipeline.ΦA
  iintro ⟨Hr, Hp⟩
  isplitl [Hp]; · iexact Hp
  iexact Hr

set_option backward.isDefEq.respectTransparency.types false in
/-- Region 5: entered from every unscoped buffer at `W12`, left at `W13`. -/
def reg5 : Pipeline.RegionSeg (pcfgs (F := F)) adm (pdats m ρ) () defs₀ 𝒱ₙ L0 lv0 5 where
  win := launch5.win.to₀
  block_pos := launch5.block_pos
  stage_whole := launch5.stage_whole
  K := PEmpty
  osem k := k.elim
  ho := Pipeline.OwnSemFacts.none _
  hbody c := (body_obligation5 (U12 m ρ) c).loose
  hwaits := Pipeline.hwaits_of_owed_zero _ _ _ _ L0 lv0 5 fun _ _ => rfl
  pre c := iprop(StableHlo.held (c : Thread nD τ) (Pipeline.ucRefs τ sig) (W12 m ρ c) ∗ Rr c)
  post c := iprop(StableHlo.held (c : Thread nD τ) (Pipeline.ucRefs τ sig) (W13 m ρ c) ∗ Rr c)
  X c := iprop(∃ r, prngReg c r)
  Y c := iprop(∃ r, prngReg c r)
  Z c := Pipeline.unscopedRest (Ix := Unit) (Name := ℕ) (U := UR sig nD τ) (Lvl := ℕ) spec5 c (U12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (U12 m ρ) c).Φ 0 from rfl]
    iintro ⟨Hp, -, Hr⟩
    iapply (hin5 (U12 m ρ) c)
    isplitl [Hp]; · iexact Hp
    iexact Hr
  hout c := by
    rw [Pipeline.ownSems0_none, show (pdats m ρ 5 c).Φ (Fin.last _) = (dat5 (U12 m ρ) c).Φ (Fin.last cfg5.N) from rfl]
    iintro H
    ihave H' := (hout5 (U12 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U12 m ρ c) (U13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W14`, left at `W15`. -/
def reg6 : Pipeline.RegionSeg (pcfgs (F := F)) adm (pdats m ρ) () defs₀ 𝒱ₙ L0 lv0 6 where
  win := launch6.win.to₀
  block_pos := launch6.block_pos
  stage_whole := launch6.stage_whole
  K := PEmpty
  osem k := k.elim
  ho := Pipeline.OwnSemFacts.none _
  hbody c := (body_obligation6 (U14 m ρ) c).loose
  hwaits := Pipeline.hwaits_of_owed_zero _ _ _ _ L0 lv0 6 fun _ _ => rfl
  pre c := iprop(StableHlo.held (c : Thread nD τ) (Pipeline.ucRefs τ sig) (W14 m ρ c) ∗ Rr c)
  post c := iprop(StableHlo.held (c : Thread nD τ) (Pipeline.ucRefs τ sig) (W15 m ρ c) ∗ Rr c)
  X c := iprop(∃ r, prngReg c r)
  Y c := iprop(∃ r, prngReg c r)
  Z c := Pipeline.unscopedRest (Ix := Unit) (Name := ℕ) (U := UR sig nD τ) (Lvl := ℕ) spec6 c (U14 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (U14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (U14 m ρ) c).Φ 0 from rfl]
    iintro ⟨Hp, -, Hr⟩
    iapply (hin6 (U14 m ρ) c)
    isplitl [Hp]; · iexact Hp
    iexact Hr
  hout c := by
    rw [Pipeline.ownSems0_none, show (pdats m ρ 6 c).Φ (Fin.last _) = (dat6 (U14 m ρ) c).Φ (Fin.last cfg6.N) from rfl]
    iintro H
    ihave H' := (hout6 (U14 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (U14 m ρ c) (U15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin7 (V : (c : Dev nD) → (b : Ref sig .tc) → Buf (Elt F) ((c : Thread nD τ).loc b)) (c : Dev nD) :
    (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp
theorem hout7 (V : (c : Dev nD) → (b : Ref sig .tc) → Buf (Elt F) ((c : Thread nD τ).loc b)) (c : Dev nD) :
    (dat7 V c).Φ (Fin.last cfg7.N) ⊢ (iprop((∃ r, prngReg c r) ∗ Pipeline.scopedRest spec7 c) : sProp 𝕄) := by
  rw [show (dat7 V c).Φ (Fin.last _) = Pipeline.ΦA spec7 c from rfl]; unfold Pipeline.ΦA
  iintro ⟨Hr, Hp⟩
  isplitl [Hp]; · iexact Hp
  iexact Hr

set_option backward.isDefEq.respectTransparency.types false in
/-- Region 7: entered from every unscoped buffer at `W16`, left at `W17`. -/
def reg7 : Pipeline.RegionSeg (pcfgs (F := F)) adm (pdats m ρ) () defs₀ 𝒱ₙ L0 lv0 7 where
  win := launch7.win.to₀
  block_pos := launch7.block_pos
  stage_whole := launch7.stage_whole
  K := PEmpty
  osem k := k.elim
  ho := Pipeline.OwnSemFacts.none _
  hbody c := (body_obligation7 (U16 m ρ) c).loose
  hwaits := Pipeline.hwaits_of_owed_zero _ _ _ _ L0 lv0 7 fun _ _ => rfl
  pre c := iprop(StableHlo.held (c : Thread nD τ) (Pipeline.ucRefs τ sig) (W16 m ρ c) ∗ Rr c)
  post c := iprop(StableHlo.held (c : Thread nD τ) (Pipeline.ucRefs τ sig) (W17 m ρ c) ∗ Rr c)
  X c := iprop(∃ r, prngReg c r)
  Y c := iprop(∃ r, prngReg c r)
  Z c := Pipeline.unscopedRest (Ix := Unit) (Name := ℕ) (U := UR sig nD τ) (Lvl := ℕ) spec7 c (U16 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (U16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (U16 m ρ) c).Φ 0 from rfl]
    iintro ⟨Hp, -, Hr⟩
    iapply (hin7 (U16 m ρ) c)
    isplitl [Hp]; · iexact Hp
    iexact Hr
  hout c := by
    rw [Pipeline.ownSems0_none, show (pdats m ρ 7 c).Φ (Fin.last _) = (dat7 (U16 m ρ) c).Φ (Fin.last cfg7.N) from rfl]
    iintro H
    ihave H' := (hout7 (U16 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (U16 m ρ c) (U17 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin8 (V : (c : Dev nD) → (b : Ref sig .tc) → Buf (Elt F) ((c : Thread nD τ).loc b)) (c : Dev nD) :
    (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp
theorem hout8 (V : (c : Dev nD) → (b : Ref sig .tc) → Buf (Elt F) ((c : Thread nD τ).loc b)) (c : Dev nD) :
    (dat8 V c).Φ (Fin.last cfg8.N) ⊢ (iprop((∃ r, prngReg c r) ∗ Pipeline.scopedRest spec8 c) : sProp 𝕄) := by
  rw [show (dat8 V c).Φ (Fin.last _) = Pipeline.ΦA spec8 c from rfl]; unfold Pipeline.ΦA
  iintro ⟨Hr, Hp⟩
  isplitl [Hp]; · iexact Hp
  iexact Hr

set_option backward.isDefEq.respectTransparency.types false in
/-- Region 8: entered from every unscoped buffer at `W20`, left at `W21`. -/
def reg8 : Pipeline.RegionSeg (pcfgs (F := F)) adm (pdats m ρ) () defs₀ 𝒱ₙ L0 lv0 8 where
  win := launch8.win.to₀
  block_pos := launch8.block_pos
  stage_whole := launch8.stage_whole
  K := PEmpty
  osem k := k.elim
  ho := Pipeline.OwnSemFacts.none _
  hbody c := (body_obligation8 (U20 m ρ) c).loose
  hwaits := Pipeline.hwaits_of_owed_zero _ _ _ _ L0 lv0 8 fun _ _ => rfl
  pre c := iprop(StableHlo.held (c : Thread nD τ) (Pipeline.ucRefs τ sig) (W20 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (U20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (U20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (U20 m ρ) c).Φ 0 from rfl]
    iintro ⟨Hp, -, Hr⟩
    iapply (hin8 (U20 m ρ) c)
    isplitl [Hp]; · iexact Hp
    iexact Hr
  hout c := by
    rw [Pipeline.ownSems0_none, show (pdats m ρ 8 c).Φ (Fin.last _) = (dat8 (U20 m ρ) c).Φ (Fin.last cfg8.N) from rfl]
    iintro H
    ihave H' := (hout8 (U20 m ρ) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (U20 m ρ c) (U21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev hsegs : List (Pipeline.Seg (pcfgs (F := F)) adm (pdats m ρ) () defs₀ 𝒱ₙ L0 lv0) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .region (reg7 m ρ),
    .host (hseg hostOps8 hostOps8_sub hostOps8_fresh (W17 m ρ)),
    .host (hseg hostOps8_1 hostOps8_1_sub hostOps8_1_fresh (W18 m ρ)),
    .host (hseg hostOps8_2 hostOps8_2_sub hostOps8_2_fresh (W19 m ρ)),
    .region (reg8 m ρ) ]

theorem hsegs_prog : (hsegs m ρ).map Pipeline.Seg.prog = ([
    StableHlo.seq hostOps0,
    StableHlo.seq hostOps0_1,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    Prog.lift (.customCall (Pipeline.entry 6) ()),
    StableHlo.seq hostOps7,
    Prog.lift (.customCall (Pipeline.entry 7) ()),
    StableHlo.seq hostOps8,
    StableHlo.seq hostOps8_1,
    StableHlo.seq hostOps8_2,
    Prog.lift (.customCall (Pipeline.entry 8) ()) ] : List (Prog (TpuEff nD τ sig (Elt F) (Pipeline.Sig Λ₀ (Fin 9) fun p => (pcfgs (F := F) p).Adm) .tc) PUnit)) := rfl

/-- The program IS the run of the segments. -/
theorem main_run (c : Dev nD) : main (F := F) c = Pipeline.Seg.run (hsegs m ρ) := by
  rw [main_chain c, Pipeline.Seg.run_eq_chain, hsegs_prog]

set_option backward.isDefEq.respectTransparency.types false in
/-- From any memory with zero counters every weakly fair execution of the program ends, nothing faulting, and in every
    final state each unscoped buffer of each core holds the last contents `W21`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱ₙ L0 lv0 m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

end Cert.Kernel.Hand

end
-- ==== Proof.K.Args.lean ====
/- Every argument array reaches the end of the program as launched: no stretch of host operations writes it, and a
   region either does not touch it or reads it through an input window, whose array the pipeline leaves as it was. -/
import proofs.«116561_j3624952397847_1_alg».proof.Proof.Gen.Kernel.Launch
import proofs.«116561_j3624952397847_1_alg».proof.Proof.Gen.Kernel.Skeleton
import proofs.«116561_j3624952397847_1_alg».proof.Proof.Gen.Kernel.Points
import proofs.«116561_j3624952397847_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Through a stretch of host operations: a reference none of them writes keeps its contents. -/
theorem host_keeps {Wr : List (Ref sig .tc)} (ops : List (HloOp τ sig (Elt F))) (V : Valuation τ sig (Elt F))
    (hw : ops.Forall fun op => op.writes ⊆ (Wr.map (Proc.devRef (τ := τ) .tc)).toFinset) (r : Ref sig .tc) (h : r ∉ Wr) :
    StableHlo.after ops V (Proc.devRef .tc r) = V (Proc.devRef .tc r) :=
  StableHlo.after_of_writes_sub ops V hw h

theorem W21_main_arg0 (c : Dev nD) : W21 m ρ c (Proc.devRef .tc main_arg0) = m ((c : Thread nD τ).loc main_arg0) :=
  (W21_of_ne m ρ c main_arg0 (by decide)).trans <|
  (host_keeps hostOps8_2 (W19 m ρ c) hostOps8_2_writes main_arg0 (by decide)).trans <|
  (host_keeps hostOps8_1 (W18 m ρ c) hostOps8_1_writes main_arg0 (by decide)).trans <|
  (host_keeps hostOps8 (W17 m ρ c) hostOps8_writes main_arg0 (by decide)).trans <|
  (W17_of_ne m ρ c main_arg0 (by decide)).trans <|
  (host_keeps hostOps7 (W15 m ρ c) hostOps7_writes main_arg0 (by decide)).trans <|
  (W15_of_ne m ρ c main_arg0 (by decide)).trans <|
  (host_keeps hostOps6 (W13 m ρ c) hostOps6_writes main_arg0 (by decide)).trans <|
  (W13_of_ne m ρ c main_arg0 (by decide)).trans <|
  (host_keeps hostOps5 (W11 m ρ c) hostOps5_writes main_arg0 (by decide)).trans <|
  (W11_of_ne m ρ c main_arg0 (by decide)).trans <|
  (host_keeps hostOps4 (W9 m ρ c) hostOps4_writes main_arg0 (by decide)).trans <|
  (W9_of_ne m ρ c main_arg0 (by decide)).trans <|
  (host_keeps hostOps3 (W7 m ρ c) hostOps3_writes main_arg0 (by decide)).trans <|
  (W7_of_ne m ρ c main_arg0 (by decide)).trans <|
  (host_keeps hostOps2 (W5 m ρ c) hostOps2_writes main_arg0 (by decide)).trans <|
  (W5_of_ne m ρ c main_arg0 (by decide)).trans <|
  (host_keeps hostOps1 (W3 m ρ c) hostOps1_writes main_arg0 (by decide)).trans <|
  (W3_of_ne m ρ c main_arg0 (by decide)).trans <|
  (host_keeps hostOps0_1 (W1 m ρ c) hostOps0_1_writes main_arg0 (by decide)).trans <|
  (host_keeps hostOps0 (W0 m ρ c) hostOps0_writes main_arg0 (by decide)).trans <|
  rfl

theorem W21_main_arg1 (c : Dev nD) : W21 m ρ c (Proc.devRef .tc main_arg1) = m ((c : Thread nD τ).loc main_arg1) :=
  (W21_of_ne m ρ c main_arg1 (by decide)).trans <|
  (host_keeps hostOps8_2 (W19 m ρ c) hostOps8_2_writes main_arg1 (by decide)).trans <|
  (host_keeps hostOps8_1 (W18 m ρ c) hostOps8_1_writes main_arg1 (by decide)).trans <|
  (host_keeps hostOps8 (W17 m ρ c) hostOps8_writes main_arg1 (by decide)).trans <|
  (W17_of_ne m ρ c main_arg1 (by decide)).trans <|
  (host_keeps hostOps7 (W15 m ρ c) hostOps7_writes main_arg1 (by decide)).trans <|
  (W15_of_ne m ρ c main_arg1 (by decide)).trans <|
  (host_keeps hostOps6 (W13 m ρ c) hostOps6_writes main_arg1 (by decide)).trans <|
  (W13_of_ne m ρ c main_arg1 (by decide)).trans <|
  (host_keeps hostOps5 (W11 m ρ c) hostOps5_writes main_arg1 (by decide)).trans <|
  (W11_of_ne m ρ c main_arg1 (by decide)).trans <|
  (host_keeps hostOps4 (W9 m ρ c) hostOps4_writes main_arg1 (by decide)).trans <|
  (W9_of_ne m ρ c main_arg1 (by decide)).trans <|
  (host_keeps hostOps3 (W7 m ρ c) hostOps3_writes main_arg1 (by decide)).trans <|
  (W7_of_ne m ρ c main_arg1 (by decide)).trans <|
  (host_keeps hostOps2 (W5 m ρ c) hostOps2_writes main_arg1 (by decide)).trans <|
  (W5_of_ne m ρ c main_arg1 (by decide)).trans <|
  (host_keeps hostOps1 (W3 m ρ c) hostOps1_writes main_arg1 (by decide)).trans <|
  (W3_of_ne m ρ c main_arg1 (by decide)).trans <|
  (host_keeps hostOps0_1 (W1 m ρ c) hostOps0_1_writes main_arg1 (by decide)).trans <|
  (host_keeps hostOps0 (W0 m ρ c) hostOps0_writes main_arg1 (by decide)).trans <|
  rfl

theorem W21_main_arg2 (c : Dev nD) : W21 m ρ c (Proc.devRef .tc main_arg2) = m ((c : Thread nD τ).loc main_arg2) :=
  (W21_of_ne m ρ c main_arg2 (by decide)).trans <|
  (host_keeps hostOps8_2 (W19 m ρ c) hostOps8_2_writes main_arg2 (by decide)).trans <|
  (host_keeps hostOps8_1 (W18 m ρ c) hostOps8_1_writes main_arg2 (by decide)).trans <|
  (host_keeps hostOps8 (W17 m ρ c) hostOps8_writes main_arg2 (by decide)).trans <|
  (W17_of_ne m ρ c main_arg2 (by decide)).trans <|
  (host_keeps hostOps7 (W15 m ρ c) hostOps7_writes main_arg2 (by decide)).trans <|
  (W15_of_ne m ρ c main_arg2 (by decide)).trans <|
  (host_keeps hostOps6 (W13 m ρ c) hostOps6_writes main_arg2 (by decide)).trans <|
  (W13_of_ne m ρ c main_arg2 (by decide)).trans <|
  (host_keeps hostOps5 (W11 m ρ c) hostOps5_writes main_arg2 (by decide)).trans <|
  (W11_of_ne m ρ c main_arg2 (by decide)).trans <|
  (host_keeps hostOps4 (W9 m ρ c) hostOps4_writes main_arg2 (by decide)).trans <|
  (W9_of_ne m ρ c main_arg2 (by decide)).trans <|
  (host_keeps hostOps3 (W7 m ρ c) hostOps3_writes main_arg2 (by decide)).trans <|
  (W7_of_ne m ρ c main_arg2 (by decide)).trans <|
  (host_keeps hostOps2 (W5 m ρ c) hostOps2_writes main_arg2 (by decide)).trans <|
  (W5_of_ne m ρ c main_arg2 (by decide)).trans <|
  (host_keeps hostOps1 (W3 m ρ c) hostOps1_writes main_arg2 (by decide)).trans <|
  (W3_of_ne m ρ c main_arg2 (by decide)).trans <|
  (host_keeps hostOps0_1 (W1 m ρ c) hostOps0_1_writes main_arg2 (by decide)).trans <|
  (host_keeps hostOps0 (W0 m ρ c) hostOps0_writes main_arg2 (by decide)).trans <|
  rfl

theorem W21_main_arg3 (c : Dev nD) : W21 m ρ c (Proc.devRef .tc main_arg3) = m ((c : Thread nD τ).loc main_arg3) :=
  (W21_of_ne m ρ c main_arg3 (by decide)).trans <|
  (host_keeps hostOps8_2 (W19 m ρ c) hostOps8_2_writes main_arg3 (by decide)).trans <|
  (host_keeps hostOps8_1 (W18 m ρ c) hostOps8_1_writes main_arg3 (by decide)).trans <|
  (host_keeps hostOps8 (W17 m ρ c) hostOps8_writes main_arg3 (by decide)).trans <|
  (W17_of_ne m ρ c main_arg3 (by decide)).trans <|
  (host_keeps hostOps7 (W15 m ρ c) hostOps7_writes main_arg3 (by decide)).trans <|
  (W15_of_ne m ρ c main_arg3 (by decide)).trans <|
  (host_keeps hostOps6 (W13 m ρ c) hostOps6_writes main_arg3 (by decide)).trans <|
  (W13_of_ne m ρ c main_arg3 (by decide)).trans <|
  (host_keeps hostOps5 (W11 m ρ c) hostOps5_writes main_arg3 (by decide)).trans <|
  (W11_of_ne m ρ c main_arg3 (by decide)).trans <|
  (host_keeps hostOps4 (W9 m ρ c) hostOps4_writes main_arg3 (by decide)).trans <|
  (W9_of_ne m ρ c main_arg3 (by decide)).trans <|
  (host_keeps hostOps3 (W7 m ρ c) hostOps3_writes main_arg3 (by decide)).trans <|
  (W7_of_ne m ρ c main_arg3 (by decide)).trans <|
  (host_keeps hostOps2 (W5 m ρ c) hostOps2_writes main_arg3 (by decide)).trans <|
  (W5_of_ne m ρ c main_arg3 (by decide)).trans <|
  (host_keeps hostOps1 (W3 m ρ c) hostOps1_writes main_arg3 (by decide)).trans <|
  (W3_of_ne m ρ c main_arg3 (by decide)).trans <|
  (host_keeps hostOps0_1 (W1 m ρ c) hostOps0_1_writes main_arg3 (by decide)).trans <|
  (host_keeps hostOps0 (W0 m ρ c) hostOps0_writes main_arg3 (by decide)).trans <|
  rfl

theorem W21_main_arg4 (c : Dev nD) : W21 m ρ c (Proc.devRef .tc main_arg4) = m ((c : Thread nD τ).loc main_arg4) :=
  (W21_of_ne m ρ c main_arg4 (by decide)).trans <|
  (host_keeps hostOps8_2 (W19 m ρ c) hostOps8_2_writes main_arg4 (by decide)).trans <|
  (host_keeps hostOps8_1 (W18 m ρ c) hostOps8_1_writes main_arg4 (by decide)).trans <|
  (host_keeps hostOps8 (W17 m ρ c) hostOps8_writes main_arg4 (by decide)).trans <|
  (W17_of_ne m ρ c main_arg4 (by decide)).trans <|
  (host_keeps hostOps7 (W15 m ρ c) hostOps7_writes main_arg4 (by decide)).trans <|
  (W15_of_ne m ρ c main_arg4 (by decide)).trans <|
  (host_keeps hostOps6 (W13 m ρ c) hostOps6_writes main_arg4 (by decide)).trans <|
  (W13_of_ne m ρ c main_arg4 (by decide)).trans <|
  (host_keeps hostOps5 (W11 m ρ c) hostOps5_writes main_arg4 (by decide)).trans <|
  (W11_of_ne m ρ c main_arg4 (by decide)).trans <|
  (host_keeps hostOps4 (W9 m ρ c) hostOps4_writes main_arg4 (by decide)).trans <|
  (W9_of_ne m ρ c main_arg4 (by decide)).trans <|
  (host_keeps hostOps3 (W7 m ρ c) hostOps3_writes main_arg4 (by decide)).trans <|
  (W7_of_ne m ρ c main_arg4 (by decide)).trans <|
  (host_keeps hostOps2 (W5 m ρ c) hostOps2_writes main_arg4 (by decide)).trans <|
  (W5_of_ne m ρ c main_arg4 (by decide)).trans <|
  (host_keeps hostOps1 (W3 m ρ c) hostOps1_writes main_arg4 (by decide)).trans <|
  (W3_of_ne m ρ c main_arg4 (by decide)).trans <|
  (host_keeps hostOps0_1 (W1 m ρ c) hostOps0_1_writes main_arg4 (by decide)).trans <|
  (host_keeps hostOps0 (W0 m ρ c) hostOps0_writes main_arg4 (by decide)).trans <|
  rfl

theorem W21_main_arg5 (c : Dev nD) : W21 m ρ c (Proc.devRef .tc main_arg5) = m ((c : Thread nD τ).loc main_arg5) :=
  (W21_of_ne m ρ c main_arg5 (by decide)).trans <|
  (host_keeps hostOps8_2 (W19 m ρ c) hostOps8_2_writes main_arg5 (by decide)).trans <|
  (host_keeps hostOps8_1 (W18 m ρ c) hostOps8_1_writes main_arg5 (by decide)).trans <|
  (host_keeps hostOps8 (W17 m ρ c) hostOps8_writes main_arg5 (by decide)).trans <|
  (W17_of_ne m ρ c main_arg5 (by decide)).trans <|
  (host_keeps hostOps7 (W15 m ρ c) hostOps7_writes main_arg5 (by decide)).trans <|
  (W15_of_ne m ρ c main_arg5 (by decide)).trans <|
  (host_keeps hostOps6 (W13 m ρ c) hostOps6_writes main_arg5 (by decide)).trans <|
  (W13_of_ne m ρ c main_arg5 (by decide)).trans <|
  (host_keeps hostOps5 (W11 m ρ c) hostOps5_writes main_arg5 (by decide)).trans <|
  (W11_of_ne m ρ c main_arg5 (by decide)).trans <|
  (host_keeps hostOps4 (W9 m ρ c) hostOps4_writes main_arg5 (by decide)).trans <|
  (W9_of_ne m ρ c main_arg5 (by decide)).trans <|
  (host_keeps hostOps3 (W7 m ρ c) hostOps3_writes main_arg5 (by decide)).trans <|
  (W7_of_ne m ρ c main_arg5 (by decide)).trans <|
  (host_keeps hostOps2 (W5 m ρ c) hostOps2_writes main_arg5 (by decide)).trans <|
  (W5_of_ne m ρ c main_arg5 (by decide)).trans <|
  (host_keeps hostOps1 (W3 m ρ c) hostOps1_writes main_arg5 (by decide)).trans <|
  (W3_of_ne m ρ c main_arg5 (by decide)).trans <|
  (host_keeps hostOps0_1 (W1 m ρ c) hostOps0_1_writes main_arg5 (by decide)).trans <|
  (host_keeps hostOps0 (W0 m ρ c) hostOps0_writes main_arg5 (by decide)).trans <|
  rfl

theorem W21_main_arg6 (c : Dev nD) : W21 m ρ c (Proc.devRef .tc main_arg6) = m ((c : Thread nD τ).loc main_arg6) :=
  (W21_of_ne m ρ c main_arg6 (by decide)).trans <|
  (host_keeps hostOps8_2 (W19 m ρ c) hostOps8_2_writes main_arg6 (by decide)).trans <|
  (host_keeps hostOps8_1 (W18 m ρ c) hostOps8_1_writes main_arg6 (by decide)).trans <|
  (host_keeps hostOps8 (W17 m ρ c) hostOps8_writes main_arg6 (by decide)).trans <|
  (W17_of_ne m ρ c main_arg6 (by decide)).trans <|
  (host_keeps hostOps7 (W15 m ρ c) hostOps7_writes main_arg6 (by decide)).trans <|
  (W15_of_ne m ρ c main_arg6 (by decide)).trans <|
  (host_keeps hostOps6 (W13 m ρ c) hostOps6_writes main_arg6 (by decide)).trans <|
  (W13_of_ne m ρ c main_arg6 (by decide)).trans <|
  (host_keeps hostOps5 (W11 m ρ c) hostOps5_writes main_arg6 (by decide)).trans <|
  (W11_of_ne m ρ c main_arg6 (by decide)).trans <|
  (host_keeps hostOps4 (W9 m ρ c) hostOps4_writes main_arg6 (by decide)).trans <|
  (W9_of_ne m ρ c main_arg6 (by decide)).trans <|
  (host_keeps hostOps3 (W7 m ρ c) hostOps3_writes main_arg6 (by decide)).trans <|
  (W7_of_ne m ρ c main_arg6 (by decide)).trans <|
  (host_keeps hostOps2 (W5 m ρ c) hostOps2_writes main_arg6 (by decide)).trans <|
  (W5_of_ne m ρ c main_arg6 (by decide)).trans <|
  (host_keeps hostOps1 (W3 m ρ c) hostOps1_writes main_arg6 (by decide)).trans <|
  (W3_of_ne m ρ c main_arg6 (by decide)).trans <|
  (host_keeps hostOps0_1 (W1 m ρ c) hostOps0_1_writes main_arg6 (by decide)).trans <|
  (host_keeps hostOps0 (W0 m ρ c) hostOps0_writes main_arg6 (by decide)).trans <|
  rfl

theorem W21_main_arg7 (c : Dev nD) : W21 m ρ c (Proc.devRef .tc main_arg7) = m ((c : Thread nD τ).loc main_arg7) :=
  (W21_of_ne m ρ c main_arg7 (by decide)).trans <|
  (host_keeps hostOps8_2 (W19 m ρ c) hostOps8_2_writes main_arg7 (by decide)).trans <|
  (host_keeps hostOps8_1 (W18 m ρ c) hostOps8_1_writes main_arg7 (by decide)).trans <|
  (host_keeps hostOps8 (W17 m ρ c) hostOps8_writes main_arg7 (by decide)).trans <|
  (W17_of_ne m ρ c main_arg7 (by decide)).trans <|
  (host_keeps hostOps7 (W15 m ρ c) hostOps7_writes main_arg7 (by decide)).trans <|
  (W15_of_ne m ρ c main_arg7 (by decide)).trans <|
  (host_keeps hostOps6 (W13 m ρ c) hostOps6_writes main_arg7 (by decide)).trans <|
  (W13_of_ne m ρ c main_arg7 (by decide)).trans <|
  (host_keeps hostOps5 (W11 m ρ c) hostOps5_writes main_arg7 (by decide)).trans <|
  (W11_of_ne m ρ c main_arg7 (by decide)).trans <|
  (host_keeps hostOps4 (W9 m ρ c) hostOps4_writes main_arg7 (by decide)).trans <|
  (W9_of_ne m ρ c main_arg7 (by decide)).trans <|
  (host_keeps hostOps3 (W7 m ρ c) hostOps3_writes main_arg7 (by decide)).trans <|
  (W7_of_ne m ρ c main_arg7 (by decide)).trans <|
  (host_keeps hostOps2 (W5 m ρ c) hostOps2_writes main_arg7 (by decide)).trans <|
  (W5_of_ne m ρ c main_arg7 (by decide)).trans <|
  (host_keeps hostOps1 (W3 m ρ c) hostOps1_writes main_arg7 (by decide)).trans <|
  (W3_of_ne m ρ c main_arg7 (by decide)).trans <|
  (host_keeps hostOps0_1 (W1 m ρ c) hostOps0_1_writes main_arg7 (by decide)).trans <|
  (host_keeps hostOps0 (W0 m ρ c) hostOps0_writes main_arg7 (by decide)).trans <|
  rfl

theorem W21_main_arg8 (c : Dev nD) : W21 m ρ c (Proc.devRef .tc main_arg8) = m ((c : Thread nD τ).loc main_arg8) :=
  (W21_of_ne m ρ c main_arg8 (by decide)).trans <|
  (host_keeps hostOps8_2 (W19 m ρ c) hostOps8_2_writes main_arg8 (by decide)).trans <|
  (host_keeps hostOps8_1 (W18 m ρ c) hostOps8_1_writes main_arg8 (by decide)).trans <|
  (host_keeps hostOps8 (W17 m ρ c) hostOps8_writes main_arg8 (by decide)).trans <|
  (W17_of_ne m ρ c main_arg8 (by decide)).trans <|
  (host_keeps hostOps7 (W15 m ρ c) hostOps7_writes main_arg8 (by decide)).trans <|
  (W15_of_ne m ρ c main_arg8 (by decide)).trans <|
  (host_keeps hostOps6 (W13 m ρ c) hostOps6_writes main_arg8 (by decide)).trans <|
  (W13_of_ne m ρ c main_arg8 (by decide)).trans <|
  (host_keeps hostOps5 (W11 m ρ c) hostOps5_writes main_arg8 (by decide)).trans <|
  (W11_of_ne m ρ c main_arg8 (by decide)).trans <|
  (host_keeps hostOps4 (W9 m ρ c) hostOps4_writes main_arg8 (by decide)).trans <|
  (W9_of_ne m ρ c main_arg8 (by decide)).trans <|
  (host_keeps hostOps3 (W7 m ρ c) hostOps3_writes main_arg8 (by decide)).trans <|
  (W7_of_ne m ρ c main_arg8 (by decide)).trans <|
  (host_keeps hostOps2 (W5 m ρ c) hostOps2_writes main_arg8 (by decide)).trans <|
  (W5_of_ne m ρ c main_arg8 (by decide)).trans <|
  (host_keeps hostOps1 (W3 m ρ c) hostOps1_writes main_arg8 (by decide)).trans <|
  (W3_of_ne m ρ c main_arg8 (by decide)).trans <|
  (host_keeps hostOps0_1 (W1 m ρ c) hostOps0_1_writes main_arg8 (by decide)).trans <|
  (host_keeps hostOps0 (W0 m ρ c) hostOps0_writes main_arg8 (by decide)).trans <|
  rfl

theorem W21_main_arg9 (c : Dev nD) : W21 m ρ c (Proc.devRef .tc main_arg9) = m ((c : Thread nD τ).loc main_arg9) :=
  (W21_of_ne m ρ c main_arg9 (by decide)).trans <|
  (host_keeps hostOps8_2 (W19 m ρ c) hostOps8_2_writes main_arg9 (by decide)).trans <|
  (host_keeps hostOps8_1 (W18 m ρ c) hostOps8_1_writes main_arg9 (by decide)).trans <|
  (host_keeps hostOps8 (W17 m ρ c) hostOps8_writes main_arg9 (by decide)).trans <|
  (W17_of_ne m ρ c main_arg9 (by decide)).trans <|
  (host_keeps hostOps7 (W15 m ρ c) hostOps7_writes main_arg9 (by decide)).trans <|
  (W15_of_ne m ρ c main_arg9 (by decide)).trans <|
  (host_keeps hostOps6 (W13 m ρ c) hostOps6_writes main_arg9 (by decide)).trans <|
  (W13_of_ne m ρ c main_arg9 (by decide)).trans <|
  (host_keeps hostOps5 (W11 m ρ c) hostOps5_writes main_arg9 (by decide)).trans <|
  (W11_of_ne m ρ c main_arg9 (by decide)).trans <|
  (host_keeps hostOps4 (W9 m ρ c) hostOps4_writes main_arg9 (by decide)).trans <|
  (W9_of_ne m ρ c main_arg9 (by decide)).trans <|
  (host_keeps hostOps3 (W7 m ρ c) hostOps3_writes main_arg9 (by decide)).trans <|
  (W7_of_ne m ρ c main_arg9 (by decide)).trans <|
  (host_keeps hostOps2 (W5 m ρ c) hostOps2_writes main_arg9 (by decide)).trans <|
  (W5_of_ne m ρ c main_arg9 (by decide)).trans <|
  (host_keeps hostOps1 (W3 m ρ c) hostOps1_writes main_arg9 (by decide)).trans <|
  (W3_of_ne m ρ c main_arg9 (by decide)).trans <|
  (host_keeps hostOps0_1 (W1 m ρ c) hostOps0_1_writes main_arg9 (by decide)).trans <|
  (host_keeps hostOps0 (W0 m ρ c) hostOps0_writes main_arg9 (by decide)).trans <|
  rfl

theorem W21_main_arg10 (c : Dev nD) : W21 m ρ c (Proc.devRef .tc main_arg10) = m ((c : Thread nD τ).loc main_arg10) :=
  ((W21_arr m ρ c 1).trans (((dat8 (U20 m ρ) c).arrAt_in 1 rfl _).trans (A_eq8 (U20 m ρ) c 1))).trans <|
  (host_keeps hostOps8_2 (W19 m ρ c) hostOps8_2_writes main_arg10 (by decide)).trans <|
  (host_keeps hostOps8_1 (W18 m ρ c) hostOps8_1_writes main_arg10 (by decide)).trans <|
  (host_keeps hostOps8 (W17 m ρ c) hostOps8_writes main_arg10 (by decide)).trans <|
  (W17_of_ne m ρ c main_arg10 (by decide)).trans <|
  (host_keeps hostOps7 (W15 m ρ c) hostOps7_writes main_arg10 (by decide)).trans <|
  (W15_of_ne m ρ c main_arg10 (by decide)).trans <|
  (host_keeps hostOps6 (W13 m ρ c) hostOps6_writes main_arg10 (by decide)).trans <|
  (W13_of_ne m ρ c main_arg10 (by decide)).trans <|
  (host_keeps hostOps5 (W11 m ρ c) hostOps5_writes main_arg10 (by decide)).trans <|
  (W11_of_ne m ρ c main_arg10 (by decide)).trans <|
  (host_keeps hostOps4 (W9 m ρ c) hostOps4_writes main_arg10 (by decide)).trans <|
  (W9_of_ne m ρ c main_arg10 (by decide)).trans <|
  (host_keeps hostOps3 (W7 m ρ c) hostOps3_writes main_arg10 (by decide)).trans <|
  (W7_of_ne m ρ c main_arg10 (by decide)).trans <|
  (host_keeps hostOps2 (W5 m ρ c) hostOps2_writes main_arg10 (by decide)).trans <|
  (W5_of_ne m ρ c main_arg10 (by decide)).trans <|
  (host_keeps hostOps1 (W3 m ρ c) hostOps1_writes main_arg10 (by decide)).trans <|
  (W3_of_ne m ρ c main_arg10 (by decide)).trans <|
  (host_keeps hostOps0_1 (W1 m ρ c) hostOps0_1_writes main_arg10 (by decide)).trans <|
  (host_keeps hostOps0 (W0 m ρ c) hostOps0_writes main_arg10 (by decide)).trans <|
  rfl

theorem W21_main_arg11 (c : Dev nD) : W21 m ρ c (Proc.devRef .tc main_arg11) = m ((c : Thread nD τ).loc main_arg11) :=
  (W21_of_ne m ρ c main_arg11 (by decide)).trans <|
  (host_keeps hostOps8_2 (W19 m ρ c) hostOps8_2_writes main_arg11 (by decide)).trans <|
  (host_keeps hostOps8_1 (W18 m ρ c) hostOps8_1_writes main_arg11 (by decide)).trans <|
  (host_keeps hostOps8 (W17 m ρ c) hostOps8_writes main_arg11 (by decide)).trans <|
  (W17_of_ne m ρ c main_arg11 (by decide)).trans <|
  (host_keeps hostOps7 (W15 m ρ c) hostOps7_writes main_arg11 (by decide)).trans <|
  (W15_of_ne m ρ c main_arg11 (by decide)).trans <|
  (host_keeps hostOps6 (W13 m ρ c) hostOps6_writes main_arg11 (by decide)).trans <|
  (W13_of_ne m ρ c main_arg11 (by decide)).trans <|
  (host_keeps hostOps5 (W11 m ρ c) hostOps5_writes main_arg11 (by decide)).trans <|
  (W11_of_ne m ρ c main_arg11 (by decide)).trans <|
  (host_keeps hostOps4 (W9 m ρ c) hostOps4_writes main_arg11 (by decide)).trans <|
  (W9_of_ne m ρ c main_arg11 (by decide)).trans <|
  (host_keeps hostOps3 (W7 m ρ c) hostOps3_writes main_arg11 (by decide)).trans <|
  (W7_of_ne m ρ c main_arg11 (by decide)).trans <|
  (host_keeps hostOps2 (W5 m ρ c) hostOps2_writes main_arg11 (by decide)).trans <|
  (W5_of_ne m ρ c main_arg11 (by decide)).trans <|
  (host_keeps hostOps1 (W3 m ρ c) hostOps1_writes main_arg11 (by decide)).trans <|
  (W3_of_ne m ρ c main_arg11 (by decide)).trans <|
  (host_keeps hostOps0_1 (W1 m ρ c) hostOps0_1_writes main_arg11 (by decide)).trans <|
  (host_keeps hostOps0 (W0 m ρ c) hostOps0_writes main_arg11 (by decide)).trans <|
  rfl

theorem W21_main_arg12 (c : Dev nD) : W21 m ρ c (Proc.devRef .tc main_arg12) = m ((c : Thread nD τ).loc main_arg12) :=
  ((W21_arr m ρ c 3).trans (((dat8 (U20 m ρ) c).arrAt_in 3 rfl _).trans (A_eq8 (U20 m ρ) c 3))).trans <|
  (host_keeps hostOps8_2 (W19 m ρ c) hostOps8_2_writes main_arg12 (by decide)).trans <|
  (host_keeps hostOps8_1 (W18 m ρ c) hostOps8_1_writes main_arg12 (by decide)).trans <|
  (host_keeps hostOps8 (W17 m ρ c) hostOps8_writes main_arg12 (by decide)).trans <|
  (W17_of_ne m ρ c main_arg12 (by decide)).trans <|
  (host_keeps hostOps7 (W15 m ρ c) hostOps7_writes main_arg12 (by decide)).trans <|
  (W15_of_ne m ρ c main_arg12 (by decide)).trans <|
  (host_keeps hostOps6 (W13 m ρ c) hostOps6_writes main_arg12 (by decide)).trans <|
  (W13_of_ne m ρ c main_arg12 (by decide)).trans <|
  (host_keeps hostOps5 (W11 m ρ c) hostOps5_writes main_arg12 (by decide)).trans <|
  (W11_of_ne m ρ c main_arg12 (by decide)).trans <|
  (host_keeps hostOps4 (W9 m ρ c) hostOps4_writes main_arg12 (by decide)).trans <|
  (W9_of_ne m ρ c main_arg12 (by decide)).trans <|
  (host_keeps hostOps3 (W7 m ρ c) hostOps3_writes main_arg12 (by decide)).trans <|
  (W7_of_ne m ρ c main_arg12 (by decide)).trans <|
  (host_keeps hostOps2 (W5 m ρ c) hostOps2_writes main_arg12 (by decide)).trans <|
  (W5_of_ne m ρ c main_arg12 (by decide)).trans <|
  (host_keeps hostOps1 (W3 m ρ c) hostOps1_writes main_arg12 (by decide)).trans <|
  (W3_of_ne m ρ c main_arg12 (by decide)).trans <|
  (host_keeps hostOps0_1 (W1 m ρ c) hostOps0_1_writes main_arg12 (by decide)).trans <|
  (host_keeps hostOps0 (W0 m ρ c) hostOps0_writes main_arg12 (by decide)).trans <|
  rfl

theorem W21_main_arg13 (c : Dev nD) : W21 m ρ c (Proc.devRef .tc main_arg13) = m ((c : Thread nD τ).loc main_arg13) :=
  (W21_of_ne m ρ c main_arg13 (by decide)).trans <|
  (host_keeps hostOps8_2 (W19 m ρ c) hostOps8_2_writes main_arg13 (by decide)).trans <|
  (host_keeps hostOps8_1 (W18 m ρ c) hostOps8_1_writes main_arg13 (by decide)).trans <|
  (host_keeps hostOps8 (W17 m ρ c) hostOps8_writes main_arg13 (by decide)).trans <|
  (W17_of_ne m ρ c main_arg13 (by decide)).trans <|
  (host_keeps hostOps7 (W15 m ρ c) hostOps7_writes main_arg13 (by decide)).trans <|
  (W15_of_ne m ρ c main_arg13 (by decide)).trans <|
  (host_keeps hostOps6 (W13 m ρ c) hostOps6_writes main_arg13 (by decide)).trans <|
  (W13_of_ne m ρ c main_arg13 (by decide)).trans <|
  (host_keeps hostOps5 (W11 m ρ c) hostOps5_writes main_arg13 (by decide)).trans <|
  (W11_of_ne m ρ c main_arg13 (by decide)).trans <|
  (host_keeps hostOps4 (W9 m ρ c) hostOps4_writes main_arg13 (by decide)).trans <|
  (W9_of_ne m ρ c main_arg13 (by decide)).trans <|
  (host_keeps hostOps3 (W7 m ρ c) hostOps3_writes main_arg13 (by decide)).trans <|
  (W7_of_ne m ρ c main_arg13 (by decide)).trans <|
  (host_keeps hostOps2 (W5 m ρ c) hostOps2_writes main_arg13 (by decide)).trans <|
  (W5_of_ne m ρ c main_arg13 (by decide)).trans <|
  (host_keeps hostOps1 (W3 m ρ c) hostOps1_writes main_arg13 (by decide)).trans <|
  (W3_of_ne m ρ c main_arg13 (by decide)).trans <|
  (host_keeps hostOps0_1 (W1 m ρ c) hostOps0_1_writes main_arg13 (by decide)).trans <|
  (host_keeps hostOps0 (W0 m ρ c) hostOps0_writes main_arg13 (by decide)).trans <|
  rfl

/-- The frame: every weakly fair execution ends, nothing faulting, the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W21_main_arg0 m ρ c),
    (h c _ (mem_uc main_arg1 (by decide))).trans (W21_main_arg1 m ρ c),
    (h c _ (mem_uc main_arg2 (by decide))).trans (W21_main_arg2 m ρ c),
    (h c _ (mem_uc main_arg3 (by decide))).trans (W21_main_arg3 m ρ c),
    (h c _ (mem_uc main_arg4 (by decide))).trans (W21_main_arg4 m ρ c),
    (h c _ (mem_uc main_arg5 (by decide))).trans (W21_main_arg5 m ρ c),
    (h c _ (mem_uc main_arg6 (by decide))).trans (W21_main_arg6 m ρ c),
    (h c _ (mem_uc main_arg7 (by decide))).trans (W21_main_arg7 m ρ c),
    (h c _ (mem_uc main_arg8 (by decide))).trans (W21_main_arg8 m ρ c),
    (h c _ (mem_uc main_arg9 (by decide))).trans (W21_main_arg9 m ρ c),
    (h c _ (mem_uc main_arg10 (by decide))).trans (W21_main_arg10 m ρ c),
    (h c _ (mem_uc main_arg11 (by decide))).trans (W21_main_arg11 m ρ c),
    (h c _ (mem_uc main_arg12 (by decide))).trans (W21_main_arg12 m ρ c),
    (h c _ (mem_uc main_arg13 (by decide))).trans (W21_main_arg13 m ρ c)⟩) (run_all m ρ)

end Cert.Kernel.Hand

end
-- ==== Proof.KI.RegA0.lean ====
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of @main: the first pass of a GIN layer (`cc0__pass_a_kernel`), at the entry contents `V`

The body at grid point `t` computes, from the seven input blocks, the rows `h_pre` of tile `t` before batch
normalisation (the payload `k0_pay5`), stores them into output window 7, and adds their column sums and column
sums of squares into two scratch rows that live across the grid (`k0_pay1`, `k0_pay2`), which the first point
zeroes beforehand (`k0_pay3`, `k0_pay4`); each point copies the two running rows into output windows 8 and 9,
which the pipeline writes back after the last point only. So the invariant carries the scratch contents point by
point. -/

/-- The zero offsets of a whole-buffer rectangle of rank 2, as a constant function. -/
theorem hz0 : (![0, 0] : Fin 2 → Nat) = fun _ => 0 := funext fun a => by fin_cases a <;> rfl

/-- One store through the whole-buffer rectangle, made LAST, leaves its payload: the rectangle covers every index. -/
theorem read_writes_cons_whole0 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole0 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA0 : Rect S1x128 := Rect.unit (s := S1x128) ![0, 0] S1x128.size inb_S1x128_S1x128_0_0
abbrev rB0 : Rect S5000x128 := Rect.unit (s := S5000x128) ![0, 0] S5000x128.size inb_S5000x128_S5000x128_0_0
abbrev rC0 : Rect S128x128 := Rect.unit (s := S128x128) ![0, 0] S128x128.size inb_S128x128_S128x128_0_0

/-- A load through a whole-buffer rectangle reads the contents. -/
theorem ldA0 (x : Vec F S1x128 .f32) : View.ld x rA0 = x := View.ld_unit_zero hz0 _ x
theorem ldB0 (x : Vec F S5000x128 .f32) : View.ld x rB0 = x := View.ld_unit_zero hz0 _ x
theorem ldC0 (x : Vec F S128x128 .f32) : View.ld x rC0 = x := View.ld_unit_zero hz0 _ x

/-- The rows before batch normalisation as the body computes them, from what its seven loads read. -/
def preL0 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k0_pay5 (View.ld x0 rA0) (View.ld x1 rB0) (View.ld x2 rB0) (View.ld x3 rC0) (View.ld x4 rA0) (View.ld x5 rC0) (View.ld x6 rA0)

/-- The loads read the whole blocks. -/
theorem preL0_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL0 x0 x1 x2 x3 x4 x5 x6 = k0_pay5 x0 x1 x2 x3 x4 x5 x6 := by
  unfold preL0; rw [ldA0, ldB0, ldB0, ldC0, ldA0, ldC0, ldA0]

/-! ## The body's branch: the reset of the two running rows at the first point -/

/-- The condition of the body's `scf.if` (`k0_h1`), from the grid coordinates: the point is the first. -/
abbrev cond0 (i : grid0.Coords) : Prop := (Scalar.cmpi .ne (Scalar.extui (Scalar.cmpi .eq (BitVec.ofNat 32 (i 0).val) 0#32)) 0#32) = 1#1

/-- It holds at point 0 only — decided over the grid. -/
theorem hcond0 : ∀ t : Fin cfg0.N, cond0 (grid0.coords t) ↔ t.val % 20 = 0 :=
  (by decide +kernel : ∀ t : Fin grid0.N, cond0 (grid0.coords t) ↔ t.val % 20 = 0)

/-! ## The body's triples, one per case of the branch -/

set_option maxHeartbeats 4000000 in
/-- The run of the body at a later point, the loads spelt through their rectangles (`preL0`, `View.ld`): the printed functions
    are their skeletons, which the executor runs through the part call and the decided branch; each buffer the body
    stores into ends at its last store's payload, the store covering it. -/
theorem sound_kernel0_later_ld (c : Dev nD) (E : Set ℕ) (i : grid0.Coords) (hc : ¬cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL0 x0 x1 x2 x3 x4 x5 x6)
            ∗ owns (c : Thread nD τ) arg9 fullShare (k0_pay1 (preL0 x0 x1 x2 x3 x4 x5 x6) (View.ld s0 rA0)) ∗ owns (c : Thread nD τ) arg10 fullShare (k0_pay2 (preL0 x0 x1 x2 x3 x4 x5 x6) (View.ld s1 rA0))
            ∗ owns (c : Thread nD τ) arg11 fullShare (k0_pay1 (preL0 x0 x1 x2 x3 x4 x5 x6) (View.ld s0 rA0)) ∗ owns (c : Thread nD τ) arg12 fullShare (k0_pay2 (preL0 x0 x1 x2 x3 x4 x5 x6) (View.ld s1 rA0))) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  simp only [cc0__pass_a_kernel_eq_skeleton]; unfold cc0__pass_a_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole0 _ _ hz0 _ _ _).trans ?_
    (try sl_unfold_words)
    (repeat rw [readCov_cons_whole0])
    (try rfl)
  isplitl [H8]
  · iexists _; isplitr
    swap; · iexact H8
    ipureintro
    refine (read_writes_cons_whole0 _ _ hz0 _ _ _).trans ?_
    (try sl_unfold_words)
    (repeat rw [readCov_cons_whole0])
    (try rfl)
  isplitl [H9]
  · iexists _; isplitr
    swap; · iexact H9
    ipureintro
    refine (read_writes_cons_whole0 _ _ hz0 _ _ _).trans ?_
    (try sl_unfold_words)
    (repeat rw [readCov_cons_whole0])
    (try rfl)
  isplitl [HS0]
  · iexists _; isplitr
    swap; · iexact HS0
    ipureintro
    refine (read_writes_cons_whole0 _ _ hz0 _ _ _).trans ?_
    (try sl_unfold_words)
    (repeat rw [readCov_cons_whole0])
    (try rfl)
  iexists _; isplitr
  swap; · iexact HS1
  ipureintro
  refine (read_writes_cons_whole0 _ _ hz0 _ _ _).trans ?_
  (try sl_unfold_words)
  (repeat rw [readCov_cons_whole0])
  (try rfl)

/-- AT A LATER POINT (the branch not taken): on whole memrefs, the inputs' at read contents `xW`, the outputs' at
    anything and the two running rows at `s0`, `s1`, the body runs to the continuation holding the inputs as they
    were, output 7 at the rows `k0_pay5` of the inputs, and both the scratch rows and outputs 8, 9 at the running
    rows with this tile's column sums (`k0_pay1`) and column sums of squares (`k0_pay2`) added. -/
theorem sound_kernel0_later (c : Dev nD) (E : Set ℕ) (i : grid0.Coords) (hc : ¬cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6)
            ∗ owns (c : Thread nD τ) arg9 fullShare (k0_pay1 (k0_pay5 x0 x1 x2 x3 x4 x5 x6) s0) ∗ owns (c : Thread nD τ) arg10 fullShare (k0_pay2 (k0_pay5 x0 x1 x2 x3 x4 x5 x6) s1)
            ∗ owns (c : Thread nD τ) arg11 fullShare (k0_pay1 (k0_pay5 x0 x1 x2 x3 x4 x5 x6) s0) ∗ owns (c : Thread nD τ) arg12 fullShare (k0_pay2 (k0_pay5 x0 x1 x2 x3 x4 x5 x6) s1)) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  have h := sound_kernel0_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL0_eq, ldA0, ldA0] at h
  exact h

set_option maxHeartbeats 4000000 in
/-- The run of the body at the first point, the loads spelt through their rectangles (`preL0`, `View.ld`): the printed functions
    are their skeletons, which the executor runs through the part call and the decided branch; each buffer the body
    stores into ends at its last store's payload, the store covering it. -/
theorem sound_kernel0_first_ld (c : Dev nD) (E : Set ℕ) (i : grid0.Coords) (hc : cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL0 x0 x1 x2 x3 x4 x5 x6)
            ∗ owns (c : Thread nD τ) arg9 fullShare (k0_pay1 (preL0 x0 x1 x2 x3 x4 x5 x6) (k0_pay3 (F := F))) ∗ owns (c : Thread nD τ) arg10 fullShare (k0_pay2 (preL0 x0 x1 x2 x3 x4 x5 x6) (k0_pay4 (F := F)))
            ∗ owns (c : Thread nD τ) arg11 fullShare (k0_pay1 (preL0 x0 x1 x2 x3 x4 x5 x6) (k0_pay3 (F := F))) ∗ owns (c : Thread nD τ) arg12 fullShare (k0_pay2 (preL0 x0 x1 x2 x3 x4 x5 x6) (k0_pay4 (F := F)))) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  simp only [cc0__pass_a_kernel_eq_skeleton]; unfold cc0__pass_a_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole0 _ _ hz0 _ _ _).trans ?_
    (try sl_unfold_words)
    (repeat rw [readCov_cons_whole0])
    (try rfl)
  isplitl [H8]
  · iexists _; isplitr
    swap; · iexact H8
    ipureintro
    refine (read_writes_cons_whole0 _ _ hz0 _ _ _).trans ?_
    (try sl_unfold_words)
    (repeat rw [readCov_cons_whole0])
    (try rfl)
  isplitl [H9]
  · iexists _; isplitr
    swap; · iexact H9
    ipureintro
    refine (read_writes_cons_whole0 _ _ hz0 _ _ _).trans ?_
    (try sl_unfold_words)
    (repeat rw [readCov_cons_whole0])
    (try rfl)
  isplitl [HS0]
  · iexists _; isplitr
    swap; · iexact HS0
    ipureintro
    refine (read_writes_cons_whole0 _ _ hz0 _ _ _).trans ?_
    (try sl_unfold_words)
    (repeat rw [readCov_cons_whole0])
    (try rfl)
  iexists _; isplitr
  swap; · iexact HS1
  ipureintro
  refine (read_writes_cons_whole0 _ _ hz0 _ _ _).trans ?_
  (try sl_unfold_words)
  (repeat rw [readCov_cons_whole0])
  (try rfl)

/-- AT THE FIRST POINT (the branch taken): the two scratch rows, found at anything, are zeroed (`k0_pay3`,
    `k0_pay4`) before the accumulation, so the body leaves them, and outputs 8 and 9, at this tile's sums added to
    the zero rows. -/
theorem sound_kernel0_first (c : Dev nD) (E : Set ℕ) (i : grid0.Coords) (hc : cond0 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay5 x0 x1 x2 x3 x4 x5 x6)
            ∗ owns (c : Thread nD τ) arg9 fullShare (k0_pay1 (k0_pay5 x0 x1 x2 x3 x4 x5 x6) (k0_pay3 (F := F))) ∗ owns (c : Thread nD τ) arg10 fullShare (k0_pay2 (k0_pay5 x0 x1 x2 x3 x4 x5 x6) (k0_pay4 (F := F)))
            ∗ owns (c : Thread nD τ) arg11 fullShare (k0_pay1 (k0_pay5 x0 x1 x2 x3 x4 x5 x6) (k0_pay3 (F := F))) ∗ owns (c : Thread nD τ) arg12 fullShare (k0_pay2 (k0_pay5 x0 x1 x2 x3 x4 x5 x6) (k0_pay4 (F := F)))) -∗ K ⟨⟩))
      ⊢ wp frame (wpE (defs₀ (F := F)) Variants.none c none) E (cc0__pass_a_kernel i arg1 harg1 arg2 harg2 arg3 harg3 arg4 harg4 arg5 harg5 arg6 harg6 arg7 harg7 arg8 harg8 arg9 harg9 arg10 harg10 arg11 harg11 arg12 harg12) K := by
  have h := sound_kernel0_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL0_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for ANY proof
    data whose array is `V`'s (`hA`) and whose body leaves the block in place (`hafter`): an unfetched window's block
    index has not moved; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the points compute -/

/-- The rows of tile `t` before batch normalisation: the body's payload at the seven input blocks of point `t`. -/
def hpre0 (c : Dev nD) (t : Fin cfg0.N) : Vec F S5000x128 .f32 :=
  k0_pay5 (iblk0 V c 0 t) (iblk0 V c 1 t) (iblk0 V c 2 t) (iblk0 V c 3 t) (iblk0 V c 4 t) (iblk0 V c 5 t) (iblk0 V c 6 t)

/-- The running row of column sums AFTER `n` points: the zero row, then each tile's column sums added in point order. -/
def sumAt0 (c : Dev nD) : ℕ → Vec F S1x128 .f32
  | 0 => k0_pay3
  | n + 1 => if h : n < cfg0.N then k0_pay1 (hpre0 V c ⟨n, h⟩) (sumAt0 c n) else sumAt0 c n

/-- The running row of column sums of squares AFTER `n` points, likewise. -/
def sqAt0 (c : Dev nD) : ℕ → Vec F S1x128 .f32
  | 0 => k0_pay4
  | n + 1 => if h : n < cfg0.N then k0_pay2 (hpre0 V c ⟨n, h⟩) (sqAt0 c n) else sqAt0 c n

theorem sumAt0_zero (c : Dev nD) : sumAt0 V c 0 = k0_pay3 := rfl
theorem sqAt0_zero (c : Dev nD) : sqAt0 V c 0 = k0_pay4 := rfl

/-- After point `t` the running sums are the previous ones with tile `t`'s column sums added. -/
theorem sumAt0_succ (c : Dev nD) (t : Fin cfg0.N) :
    sumAt0 V c (t.val + 1) = k0_pay1 (hpre0 V c t) (sumAt0 V c t.val) := by
  rw [sumAt0, dif_pos t.isLt]
theorem sqAt0_succ (c : Dev nD) (t : Fin cfg0.N) :
    sqAt0 V c (t.val + 1) = k0_pay2 (hpre0 V c t) (sqAt0 V c t.val) := by
  rw [sqAt0, dif_pos t.isLt]

/-! ## The invariant: the two running rows, point by point -/

/-- The scratch operands: whole scoped buffers of the kernel's own, passed beside the windows. -/
abbrev sc0_0 : Memref sig .tc .vmem S1x128 .f32 := Memref.whole cc0_scratch0
abbrev sc0_1 : Memref sig .tc .vmem S1x128 .f32 := Memref.whole cc0_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS0 (c : Dev nD) : ℕ → sProp 𝕄
  | 0 => Pipeline.ΦA spec0 c
  | n + 1 => iprop(iprop(iprop(owns (c : Thread nD τ) sc0_0 fullShare (sumAt0 V c (n + 1)) ∗ owns (c : Thread nD τ) sc0_1 fullShare (sqAt0 V c (n + 1)))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) : PhiS0 V c 0 = Pipeline.ΦA spec0 c := rfl
theorem PhiS0_succ (c : Dev nD) (n : ℕ) :
    PhiS0 V c (n + 1) = iprop(iprop(iprop(owns (c : Thread nD τ) sc0_0 fullShare (sumAt0 V c (n + 1)) ∗ owns (c : Thread nD τ) sc0_1 fullShare (sqAt0 V c (n + 1)))
      ∗ Pipeline.scopedRestBut (Ix := Unit) (Name := ℕ) (U := UR sig nD τ) (Lvl := ℕ) (Val := Elt F) spec0 c [cc0_scratch0, cc0_scratch1]) ∗ (∃ r, prngReg c r)) := rfl

/-- The class invariant with the two scratch operands as memrefs owned at some contents. -/
theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [sc0_0, sc0_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hpre0 V c t
    | ⟨8, _⟩ => sumAt0 V c (t.val + 1)
    | ⟨9, _⟩ => sqAt0 V c (t.val + 1)
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hpre0 V c t := by dsimp only [dat0]
theorem after0_8 (c : Dev nD) (t : Fin cfg0.N) : (dat0 V c).after 8 t = sumAt0 V c (t.val + 1) := by dsimp only [dat0]
theorem after0_9 (c : Dev nD) (t : Fin cfg0.N) : (dat0 V c).after 9 t = sqAt0 V c (t.val + 1) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The invariant at a point's start and end, restated at the point's number. -/
theorem Phi0_castSucc (c : Dev nD) (t : Fin cfg0.N) : (dat0 V c).Φ t.castSucc = PhiS0 V c t.val := rfl
theorem Phi0_succ (c : Dev nD) (t : Fin cfg0.N) : (dat0 V c).Φ t.succ = PhiS0 V c (t.val + 1) := rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9,
    Phi0_castSucc, Phi0_succ, PhiS0_succ, sumAt0_succ, sqAt0_succ]
  have hN : t.val < 20 := lt_of_lt_of_eq t.isLt (show cfg0.N = 20 from N_0)
  by_cases hz : t.val = 0
  · rw [hz, PhiS0_zero, PhiA0_eq, sumAt0_zero, sqAt0_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_first c Set.univ (grid0.coords t) ((hcond0 t).mpr (by omega)) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS0_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_later c Set.univ (grid0.coords t) (fun h => by have := (hcond0 t).mp h; omega) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      (sumAt0 V c (n + 1)) (sqAt0 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant at the region's entry, out of it at its exit -/

/-- What the region hands the kernel — the generator register at some state and the scoped rest at any contents —
    is the invariant before the first point. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- After the last point the invariant gives them back: the running rows' named contents are forgotten. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (19 + 1) from rfl, PhiS0_succ, scopedRest0_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.KernelIdeal.Hand

end
-- ==== Proof.KI.RegA2.lean ====
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of @main: the first pass of a GIN layer (`cc2__pass_a_kernel`), at the entry contents `V`

The body at grid point `t` computes, from the seven input blocks, the rows `h_pre` of tile `t` before batch
normalisation (the payload `k2_pay5`), stores them into output window 7, and adds their column sums and column
sums of squares into two scratch rows that live across the grid (`k2_pay1`, `k2_pay2`), which the first point
zeroes beforehand (`k2_pay3`, `k2_pay4`); each point copies the two running rows into output windows 8 and 9,
which the pipeline writes back after the last point only. So the invariant carries the scratch contents point by
point. -/

/-- The zero offsets of a whole-buffer rectangle of rank 2, as a constant function. -/
theorem hz2 : (![0, 0] : Fin 2 → Nat) = fun _ => 0 := funext fun a => by fin_cases a <;> rfl

/-- One store through the whole-buffer rectangle, made LAST, leaves its payload: the rectangle covers every index. -/
theorem read_writes_cons_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole2 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA2 : Rect S1x128 := Rect.unit (s := S1x128) ![0, 0] S1x128.size inb_S1x128_S1x128_0_0
abbrev rB2 : Rect S5000x128 := Rect.unit (s := S5000x128) ![0, 0] S5000x128.size inb_S5000x128_S5000x128_0_0
abbrev rC2 : Rect S128x128 := Rect.unit (s := S128x128) ![0, 0] S128x128.size inb_S128x128_S128x128_0_0

/-- A load through a whole-buffer rectangle reads the contents. -/
theorem ldA2 (x : Vec F S1x128 .f32) : View.ld x rA2 = x := View.ld_unit_zero hz2 _ x
theorem ldB2 (x : Vec F S5000x128 .f32) : View.ld x rB2 = x := View.ld_unit_zero hz2 _ x
theorem ldC2 (x : Vec F S128x128 .f32) : View.ld x rC2 = x := View.ld_unit_zero hz2 _ x

/-- The rows before batch normalisation as the body computes them, from what its seven loads read. -/
def preL2 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k2_pay5 (View.ld x0 rA2) (View.ld x1 rB2) (View.ld x2 rB2) (View.ld x3 rC2) (View.ld x4 rA2) (View.ld x5 rC2) (View.ld x6 rA2)

/-- The loads read the whole blocks. -/
theorem preL2_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL2 x0 x1 x2 x3 x4 x5 x6 = k2_pay5 x0 x1 x2 x3 x4 x5 x6 := by
  unfold preL2; rw [ldA2, ldB2, ldB2, ldC2, ldA2, ldC2, ldA2]

/-! ## The body's branch: the reset of the two running rows at the first point -/

/-- The condition of the body's `scf.if` (`k2_h1`), from the grid coordinates: the point is the first. -/
abbrev cond2 (i : grid2.Coords) : Prop := (Scalar.cmpi .ne (Scalar.extui (Scalar.cmpi .eq (BitVec.ofNat 32 (i 0).val) 0#32)) 0#32) = 1#1

/-- It holds at point 0 only — decided over the grid. -/
theorem hcond2 : ∀ t : Fin cfg2.N, cond2 (grid2.coords t) ↔ t.val % 20 = 0 :=
  (by decide +kernel : ∀ t : Fin grid2.N, cond2 (grid2.coords t) ↔ t.val % 20 = 0)

/-! ## The body's triples, one per case of the branch -/

set_option maxHeartbeats 4000000 in
/-- The run of the body at a later point, the loads spelt through their rectangles (`preL2`, `View.ld`): the printed functions
    are their skeletons, which the executor runs through the part call and the decided branch; each buffer the body
    stores into ends at its last store's payload, the store covering it. -/
theorem sound_kernel2_later_ld (c : Dev nD) (E : Set ℕ) (i : grid2.Coords) (hc : ¬cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL2 x0 x1 x2 x3 x4 x5 x6)
            ∗ owns (c : Thread nD τ) arg9 fullShare (k2_pay1 (preL2 x0 x1 x2 x3 x4 x5 x6) (View.ld s0 rA2)) ∗ owns (c : Thread nD τ) arg10 fullShare (k2_pay2 (preL2 x0 x1 x2 x3 x4 x5 x6) (View.ld s1 rA2))
            ∗ owns (c : Thread nD τ) arg11 fullShare (k2_pay1 (preL2 x0 x1 x2 x3 x4 x5 x6) (View.ld s0 rA2)) ∗ owns (c : Thread nD τ) arg12 fullShare (k2_pay2 (preL2 x0 x1 x2 x3 x4 x5 x6) (View.ld s1 rA2))) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  simp only [cc2__pass_a_kernel_eq_skeleton]; unfold cc2__pass_a_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole2 _ _ hz2 _ _ _).trans ?_
    (try sl_unfold_words)
    (repeat rw [readCov_cons_whole2])
    (try rfl)
  isplitl [H8]
  · iexists _; isplitr
    swap; · iexact H8
    ipureintro
    refine (read_writes_cons_whole2 _ _ hz2 _ _ _).trans ?_
    (try sl_unfold_words)
    (repeat rw [readCov_cons_whole2])
    (try rfl)
  isplitl [H9]
  · iexists _; isplitr
    swap; · iexact H9
    ipureintro
    refine (read_writes_cons_whole2 _ _ hz2 _ _ _).trans ?_
    (try sl_unfold_words)
    (repeat rw [readCov_cons_whole2])
    (try rfl)
  isplitl [HS0]
  · iexists _; isplitr
    swap; · iexact HS0
    ipureintro
    refine (read_writes_cons_whole2 _ _ hz2 _ _ _).trans ?_
    (try sl_unfold_words)
    (repeat rw [readCov_cons_whole2])
    (try rfl)
  iexists _; isplitr
  swap; · iexact HS1
  ipureintro
  refine (read_writes_cons_whole2 _ _ hz2 _ _ _).trans ?_
  (try sl_unfold_words)
  (repeat rw [readCov_cons_whole2])
  (try rfl)

/-- AT A LATER POINT (the branch not taken): on whole memrefs, the inputs' at read contents `xW`, the outputs' at
    anything and the two running rows at `s0`, `s1`, the body runs to the continuation holding the inputs as they
    were, output 7 at the rows `k2_pay5` of the inputs, and both the scratch rows and outputs 8, 9 at the running
    rows with this tile's column sums (`k2_pay1`) and column sums of squares (`k2_pay2`) added. -/
theorem sound_kernel2_later (c : Dev nD) (E : Set ℕ) (i : grid2.Coords) (hc : ¬cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6)
            ∗ owns (c : Thread nD τ) arg9 fullShare (k2_pay1 (k2_pay5 x0 x1 x2 x3 x4 x5 x6) s0) ∗ owns (c : Thread nD τ) arg10 fullShare (k2_pay2 (k2_pay5 x0 x1 x2 x3 x4 x5 x6) s1)
            ∗ owns (c : Thread nD τ) arg11 fullShare (k2_pay1 (k2_pay5 x0 x1 x2 x3 x4 x5 x6) s0) ∗ owns (c : Thread nD τ) arg12 fullShare (k2_pay2 (k2_pay5 x0 x1 x2 x3 x4 x5 x6) s1)) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  have h := sound_kernel2_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL2_eq, ldA2, ldA2] at h
  exact h

set_option maxHeartbeats 4000000 in
/-- The run of the body at the first point, the loads spelt through their rectangles (`preL2`, `View.ld`): the printed functions
    are their skeletons, which the executor runs through the part call and the decided branch; each buffer the body
    stores into ends at its last store's payload, the store covering it. -/
theorem sound_kernel2_first_ld (c : Dev nD) (E : Set ℕ) (i : grid2.Coords) (hc : cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL2 x0 x1 x2 x3 x4 x5 x6)
            ∗ owns (c : Thread nD τ) arg9 fullShare (k2_pay1 (preL2 x0 x1 x2 x3 x4 x5 x6) (k2_pay3 (F := F))) ∗ owns (c : Thread nD τ) arg10 fullShare (k2_pay2 (preL2 x0 x1 x2 x3 x4 x5 x6) (k2_pay4 (F := F)))
            ∗ owns (c : Thread nD τ) arg11 fullShare (k2_pay1 (preL2 x0 x1 x2 x3 x4 x5 x6) (k2_pay3 (F := F))) ∗ owns (c : Thread nD τ) arg12 fullShare (k2_pay2 (preL2 x0 x1 x2 x3 x4 x5 x6) (k2_pay4 (F := F)))) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  simp only [cc2__pass_a_kernel_eq_skeleton]; unfold cc2__pass_a_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole2 _ _ hz2 _ _ _).trans ?_
    (try sl_unfold_words)
    (repeat rw [readCov_cons_whole2])
    (try rfl)
  isplitl [H8]
  · iexists _; isplitr
    swap; · iexact H8
    ipureintro
    refine (read_writes_cons_whole2 _ _ hz2 _ _ _).trans ?_
    (try sl_unfold_words)
    (repeat rw [readCov_cons_whole2])
    (try rfl)
  isplitl [H9]
  · iexists _; isplitr
    swap; · iexact H9
    ipureintro
    refine (read_writes_cons_whole2 _ _ hz2 _ _ _).trans ?_
    (try sl_unfold_words)
    (repeat rw [readCov_cons_whole2])
    (try rfl)
  isplitl [HS0]
  · iexists _; isplitr
    swap; · iexact HS0
    ipureintro
    refine (read_writes_cons_whole2 _ _ hz2 _ _ _).trans ?_
    (try sl_unfold_words)
    (repeat rw [readCov_cons_whole2])
    (try rfl)
  iexists _; isplitr
  swap; · iexact HS1
  ipureintro
  refine (read_writes_cons_whole2 _ _ hz2 _ _ _).trans ?_
  (try sl_unfold_words)
  (repeat rw [readCov_cons_whole2])
  (try rfl)

/-- AT THE FIRST POINT (the branch taken): the two scratch rows, found at anything, are zeroed (`k2_pay3`,
    `k2_pay4`) before the accumulation, so the body leaves them, and outputs 8 and 9, at this tile's sums added to
    the zero rows. -/
theorem sound_kernel2_first (c : Dev nD) (E : Set ℕ) (i : grid2.Coords) (hc : cond2 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay5 x0 x1 x2 x3 x4 x5 x6)
            ∗ owns (c : Thread nD τ) arg9 fullShare (k2_pay1 (k2_pay5 x0 x1 x2 x3 x4 x5 x6) (k2_pay3 (F := F))) ∗ owns (c : Thread nD τ) arg10 fullShare (k2_pay2 (k2_pay5 x0 x1 x2 x3 x4 x5 x6) (k2_pay4 (F := F)))
            ∗ owns (c : Thread nD τ) arg11 fullShare (k2_pay1 (k2_pay5 x0 x1 x2 x3 x4 x5 x6) (k2_pay3 (F := F))) ∗ owns (c : Thread nD τ) arg12 fullShare (k2_pay2 (k2_pay5 x0 x1 x2 x3 x4 x5 x6) (k2_pay4 (F := F)))) -∗ K ⟨⟩))
      ⊢ wp frame (wpE (defs₀ (F := F)) Variants.none c none) E (cc2__pass_a_kernel i arg1 harg1 arg2 harg2 arg3 harg3 arg4 harg4 arg5 harg5 arg6 harg6 arg7 harg7 arg8 harg8 arg9 harg9 arg10 harg10 arg11 harg11 arg12 harg12) K := by
  have h := sound_kernel2_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL2_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for ANY proof
    data whose array is `V`'s (`hA`) and whose body leaves the block in place (`hafter`): an unfetched window's block
    index has not moved; the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the points compute -/

/-- The rows of tile `t` before batch normalisation: the body's payload at the seven input blocks of point `t`. -/
def hpre2 (c : Dev nD) (t : Fin cfg2.N) : Vec F S5000x128 .f32 :=
  k2_pay5 (iblk2 V c 0 t) (iblk2 V c 1 t) (iblk2 V c 2 t) (iblk2 V c 3 t) (iblk2 V c 4 t) (iblk2 V c 5 t) (iblk2 V c 6 t)

/-- The running row of column sums AFTER `n` points: the zero row, then each tile's column sums added in point order. -/
def sumAt2 (c : Dev nD) : ℕ → Vec F S1x128 .f32
  | 0 => k2_pay3
  | n + 1 => if h : n < cfg2.N then k2_pay1 (hpre2 V c ⟨n, h⟩) (sumAt2 c n) else sumAt2 c n

/-- The running row of column sums of squares AFTER `n` points, likewise. -/
def sqAt2 (c : Dev nD) : ℕ → Vec F S1x128 .f32
  | 0 => k2_pay4
  | n + 1 => if h : n < cfg2.N then k2_pay2 (hpre2 V c ⟨n, h⟩) (sqAt2 c n) else sqAt2 c n

theorem sumAt2_zero (c : Dev nD) : sumAt2 V c 0 = k2_pay3 := rfl
theorem sqAt2_zero (c : Dev nD) : sqAt2 V c 0 = k2_pay4 := rfl

/-- After point `t` the running sums are the previous ones with tile `t`'s column sums added. -/
theorem sumAt2_succ (c : Dev nD) (t : Fin cfg2.N) :
    sumAt2 V c (t.val + 1) = k2_pay1 (hpre2 V c t) (sumAt2 V c t.val) := by
  rw [sumAt2, dif_pos t.isLt]
theorem sqAt2_succ (c : Dev nD) (t : Fin cfg2.N) :
    sqAt2 V c (t.val + 1) = k2_pay2 (hpre2 V c t) (sqAt2 V c t.val) := by
  rw [sqAt2, dif_pos t.isLt]

/-! ## The invariant: the two running rows, point by point -/

/-- The scratch operands: whole scoped buffers of the kernel's own, passed beside the windows. -/
abbrev sc2_0 : Memref sig .tc .vmem S1x128 .f32 := Memref.whole cc2_scratch0
abbrev sc2_1 : Memref sig .tc .vmem S1x128 .f32 := Memref.whole cc2_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS2 (c : Dev nD) : ℕ → sProp 𝕄
  | 0 => Pipeline.ΦA spec2 c
  | n + 1 => iprop(iprop(iprop(owns (c : Thread nD τ) sc2_0 fullShare (sumAt2 V c (n + 1)) ∗ owns (c : Thread nD τ) sc2_1 fullShare (sqAt2 V c (n + 1)))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) : PhiS2 V c 0 = Pipeline.ΦA spec2 c := rfl
theorem PhiS2_succ (c : Dev nD) (n : ℕ) :
    PhiS2 V c (n + 1) = iprop(iprop(iprop(owns (c : Thread nD τ) sc2_0 fullShare (sumAt2 V c (n + 1)) ∗ owns (c : Thread nD τ) sc2_1 fullShare (sqAt2 V c (n + 1)))
      ∗ Pipeline.scopedRestBut (Ix := Unit) (Name := ℕ) (U := UR sig nD τ) (Lvl := ℕ) (Val := Elt F) spec2 c [cc2_scratch0, cc2_scratch1]) ∗ (∃ r, prngReg c r)) := rfl

/-- The class invariant with the two scratch operands as memrefs owned at some contents. -/
theorem PhiA2_eq (c : Dev nD) :
    (Pipeline.ΦA spec2 c : sProp 𝕄)
      = iprop(iprop(iprop((∃ d, owns (c : Thread nD τ) sc2_0 fullShare d) ∗ (∃ d, owns (c : Thread nD τ) sc2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [sc2_0, sc2_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => hpre2 V c t
    | ⟨8, _⟩ => sumAt2 V c (t.val + 1)
    | ⟨9, _⟩ => sqAt2 V c (t.val + 1)
  Φ t := PhiS2 V c t.val
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = hpre2 V c t := by dsimp only [dat2]
theorem after2_8 (c : Dev nD) (t : Fin cfg2.N) : (dat2 V c).after 8 t = sumAt2 V c (t.val + 1) := by dsimp only [dat2]
theorem after2_9 (c : Dev nD) (t : Fin cfg2.N) : (dat2 V c).after 9 t = sqAt2 V c (t.val + 1) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The invariant at a point's start and end, restated at the point's number. -/
theorem Phi2_castSucc (c : Dev nD) (t : Fin cfg2.N) : (dat2 V c).Φ t.castSucc = PhiS2 V c t.val := rfl
theorem Phi2_succ (c : Dev nD) (t : Fin cfg2.N) : (dat2 V c).Φ t.succ = PhiS2 V c (t.val + 1) := rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl,
    after2_0, after2_1, after2_2, after2_3, after2_4, after2_5, after2_6, after2_7, after2_8, after2_9,
    Phi2_castSucc, Phi2_succ, PhiS2_succ, sumAt2_succ, sqAt2_succ]
  have hN : t.val < 20 := lt_of_lt_of_eq t.isLt (show cfg2.N = 20 from N_2)
  by_cases hz : t.val = 0
  · rw [hz, PhiS2_zero, PhiA2_eq, sumAt2_zero, sqAt2_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_first c Set.univ (grid2.coords t) ((hcond2 t).mpr (by omega)) _ _ _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS2_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_later c Set.univ (grid2.coords t) (fun h => by have := (hcond2 t).mp h; omega) _ _ _ _ _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t)
      (sumAt2 V c (n + 1)) (sqAt2 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant at the region's entry, out of it at its exit -/

/-- What the region hands the kernel — the generator register at some state and the scoped rest at any contents —
    is the invariant before the first point. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- After the last point the invariant gives them back: the running rows' named contents are forgotten. -/
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = PhiS2 V c (19 + 1) from rfl, PhiS2_succ, scopedRest2_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.KernelIdeal.Hand

end
-- ==== Proof.KI.RegA4.lean ====
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 of @main: the first pass of a GIN layer (`cc4__pass_a_kernel`), at the entry contents `V`

The body at grid point `t` computes, from the seven input blocks, the rows `h_pre` of tile `t` before batch
normalisation (the payload `k4_pay5`), stores them into output window 7, and adds their column sums and column
sums of squares into two scratch rows that live across the grid (`k4_pay1`, `k4_pay2`), which the first point
zeroes beforehand (`k4_pay3`, `k4_pay4`); each point copies the two running rows into output windows 8 and 9,
which the pipeline writes back after the last point only. So the invariant carries the scratch contents point by
point. -/

/-- The zero offsets of a whole-buffer rectangle of rank 2, as a constant function. -/
theorem hz4 : (![0, 0] : Fin 2 → Nat) = fun _ => 0 := funext fun a => by fin_cases a <;> rfl

/-- One store through the whole-buffer rectangle, made LAST, leaves its payload: the rectangle covers every index. -/
theorem read_writes_cons_whole4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole4 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA4 : Rect S1x128 := Rect.unit (s := S1x128) ![0, 0] S1x128.size inb_S1x128_S1x128_0_0
abbrev rB4 : Rect S5000x128 := Rect.unit (s := S5000x128) ![0, 0] S5000x128.size inb_S5000x128_S5000x128_0_0
abbrev rC4 : Rect S128x128 := Rect.unit (s := S128x128) ![0, 0] S128x128.size inb_S128x128_S128x128_0_0

/-- A load through a whole-buffer rectangle reads the contents. -/
theorem ldA4 (x : Vec F S1x128 .f32) : View.ld x rA4 = x := View.ld_unit_zero hz4 _ x
theorem ldB4 (x : Vec F S5000x128 .f32) : View.ld x rB4 = x := View.ld_unit_zero hz4 _ x
theorem ldC4 (x : Vec F S128x128 .f32) : View.ld x rC4 = x := View.ld_unit_zero hz4 _ x

/-- The rows before batch normalisation as the body computes them, from what its seven loads read. -/
def preL4 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k4_pay5 (View.ld x0 rA4) (View.ld x1 rB4) (View.ld x2 rB4) (View.ld x3 rC4) (View.ld x4 rA4) (View.ld x5 rC4) (View.ld x6 rA4)

/-- The loads read the whole blocks. -/
theorem preL4_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL4 x0 x1 x2 x3 x4 x5 x6 = k4_pay5 x0 x1 x2 x3 x4 x5 x6 := by
  unfold preL4; rw [ldA4, ldB4, ldB4, ldC4, ldA4, ldC4, ldA4]

/-! ## The body's branch: the reset of the two running rows at the first point -/

/-- The condition of the body's `scf.if` (`k4_h1`), from the grid coordinates: the point is the first. -/
abbrev cond4 (i : grid4.Coords) : Prop := (Scalar.cmpi .ne (Scalar.extui (Scalar.cmpi .eq (BitVec.ofNat 32 (i 0).val) 0#32)) 0#32) = 1#1

/-- It holds at point 0 only — decided over the grid. -/
theorem hcond4 : ∀ t : Fin cfg4.N, cond4 (grid4.coords t) ↔ t.val % 20 = 0 :=
  (by decide +kernel : ∀ t : Fin grid4.N, cond4 (grid4.coords t) ↔ t.val % 20 = 0)

/-! ## The body's triples, one per case of the branch -/

set_option maxHeartbeats 4000000 in
/-- The run of the body at a later point, the loads spelt through their rectangles (`preL4`, `View.ld`): the printed functions
    are their skeletons, which the executor runs through the part call and the decided branch; each buffer the body
    stores into ends at its last store's payload, the store covering it. -/
theorem sound_kernel4_later_ld (c : Dev nD) (E : Set ℕ) (i : grid4.Coords) (hc : ¬cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL4 x0 x1 x2 x3 x4 x5 x6)
            ∗ owns (c : Thread nD τ) arg9 fullShare (k4_pay1 (preL4 x0 x1 x2 x3 x4 x5 x6) (View.ld s0 rA4)) ∗ owns (c : Thread nD τ) arg10 fullShare (k4_pay2 (preL4 x0 x1 x2 x3 x4 x5 x6) (View.ld s1 rA4))
            ∗ owns (c : Thread nD τ) arg11 fullShare (k4_pay1 (preL4 x0 x1 x2 x3 x4 x5 x6) (View.ld s0 rA4)) ∗ owns (c : Thread nD τ) arg12 fullShare (k4_pay2 (preL4 x0 x1 x2 x3 x4 x5 x6) (View.ld s1 rA4))) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  simp only [cc4__pass_a_kernel_eq_skeleton]; unfold cc4__pass_a_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole4 _ _ hz4 _ _ _).trans ?_
    (try sl_unfold_words)
    (repeat rw [readCov_cons_whole4])
    (try rfl)
  isplitl [H8]
  · iexists _; isplitr
    swap; · iexact H8
    ipureintro
    refine (read_writes_cons_whole4 _ _ hz4 _ _ _).trans ?_
    (try sl_unfold_words)
    (repeat rw [readCov_cons_whole4])
    (try rfl)
  isplitl [H9]
  · iexists _; isplitr
    swap; · iexact H9
    ipureintro
    refine (read_writes_cons_whole4 _ _ hz4 _ _ _).trans ?_
    (try sl_unfold_words)
    (repeat rw [readCov_cons_whole4])
    (try rfl)
  isplitl [HS0]
  · iexists _; isplitr
    swap; · iexact HS0
    ipureintro
    refine (read_writes_cons_whole4 _ _ hz4 _ _ _).trans ?_
    (try sl_unfold_words)
    (repeat rw [readCov_cons_whole4])
    (try rfl)
  iexists _; isplitr
  swap; · iexact HS1
  ipureintro
  refine (read_writes_cons_whole4 _ _ hz4 _ _ _).trans ?_
  (try sl_unfold_words)
  (repeat rw [readCov_cons_whole4])
  (try rfl)

/-- AT A LATER POINT (the branch not taken): on whole memrefs, the inputs' at read contents `xW`, the outputs' at
    anything and the two running rows at `s0`, `s1`, the body runs to the continuation holding the inputs as they
    were, output 7 at the rows `k4_pay5` of the inputs, and both the scratch rows and outputs 8, 9 at the running
    rows with this tile's column sums (`k4_pay1`) and column sums of squares (`k4_pay2`) added. -/
theorem sound_kernel4_later (c : Dev nD) (E : Set ℕ) (i : grid4.Coords) (hc : ¬cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6)
            ∗ owns (c : Thread nD τ) arg9 fullShare (k4_pay1 (k4_pay5 x0 x1 x2 x3 x4 x5 x6) s0) ∗ owns (c : Thread nD τ) arg10 fullShare (k4_pay2 (k4_pay5 x0 x1 x2 x3 x4 x5 x6) s1)
            ∗ owns (c : Thread nD τ) arg11 fullShare (k4_pay1 (k4_pay5 x0 x1 x2 x3 x4 x5 x6) s0) ∗ owns (c : Thread nD τ) arg12 fullShare (k4_pay2 (k4_pay5 x0 x1 x2 x3 x4 x5 x6) s1)) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  have h := sound_kernel4_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL4_eq, ldA4, ldA4] at h
  exact h

set_option maxHeartbeats 4000000 in
/-- The run of the body at the first point, the loads spelt through their rectangles (`preL4`, `View.ld`): the printed functions
    are their skeletons, which the executor runs through the part call and the decided branch; each buffer the body
    stores into ends at its last store's payload, the store covering it. -/
theorem sound_kernel4_first_ld (c : Dev nD) (E : Set ℕ) (i : grid4.Coords) (hc : cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL4 x0 x1 x2 x3 x4 x5 x6)
            ∗ owns (c : Thread nD τ) arg9 fullShare (k4_pay1 (preL4 x0 x1 x2 x3 x4 x5 x6) (k4_pay3 (F := F))) ∗ owns (c : Thread nD τ) arg10 fullShare (k4_pay2 (preL4 x0 x1 x2 x3 x4 x5 x6) (k4_pay4 (F := F)))
            ∗ owns (c : Thread nD τ) arg11 fullShare (k4_pay1 (preL4 x0 x1 x2 x3 x4 x5 x6) (k4_pay3 (F := F))) ∗ owns (c : Thread nD τ) arg12 fullShare (k4_pay2 (preL4 x0 x1 x2 x3 x4 x5 x6) (k4_pay4 (F := F)))) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  simp only [cc4__pass_a_kernel_eq_skeleton]; unfold cc4__pass_a_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole4 _ _ hz4 _ _ _).trans ?_
    (try sl_unfold_words)
    (repeat rw [readCov_cons_whole4])
    (try rfl)
  isplitl [H8]
  · iexists _; isplitr
    swap; · iexact H8
    ipureintro
    refine (read_writes_cons_whole4 _ _ hz4 _ _ _).trans ?_
    (try sl_unfold_words)
    (repeat rw [readCov_cons_whole4])
    (try rfl)
  isplitl [H9]
  · iexists _; isplitr
    swap; · iexact H9
    ipureintro
    refine (read_writes_cons_whole4 _ _ hz4 _ _ _).trans ?_
    (try sl_unfold_words)
    (repeat rw [readCov_cons_whole4])
    (try rfl)
  isplitl [HS0]
  · iexists _; isplitr
    swap; · iexact HS0
    ipureintro
    refine (read_writes_cons_whole4 _ _ hz4 _ _ _).trans ?_
    (try sl_unfold_words)
    (repeat rw [readCov_cons_whole4])
    (try rfl)
  iexists _; isplitr
  swap; · iexact HS1
  ipureintro
  refine (read_writes_cons_whole4 _ _ hz4 _ _ _).trans ?_
  (try sl_unfold_words)
  (repeat rw [readCov_cons_whole4])
  (try rfl)

/-- AT THE FIRST POINT (the branch taken): the two scratch rows, found at anything, are zeroed (`k4_pay3`,
    `k4_pay4`) before the accumulation, so the body leaves them, and outputs 8 and 9, at this tile's sums added to
    the zero rows. -/
theorem sound_kernel4_first (c : Dev nD) (E : Set ℕ) (i : grid4.Coords) (hc : cond4 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k4_pay5 x0 x1 x2 x3 x4 x5 x6)
            ∗ owns (c : Thread nD τ) arg9 fullShare (k4_pay1 (k4_pay5 x0 x1 x2 x3 x4 x5 x6) (k4_pay3 (F := F))) ∗ owns (c : Thread nD τ) arg10 fullShare (k4_pay2 (k4_pay5 x0 x1 x2 x3 x4 x5 x6) (k4_pay4 (F := F)))
            ∗ owns (c : Thread nD τ) arg11 fullShare (k4_pay1 (k4_pay5 x0 x1 x2 x3 x4 x5 x6) (k4_pay3 (F := F))) ∗ owns (c : Thread nD τ) arg12 fullShare (k4_pay2 (k4_pay5 x0 x1 x2 x3 x4 x5 x6) (k4_pay4 (F := F)))) -∗ K ⟨⟩))
      ⊢ wp frame (wpE (defs₀ (F := F)) Variants.none c none) E (cc4__pass_a_kernel i arg1 harg1 arg2 harg2 arg3 harg3 arg4 harg4 arg5 harg5 arg6 harg6 arg7 harg7 arg8 harg8 arg9 harg9 arg10 harg10 arg11 harg11 arg12 harg12) K := by
  have h := sound_kernel4_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL4_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for ANY proof
    data whose array is `V`'s (`hA`) and whose body leaves the block in place (`hafter`): an unfetched window's block
    index has not moved; the windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## What the points compute -/

/-- The rows of tile `t` before batch normalisation: the body's payload at the seven input blocks of point `t`. -/
def hpre4 (c : Dev nD) (t : Fin cfg4.N) : Vec F S5000x128 .f32 :=
  k4_pay5 (iblk4 V c 0 t) (iblk4 V c 1 t) (iblk4 V c 2 t) (iblk4 V c 3 t) (iblk4 V c 4 t) (iblk4 V c 5 t) (iblk4 V c 6 t)

/-- The running row of column sums AFTER `n` points: the zero row, then each tile's column sums added in point order. -/
def sumAt4 (c : Dev nD) : ℕ → Vec F S1x128 .f32
  | 0 => k4_pay3
  | n + 1 => if h : n < cfg4.N then k4_pay1 (hpre4 V c ⟨n, h⟩) (sumAt4 c n) else sumAt4 c n

/-- The running row of column sums of squares AFTER `n` points, likewise. -/
def sqAt4 (c : Dev nD) : ℕ → Vec F S1x128 .f32
  | 0 => k4_pay4
  | n + 1 => if h : n < cfg4.N then k4_pay2 (hpre4 V c ⟨n, h⟩) (sqAt4 c n) else sqAt4 c n

theorem sumAt4_zero (c : Dev nD) : sumAt4 V c 0 = k4_pay3 := rfl
theorem sqAt4_zero (c : Dev nD) : sqAt4 V c 0 = k4_pay4 := rfl

/-- After point `t` the running sums are the previous ones with tile `t`'s column sums added. -/
theorem sumAt4_succ (c : Dev nD) (t : Fin cfg4.N) :
    sumAt4 V c (t.val + 1) = k4_pay1 (hpre4 V c t) (sumAt4 V c t.val) := by
  rw [sumAt4, dif_pos t.isLt]
theorem sqAt4_succ (c : Dev nD) (t : Fin cfg4.N) :
    sqAt4 V c (t.val + 1) = k4_pay2 (hpre4 V c t) (sqAt4 V c t.val) := by
  rw [sqAt4, dif_pos t.isLt]

/-! ## The invariant: the two running rows, point by point -/

/-- The scratch operands: whole scoped buffers of the kernel's own, passed beside the windows. -/
abbrev sc4_0 : Memref sig .tc .vmem S1x128 .f32 := Memref.whole cc4_scratch0
abbrev sc4_1 : Memref sig .tc .vmem S1x128 .f32 := Memref.whole cc4_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS4 (c : Dev nD) : ℕ → sProp 𝕄
  | 0 => Pipeline.ΦA spec4 c
  | n + 1 => iprop(iprop(iprop(owns (c : Thread nD τ) sc4_0 fullShare (sumAt4 V c (n + 1)) ∗ owns (c : Thread nD τ) sc4_1 fullShare (sqAt4 V c (n + 1)))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) : PhiS4 V c 0 = Pipeline.ΦA spec4 c := rfl
theorem PhiS4_succ (c : Dev nD) (n : ℕ) :
    PhiS4 V c (n + 1) = iprop(iprop(iprop(owns (c : Thread nD τ) sc4_0 fullShare (sumAt4 V c (n + 1)) ∗ owns (c : Thread nD τ) sc4_1 fullShare (sqAt4 V c (n + 1)))
      ∗ Pipeline.scopedRestBut (Ix := Unit) (Name := ℕ) (U := UR sig nD τ) (Lvl := ℕ) (Val := Elt F) spec4 c [cc4_scratch0, cc4_scratch1]) ∗ (∃ r, prngReg c r)) := rfl

/-- The class invariant with the two scratch operands as memrefs owned at some contents. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sc4_0, sc4_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => hpre4 V c t
    | ⟨8, _⟩ => sumAt4 V c (t.val + 1)
    | ⟨9, _⟩ => sqAt4 V c (t.val + 1)
  Φ t := PhiS4 V c t.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = hpre4 V c t := by dsimp only [dat4]
theorem after4_8 (c : Dev nD) (t : Fin cfg4.N) : (dat4 V c).after 8 t = sumAt4 V c (t.val + 1) := by dsimp only [dat4]
theorem after4_9 (c : Dev nD) (t : Fin cfg4.N) : (dat4 V c).after 9 t = sqAt4 V c (t.val + 1) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- The invariant at a point's start and end, restated at the point's number. -/
theorem Phi4_castSucc (c : Dev nD) (t : Fin cfg4.N) : (dat4 V c).Φ t.castSucc = PhiS4 V c t.val := rfl
theorem Phi4_succ (c : Dev nD) (t : Fin cfg4.N) : (dat4 V c).Φ t.succ = PhiS4 V c (t.val + 1) := rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl,
    after4_0, after4_1, after4_2, after4_3, after4_4, after4_5, after4_6, after4_7, after4_8, after4_9,
    Phi4_castSucc, Phi4_succ, PhiS4_succ, sumAt4_succ, sqAt4_succ]
  have hN : t.val < 20 := lt_of_lt_of_eq t.isLt (show cfg4.N = 20 from N_4)
  by_cases hz : t.val = 0
  · rw [hz, PhiS4_zero, PhiA4_eq, sumAt4_zero, sqAt4_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel4_first c Set.univ (grid4.coords t) ((hcond4 t).mpr (by omega)) _ _ _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS4_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel4_later c Set.univ (grid4.coords t) (fun h => by have := (hcond4 t).mp h; omega) _ _ _ _ _ _ _ _ _ _ _ _ _ _ _ _ _ _ _ _ _ _ _ _
      (iblk4 V c 0 t) (iblk4 V c 1 t) (iblk4 V c 2 t) (iblk4 V c 3 t) (iblk4 V c 4 t) (iblk4 V c 5 t) (iblk4 V c 6 t)
      (sumAt4 V c (n + 1)) (sqAt4 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant at the region's entry, out of it at its exit -/

/-- What the region hands the kernel — the generator register at some state and the scoped rest at any contents —
    is the invariant before the first point. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = Pipeline.ΦA spec4 c from rfl]; unfold Pipeline.ΦA
  iintro ⟨Hp, Hr⟩
  isplitl [Hr]; · iexact Hr
  iexact Hp

/-- After the last point the invariant gives them back: the running rows' named contents are forgotten. -/
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (19 + 1) from rfl, PhiS4_succ, scopedRest4_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.KernelIdeal.Hand

end
-- ==== Proof.KI.RegA6.lean ====
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 of @main: the first pass of a GIN layer (`cc6__pass_a_kernel`), at the entry contents `V`

The body at grid point `t` computes, from the seven input blocks, the rows `h_pre` of tile `t` before batch
normalisation (the payload `k6_pay5`), stores them into output window 7, and adds their column sums and column
sums of squares into two scratch rows that live across the grid (`k6_pay1`, `k6_pay2`), which the first point
zeroes beforehand (`k6_pay3`, `k6_pay4`); each point copies the two running rows into output windows 8 and 9,
which the pipeline writes back after the last point only. So the invariant carries the scratch contents point by
point. -/

/-- The zero offsets of a whole-buffer rectangle of rank 2, as a constant function. -/
theorem hz6 : (![0, 0] : Fin 2 → Nat) = fun _ => 0 := funext fun a => by fin_cases a <;> rfl

/-- One store through the whole-buffer rectangle, made LAST, leaves its payload: the rectangle covers every index. -/
theorem read_writes_cons_whole6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-buffer rectangle after a last store through it reads that store's payload. -/
theorem readCov_cons_whole6 {κ : Kind} {sp : Space} {S : Shape} {e : EltTy} (v : View sig κ sp S e)
    {off : Fin S.rank → Nat} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-! ## The body's accesses: every load and store is of a whole buffer -/

abbrev rA6 : Rect S1x128 := Rect.unit (s := S1x128) ![0, 0] S1x128.size inb_S1x128_S1x128_0_0
abbrev rB6 : Rect S5000x128 := Rect.unit (s := S5000x128) ![0, 0] S5000x128.size inb_S5000x128_S5000x128_0_0
abbrev rC6 : Rect S128x128 := Rect.unit (s := S128x128) ![0, 0] S128x128.size inb_S128x128_S128x128_0_0

/-- A load through a whole-buffer rectangle reads the contents. -/
theorem ldA6 (x : Vec F S1x128 .f32) : View.ld x rA6 = x := View.ld_unit_zero hz6 _ x
theorem ldB6 (x : Vec F S5000x128 .f32) : View.ld x rB6 = x := View.ld_unit_zero hz6 _ x
theorem ldC6 (x : Vec F S128x128 .f32) : View.ld x rC6 = x := View.ld_unit_zero hz6 _ x

/-- The rows before batch normalisation as the body computes them, from what its seven loads read. -/
def preL6 (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : Vec F S5000x128 .f32 :=
  k6_pay5 (View.ld x0 rA6) (View.ld x1 rB6) (View.ld x2 rB6) (View.ld x3 rC6) (View.ld x4 rA6) (View.ld x5 rC6) (View.ld x6 rA6)

/-- The loads read the whole blocks. -/
theorem preL6_eq (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32) : preL6 x0 x1 x2 x3 x4 x5 x6 = k6_pay5 x0 x1 x2 x3 x4 x5 x6 := by
  unfold preL6; rw [ldA6, ldB6, ldB6, ldC6, ldA6, ldC6, ldA6]

/-! ## The body's branch: the reset of the two running rows at the first point -/

/-- The condition of the body's `scf.if` (`k6_h1`), from the grid coordinates: the point is the first. -/
abbrev cond6 (i : grid6.Coords) : Prop := (Scalar.cmpi .ne (Scalar.extui (Scalar.cmpi .eq (BitVec.ofNat 32 (i 0).val) 0#32)) 0#32) = 1#1

/-- It holds at point 0 only — decided over the grid. -/
theorem hcond6 : ∀ t : Fin cfg6.N, cond6 (grid6.coords t) ↔ t.val % 20 = 0 :=
  (by decide +kernel : ∀ t : Fin grid6.N, cond6 (grid6.coords t) ↔ t.val % 20 = 0)

/-! ## The body's triples, one per case of the branch -/

set_option maxHeartbeats 4000000 in
/-- The run of the body at a later point, the loads spelt through their rectangles (`preL6`, `View.ld`): the printed functions
    are their skeletons, which the executor runs through the part call and the decided branch; each buffer the body
    stores into ends at its last store's payload, the store covering it. -/
theorem sound_kernel6_later_ld (c : Dev nD) (E : Set ℕ) (i : grid6.Coords) (hc : ¬cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL6 x0 x1 x2 x3 x4 x5 x6)
            ∗ owns (c : Thread nD τ) arg9 fullShare (k6_pay1 (preL6 x0 x1 x2 x3 x4 x5 x6) (View.ld s0 rA6)) ∗ owns (c : Thread nD τ) arg10 fullShare (k6_pay2 (preL6 x0 x1 x2 x3 x4 x5 x6) (View.ld s1 rA6))
            ∗ owns (c : Thread nD τ) arg11 fullShare (k6_pay1 (preL6 x0 x1 x2 x3 x4 x5 x6) (View.ld s0 rA6)) ∗ owns (c : Thread nD τ) arg12 fullShare (k6_pay2 (preL6 x0 x1 x2 x3 x4 x5 x6) (View.ld s1 rA6))) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  simp only [cc6__pass_a_kernel_eq_skeleton]; unfold cc6__pass_a_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
  subst hf0; subst hf1; subst hf2; subst hf3; subst hf4; subst hf5; subst hf6; subst hfs0; subst hfs1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole6 _ _ hz6 _ _ _).trans ?_
    (try sl_unfold_words)
    (repeat rw [readCov_cons_whole6])
    (try rfl)
  isplitl [H8]
  · iexists _; isplitr
    swap; · iexact H8
    ipureintro
    refine (read_writes_cons_whole6 _ _ hz6 _ _ _).trans ?_
    (try sl_unfold_words)
    (repeat rw [readCov_cons_whole6])
    (try rfl)
  isplitl [H9]
  · iexists _; isplitr
    swap; · iexact H9
    ipureintro
    refine (read_writes_cons_whole6 _ _ hz6 _ _ _).trans ?_
    (try sl_unfold_words)
    (repeat rw [readCov_cons_whole6])
    (try rfl)
  isplitl [HS0]
  · iexists _; isplitr
    swap; · iexact HS0
    ipureintro
    refine (read_writes_cons_whole6 _ _ hz6 _ _ _).trans ?_
    (try sl_unfold_words)
    (repeat rw [readCov_cons_whole6])
    (try rfl)
  iexists _; isplitr
  swap; · iexact HS1
  ipureintro
  refine (read_writes_cons_whole6 _ _ hz6 _ _ _).trans ?_
  (try sl_unfold_words)
  (repeat rw [readCov_cons_whole6])
  (try rfl)

/-- AT A LATER POINT (the branch not taken): on whole memrefs, the inputs' at read contents `xW`, the outputs' at
    anything and the two running rows at `s0`, `s1`, the body runs to the continuation holding the inputs as they
    were, output 7 at the rows `k6_pay5` of the inputs, and both the scratch rows and outputs 8, 9 at the running
    rows with this tile's column sums (`k6_pay1`) and column sums of squares (`k6_pay2`) added. -/
theorem sound_kernel6_later (c : Dev nD) (E : Set ℕ) (i : grid6.Coords) (hc : ¬cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k6_pay5 x0 x1 x2 x3 x4 x5 x6)
            ∗ owns (c : Thread nD τ) arg9 fullShare (k6_pay1 (k6_pay5 x0 x1 x2 x3 x4 x5 x6) s0) ∗ owns (c : Thread nD τ) arg10 fullShare (k6_pay2 (k6_pay5 x0 x1 x2 x3 x4 x5 x6) s1)
            ∗ owns (c : Thread nD τ) arg11 fullShare (k6_pay1 (k6_pay5 x0 x1 x2 x3 x4 x5 x6) s0) ∗ owns (c : Thread nD τ) arg12 fullShare (k6_pay2 (k6_pay5 x0 x1 x2 x3 x4 x5 x6) s1)) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  have h := sound_kernel6_later_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 s0 s1 K
  rw [preL6_eq, ldA6, ldA6] at h
  exact h

set_option maxHeartbeats 4000000 in
/-- The run of the body at the first point, the loads spelt through their rectangles (`preL6`, `View.ld`): the printed functions
    are their skeletons, which the executor runs through the part call and the decided branch; each buffer the body
    stores into ends at its last store's payload, the store covering it. -/
theorem sound_kernel6_first_ld (c : Dev nD) (E : Set ℕ) (i : grid6.Coords) (hc : cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (preL6 x0 x1 x2 x3 x4 x5 x6)
            ∗ owns (c : Thread nD τ) arg9 fullShare (k6_pay1 (preL6 x0 x1 x2 x3 x4 x5 x6) (k6_pay3 (F := F))) ∗ owns (c : Thread nD τ) arg10 fullShare (k6_pay2 (preL6 x0 x1 x2 x3 x4 x5 x6) (k6_pay4 (F := F)))
            ∗ owns (c : Thread nD τ) arg11 fullShare (k6_pay1 (preL6 x0 x1 x2 x3 x4 x5 x6) (k6_pay3 (F := F))) ∗ owns (c : Thread nD τ) arg12 fullShare (k6_pay2 (preL6 x0 x1 x2 x3 x4 x5 x6) (k6_pay4 (F := F)))) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  simp only [cc6__pass_a_kernel_eq_skeleton]; unfold cc6__pass_a_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  subst hf0; subst hf1; subst hf2; subst hf3; subst hf4; subst hf5; subst hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_cons_whole6 _ _ hz6 _ _ _).trans ?_
    (try sl_unfold_words)
    (repeat rw [readCov_cons_whole6])
    (try rfl)
  isplitl [H8]
  · iexists _; isplitr
    swap; · iexact H8
    ipureintro
    refine (read_writes_cons_whole6 _ _ hz6 _ _ _).trans ?_
    (try sl_unfold_words)
    (repeat rw [readCov_cons_whole6])
    (try rfl)
  isplitl [H9]
  · iexists _; isplitr
    swap; · iexact H9
    ipureintro
    refine (read_writes_cons_whole6 _ _ hz6 _ _ _).trans ?_
    (try sl_unfold_words)
    (repeat rw [readCov_cons_whole6])
    (try rfl)
  isplitl [HS0]
  · iexists _; isplitr
    swap; · iexact HS0
    ipureintro
    refine (read_writes_cons_whole6 _ _ hz6 _ _ _).trans ?_
    (try sl_unfold_words)
    (repeat rw [readCov_cons_whole6])
    (try rfl)
  iexists _; isplitr
  swap; · iexact HS1
  ipureintro
  refine (read_writes_cons_whole6 _ _ hz6 _ _ _).trans ?_
  (try sl_unfold_words)
  (repeat rw [readCov_cons_whole6])
  (try rfl)

/-- AT THE FIRST POINT (the branch taken): the two scratch rows, found at anything, are zeroed (`k6_pay3`,
    `k6_pay4`) before the accumulation, so the body leaves them, and outputs 8 and 9, at this tile's sums added to
    the zero rows. -/
theorem sound_kernel6_first (c : Dev nD) (E : Set ℕ) (i : grid6.Coords) (hc : cond6 i) (arg1 : Memref sig .tc .vmem S1x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole)
    (x0 : Vec F S1x128 .f32) (x1 : Vec F S5000x128 .f32) (x2 : Vec F S5000x128 .f32) (x3 : Vec F S128x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k6_pay5 x0 x1 x2 x3 x4 x5 x6)
            ∗ owns (c : Thread nD τ) arg9 fullShare (k6_pay1 (k6_pay5 x0 x1 x2 x3 x4 x5 x6) (k6_pay3 (F := F))) ∗ owns (c : Thread nD τ) arg10 fullShare (k6_pay2 (k6_pay5 x0 x1 x2 x3 x4 x5 x6) (k6_pay4 (F := F)))
            ∗ owns (c : Thread nD τ) arg11 fullShare (k6_pay1 (k6_pay5 x0 x1 x2 x3 x4 x5 x6) (k6_pay3 (F := F))) ∗ owns (c : Thread nD τ) arg12 fullShare (k6_pay2 (k6_pay5 x0 x1 x2 x3 x4 x5 x6) (k6_pay4 (F := F)))) -∗ K ⟨⟩))
      ⊢ wp frame (wpE (defs₀ (F := F)) Variants.none c none) E (cc6__pass_a_kernel i arg1 harg1 arg2 harg2 arg3 harg3 arg4 harg4 arg5 harg5 arg6 harg6 arg7 harg7 arg8 harg8 arg9 harg9 arg10 harg10 arg11 harg11 arg12 harg12) K := by
  have h := sound_kernel6_first_ld c E i hc arg1 harg1 arg2 harg2 arg3 harg3 arg4 harg4 arg5 harg5 arg6 harg6 arg7 harg7 arg8 harg8 arg9 harg9 arg10 harg10 arg11 harg11 arg12 harg12 x0 x1 x2 x3 x4 x5 x6 K
  rw [preL6_eq] at h
  exact h

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's current staging buffer holds its block at every point, fetched there or not, for ANY proof
    data whose array is `V`'s (`hA`) and whose body leaves the block in place (`hafter`): an unfetched window's block
    index has not moved; the windows are uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## What the points compute -/

/-- The rows of tile `t` before batch normalisation: the body's payload at the seven input blocks of point `t`. -/
def hpre6 (c : Dev nD) (t : Fin cfg6.N) : Vec F S5000x128 .f32 :=
  k6_pay5 (iblk6 V c 0 t) (iblk6 V c 1 t) (iblk6 V c 2 t) (iblk6 V c 3 t) (iblk6 V c 4 t) (iblk6 V c 5 t) (iblk6 V c 6 t)

/-- The running row of column sums AFTER `n` points: the zero row, then each tile's column sums added in point order. -/
def sumAt6 (c : Dev nD) : ℕ → Vec F S1x128 .f32
  | 0 => k6_pay3
  | n + 1 => if h : n < cfg6.N then k6_pay1 (hpre6 V c ⟨n, h⟩) (sumAt6 c n) else sumAt6 c n

/-- The running row of column sums of squares AFTER `n` points, likewise. -/
def sqAt6 (c : Dev nD) : ℕ → Vec F S1x128 .f32
  | 0 => k6_pay4
  | n + 1 => if h : n < cfg6.N then k6_pay2 (hpre6 V c ⟨n, h⟩) (sqAt6 c n) else sqAt6 c n

theorem sumAt6_zero (c : Dev nD) : sumAt6 V c 0 = k6_pay3 := rfl
theorem sqAt6_zero (c : Dev nD) : sqAt6 V c 0 = k6_pay4 := rfl

/-- After point `t` the running sums are the previous ones with tile `t`'s column sums added. -/
theorem sumAt6_succ (c : Dev nD) (t : Fin cfg6.N) :
    sumAt6 V c (t.val + 1) = k6_pay1 (hpre6 V c t) (sumAt6 V c t.val) := by
  rw [sumAt6, dif_pos t.isLt]
theorem sqAt6_succ (c : Dev nD) (t : Fin cfg6.N) :
    sqAt6 V c (t.val + 1) = k6_pay2 (hpre6 V c t) (sqAt6 V c t.val) := by
  rw [sqAt6, dif_pos t.isLt]

/-! ## The invariant: the two running rows, point by point -/

/-- The scratch operands: whole scoped buffers of the kernel's own, passed beside the windows. -/
abbrev sc6_0 : Memref sig .tc .vmem S1x128 .f32 := Memref.whole cc6_scratch0
abbrev sc6_1 : Memref sig .tc .vmem S1x128 .f32 := Memref.whole cc6_scratch1

/-- The region invariant before point `n`: before the first point the class's (the scoped rest at any contents, the
    generator register at some state: the region boundary does not choose what the scratch rows hold); afterwards
    the two scratch rows at the running sums after `n` points, the rest of the scoped buffers unopened, and the
    generator register at some state. -/
def PhiS6 (c : Dev nD) : ℕ → sProp 𝕄
  | 0 => Pipeline.ΦA spec6 c
  | n + 1 => iprop(iprop(iprop(owns (c : Thread nD τ) sc6_0 fullShare (sumAt6 V c (n + 1)) ∗ owns (c : Thread nD τ) sc6_1 fullShare (sqAt6 V c (n + 1)))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) : PhiS6 V c 0 = Pipeline.ΦA spec6 c := rfl
theorem PhiS6_succ (c : Dev nD) (n : ℕ) :
    PhiS6 V c (n + 1) = iprop(iprop(iprop(owns (c : Thread nD τ) sc6_0 fullShare (sumAt6 V c (n + 1)) ∗ owns (c : Thread nD τ) sc6_1 fullShare (sqAt6 V c (n + 1)))
      ∗ Pipeline.scopedRestBut (Ix := Unit) (Name := ℕ) (U := UR sig nD τ) (Lvl := ℕ) (Val := Elt F) spec6 c [cc6_scratch0, cc6_scratch1]) ∗ (∃ r, prngReg c r)) := rfl

/-- The class invariant with the two scratch operands as memrefs owned at some contents. -/
theorem PhiA6_eq (c : Dev nD) :
    (Pipeline.ΦA spec6 c : sProp 𝕄)
      = iprop(iprop(iprop((∃ d, owns (c : Thread nD τ) sc6_0 fullShare d) ∗ (∃ d, owns (c : Thread nD τ) sc6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [sc6_0, sc6_1, owns_whole]; try rfl

/-! ## The pipeline's proof data -/

/-- The proof data of the pipeline on core `c`: the arrays as the region finds them (`V`); after the body at point
    `t` each input's buffer at its block, output 7 at tile `t`'s rows, outputs 8 and 9 at the running sums after
    point `t`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => hpre6 V c t
    | ⟨8, _⟩ => sumAt6 V c (t.val + 1)
    | ⟨9, _⟩ => sqAt6 V c (t.val + 1)
  Φ t := PhiS6 V c t.val
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = hpre6 V c t := by dsimp only [dat6]
theorem after6_8 (c : Dev nD) (t : Fin cfg6.N) : (dat6 V c).after 8 t = sumAt6 V c (t.val + 1) := by dsimp only [dat6]
theorem after6_9 (c : Dev nD) (t : Fin cfg6.N) : (dat6 V c).after 9 t = sqAt6 V c (t.val + 1) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-- The invariant at a point's start and end, restated at the point's number. -/
theorem Phi6_castSucc (c : Dev nD) (t : Fin cfg6.N) : (dat6 V c).Φ t.castSucc = PhiS6 V c t.val := rfl
theorem Phi6_succ (c : Dev nD) (t : Fin cfg6.N) : (dat6 V c).Φ t.succ = PhiS6 V c (t.val + 1) := rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

set_option maxHeartbeats 4000000 in
/-- The body at any point. The inputs' memrefs hold their blocks; at the first point the invariant hands the two
    scratch rows at anything and the branch zeroes them, at a later point it hands them at the running sums the
    point before left; either way the body returns them, and outputs 8 and 9, at the running sums after this
    point, output 7 at this tile's rows, and the rest of the invariant and the core's `owes` untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).owesAt () t.succ = (dat6 V c).owesAt () t.castSucc from rfl,
    after6_0, after6_1, after6_2, after6_3, after6_4, after6_5, after6_6, after6_7, after6_8, after6_9,
    Phi6_castSucc, Phi6_succ, PhiS6_succ, sumAt6_succ, sqAt6_succ]
  have hN : t.val < 20 := lt_of_lt_of_eq t.isLt (show cfg6.N = 20 from N_6)
  by_cases hz : t.val = 0
  · rw [hz, PhiS6_zero, PhiA6_eq, sumAt6_zero, sqAt6_zero]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel6_first c Set.univ (grid6.coords t) ((hcond6 t).mpr (by omega)) _ _ _ _ _ _ _ _ _ _ _ _ _ _ _ _ _ _ _ _ _ _ _ _
      (iblk6 V c 0 t) (iblk6 V c 1 t) (iblk6 V c 2 t) (iblk6 V c 3 t) (iblk6 V c 4 t) (iblk6 V c 5 t) (iblk6 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ : ∃ n, t.val = n + 1 := Nat.exists_eq_succ_of_ne_zero hz
    rw [hn, PhiS6_succ]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel6_later c Set.univ (grid6.coords t) (fun h => by have := (hcond6 t).mp h; omega) _ _ _ _ _ _ _ _ _ _ _ _ _ _ _ _ _ _ _ _ _ _ _ _
      (iblk6 V c 0 t) (iblk6 V c 1 t) (iblk6 V c 2 t) (iblk6 V c 3 t) (iblk6 V c 4 t) (iblk6 V c 5 t) (iblk6 V c 6 t)
      (sumAt6 V c (n + 1)) (sqAt6 V c (n + 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant at the region's entry, out of it at its exit -/

/-- What the region hands the kernel — the generator register at some state and the scoped rest at any contents —
    is the invariant before the first point. -/
theorem hin6 (c : Dev nD) : iprop((∃ r, prngReg c r) ∗ Pipeline.scopedRest (Ix := Unit) (Name := ℕ) (U := UR sig nD τ) (Lvl := ℕ) (Val := Elt F) spec6 c) ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- After the last point the invariant gives them back: the running rows' named contents are forgotten. -/
theorem hout6 (c : Dev nD) : (dat6 V c).Φ (Fin.last cfg6.N) ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = PhiS6 V c (19 + 1) from rfl, PhiS6_succ, scopedRest6_split]
  simp only [← owns_whole]
  iintro ⟨⟨⟨HS0, HS1⟩, HR⟩, Hg⟩
  isplitl [Hg]; · iexact Hg
  isplitl [HS0 HS1]
  · isplitl [HS0]
    · iexists _; iexact HS0
    iexists _; iexact HS1
  iexact HR

end Region

end Cert.KernelIdeal.Hand

end
-- ==== Proof.KI.RegB1.lean ====
/- Region 1 of @main: the pointwise pass (pipeline 1). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window fetched at
    the first point only keeps its block index, so what it was left with is still its block), for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out1_3 (x0 : Vec F S5000x128 .f32) (x1 x2 : Vec F S1x128 .f32) : Vec F S5000x128 .f32 :=
  View.canon [⟨r1_0, k1_pay1 (View.ld x0 r1_0) (View.ld x1 r1_1) (View.ld x2 r1_1)⟩]

/-- The one store is of the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out1_3` of the inputs'. -/
theorem sound_kernel1 (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__pass_b_kernel i arg0 harg0 arg1 harg1 arg2 harg2 arg3 harg3) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant of a body that
    touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegB3.lean ====
/- Region 3 of @main: the pointwise pass (pipeline 3). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a window fetched at
    the first point only keeps its block index, so what it was left with is still its block), for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out3_3 (x0 : Vec F S5000x128 .f32) (x1 x2 : Vec F S1x128 .f32) : Vec F S5000x128 .f32 :=
  View.canon [⟨r3_0, k3_pay1 (View.ld x0 r3_0) (View.ld x1 r3_1) (View.ld x2 r3_1)⟩]

/-- The one store is of the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out3_3` of the inputs'. -/
theorem sound_kernel3 (c : Dev nD) (E : Set ℕ) (i : grid3.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__pass_b_kernel i arg0 harg0 arg1 harg1 arg2 harg2 arg3 harg3) K := by
  simp only [cc3__pass_b_kernel_eq_skeleton]; unfold cc3__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant of a body that
    touches nothing but its windows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RegB5.lean ====
/- Region 5 of @main: the pointwise pass (pipeline 5). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (a window fetched at
    the first point only keeps its block index, so what it was left with is still its block), for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out5_3 (x0 : Vec F S5000x128 .f32) (x1 x2 : Vec F S1x128 .f32) : Vec F S5000x128 .f32 :=
  View.canon [⟨r5_0, k5_pay1 (View.ld x0 r5_0) (View.ld x1 r5_1) (View.ld x2 r5_1)⟩]

/-- The one store is of the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out5_3` of the inputs'. -/
theorem sound_kernel5 (c : Dev nD) (E : Set ℕ) (i : grid5.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__pass_b_kernel i arg0 harg0 arg1 harg1 arg2 harg2 arg3 harg3) K := by
  simp only [cc5__pass_b_kernel_eq_skeleton]; unfold cc5__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant of a body that
    touches nothing but its windows; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RegB7.lean ====
/- Region 7 of @main: the pointwise pass (pipeline 7). Per core, at the buffer contents `V` the region is
   entered with: each window's block at a grid point, what the body leaves in the output window's staging
   buffer as a function of the three input blocks, the body's triple, the pipeline's proof data and the body
   obligation at every point. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not (a window fetched at
    the first point only keeps its block index, so what it was left with is still its block), for any proof data
    whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0

/-! ## What the body leaves in the output window's buffer -/

/-- Window 3's staging buffer after the body, from the input windows' blocks: its one store, of the payload over
    the three loads. -/
def out7_3 (x0 : Vec F S5000x128 .f32) (x1 x2 : Vec F S1x128 .f32) : Vec F S5000x128 .f32 :=
  View.canon [⟨r7_0, k7_pay1 (View.ld x0 r7_0) (View.ld x1 r7_1) (View.ld x2 r7_1)⟩]

/-- The one store is of the whole buffer, so it covers it. -/
theorem cover7_3 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at read contents `x0 x1 x2` and the output's at anything
    (the body loads it before it stores over the whole of it), runs to the continuation holding the inputs' as
    they were and the output's at `out7_3` of the inputs'. -/
theorem sound_kernel7 (c : Dev nD) (E : Set ℕ) (i : grid7.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out7_3 x0 x1 x2)) -∗ K ⟨⟩))
      ⊢ wp frame (wpE (defs₀ (F := F)) Variants.none c none) E (cc7__pass_b_kernel i arg0 harg0 arg1 harg1 arg2 harg2 arg3 harg3) K := by
  simp only [cc7__pass_b_kernel_eq_skeleton]; unfold cc7__pass_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the input blocks; the invariant of a body that
    touches nothing but its windows; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.RegC8.lean ====
/- Region 8 of @main: the classifier (pipeline 8; a grid of one point). Per core, at the buffer contents `V` the
   region is entered with: each window's block at the point, what the body leaves in the output window's staging
   buffer as a function of the five input blocks, the body's triple, the pipeline's proof data and the body
   obligation. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at the point, for any proof data whose array is `V`'s
    and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S64x640 := Rect.unit (s := S64x640) ![0, 0] S64x640.size inb_S64x640_S64x640_0_0
abbrev r8_1 : Rect S640x256 := Rect.unit (s := S640x256) ![0, 0] S640x256.size inb_S640x256_S640x256_0_0
abbrev r8_2 : Rect S1x256 := Rect.unit (s := S1x256) ![0, 0] S1x256.size inb_S1x256_S1x256_0_0
abbrev r8_3 : Rect S256x10 := Rect.unit (s := S256x10) ![0, 0] S256x10.size inb_S256x10_S256x10_0_0
abbrev r8_4 : Rect S1x10 := Rect.unit (s := S1x10) ![0, 0] S1x10.size inb_S1x10_S1x10_0_0
abbrev r8_5 : Rect S64x10 := Rect.unit (s := S64x10) ![0, 0] S64x10.size inb_S64x10_S64x10_0_0

/-! ## What the body leaves in the output window's buffer -/

/-- Window 5's staging buffer after the body, from the input windows' blocks: its one store, of the payload over
    the five loads. -/
def out8_5 (x0 : Vec F S64x640 .f32) (x1 : Vec F S640x256 .f32) (x2 : Vec F S1x256 .f32) (x3 : Vec F S256x10 .f32) (x4 : Vec F S1x10 .f32) : Vec F S64x10 .f32 :=
  View.canon [⟨r8_5, k8_pay1 (View.ld x0 r8_0) (View.ld x1 r8_1) (View.ld x2 r8_2) (View.ld x3 r8_3) (View.ld x4 r8_4)⟩]

/-- The one store is of the whole buffer, so it covers it. -/
theorem cover8_5 (p0 : Vec F S64x10 .f32) (y : S64x10.Idx) :
    ∃ pc ∈ ([⟨r8_5, p0⟩] : List (View.Piece (Elt F) S64x10 .f32)), y ∈ pc.1.set :=
  View.cover_of_tiled [⟨r8_5, p0⟩] S64x10.size (by rfl) y

/-! ## The body's triple -/

set_option maxHeartbeats 1000000 in
/-- The kernel body on whole staging memrefs, the inputs' at read contents `x0 … x4` and the output's at anything
    (the body loads it before it stores over the whole of it), runs to the continuation holding the inputs' as
    they were and the output's at `out8_5` of the inputs'. -/
theorem sound_kernel8 (c : Dev nD) (E : Set ℕ) (i : grid8.Coords)
    (arg0 : Memref sig .tc .vmem S64x640 .f32) (harg0 : arg0.IsWhole)
    (arg1 : Memref sig .tc .vmem S640x256 .f32) (harg1 : arg1.IsWhole)
    (arg2 : Memref sig .tc .vmem S1x256 .f32) (harg2 : arg2.IsWhole)
    (arg3 : Memref sig .tc .vmem S256x10 .f32) (harg3 : arg3.IsWhole)
    (arg4 : Memref sig .tc .vmem S1x10 .f32) (harg4 : arg4.IsWhole)
    (arg5 : Memref sig .tc .vmem S64x10 .f32) (harg5 : arg5.IsWhole)
    (x0 : Vec F S64x640 .f32) (x1 : Vec F S640x256 .f32) (x2 : Vec F S1x256 .f32) (x3 : Vec F S256x10 .f32) (x4 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__classifier_kernel i arg0 harg0 arg1 harg1 arg2 harg2 arg3 harg3 arg4 harg4 arg5 harg5) K := by
  simp only [cc8__classifier_kernel_eq_skeleton]; unfold cc8__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body each input's
    buffer at its block and the output's at `out8_5` of the input blocks; the invariant of a body that touches
    nothing but its windows; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- Each input's current staging buffer holds its block at the point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at the point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Regs.lean ====
/- The nine regions' proof data, gathered. -/
import proofs.«116561_j3624952397847_1_alg».proof.Proof.KI.RegA0
import proofs.«116561_j3624952397847_1_alg».proof.Proof.KI.RegA2
import proofs.«116561_j3624952397847_1_alg».proof.Proof.KI.RegA4
import proofs.«116561_j3624952397847_1_alg».proof.Proof.KI.RegA6
import proofs.«116561_j3624952397847_1_alg».proof.Proof.KI.RegB1
import proofs.«116561_j3624952397847_1_alg».proof.Proof.KI.RegB3
import proofs.«116561_j3624952397847_1_alg».proof.Proof.KI.RegB5
import proofs.«116561_j3624952397847_1_alg».proof.Proof.KI.RegB7
import proofs.«116561_j3624952397847_1_alg».proof.Proof.KI.RegC8
-- ==== Proof.KI.Fold.lean ====
/- The run of the kernel's program: what every unscoped buffer of a core holds between two items of the
   program (a stretch of host operations applies them; a kernel region leaves each of its arrays at what its
   write-backs fold to and every other buffer alone), each region's record over those contents, and the launch:
   every weakly fair execution ends, nothing faulting, every unscoped buffer holding the last contents. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import proofs.«116561_j3624952397847_1_alg».proof.Proof.Gen.KernelIdeal.Regions
import proofs.«116561_j3624952397847_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between two items, from the launch on -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the stretch `hostOps0_1`. -/
abbrev W2 : Dev nD → Valuation τ sig (Elt F) := fun c => StableHlo.after hostOps0_1 (W1 m ρ c)
abbrev U2 : (c : Dev nD) → (b : Ref sig .tc) → Buf (Elt F) ((c : Thread nD τ).loc b) := fun c b => W2 m ρ c b
/-- After region 0: its arrays at what the pipeline leaves, every other buffer as the region found it. -/
def W3 (c : Dev nD) : Valuation τ sig (Elt F) :=
  Pipeline.withArrays spec0 c (W2 m ρ c) fun w => (dat0 (U2 m ρ) c).arrAt w cfg0.N
theorem W3_arr (c : Dev nD) (w : Fin cfg0.W) :
    W3 m ρ c (Proc.devRef .tc (Pipeline.arrRef spec0 w)) = (dat0 (U2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev U3 : (c : Dev nD) → (b : Ref sig .tc) → Buf (Elt F) ((c : Thread nD τ).loc b) := fun c b => W3 m ρ c b
theorem hF0 (c : Dev nD) (w : Fin cfg0.W) : (dat0 (U2 m ρ) c).arrAt w cfg0.N = U3 m ρ c (Pipeline.arrRef spec0 w) :=
  (W3_arr m ρ c w).symm
theorem hrest0 (c : Dev nD) : ∀ b, b ∉ Finset.univ.image (Pipeline.arrRef spec0) → U3 m ρ c b = U2 m ρ c b :=
  fun b hb => W3_of_ne m ρ c b fun w e => hb (Finset.mem_image.mpr ⟨w, Finset.mem_univ _, e⟩)
/-- After the stretch `hostOps1`. -/
abbrev W4 : Dev nD → Valuation τ sig (Elt F) := fun c => StableHlo.after hostOps1 (W3 m ρ c)
abbrev U4 : (c : Dev nD) → (b : Ref sig .tc) → Buf (Elt F) ((c : Thread nD τ).loc b) := fun c b => W4 m ρ c b
/-- After region 1: its arrays at what the pipeline leaves, every other buffer as the region found it. -/
def W5 (c : Dev nD) : Valuation τ sig (Elt F) :=
  Pipeline.withArrays spec1 c (W4 m ρ c) fun w => (dat1 (U4 m ρ) c).arrAt w cfg1.N
theorem W5_arr (c : Dev nD) (w : Fin cfg1.W) :
    W5 m ρ c (Proc.devRef .tc (Pipeline.arrRef spec1 w)) = (dat1 (U4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev U5 : (c : Dev nD) → (b : Ref sig .tc) → Buf (Elt F) ((c : Thread nD τ).loc b) := fun c b => W5 m ρ c b
theorem hF1 (c : Dev nD) (w : Fin cfg1.W) : (dat1 (U4 m ρ) c).arrAt w cfg1.N = U5 m ρ c (Pipeline.arrRef spec1 w) :=
  (W5_arr m ρ c w).symm
theorem hrest1 (c : Dev nD) : ∀ b, b ∉ Finset.univ.image (Pipeline.arrRef spec1) → U5 m ρ c b = U4 m ρ c b :=
  fun b hb => W5_of_ne m ρ c b fun w e => hb (Finset.mem_image.mpr ⟨w, Finset.mem_univ _, e⟩)
/-- After the stretch `hostOps2`. -/
abbrev W6 : Dev nD → Valuation τ sig (Elt F) := fun c => StableHlo.after hostOps2 (W5 m ρ c)
abbrev U6 : (c : Dev nD) → (b : Ref sig .tc) → Buf (Elt F) ((c : Thread nD τ).loc b) := fun c b => W6 m ρ c b
/-- After region 2: its arrays at what the pipeline leaves, every other buffer as the region found it. -/
def W7 (c : Dev nD) : Valuation τ sig (Elt F) :=
  Pipeline.withArrays spec2 c (W6 m ρ c) fun w => (dat2 (U6 m ρ) c).arrAt w cfg2.N
theorem W7_arr (c : Dev nD) (w : Fin cfg2.W) :
    W7 m ρ c (Proc.devRef .tc (Pipeline.arrRef spec2 w)) = (dat2 (U6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev U7 : (c : Dev nD) → (b : Ref sig .tc) → Buf (Elt F) ((c : Thread nD τ).loc b) := fun c b => W7 m ρ c b
theorem hF2 (c : Dev nD) (w : Fin cfg2.W) : (dat2 (U6 m ρ) c).arrAt w cfg2.N = U7 m ρ c (Pipeline.arrRef spec2 w) :=
  (W7_arr m ρ c w).symm
theorem hrest2 (c : Dev nD) : ∀ b, b ∉ Finset.univ.image (Pipeline.arrRef spec2) → U7 m ρ c b = U6 m ρ c b :=
  fun b hb => W7_of_ne m ρ c b fun w e => hb (Finset.mem_image.mpr ⟨w, Finset.mem_univ _, e⟩)
/-- After the stretch `hostOps3`. -/
abbrev W8 : Dev nD → Valuation τ sig (Elt F) := fun c => StableHlo.after hostOps3 (W7 m ρ c)
abbrev U8 : (c : Dev nD) → (b : Ref sig .tc) → Buf (Elt F) ((c : Thread nD τ).loc b) := fun c b => W8 m ρ c b
/-- After region 3: its arrays at what the pipeline leaves, every other buffer as the region found it. -/
def W9 (c : Dev nD) : Valuation τ sig (Elt F) :=
  Pipeline.withArrays spec3 c (W8 m ρ c) fun w => (dat3 (U8 m ρ) c).arrAt w cfg3.N
theorem W9_arr (c : Dev nD) (w : Fin cfg3.W) :
    W9 m ρ c (Proc.devRef .tc (Pipeline.arrRef spec3 w)) = (dat3 (U8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev U9 : (c : Dev nD) → (b : Ref sig .tc) → Buf (Elt F) ((c : Thread nD τ).loc b) := fun c b => W9 m ρ c b
theorem hF3 (c : Dev nD) (w : Fin cfg3.W) : (dat3 (U8 m ρ) c).arrAt w cfg3.N = U9 m ρ c (Pipeline.arrRef spec3 w) :=
  (W9_arr m ρ c w).symm
theorem hrest3 (c : Dev nD) : ∀ b, b ∉ Finset.univ.image (Pipeline.arrRef spec3) → U9 m ρ c b = U8 m ρ c b :=
  fun b hb => W9_of_ne m ρ c b fun w e => hb (Finset.mem_image.mpr ⟨w, Finset.mem_univ _, e⟩)
/-- After the stretch `hostOps4`. -/
abbrev W10 : Dev nD → Valuation τ sig (Elt F) := fun c => StableHlo.after hostOps4 (W9 m ρ c)
abbrev U10 : (c : Dev nD) → (b : Ref sig .tc) → Buf (Elt F) ((c : Thread nD τ).loc b) := fun c b => W10 m ρ c b
/-- After region 4: its arrays at what the pipeline leaves, every other buffer as the region found it. -/
def W11 (c : Dev nD) : Valuation τ sig (Elt F) :=
  Pipeline.withArrays spec4 c (W10 m ρ c) fun w => (dat4 (U10 m ρ) c).arrAt w cfg4.N
theorem W11_arr (c : Dev nD) (w : Fin cfg4.W) :
    W11 m ρ c (Proc.devRef .tc (Pipeline.arrRef spec4 w)) = (dat4 (U10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
abbrev U11 : (c : Dev nD) → (b : Ref sig .tc) → Buf (Elt F) ((c : Thread nD τ).loc b) := fun c b => W11 m ρ c b
theorem hF4 (c : Dev nD) (w : Fin cfg4.W) : (dat4 (U10 m ρ) c).arrAt w cfg4.N = U11 m ρ c (Pipeline.arrRef spec4 w) :=
  (W11_arr m ρ c w).symm
theorem hrest4 (c : Dev nD) : ∀ b, b ∉ Finset.univ.image (Pipeline.arrRef spec4) → U11 m ρ c b = U10 m ρ c b :=
  fun b hb => W11_of_ne m ρ c b fun w e => hb (Finset.mem_image.mpr ⟨w, Finset.mem_univ _, e⟩)
/-- After the stretch `hostOps5`. -/
abbrev W12 : Dev nD → Valuation τ sig (Elt F) := fun c => StableHlo.after hostOps5 (W11 m ρ c)
abbrev U12 : (c : Dev nD) → (b : Ref sig .tc) → Buf (Elt F) ((c : Thread nD τ).loc b) := fun c b => W12 m ρ c b
/-- After region 5: its arrays at what the pipeline leaves, every other buffer as the region found it. -/
def W13 (c : Dev nD) : Valuation τ sig (Elt F) :=
  Pipeline.withArrays spec5 c (W12 m ρ c) fun w => (dat5 (U12 m ρ) c).arrAt w cfg5.N
theorem W13_arr (c : Dev nD) (w : Fin cfg5.W) :
    W13 m ρ c (Proc.devRef .tc (Pipeline.arrRef spec5 w)) = (dat5 (U12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev U13 : (c : Dev nD) → (b : Ref sig .tc) → Buf (Elt F) ((c : Thread nD τ).loc b) := fun c b => W13 m ρ c b
theorem hF5 (c : Dev nD) (w : Fin cfg5.W) : (dat5 (U12 m ρ) c).arrAt w cfg5.N = U13 m ρ c (Pipeline.arrRef spec5 w) :=
  (W13_arr m ρ c w).symm
theorem hrest5 (c : Dev nD) : ∀ b, b ∉ Finset.univ.image (Pipeline.arrRef spec5) → U13 m ρ c b = U12 m ρ c b :=
  fun b hb => W13_of_ne m ρ c b fun w e => hb (Finset.mem_image.mpr ⟨w, Finset.mem_univ _, e⟩)
/-- After the stretch `hostOps6`. -/
abbrev W14 : Dev nD → Valuation τ sig (Elt F) := fun c => StableHlo.after hostOps6 (W13 m ρ c)
abbrev U14 : (c : Dev nD) → (b : Ref sig .tc) → Buf (Elt F) ((c : Thread nD τ).loc b) := fun c b => W14 m ρ c b
/-- After region 6: its arrays at what the pipeline leaves, every other buffer as the region found it. -/
def W15 (c : Dev nD) : Valuation τ sig (Elt F) :=
  Pipeline.withArrays spec6 c (W14 m ρ c) fun w => (dat6 (U14 m ρ) c).arrAt w cfg6.N
theorem W15_arr (c : Dev nD) (w : Fin cfg6.W) :
    W15 m ρ c (Proc.devRef .tc (Pipeline.arrRef spec6 w)) = (dat6 (U14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev U15 : (c : Dev nD) → (b : Ref sig .tc) → Buf (Elt F) ((c : Thread nD τ).loc b) := fun c b => W15 m ρ c b
theorem hF6 (c : Dev nD) (w : Fin cfg6.W) : (dat6 (U14 m ρ) c).arrAt w cfg6.N = U15 m ρ c (Pipeline.arrRef spec6 w) :=
  (W15_arr m ρ c w).symm
theorem hrest6 (c : Dev nD) : ∀ b, b ∉ Finset.univ.image (Pipeline.arrRef spec6) → U15 m ρ c b = U14 m ρ c b :=
  fun b hb => W15_of_ne m ρ c b fun w e => hb (Finset.mem_image.mpr ⟨w, Finset.mem_univ _, e⟩)
/-- After the stretch `hostOps7`. -/
abbrev W16 : Dev nD → Valuation τ sig (Elt F) := fun c => StableHlo.after hostOps7 (W15 m ρ c)
abbrev U16 : (c : Dev nD) → (b : Ref sig .tc) → Buf (Elt F) ((c : Thread nD τ).loc b) := fun c b => W16 m ρ c b
/-- After region 7: its arrays at what the pipeline leaves, every other buffer as the region found it. -/
def W17 (c : Dev nD) : Valuation τ sig (Elt F) :=
  Pipeline.withArrays spec7 c (W16 m ρ c) fun w => (dat7 (U16 m ρ) c).arrAt w cfg7.N
theorem W17_arr (c : Dev nD) (w : Fin cfg7.W) :
    W17 m ρ c (Proc.devRef .tc (Pipeline.arrRef spec7 w)) = (dat7 (U16 m ρ) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m ρ c (Proc.devRef .tc b) = W16 m ρ c (Proc.devRef .tc b) := by
  unfold W17; exact Pipeline.withArrays_of_ne spec7 c _ _ b hb
abbrev U17 : (c : Dev nD) → (b : Ref sig .tc) → Buf (Elt F) ((c : Thread nD τ).loc b) := fun c b => W17 m ρ c b
theorem hF7 (c : Dev nD) (w : Fin cfg7.W) : (dat7 (U16 m ρ) c).arrAt w cfg7.N = U17 m ρ c (Pipeline.arrRef spec7 w) :=
  (W17_arr m ρ c w).symm
theorem hrest7 (c : Dev nD) : ∀ b, b ∉ Finset.univ.image (Pipeline.arrRef spec7) → U17 m ρ c b = U16 m ρ c b :=
  fun b hb => W17_of_ne m ρ c b fun w e => hb (Finset.mem_image.mpr ⟨w, Finset.mem_univ _, e⟩)
/-- After the stretch `hostOps8`. -/
abbrev W18 : Dev nD → Valuation τ sig (Elt F) := fun c => StableHlo.after hostOps8 (W17 m ρ c)
abbrev U18 : (c : Dev nD) → (b : Ref sig .tc) → Buf (Elt F) ((c : Thread nD τ).loc b) := fun c b => W18 m ρ c b
/-- After the stretch `hostOps8_1`. -/
abbrev W19 : Dev nD → Valuation τ sig (Elt F) := fun c => StableHlo.after hostOps8_1 (W18 m ρ c)
abbrev U19 : (c : Dev nD) → (b : Ref sig .tc) → Buf (Elt F) ((c : Thread nD τ).loc b) := fun c b => W19 m ρ c b
/-- After the stretch `hostOps8_2`. -/
abbrev W20 : Dev nD → Valuation τ sig (Elt F) := fun c => StableHlo.after hostOps8_2 (W19 m ρ c)
abbrev U20 : (c : Dev nD) → (b : Ref sig .tc) → Buf (Elt F) ((c : Thread nD τ).loc b) := fun c b => W20 m ρ c b
/-- After region 8: its arrays at what the pipeline leaves, every other buffer as the region found it. -/
def W21 (c : Dev nD) : Valuation τ sig (Elt F) :=
  Pipeline.withArrays spec8 c (W20 m ρ c) fun w => (dat8 (U20 m ρ) c).arrAt w cfg8.N
theorem W21_arr (c : Dev nD) (w : Fin cfg8.W) :
    W21 m ρ c (Proc.devRef .tc (Pipeline.arrRef spec8 w)) = (dat8 (U20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev U21 : (c : Dev nD) → (b : Ref sig .tc) → Buf (Elt F) ((c : Thread nD τ).loc b) := fun c b => W21 m ρ c b
theorem hF8 (c : Dev nD) (w : Fin cfg8.W) : (dat8 (U20 m ρ) c).arrAt w cfg8.N = U21 m ρ c (Pipeline.arrRef spec8 w) :=
  (W21_arr m ρ c w).symm
theorem hrest8 (c : Dev nD) : ∀ b, b ∉ Finset.univ.image (Pipeline.arrRef spec8) → U21 m ρ c b = U20 m ρ c b :=
  fun b hb => W21_of_ne m ρ c b fun w e => hb (Finset.mem_image.mpr ⟨w, Finset.mem_univ _, e⟩)

/-! ## The proof data of every pipeline, each at its region's entry contents -/

def pdats : (p : Fin 9) → (c : Dev nD) → Dat τ (Elt F) Unit ℕ (UR sig nD τ) ℕ (Pipeline.pin (pcfgs (F := F)) adm p) c
  | ⟨0, _⟩ => fun c => dat0 (U2 m ρ) c
  | ⟨1, _⟩ => fun c => dat1 (U4 m ρ) c
  | ⟨2, _⟩ => fun c => dat2 (U6 m ρ) c
  | ⟨3, _⟩ => fun c => dat3 (U8 m ρ) c
  | ⟨4, _⟩ => fun c => dat4 (U10 m ρ) c
  | ⟨5, _⟩ => fun c => dat5 (U12 m ρ) c
  | ⟨6, _⟩ => fun c => dat6 (U14 m ρ) c
  | ⟨7, _⟩ => fun c => dat7 (U16 m ρ) c
  | ⟨8, _⟩ => fun c => dat8 (U20 m ρ) c

abbrev 𝒱ₙ : Variants := Variants.none
/-- No core owes another anything: no level is assigned. -/
abbrev L0 : GSem nD τ sig → Finset Unit := fun _ => ∅
abbrev lv0 : GSem nD τ sig → Unit → ℕ := fun _ _ => 0
/-- What rides beside the buffers through every item: the generator register at some state, nothing owed. -/
abbrev Rr (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last contents beside the generator register. -/
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0: entered from every unscoped buffer at `W2`, left at `W3`. -/
def reg0 : Pipeline.RegionSeg (pcfgs (F := F)) adm (pdats m ρ) () defs₀ 𝒱ₙ L0 lv0 0 where
  win := launch0.win.to₀
  block_pos := launch0.block_pos
  stage_whole := launch0.stage_whole
  K := PEmpty
  osem k := k.elim
  ho := Pipeline.OwnSemFacts.none _
  hbody c := (body_obligation0 (U2 m ρ) c).loose
  hwaits := Pipeline.hwaits_of_owed_zero _ _ _ _ L0 lv0 0 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (U2 m ρ) c).Φ 0 from rfl]
    iintro ⟨Hp, -, Hr⟩
    iapply (hin0 (U2 m ρ) c)
    isplitl [Hp]; · iexact Hp
    iexact Hr
  hout c := by
    rw [Pipeline.ownSems0_none, show (pdats m ρ 0 c).Φ (Fin.last _) = (dat0 (U2 m ρ) c).Φ (Fin.last cfg0.N) from rfl]
    iintro H
    ihave H' := (hout0 (U2 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U2 m ρ c) (U3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin1 (V : (c : Dev nD) → (b : Ref sig .tc) → Buf (Elt F) ((c : Thread nD τ).loc b)) (c : Dev nD) :
    (iprop((∃ r, prngReg c r) ∗ Pipeline.scopedRest spec1 c) : sProp 𝕄) ⊢ (dat1 V c).Φ 0 := by
  rw [show (dat1 V c).Φ 0 = Pipeline.ΦA spec1 c from rfl]; unfold Pipeline.ΦA
  iintro ⟨Hp, Hr⟩
  isplitl [Hr]; · iexact Hr
  iexact Hp
theorem hout1 (V : (c : Dev nD) → (b : Ref sig .tc) → Buf (Elt F) ((c : Thread nD τ).loc b)) (c : Dev nD) :
    (dat1 V c).Φ (Fin.last cfg1.N) ⊢ (iprop((∃ r, prngReg c r) ∗ Pipeline.scopedRest spec1 c) : sProp 𝕄) := by
  rw [show (dat1 V c).Φ (Fin.last _) = Pipeline.ΦA spec1 c from rfl]; unfold Pipeline.ΦA
  iintro ⟨Hr, Hp⟩
  isplitl [Hp]; · iexact Hp
  iexact Hr

set_option backward.isDefEq.respectTransparency.types false in
/-- Region 1: entered from every unscoped buffer at `W4`, left at `W5`. -/
def reg1 : Pipeline.RegionSeg (pcfgs (F := F)) adm (pdats m ρ) () defs₀ 𝒱ₙ L0 lv0 1 where
  win := launch1.win.to₀
  block_pos := launch1.block_pos
  stage_whole := launch1.stage_whole
  K := PEmpty
  osem k := k.elim
  ho := Pipeline.OwnSemFacts.none _
  hbody c := (body_obligation1 (U4 m ρ) c).loose
  hwaits := Pipeline.hwaits_of_owed_zero _ _ _ _ L0 lv0 1 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U4 m ρ) c).Φ 0 from rfl]
    iintro ⟨Hp, -, Hr⟩
    iapply (hin1 (U4 m ρ) c)
    isplitl [Hp]; · iexact Hp
    iexact Hr
  hout c := by
    rw [Pipeline.ownSems0_none, show (pdats m ρ 1 c).Φ (Fin.last _) = (dat1 (U4 m ρ) c).Φ (Fin.last cfg1.N) from rfl]
    iintro H
    ihave H' := (hout1 (U4 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U4 m ρ c) (U5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W6`, left at `W7`. -/
def reg2 : Pipeline.RegionSeg (pcfgs (F := F)) adm (pdats m ρ) () defs₀ 𝒱ₙ L0 lv0 2 where
  win := launch2.win.to₀
  block_pos := launch2.block_pos
  stage_whole := launch2.stage_whole
  K := PEmpty
  osem k := k.elim
  ho := Pipeline.OwnSemFacts.none _
  hbody c := (body_obligation2 (U6 m ρ) c).loose
  hwaits := Pipeline.hwaits_of_owed_zero _ _ _ _ L0 lv0 2 fun _ _ => rfl
  pre c := iprop(StableHlo.held (c : Thread nD τ) (Pipeline.ucRefs τ sig) (W6 m ρ c) ∗ Rr c)
  post c := iprop(StableHlo.held (c : Thread nD τ) (Pipeline.ucRefs τ sig) (W7 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (U6 m ρ) c).Φ 0 from rfl]
    iintro ⟨Hp, -, Hr⟩
    iapply (hin2 (U6 m ρ) c)
    isplitl [Hp]; · iexact Hp
    iexact Hr
  hout c := by
    rw [Pipeline.ownSems0_none, show (pdats m ρ 2 c).Φ (Fin.last _) = (dat2 (U6 m ρ) c).Φ (Fin.last cfg2.N) from rfl]
    iintro H
    ihave H' := (hout2 (U6 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U6 m ρ c) (U7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin3 (V : (c : Dev nD) → (b : Ref sig .tc) → Buf (Elt F) ((c : Thread nD τ).loc b)) (c : Dev nD) :
    (iprop((∃ r, prngReg c r) ∗ Pipeline.scopedRest spec3 c) : sProp 𝕄) ⊢ (dat3 V c).Φ 0 := by
  rw [show (dat3 V c).Φ 0 = Pipeline.ΦA spec3 c from rfl]; unfold Pipeline.ΦA
  iintro ⟨Hp, Hr⟩
  isplitl [Hr]; · iexact Hr
  iexact Hp
theorem hout3 (V : (c : Dev nD) → (b : Ref sig .tc) → Buf (Elt F) ((c : Thread nD τ).loc b)) (c : Dev nD) :
    (dat3 V c).Φ (Fin.last cfg3.N) ⊢ (iprop((∃ r, prngReg c r) ∗ Pipeline.scopedRest spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

set_option backward.isDefEq.respectTransparency.types false in
/-- Region 3: entered from every unscoped buffer at `W8`, left at `W9`. -/
def reg3 : Pipeline.RegionSeg (pcfgs (F := F)) adm (pdats m ρ) () defs₀ 𝒱ₙ L0 lv0 3 where
  win := launch3.win.to₀
  block_pos := launch3.block_pos
  stage_whole := launch3.stage_whole
  K := PEmpty
  osem k := k.elim
  ho := Pipeline.OwnSemFacts.none _
  hbody c := (body_obligation3 (U8 m ρ) c).loose
  hwaits := Pipeline.hwaits_of_owed_zero _ _ _ _ L0 lv0 3 fun _ _ => rfl
  pre c := iprop(StableHlo.held (c : Thread nD τ) (Pipeline.ucRefs τ sig) (W8 m ρ c) ∗ Rr c)
  post c := iprop(StableHlo.held (c : Thread nD τ) (Pipeline.ucRefs τ sig) (W9 m ρ c) ∗ Rr c)
  X c := iprop(∃ r, prngReg c r)
  Y c := iprop(∃ r, prngReg c r)
  Z c := Pipeline.unscopedRest (Ix := Unit) (Name := ℕ) (U := UR sig nD τ) (Lvl := ℕ) spec3 c (U8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (U8 m ρ) c).Φ 0 from rfl]
    iintro ⟨Hp, -, Hr⟩
    iapply (hin3 (U8 m ρ) c)
    isplitl [Hp]; · iexact Hp
    iexact Hr
  hout c := by
    rw [Pipeline.ownSems0_none, show (pdats m ρ 3 c).Φ (Fin.last _) = (dat3 (U8 m ρ) c).Φ (Fin.last cfg3.N) from rfl]
    iintro H
    ihave H' := (hout3 (U8 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U8 m ρ c) (U9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W10`, left at `W11`. -/
def reg4 : Pipeline.RegionSeg (pcfgs (F := F)) adm (pdats m ρ) () defs₀ 𝒱ₙ L0 lv0 4 where
  win := launch4.win.to₀
  block_pos := launch4.block_pos
  stage_whole := launch4.stage_whole
  K := PEmpty
  osem k := k.elim
  ho := Pipeline.OwnSemFacts.none _
  hbody c := (body_obligation4 (U10 m ρ) c).loose
  hwaits := Pipeline.hwaits_of_owed_zero _ _ _ _ L0 lv0 4 fun _ _ => rfl
  pre c := iprop(StableHlo.held (c : Thread nD τ) (Pipeline.ucRefs τ sig) (W10 m ρ c) ∗ Rr c)
  post c := iprop(StableHlo.held (c : Thread nD τ) (Pipeline.ucRefs τ sig) (W11 m ρ c) ∗ Rr c)
  X c := iprop(∃ r, prngReg c r)
  Y c := iprop(∃ r, prngReg c r)
  Z c := Pipeline.unscopedRest (Ix := Unit) (Name := ℕ) (U := UR sig nD τ) (Lvl := ℕ) spec4 c (U10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (U10 m ρ) c).Φ 0 from rfl]
    iintro ⟨Hp, -, Hr⟩
    iapply (hin4 (U10 m ρ) c)
    isplitl [Hp]; · iexact Hp
    iexact Hr
  hout c := by
    rw [Pipeline.ownSems0_none, show (pdats m ρ 4 c).Φ (Fin.last _) = (dat4 (U10 m ρ) c).Φ (Fin.last cfg4.N) from rfl]
    iintro H
    ihave H' := (hout4 (U10 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U10 m ρ c) (U11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin5 (V : (c : Dev nD) → (b : Ref sig .tc) → Buf (Elt F) ((c : Thread nD τ).loc b)) (c : Dev nD) :
    (iprop((∃ r, prngReg c r) ∗ Pipeline.scopedRest spec5 c) : sProp 𝕄) ⊢ (dat5 V c).Φ 0 := by
  rw [show (dat5 V c).Φ 0 = Pipeline.ΦA spec5 c from rfl]; unfold Pipeline.ΦA
  iintro ⟨Hp, Hr⟩
  isplitl [Hr]; · iexact Hr
  iexact Hp
theorem hout5 (V : (c : Dev nD) → (b : Ref sig .tc) → Buf (Elt F) ((c : Thread nD τ).loc b)) (c : Dev nD) :
    (dat5 V c).Φ (Fin.last cfg5.N) ⊢ (iprop((∃ r, prngReg c r) ∗ Pipeline.scopedRest spec5 c) : sProp 𝕄) := by
  rw [show (dat5 V c).Φ (Fin.last _) = Pipeline.ΦA spec5 c from rfl]; unfold Pipeline.ΦA
  iintro ⟨Hr, Hp⟩
  isplitl [Hp]; · iexact Hp
  iexact Hr

set_option backward.isDefEq.respectTransparency.types false in
/-- Region 5: entered from every unscoped buffer at `W12`, left at `W13`. -/
def reg5 : Pipeline.RegionSeg (pcfgs (F := F)) adm (pdats m ρ) () defs₀ 𝒱ₙ L0 lv0 5 where
  win := launch5.win.to₀
  block_pos := launch5.block_pos
  stage_whole := launch5.stage_whole
  K := PEmpty
  osem k := k.elim
  ho := Pipeline.OwnSemFacts.none _
  hbody c := (body_obligation5 (U12 m ρ) c).loose
  hwaits := Pipeline.hwaits_of_owed_zero _ _ _ _ L0 lv0 5 fun _ _ => rfl
  pre c := iprop(StableHlo.held (c : Thread nD τ) (Pipeline.ucRefs τ sig) (W12 m ρ c) ∗ Rr c)
  post c := iprop(StableHlo.held (c : Thread nD τ) (Pipeline.ucRefs τ sig) (W13 m ρ c) ∗ Rr c)
  X c := iprop(∃ r, prngReg c r)
  Y c := iprop(∃ r, prngReg c r)
  Z c := Pipeline.unscopedRest (Ix := Unit) (Name := ℕ) (U := UR sig nD τ) (Lvl := ℕ) spec5 c (U12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (U12 m ρ) c).Φ 0 from rfl]
    iintro ⟨Hp, -, Hr⟩
    iapply (hin5 (U12 m ρ) c)
    isplitl [Hp]; · iexact Hp
    iexact Hr
  hout c := by
    rw [Pipeline.ownSems0_none, show (pdats m ρ 5 c).Φ (Fin.last _) = (dat5 (U12 m ρ) c).Φ (Fin.last cfg5.N) from rfl]
    iintro H
    ihave H' := (hout5 (U12 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U12 m ρ c) (U13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W14`, left at `W15`. -/
def reg6 : Pipeline.RegionSeg (pcfgs (F := F)) adm (pdats m ρ) () defs₀ 𝒱ₙ L0 lv0 6 where
  win := launch6.win.to₀
  block_pos := launch6.block_pos
  stage_whole := launch6.stage_whole
  K := PEmpty
  osem k := k.elim
  ho := Pipeline.OwnSemFacts.none _
  hbody c := (body_obligation6 (U14 m ρ) c).loose
  hwaits := Pipeline.hwaits_of_owed_zero _ _ _ _ L0 lv0 6 fun _ _ => rfl
  pre c := iprop(StableHlo.held (c : Thread nD τ) (Pipeline.ucRefs τ sig) (W14 m ρ c) ∗ Rr c)
  post c := iprop(StableHlo.held (c : Thread nD τ) (Pipeline.ucRefs τ sig) (W15 m ρ c) ∗ Rr c)
  X c := iprop(∃ r, prngReg c r)
  Y c := iprop(∃ r, prngReg c r)
  Z c := Pipeline.unscopedRest (Ix := Unit) (Name := ℕ) (U := UR sig nD τ) (Lvl := ℕ) spec6 c (U14 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (U14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (U14 m ρ) c).Φ 0 from rfl]
    iintro ⟨Hp, -, Hr⟩
    iapply (hin6 (U14 m ρ) c)
    isplitl [Hp]; · iexact Hp
    iexact Hr
  hout c := by
    rw [Pipeline.ownSems0_none, show (pdats m ρ 6 c).Φ (Fin.last _) = (dat6 (U14 m ρ) c).Φ (Fin.last cfg6.N) from rfl]
    iintro H
    ihave H' := (hout6 (U14 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (U14 m ρ c) (U15 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin7 (V : (c : Dev nD) → (b : Ref sig .tc) → Buf (Elt F) ((c : Thread nD τ).loc b)) (c : Dev nD) :
    (iprop((∃ r, prngReg c r) ∗ Pipeline.scopedRest spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp
theorem hout7 (V : (c : Dev nD) → (b : Ref sig .tc) → Buf (Elt F) ((c : Thread nD τ).loc b)) (c : Dev nD) :
    (dat7 V c).Φ (Fin.last cfg7.N) ⊢ (iprop((∃ r, prngReg c r) ∗ Pipeline.scopedRest spec7 c) : sProp 𝕄) := by
  rw [show (dat7 V c).Φ (Fin.last _) = Pipeline.ΦA spec7 c from rfl]; unfold Pipeline.ΦA
  iintro ⟨Hr, Hp⟩
  isplitl [Hp]; · iexact Hp
  iexact Hr

set_option backward.isDefEq.respectTransparency.types false in
/-- Region 7: entered from every unscoped buffer at `W16`, left at `W17`. -/
def reg7 : Pipeline.RegionSeg (pcfgs (F := F)) adm (pdats m ρ) () defs₀ 𝒱ₙ L0 lv0 7 where
  win := launch7.win.to₀
  block_pos := launch7.block_pos
  stage_whole := launch7.stage_whole
  K := PEmpty
  osem k := k.elim
  ho := Pipeline.OwnSemFacts.none _
  hbody c := (body_obligation7 (U16 m ρ) c).loose
  hwaits := Pipeline.hwaits_of_owed_zero _ _ _ _ L0 lv0 7 fun _ _ => rfl
  pre c := iprop(StableHlo.held (c : Thread nD τ) (Pipeline.ucRefs τ sig) (W16 m ρ c) ∗ Rr c)
  post c := iprop(StableHlo.held (c : Thread nD τ) (Pipeline.ucRefs τ sig) (W17 m ρ c) ∗ Rr c)
  X c := iprop(∃ r, prngReg c r)
  Y c := iprop(∃ r, prngReg c r)
  Z c := Pipeline.unscopedRest (Ix := Unit) (Name := ℕ) (U := UR sig nD τ) (Lvl := ℕ) spec7 c (U16 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (U16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (U16 m ρ) c).Φ 0 from rfl]
    iintro ⟨Hp, -, Hr⟩
    iapply (hin7 (U16 m ρ) c)
    isplitl [Hp]; · iexact Hp
    iexact Hr
  hout c := by
    rw [Pipeline.ownSems0_none, show (pdats m ρ 7 c).Φ (Fin.last _) = (dat7 (U16 m ρ) c).Φ (Fin.last cfg7.N) from rfl]
    iintro H
    ihave H' := (hout7 (U16 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (U16 m ρ c) (U17 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hin8 (V : (c : Dev nD) → (b : Ref sig .tc) → Buf (Elt F) ((c : Thread nD τ).loc b)) (c : Dev nD) :
    (iprop((∃ r, prngReg c r) ∗ Pipeline.scopedRest spec8 c) : sProp 𝕄) ⊢ (dat8 V c).Φ 0 := by
  rw [show (dat8 V c).Φ 0 = Pipeline.ΦA spec8 c from rfl]; unfold Pipeline.ΦA
  iintro ⟨Hp, Hr⟩
  isplitl [Hr]; · iexact Hr
  iexact Hp
theorem hout8 (V : (c : Dev nD) → (b : Ref sig .tc) → Buf (Elt F) ((c : Thread nD τ).loc b)) (c : Dev nD) :
    (dat8 V c).Φ (Fin.last cfg8.N) ⊢ (iprop((∃ r, prngReg c r) ∗ Pipeline.scopedRest spec8 c) : sProp 𝕄) := by
  rw [show (dat8 V c).Φ (Fin.last _) = Pipeline.ΦA spec8 c from rfl]; unfold Pipeline.ΦA
  iintro ⟨Hr, Hp⟩
  isplitl [Hp]; · iexact Hp
  iexact Hr

set_option backward.isDefEq.respectTransparency.types false in
/-- Region 8: entered from every unscoped buffer at `W20`, left at `W21`. -/
def reg8 : Pipeline.RegionSeg (pcfgs (F := F)) adm (pdats m ρ) () defs₀ 𝒱ₙ L0 lv0 8 where
  win := launch8.win.to₀
  block_pos := launch8.block_pos
  stage_whole := launch8.stage_whole
  K := PEmpty
  osem k := k.elim
  ho := Pipeline.OwnSemFacts.none _
  hbody c := (body_obligation8 (U20 m ρ) c).loose
  hwaits := Pipeline.hwaits_of_owed_zero _ _ _ _ L0 lv0 8 fun _ _ => rfl
  pre c := iprop(StableHlo.held (c : Thread nD τ) (Pipeline.ucRefs τ sig) (W20 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (U20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (U20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (U20 m ρ) c).Φ 0 from rfl]
    iintro ⟨Hp, -, Hr⟩
    iapply (hin8 (U20 m ρ) c)
    isplitl [Hp]; · iexact Hp
    iexact Hr
  hout c := by
    rw [Pipeline.ownSems0_none, show (pdats m ρ 8 c).Φ (Fin.last _) = (dat8 (U20 m ρ) c).Φ (Fin.last cfg8.N) from rfl]
    iintro H
    ihave H' := (hout8 (U20 m ρ) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (U20 m ρ c) (U21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev hsegs : List (Pipeline.Seg (pcfgs (F := F)) adm (pdats m ρ) () defs₀ 𝒱ₙ L0 lv0) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .region (reg7 m ρ),
    .host (hseg hostOps8 hostOps8_sub hostOps8_fresh (W17 m ρ)),
    .host (hseg hostOps8_1 hostOps8_1_sub hostOps8_1_fresh (W18 m ρ)),
    .host (hseg hostOps8_2 hostOps8_2_sub hostOps8_2_fresh (W19 m ρ)),
    .region (reg8 m ρ) ]

theorem hsegs_prog : (hsegs m ρ).map Pipeline.Seg.prog = ([
    StableHlo.seq hostOps0,
    StableHlo.seq hostOps0_1,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    Prog.lift (.customCall (Pipeline.entry 6) ()),
    StableHlo.seq hostOps7,
    Prog.lift (.customCall (Pipeline.entry 7) ()),
    StableHlo.seq hostOps8,
    StableHlo.seq hostOps8_1,
    StableHlo.seq hostOps8_2,
    Prog.lift (.customCall (Pipeline.entry 8) ()) ] : List (Prog (TpuEff nD τ sig (Elt F) (Pipeline.Sig Λ₀ (Fin 9) fun p => (pcfgs (F := F) p).Adm) .tc) PUnit)) := rfl

/-- The program IS the run of the segments. -/
theorem main_run (c : Dev nD) : main (F := F) c = Pipeline.Seg.run (hsegs m ρ) := by
  rw [main_chain c, Pipeline.Seg.run_eq_chain, hsegs_prog]

set_option backward.isDefEq.respectTransparency.types false in
/-- From any memory with zero counters every weakly fair execution of the program ends, nothing faulting, and in every
    final state each unscoped buffer of each core holds the last contents `W21`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱ₙ L0 lv0 m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

end Cert.KernelIdeal.Hand

end
-- ==== Proof.KI.Args.lean ====
/- Every argument array reaches the end of the program as launched: no stretch of host operations writes it, and a
   region either does not touch it or reads it through an input window, whose array the pipeline leaves as it was. -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import proofs.«116561_j3624952397847_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Through a stretch of host operations: a reference none of them writes keeps its contents. -/
theorem host_keeps {Wr : List (Ref sig .tc)} (ops : List (HloOp τ sig (Elt F))) (V : Valuation τ sig (Elt F))
    (hw : ops.Forall fun op => op.writes ⊆ (Wr.map (Proc.devRef (τ := τ) .tc)).toFinset) (r : Ref sig .tc) (h : r ∉ Wr) :
    StableHlo.after ops V (Proc.devRef .tc r) = V (Proc.devRef .tc r) :=
  StableHlo.after_of_writes_sub ops V hw h

theorem W21_main_arg0 (c : Dev nD) : W21 m ρ c (Proc.devRef .tc main_arg0) = m ((c : Thread nD τ).loc main_arg0) :=
  (W21_of_ne m ρ c main_arg0 (by decide)).trans <|
  (host_keeps hostOps8_2 (W19 m ρ c) hostOps8_2_writes main_arg0 (by decide)).trans <|
  (host_keeps hostOps8_1 (W18 m ρ c) hostOps8_1_writes main_arg0 (by decide)).trans <|
  (host_keeps hostOps8 (W17 m ρ c) hostOps8_writes main_arg0 (by decide)).trans <|
  (W17_of_ne m ρ c main_arg0 (by decide)).trans <|
  (host_keeps hostOps7 (W15 m ρ c) hostOps7_writes main_arg0 (by decide)).trans <|
  (W15_of_ne m ρ c main_arg0 (by decide)).trans <|
  (host_keeps hostOps6 (W13 m ρ c) hostOps6_writes main_arg0 (by decide)).trans <|
  (W13_of_ne m ρ c main_arg0 (by decide)).trans <|
  (host_keeps hostOps5 (W11 m ρ c) hostOps5_writes main_arg0 (by decide)).trans <|
  (W11_of_ne m ρ c main_arg0 (by decide)).trans <|
  (host_keeps hostOps4 (W9 m ρ c) hostOps4_writes main_arg0 (by decide)).trans <|
  (W9_of_ne m ρ c main_arg0 (by decide)).trans <|
  (host_keeps hostOps3 (W7 m ρ c) hostOps3_writes main_arg0 (by decide)).trans <|
  (W7_of_ne m ρ c main_arg0 (by decide)).trans <|
  (host_keeps hostOps2 (W5 m ρ c) hostOps2_writes main_arg0 (by decide)).trans <|
  (W5_of_ne m ρ c main_arg0 (by decide)).trans <|
  (host_keeps hostOps1 (W3 m ρ c) hostOps1_writes main_arg0 (by decide)).trans <|
  (W3_of_ne m ρ c main_arg0 (by decide)).trans <|
  (host_keeps hostOps0_1 (W1 m ρ c) hostOps0_1_writes main_arg0 (by decide)).trans <|
  (host_keeps hostOps0 (W0 m ρ c) hostOps0_writes main_arg0 (by decide)).trans <|
  rfl

theorem W21_main_arg1 (c : Dev nD) : W21 m ρ c (Proc.devRef .tc main_arg1) = m ((c : Thread nD τ).loc main_arg1) :=
  (W21_of_ne m ρ c main_arg1 (by decide)).trans <|
  (host_keeps hostOps8_2 (W19 m ρ c) hostOps8_2_writes main_arg1 (by decide)).trans <|
  (host_keeps hostOps8_1 (W18 m ρ c) hostOps8_1_writes main_arg1 (by decide)).trans <|
  (host_keeps hostOps8 (W17 m ρ c) hostOps8_writes main_arg1 (by decide)).trans <|
  (W17_of_ne m ρ c main_arg1 (by decide)).trans <|
  (host_keeps hostOps7 (W15 m ρ c) hostOps7_writes main_arg1 (by decide)).trans <|
  (W15_of_ne m ρ c main_arg1 (by decide)).trans <|
  (host_keeps hostOps6 (W13 m ρ c) hostOps6_writes main_arg1 (by decide)).trans <|
  (W13_of_ne m ρ c main_arg1 (by decide)).trans <|
  (host_keeps hostOps5 (W11 m ρ c) hostOps5_writes main_arg1 (by decide)).trans <|
  (W11_of_ne m ρ c main_arg1 (by decide)).trans <|
  (host_keeps hostOps4 (W9 m ρ c) hostOps4_writes main_arg1 (by decide)).trans <|
  (W9_of_ne m ρ c main_arg1 (by decide)).trans <|
  (host_keeps hostOps3 (W7 m ρ c) hostOps3_writes main_arg1 (by decide)).trans <|
  (W7_of_ne m ρ c main_arg1 (by decide)).trans <|
  (host_keeps hostOps2 (W5 m ρ c) hostOps2_writes main_arg1 (by decide)).trans <|
  (W5_of_ne m ρ c main_arg1 (by decide)).trans <|
  (host_keeps hostOps1 (W3 m ρ c) hostOps1_writes main_arg1 (by decide)).trans <|
  (W3_of_ne m ρ c main_arg1 (by decide)).trans <|
  (host_keeps hostOps0_1 (W1 m ρ c) hostOps0_1_writes main_arg1 (by decide)).trans <|
  (host_keeps hostOps0 (W0 m ρ c) hostOps0_writes main_arg1 (by decide)).trans <|
  rfl

theorem W21_main_arg2 (c : Dev nD) : W21 m ρ c (Proc.devRef .tc main_arg2) = m ((c : Thread nD τ).loc main_arg2) :=
  (W21_of_ne m ρ c main_arg2 (by decide)).trans <|
  (host_keeps hostOps8_2 (W19 m ρ c) hostOps8_2_writes main_arg2 (by decide)).trans <|
  (host_keeps hostOps8_1 (W18 m ρ c) hostOps8_1_writes main_arg2 (by decide)).trans <|
  (host_keeps hostOps8 (W17 m ρ c) hostOps8_writes main_arg2 (by decide)).trans <|
  (W17_of_ne m ρ c main_arg2 (by decide)).trans <|
  (host_keeps hostOps7 (W15 m ρ c) hostOps7_writes main_arg2 (by decide)).trans <|
  (W15_of_ne m ρ c main_arg2 (by decide)).trans <|
  (host_keeps hostOps6 (W13 m ρ c) hostOps6_writes main_arg2 (by decide)).trans <|
  (W13_of_ne m ρ c main_arg2 (by decide)).trans <|
  (host_keeps hostOps5 (W11 m ρ c) hostOps5_writes main_arg2 (by decide)).trans <|
  (W11_of_ne m ρ c main_arg2 (by decide)).trans <|
  (host_keeps hostOps4 (W9 m ρ c) hostOps4_writes main_arg2 (by decide)).trans <|
  (W9_of_ne m ρ c main_arg2 (by decide)).trans <|
  (host_keeps hostOps3 (W7 m ρ c) hostOps3_writes main_arg2 (by decide)).trans <|
  (W7_of_ne m ρ c main_arg2 (by decide)).trans <|
  (host_keeps hostOps2 (W5 m ρ c) hostOps2_writes main_arg2 (by decide)).trans <|
  (W5_of_ne m ρ c main_arg2 (by decide)).trans <|
  (host_keeps hostOps1 (W3 m ρ c) hostOps1_writes main_arg2 (by decide)).trans <|
  (W3_of_ne m ρ c main_arg2 (by decide)).trans <|
  (host_keeps hostOps0_1 (W1 m ρ c) hostOps0_1_writes main_arg2 (by decide)).trans <|
  (host_keeps hostOps0 (W0 m ρ c) hostOps0_writes main_arg2 (by decide)).trans <|
  rfl

theorem W21_main_arg3 (c : Dev nD) : W21 m ρ c (Proc.devRef .tc main_arg3) = m ((c : Thread nD τ).loc main_arg3) :=
  (W21_of_ne m ρ c main_arg3 (by decide)).trans <|
  (host_keeps hostOps8_2 (W19 m ρ c) hostOps8_2_writes main_arg3 (by decide)).trans <|
  (host_keeps hostOps8_1 (W18 m ρ c) hostOps8_1_writes main_arg3 (by decide)).trans <|
  (host_keeps hostOps8 (W17 m ρ c) hostOps8_writes main_arg3 (by decide)).trans <|
  (W17_of_ne m ρ c main_arg3 (by decide)).trans <|
  (host_keeps hostOps7 (W15 m ρ c) hostOps7_writes main_arg3 (by decide)).trans <|
  (W15_of_ne m ρ c main_arg3 (by decide)).trans <|
  (host_keeps hostOps6 (W13 m ρ c) hostOps6_writes main_arg3 (by decide)).trans <|
  (W13_of_ne m ρ c main_arg3 (by decide)).trans <|
  (host_keeps hostOps5 (W11 m ρ c) hostOps5_writes main_arg3 (by decide)).trans <|
  (W11_of_ne m ρ c main_arg3 (by decide)).trans <|
  (host_keeps hostOps4 (W9 m ρ c) hostOps4_writes main_arg3 (by decide)).trans <|
  (W9_of_ne m ρ c main_arg3 (by decide)).trans <|
  (host_keeps hostOps3 (W7 m ρ c) hostOps3_writes main_arg3 (by decide)).trans <|
  (W7_of_ne m ρ c main_arg3 (by decide)).trans <|
  (host_keeps hostOps2 (W5 m ρ c) hostOps2_writes main_arg3 (by decide)).trans <|
  (W5_of_ne m ρ c main_arg3 (by decide)).trans <|
  (host_keeps hostOps1 (W3 m ρ c) hostOps1_writes main_arg3 (by decide)).trans <|
  (W3_of_ne m ρ c main_arg3 (by decide)).trans <|
  (host_keeps hostOps0_1 (W1 m ρ c) hostOps0_1_writes main_arg3 (by decide)).trans <|
  (host_keeps hostOps0 (W0 m ρ c) hostOps0_writes main_arg3 (by decide)).trans <|
  rfl

theorem W21_main_arg4 (c : Dev nD) : W21 m ρ c (Proc.devRef .tc main_arg4) = m ((c : Thread nD τ).loc main_arg4) :=
  (W21_of_ne m ρ c main_arg4 (by decide)).trans <|
  (host_keeps hostOps8_2 (W19 m ρ c) hostOps8_2_writes main_arg4 (by decide)).trans <|
  (host_keeps hostOps8_1 (W18 m ρ c) hostOps8_1_writes main_arg4 (by decide)).trans <|
  (host_keeps hostOps8 (W17 m ρ c) hostOps8_writes main_arg4 (by decide)).trans <|
  (W17_of_ne m ρ c main_arg4 (by decide)).trans <|
  (host_keeps hostOps7 (W15 m ρ c) hostOps7_writes main_arg4 (by decide)).trans <|
  (W15_of_ne m ρ c main_arg4 (by decide)).trans <|
  (host_keeps hostOps6 (W13 m ρ c) hostOps6_writes main_arg4 (by decide)).trans <|
  (W13_of_ne m ρ c main_arg4 (by decide)).trans <|
  (host_keeps hostOps5 (W11 m ρ c) hostOps5_writes main_arg4 (by decide)).trans <|
  (W11_of_ne m ρ c main_arg4 (by decide)).trans <|
  (host_keeps hostOps4 (W9 m ρ c) hostOps4_writes main_arg4 (by decide)).trans <|
  (W9_of_ne m ρ c main_arg4 (by decide)).trans <|
  (host_keeps hostOps3 (W7 m ρ c) hostOps3_writes main_arg4 (by decide)).trans <|
  (W7_of_ne m ρ c main_arg4 (by decide)).trans <|
  (host_keeps hostOps2 (W5 m ρ c) hostOps2_writes main_arg4 (by decide)).trans <|
  (W5_of_ne m ρ c main_arg4 (by decide)).trans <|
  (host_keeps hostOps1 (W3 m ρ c) hostOps1_writes main_arg4 (by decide)).trans <|
  (W3_of_ne m ρ c main_arg4 (by decide)).trans <|
  (host_keeps hostOps0_1 (W1 m ρ c) hostOps0_1_writes main_arg4 (by decide)).trans <|
  (host_keeps hostOps0 (W0 m ρ c) hostOps0_writes main_arg4 (by decide)).trans <|
  rfl

theorem W21_main_arg5 (c : Dev nD) : W21 m ρ c (Proc.devRef .tc main_arg5) = m ((c : Thread nD τ).loc main_arg5) :=
  (W21_of_ne m ρ c main_arg5 (by decide)).trans <|
  (host_keeps hostOps8_2 (W19 m ρ c) hostOps8_2_writes main_arg5 (by decide)).trans <|
  (host_keeps hostOps8_1 (W18 m ρ c) hostOps8_1_writes main_arg5 (by decide)).trans <|
  (host_keeps hostOps8 (W17 m ρ c) hostOps8_writes main_arg5 (by decide)).trans <|
  (W17_of_ne m ρ c main_arg5 (by decide)).trans <|
  (host_keeps hostOps7 (W15 m ρ c) hostOps7_writes main_arg5 (by decide)).trans <|
  (W15_of_ne m ρ c main_arg5 (by decide)).trans <|
  (host_keeps hostOps6 (W13 m ρ c) hostOps6_writes main_arg5 (by decide)).trans <|
  (W13_of_ne m ρ c main_arg5 (by decide)).trans <|
  (host_keeps hostOps5 (W11 m ρ c) hostOps5_writes main_arg5 (by decide)).trans <|
  (W11_of_ne m ρ c main_arg5 (by decide)).trans <|
  (host_keeps hostOps4 (W9 m ρ c) hostOps4_writes main_arg5 (by decide)).trans <|
  (W9_of_ne m ρ c main_arg5 (by decide)).trans <|
  (host_keeps hostOps3 (W7 m ρ c) hostOps3_writes main_arg5 (by decide)).trans <|
  (W7_of_ne m ρ c main_arg5 (by decide)).trans <|
  (host_keeps hostOps2 (W5 m ρ c) hostOps2_writes main_arg5 (by decide)).trans <|
  (W5_of_ne m ρ c main_arg5 (by decide)).trans <|
  (host_keeps hostOps1 (W3 m ρ c) hostOps1_writes main_arg5 (by decide)).trans <|
  (W3_of_ne m ρ c main_arg5 (by decide)).trans <|
  (host_keeps hostOps0_1 (W1 m ρ c) hostOps0_1_writes main_arg5 (by decide)).trans <|
  (host_keeps hostOps0 (W0 m ρ c) hostOps0_writes main_arg5 (by decide)).trans <|
  rfl

theorem W21_main_arg6 (c : Dev nD) : W21 m ρ c (Proc.devRef .tc main_arg6) = m ((c : Thread nD τ).loc main_arg6) :=
  (W21_of_ne m ρ c main_arg6 (by decide)).trans <|
  (host_keeps hostOps8_2 (W19 m ρ c) hostOps8_2_writes main_arg6 (by decide)).trans <|
  (host_keeps hostOps8_1 (W18 m ρ c) hostOps8_1_writes main_arg6 (by decide)).trans <|
  (host_keeps hostOps8 (W17 m ρ c) hostOps8_writes main_arg6 (by decide)).trans <|
  (W17_of_ne m ρ c main_arg6 (by decide)).trans <|
  (host_keeps hostOps7 (W15 m ρ c) hostOps7_writes main_arg6 (by decide)).trans <|
  (W15_of_ne m ρ c main_arg6 (by decide)).trans <|
  (host_keeps hostOps6 (W13 m ρ c) hostOps6_writes main_arg6 (by decide)).trans <|
  (W13_of_ne m ρ c main_arg6 (by decide)).trans <|
  (host_keeps hostOps5 (W11 m ρ c) hostOps5_writes main_arg6 (by decide)).trans <|
  (W11_of_ne m ρ c main_arg6 (by decide)).trans <|
  (host_keeps hostOps4 (W9 m ρ c) hostOps4_writes main_arg6 (by decide)).trans <|
  (W9_of_ne m ρ c main_arg6 (by decide)).trans <|
  (host_keeps hostOps3 (W7 m ρ c) hostOps3_writes main_arg6 (by decide)).trans <|
  (W7_of_ne m ρ c main_arg6 (by decide)).trans <|
  (host_keeps hostOps2 (W5 m ρ c) hostOps2_writes main_arg6 (by decide)).trans <|
  (W5_of_ne m ρ c main_arg6 (by decide)).trans <|
  (host_keeps hostOps1 (W3 m ρ c) hostOps1_writes main_arg6 (by decide)).trans <|
  (W3_of_ne m ρ c main_arg6 (by decide)).trans <|
  (host_keeps hostOps0_1 (W1 m ρ c) hostOps0_1_writes main_arg6 (by decide)).trans <|
  (host_keeps hostOps0 (W0 m ρ c) hostOps0_writes main_arg6 (by decide)).trans <|
  rfl

theorem W21_main_arg7 (c : Dev nD) : W21 m ρ c (Proc.devRef .tc main_arg7) = m ((c : Thread nD τ).loc main_arg7) :=
  (W21_of_ne m ρ c main_arg7 (by decide)).trans <|
  (host_keeps hostOps8_2 (W19 m ρ c) hostOps8_2_writes main_arg7 (by decide)).trans <|
  (host_keeps hostOps8_1 (W18 m ρ c) hostOps8_1_writes main_arg7 (by decide)).trans <|
  (host_keeps hostOps8 (W17 m ρ c) hostOps8_writes main_arg7 (by decide)).trans <|
  (W17_of_ne m ρ c main_arg7 (by decide)).trans <|
  (host_keeps hostOps7 (W15 m ρ c) hostOps7_writes main_arg7 (by decide)).trans <|
  (W15_of_ne m ρ c main_arg7 (by decide)).trans <|
  (host_keeps hostOps6 (W13 m ρ c) hostOps6_writes main_arg7 (by decide)).trans <|
  (W13_of_ne m ρ c main_arg7 (by decide)).trans <|
  (host_keeps hostOps5 (W11 m ρ c) hostOps5_writes main_arg7 (by decide)).trans <|
  (W11_of_ne m ρ c main_arg7 (by decide)).trans <|
  (host_keeps hostOps4 (W9 m ρ c) hostOps4_writes main_arg7 (by decide)).trans <|
  (W9_of_ne m ρ c main_arg7 (by decide)).trans <|
  (host_keeps hostOps3 (W7 m ρ c) hostOps3_writes main_arg7 (by decide)).trans <|
  (W7_of_ne m ρ c main_arg7 (by decide)).trans <|
  (host_keeps hostOps2 (W5 m ρ c) hostOps2_writes main_arg7 (by decide)).trans <|
  (W5_of_ne m ρ c main_arg7 (by decide)).trans <|
  (host_keeps hostOps1 (W3 m ρ c) hostOps1_writes main_arg7 (by decide)).trans <|
  (W3_of_ne m ρ c main_arg7 (by decide)).trans <|
  (host_keeps hostOps0_1 (W1 m ρ c) hostOps0_1_writes main_arg7 (by decide)).trans <|
  (host_keeps hostOps0 (W0 m ρ c) hostOps0_writes main_arg7 (by decide)).trans <|
  rfl

theorem W21_main_arg8 (c : Dev nD) : W21 m ρ c (Proc.devRef .tc main_arg8) = m ((c : Thread nD τ).loc main_arg8) :=
  (W21_of_ne m ρ c main_arg8 (by decide)).trans <|
  (host_keeps hostOps8_2 (W19 m ρ c) hostOps8_2_writes main_arg8 (by decide)).trans <|
  (host_keeps hostOps8_1 (W18 m ρ c) hostOps8_1_writes main_arg8 (by decide)).trans <|
  (host_keeps hostOps8 (W17 m ρ c) hostOps8_writes main_arg8 (by decide)).trans <|
  (W17_of_ne m ρ c main_arg8 (by decide)).trans <|
  (host_keeps hostOps7 (W15 m ρ c) hostOps7_writes main_arg8 (by decide)).trans <|
  (W15_of_ne m ρ c main_arg8 (by decide)).trans <|
  (host_keeps hostOps6 (W13 m ρ c) hostOps6_writes main_arg8 (by decide)).trans <|
  (W13_of_ne m ρ c main_arg8 (by decide)).trans <|
  (host_keeps hostOps5 (W11 m ρ c) hostOps5_writes main_arg8 (by decide)).trans <|
  (W11_of_ne m ρ c main_arg8 (by decide)).trans <|
  (host_keeps hostOps4 (W9 m ρ c) hostOps4_writes main_arg8 (by decide)).trans <|
  (W9_of_ne m ρ c main_arg8 (by decide)).trans <|
  (host_keeps hostOps3 (W7 m ρ c) hostOps3_writes main_arg8 (by decide)).trans <|
  (W7_of_ne m ρ c main_arg8 (by decide)).trans <|
  (host_keeps hostOps2 (W5 m ρ c) hostOps2_writes main_arg8 (by decide)).trans <|
  (W5_of_ne m ρ c main_arg8 (by decide)).trans <|
  (host_keeps hostOps1 (W3 m ρ c) hostOps1_writes main_arg8 (by decide)).trans <|
  (W3_of_ne m ρ c main_arg8 (by decide)).trans <|
  (host_keeps hostOps0_1 (W1 m ρ c) hostOps0_1_writes main_arg8 (by decide)).trans <|
  (host_keeps hostOps0 (W0 m ρ c) hostOps0_writes main_arg8 (by decide)).trans <|
  rfl

theorem W21_main_arg9 (c : Dev nD) : W21 m ρ c (Proc.devRef .tc main_arg9) = m ((c : Thread nD τ).loc main_arg9) :=
  (W21_of_ne m ρ c main_arg9 (by decide)).trans <|
  (host_keeps hostOps8_2 (W19 m ρ c) hostOps8_2_writes main_arg9 (by decide)).trans <|
  (host_keeps hostOps8_1 (W18 m ρ c) hostOps8_1_writes main_arg9 (by decide)).trans <|
  (host_keeps hostOps8 (W17 m ρ c) hostOps8_writes main_arg9 (by decide)).trans <|
  (W17_of_ne m ρ c main_arg9 (by decide)).trans <|
  (host_keeps hostOps7 (W15 m ρ c) hostOps7_writes main_arg9 (by decide)).trans <|
  (W15_of_ne m ρ c main_arg9 (by decide)).trans <|
  (host_keeps hostOps6 (W13 m ρ c) hostOps6_writes main_arg9 (by decide)).trans <|
  (W13_of_ne m ρ c main_arg9 (by decide)).trans <|
  (host_keeps hostOps5 (W11 m ρ c) hostOps5_writes main_arg9 (by decide)).trans <|
  (W11_of_ne m ρ c main_arg9 (by decide)).trans <|
  (host_keeps hostOps4 (W9 m ρ c) hostOps4_writes main_arg9 (by decide)).trans <|
  (W9_of_ne m ρ c main_arg9 (by decide)).trans <|
  (host_keeps hostOps3 (W7 m ρ c) hostOps3_writes main_arg9 (by decide)).trans <|
  (W7_of_ne m ρ c main_arg9 (by decide)).trans <|
  (host_keeps hostOps2 (W5 m ρ c) hostOps2_writes main_arg9 (by decide)).trans <|
  (W5_of_ne m ρ c main_arg9 (by decide)).trans <|
  (host_keeps hostOps1 (W3 m ρ c) hostOps1_writes main_arg9 (by decide)).trans <|
  (W3_of_ne m ρ c main_arg9 (by decide)).trans <|
  (host_keeps hostOps0_1 (W1 m ρ c) hostOps0_1_writes main_arg9 (by decide)).trans <|
  (host_keeps hostOps0 (W0 m ρ c) hostOps0_writes main_arg9 (by decide)).trans <|
  rfl

theorem W21_main_arg10 (c : Dev nD) : W21 m ρ c (Proc.devRef .tc main_arg10) = m ((c : Thread nD τ).loc main_arg10) :=
  ((W21_arr m ρ c 1).trans (((dat8 (U20 m ρ) c).arrAt_in 1 rfl _).trans (A_eq8 (U20 m ρ) c 1))).trans <|
  (host_keeps hostOps8_2 (W19 m ρ c) hostOps8_2_writes main_arg10 (by decide)).trans <|
  (host_keeps hostOps8_1 (W18 m ρ c) hostOps8_1_writes main_arg10 (by decide)).trans <|
  (host_keeps hostOps8 (W17 m ρ c) hostOps8_writes main_arg10 (by decide)).trans <|
  (W17_of_ne m ρ c main_arg10 (by decide)).trans <|
  (host_keeps hostOps7 (W15 m ρ c) hostOps7_writes main_arg10 (by decide)).trans <|
  (W15_of_ne m ρ c main_arg10 (by decide)).trans <|
  (host_keeps hostOps6 (W13 m ρ c) hostOps6_writes main_arg10 (by decide)).trans <|
  (W13_of_ne m ρ c main_arg10 (by decide)).trans <|
  (host_keeps hostOps5 (W11 m ρ c) hostOps5_writes main_arg10 (by decide)).trans <|
  (W11_of_ne m ρ c main_arg10 (by decide)).trans <|
  (host_keeps hostOps4 (W9 m ρ c) hostOps4_writes main_arg10 (by decide)).trans <|
  (W9_of_ne m ρ c main_arg10 (by decide)).trans <|
  (host_keeps hostOps3 (W7 m ρ c) hostOps3_writes main_arg10 (by decide)).trans <|
  (W7_of_ne m ρ c main_arg10 (by decide)).trans <|
  (host_keeps hostOps2 (W5 m ρ c) hostOps2_writes main_arg10 (by decide)).trans <|
  (W5_of_ne m ρ c main_arg10 (by decide)).trans <|
  (host_keeps hostOps1 (W3 m ρ c) hostOps1_writes main_arg10 (by decide)).trans <|
  (W3_of_ne m ρ c main_arg10 (by decide)).trans <|
  (host_keeps hostOps0_1 (W1 m ρ c) hostOps0_1_writes main_arg10 (by decide)).trans <|
  (host_keeps hostOps0 (W0 m ρ c) hostOps0_writes main_arg10 (by decide)).trans <|
  rfl

theorem W21_main_arg11 (c : Dev nD) : W21 m ρ c (Proc.devRef .tc main_arg11) = m ((c : Thread nD τ).loc main_arg11) :=
  (W21_of_ne m ρ c main_arg11 (by decide)).trans <|
  (host_keeps hostOps8_2 (W19 m ρ c) hostOps8_2_writes main_arg11 (by decide)).trans <|
  (host_keeps hostOps8_1 (W18 m ρ c) hostOps8_1_writes main_arg11 (by decide)).trans <|
  (host_keeps hostOps8 (W17 m ρ c) hostOps8_writes main_arg11 (by decide)).trans <|
  (W17_of_ne m ρ c main_arg11 (by decide)).trans <|
  (host_keeps hostOps7 (W15 m ρ c) hostOps7_writes main_arg11 (by decide)).trans <|
  (W15_of_ne m ρ c main_arg11 (by decide)).trans <|
  (host_keeps hostOps6 (W13 m ρ c) hostOps6_writes main_arg11 (by decide)).trans <|
  (W13_of_ne m ρ c main_arg11 (by decide)).trans <|
  (host_keeps hostOps5 (W11 m ρ c) hostOps5_writes main_arg11 (by decide)).trans <|
  (W11_of_ne m ρ c main_arg11 (by decide)).trans <|
  (host_keeps hostOps4 (W9 m ρ c) hostOps4_writes main_arg11 (by decide)).trans <|
  (W9_of_ne m ρ c main_arg11 (by decide)).trans <|
  (host_keeps hostOps3 (W7 m ρ c) hostOps3_writes main_arg11 (by decide)).trans <|
  (W7_of_ne m ρ c main_arg11 (by decide)).trans <|
  (host_keeps hostOps2 (W5 m ρ c) hostOps2_writes main_arg11 (by decide)).trans <|
  (W5_of_ne m ρ c main_arg11 (by decide)).trans <|
  (host_keeps hostOps1 (W3 m ρ c) hostOps1_writes main_arg11 (by decide)).trans <|
  (W3_of_ne m ρ c main_arg11 (by decide)).trans <|
  (host_keeps hostOps0_1 (W1 m ρ c) hostOps0_1_writes main_arg11 (by decide)).trans <|
  (host_keeps hostOps0 (W0 m ρ c) hostOps0_writes main_arg11 (by decide)).trans <|
  rfl

theorem W21_main_arg12 (c : Dev nD) : W21 m ρ c (Proc.devRef .tc main_arg12) = m ((c : Thread nD τ).loc main_arg12) :=
  ((W21_arr m ρ c 3).trans (((dat8 (U20 m ρ) c).arrAt_in 3 rfl _).trans (A_eq8 (U20 m ρ) c 3))).trans <|
  (host_keeps hostOps8_2 (W19 m ρ c) hostOps8_2_writes main_arg12 (by decide)).trans <|
  (host_keeps hostOps8_1 (W18 m ρ c) hostOps8_1_writes main_arg12 (by decide)).trans <|
  (host_keeps hostOps8 (W17 m ρ c) hostOps8_writes main_arg12 (by decide)).trans <|
  (W17_of_ne m ρ c main_arg12 (by decide)).trans <|
  (host_keeps hostOps7 (W15 m ρ c) hostOps7_writes main_arg12 (by decide)).trans <|
  (W15_of_ne m ρ c main_arg12 (by decide)).trans <|
  (host_keeps hostOps6 (W13 m ρ c) hostOps6_writes main_arg12 (by decide)).trans <|
  (W13_of_ne m ρ c main_arg12 (by decide)).trans <|
  (host_keeps hostOps5 (W11 m ρ c) hostOps5_writes main_arg12 (by decide)).trans <|
  (W11_of_ne m ρ c main_arg12 (by decide)).trans <|
  (host_keeps hostOps4 (W9 m ρ c) hostOps4_writes main_arg12 (by decide)).trans <|
  (W9_of_ne m ρ c main_arg12 (by decide)).trans <|
  (host_keeps hostOps3 (W7 m ρ c) hostOps3_writes main_arg12 (by decide)).trans <|
  (W7_of_ne m ρ c main_arg12 (by decide)).trans <|
  (host_keeps hostOps2 (W5 m ρ c) hostOps2_writes main_arg12 (by decide)).trans <|
  (W5_of_ne m ρ c main_arg12 (by decide)).trans <|
  (host_keeps hostOps1 (W3 m ρ c) hostOps1_writes main_arg12 (by decide)).trans <|
  (W3_of_ne m ρ c main_arg12 (by decide)).trans <|
  (host_keeps hostOps0_1 (W1 m ρ c) hostOps0_1_writes main_arg12 (by decide)).trans <|
  (host_keeps hostOps0 (W0 m ρ c) hostOps0_writes main_arg12 (by decide)).trans <|
  rfl

theorem W21_main_arg13 (c : Dev nD) : W21 m ρ c (Proc.devRef .tc main_arg13) = m ((c : Thread nD τ).loc main_arg13) :=
  (W21_of_ne m ρ c main_arg13 (by decide)).trans <|
  (host_keeps hostOps8_2 (W19 m ρ c) hostOps8_2_writes main_arg13 (by decide)).trans <|
  (host_keeps hostOps8_1 (W18 m ρ c) hostOps8_1_writes main_arg13 (by decide)).trans <|
  (host_keeps hostOps8 (W17 m ρ c) hostOps8_writes main_arg13 (by decide)).trans <|
  (W17_of_ne m ρ c main_arg13 (by decide)).trans <|
  (host_keeps hostOps7 (W15 m ρ c) hostOps7_writes main_arg13 (by decide)).trans <|
  (W15_of_ne m ρ c main_arg13 (by decide)).trans <|
  (host_keeps hostOps6 (W13 m ρ c) hostOps6_writes main_arg13 (by decide)).trans <|
  (W13_of_ne m ρ c main_arg13 (by decide)).trans <|
  (host_keeps hostOps5 (W11 m ρ c) hostOps5_writes main_arg13 (by decide)).trans <|
  (W11_of_ne m ρ c main_arg13 (by decide)).trans <|
  (host_keeps hostOps4 (W9 m ρ c) hostOps4_writes main_arg13 (by decide)).trans <|
  (W9_of_ne m ρ c main_arg13 (by decide)).trans <|
  (host_keeps hostOps3 (W7 m ρ c) hostOps3_writes main_arg13 (by decide)).trans <|
  (W7_of_ne m ρ c main_arg13 (by decide)).trans <|
  (host_keeps hostOps2 (W5 m ρ c) hostOps2_writes main_arg13 (by decide)).trans <|
  (W5_of_ne m ρ c main_arg13 (by decide)).trans <|
  (host_keeps hostOps1 (W3 m ρ c) hostOps1_writes main_arg13 (by decide)).trans <|
  (W3_of_ne m ρ c main_arg13 (by decide)).trans <|
  (host_keeps hostOps0_1 (W1 m ρ c) hostOps0_1_writes main_arg13 (by decide)).trans <|
  (host_keeps hostOps0 (W0 m ρ c) hostOps0_writes main_arg13 (by decide)).trans <|
  rfl

/-- The frame: every weakly fair execution ends, nothing faulting, the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W21_main_arg0 m ρ c),
    (h c _ (mem_uc main_arg1 (by decide))).trans (W21_main_arg1 m ρ c),
    (h c _ (mem_uc main_arg2 (by decide))).trans (W21_main_arg2 m ρ c),
    (h c _ (mem_uc main_arg3 (by decide))).trans (W21_main_arg3 m ρ c),
    (h c _ (mem_uc main_arg4 (by decide))).trans (W21_main_arg4 m ρ c),
    (h c _ (mem_uc main_arg5 (by decide))).trans (W21_main_arg5 m ρ c),
    (h c _ (mem_uc main_arg6 (by decide))).trans (W21_main_arg6 m ρ c),
    (h c _ (mem_uc main_arg7 (by decide))).trans (W21_main_arg7 m ρ c),
    (h c _ (mem_uc main_arg8 (by decide))).trans (W21_main_arg8 m ρ c),
    (h c _ (mem_uc main_arg9 (by decide))).trans (W21_main_arg9 m ρ c),
    (h c _ (mem_uc main_arg10 (by decide))).trans (W21_main_arg10 m ρ c),
    (h c _ (mem_uc main_arg11 (by decide))).trans (W21_main_arg11 m ρ c),
    (h c _ (mem_uc main_arg12 (by decide))).trans (W21_main_arg12 m ρ c),
    (h c _ (mem_uc main_arg13 (by decide))).trans (W21_main_arg13 m ρ c)⟩) (run_all m ρ)

end Cert.KernelIdeal.Hand

end
-- ==== Proof.Ref.Ops.lean ====
import proofs.«116561_j3624952397847_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of window main_part0, in order, each call's body in place of the call: 92 operations. -/
abbrev ops_part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.TRef.unary (TRef.of main_arg0 : TRef sig ⟨S100000, .i32⟩) main_call0.v0 (broadcastInDim S100000x1 ![0] bcast_S100000_S100000x1_0),
    StableHlo.TRef.nullary main_call0.v1 (iotaInDim S1x128 32 1),
    StableHlo.TRef.unary main_call0.v0 main_call0.v2 (broadcastInDim S100000x128 ![0, 1] bcast_S100000x1_S100000x128_0_1),
    StableHlo.TRef.unary main_call0.v1 main_call0.v3 (broadcastInDim S100000x128 ![0, 1] bcast_S1x128_S100000x128_0_1),
    StableHlo.TRef.binary main_call0.v2 main_call0.v3 main_call0.v4 (cmpi .eq),
    StableHlo.TRef.unary main_call0.v4 main_call0.v5 (uitofp .f32),
    StableHlo.nullary main_c (constantI S_ 32 0#32),
    StableHlo.unary main_c main_v5 (broadcastInDim S1600000 ![] bcast_S_S1600000 : (⟨S_, .i32⟩ : BufTy).Contents (Elt F) → (⟨S1600000, .i32⟩ : BufTy).Contents (Elt F)),
    StableHlo.binary main_v1 main_v5 main_v6 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v7 (broadcastInDim S1600000 ![] bcast_S_S1600000 : (⟨S_, .i32⟩ : BufTy).Contents (Elt F) → (⟨S1600000, .i32⟩ : BufTy).Contents (Elt F)),
    StableHlo.binary main_v1 main_v7 main_v8 (addi : (⟨S1600000, .i32⟩ : BufTy).Contents (Elt F) → (⟨S1600000, .i32⟩ : BufTy).Contents (Elt F) → (⟨S1600000, .i32⟩ : BufTy).Contents (Elt F)),
    StableHlo.ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v9 main_v10 (broadcastInDim S1600000x1 ![0] bcast_S1600000_S1600000x1_0 : (⟨S1600000, .i32⟩ : BufTy).Contents (Elt F) → (⟨S1600000x1, .i32⟩ : BufTy).Contents (Elt F)),
    StableHlo.binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v12 (broadcastInDim S100000x128 ![] bcast_S_S100000x128 : (⟨S_, .f32⟩ : BufTy).Contents (Elt F) → (⟨S100000x128, .f32⟩ : BufTy).Contents (Elt F)),
    StableHlo.unary main_v3 main_v13 (broadcastInDim S1600000x1 ![0] bcast_S1600000_S1600000x1_0 : (⟨S1600000, .i32⟩ : BufTy).Contents (Elt F) → (⟨S1600000x1, .i32⟩ : BufTy).Contents (Elt F)),
    StableHlo.ternary main_v12 main_v13 main_v11 main_v14 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg3 main_v15 ((extractStridedSlice S1 ![0] · slices_S4_S1_0) : (⟨S4, .f32⟩ : BufTy).Contents (Elt F) → (⟨S1, .f32⟩ : BufTy).Contents (Elt F)),
    StableHlo.reshape main_v15 main_v16 rfl shapeCasts_S1_S_,
    StableHlo.nullary main_cst_1 (constant S_ .f32 0x3F800000#32),
    StableHlo.binary main_cst_1 main_v16 main_v17 (addf : (⟨S_, .f32⟩ : BufTy).Contents (Elt F) → (⟨S_, .f32⟩ : BufTy).Contents (Elt F) → (⟨S_, .f32⟩ : BufTy).Contents (Elt F)),
    StableHlo.unary main_v17 main_v18 (broadcastInDim S100000x128 ![] bcast_S_S100000x128 : (⟨S_, .f32⟩ : BufTy).Contents (Elt F) → (⟨S100000x128, .f32⟩ : BufTy).Contents (Elt F)),
    StableHlo.binary main_v18 main_v4 main_v19 (mulf : (⟨S100000x128, .f32⟩ : BufTy).Contents (Elt F) → (⟨S100000x128, .f32⟩ : BufTy).Contents (Elt F) → (⟨S100000x128, .f32⟩ : BufTy).Contents (Elt F)),
    StableHlo.binary main_v19 main_v14 main_v20 (addf : (⟨S100000x128, .f32⟩ : BufTy).Contents (Elt F) → (⟨S100000x128, .f32⟩ : BufTy).Contents (Elt F) → (⟨S100000x128, .f32⟩ : BufTy).Contents (Elt F)),
    StableHlo.unary main_arg4 main_v21 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v21 main_v22 rfl shapeCasts_S1x128x128_S128x128,
    StableHlo.binary main_v20 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v24 ((extractStridedSlice S1x128 ![0, 0] · slices_S4x128_S1x128_0_0) : (⟨S4x128, .f32⟩ : BufTy).Contents (Elt F) → (⟨S1x128, .f32⟩ : BufTy).Contents (Elt F)),
    StableHlo.reshape main_v24 main_v25 rfl shapeCasts_S1x128_S128,
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v27 main_v28 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (TRef.of main_v28 : TRef sig ⟨S100000x128, .f32⟩) main_call1.v0 main_call1.v1 (cmpf .oge),
    StableHlo.TRef.nullary main_call1.cst_0 (constant S_ .f32 0x3C23D70A#32),
    StableHlo.TRef.unary main_call1.cst_0 main_call1.v2 (broadcastInDim S100000x128 ![] bcast_S_S100000x128),
    StableHlo.TRef.binary main_call1.v2 (TRef.of main_v28 : TRef sig ⟨S100000x128, .f32⟩) main_call1.v3 mulf,
    StableHlo.TRef.ternary main_call1.v1 (TRef.of main_v28 : TRef sig ⟨S100000x128, .f32⟩) main_call1.v3 main_call1.call0.v0 select,
    StableHlo.unary main_arg6 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v30 main_v31 rfl shapeCasts_S1x128x128_S128x128,
    StableHlo.binary main_v29 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v33 ((extractStridedSlice S1x128 ![0, 0] · slices_S4x128_S1x128_0_0) : (⟨S4x128, .f32⟩ : BufTy).Contents (Elt F) → (⟨S1x128, .f32⟩ : BufTy).Contents (Elt F)),
    StableHlo.reshape main_v33 main_v34 rfl shapeCasts_S1x128_S128,
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v36 main_v37 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v37 main_cst_2 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (TRef.of main_v37 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v37 : TRef sig ⟨S100000x128, .f32⟩) main_call2.v4 main_call2.v5 subf,
    StableHlo.TRef.binary main_call2.v5 main_call2.v5 main_call2.v6 mulf,
    StableHlo.TRef.unary (TRef.of main_c_4 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v43 main_v44 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg8 main_v51 ((extractStridedSlice S1x128 ![0, 0] · slices_S4x128_S1x128_0_0) : (⟨S4x128, .f32⟩ : BufTy).Contents (Elt F) → (⟨S1x128, .f32⟩ : BufTy).Contents (Elt F)) ]

/-- The operations of window main_part1, in order, each call's body in place of the call: 93 operations. -/
abbrev ops_part1 : List (HloOp τ sig (Elt F)) :=
  [ StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg9 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (TRef.of main_v60 : TRef sig ⟨S100000x128, .f32⟩) main_call3.v0 main_call3.v1 (cmpf .oge),
    StableHlo.TRef.nullary main_call3.cst_0 (constant S_ .f32 0x3C23D70A#32),
    StableHlo.TRef.unary main_call3.cst_0 main_call3.v2 (broadcastInDim S100000x128 ![] bcast_S_S100000x128),
    StableHlo.TRef.binary main_call3.v2 (TRef.of main_v60 : TRef sig ⟨S100000x128, .f32⟩) main_call3.v3 mulf,
    StableHlo.TRef.ternary main_call3.v1 (TRef.of main_v60 : TRef sig ⟨S100000x128, .f32⟩) main_call3.v3 main_call3.call0.v0 select,
    StableHlo.nullary main_c_6 (constantI S_ 32 0#32),
    StableHlo.unary main_c_6 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v61 main_v67 main_v68 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v69 (broadcastInDim S100000x128 ![] bcast_S_S100000x128 : (⟨S_, .f32⟩ : BufTy).Contents (Elt F) → (⟨S100000x128, .f32⟩ : BufTy).Contents (Elt F)),
    StableHlo.unary main_v3 main_v70 (broadcastInDim S1600000x1 ![0] bcast_S1600000_S1600000x1_0 : (⟨S1600000, .i32⟩ : BufTy).Contents (Elt F) → (⟨S1600000x1, .i32⟩ : BufTy).Contents (Elt F)),
    StableHlo.ternary main_v69 main_v70 main_v68 main_v71 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg3 main_v72 ((extractStridedSlice S1 ![1] · slices_S4_S1_1) : (⟨S4, .f32⟩ : BufTy).Contents (Elt F) → (⟨S1, .f32⟩ : BufTy).Contents (Elt F)),
    StableHlo.reshape main_v72 main_v73 rfl shapeCasts_S1_S_,
    StableHlo.nullary main_cst_9 (constant S_ .f32 0x3F800000#32),
    StableHlo.binary main_cst_9 main_v73 main_v74 (addf : (⟨S_, .f32⟩ : BufTy).Contents (Elt F) → (⟨S_, .f32⟩ : BufTy).Contents (Elt F) → (⟨S_, .f32⟩ : BufTy).Contents (Elt F)),
    StableHlo.unary main_v74 main_v75 (broadcastInDim S100000x128 ![] bcast_S_S100000x128 : (⟨S_, .f32⟩ : BufTy).Contents (Elt F) → (⟨S100000x128, .f32⟩ : BufTy).Contents (Elt F)),
    StableHlo.binary main_v75 main_v61 main_v76 (mulf : (⟨S100000x128, .f32⟩ : BufTy).Contents (Elt F) → (⟨S100000x128, .f32⟩ : BufTy).Contents (Elt F) → (⟨S100000x128, .f32⟩ : BufTy).Contents (Elt F)),
    StableHlo.binary main_v76 main_v71 main_v77 (addf : (⟨S100000x128, .f32⟩ : BufTy).Contents (Elt F) → (⟨S100000x128, .f32⟩ : BufTy).Contents (Elt F) → (⟨S100000x128, .f32⟩ : BufTy).Contents (Elt F)),
    StableHlo.unary main_arg4 main_v78 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v78 main_v79 rfl shapeCasts_S1x128x128_S128x128,
    StableHlo.binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v81 ((extractStridedSlice S1x128 ![1, 0] · slices_S4x128_S1x128_1_0) : (⟨S4x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v84 main_v85 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (TRef.of main_v85 : TRef sig ⟨S100000x128, .f32⟩) main_call4.v0 main_call4.v1 (cmpf .oge),
    StableHlo.TRef.nullary main_call4.cst_0 (constant S_ .f32 0x3C23D70A#32),
    StableHlo.TRef.unary main_call4.cst_0 main_call4.v2 (broadcastInDim S100000x128 ![] bcast_S_S100000x128),
    StableHlo.TRef.binary main_call4.v2 (TRef.of main_v85 : TRef sig ⟨S100000x128, .f32⟩) main_call4.v3 mulf,
    StableHlo.TRef.ternary main_call4.v1 (TRef.of main_v85 : TRef sig ⟨S100000x128, .f32⟩) main_call4.v3 main_call4.call0.v0 select,
    StableHlo.unary main_arg6 main_v87 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v87 main_v88 rfl shapeCasts_S1x128x128_S128x128,
    StableHlo.binary main_v86 main_v88 main_v89 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v90 ((extractStridedSlice S1x128 ![1, 0] · slices_S4x128_S1x128_1_0) : (⟨S4x128, .f32⟩ : BufTy).Contents (Elt F) → (⟨S1x128, .f32⟩ : BufTy).Contents (Elt F)),
    StableHlo.reshape main_v90 main_v91 rfl shapeCasts_S1x128_S128,
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v93 main_v94 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v94 main_cst_10 main_v95 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v96 (broadcastInDim S128 ![] bcast_S_S128 : (⟨S_, .f32⟩ : BufTy).Contents (Elt F) → (⟨S128, .f32⟩ : BufTy).Contents (Elt F)),
    StableHlo.binary main_v95 main_v96 main_v97 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call5.cst (constant S_ .f32 0x00000000#32),
    StableHlo.TRef.binary (TRef.of main_v94 : TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (TRef.of main_v94 : TRef sig ⟨S100000x128, .f32⟩) main_call5.v4 main_call5.v5 subf,
    StableHlo.TRef.binary main_call5.v5 main_call5.v5 main_call5.v6 mulf,
    StableHlo.TRef.unary (TRef.of main_c_12 : TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v97 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v100 main_v101 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v102 (broadcastInDim S128 ![] bcast_S_S128 : (⟨S_, .f32⟩ : BufTy).Contents (Elt F) → (⟨S128, .f32⟩ : BufTy).Contents (Elt F)),
    StableHlo.binary main_v98 main_v102 main_v103 (addf : (⟨S128, .f32⟩ : BufTy).Contents (Elt F) → (⟨S128, .f32⟩ : BufTy).Contents (Elt F) → (⟨S128, .f32⟩ : BufTy).Contents (Elt F)) ]

/-- The operations of window main_part2, in order, each call's body in place of the call: 93 operations. -/
abbrev ops_part2 : List (HloOp τ sig (Elt F)) :=
  [ StableHlo.unary main_v103 main_v104 (Host.rsqrt : (⟨S128, .f32⟩ : BufTy).Contents (Elt F) → (⟨S128, .f32⟩ : BufTy).Contents (Elt F)),
    StableHlo.unary main_v104 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg8 main_v108 ((extractStridedSlice S1x128 ![1, 0] · slices_S4x128_S1x128_1_0) : (⟨S4x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_arg9 main_v113 ((extractStridedSlice S1x128 ![1, 0] · slices_S4x128_S1x128_1_0) : (⟨S4x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v116 main_v117 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (TRef.of main_v117 : TRef sig ⟨S100000x128, .f32⟩) main_call6.v0 main_call6.v1 (cmpf .oge),
    StableHlo.TRef.nullary main_call6.cst_0 (constant S_ .f32 0x3C23D70A#32),
    StableHlo.TRef.unary main_call6.cst_0 main_call6.v2 (broadcastInDim S100000x128 ![] bcast_S_S100000x128),
    StableHlo.TRef.binary main_call6.v2 (TRef.of main_v117 : TRef sig ⟨S100000x128, .f32⟩) main_call6.v3 mulf,
    StableHlo.TRef.ternary main_call6.v1 (TRef.of main_v117 : TRef sig ⟨S100000x128, .f32⟩) main_call6.v3 main_call6.call0.v0 select,
    StableHlo.nullary main_c_14 (constantI S_ 32 0#32),
    StableHlo.unary main_c_14 main_v119 (broadcastInDim S1600000 ![] bcast_S_S1600000 : (⟨S_, .i32⟩ : BufTy).Contents (Elt F) → (⟨S1600000, .i32⟩ : BufTy).Contents (Elt F)),
    StableHlo.binary main_v1 main_v119 main_v120 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v121 (broadcastInDim S1600000 ![] bcast_S_S1600000 : (⟨S_, .i32⟩ : BufTy).Contents (Elt F) → (⟨S1600000, .i32⟩ : BufTy).Contents (Elt F)),
    StableHlo.binary main_v1 main_v121 main_v122 (addi : (⟨S1600000, .i32⟩ : BufTy).Contents (Elt F) → (⟨S1600000, .i32⟩ : BufTy).Contents (Elt F) → (⟨S1600000, .i32⟩ : BufTy).Contents (Elt F)),
    StableHlo.ternary main_v120 main_v122 main_v1 main_v123 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v123 main_v124 (broadcastInDim S1600000x1 ![0] bcast_S1600000_S1600000x1_0 : (⟨S1600000, .i32⟩ : BufTy).Contents (Elt F) → (⟨S1600000x1, .i32⟩ : BufTy).Contents (Elt F)),
    StableHlo.binary main_v118 main_v124 main_v125 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v126 (broadcastInDim S100000x128 ![] bcast_S_S100000x128 : (⟨S_, .f32⟩ : BufTy).Contents (Elt F) → (⟨S100000x128, .f32⟩ : BufTy).Contents (Elt F)),
    StableHlo.unary main_v3 main_v127 (broadcastInDim S1600000x1 ![0] bcast_S1600000_S1600000x1_0 : (⟨S1600000, .i32⟩ : BufTy).Contents (Elt F) → (⟨S1600000x1, .i32⟩ : BufTy).Contents (Elt F)),
    StableHlo.ternary main_v126 main_v127 main_v125 main_v128 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg3 main_v129 ((extractStridedSlice S1 ![2] · slices_S4_S1_2) : (⟨S4, .f32⟩ : BufTy).Contents (Elt F) → (⟨S1, .f32⟩ : BufTy).Contents (Elt F)),
    StableHlo.reshape main_v129 main_v130 rfl shapeCasts_S1_S_,
    StableHlo.nullary main_cst_17 (constant S_ .f32 0x3F800000#32),
    StableHlo.binary main_cst_17 main_v130 main_v131 (addf : (⟨S_, .f32⟩ : BufTy).Contents (Elt F) → (⟨S_, .f32⟩ : BufTy).Contents (Elt F) → (⟨S_, .f32⟩ : BufTy).Contents (Elt F)),
    StableHlo.unary main_v131 main_v132 (broadcastInDim S100000x128 ![] bcast_S_S100000x128 : (⟨S_, .f32⟩ : BufTy).Contents (Elt F) → (⟨S100000x128, .f32⟩ : BufTy).Contents (Elt F)),
    StableHlo.binary main_v132 main_v118 main_v133 (mulf : (⟨S100000x128, .f32⟩ : BufTy).Contents (Elt F) → (⟨S100000x128, .f32⟩ : BufTy).Contents (Elt F) → (⟨S100000x128, .f32⟩ : BufTy).Contents (Elt F)),
    StableHlo.binary main_v133 main_v128 main_v134 (addf : (⟨S100000x128, .f32⟩ : BufTy).Contents (Elt F) → (⟨S100000x128, .f32⟩ : BufTy).Contents (Elt F) → (⟨S100000x128, .f32⟩ : BufTy).Contents (Elt F)),
    StableHlo.unary main_arg4 main_v135 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v135 main_v136 rfl shapeCasts_S1x128x128_S128x128,
    StableHlo.binary main_v134 main_v136 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v138 ((extractStridedSlice S1x128 ![2, 0] · slices_S4x128_S1x128_2_0) : (⟨S4x128, .f32⟩ : BufTy).Contents (Elt F) → (⟨S1x128, .f32⟩ : BufTy).Contents (Elt F)),
    StableHlo.reshape main_v138 main_v139 rfl shapeCasts_S1x128_S128,
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v141 main_v142 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (TRef.of main_v142 : TRef sig ⟨S100000x128, .f32⟩) main_call7.v0 main_call7.v1 (cmpf .oge),
    StableHlo.TRef.nullary main_call7.cst_0 (constant S_ .f32 0x3C23D70A#32),
    StableHlo.TRef.unary main_call7.cst_0 main_call7.v2 (broadcastInDim S100000x128 ![] bcast_S_S100000x128),
    StableHlo.TRef.binary main_call7.v2 (TRef.of main_v142 : TRef sig ⟨S100000x128, .f32⟩) main_call7.v3 mulf,
    StableHlo.TRef.ternary main_call7.v1 (TRef.of main_v142 : TRef sig ⟨S100000x128, .f32⟩) main_call7.v3 main_call7.call0.v0 select,
    StableHlo.unary main_arg6 main_v144 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v144 main_v145 rfl shapeCasts_S1x128x128_S128x128,
    StableHlo.binary main_v143 main_v145 main_v146 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v147 ((extractStridedSlice S1x128 ![2, 0] · slices_S4x128_S1x128_2_0) : (⟨S4x128, .f32⟩ : BufTy).Contents (Elt F) → (⟨S1x128, .f32⟩ : BufTy).Contents (Elt F)),
    StableHlo.reshape main_v147 main_v148 rfl shapeCasts_S1x128_S128,
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v150 main_v151 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.binary main_v151 main_cst_18 main_v152 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v153 (broadcastInDim S128 ![] bcast_S_S128 : (⟨S_, .f32⟩ : BufTy).Contents (Elt F) → (⟨S128, .f32⟩ : BufTy).Contents (Elt F)),
    StableHlo.binary main_v152 main_v153 main_v154 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (TRef.of main_v151 : TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (TRef.of main_v151 : TRef sig ⟨S100000x128, .f32⟩) main_call8.v4 main_call8.v5 subf,
    StableHlo.TRef.binary main_call8.v5 main_call8.v5 main_call8.v6 mulf,
    StableHlo.TRef.unary (TRef.of main_c_20 : TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v154 main_v156 (broadcastInDim S1x128 ![1] bcast_S128_S1x128_1 : (⟨S128, .f32⟩ : BufTy).Contents (Elt F) → (⟨S1x128, .f32⟩ : BufTy).Contents (Elt F)) ]

/-- The operations of window main_part3, in order, each call's body in place of the call: 72 operations. -/
abbrev ops_part3 : List (HloOp τ sig (Elt F)) :=
  [ StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v157 main_v158 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v159 (broadcastInDim S128 ![] bcast_S_S128 : (⟨S_, .f32⟩ : BufTy).Contents (Elt F) → (⟨S128, .f32⟩ : BufTy).Contents (Elt F)),
    StableHlo.binary main_v155 main_v159 main_v160 (addf : (⟨S128, .f32⟩ : BufTy).Contents (Elt F) → (⟨S128, .f32⟩ : BufTy).Contents (Elt F) → (⟨S128, .f32⟩ : BufTy).Contents (Elt F)),
    StableHlo.unary main_v160 main_v161 (Host.rsqrt : (⟨S128, .f32⟩ : BufTy).Contents (Elt F) → (⟨S128, .f32⟩ : BufTy).Contents (Elt F)),
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v163 main_v164 (mulf : (⟨S100000x128, .f32⟩ : BufTy).Contents (Elt F) → (⟨S100000x128, .f32⟩ : BufTy).Contents (Elt F) → (⟨S100000x128, .f32⟩ : BufTy).Contents (Elt F)),
    StableHlo.unary main_arg8 main_v165 ((extractStridedSlice S1x128 ![2, 0] · slices_S4x128_S1x128_2_0) : (⟨S4x128, .f32⟩ : BufTy).Contents (Elt F) → (⟨S1x128, .f32⟩ : BufTy).Contents (Elt F)),
    StableHlo.reshape main_v165 main_v166 rfl shapeCasts_S1x128_S128,
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_arg9 main_v170 ((extractStridedSlice S1x128 ![2, 0] · slices_S4x128_S1x128_2_0) : (⟨S4x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v173 main_v174 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (TRef.of main_v174 : TRef sig ⟨S100000x128, .f32⟩) main_call9.v0 main_call9.v1 (cmpf .oge),
    StableHlo.TRef.nullary main_call9.cst_0 (constant S_ .f32 0x3C23D70A#32),
    StableHlo.TRef.unary main_call9.cst_0 main_call9.v2 (broadcastInDim S100000x128 ![] bcast_S_S100000x128),
    StableHlo.TRef.binary main_call9.v2 (TRef.of main_v174 : TRef sig ⟨S100000x128, .f32⟩) main_call9.v3 mulf,
    StableHlo.TRef.ternary main_call9.v1 (TRef.of main_v174 : TRef sig ⟨S100000x128, .f32⟩) main_call9.v3 main_call9.call0.v0 select,
    StableHlo.nullary main_c_22 (constantI S_ 32 0#32),
    StableHlo.unary main_c_22 main_v176 (broadcastInDim S1600000 ![] bcast_S_S1600000 : (⟨S_, .i32⟩ : BufTy).Contents (Elt F) → (⟨S1600000, .i32⟩ : BufTy).Contents (Elt F)),
    StableHlo.binary main_v1 main_v176 main_v177 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v178 (broadcastInDim S1600000 ![] bcast_S_S1600000 : (⟨S_, .i32⟩ : BufTy).Contents (Elt F) → (⟨S1600000, .i32⟩ : BufTy).Contents (Elt F)),
    StableHlo.binary main_v1 main_v178 main_v179 (addi : (⟨S1600000, .i32⟩ : BufTy).Contents (Elt F) → (⟨S1600000, .i32⟩ : BufTy).Contents (Elt F) → (⟨S1600000, .i32⟩ : BufTy).Contents (Elt F)),
    StableHlo.ternary main_v177 main_v179 main_v1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v180 main_v181 (broadcastInDim S1600000x1 ![0] bcast_S1600000_S1600000x1_0 : (⟨S1600000, .i32⟩ : BufTy).Contents (Elt F) → (⟨S1600000x1, .i32⟩ : BufTy).Contents (Elt F)),
    StableHlo.binary main_v175 main_v181 main_v182 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v183 (broadcastInDim S100000x128 ![] bcast_S_S100000x128 : (⟨S_, .f32⟩ : BufTy).Contents (Elt F) → (⟨S100000x128, .f32⟩ : BufTy).Contents (Elt F)),
    StableHlo.unary main_v3 main_v184 (broadcastInDim S1600000x1 ![0] bcast_S1600000_S1600000x1_0 : (⟨S1600000, .i32⟩ : BufTy).Contents (Elt F) → (⟨S1600000x1, .i32⟩ : BufTy).Contents (Elt F)),
    StableHlo.ternary main_v183 main_v184 main_v182 main_v185 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg3 main_v186 ((extractStridedSlice S1 ![3] · slices_S4_S1_3) : (⟨S4, .f32⟩ : BufTy).Contents (Elt F) → (⟨S1, .f32⟩ : BufTy).Contents (Elt F)),
    StableHlo.reshape main_v186 main_v187 rfl shapeCasts_S1_S_,
    StableHlo.nullary main_cst_25 (constant S_ .f32 0x3F800000#32),
    StableHlo.binary main_cst_25 main_v187 main_v188 (addf : (⟨S_, .f32⟩ : BufTy).Contents (Elt F) → (⟨S_, .f32⟩ : BufTy).Contents (Elt F) → (⟨S_, .f32⟩ : BufTy).Contents (Elt F)),
    StableHlo.unary main_v188 main_v189 (broadcastInDim S100000x128 ![] bcast_S_S100000x128 : (⟨S_, .f32⟩ : BufTy).Contents (Elt F) → (⟨S100000x128, .f32⟩ : BufTy).Contents (Elt F)),
    StableHlo.binary main_v189 main_v175 main_v190 (mulf : (⟨S100000x128, .f32⟩ : BufTy).Contents (Elt F) → (⟨S100000x128, .f32⟩ : BufTy).Contents (Elt F) → (⟨S100000x128, .f32⟩ : BufTy).Contents (Elt F)),
    StableHlo.binary main_v190 main_v185 main_v191 (addf : (⟨S100000x128, .f32⟩ : BufTy).Contents (Elt F) → (⟨S100000x128, .f32⟩ : BufTy).Contents (Elt F) → (⟨S100000x128, .f32⟩ : BufTy).Contents (Elt F)),
    StableHlo.unary main_arg4 main_v192 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v192 main_v193 rfl shapeCasts_S1x128x128_S128x128,
    StableHlo.binary main_v191 main_v193 main_v194 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v195 ((extractStridedSlice S1x128 ![3, 0] · slices_S4x128_S1x128_3_0) : (⟨S4x128, .f32⟩ : BufTy).Contents (Elt F) → (⟨S1x128, .f32⟩ : BufTy).Contents (Elt F)),
    StableHlo.reshape main_v195 main_v196 rfl shapeCasts_S1x128_S128,
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v198 main_v199 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (TRef.of main_v199 : TRef sig ⟨S100000x128, .f32⟩) main_call10.v0 main_call10.v1 (cmpf .oge),
    StableHlo.TRef.nullary main_call10.cst_0 (constant S_ .f32 0x3C23D70A#32),
    StableHlo.TRef.unary main_call10.cst_0 main_call10.v2 (broadcastInDim S100000x128 ![] bcast_S_S100000x128),
    StableHlo.TRef.binary main_call10.v2 (TRef.of main_v199 : TRef sig ⟨S100000x128, .f32⟩) main_call10.v3 mulf,
    StableHlo.TRef.ternary main_call10.v1 (TRef.of main_v199 : TRef sig ⟨S100000x128, .f32⟩) main_call10.v3 main_call10.call0.v0 select,
    StableHlo.unary main_arg6 main_v201 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v201 main_v202 rfl shapeCasts_S1x128x128_S128x128,
    StableHlo.binary main_v200 main_v202 main_v203 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v204 ((extractStridedSlice S1x128 ![3, 0] · slices_S4x128_S1x128_3_0) : (⟨S4x128, .f32⟩ : BufTy).Contents (Elt F) → (⟨S1x128, .f32⟩ : BufTy).Contents (Elt F)),
    StableHlo.reshape main_v204 main_v205 rfl shapeCasts_S1x128_S128,
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v207 main_v208 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v208 main_cst_26 main_v209 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32) ]

/-- The operations of window main_part4, in order, each call's body in place of the call: 79 operations. -/
abbrev ops_part4 : List (HloOp τ sig (Elt F)) :=
  [ StableHlo.unary main_cst_27 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call11.cst (constant S_ .f32 0x00000000#32),
    StableHlo.TRef.binary (TRef.of main_v208 : TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (TRef.of main_v208 : TRef sig ⟨S100000x128, .f32⟩) main_call11.v4 main_call11.v5 subf,
    StableHlo.TRef.binary main_call11.v5 main_call11.v5 main_call11.v6 mulf,
    StableHlo.TRef.unary (TRef.of main_c_28 : TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v214 main_v215 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v220 main_v221 (mulf : (⟨S100000x128, .f32⟩ : BufTy).Contents (Elt F) → (⟨S100000x128, .f32⟩ : BufTy).Contents (Elt F) → (⟨S100000x128, .f32⟩ : BufTy).Contents (Elt F)),
    StableHlo.unary main_arg8 main_v222 ((extractStridedSlice S1x128 ![3, 0] · slices_S4x128_S1x128_3_0) : (⟨S4x128, .f32⟩ : BufTy).Contents (Elt F) → (⟨S1x128, .f32⟩ : BufTy).Contents (Elt F)),
    StableHlo.reshape main_v222 main_v223 rfl shapeCasts_S1x128_S128,
    StableHlo.unary main_v223 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v221 main_v225 main_v226 (mulf : (⟨S100000x128, .f32⟩ : BufTy).Contents (Elt F) → (⟨S100000x128, .f32⟩ : BufTy).Contents (Elt F) → (⟨S100000x128, .f32⟩ : BufTy).Contents (Elt F)),
    StableHlo.unary main_arg9 main_v227 ((extractStridedSlice S1x128 ![3, 0] · slices_S4x128_S1x128_3_0) : (⟨S4x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v230 main_v231 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S100000x128 ![] bcast_S_S100000x128),
    StableHlo.TRef.binary (TRef.of main_v231 : TRef sig ⟨S100000x128, .f32⟩) main_call12.v0 main_call12.v1 (cmpf .oge),
    StableHlo.TRef.nullary main_call12.cst_0 (constant S_ .f32 0x3C23D70A#32),
    StableHlo.TRef.unary main_call12.cst_0 main_call12.v2 (broadcastInDim S100000x128 ![] bcast_S_S100000x128),
    StableHlo.TRef.binary main_call12.v2 (TRef.of main_v231 : TRef sig ⟨S100000x128, .f32⟩) main_call12.v3 mulf,
    StableHlo.TRef.ternary main_call12.v1 (TRef.of main_v231 : TRef sig ⟨S100000x128, .f32⟩) main_call12.v3 main_call12.call0.v0 select,
    StableHlo.nary ![main_v4, main_v61, main_v118, main_v175, main_v232] main_v233 (fun u => concatenate S100000x640 1 [⟨S100000x128, u 0⟩, ⟨S100000x128, u 1⟩, ⟨S100000x128, u 2⟩, ⟨S100000x128, u 3⟩, ⟨S100000x128, u 4⟩] concatenates_S100000x128_S100000x128_S100000x128_S100000x128_S100000x128_S100000x640_d1),
    StableHlo.nullary main_cst_30 (constant S_ .f32 0x00000000#32),
    StableHlo.unary main_cst_30 main_v234 (broadcastInDim S64x640 ![] bcast_S_S64x640 : (⟨S_, .f32⟩ : BufTy).Contents (Elt F) → (⟨S64x640, .f32⟩ : BufTy).Contents (Elt F)),
    StableHlo.unary main_arg2 main_v235 (broadcastInDim S100000x1 ![0] bcast_S100000_S100000x1_0 : (⟨S100000, .i32⟩ : BufTy).Contents (Elt F) → (⟨S100000x1, .i32⟩ : BufTy).Contents (Elt F)),
    StableHlo.ternary main_v234 main_v235 main_v233 main_v236 ((fun x i u => Host.scatterAdd scatter_S64x640_S100000x1_S100000x640_1_0_0_1 x i u) : (⟨S64x640, .f32⟩ : BufTy).Contents (Elt F) → (⟨S100000x1, .i32⟩ : BufTy).Contents (Elt F) → (⟨S100000x640, .f32⟩ : BufTy).Contents (Elt F) → (⟨S64x640, .f32⟩ : BufTy).Contents (Elt F)),
    StableHlo.TRef.nullary main_call13.cst (constant S_ .f32 0x00000000#32),
    StableHlo.TRef.unary main_call13.cst main_call13.v0 (broadcastInDim S64x640 ![] bcast_S_S64x640),
    StableHlo.TRef.binary (TRef.of main_v236 : TRef sig ⟨S64x640, .f32⟩) main_call13.v0 main_call13.v1 (cmpf .oge),
    StableHlo.TRef.nullary main_call13.cst_0 (constant S_ .f32 0x3C23D70A#32),
    StableHlo.TRef.unary main_call13.cst_0 main_call13.v2 (broadcastInDim S64x640 ![] bcast_S_S64x640),
    StableHlo.TRef.binary main_call13.v2 (TRef.of main_v236 : TRef sig ⟨S64x640, .f32⟩) main_call13.v3 mulf,
    StableHlo.TRef.ternary main_call13.v1 (TRef.of main_v236 : TRef sig ⟨S64x640, .f32⟩) main_call13.v3 main_call13.call0.v0 select,
    StableHlo.binary main_v237 main_arg10 main_v238 ((fun l r => Host.dotGeneral dot_S64x640_S640x256_S64x256_1_0_0_1_n_n none l r) : (⟨S64x640, .f32⟩ : BufTy).Contents (Elt F) → (⟨S640x256, .f32⟩ : BufTy).Contents (Elt F) → (⟨S64x256, .f32⟩ : BufTy).Contents (Elt F)),
    StableHlo.unary main_arg11 main_v239 (broadcastInDim S1x256 ![1] bcast_S256_S1x256_1 : (⟨S256, .f32⟩ : BufTy).Contents (Elt F) → (⟨S1x256, .f32⟩ : BufTy).Contents (Elt F)),
    StableHlo.unary main_v239 main_v240 (broadcastInDim S64x256 ![0, 1] bcast_S1x256_S64x256_0_1 : (⟨S1x256, .f32⟩ : BufTy).Contents (Elt F) → (⟨S64x256, .f32⟩ : BufTy).Contents (Elt F)),
    StableHlo.binary main_v238 main_v240 main_v241 (addf : (⟨S64x256, .f32⟩ : BufTy).Contents (Elt F) → (⟨S64x256, .f32⟩ : BufTy).Contents (Elt F) → (⟨S64x256, .f32⟩ : BufTy).Contents (Elt F)),
    StableHlo.TRef.nullary main_call14.cst (constant S_ .f32 0x00000000#32),
    StableHlo.TRef.unary main_call14.cst main_call14.v0 (broadcastInDim S64x256 ![] bcast_S_S64x256),
    StableHlo.TRef.binary (TRef.of main_v241 : TRef sig ⟨S64x256, .f32⟩) main_call14.v0 main_call14.v1 (cmpf .oge),
    StableHlo.TRef.nullary main_call14.cst_0 (constant S_ .f32 0x3C23D70A#32),
    StableHlo.TRef.unary main_call14.cst_0 main_call14.v2 (broadcastInDim S64x256 ![] bcast_S_S64x256),
    StableHlo.TRef.binary main_call14.v2 (TRef.of main_v241 : TRef sig ⟨S64x256, .f32⟩) main_call14.v3 mulf,
    StableHlo.TRef.ternary main_call14.v1 (TRef.of main_v241 : TRef sig ⟨S64x256, .f32⟩) main_call14.v3 main_call14.call0.v0 select,
    StableHlo.binary main_v242 main_arg12 main_v243 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    StableHlo.unary main_arg13 main_v244 (broadcastInDim S1x10 ![1] bcast_S10_S1x10_1 : (⟨S10, .f32⟩ : BufTy).Contents (Elt F) → (⟨S1x10, .f32⟩ : BufTy).Contents (Elt F)),
    StableHlo.unary main_v244 main_v245 (broadcastInDim S64x10 ![0, 1] bcast_S1x10_S64x10_0_1 : (⟨S1x10, .f32⟩ : BufTy).Contents (Elt F) → (⟨S64x10, .f32⟩ : BufTy).Contents (Elt F)),
    StableHlo.binary main_v243 main_v245 main_v246 (addf : (⟨S64x10, .f32⟩ : BufTy).Contents (Elt F) → (⟨S64x10, .f32⟩ : BufTy).Contents (Elt F) → (⟨S64x10, .f32⟩ : BufTy).Contents (Elt F)) ]

end Cert.ReferenceIdeal.Hand

end
-- ==== Proof.Ref.Stages.lean ====
import proofs.«116561_j3624952397847_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stage st_P: the operations up to the one that writes main_v4 (10 operations). -/
abbrev st_P : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.TRef.unary (TRef.of main_arg0 : TRef sig ⟨S100000, .i32⟩) main_call0.v0 (broadcastInDim S100000x1 ![0] bcast_S100000_S100000x1_0),
    StableHlo.TRef.nullary main_call0.v1 (iotaInDim S1x128 32 1),
    StableHlo.TRef.unary main_call0.v0 main_call0.v2 (broadcastInDim S100000x128 ![0, 1] bcast_S100000x1_S100000x128_0_1),
    StableHlo.TRef.unary main_call0.v1 main_call0.v3 (broadcastInDim S100000x128 ![0, 1] bcast_S1x128_S100000x128_0_1),
    StableHlo.TRef.binary main_call0.v2 main_call0.v3 main_call0.v4 (cmpi .eq),
    StableHlo.TRef.unary main_call0.v4 main_call0.v5 (uitofp .f32) ]

/-- The references stage st_P's operations write, in order. -/
abbrev W_st_P : List (Ref sig .tc) :=
  [main_v0, main_v1, main_v2, main_v3, main_call0_v0, main_call0_v1, main_call0_v2, main_call0_v3, main_call0_v4, main_v4]

/-- Stage st_A0: the operations up to the one that writes main_v14 (13 operations). -/
abbrev st_A0 : List (HloOp τ sig (Elt F)) :=
  [ StableHlo.nullary main_c (constantI S_ 32 0#32),
    StableHlo.unary main_c main_v5 (broadcastInDim S1600000 ![] bcast_S_S1600000 : (⟨S_, .i32⟩ : BufTy).Contents (Elt F) → (⟨S1600000, .i32⟩ : BufTy).Contents (Elt F)),
    StableHlo.binary main_v1 main_v5 main_v6 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v7 (broadcastInDim S1600000 ![] bcast_S_S1600000 : (⟨S_, .i32⟩ : BufTy).Contents (Elt F) → (⟨S1600000, .i32⟩ : BufTy).Contents (Elt F)),
    StableHlo.binary main_v1 main_v7 main_v8 (addi : (⟨S1600000, .i32⟩ : BufTy).Contents (Elt F) → (⟨S1600000, .i32⟩ : BufTy).Contents (Elt F) → (⟨S1600000, .i32⟩ : BufTy).Contents (Elt F)),
    StableHlo.ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v9 main_v10 (broadcastInDim S1600000x1 ![0] bcast_S1600000_S1600000x1_0 : (⟨S1600000, .i32⟩ : BufTy).Contents (Elt F) → (⟨S1600000x1, .i32⟩ : BufTy).Contents (Elt F)),
    StableHlo.binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v12 (broadcastInDim S100000x128 ![] bcast_S_S100000x128 : (⟨S_, .f32⟩ : BufTy).Contents (Elt F) → (⟨S100000x128, .f32⟩ : BufTy).Contents (Elt F)),
    StableHlo.unary main_v3 main_v13 (broadcastInDim S1600000x1 ![0] bcast_S1600000_S1600000x1_0 : (⟨S1600000, .i32⟩ : BufTy).Contents (Elt F) → (⟨S1600000x1, .i32⟩ : BufTy).Contents (Elt F)),
    StableHlo.ternary main_v12 main_v13 main_v11 main_v14 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The references stage st_A0's operations write, in order. -/
abbrev W_st_A0 : List (Ref sig .tc) :=
  [main_c, main_v5, main_v6, main_c_0, main_v7, main_v8, main_v9, main_v10, main_v11, main_cst, main_v12, main_v13, main_v14]

/-- Stage st_B0: the operations up to the one that writes main_v37 (30 operations). -/
abbrev st_B0 : List (HloOp τ sig (Elt F)) :=
  [ StableHlo.unary main_arg3 main_v15 ((extractStridedSlice S1 ![0] · slices_S4_S1_0) : (⟨S4, .f32⟩ : BufTy).Contents (Elt F) → (⟨S1, .f32⟩ : BufTy).Contents (Elt F)),
    StableHlo.reshape main_v15 main_v16 rfl shapeCasts_S1_S_,
    StableHlo.nullary main_cst_1 (constant S_ .f32 0x3F800000#32),
    StableHlo.binary main_cst_1 main_v16 main_v17 (addf : (⟨S_, .f32⟩ : BufTy).Contents (Elt F) → (⟨S_, .f32⟩ : BufTy).Contents (Elt F) → (⟨S_, .f32⟩ : BufTy).Contents (Elt F)),
    StableHlo.unary main_v17 main_v18 (broadcastInDim S100000x128 ![] bcast_S_S100000x128 : (⟨S_, .f32⟩ : BufTy).Contents (Elt F) → (⟨S100000x128, .f32⟩ : BufTy).Contents (Elt F)),
    StableHlo.binary main_v18 main_v4 main_v19 (mulf : (⟨S100000x128, .f32⟩ : BufTy).Contents (Elt F) → (⟨S100000x128, .f32⟩ : BufTy).Contents (Elt F) → (⟨S100000x128, .f32⟩ : BufTy).Contents (Elt F)),
    StableHlo.binary main_v19 main_v14 main_v20 (addf : (⟨S100000x128, .f32⟩ : BufTy).Contents (Elt F) → (⟨S100000x128, .f32⟩ : BufTy).Contents (Elt F) → (⟨S100000x128, .f32⟩ : BufTy).Contents (Elt F)),
    StableHlo.unary main_arg4 main_v21 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v21 main_v22 rfl shapeCasts_S1x128x128_S128x128,
    StableHlo.binary main_v20 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v24 ((extractStridedSlice S1x128 ![0, 0] · slices_S4x128_S1x128_0_0) : (⟨S4x128, .f32⟩ : BufTy).Contents (Elt F) → (⟨S1x128, .f32⟩ : BufTy).Contents (Elt F)),
    StableHlo.reshape main_v24 main_v25 rfl shapeCasts_S1x128_S128,
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v27 main_v28 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (TRef.of main_v28 : TRef sig ⟨S100000x128, .f32⟩) main_call1.v0 main_call1.v1 (cmpf .oge),
    StableHlo.TRef.nullary main_call1.cst_0 (constant S_ .f32 0x3C23D70A#32),
    StableHlo.TRef.unary main_call1.cst_0 main_call1.v2 (broadcastInDim S100000x128 ![] bcast_S_S100000x128),
    StableHlo.TRef.binary main_call1.v2 (TRef.of main_v28 : TRef sig ⟨S100000x128, .f32⟩) main_call1.v3 mulf,
    StableHlo.TRef.ternary main_call1.v1 (TRef.of main_v28 : TRef sig ⟨S100000x128, .f32⟩) main_call1.v3 main_call1.call0.v0 select,
    StableHlo.unary main_arg6 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v30 main_v31 rfl shapeCasts_S1x128x128_S128x128,
    StableHlo.binary main_v29 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v33 ((extractStridedSlice S1x128 ![0, 0] · slices_S4x128_S1x128_0_0) : (⟨S4x128, .f32⟩ : BufTy).Contents (Elt F) → (⟨S1x128, .f32⟩ : BufTy).Contents (Elt F)),
    StableHlo.reshape main_v33 main_v34 rfl shapeCasts_S1x128_S128,
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v36 main_v37 (addf : (⟨S100000x128, .f32⟩ : BufTy).Contents (Elt F) → (⟨S100000x128, .f32⟩ : BufTy).Contents (Elt F) → (⟨S100000x128, .f32⟩ : BufTy).Contents (Elt F)) ]

/-- The references stage st_B0's operations write, in order. -/
abbrev W_st_B0 : List (Ref sig .tc) :=
  [main_v15, main_v16, main_cst_1, main_v17, main_v18, main_v19, main_v20, main_v21, main_v22, main_v23, main_v24, main_v25, main_v26, main_v27, main_v28, main_call1_cst, main_call1_v0, main_call1_v1, main_call1_cst_0, main_call1_v2, main_call1_v3, main_v29, main_v30, main_v31, main_v32, main_v33, main_v34, main_v35, main_v36, main_v37]

/-- Stage st_C0: the operations up to the one that writes main_v61 (55 operations). -/
abbrev st_C0 : List (HloOp τ sig (Elt F)) :=
  [ StableHlo.nullary main_cst_2 (constant S_ .f32 0x00000000#32),
    StableHlo.binary main_v37 main_cst_2 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (TRef.of main_v37 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v37 : TRef sig ⟨S100000x128, .f32⟩) main_call2.v4 main_call2.v5 subf,
    StableHlo.TRef.binary main_call2.v5 main_call2.v5 main_call2.v6 mulf,
    StableHlo.TRef.unary (TRef.of main_c_4 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v43 main_v44 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg8 main_v51 ((extractStridedSlice S1x128 ![0, 0] · slices_S4x128_S1x128_0_0) : (⟨S4x128, .f32⟩ : BufTy).Contents (Elt F) → (⟨S1x128, .f32⟩ : BufTy).Contents (Elt F)),
    StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg9 main_v56 ((extractStridedSlice S1x128 ![0, 0] · slices_S4x128_S1x128_0_0) : (⟨S4x128, .f32⟩ : BufTy).Contents (Elt F) → (⟨S1x128, .f32⟩ : BufTy).Contents (Elt F)),
    StableHlo.reshape main_v56 main_v57 rfl shapeCasts_S1x128_S128,
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v59 main_v60 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (TRef.of main_v60 : TRef sig ⟨S100000x128, .f32⟩) main_call3.v0 main_call3.v1 (cmpf .oge),
    StableHlo.TRef.nullary main_call3.cst_0 (constant S_ .f32 0x3C23D70A#32),
    StableHlo.TRef.unary main_call3.cst_0 main_call3.v2 (broadcastInDim S100000x128 ![] bcast_S_S100000x128),
    StableHlo.TRef.binary main_call3.v2 (TRef.of main_v60 : TRef sig ⟨S100000x128, .f32⟩) main_call3.v3 mulf,
    StableHlo.TRef.ternary main_call3.v1 (TRef.of main_v60 : TRef sig ⟨S100000x128, .f32⟩) main_call3.v3 main_call3.call0.v0 select ]

/-- The references stage st_C0's operations write, in order. -/
abbrev W_st_C0 : List (Ref sig .tc) :=
  [main_cst_2, main_v38, main_cst_3, main_v39, main_v40, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v41, main_v42, main_v43, main_v44, main_cst_5, main_v45, main_v46, main_v47, main_v48, main_v49, main_v50, main_v51, main_v52, main_v53, main_v54, main_v55, main_v56, main_v57, main_v58, main_v59, main_v60, main_call3_cst, main_call3_v0, main_call3_v1, main_call3_cst_0, main_call3_v2, main_call3_v3, main_v61]

/-- Stage st_A1: the operations up to the one that writes main_v71 (13 operations). -/
abbrev st_A1 : List (HloOp τ sig (Elt F)) :=
  [ StableHlo.nullary main_c_6 (constantI S_ 32 0#32),
    StableHlo.unary main_c_6 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v61 main_v67 main_v68 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v69 (broadcastInDim S100000x128 ![] bcast_S_S100000x128 : (⟨S_, .f32⟩ : BufTy).Contents (Elt F) → (⟨S100000x128, .f32⟩ : BufTy).Contents (Elt F)),
    StableHlo.unary main_v3 main_v70 (broadcastInDim S1600000x1 ![0] bcast_S1600000_S1600000x1_0 : (⟨S1600000, .i32⟩ : BufTy).Contents (Elt F) → (⟨S1600000x1, .i32⟩ : BufTy).Contents (Elt F)),
    StableHlo.ternary main_v69 main_v70 main_v68 main_v71 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The references stage st_A1's operations write, in order. -/
abbrev W_st_A1 : List (Ref sig .tc) :=
  [main_c_6, main_v62, main_v63, main_c_7, main_v64, main_v65, main_v66, main_v67, main_v68, main_cst_8, main_v69, main_v70, main_v71]

/-- Stage st_B1: the operations up to the one that writes main_v94 (30 operations). -/
abbrev st_B1 : List (HloOp τ sig (Elt F)) :=
  [ StableHlo.unary main_arg3 main_v72 ((extractStridedSlice S1 ![1] · slices_S4_S1_1) : (⟨S4, .f32⟩ : BufTy).Contents (Elt F) → (⟨S1, .f32⟩ : BufTy).Contents (Elt F)),
    StableHlo.reshape main_v72 main_v73 rfl shapeCasts_S1_S_,
    StableHlo.nullary main_cst_9 (constant S_ .f32 0x3F800000#32),
    StableHlo.binary main_cst_9 main_v73 main_v74 (addf : (⟨S_, .f32⟩ : BufTy).Contents (Elt F) → (⟨S_, .f32⟩ : BufTy).Contents (Elt F) → (⟨S_, .f32⟩ : BufTy).Contents (Elt F)),
    StableHlo.unary main_v74 main_v75 (broadcastInDim S100000x128 ![] bcast_S_S100000x128 : (⟨S_, .f32⟩ : BufTy).Contents (Elt F) → (⟨S100000x128, .f32⟩ : BufTy).Contents (Elt F)),
    StableHlo.binary main_v75 main_v61 main_v76 (mulf : (⟨S100000x128, .f32⟩ : BufTy).Contents (Elt F) → (⟨S100000x128, .f32⟩ : BufTy).Contents (Elt F) → (⟨S100000x128, .f32⟩ : BufTy).Contents (Elt F)),
    StableHlo.binary main_v76 main_v71 main_v77 (addf : (⟨S100000x128, .f32⟩ : BufTy).Contents (Elt F) → (⟨S100000x128, .f32⟩ : BufTy).Contents (Elt F) → (⟨S100000x128, .f32⟩ : BufTy).Contents (Elt F)),
    StableHlo.unary main_arg4 main_v78 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v78 main_v79 rfl shapeCasts_S1x128x128_S128x128,
    StableHlo.binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v81 ((extractStridedSlice S1x128 ![1, 0] · slices_S4x128_S1x128_1_0) : (⟨S4x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v84 main_v85 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (TRef.of main_v85 : TRef sig ⟨S100000x128, .f32⟩) main_call4.v0 main_call4.v1 (cmpf .oge),
    StableHlo.TRef.nullary main_call4.cst_0 (constant S_ .f32 0x3C23D70A#32),
    StableHlo.TRef.unary main_call4.cst_0 main_call4.v2 (broadcastInDim S100000x128 ![] bcast_S_S100000x128),
    StableHlo.TRef.binary main_call4.v2 (TRef.of main_v85 : TRef sig ⟨S100000x128, .f32⟩) main_call4.v3 mulf,
    StableHlo.TRef.ternary main_call4.v1 (TRef.of main_v85 : TRef sig ⟨S100000x128, .f32⟩) main_call4.v3 main_call4.call0.v0 select,
    StableHlo.unary main_arg6 main_v87 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v87 main_v88 rfl shapeCasts_S1x128x128_S128x128,
    StableHlo.binary main_v86 main_v88 main_v89 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v90 ((extractStridedSlice S1x128 ![1, 0] · slices_S4x128_S1x128_1_0) : (⟨S4x128, .f32⟩ : BufTy).Contents (Elt F) → (⟨S1x128, .f32⟩ : BufTy).Contents (Elt F)),
    StableHlo.reshape main_v90 main_v91 rfl shapeCasts_S1x128_S128,
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v93 main_v94 (addf : (⟨S100000x128, .f32⟩ : BufTy).Contents (Elt F) → (⟨S100000x128, .f32⟩ : BufTy).Contents (Elt F) → (⟨S100000x128, .f32⟩ : BufTy).Contents (Elt F)) ]

/-- The references stage st_B1's operations write, in order. -/
abbrev W_st_B1 : List (Ref sig .tc) :=
  [main_v72, main_v73, main_cst_9, main_v74, main_v75, main_v76, main_v77, main_v78, main_v79, main_v80, main_v81, main_v82, main_v83, main_v84, main_v85, main_call4_cst, main_call4_v0, main_call4_v1, main_call4_cst_0, main_call4_v2, main_call4_v3, main_v86, main_v87, main_v88, main_v89, main_v90, main_v91, main_v92, main_v93, main_v94]

/-- Stage st_C1: the operations up to the one that writes main_v118 (55 operations). -/
abbrev st_C1 : List (HloOp τ sig (Elt F)) :=
  [ StableHlo.nullary main_cst_10 (constant S_ .f32 0x00000000#32),
    StableHlo.binary main_v94 main_cst_10 main_v95 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v96 (broadcastInDim S128 ![] bcast_S_S128 : (⟨S_, .f32⟩ : BufTy).Contents (Elt F) → (⟨S128, .f32⟩ : BufTy).Contents (Elt F)),
    StableHlo.binary main_v95 main_v96 main_v97 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call5.cst (constant S_ .f32 0x00000000#32),
    StableHlo.TRef.binary (TRef.of main_v94 : TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (TRef.of main_v94 : TRef sig ⟨S100000x128, .f32⟩) main_call5.v4 main_call5.v5 subf,
    StableHlo.TRef.binary main_call5.v5 main_call5.v5 main_call5.v6 mulf,
    StableHlo.TRef.unary (TRef.of main_c_12 : TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v97 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v100 main_v101 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v102 (broadcastInDim S128 ![] bcast_S_S128 : (⟨S_, .f32⟩ : BufTy).Contents (Elt F) → (⟨S128, .f32⟩ : BufTy).Contents (Elt F)),
    StableHlo.binary main_v98 main_v102 main_v103 (addf : (⟨S128, .f32⟩ : BufTy).Contents (Elt F) → (⟨S128, .f32⟩ : BufTy).Contents (Elt F) → (⟨S128, .f32⟩ : BufTy).Contents (Elt F)),
    StableHlo.unary main_v103 main_v104 (Host.rsqrt : (⟨S128, .f32⟩ : BufTy).Contents (Elt F) → (⟨S128, .f32⟩ : BufTy).Contents (Elt F)),
    StableHlo.unary main_v104 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg8 main_v108 ((extractStridedSlice S1x128 ![1, 0] · slices_S4x128_S1x128_1_0) : (⟨S4x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_arg9 main_v113 ((extractStridedSlice S1x128 ![1, 0] · slices_S4x128_S1x128_1_0) : (⟨S4x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v116 main_v117 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (TRef.of main_v117 : TRef sig ⟨S100000x128, .f32⟩) main_call6.v0 main_call6.v1 (cmpf .oge),
    StableHlo.TRef.nullary main_call6.cst_0 (constant S_ .f32 0x3C23D70A#32),
    StableHlo.TRef.unary main_call6.cst_0 main_call6.v2 (broadcastInDim S100000x128 ![] bcast_S_S100000x128),
    StableHlo.TRef.binary main_call6.v2 (TRef.of main_v117 : TRef sig ⟨S100000x128, .f32⟩) main_call6.v3 mulf,
    StableHlo.TRef.ternary main_call6.v1 (TRef.of main_v117 : TRef sig ⟨S100000x128, .f32⟩) main_call6.v3 main_call6.call0.v0 select ]

/-- The references stage st_C1's operations write, in order. -/
abbrev W_st_C1 : List (Ref sig .tc) :=
  [main_cst_10, main_v95, main_cst_11, main_v96, main_v97, main_c_12, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v98, main_v99, main_v100, main_v101, main_cst_13, main_v102, main_v103, main_v104, main_v105, main_v106, main_v107, main_v108, main_v109, main_v110, main_v111, main_v112, main_v113, main_v114, main_v115, main_v116, main_v117, main_call6_cst, main_call6_v0, main_call6_v1, main_call6_cst_0, main_call6_v2, main_call6_v3, main_v118]

/-- Stage st_A2: the operations up to the one that writes main_v128 (13 operations). -/
abbrev st_A2 : List (HloOp τ sig (Elt F)) :=
  [ StableHlo.nullary main_c_14 (constantI S_ 32 0#32),
    StableHlo.unary main_c_14 main_v119 (broadcastInDim S1600000 ![] bcast_S_S1600000 : (⟨S_, .i32⟩ : BufTy).Contents (Elt F) → (⟨S1600000, .i32⟩ : BufTy).Contents (Elt F)),
    StableHlo.binary main_v1 main_v119 main_v120 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v121 (broadcastInDim S1600000 ![] bcast_S_S1600000 : (⟨S_, .i32⟩ : BufTy).Contents (Elt F) → (⟨S1600000, .i32⟩ : BufTy).Contents (Elt F)),
    StableHlo.binary main_v1 main_v121 main_v122 (addi : (⟨S1600000, .i32⟩ : BufTy).Contents (Elt F) → (⟨S1600000, .i32⟩ : BufTy).Contents (Elt F) → (⟨S1600000, .i32⟩ : BufTy).Contents (Elt F)),
    StableHlo.ternary main_v120 main_v122 main_v1 main_v123 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v123 main_v124 (broadcastInDim S1600000x1 ![0] bcast_S1600000_S1600000x1_0 : (⟨S1600000, .i32⟩ : BufTy).Contents (Elt F) → (⟨S1600000x1, .i32⟩ : BufTy).Contents (Elt F)),
    StableHlo.binary main_v118 main_v124 main_v125 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v126 (broadcastInDim S100000x128 ![] bcast_S_S100000x128 : (⟨S_, .f32⟩ : BufTy).Contents (Elt F) → (⟨S100000x128, .f32⟩ : BufTy).Contents (Elt F)),
    StableHlo.unary main_v3 main_v127 (broadcastInDim S1600000x1 ![0] bcast_S1600000_S1600000x1_0 : (⟨S1600000, .i32⟩ : BufTy).Contents (Elt F) → (⟨S1600000x1, .i32⟩ : BufTy).Contents (Elt F)),
    StableHlo.ternary main_v126 main_v127 main_v125 main_v128 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The references stage st_A2's operations write, in order. -/
abbrev W_st_A2 : List (Ref sig .tc) :=
  [main_c_14, main_v119, main_v120, main_c_15, main_v121, main_v122, main_v123, main_v124, main_v125, main_cst_16, main_v126, main_v127, main_v128]

/-- Stage st_B2: the operations up to the one that writes main_v151 (30 operations). -/
abbrev st_B2 : List (HloOp τ sig (Elt F)) :=
  [ StableHlo.unary main_arg3 main_v129 ((extractStridedSlice S1 ![2] · slices_S4_S1_2) : (⟨S4, .f32⟩ : BufTy).Contents (Elt F) → (⟨S1, .f32⟩ : BufTy).Contents (Elt F)),
    StableHlo.reshape main_v129 main_v130 rfl shapeCasts_S1_S_,
    StableHlo.nullary main_cst_17 (constant S_ .f32 0x3F800000#32),
    StableHlo.binary main_cst_17 main_v130 main_v131 (addf : (⟨S_, .f32⟩ : BufTy).Contents (Elt F) → (⟨S_, .f32⟩ : BufTy).Contents (Elt F) → (⟨S_, .f32⟩ : BufTy).Contents (Elt F)),
    StableHlo.unary main_v131 main_v132 (broadcastInDim S100000x128 ![] bcast_S_S100000x128 : (⟨S_, .f32⟩ : BufTy).Contents (Elt F) → (⟨S100000x128, .f32⟩ : BufTy).Contents (Elt F)),
    StableHlo.binary main_v132 main_v118 main_v133 (mulf : (⟨S100000x128, .f32⟩ : BufTy).Contents (Elt F) → (⟨S100000x128, .f32⟩ : BufTy).Contents (Elt F) → (⟨S100000x128, .f32⟩ : BufTy).Contents (Elt F)),
    StableHlo.binary main_v133 main_v128 main_v134 (addf : (⟨S100000x128, .f32⟩ : BufTy).Contents (Elt F) → (⟨S100000x128, .f32⟩ : BufTy).Contents (Elt F) → (⟨S100000x128, .f32⟩ : BufTy).Contents (Elt F)),
    StableHlo.unary main_arg4 main_v135 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v135 main_v136 rfl shapeCasts_S1x128x128_S128x128,
    StableHlo.binary main_v134 main_v136 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v138 ((extractStridedSlice S1x128 ![2, 0] · slices_S4x128_S1x128_2_0) : (⟨S4x128, .f32⟩ : BufTy).Contents (Elt F) → (⟨S1x128, .f32⟩ : BufTy).Contents (Elt F)),
    StableHlo.reshape main_v138 main_v139 rfl shapeCasts_S1x128_S128,
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v141 main_v142 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (TRef.of main_v142 : TRef sig ⟨S100000x128, .f32⟩) main_call7.v0 main_call7.v1 (cmpf .oge),
    StableHlo.TRef.nullary main_call7.cst_0 (constant S_ .f32 0x3C23D70A#32),
    StableHlo.TRef.unary main_call7.cst_0 main_call7.v2 (broadcastInDim S100000x128 ![] bcast_S_S100000x128),
    StableHlo.TRef.binary main_call7.v2 (TRef.of main_v142 : TRef sig ⟨S100000x128, .f32⟩) main_call7.v3 mulf,
    StableHlo.TRef.ternary main_call7.v1 (TRef.of main_v142 : TRef sig ⟨S100000x128, .f32⟩) main_call7.v3 main_call7.call0.v0 select,
    StableHlo.unary main_arg6 main_v144 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v144 main_v145 rfl shapeCasts_S1x128x128_S128x128,
    StableHlo.binary main_v143 main_v145 main_v146 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v147 ((extractStridedSlice S1x128 ![2, 0] · slices_S4x128_S1x128_2_0) : (⟨S4x128, .f32⟩ : BufTy).Contents (Elt F) → (⟨S1x128, .f32⟩ : BufTy).Contents (Elt F)),
    StableHlo.reshape main_v147 main_v148 rfl shapeCasts_S1x128_S128,
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v150 main_v151 (addf : (⟨S100000x128, .f32⟩ : BufTy).Contents (Elt F) → (⟨S100000x128, .f32⟩ : BufTy).Contents (Elt F) → (⟨S100000x128, .f32⟩ : BufTy).Contents (Elt F)) ]

/-- The references stage st_B2's operations write, in order. -/
abbrev W_st_B2 : List (Ref sig .tc) :=
  [main_v129, main_v130, main_cst_17, main_v131, main_v132, main_v133, main_v134, main_v135, main_v136, main_v137, main_v138, main_v139, main_v140, main_v141, main_v142, main_call7_cst, main_call7_v0, main_call7_v1, main_call7_cst_0, main_call7_v2, main_call7_v3, main_v143, main_v144, main_v145, main_v146, main_v147, main_v148, main_v149, main_v150, main_v151]

/-- Stage st_C2: the operations up to the one that writes main_v175 (55 operations). -/
abbrev st_C2 : List (HloOp τ sig (Elt F)) :=
  [ StableHlo.nullary main_cst_18 (constant S_ .f32 0x00000000#32),
    StableHlo.binary main_v151 main_cst_18 main_v152 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v153 (broadcastInDim S128 ![] bcast_S_S128 : (⟨S_, .f32⟩ : BufTy).Contents (Elt F) → (⟨S128, .f32⟩ : BufTy).Contents (Elt F)),
    StableHlo.binary main_v152 main_v153 main_v154 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call8.cst (constant S_ .f32 0x00000000#32),
    StableHlo.TRef.binary (TRef.of main_v151 : TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (TRef.of main_v151 : TRef sig ⟨S100000x128, .f32⟩) main_call8.v4 main_call8.v5 subf,
    StableHlo.TRef.binary main_call8.v5 main_call8.v5 main_call8.v6 mulf,
    StableHlo.TRef.unary (TRef.of main_c_20 : TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v154 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v157 main_v158 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v159 (broadcastInDim S128 ![] bcast_S_S128 : (⟨S_, .f32⟩ : BufTy).Contents (Elt F) → (⟨S128, .f32⟩ : BufTy).Contents (Elt F)),
    StableHlo.binary main_v155 main_v159 main_v160 (addf : (⟨S128, .f32⟩ : BufTy).Contents (Elt F) → (⟨S128, .f32⟩ : BufTy).Contents (Elt F) → (⟨S128, .f32⟩ : BufTy).Contents (Elt F)),
    StableHlo.unary main_v160 main_v161 (Host.rsqrt : (⟨S128, .f32⟩ : BufTy).Contents (Elt F) → (⟨S128, .f32⟩ : BufTy).Contents (Elt F)),
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v163 main_v164 (mulf : (⟨S100000x128, .f32⟩ : BufTy).Contents (Elt F) → (⟨S100000x128, .f32⟩ : BufTy).Contents (Elt F) → (⟨S100000x128, .f32⟩ : BufTy).Contents (Elt F)),
    StableHlo.unary main_arg8 main_v165 ((extractStridedSlice S1x128 ![2, 0] · slices_S4x128_S1x128_2_0) : (⟨S4x128, .f32⟩ : BufTy).Contents (Elt F) → (⟨S1x128, .f32⟩ : BufTy).Contents (Elt F)),
    StableHlo.reshape main_v165 main_v166 rfl shapeCasts_S1x128_S128,
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_arg9 main_v170 ((extractStridedSlice S1x128 ![2, 0] · slices_S4x128_S1x128_2_0) : (⟨S4x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v173 main_v174 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (TRef.of main_v174 : TRef sig ⟨S100000x128, .f32⟩) main_call9.v0 main_call9.v1 (cmpf .oge),
    StableHlo.TRef.nullary main_call9.cst_0 (constant S_ .f32 0x3C23D70A#32),
    StableHlo.TRef.unary main_call9.cst_0 main_call9.v2 (broadcastInDim S100000x128 ![] bcast_S_S100000x128),
    StableHlo.TRef.binary main_call9.v2 (TRef.of main_v174 : TRef sig ⟨S100000x128, .f32⟩) main_call9.v3 mulf,
    StableHlo.TRef.ternary main_call9.v1 (TRef.of main_v174 : TRef sig ⟨S100000x128, .f32⟩) main_call9.v3 main_call9.call0.v0 select ]

/-- The references stage st_C2's operations write, in order. -/
abbrev W_st_C2 : List (Ref sig .tc) :=
  [main_cst_18, main_v152, main_cst_19, main_v153, main_v154, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v155, main_v156, main_v157, main_v158, main_cst_21, main_v159, main_v160, main_v161, main_v162, main_v163, main_v164, main_v165, main_v166, main_v167, main_v168, main_v169, main_v170, main_v171, main_v172, main_v173, main_v174, main_call9_cst, main_call9_v0, main_call9_v1, main_call9_cst_0, main_call9_v2, main_call9_v3, main_v175]

/-- Stage st_A3: the operations up to the one that writes main_v185 (13 operations). -/
abbrev st_A3 : List (HloOp τ sig (Elt F)) :=
  [ StableHlo.nullary main_c_22 (constantI S_ 32 0#32),
    StableHlo.unary main_c_22 main_v176 (broadcastInDim S1600000 ![] bcast_S_S1600000 : (⟨S_, .i32⟩ : BufTy).Contents (Elt F) → (⟨S1600000, .i32⟩ : BufTy).Contents (Elt F)),
    StableHlo.binary main_v1 main_v176 main_v177 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v178 (broadcastInDim S1600000 ![] bcast_S_S1600000 : (⟨S_, .i32⟩ : BufTy).Contents (Elt F) → (⟨S1600000, .i32⟩ : BufTy).Contents (Elt F)),
    StableHlo.binary main_v1 main_v178 main_v179 (addi : (⟨S1600000, .i32⟩ : BufTy).Contents (Elt F) → (⟨S1600000, .i32⟩ : BufTy).Contents (Elt F) → (⟨S1600000, .i32⟩ : BufTy).Contents (Elt F)),
    StableHlo.ternary main_v177 main_v179 main_v1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v180 main_v181 (broadcastInDim S1600000x1 ![0] bcast_S1600000_S1600000x1_0 : (⟨S1600000, .i32⟩ : BufTy).Contents (Elt F) → (⟨S1600000x1, .i32⟩ : BufTy).Contents (Elt F)),
    StableHlo.binary main_v175 main_v181 main_v182 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v183 (broadcastInDim S100000x128 ![] bcast_S_S100000x128 : (⟨S_, .f32⟩ : BufTy).Contents (Elt F) → (⟨S100000x128, .f32⟩ : BufTy).Contents (Elt F)),
    StableHlo.unary main_v3 main_v184 (broadcastInDim S1600000x1 ![0] bcast_S1600000_S1600000x1_0 : (⟨S1600000, .i32⟩ : BufTy).Contents (Elt F) → (⟨S1600000x1, .i32⟩ : BufTy).Contents (Elt F)),
    StableHlo.ternary main_v183 main_v184 main_v182 main_v185 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The references stage st_A3's operations write, in order. -/
abbrev W_st_A3 : List (Ref sig .tc) :=
  [main_c_22, main_v176, main_v177, main_c_23, main_v178, main_v179, main_v180, main_v181, main_v182, main_cst_24, main_v183, main_v184, main_v185]

/-- Stage st_B3: the operations up to the one that writes main_v208 (30 operations). -/
abbrev st_B3 : List (HloOp τ sig (Elt F)) :=
  [ StableHlo.unary main_arg3 main_v186 ((extractStridedSlice S1 ![3] · slices_S4_S1_3) : (⟨S4, .f32⟩ : BufTy).Contents (Elt F) → (⟨S1, .f32⟩ : BufTy).Contents (Elt F)),
    StableHlo.reshape main_v186 main_v187 rfl shapeCasts_S1_S_,
    StableHlo.nullary main_cst_25 (constant S_ .f32 0x3F800000#32),
    StableHlo.binary main_cst_25 main_v187 main_v188 (addf : (⟨S_, .f32⟩ : BufTy).Contents (Elt F) → (⟨S_, .f32⟩ : BufTy).Contents (Elt F) → (⟨S_, .f32⟩ : BufTy).Contents (Elt F)),
    StableHlo.unary main_v188 main_v189 (broadcastInDim S100000x128 ![] bcast_S_S100000x128 : (⟨S_, .f32⟩ : BufTy).Contents (Elt F) → (⟨S100000x128, .f32⟩ : BufTy).Contents (Elt F)),
    StableHlo.binary main_v189 main_v175 main_v190 (mulf : (⟨S100000x128, .f32⟩ : BufTy).Contents (Elt F) → (⟨S100000x128, .f32⟩ : BufTy).Contents (Elt F) → (⟨S100000x128, .f32⟩ : BufTy).Contents (Elt F)),
    StableHlo.binary main_v190 main_v185 main_v191 (addf : (⟨S100000x128, .f32⟩ : BufTy).Contents (Elt F) → (⟨S100000x128, .f32⟩ : BufTy).Contents (Elt F) → (⟨S100000x128, .f32⟩ : BufTy).Contents (Elt F)),
    StableHlo.unary main_arg4 main_v192 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v192 main_v193 rfl shapeCasts_S1x128x128_S128x128,
    StableHlo.binary main_v191 main_v193 main_v194 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v195 ((extractStridedSlice S1x128 ![3, 0] · slices_S4x128_S1x128_3_0) : (⟨S4x128, .f32⟩ : BufTy).Contents (Elt F) → (⟨S1x128, .f32⟩ : BufTy).Contents (Elt F)),
    StableHlo.reshape main_v195 main_v196 rfl shapeCasts_S1x128_S128,
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v198 main_v199 (addf : (⟨S100000x128, .f32⟩ : BufTy).Contents (Elt F) → (⟨S100000x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (TRef.of main_v199 : TRef sig ⟨S100000x128, .f32⟩) main_call10.v0 main_call10.v1 (cmpf .oge),
    StableHlo.TRef.nullary main_call10.cst_0 (constant S_ .f32 0x3C23D70A#32),
    StableHlo.TRef.unary main_call10.cst_0 main_call10.v2 (broadcastInDim S100000x128 ![] bcast_S_S100000x128),
    StableHlo.TRef.binary main_call10.v2 (TRef.of main_v199 : TRef sig ⟨S100000x128, .f32⟩) main_call10.v3 mulf,
    StableHlo.TRef.ternary main_call10.v1 (TRef.of main_v199 : TRef sig ⟨S100000x128, .f32⟩) main_call10.v3 main_call10.call0.v0 select,
    StableHlo.unary main_arg6 main_v201 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v201 main_v202 rfl shapeCasts_S1x128x128_S128x128,
    StableHlo.binary main_v200 main_v202 main_v203 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v204 ((extractStridedSlice S1x128 ![3, 0] · slices_S4x128_S1x128_3_0) : (⟨S4x128, .f32⟩ : BufTy).Contents (Elt F) → (⟨S1x128, .f32⟩ : BufTy).Contents (Elt F)),
    StableHlo.reshape main_v204 main_v205 rfl shapeCasts_S1x128_S128,
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v207 main_v208 (addf : (⟨S100000x128, .f32⟩ : BufTy).Contents (Elt F) → (⟨S100000x128, .f32⟩ : BufTy).Contents (Elt F) → (⟨S100000x128, .f32⟩ : BufTy).Contents (Elt F)) ]

/-- The references stage st_B3's operations write, in order. -/
abbrev W_st_B3 : List (Ref sig .tc) :=
  [main_v186, main_v187, main_cst_25, main_v188, main_v189, main_v190, main_v191, main_v192, main_v193, main_v194, main_v195, main_v196, main_v197, main_v198, main_v199, main_call10_cst, main_call10_v0, main_call10_v1, main_call10_cst_0, main_call10_v2, main_call10_v3, main_v200, main_v201, main_v202, main_v203, main_v204, main_v205, main_v206, main_v207, main_v208]

/-- Stage st_C3: the operations up to the one that writes main_v232 (55 operations). -/
abbrev st_C3 : List (HloOp τ sig (Elt F)) :=
  [ StableHlo.nullary main_cst_26 (constant S_ .f32 0x00000000#32),
    StableHlo.binary main_v208 main_cst_26 main_v209 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call11.cst (constant S_ .f32 0x00000000#32),
    StableHlo.TRef.binary (TRef.of main_v208 : TRef sig ⟨S100000x128, .f32⟩) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (TRef.of main_v208 : TRef sig ⟨S100000x128, .f32⟩) main_call11.v4 main_call11.v5 subf,
    StableHlo.TRef.binary main_call11.v5 main_call11.v5 main_call11.v6 mulf,
    StableHlo.TRef.unary (TRef.of main_c_28 : TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v208 main_v214 main_v215 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v220 main_v221 (mulf : (⟨S100000x128, .f32⟩ : BufTy).Contents (Elt F) → (⟨S100000x128, .f32⟩ : BufTy).Contents (Elt F) → (⟨S100000x128, .f32⟩ : BufTy).Contents (Elt F)),
    StableHlo.unary main_arg8 main_v222 ((extractStridedSlice S1x128 ![3, 0] · slices_S4x128_S1x128_3_0) : (⟨S4x128, .f32⟩ : BufTy).Contents (Elt F) → (⟨S1x128, .f32⟩ : BufTy).Contents (Elt F)),
    StableHlo.reshape main_v222 main_v223 rfl shapeCasts_S1x128_S128,
    StableHlo.unary main_v223 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v221 main_v225 main_v226 (mulf : (⟨S100000x128, .f32⟩ : BufTy).Contents (Elt F) → (⟨S100000x128, .f32⟩ : BufTy).Contents (Elt F) → (⟨S100000x128, .f32⟩ : BufTy).Contents (Elt F)),
    StableHlo.unary main_arg9 main_v227 ((extractStridedSlice S1x128 ![3, 0] · slices_S4x128_S1x128_3_0) : (⟨S4x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v226 main_v230 main_v231 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S100000x128 ![] bcast_S_S100000x128),
    StableHlo.TRef.binary (TRef.of main_v231 : TRef sig ⟨S100000x128, .f32⟩) main_call12.v0 main_call12.v1 (cmpf .oge),
    StableHlo.TRef.nullary main_call12.cst_0 (constant S_ .f32 0x3C23D70A#32),
    StableHlo.TRef.unary main_call12.cst_0 main_call12.v2 (broadcastInDim S100000x128 ![] bcast_S_S100000x128),
    StableHlo.TRef.binary main_call12.v2 (TRef.of main_v231 : TRef sig ⟨S100000x128, .f32⟩) main_call12.v3 mulf,
    StableHlo.TRef.ternary main_call12.v1 (TRef.of main_v231 : TRef sig ⟨S100000x128, .f32⟩) main_call12.v3 main_call12.call0.v0 select ]

/-- The references stage st_C3's operations write, in order. -/
abbrev W_st_C3 : List (Ref sig .tc) :=
  [main_cst_26, main_v209, main_cst_27, main_v210, main_v211, main_c_28, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v212, main_v213, main_v214, main_v215, main_cst_29, main_v216, main_v217, main_v218, main_v219, main_v220, main_v221, main_v222, main_v223, main_v224, main_v225, main_v226, main_v227, main_v228, main_v229, main_v230, main_v231, main_call12_cst, main_call12_v0, main_call12_v1, main_call12_cst_0, main_call12_v2, main_call12_v3, main_v232]

/-- Stage st_D: the operations up to the one that writes main_v246 (27 operations). -/
abbrev st_D : List (HloOp τ sig (Elt F)) :=
  [ StableHlo.nary ![main_v4, main_v61, main_v118, main_v175, main_v232] main_v233 (fun u => concatenate S100000x640 1 [⟨S100000x128, u 0⟩, ⟨S100000x128, u 1⟩, ⟨S100000x128, u 2⟩, ⟨S100000x128, u 3⟩, ⟨S100000x128, u 4⟩] concatenates_S100000x128_S100000x128_S100000x128_S100000x128_S100000x128_S100000x640_d1),
    StableHlo.nullary main_cst_30 (constant S_ .f32 0x00000000#32),
    StableHlo.unary main_cst_30 main_v234 (broadcastInDim S64x640 ![] bcast_S_S64x640 : (⟨S_, .f32⟩ : BufTy).Contents (Elt F) → (⟨S64x640, .f32⟩ : BufTy).Contents (Elt F)),
    StableHlo.unary main_arg2 main_v235 (broadcastInDim S100000x1 ![0] bcast_S100000_S100000x1_0 : (⟨S100000, .i32⟩ : BufTy).Contents (Elt F) → (⟨S100000x1, .i32⟩ : BufTy).Contents (Elt F)),
    StableHlo.ternary main_v234 main_v235 main_v233 main_v236 ((fun x i u => Host.scatterAdd scatter_S64x640_S100000x1_S100000x640_1_0_0_1 x i u) : (⟨S64x640, .f32⟩ : BufTy).Contents (Elt F) → (⟨S100000x1, .i32⟩ : BufTy).Contents (Elt F) → (⟨S100000x640, .f32⟩ : BufTy).Contents (Elt F) → (⟨S64x640, .f32⟩ : BufTy).Contents (Elt F)),
    StableHlo.TRef.nullary main_call13.cst (constant S_ .f32 0x00000000#32),
    StableHlo.TRef.unary main_call13.cst main_call13.v0 (broadcastInDim S64x640 ![] bcast_S_S64x640),
    StableHlo.TRef.binary (TRef.of main_v236 : TRef sig ⟨S64x640, .f32⟩) main_call13.v0 main_call13.v1 (cmpf .oge),
    StableHlo.TRef.nullary main_call13.cst_0 (constant S_ .f32 0x3C23D70A#32),
    StableHlo.TRef.unary main_call13.cst_0 main_call13.v2 (broadcastInDim S64x640 ![] bcast_S_S64x640),
    StableHlo.TRef.binary main_call13.v2 (TRef.of main_v236 : TRef sig ⟨S64x640, .f32⟩) main_call13.v3 mulf,
    StableHlo.TRef.ternary main_call13.v1 (TRef.of main_v236 : TRef sig ⟨S64x640, .f32⟩) main_call13.v3 main_call13.call0.v0 select,
    StableHlo.binary main_v237 main_arg10 main_v238 ((fun l r => Host.dotGeneral dot_S64x640_S640x256_S64x256_1_0_0_1_n_n none l r) : (⟨S64x640, .f32⟩ : BufTy).Contents (Elt F) → (⟨S640x256, .f32⟩ : BufTy).Contents (Elt F) → (⟨S64x256, .f32⟩ : BufTy).Contents (Elt F)),
    StableHlo.unary main_arg11 main_v239 (broadcastInDim S1x256 ![1] bcast_S256_S1x256_1 : (⟨S256, .f32⟩ : BufTy).Contents (Elt F) → (⟨S1x256, .f32⟩ : BufTy).Contents (Elt F)),
    StableHlo.unary main_v239 main_v240 (broadcastInDim S64x256 ![0, 1] bcast_S1x256_S64x256_0_1 : (⟨S1x256, .f32⟩ : BufTy).Contents (Elt F) → (⟨S64x256, .f32⟩ : BufTy).Contents (Elt F)),
    StableHlo.binary main_v238 main_v240 main_v241 (addf : (⟨S64x256, .f32⟩ : BufTy).Contents (Elt F) → (⟨S64x256, .f32⟩ : BufTy).Contents (Elt F) → (⟨S64x256, .f32⟩ : BufTy).Contents (Elt F)),
    StableHlo.TRef.nullary main_call14.cst (constant S_ .f32 0x00000000#32),
    StableHlo.TRef.unary main_call14.cst main_call14.v0 (broadcastInDim S64x256 ![] bcast_S_S64x256),
    StableHlo.TRef.binary (TRef.of main_v241 : TRef sig ⟨S64x256, .f32⟩) main_call14.v0 main_call14.v1 (cmpf .oge),
    StableHlo.TRef.nullary main_call14.cst_0 (constant S_ .f32 0x3C23D70A#32),
    StableHlo.TRef.unary main_call14.cst_0 main_call14.v2 (broadcastInDim S64x256 ![] bcast_S_S64x256),
    StableHlo.TRef.binary main_call14.v2 (TRef.of main_v241 : TRef sig ⟨S64x256, .f32⟩) main_call14.v3 mulf,
    StableHlo.TRef.ternary main_call14.v1 (TRef.of main_v241 : TRef sig ⟨S64x256, .f32⟩) main_call14.v3 main_call14.call0.v0 select,
    StableHlo.binary main_v242 main_arg12 main_v243 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    StableHlo.unary main_arg13 main_v244 (broadcastInDim S1x10 ![1] bcast_S10_S1x10_1 : (⟨S10, .f32⟩ : BufTy).Contents (Elt F) → (⟨S1x10, .f32⟩ : BufTy).Contents (Elt F)),
    StableHlo.unary main_v244 main_v245 (broadcastInDim S64x10 ![0, 1] bcast_S1x10_S64x10_0_1 : (⟨S1x10, .f32⟩ : BufTy).Contents (Elt F) → (⟨S64x10, .f32⟩ : BufTy).Contents (Elt F)),
    StableHlo.binary main_v243 main_v245 main_v246 (addf : (⟨S64x10, .f32⟩ : BufTy).Contents (Elt F) → (⟨S64x10, .f32⟩ : BufTy).Contents (Elt F) → (⟨S64x10, .f32⟩ : BufTy).Contents (Elt F)) ]

/-- The references stage st_D's operations write, in order. -/
abbrev W_st_D : List (Ref sig .tc) :=
  [main_v233, main_cst_30, main_v234, main_v235, main_v236, main_call13_cst, main_call13_v0, main_call13_v1, main_call13_cst_0, main_call13_v2, main_call13_v3, main_v237, main_v238, main_v239, main_v240, main_v241, main_call14_cst, main_call14_v0, main_call14_v1, main_call14_cst_0, main_call14_v2, main_call14_v3, main_v242, main_v243, main_v244, main_v245, main_v246]

end Cert.ReferenceIdeal.Hand

end
-- ==== Proof.Ref.Seq.lean ====
/- The reference program's @main as ONE straight line of host operations.

   @main is printed in five windows (main_part0 … main_part4) and calls module-local functions: the one-hot
   embedding, leaky_relu (and the select it calls), the variance (and the select it calls). A call is its callee's
   body on the caller's operands over the call's own buffers, so each window is a list of operations (Ref/Ops.lean:
   the callee's operations stand where the call stood), and @main is the five lists one after the other.
   The same 429 operations are also cut where the network's stages end (Ref/Stages.lean): the edge lists and the
   one-hot features; per layer the neighbour sum, the two-layer perceptron, the batch normalisation with its
   activation; the readout. Every operation writes exactly its own result buffer, so a stage leaves every buffer
   outside its own list of results as it found it. -/
import proofs.«116561_j3624952397847_1_alg».proof.Proof.Ref.Ops
import proofs.«116561_j3624952397847_1_alg».proof.Proof.Ref.Stages
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 429 operations, in order: the five windows one after the other. -/
abbrev ops : List (HloOp τ sig (Elt F)) :=
  ops_part0 ++ (ops_part1 ++ (ops_part2 ++ (ops_part3 ++ (ops_part4))))

/-- The same operations, stage after stage. -/
abbrev stages : List (HloOp τ sig (Elt F)) :=
  st_P ++ (st_A0 ++ (st_B0 ++ (st_C0 ++ (st_A1 ++ (st_B1 ++ (st_C1 ++ (st_A2 ++ (st_B2 ++ (st_C2 ++ (st_A3 ++ (st_B3 ++ (st_C3 ++ (st_D)))))))))))))

/-! ## Each window is its list

Unfolding a call substitutes the callee's body; both sides are then one chain of steps, equal once sequencing is
associated to the right. -/

set_option maxRecDepth 16384 in
theorem main_part0_eq (c : Dev nD) : main_part0 (F := F) c = seq ops_part0 := by
  simp only [main_part0, fn_one_hot.body, fn_leaky_relu.body, fn_where.body, fn_var.body, fn_where_0.body, seq, bind_assoc, pure_bind]
  rfl

set_option maxRecDepth 16384 in
theorem main_part1_eq (c : Dev nD) : main_part1 (F := F) c = seq ops_part1 := by
  simp only [main_part1, fn_leaky_relu.body, fn_where.body, fn_var.body, fn_where_0.body, seq, bind_assoc, pure_bind]
  rfl

set_option maxRecDepth 16384 in
theorem main_part2_eq (c : Dev nD) : main_part2 (F := F) c = seq ops_part2 := by
  simp only [main_part2, fn_leaky_relu.body, fn_where.body, fn_var.body, fn_where_0.body, seq, bind_assoc, pure_bind]
  rfl

set_option maxRecDepth 16384 in
theorem main_part3_eq (c : Dev nD) : main_part3 (F := F) c = seq ops_part3 := by
  simp only [main_part3, fn_leaky_relu.body, fn_where.body, seq, bind_assoc, pure_bind]
  rfl

set_option maxRecDepth 16384 in
theorem main_part4_eq (c : Dev nD) : main_part4 (F := F) c = seq ops_part4 := by
  simp only [main_part4, fn_var.body, fn_where_0.body, fn_leaky_relu.body, fn_where.body, fn_leaky_relu_1.body, fn_where_2.body, fn_leaky_relu_3.body, fn_where_4.body, seq, bind_assoc, pure_bind]

set_option maxRecDepth 16384 in
/-- @main is the line of its operations. -/
theorem main_eq (c : Dev nD) : main (F := F) c = seq ops := by
  simp only [ops, seq_append, ← main_part0_eq c, ← main_part1_eq c, ← main_part2_eq c, ← main_part3_eq c, ← main_part4_eq c]
  rfl

set_option maxRecDepth 16384 in
/-- Cutting the line at the stages instead of at the windows gives the same list: appending literal lists. -/
theorem ops_eq_stages : (ops : List (HloOp τ sig (Elt F))) = stages := by
  simp only [ops, stages, List.cons_append, List.nil_append]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.StageFacts.lean ====
/- What every stage's list has in common: its operations touch TensorCore references only, none of them leaves its
   result undetermined, and each writes exactly its own result reference — a member of the stage's list of results.
   Hence a stage leaves any buffer outside that list as it found it. One command states the four facts for a stage. -/
import proofs.«116561_j3624952397847_1_alg».proof.Proof.Ref.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-- For the literal list st with result references W: every operation's buffers are TensorCore references (sub);
    every operation determines its result (fresh); every operation writes a member of W (writes); a reference
    outside W keeps its contents through the list (keep). A statement about every operation of a literal list is
    the conjunction of its instances, one goal each. -/
macro "stage_facts " st:ident W:ident " => " sub:ident fresh:ident writes:ident keep:ident : command => `(
  set_option maxRecDepth 8192 in
  theorem $sub {F : FTy → Type} [FloatOps F] : ($st : List (HloOp τ sig (Elt F))).Forall fun op => op.bufs ⊆ tcRefs τ sig := by
    simp only [List.Forall, nullary_bufs_sub, unary_bufs_sub, binary_bufs_sub, ternary_bufs_sub, reshape_bufs_sub, nary_bufs_sub, and_self]
  set_option maxRecDepth 8192 in
  theorem $fresh {F : FTy → Type} [FloatOps F] : ($st : List (HloOp τ sig (Elt F))).Forall fun op => op.fresh = ∅ := by
    simp only [List.Forall]
    repeat' apply And.intro
    all_goals rfl
  set_option maxRecDepth 8192 in
  theorem $writes {F : FTy → Type} [FloatOps F] :
      ($st : List (HloOp τ sig (Elt F))).Forall fun op => op.writes ⊆ (($W).map (Proc.devRef (τ := τ) .tc)).toFinset := by
    simp only [List.Forall]
    repeat' apply And.intro
    all_goals (simp only [nullary_writes, unary_writes, binary_writes, ternary_writes, reshape_writes, nary_writes, Finset.singleton_subset_iff, List.mem_toFinset]; exact List.mem_map_of_mem (by decide))
  theorem $keep {F : FTy → Type} [FloatOps F] (V : Valuation τ sig (Elt F)) (r : Ref sig .tc) (h : r ∉ $W) :
      after $st V (no_index (Proc.devRef .tc r)) = V (Proc.devRef .tc r) :=
    after_of_writes_sub $st V $writes h)

stage_facts st_P W_st_P => stP_sub stP_fresh stP_writes stP_keep
stage_facts st_A0 W_st_A0 => stA0_sub stA0_fresh stA0_writes stA0_keep
stage_facts st_B0 W_st_B0 => stB0_sub stB0_fresh stB0_writes stB0_keep
stage_facts st_C0 W_st_C0 => stC0_sub stC0_fresh stC0_writes stC0_keep
stage_facts st_A1 W_st_A1 => stA1_sub stA1_fresh stA1_writes stA1_keep
stage_facts st_B1 W_st_B1 => stB1_sub stB1_fresh stB1_writes stB1_keep
stage_facts st_C1 W_st_C1 => stC1_sub stC1_fresh stC1_writes stC1_keep
stage_facts st_A2 W_st_A2 => stA2_sub stA2_fresh stA2_writes stA2_keep
stage_facts st_B2 W_st_B2 => stB2_sub stB2_fresh stB2_writes stB2_keep
stage_facts st_C2 W_st_C2 => stC2_sub stC2_fresh stC2_writes stC2_keep
stage_facts st_A3 W_st_A3 => stA3_sub stA3_fresh stA3_writes stA3_keep
stage_facts st_B3 W_st_B3 => stB3_sub stB3_fresh stB3_writes stB3_keep
stage_facts st_C3 W_st_C3 => stC3_sub stC3_fresh stC3_writes stC3_keep
stage_facts st_D W_st_D => stD_sub stD_fresh stD_writes stD_keep

end Cert.ReferenceIdeal.Hand

end
-- ==== Proof.Ref.Frame.lean ====
/- The run of the reference program at the level of the frame: @main terminates and its fourteen arguments hold
   at the end what they held at launch.

   @main is a straight line of operations on TensorCore buffers, none scoped, none left undetermined
   (Ref/Seq.lean, Ref/StageFacts.lean); so every weakly fair execution terminates with every buffer at the
   fold of the operations' results over the launch contents. No stage writes an argument: the fold leaves it. -/
import proofs.«116561_j3624952397847_1_alg».proof.Proof.Ref.Seq
import proofs.«116561_j3624952397847_1_alg».proof.Proof.Ref.StageFacts

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What holds of every member of two lists holds of every member of the one after the other. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation of @main touches TensorCore references only. -/
theorem ops_sub : (ops : List (HloOp τ sig (Elt F))).Forall fun op => op.bufs ⊆ tcRefs τ sig := by
  rw [ops_eq_stages]
  exact forall_append stP_sub (forall_append stA0_sub (forall_append stB0_sub (forall_append stC0_sub (forall_append stA1_sub (forall_append stB1_sub (forall_append stC1_sub (forall_append stA2_sub (forall_append stB2_sub (forall_append stC2_sub (forall_append stA3_sub (forall_append stB3_sub (forall_append stC3_sub (stD_sub)))))))))))))

/-- Every operation of @main determines its result. -/
theorem ops_fresh : ∀ op ∈ (ops : List (HloOp τ sig (Elt F))), op.fresh = ∅ := by
  rw [ops_eq_stages]
  exact List.forall_iff_forall_mem.mp (forall_append stP_fresh (forall_append stA0_fresh (forall_append stB0_fresh (forall_append stC0_fresh (forall_append stA1_fresh (forall_append stB1_fresh (forall_append stC1_fresh (forall_append stA2_fresh (forall_append stB2_fresh (forall_append stC2_fresh (forall_append stA3_fresh (forall_append stB3_fresh (forall_append stC3_fresh (stD_fresh))))))))))))))

/-- A reference that no stage writes holds after @main what it held before. -/
theorem after_ops_keep (V0 : Valuation τ sig (Elt F)) (r : Ref sig .tc)
    (hP : r ∉ W_st_P) (hA0 : r ∉ W_st_A0) (hB0 : r ∉ W_st_B0) (hC0 : r ∉ W_st_C0) (hA1 : r ∉ W_st_A1) (hB1 : r ∉ W_st_B1) (hC1 : r ∉ W_st_C1) (hA2 : r ∉ W_st_A2) (hB2 : r ∉ W_st_B2) (hC2 : r ∉ W_st_C2) (hA3 : r ∉ W_st_A3) (hB3 : r ∉ W_st_B3) (hC3 : r ∉ W_st_C3) (hD : r ∉ W_st_D) :
    after ops V0 (Proc.devRef .tc r) = V0 (Proc.devRef .tc r) := by
  rw [ops_eq_stages]
  simp only [stages, after_append]
  rw [stD_keep _ r hD, stC3_keep _ r hC3, stB3_keep _ r hB3, stA3_keep _ r hA3, stC2_keep _ r hC2, stB2_keep _ r hB2, stA2_keep _ r hA2, stC1_keep _ r hC1, stB1_keep _ r hB1, stA1_keep _ r hA1, stC0_keep _ r hC0, stB0_keep _ r hB0, stA0_keep _ r hA0, stP_keep _ r hP]

/-- On every device, for any float values, from any memory with zero counters: every weakly fair execution of @main
    terminates, and every TensorCore buffer ends at the fold of the operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- An argument of @main is among no stage's results. -/
macro "arg_unchanged" : tactic =>
  `(tactic| exact after_ops_keep _ _ (by decide) (by decide) (by decide) (by decide) (by decide) (by decide) (by decide)
      (by decide) (by decide) (by decide) (by decide) (by decide) (by decide) (by decide))

/-- The frame: every weakly fair execution of @main terminates with the fourteen arguments unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_arg0).trans (by arg_unchanged),
      (h c main_arg1).trans (by arg_unchanged),
      (h c main_arg2).trans (by arg_unchanged),
      (h c main_arg3).trans (by arg_unchanged),
      (h c main_arg4).trans (by arg_unchanged),
      (h c main_arg5).trans (by arg_unchanged),
      (h c main_arg6).trans (by arg_unchanged),
      (h c main_arg7).trans (by arg_unchanged),
      (h c main_arg8).trans (by arg_unchanged),
      (h c main_arg9).trans (by arg_unchanged),
      (h c main_arg10).trans (by arg_unchanged),
      (h c main_arg11).trans (by arg_unchanged),
      (h c main_arg12).trans (by arg_unchanged),
      (h c main_arg13).trans (by arg_unchanged)⟩)
    (run_fold m ρ)

end Cert.ReferenceIdeal.Hand

end
-- ==== Proof.Ref.Terms.lean ====
/- The reference network as pure functions of arrays: a four-layer graph isomorphism network.

   Node features start as the one-hot rows of the node degrees. A layer sums, into each node, the features of the
   sources of its incoming edges (gather the source rows, add them into the destination rows), forms
   (1 + eps) · h + sum, applies a two-layer perceptron (matrix, bias, leaky rectifier, matrix, bias), normalises each
   column over all nodes (subtract the column mean, multiply by the reciprocal square root of the column variance
   plus a small constant, scale, shift) and applies the leaky rectifier. The readout lays the five feature tables
   side by side, sums the rows of each graph, applies the leaky rectifier, and a two-layer classifier.
   Each function below is written with the same operations, in the same order, as the program's lines. -/
import proofs.«116561_j3624952397847_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-! ## The edge lists and the first features -/

/-- The source node of every edge: row 0 of the edge table, as a vector. -/
def edgeSrc (e : IVec S2x1600000 32) : IVec S1600000 32 :=
  shapeCast S1600000 (extractStridedSlice S1x1600000 ![0, 0] e slices_S2x1600000_S1x1600000_0_0) shapeCasts_S1x1600000_S1600000

/-- The destination node of every edge: row 1 of the edge table, as a vector. -/
def edgeDst (e : IVec S2x1600000 32) : IVec S1600000 32 :=
  shapeCast S1600000 (extractStridedSlice S1x1600000 ![1, 0] e slices_S2x1600000_S1x1600000_1_0) shapeCasts_S1x1600000_S1600000

/-- The one-hot rows of the node degrees: entry (n, j) is one where degree n equals j, else zero. -/
def oneHot (d : IVec S100000 32) : FVec F S100000x128 .f32 :=
  uitofp .f32 (cmpi .eq
    (broadcastInDim S100000x128 ![0, 1] bcast_S100000x1_S100000x128_0_1 (broadcastInDim S100000x1 ![0] bcast_S100000_S100000x1_0 d))
    (broadcastInDim S100000x128 ![0, 1] bcast_S1x128_S100000x128_0_1 (iotaInDim S1x128 32 1)))

/-! ## A layer's pieces -/

/-- A row index below zero counts from the end: 100000 is added to it. -/
def wrapIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The neighbour sum: from a table of zeros, row dst(k) gains row src(k) of h, for every edge k. -/
def aggregate (h : FVec F S100000x128 .f32) (s d : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0 (wrapIdx s)))

/-- The leaky rectifier at any shape: x where x ≥ 0, else 0.01 · x (the constant is the float nearest 0.01). -/
def lrelu {s : Shape} (hb : S_.BroadcastsInDim s (![] : Fin 0 → Fin s.rank)) (x : FVec F s .f32) : FVec F s .f32 :=
  select (cmpf .oge x (broadcastInDim s ![] hb (constant S_ .f32 0x00000000#32))) x
    (mulf (broadcastInDim s ![] hb (constant S_ .f32 0x3C23D70A#32)) x)

/-- A vector of 128 entries laid along every one of the 100000 rows. -/
def rows (v : FVec F S128 .f32) : FVec F S100000x128 .f32 :=
  broadcastInDim S100000x128 ![0, 1] bcast_S1x128_S100000x128_0_1 (broadcastInDim S1x128 ![1] bcast_S128_S1x128_1 v)

/-- A one-row table as its row. -/
def vec (r : FVec F S1x128 .f32) : FVec F S128 .f32 := shapeCast S128 r shapeCasts_S1x128_S128

/-- A one-page stack of matrices as its page. -/
def mat (w : FVec F S1x128x128 .f32) : FVec F S128x128 .f32 := shapeCast S128x128 w shapeCasts_S1x128x128_S128x128

/-- The perceptron on (1 + eps) · h + sum: matrix w1, bias c1, leaky rectifier, matrix w2, bias c2. -/
def mlp (e : FVec F S1 .f32) (w1 : FVec F S1x128x128 .f32) (c1 : FVec F S1x128 .f32) (w2 : FVec F S1x128x128 .f32)
    (c2 : FVec F S1x128 .f32) (h g : FVec F S100000x128 .f32) : FVec F S100000x128 .f32 :=
  addf (Host.dotGeneral dot_S100000x128_S128x128_S100000x128_1_0_0_1_n_n none
      (lrelu bcast_S_S100000x128
        (addf (Host.dotGeneral dot_S100000x128_S128x128_S100000x128_1_0_0_1_n_n none
            (addf (mulf (broadcastInDim S100000x128 ![] bcast_S_S100000x128
                (addf (constant S_ .f32 0x3F800000#32) (shapeCast S_ e shapeCasts_S1_S_))) h) g)
            (mat w1))
          (rows (vec c1))))
      (mat w2))
    (rows (vec c2))

/-- The mean of every column over the 100000 rows. -/
def colMean (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

/-- x with its column means subtracted, the means computed as a one-row table (the variance's own centring). -/
def centred (x : FVec F S100000x128 .f32) : FVec F S100000x128 .f32 :=
  subf x (broadcastInDim S100000x128 ![0, 1] bcast_S1x128_S100000x128_0_1
    (Host.divf (broadcastInDim S1x128 ![1] bcast_S128_S1x128_1
        (Host.reduceAdd x (constant S_ .f32 0x00000000#32) reducesTo_S100000x128_S128_d0 h_S_))
      (broadcastInDim S1x128 ![] bcast_S_S1x128 (constant S_ .f32 0x47C35000#32))))

/-- The variance's divisor: the row count 100000 less the correction 0. -/
def varCount : FVec F S_ .f32 := subf (constant S_ .f32 0x47C35000#32) (sitofp .f32 (constantI S_ 32 0#32))

/-- The biased variance of every column: the mean square of the centred entries where the divisor is positive,
    else not-a-number. -/
def colVar (x : FVec F S100000x128 .f32) : FVec F S128 .f32 :=
  select (broadcastInDim S128 ![] bcast_S_S128 (cmpf .ogt (varCount (F := F)) (constant S_ .f32 0x00000000#32)))
    (Host.divf (Host.reduceAdd (mulf (centred x) (centred x)) (constant S_ .f32 0x00000000#32) reducesTo_S100000x128_S128_d0 h_S_)
      (broadcastInDim S128 ![] bcast_S_S128 (varCount (F := F))))
    (broadcastInDim S128 ![] bcast_S_S128 (constant S_ .f32 0x7FC00000#32))

/-- Batch normalisation over the rows with scale g and shift b, then the leaky rectifier. -/
def bnAct (g b : FVec F S1x128 .f32) (x : FVec F S100000x128 .f32) : FVec F S100000x128 .f32 :=
  lrelu bcast_S_S100000x128
    (addf (mulf (mulf (subf x (rows (colMean x)))
          (rows (Host.rsqrt (addf (colVar x) (broadcastInDim S128 ![] bcast_S_S128 (constant S_ .f32 0x3727C5AC#32))))))
        (rows (vec g)))
      (rows (vec b)))

/-! ## The readout -/

/-- The five feature tables side by side: 640 columns. -/
def concat5 (x0 x1 x2 x3 x4 : FVec F S100000x128 .f32) : FVec F S100000x640 .f32 :=
  concatenate S100000x640 1 [⟨S100000x128, x0⟩, ⟨S100000x128, x1⟩, ⟨S100000x128, x2⟩, ⟨S100000x128, x3⟩, ⟨S100000x128, x4⟩]
    concatenates_S100000x128_S100000x128_S100000x128_S100000x128_S100000x128_S100000x640_d1

/-- The pooled rows: from a table of zeros, row graph(n) gains row n of z, for every node n. -/
def pool (b : IVec S100000 32) (z : FVec F S100000x640 .f32) : FVec F S64x640 .f32 :=
  Host.scatterAdd scatter_S64x640_S100000x1_S100000x640_1_0_0_1
    (broadcastInDim S64x640 ![] bcast_S_S64x640 (constant S_ .f32 0x00000000#32))
    (broadcastInDim S100000x1 ![0] bcast_S100000_S100000x1_0 b) z

/-- The classifier on the pooled rows: leaky rectifier, matrix w1, bias c1, leaky rectifier, matrix w2, bias c2. -/
def classify (w1 : FVec F S640x256 .f32) (c1 : FVec F S256 .f32) (w2 : FVec F S256x10 .f32) (c2 : FVec F S10 .f32)
    (p : FVec F S64x640 .f32) : FVec F S64x10 .f32 :=
  addf (Host.dotGeneral dot_S64x256_S256x10_S64x10_1_0_0_1_n_n none
      (lrelu bcast_S_S64x256
        (addf (Host.dotGeneral dot_S64x640_S640x256_S64x256_1_0_0_1_n_n none (lrelu bcast_S_S64x640 p) w1)
          (broadcastInDim S64x256 ![0, 1] bcast_S1x256_S64x256_0_1 (broadcastInDim S1x256 ![1] bcast_S256_S1x256_1 c1))))
      w2)
    (broadcastInDim S64x10 ![0, 1] bcast_S1x10_S64x10_0_1 (broadcastInDim S1x10 ![1] bcast_S10_S1x10_1 c2))

/-- The readout of five feature tables. -/
def readout (x0 x1 x2 x3 x4 : FVec F S100000x128 .f32) (b : IVec S100000 32) (w1 : FVec F S640x256 .f32) (c1 : FVec F S256 .f32)
    (w2 : FVec F S256x10 .f32) (c2 : FVec F S10 .f32) : FVec F S64x10 .f32 :=
  classify w1 c1 w2 c2 (pool b (concat5 x0 x1 x2 x3 x4))

end Cert.ReferenceIdeal.Hand

end
-- ==== Proof.Ref.Net.lean ====
/- The reference network's named intermediates and its result, as pure terms of the fourteen argument arrays:
   a0 node degrees, a1 edge table (row 0 sources, row 1 destinations), a2 the graph of every node, a3 the layers' eps,
   a4 a5 the first matrices and biases, a6 a7 the second, a8 a9 the normalisation's scales and shifts,
   a10 a11 a12 a13 the classifier's matrices and biases. Built from the pieces of Ref/Terms.lean. -/
import proofs.«116561_j3624952397847_1_alg».proof.Proof.Ref.Terms

noncomputable section

namespace Cert.ReferenceIdeal.Hand

open Cert.ReferenceIdeal Cert.ReferenceIdeal.Gen Idealize.ShloMosaic Idealize.SL.Sem

variable {F : FTy → Type} [FloatOps F]

/-! ## A layer's parameters, cut out of the stacked arrays -/

/-- Layer 0's entry of a stacked vector of four scalars. -/
def eps0 (a : FVec F S4 .f32) : FVec F S1 .f32 := extractStridedSlice S1 ![0] a slices_S4_S1_0
/-- Layer 0's page of a stack of four matrices. -/
def page0 (a : FVec F S4x128x128 .f32) : FVec F S1x128x128 .f32 := extractStridedSlice S1x128x128 ![0, 0, 0] a slices_S4x128x128_S1x128x128_0_0_0
/-- Layer 0's row of a table of four rows. -/
def row0 (a : FVec F S4x128 .f32) : FVec F S1x128 .f32 := extractStridedSlice S1x128 ![0, 0] a slices_S4x128_S1x128_0_0

/-- Layer 1's entry of a stacked vector of four scalars. -/
def eps1 (a : FVec F S4 .f32) : FVec F S1 .f32 := extractStridedSlice S1 ![1] a slices_S4_S1_1
/-- Layer 1's page of a stack of four matrices. -/
def page1 (a : FVec F S4x128x128 .f32) : FVec F S1x128x128 .f32 := extractStridedSlice S1x128x128 ![1, 0, 0] a slices_S4x128x128_S1x128x128_1_0_0
/-- Layer 1's row of a table of four rows. -/
def row1 (a : FVec F S4x128 .f32) : FVec F S1x128 .f32 := extractStridedSlice S1x128 ![1, 0] a slices_S4x128_S1x128_1_0

/-- Layer 2's entry of a stacked vector of four scalars. -/
def eps2 (a : FVec F S4 .f32) : FVec F S1 .f32 := extractStridedSlice S1 ![2] a slices_S4_S1_2
/-- Layer 2's page of a stack of four matrices. -/
def page2 (a : FVec F S4x128x128 .f32) : FVec F S1x128x128 .f32 := extractStridedSlice S1x128x128 ![2, 0, 0] a slices_S4x128x128_S1x128x128_2_0_0
/-- Layer 2's row of a table of four rows. -/
def row2 (a : FVec F S4x128 .f32) : FVec F S1x128 .f32 := extractStridedSlice S1x128 ![2, 0] a slices_S4x128_S1x128_2_0

/-- Layer 3's entry of a stacked vector of four scalars. -/
def eps3 (a : FVec F S4 .f32) : FVec F S1 .f32 := extractStridedSlice S1 ![3] a slices_S4_S1_3
/-- Layer 3's page of a stack of four matrices. -/
def page3 (a : FVec F S4x128x128 .f32) : FVec F S1x128x128 .f32 := extractStridedSlice S1x128x128 ![3, 0, 0] a slices_S4x128x128_S1x128x128_3_0_0
/-- Layer 3's row of a table of four rows. -/
def row3 (a : FVec F S4x128 .f32) : FVec F S1x128 .f32 := extractStridedSlice S1x128 ![3, 0] a slices_S4x128_S1x128_3_0

/-! ## The network -/

section Net

variable (a0 : IVec S100000 32) (a1 : IVec S2x1600000 32) (a2 : IVec S100000 32) (a3 : FVec F S4 .f32)
  (a4 : FVec F S4x128x128 .f32) (a5 : FVec F S4x128 .f32) (a6 : FVec F S4x128x128 .f32) (a7 : FVec F S4x128 .f32)
  (a8 : FVec F S4x128 .f32) (a9 : FVec F S4x128 .f32) (a10 : FVec F S640x256 .f32) (a11 : FVec F S256 .f32)
  (a12 : FVec F S256x10 .f32) (a13 : FVec F S10 .f32)

/-- The first features: the one-hot rows of the degrees (main_v4). -/
def h0 : FVec F S100000x128 .f32 := oneHot a0

/-- Layer 0's neighbour sums (main_v14). -/
def agg0 : FVec F S100000x128 .f32 := aggregate (h0 (F := F) a0) (edgeSrc a1) (edgeDst a1)
/-- Layer 0's rows before normalisation (main_v37). -/
def pre0 : FVec F S100000x128 .f32 :=
  mlp (eps0 a3) (page0 a4) (row0 a5) (page0 a6) (row0 a7) (h0 a0) (agg0 a0 a1)
/-- Layer 0's output (main_v61). -/
def h1 : FVec F S100000x128 .f32 := bnAct (row0 a8) (row0 a9) (pre0 a0 a1 a3 a4 a5 a6 a7)

/-- Layer 1's neighbour sums (main_v71). -/
def agg1 : FVec F S100000x128 .f32 := aggregate (h1 a0 a1 a3 a4 a5 a6 a7 a8 a9) (edgeSrc a1) (edgeDst a1)
/-- Layer 1's rows before normalisation (main_v94). -/
def pre1 : FVec F S100000x128 .f32 :=
  mlp (eps1 a3) (page1 a4) (row1 a5) (page1 a6) (row1 a7) (h1 a0 a1 a3 a4 a5 a6 a7 a8 a9) (agg1 a0 a1 a3 a4 a5 a6 a7 a8 a9)
/-- Layer 1's output (main_v118). -/
def h2 : FVec F S100000x128 .f32 := bnAct (row1 a8) (row1 a9) (pre1 a0 a1 a3 a4 a5 a6 a7 a8 a9)

/-- Layer 2's neighbour sums (main_v128). -/
def agg2 : FVec F S100000x128 .f32 := aggregate (h2 a0 a1 a3 a4 a5 a6 a7 a8 a9) (edgeSrc a1) (edgeDst a1)
/-- Layer 2's rows before normalisation (main_v151). -/
def pre2 : FVec F S100000x128 .f32 :=
  mlp (eps2 a3) (page2 a4) (row2 a5) (page2 a6) (row2 a7) (h2 a0 a1 a3 a4 a5 a6 a7 a8 a9) (agg2 a0 a1 a3 a4 a5 a6 a7 a8 a9)
/-- Layer 2's output (main_v175). -/
def h3 : FVec F S100000x128 .f32 := bnAct (row2 a8) (row2 a9) (pre2 a0 a1 a3 a4 a5 a6 a7 a8 a9)

/-- Layer 3's neighbour sums (main_v185). -/
def agg3 : FVec F S100000x128 .f32 := aggregate (h3 a0 a1 a3 a4 a5 a6 a7 a8 a9) (edgeSrc a1) (edgeDst a1)
/-- Layer 3's rows before normalisation (main_v208). -/
def pre3 : FVec F S100000x128 .f32 :=
  mlp (eps3 a3) (page3 a4) (row3 a5) (page3 a6) (row3 a7) (h3 a0 a1 a3 a4 a5 a6 a7 a8 a9) (agg3 a0 a1 a3 a4 a5 a6 a7 a8 a9)
/-- Layer 3's output (main_v232). -/
def h4 : FVec F S100000x128 .f32 := bnAct (row3 a8) (row3 a9) (pre3 a0 a1 a3 a4 a5 a6 a7 a8 a9)

/-- The five feature tables side by side (main_v233). -/
def cat : FVec F S100000x640 .f32 := concat5 (h0 a0) (h1 a0 a1 a3 a4 a5 a6 a7 a8 a9) (h2 a0 a1 a3 a4 a5 a6 a7 a8 a9) (h3 a0 a1 a3 a4 a5 a6 a7 a8 a9) (h4 a0 a1 a3 a4 a5 a6 a7 a8 a9)
/-- The pooled rows: every graph's sum of its nodes' rows (main_v236). -/
def pooled : FVec F S64x640 .f32 := pool a2 (cat a0 a1 a3 a4 a5 a6 a7 a8 a9)
/-- The result (main_v246): the classifier on the pooled rows. -/
def refOut : FVec F S64x10 .f32 := classify a10 a11 a12 a13 (pooled a0 a1 a2 a3 a4 a5 a6 a7 a8 a9)

end Net

end Cert.ReferenceIdeal.Hand

end
-- ==== Proof.Ref.Val.lean ====
/- The value of the reference program's result: main_v246 ends at the network's term refOut of the launch contents
   of the fourteen arguments.

   Stage by stage. A stage's list, run from ANY contents V, leaves its result buffer at the stage's function of V at
   the buffers the stage reads: the fold over the list rewrites each operation's result at its own buffer to its
   function's value and at any other buffer to what was there, and what is left is the function of Ref/Terms.lean,
   written with the same operations. @main is the stages one after the other; reading main_v246 back through them —
   a stage's result by its lemma, any other buffer unchanged through the stage — composes the stages' functions
   into refOut (Ref/Net.lean). -/
import proofs.«116561_j3624952397847_1_alg».proof.Proof.Ref.Frame
import proofs.«116561_j3624952397847_1_alg».proof.Proof.Ref.Net

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each stage's result, from any contents -/

set_option maxRecDepth 8192 in
theorem stP_v1 (V : Valuation τ sig (Elt F)) :
    after st_P V (no_index (Proc.devRef .tc main_v1))
      = edgeSrc (V (Proc.devRef .tc main_arg1)) := by
  simp only [st_P]
  after_results_simp
  rfl

set_option maxRecDepth 8192 in
theorem stP_v3 (V : Valuation τ sig (Elt F)) :
    after st_P V (no_index (Proc.devRef .tc main_v3))
      = edgeDst (V (Proc.devRef .tc main_arg1)) := by
  simp only [st_P]
  after_results_simp
  rfl

set_option maxRecDepth 8192 in
theorem stP_v4 (V : Valuation τ sig (Elt F)) :
    after st_P V (no_index (Proc.devRef .tc main_v4))
      = oneHot (V (Proc.devRef .tc main_arg0)) := by
  simp only [st_P]
  after_results_simp
  rfl

set_option maxRecDepth 8192 in
theorem stA0_out (V : Valuation τ sig (Elt F)) :
    after st_A0 V (no_index (Proc.devRef .tc main_v14))
      = aggregate (V (Proc.devRef .tc main_v4)) (V (Proc.devRef .tc main_v1)) (V (Proc.devRef .tc main_v3)) := by
  simp only [st_A0]
  after_results_simp
  rfl

set_option maxRecDepth 8192 in
theorem stB0_out (V : Valuation τ sig (Elt F)) :
    after st_B0 V (no_index (Proc.devRef .tc main_v37))
      = mlp (eps0 (V (Proc.devRef .tc main_arg3))) (page0 (V (Proc.devRef .tc main_arg4))) (row0 (V (Proc.devRef .tc main_arg5))) (page0 (V (Proc.devRef .tc main_arg6)))
          (row0 (V (Proc.devRef .tc main_arg7))) (V (Proc.devRef .tc main_v4)) (V (Proc.devRef .tc main_v14)) := by
  simp only [st_B0]
  after_results_simp
  rfl

set_option maxRecDepth 8192 in
theorem stC0_out (V : Valuation τ sig (Elt F)) :
    after st_C0 V (no_index (Proc.devRef .tc main_v61))
      = bnAct (row0 (V (Proc.devRef .tc main_arg8))) (row0 (V (Proc.devRef .tc main_arg9))) (V (Proc.devRef .tc main_v37)) := by
  simp only [st_C0]
  after_results_simp
  rfl

set_option maxRecDepth 8192 in
theorem stA1_out (V : Valuation τ sig (Elt F)) :
    after st_A1 V (no_index (Proc.devRef .tc main_v71))
      = aggregate (V (Proc.devRef .tc main_v61)) (V (Proc.devRef .tc main_v1)) (V (Proc.devRef .tc main_v3)) := by
  simp only [st_A1]
  after_results_simp
  rfl

set_option maxRecDepth 8192 in
theorem stB1_out (V : Valuation τ sig (Elt F)) :
    after st_B1 V (no_index (Proc.devRef .tc main_v94))
      = mlp (eps1 (V (Proc.devRef .tc main_arg3))) (page1 (V (Proc.devRef .tc main_arg4))) (row1 (V (Proc.devRef .tc main_arg5))) (page1 (V (Proc.devRef .tc main_arg6)))
          (row1 (V (Proc.devRef .tc main_arg7))) (V (Proc.devRef .tc main_v61)) (V (Proc.devRef .tc main_v71)) := by
  simp only [st_B1]
  after_results_simp
  rfl

set_option maxRecDepth 8192 in
theorem stC1_out (V : Valuation τ sig (Elt F)) :
    after st_C1 V (no_index (Proc.devRef .tc main_v118))
      = bnAct (row1 (V (Proc.devRef .tc main_arg8))) (row1 (V (Proc.devRef .tc main_arg9))) (V (Proc.devRef .tc main_v94)) := by
  simp only [st_C1]
  after_results_simp
  rfl

set_option maxRecDepth 8192 in
theorem stA2_out (V : Valuation τ sig (Elt F)) :
    after st_A2 V (no_index (Proc.devRef .tc main_v128))
      = aggregate (V (Proc.devRef .tc main_v118)) (V (Proc.devRef .tc main_v1)) (V (Proc.devRef .tc main_v3)) := by
  simp only [st_A2]
  after_results_simp
  rfl

set_option maxRecDepth 8192 in
theorem stB2_out (V : Valuation τ sig (Elt F)) :
    after st_B2 V (no_index (Proc.devRef .tc main_v151))
      = mlp (eps2 (V (Proc.devRef .tc main_arg3))) (page2 (V (Proc.devRef .tc main_arg4))) (row2 (V (Proc.devRef .tc main_arg5))) (page2 (V (Proc.devRef .tc main_arg6)))
          (row2 (V (Proc.devRef .tc main_arg7))) (V (Proc.devRef .tc main_v118)) (V (Proc.devRef .tc main_v128)) := by
  simp only [st_B2]
  after_results_simp
  rfl

set_option maxRecDepth 8192 in
theorem stC2_out (V : Valuation τ sig (Elt F)) :
    after st_C2 V (no_index (Proc.devRef .tc main_v175))
      = bnAct (row2 (V (Proc.devRef .tc main_arg8))) (row2 (V (Proc.devRef .tc main_arg9))) (V (Proc.devRef .tc main_v151)) := by
  simp only [st_C2]
  after_results_simp
  rfl

set_option maxRecDepth 8192 in
theorem stA3_out (V : Valuation τ sig (Elt F)) :
    after st_A3 V (no_index (Proc.devRef .tc main_v185))
      = aggregate (V (Proc.devRef .tc main_v175)) (V (Proc.devRef .tc main_v1)) (V (Proc.devRef .tc main_v3)) := by
  simp only [st_A3]
  after_results_simp
  rfl

set_option maxRecDepth 8192 in
theorem stB3_out (V : Valuation τ sig (Elt F)) :
    after st_B3 V (no_index (Proc.devRef .tc main_v208))
      = mlp (eps3 (V (Proc.devRef .tc main_arg3))) (page3 (V (Proc.devRef .tc main_arg4))) (row3 (V (Proc.devRef .tc main_arg5))) (page3 (V (Proc.devRef .tc main_arg6)))
          (row3 (V (Proc.devRef .tc main_arg7))) (V (Proc.devRef .tc main_v175)) (V (Proc.devRef .tc main_v185)) := by
  simp only [st_B3]
  after_results_simp
  rfl

set_option maxRecDepth 8192 in
theorem stC3_out (V : Valuation τ sig (Elt F)) :
    after st_C3 V (no_index (Proc.devRef .tc main_v232))
      = bnAct (row3 (V (Proc.devRef .tc main_arg8))) (row3 (V (Proc.devRef .tc main_arg9))) (V (Proc.devRef .tc main_v208)) := by
  simp only [st_C3]
  after_results_simp
  rfl

set_option maxRecDepth 8192 in
theorem stD_out (V : Valuation τ sig (Elt F)) :
    after st_D V (no_index (Proc.devRef .tc main_v246))
      = readout (V (Proc.devRef .tc main_v4)) (V (Proc.devRef .tc main_v61)) (V (Proc.devRef .tc main_v118)) (V (Proc.devRef .tc main_v175)) (V (Proc.devRef .tc main_v232)) (V (Proc.devRef .tc main_arg2))
          (V (Proc.devRef .tc main_arg10)) (V (Proc.devRef .tc main_arg11)) (V (Proc.devRef .tc main_arg12)) (V (Proc.devRef .tc main_arg13)) := by
  simp only [st_D]
  after_results_simp
  rfl

/-! ## The stages composed -/

set_option maxRecDepth 8192 in
/-- After @main, from contents V0, the result buffer holds the network's term of V0 at the arguments. -/
theorem after_ops_out (V0 : Valuation τ sig (Elt F)) :
    after ops V0 (Proc.devRef .tc main_v246)
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  rw [ops_eq_stages]
  simp (disch := decide) only [stages, after_append,
    stP_v1, stP_v3, stP_v4, stA0_out, stB0_out, stC0_out, stA1_out, stB1_out, stC1_out, stA2_out, stB2_out, stC2_out, stA3_out, stB3_out, stC3_out, stD_out,
    stP_keep, stA0_keep, stB0_keep, stC0_keep, stA1_keep, stB1_keep, stC1_keep, stA2_keep, stB2_keep, stC2_keep, stA3_keep, stB3_keep, stC3_keep, stD_keep]
  rfl

/-- On every device, for any float values, from any memory with zero counters: every weakly fair execution of @main
    terminates with the result buffer at the network's term of the arguments' launch contents, and the fourteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v246)
        = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v246).trans (after_ops_out _),
      (h c main_arg0).trans (by arg_unchanged),
      (h c main_arg1).trans (by arg_unchanged),
      (h c main_arg2).trans (by arg_unchanged),
      (h c main_arg3).trans (by arg_unchanged),
      (h c main_arg4).trans (by arg_unchanged),
      (h c main_arg5).trans (by arg_unchanged),
      (h c main_arg6).trans (by arg_unchanged),
      (h c main_arg7).trans (by arg_unchanged),
      (h c main_arg8).trans (by arg_unchanged),
      (h c main_arg9).trans (by arg_unchanged),
      (h c main_arg10).trans (by arg_unchanged),
      (h c main_arg11).trans (by arg_unchanged),
      (h c main_arg12).trans (by arg_unchanged),
      (h c main_arg13).trans (by arg_unchanged)⟩)
    (run_fold m ρ)

end Cert.ReferenceIdeal.Hand

end
-- ==== Proof.Ref.Run.lean ====
/- The reference program's run, assembled: its operations (Ref/Ops.lean, Ref/Stages.lean), @main as their line
   (Ref/Seq.lean), the frame (Ref/Frame.lean), the network's term (Ref/Terms.lean, Ref/Net.lean) and the value of the
   result (Ref/Val.lean); and the certificate's frame conjunct for the reference, which is the run's second half. -/
import proofs.«116561_j3624952397847_1_alg».proof.Defs
import proofs.«116561_j3624952397847_1_alg».proof.Proof.Gen.Pre_finite_inputs
import proofs.«116561_j3624952397847_1_alg».proof.Proof.Ref.Val

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference runs and leaves its arguments unchanged, at the exact values, from any memory (the precondition is
    not needed). -/
theorem frame_ri : Cert.frame_ReferenceIdeal (hReferenceIdeal := Cert.ReferenceIdeal.Gen.facts)
    (hPre_finite_inputs := Cert.Pre_finite_inputs.Gen.facts) :=
  fun m g _ => (θ_run _ _ _).mono (fun _ h c => (h c).2) (run (F := Ideal) m g)

end Cert.ReferenceIdeal.Hand

end
-- ==== Proof.KI.Keep.lean ====
/- What each item of the program leaves alone: a stretch of host operations keeps every buffer it does not write; a
   region keeps every buffer that is not one of its output arrays (an input window's array is left as it was found, and
   a buffer behind no window is not touched). -/
import proofs.«116561_j3624952397847_1_alg».proof.Proof.Gen.KernelIdeal.Launch
import proofs.«116561_j3624952397847_1_alg».proof.Proof.Gen.KernelIdeal.Skeleton
import proofs.«116561_j3624952397847_1_alg».proof.Proof.Gen.KernelIdeal.Points
import proofs.«116561_j3624952397847_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

theorem W3_keep (c : Dev nD) (r : Ref sig .tc) (h : r ∉ ([main_v28_0, main_v28_1, main_v28_2] : List (Ref sig .tc))) :
    W3 m ρ c (Proc.devRef .tc r) = W2 m ρ c (Proc.devRef .tc r) := by
  by_cases hw : ∃ w, Pipeline.arrRef spec0 w = r
  · obtain ⟨w, rfl⟩ := hw
    rw [W3_arr]
    have hin : (cfg0.win w).isOut = false := by
      revert h; revert w; decide
    exact ((dat0 (U2 m ρ) c).arrAt_in w hin _).trans (A_eq0 (U2 m ρ) c w)
  · exact W3_of_ne m ρ c r (fun w e => hw ⟨w, e⟩)

theorem W4_keep (c : Dev nD) (r : Ref sig .tc) (h : r ∉ hostOps1_W) :
    W4 m ρ c (Proc.devRef .tc r) = W3 m ρ c (Proc.devRef .tc r) :=
  StableHlo.after_of_writes_sub hostOps1 _ hostOps1_writes h

theorem W5_keep (c : Dev nD) (r : Ref sig .tc) (h : r ∉ ([main_v49] : List (Ref sig .tc))) :
    W5 m ρ c (Proc.devRef .tc r) = W4 m ρ c (Proc.devRef .tc r) := by
  by_cases hw : ∃ w, Pipeline.arrRef spec1 w = r
  · obtain ⟨w, rfl⟩ := hw
    rw [W5_arr]
    have hin : (cfg1.win w).isOut = false := by
      revert h; revert w; decide
    exact ((dat1 (U4 m ρ) c).arrAt_in w hin _).trans (A_eq1 (U4 m ρ) c w)
  · exact W5_of_ne m ρ c r (fun w e => hw ⟨w, e⟩)

theorem W6_keep (c : Dev nD) (r : Ref sig .tc) (h : r ∉ hostOps2_W) :
    W6 m ρ c (Proc.devRef .tc r) = W5 m ρ c (Proc.devRef .tc r) :=
  StableHlo.after_of_writes_sub hostOps2 _ hostOps2_writes h

theorem W7_keep (c : Dev nD) (r : Ref sig .tc) (h : r ∉ ([main_v73_0, main_v73_1, main_v73_2] : List (Ref sig .tc))) :
    W7 m ρ c (Proc.devRef .tc r) = W6 m ρ c (Proc.devRef .tc r) := by
  by_cases hw : ∃ w, Pipeline.arrRef spec2 w = r
  · obtain ⟨w, rfl⟩ := hw
    rw [W7_arr]
    have hin : (cfg2.win w).isOut = false := by
      revert h; revert w; decide
    exact ((dat2 (U6 m ρ) c).arrAt_in w hin _).trans (A_eq2 (U6 m ρ) c w)
  · exact W7_of_ne m ρ c r (fun w e => hw ⟨w, e⟩)

theorem W8_keep (c : Dev nD) (r : Ref sig .tc) (h : r ∉ hostOps3_W) :
    W8 m ρ c (Proc.devRef .tc r) = W7 m ρ c (Proc.devRef .tc r) :=
  StableHlo.after_of_writes_sub hostOps3 _ hostOps3_writes h

theorem W9_keep (c : Dev nD) (r : Ref sig .tc) (h : r ∉ ([main_v94] : List (Ref sig .tc))) :
    W9 m ρ c (Proc.devRef .tc r) = W8 m ρ c (Proc.devRef .tc r) := by
  by_cases hw : ∃ w, Pipeline.arrRef spec3 w = r
  · obtain ⟨w, rfl⟩ := hw
    rw [W9_arr]
    have hin : (cfg3.win w).isOut = false := by
      revert h; revert w; decide
    exact ((dat3 (U8 m ρ) c).arrAt_in w hin _).trans (A_eq3 (U8 m ρ) c w)
  · exact W9_of_ne m ρ c r (fun w e => hw ⟨w, e⟩)

theorem W10_keep (c : Dev nD) (r : Ref sig .tc) (h : r ∉ hostOps4_W) :
    W10 m ρ c (Proc.devRef .tc r) = W9 m ρ c (Proc.devRef .tc r) :=
  StableHlo.after_of_writes_sub hostOps4 _ hostOps4_writes h

theorem W11_keep (c : Dev nD) (r : Ref sig .tc) (h : r ∉ ([main_v118_0, main_v118_1, main_v118_2] : List (Ref sig .tc))) :
    W11 m ρ c (Proc.devRef .tc r) = W10 m ρ c (Proc.devRef .tc r) := by
  by_cases hw : ∃ w, Pipeline.arrRef spec4 w = r
  · obtain ⟨w, rfl⟩ := hw
    rw [W11_arr]
    have hin : (cfg4.win w).isOut = false := by
      revert h; revert w; decide
    exact ((dat4 (U10 m ρ) c).arrAt_in w hin _).trans (A_eq4 (U10 m ρ) c w)
  · exact W11_of_ne m ρ c r (fun w e => hw ⟨w, e⟩)

theorem W12_keep (c : Dev nD) (r : Ref sig .tc) (h : r ∉ hostOps5_W) :
    W12 m ρ c (Proc.devRef .tc r) = W11 m ρ c (Proc.devRef .tc r) :=
  StableHlo.after_of_writes_sub hostOps5 _ hostOps5_writes h

theorem W13_keep (c : Dev nD) (r : Ref sig .tc) (h : r ∉ ([main_v139] : List (Ref sig .tc))) :
    W13 m ρ c (Proc.devRef .tc r) = W12 m ρ c (Proc.devRef .tc r) := by
  by_cases hw : ∃ w, Pipeline.arrRef spec5 w = r
  · obtain ⟨w, rfl⟩ := hw
    rw [W13_arr]
    have hin : (cfg5.win w).isOut = false := by
      revert h; revert w; decide
    exact ((dat5 (U12 m ρ) c).arrAt_in w hin _).trans (A_eq5 (U12 m ρ) c w)
  · exact W13_of_ne m ρ c r (fun w e => hw ⟨w, e⟩)

theorem W14_keep (c : Dev nD) (r : Ref sig .tc) (h : r ∉ hostOps6_W) :
    W14 m ρ c (Proc.devRef .tc r) = W13 m ρ c (Proc.devRef .tc r) :=
  StableHlo.after_of_writes_sub hostOps6 _ hostOps6_writes h

theorem W15_keep (c : Dev nD) (r : Ref sig .tc) (h : r ∉ ([main_v163_0, main_v163_1, main_v163_2] : List (Ref sig .tc))) :
    W15 m ρ c (Proc.devRef .tc r) = W14 m ρ c (Proc.devRef .tc r) := by
  by_cases hw : ∃ w, Pipeline.arrRef spec6 w = r
  · obtain ⟨w, rfl⟩ := hw
    rw [W15_arr]
    have hin : (cfg6.win w).isOut = false := by
      revert h; revert w; decide
    exact ((dat6 (U14 m ρ) c).arrAt_in w hin _).trans (A_eq6 (U14 m ρ) c w)
  · exact W15_of_ne m ρ c r (fun w e => hw ⟨w, e⟩)

theorem W16_keep (c : Dev nD) (r : Ref sig .tc) (h : r ∉ hostOps7_W) :
    W16 m ρ c (Proc.devRef .tc r) = W15 m ρ c (Proc.devRef .tc r) :=
  StableHlo.after_of_writes_sub hostOps7 _ hostOps7_writes h

theorem W17_keep (c : Dev nD) (r : Ref sig .tc) (h : r ∉ ([main_v184] : List (Ref sig .tc))) :
    W17 m ρ c (Proc.devRef .tc r) = W16 m ρ c (Proc.devRef .tc r) := by
  by_cases hw : ∃ w, Pipeline.arrRef spec7 w = r
  · obtain ⟨w, rfl⟩ := hw
    rw [W17_arr]
    have hin : (cfg7.win w).isOut = false := by
      revert h; revert w; decide
    exact ((dat7 (U16 m ρ) c).arrAt_in w hin _).trans (A_eq7 (U16 m ρ) c w)
  · exact W17_of_ne m ρ c r (fun w e => hw ⟨w, e⟩)

theorem W18_keep (c : Dev nD) (r : Ref sig .tc) (h : r ∉ hostOps8_W) :
    W18 m ρ c (Proc.devRef .tc r) = W17 m ρ c (Proc.devRef .tc r) :=
  StableHlo.after_of_writes_sub hostOps8 _ hostOps8_writes h

theorem W19_keep (c : Dev nD) (r : Ref sig .tc) (h : r ∉ hostOps8_1_W) :
    W19 m ρ c (Proc.devRef .tc r) = W18 m ρ c (Proc.devRef .tc r) :=
  StableHlo.after_of_writes_sub hostOps8_1 _ hostOps8_1_writes h

theorem W20_keep (c : Dev nD) (r : Ref sig .tc) (h : r ∉ hostOps8_2_W) :
    W20 m ρ c (Proc.devRef .tc r) = W19 m ρ c (Proc.devRef .tc r) :=
  StableHlo.after_of_writes_sub hostOps8_2 _ hostOps8_2_writes h

theorem W21_keep (c : Dev nD) (r : Ref sig .tc) (h : r ∉ ([main_v192] : List (Ref sig .tc))) :
    W21 m ρ c (Proc.devRef .tc r) = W20 m ρ c (Proc.devRef .tc r) := by
  by_cases hw : ∃ w, Pipeline.arrRef spec8 w = r
  · obtain ⟨w, rfl⟩ := hw
    rw [W21_arr]
    have hin : (cfg8.win w).isOut = false := by
      revert h; revert w; decide
    exact ((dat8 (U20 m ρ) c).arrAt_in w hin _).trans (A_eq8 (U20 m ρ) c w)
  · exact W21_of_ne m ρ c r (fun w e => hw ⟨w, e⟩)

end Cert.KernelIdeal.Hand

end
-- ==== Proof.KI.Kept.lean ====
/- Buffers read long after they were written: the chains of items that leave them alone. -/
import proofs.«116561_j3624952397847_1_alg».proof.Proof.KI.Keep

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W5_main_arg3 (c : Dev nD) : W5 m ρ c (Proc.devRef .tc main_arg3) = m ((c.tc : Thread nD τ).loc main_arg3) :=
  (W5_keep m ρ c main_arg3 (by decide)).trans <|
    (W4_keep m ρ c main_arg3 (by decide)).trans <|
    (W3_keep m ρ c main_arg3 (by decide)).trans <|
    (W2_keep m ρ c main_arg3 (by decide)).trans <|
    (W1_keep m ρ c main_arg3 (by decide)).trans <|
    rfl

theorem W5_main_arg4 (c : Dev nD) : W5 m ρ c (Proc.devRef .tc main_arg4) = m ((c.tc : Thread nD τ).loc main_arg4) :=
  (W5_keep m ρ c main_arg4 (by decide)).trans <|
    (W4_keep m ρ c main_arg4 (by decide)).trans <|
    (W3_keep m ρ c main_arg4 (by decide)).trans <|
    (W2_keep m ρ c main_arg4 (by decide)).trans <|
    (W1_keep m ρ c main_arg4 (by decide)).trans <|
    rfl

theorem W5_main_arg5 (c : Dev nD) : W5 m ρ c (Proc.devRef .tc main_arg5) = m ((c.tc : Thread nD τ).loc main_arg5) :=
  (W5_keep m ρ c main_arg5 (by decide)).trans <|
    (W4_keep m ρ c main_arg5 (by decide)).trans <|
    (W3_keep m ρ c main_arg5 (by decide)).trans <|
    (W2_keep m ρ c main_arg5 (by decide)).trans <|
    (W1_keep m ρ c main_arg5 (by decide)).trans <|
    rfl

theorem W5_main_arg6 (c : Dev nD) : W5 m ρ c (Proc.devRef .tc main_arg6) = m ((c.tc : Thread nD τ).loc main_arg6) :=
  (W5_keep m ρ c main_arg6 (by decide)).trans <|
    (W4_keep m ρ c main_arg6 (by decide)).trans <|
    (W3_keep m ρ c main_arg6 (by decide)).trans <|
    (W2_keep m ρ c main_arg6 (by decide)).trans <|
    (W1_keep m ρ c main_arg6 (by decide)).trans <|
    rfl

theorem W5_main_arg7 (c : Dev nD) : W5 m ρ c (Proc.devRef .tc main_arg7) = m ((c.tc : Thread nD τ).loc main_arg7) :=
  (W5_keep m ρ c main_arg7 (by decide)).trans <|
    (W4_keep m ρ c main_arg7 (by decide)).trans <|
    (W3_keep m ρ c main_arg7 (by decide)).trans <|
    (W2_keep m ρ c main_arg7 (by decide)).trans <|
    (W1_keep m ρ c main_arg7 (by decide)).trans <|
    rfl

theorem W9_main_arg3 (c : Dev nD) : W9 m ρ c (Proc.devRef .tc main_arg3) = m ((c.tc : Thread nD τ).loc main_arg3) :=
  (W9_keep m ρ c main_arg3 (by decide)).trans <|
    (W8_keep m ρ c main_arg3 (by decide)).trans <|
    (W7_keep m ρ c main_arg3 (by decide)).trans <|
    (W6_keep m ρ c main_arg3 (by decide)).trans <|
    (W5_keep m ρ c main_arg3 (by decide)).trans <|
    (W4_keep m ρ c main_arg3 (by decide)).trans <|
    (W3_keep m ρ c main_arg3 (by decide)).trans <|
    (W2_keep m ρ c main_arg3 (by decide)).trans <|
    (W1_keep m ρ c main_arg3 (by decide)).trans <|
    rfl

theorem W9_main_arg4 (c : Dev nD) : W9 m ρ c (Proc.devRef .tc main_arg4) = m ((c.tc : Thread nD τ).loc main_arg4) :=
  (W9_keep m ρ c main_arg4 (by decide)).trans <|
    (W8_keep m ρ c main_arg4 (by decide)).trans <|
    (W7_keep m ρ c main_arg4 (by decide)).trans <|
    (W6_keep m ρ c main_arg4 (by decide)).trans <|
    (W5_keep m ρ c main_arg4 (by decide)).trans <|
    (W4_keep m ρ c main_arg4 (by decide)).trans <|
    (W3_keep m ρ c main_arg4 (by decide)).trans <|
    (W2_keep m ρ c main_arg4 (by decide)).trans <|
    (W1_keep m ρ c main_arg4 (by decide)).trans <|
    rfl

theorem W9_main_arg5 (c : Dev nD) : W9 m ρ c (Proc.devRef .tc main_arg5) = m ((c.tc : Thread nD τ).loc main_arg5) :=
  (W9_keep m ρ c main_arg5 (by decide)).trans <|
    (W8_keep m ρ c main_arg5 (by decide)).trans <|
    (W7_keep m ρ c main_arg5 (by decide)).trans <|
    (W6_keep m ρ c main_arg5 (by decide)).trans <|
    (W5_keep m ρ c main_arg5 (by decide)).trans <|
    (W4_keep m ρ c main_arg5 (by decide)).trans <|
    (W3_keep m ρ c main_arg5 (by decide)).trans <|
    (W2_keep m ρ c main_arg5 (by decide)).trans <|
    (W1_keep m ρ c main_arg5 (by decide)).trans <|
    rfl

theorem W9_main_arg6 (c : Dev nD) : W9 m ρ c (Proc.devRef .tc main_arg6) = m ((c.tc : Thread nD τ).loc main_arg6) :=
  (W9_keep m ρ c main_arg6 (by decide)).trans <|
    (W8_keep m ρ c main_arg6 (by decide)).trans <|
    (W7_keep m ρ c main_arg6 (by decide)).trans <|
    (W6_keep m ρ c main_arg6 (by decide)).trans <|
    (W5_keep m ρ c main_arg6 (by decide)).trans <|
    (W4_keep m ρ c main_arg6 (by decide)).trans <|
    (W3_keep m ρ c main_arg6 (by decide)).trans <|
    (W2_keep m ρ c main_arg6 (by decide)).trans <|
    (W1_keep m ρ c main_arg6 (by decide)).trans <|
    rfl

theorem W9_main_arg7 (c : Dev nD) : W9 m ρ c (Proc.devRef .tc main_arg7) = m ((c.tc : Thread nD τ).loc main_arg7) :=
  (W9_keep m ρ c main_arg7 (by decide)).trans <|
    (W8_keep m ρ c main_arg7 (by decide)).trans <|
    (W7_keep m ρ c main_arg7 (by decide)).trans <|
    (W6_keep m ρ c main_arg7 (by decide)).trans <|
    (W5_keep m ρ c main_arg7 (by decide)).trans <|
    (W4_keep m ρ c main_arg7 (by decide)).trans <|
    (W3_keep m ρ c main_arg7 (by decide)).trans <|
    (W2_keep m ρ c main_arg7 (by decide)).trans <|
    (W1_keep m ρ c main_arg7 (by decide)).trans <|
    rfl

theorem W13_main_arg3 (c : Dev nD) : W13 m ρ c (Proc.devRef .tc main_arg3) = m ((c.tc : Thread nD τ).loc main_arg3) :=
  (W13_keep m ρ c main_arg3 (by decide)).trans <|
    (W12_keep m ρ c main_arg3 (by decide)).trans <|
    (W11_keep m ρ c main_arg3 (by decide)).trans <|
    (W10_keep m ρ c main_arg3 (by decide)).trans <|
    (W9_keep m ρ c main_arg3 (by decide)).trans <|
    (W8_keep m ρ c main_arg3 (by decide)).trans <|
    (W7_keep m ρ c main_arg3 (by decide)).trans <|
    (W6_keep m ρ c main_arg3 (by decide)).trans <|
    (W5_keep m ρ c main_arg3 (by decide)).trans <|
    (W4_keep m ρ c main_arg3 (by decide)).trans <|
    (W3_keep m ρ c main_arg3 (by decide)).trans <|
    (W2_keep m ρ c main_arg3 (by decide)).trans <|
    (W1_keep m ρ c main_arg3 (by decide)).trans <|
    rfl

theorem W13_main_arg4 (c : Dev nD) : W13 m ρ c (Proc.devRef .tc main_arg4) = m ((c.tc : Thread nD τ).loc main_arg4) :=
  (W13_keep m ρ c main_arg4 (by decide)).trans <|
    (W12_keep m ρ c main_arg4 (by decide)).trans <|
    (W11_keep m ρ c main_arg4 (by decide)).trans <|
    (W10_keep m ρ c main_arg4 (by decide)).trans <|
    (W9_keep m ρ c main_arg4 (by decide)).trans <|
    (W8_keep m ρ c main_arg4 (by decide)).trans <|
    (W7_keep m ρ c main_arg4 (by decide)).trans <|
    (W6_keep m ρ c main_arg4 (by decide)).trans <|
    (W5_keep m ρ c main_arg4 (by decide)).trans <|
    (W4_keep m ρ c main_arg4 (by decide)).trans <|
    (W3_keep m ρ c main_arg4 (by decide)).trans <|
    (W2_keep m ρ c main_arg4 (by decide)).trans <|
    (W1_keep m ρ c main_arg4 (by decide)).trans <|
    rfl

theorem W13_main_arg5 (c : Dev nD) : W13 m ρ c (Proc.devRef .tc main_arg5) = m ((c.tc : Thread nD τ).loc main_arg5) :=
  (W13_keep m ρ c main_arg5 (by decide)).trans <|
    (W12_keep m ρ c main_arg5 (by decide)).trans <|
    (W11_keep m ρ c main_arg5 (by decide)).trans <|
    (W10_keep m ρ c main_arg5 (by decide)).trans <|
    (W9_keep m ρ c main_arg5 (by decide)).trans <|
    (W8_keep m ρ c main_arg5 (by decide)).trans <|
    (W7_keep m ρ c main_arg5 (by decide)).trans <|
    (W6_keep m ρ c main_arg5 (by decide)).trans <|
    (W5_keep m ρ c main_arg5 (by decide)).trans <|
    (W4_keep m ρ c main_arg5 (by decide)).trans <|
    (W3_keep m ρ c main_arg5 (by decide)).trans <|
    (W2_keep m ρ c main_arg5 (by decide)).trans <|
    (W1_keep m ρ c main_arg5 (by decide)).trans <|
    rfl

theorem W13_main_arg6 (c : Dev nD) : W13 m ρ c (Proc.devRef .tc main_arg6) = m ((c.tc : Thread nD τ).loc main_arg6) :=
  (W13_keep m ρ c main_arg6 (by decide)).trans <|
    (W12_keep m ρ c main_arg6 (by decide)).trans <|
    (W11_keep m ρ c main_arg6 (by decide)).trans <|
    (W10_keep m ρ c main_arg6 (by decide)).trans <|
    (W9_keep m ρ c main_arg6 (by decide)).trans <|
    (W8_keep m ρ c main_arg6 (by decide)).trans <|
    (W7_keep m ρ c main_arg6 (by decide)).trans <|
    (W6_keep m ρ c main_arg6 (by decide)).trans <|
    (W5_keep m ρ c main_arg6 (by decide)).trans <|
    (W4_keep m ρ c main_arg6 (by decide)).trans <|
    (W3_keep m ρ c main_arg6 (by decide)).trans <|
    (W2_keep m ρ c main_arg6 (by decide)).trans <|
    (W1_keep m ρ c main_arg6 (by decide)).trans <|
    rfl

theorem W13_main_arg7 (c : Dev nD) : W13 m ρ c (Proc.devRef .tc main_arg7) = m ((c.tc : Thread nD τ).loc main_arg7) :=
  (W13_keep m ρ c main_arg7 (by decide)).trans <|
    (W12_keep m ρ c main_arg7 (by decide)).trans <|
    (W11_keep m ρ c main_arg7 (by decide)).trans <|
    (W10_keep m ρ c main_arg7 (by decide)).trans <|
    (W9_keep m ρ c main_arg7 (by decide)).trans <|
    (W8_keep m ρ c main_arg7 (by decide)).trans <|
    (W7_keep m ρ c main_arg7 (by decide)).trans <|
    (W6_keep m ρ c main_arg7 (by decide)).trans <|
    (W5_keep m ρ c main_arg7 (by decide)).trans <|
    (W4_keep m ρ c main_arg7 (by decide)).trans <|
    (W3_keep m ρ c main_arg7 (by decide)).trans <|
    (W2_keep m ρ c main_arg7 (by decide)).trans <|
    (W1_keep m ρ c main_arg7 (by decide)).trans <|
    rfl

theorem W3_main_arg8 (c : Dev nD) : W3 m ρ c (Proc.devRef .tc main_arg8) = m ((c.tc : Thread nD τ).loc main_arg8) :=
  (W3_keep m ρ c main_arg8 (by decide)).trans <|
    (W2_keep m ρ c main_arg8 (by decide)).trans <|
    (W1_keep m ρ c main_arg8 (by decide)).trans <|
    rfl

theorem W3_main_arg9 (c : Dev nD) : W3 m ρ c (Proc.devRef .tc main_arg9) = m ((c.tc : Thread nD τ).loc main_arg9) :=
  (W3_keep m ρ c main_arg9 (by decide)).trans <|
    (W2_keep m ρ c main_arg9 (by decide)).trans <|
    (W1_keep m ρ c main_arg9 (by decide)).trans <|
    rfl

theorem W7_main_arg8 (c : Dev nD) : W7 m ρ c (Proc.devRef .tc main_arg8) = m ((c.tc : Thread nD τ).loc main_arg8) :=
  (W7_keep m ρ c main_arg8 (by decide)).trans <|
    (W6_keep m ρ c main_arg8 (by decide)).trans <|
    (W5_keep m ρ c main_arg8 (by decide)).trans <|
    (W4_keep m ρ c main_arg8 (by decide)).trans <|
    (W3_keep m ρ c main_arg8 (by decide)).trans <|
    (W2_keep m ρ c main_arg8 (by decide)).trans <|
    (W1_keep m ρ c main_arg8 (by decide)).trans <|
    rfl

theorem W7_main_arg9 (c : Dev nD) : W7 m ρ c (Proc.devRef .tc main_arg9) = m ((c.tc : Thread nD τ).loc main_arg9) :=
  (W7_keep m ρ c main_arg9 (by decide)).trans <|
    (W6_keep m ρ c main_arg9 (by decide)).trans <|
    (W5_keep m ρ c main_arg9 (by decide)).trans <|
    (W4_keep m ρ c main_arg9 (by decide)).trans <|
    (W3_keep m ρ c main_arg9 (by decide)).trans <|
    (W2_keep m ρ c main_arg9 (by decide)).trans <|
    (W1_keep m ρ c main_arg9 (by decide)).trans <|
    rfl

theorem W11_main_arg8 (c : Dev nD) : W11 m ρ c (Proc.devRef .tc main_arg8) = m ((c.tc : Thread nD τ).loc main_arg8) :=
  (W11_keep m ρ c main_arg8 (by decide)).trans <|
    (W10_keep m ρ c main_arg8 (by decide)).trans <|
    (W9_keep m ρ c main_arg8 (by decide)).trans <|
    (W8_keep m ρ c main_arg8 (by decide)).trans <|
    (W7_keep m ρ c main_arg8 (by decide)).trans <|
    (W6_keep m ρ c main_arg8 (by decide)).trans <|
    (W5_keep m ρ c main_arg8 (by decide)).trans <|
    (W4_keep m ρ c main_arg8 (by decide)).trans <|
    (W3_keep m ρ c main_arg8 (by decide)).trans <|
    (W2_keep m ρ c main_arg8 (by decide)).trans <|
    (W1_keep m ρ c main_arg8 (by decide)).trans <|
    rfl

theorem W11_main_arg9 (c : Dev nD) : W11 m ρ c (Proc.devRef .tc main_arg9) = m ((c.tc : Thread nD τ).loc main_arg9) :=
  (W11_keep m ρ c main_arg9 (by decide)).trans <|
    (W10_keep m ρ c main_arg9 (by decide)).trans <|
    (W9_keep m ρ c main_arg9 (by decide)).trans <|
    (W8_keep m ρ c main_arg9 (by decide)).trans <|
    (W7_keep m ρ c main_arg9 (by decide)).trans <|
    (W6_keep m ρ c main_arg9 (by decide)).trans <|
    (W5_keep m ρ c main_arg9 (by decide)).trans <|
    (W4_keep m ρ c main_arg9 (by decide)).trans <|
    (W3_keep m ρ c main_arg9 (by decide)).trans <|
    (W2_keep m ρ c main_arg9 (by decide)).trans <|
    (W1_keep m ρ c main_arg9 (by decide)).trans <|
    rfl

theorem W15_main_arg8 (c : Dev nD) : W15 m ρ c (Proc.devRef .tc main_arg8) = m ((c.tc : Thread nD τ).loc main_arg8) :=
  (W15_keep m ρ c main_arg8 (by decide)).trans <|
    (W14_keep m ρ c main_arg8 (by decide)).trans <|
    (W13_keep m ρ c main_arg8 (by decide)).trans <|
    (W12_keep m ρ c main_arg8 (by decide)).trans <|
    (W11_keep m ρ c main_arg8 (by decide)).trans <|
    (W10_keep m ρ c main_arg8 (by decide)).trans <|
    (W9_keep m ρ c main_arg8 (by decide)).trans <|
    (W8_keep m ρ c main_arg8 (by decide)).trans <|
    (W7_keep m ρ c main_arg8 (by decide)).trans <|
    (W6_keep m ρ c main_arg8 (by decide)).trans <|
    (W5_keep m ρ c main_arg8 (by decide)).trans <|
    (W4_keep m ρ c main_arg8 (by decide)).trans <|
    (W3_keep m ρ c main_arg8 (by decide)).trans <|
    (W2_keep m ρ c main_arg8 (by decide)).trans <|
    (W1_keep m ρ c main_arg8 (by decide)).trans <|
    rfl

theorem W15_main_arg9 (c : Dev nD) : W15 m ρ c (Proc.devRef .tc main_arg9) = m ((c.tc : Thread nD τ).loc main_arg9) :=
  (W15_keep m ρ c main_arg9 (by decide)).trans <|
    (W14_keep m ρ c main_arg9 (by decide)).trans <|
    (W13_keep m ρ c main_arg9 (by decide)).trans <|
    (W12_keep m ρ c main_arg9 (by decide)).trans <|
    (W11_keep m ρ c main_arg9 (by decide)).trans <|
    (W10_keep m ρ c main_arg9 (by decide)).trans <|
    (W9_keep m ρ c main_arg9 (by decide)).trans <|
    (W8_keep m ρ c main_arg9 (by decide)).trans <|
    (W7_keep m ρ c main_arg9 (by decide)).trans <|
    (W6_keep m ρ c main_arg9 (by decide)).trans <|
    (W5_keep m ρ c main_arg9 (by decide)).trans <|
    (W4_keep m ρ c main_arg9 (by decide)).trans <|
    (W3_keep m ρ c main_arg9 (by decide)).trans <|
    (W2_keep m ρ c main_arg9 (by decide)).trans <|
    (W1_keep m ρ c main_arg9 (by decide)).trans <|
    rfl

theorem W17_main_arg2 (c : Dev nD) : W17 m ρ c (Proc.devRef .tc main_arg2) = m ((c.tc : Thread nD τ).loc main_arg2) :=
  (W17_keep m ρ c main_arg2 (by decide)).trans <|
    (W16_keep m ρ c main_arg2 (by decide)).trans <|
    (W15_keep m ρ c main_arg2 (by decide)).trans <|
    (W14_keep m ρ c main_arg2 (by decide)).trans <|
    (W13_keep m ρ c main_arg2 (by decide)).trans <|
    (W12_keep m ρ c main_arg2 (by decide)).trans <|
    (W11_keep m ρ c main_arg2 (by decide)).trans <|
    (W10_keep m ρ c main_arg2 (by decide)).trans <|
    (W9_keep m ρ c main_arg2 (by decide)).trans <|
    (W8_keep m ρ c main_arg2 (by decide)).trans <|
    (W7_keep m ρ c main_arg2 (by decide)).trans <|
    (W6_keep m ρ c main_arg2 (by decide)).trans <|
    (W5_keep m ρ c main_arg2 (by decide)).trans <|
    (W4_keep m ρ c main_arg2 (by decide)).trans <|
    (W3_keep m ρ c main_arg2 (by decide)).trans <|
    (W2_keep m ρ c main_arg2 (by decide)).trans <|
    (W1_keep m ρ c main_arg2 (by decide)).trans <|
    rfl

theorem W19_main_arg11 (c : Dev nD) : W19 m ρ c (Proc.devRef .tc main_arg11) = m ((c.tc : Thread nD τ).loc main_arg11) :=
  (W19_keep m ρ c main_arg11 (by decide)).trans <|
    (W18_keep m ρ c main_arg11 (by decide)).trans <|
    (W17_keep m ρ c main_arg11 (by decide)).trans <|
    (W16_keep m ρ c main_arg11 (by decide)).trans <|
    (W15_keep m ρ c main_arg11 (by decide)).trans <|
    (W14_keep m ρ c main_arg11 (by decide)).trans <|
    (W13_keep m ρ c main_arg11 (by decide)).trans <|
    (W12_keep m ρ c main_arg11 (by decide)).trans <|
    (W11_keep m ρ c main_arg11 (by decide)).trans <|
    (W10_keep m ρ c main_arg11 (by decide)).trans <|
    (W9_keep m ρ c main_arg11 (by decide)).trans <|
    (W8_keep m ρ c main_arg11 (by decide)).trans <|
    (W7_keep m ρ c main_arg11 (by decide)).trans <|
    (W6_keep m ρ c main_arg11 (by decide)).trans <|
    (W5_keep m ρ c main_arg11 (by decide)).trans <|
    (W4_keep m ρ c main_arg11 (by decide)).trans <|
    (W3_keep m ρ c main_arg11 (by decide)).trans <|
    (W2_keep m ρ c main_arg11 (by decide)).trans <|
    (W1_keep m ρ c main_arg11 (by decide)).trans <|
    rfl

theorem W19_main_arg13 (c : Dev nD) : W19 m ρ c (Proc.devRef .tc main_arg13) = m ((c.tc : Thread nD τ).loc main_arg13) :=
  (W19_keep m ρ c main_arg13 (by decide)).trans <|
    (W18_keep m ρ c main_arg13 (by decide)).trans <|
    (W17_keep m ρ c main_arg13 (by decide)).trans <|
    (W16_keep m ρ c main_arg13 (by decide)).trans <|
    (W15_keep m ρ c main_arg13 (by decide)).trans <|
    (W14_keep m ρ c main_arg13 (by decide)).trans <|
    (W13_keep m ρ c main_arg13 (by decide)).trans <|
    (W12_keep m ρ c main_arg13 (by decide)).trans <|
    (W11_keep m ρ c main_arg13 (by decide)).trans <|
    (W10_keep m ρ c main_arg13 (by decide)).trans <|
    (W9_keep m ρ c main_arg13 (by decide)).trans <|
    (W8_keep m ρ c main_arg13 (by decide)).trans <|
    (W7_keep m ρ c main_arg13 (by decide)).trans <|
    (W6_keep m ρ c main_arg13 (by decide)).trans <|
    (W5_keep m ρ c main_arg13 (by decide)).trans <|
    (W4_keep m ρ c main_arg13 (by decide)).trans <|
    (W3_keep m ρ c main_arg13 (by decide)).trans <|
    (W2_keep m ρ c main_arg13 (by decide)).trans <|
    (W1_keep m ρ c main_arg13 (by decide)).trans <|
    rfl

theorem W20_main_arg10 (c : Dev nD) : W20 m ρ c (Proc.devRef .tc main_arg10) = m ((c.tc : Thread nD τ).loc main_arg10) :=
  (W20_keep m ρ c main_arg10 (by decide)).trans <|
    (W19_keep m ρ c main_arg10 (by decide)).trans <|
    (W18_keep m ρ c main_arg10 (by decide)).trans <|
    (W17_keep m ρ c main_arg10 (by decide)).trans <|
    (W16_keep m ρ c main_arg10 (by decide)).trans <|
    (W15_keep m ρ c main_arg10 (by decide)).trans <|
    (W14_keep m ρ c main_arg10 (by decide)).trans <|
    (W13_keep m ρ c main_arg10 (by decide)).trans <|
    (W12_keep m ρ c main_arg10 (by decide)).trans <|
    (W11_keep m ρ c main_arg10 (by decide)).trans <|
    (W10_keep m ρ c main_arg10 (by decide)).trans <|
    (W9_keep m ρ c main_arg10 (by decide)).trans <|
    (W8_keep m ρ c main_arg10 (by decide)).trans <|
    (W7_keep m ρ c main_arg10 (by decide)).trans <|
    (W6_keep m ρ c main_arg10 (by decide)).trans <|
    (W5_keep m ρ c main_arg10 (by decide)).trans <|
    (W4_keep m ρ c main_arg10 (by decide)).trans <|
    (W3_keep m ρ c main_arg10 (by decide)).trans <|
    (W2_keep m ρ c main_arg10 (by decide)).trans <|
    (W1_keep m ρ c main_arg10 (by decide)).trans <|
    rfl

theorem W20_main_arg12 (c : Dev nD) : W20 m ρ c (Proc.devRef .tc main_arg12) = m ((c.tc : Thread nD τ).loc main_arg12) :=
  (W20_keep m ρ c main_arg12 (by decide)).trans <|
    (W19_keep m ρ c main_arg12 (by decide)).trans <|
    (W18_keep m ρ c main_arg12 (by decide)).trans <|
    (W17_keep m ρ c main_arg12 (by decide)).trans <|
    (W16_keep m ρ c main_arg12 (by decide)).trans <|
    (W15_keep m ρ c main_arg12 (by decide)).trans <|
    (W14_keep m ρ c main_arg12 (by decide)).trans <|
    (W13_keep m ρ c main_arg12 (by decide)).trans <|
    (W12_keep m ρ c main_arg12 (by decide)).trans <|
    (W11_keep m ρ c main_arg12 (by decide)).trans <|
    (W10_keep m ρ c main_arg12 (by decide)).trans <|
    (W9_keep m ρ c main_arg12 (by decide)).trans <|
    (W8_keep m ρ c main_arg12 (by decide)).trans <|
    (W7_keep m ρ c main_arg12 (by decide)).trans <|
    (W6_keep m ρ c main_arg12 (by decide)).trans <|
    (W5_keep m ρ c main_arg12 (by decide)).trans <|
    (W4_keep m ρ c main_arg12 (by decide)).trans <|
    (W3_keep m ρ c main_arg12 (by decide)).trans <|
    (W2_keep m ρ c main_arg12 (by decide)).trans <|
    (W1_keep m ρ c main_arg12 (by decide)).trans <|
    rfl

theorem W5_main_v2 (c : Dev nD) : W5 m ρ c (Proc.devRef .tc main_v2) = W2 m ρ c (Proc.devRef .tc main_v2) :=
  (W5_keep m ρ c main_v2 (by decide)).trans <|
    (W4_keep m ρ c main_v2 (by decide)).trans <|
    (W3_keep m ρ c main_v2 (by decide))

theorem W5_main_v4 (c : Dev nD) : W5 m ρ c (Proc.devRef .tc main_v4) = W2 m ρ c (Proc.devRef .tc main_v4) :=
  (W5_keep m ρ c main_v4 (by decide)).trans <|
    (W4_keep m ρ c main_v4 (by decide)).trans <|
    (W3_keep m ρ c main_v4 (by decide))

theorem W9_main_v2 (c : Dev nD) : W9 m ρ c (Proc.devRef .tc main_v2) = W2 m ρ c (Proc.devRef .tc main_v2) :=
  (W9_keep m ρ c main_v2 (by decide)).trans <|
    (W8_keep m ρ c main_v2 (by decide)).trans <|
    (W7_keep m ρ c main_v2 (by decide)).trans <|
    (W6_keep m ρ c main_v2 (by decide)).trans <|
    (W5_keep m ρ c main_v2 (by decide)).trans <|
    (W4_keep m ρ c main_v2 (by decide)).trans <|
    (W3_keep m ρ c main_v2 (by decide))

theorem W9_main_v4 (c : Dev nD) : W9 m ρ c (Proc.devRef .tc main_v4) = W2 m ρ c (Proc.devRef .tc main_v4) :=
  (W9_keep m ρ c main_v4 (by decide)).trans <|
    (W8_keep m ρ c main_v4 (by decide)).trans <|
    (W7_keep m ρ c main_v4 (by decide)).trans <|
    (W6_keep m ρ c main_v4 (by decide)).trans <|
    (W5_keep m ρ c main_v4 (by decide)).trans <|
    (W4_keep m ρ c main_v4 (by decide)).trans <|
    (W3_keep m ρ c main_v4 (by decide))

theorem W13_main_v2 (c : Dev nD) : W13 m ρ c (Proc.devRef .tc main_v2) = W2 m ρ c (Proc.devRef .tc main_v2) :=
  (W13_keep m ρ c main_v2 (by decide)).trans <|
    (W12_keep m ρ c main_v2 (by decide)).trans <|
    (W11_keep m ρ c main_v2 (by decide)).trans <|
    (W10_keep m ρ c main_v2 (by decide)).trans <|
    (W9_keep m ρ c main_v2 (by decide)).trans <|
    (W8_keep m ρ c main_v2 (by decide)).trans <|
    (W7_keep m ρ c main_v2 (by decide)).trans <|
    (W6_keep m ρ c main_v2 (by decide)).trans <|
    (W5_keep m ρ c main_v2 (by decide)).trans <|
    (W4_keep m ρ c main_v2 (by decide)).trans <|
    (W3_keep m ρ c main_v2 (by decide))

theorem W13_main_v4 (c : Dev nD) : W13 m ρ c (Proc.devRef .tc main_v4) = W2 m ρ c (Proc.devRef .tc main_v4) :=
  (W13_keep m ρ c main_v4 (by decide)).trans <|
    (W12_keep m ρ c main_v4 (by decide)).trans <|
    (W11_keep m ρ c main_v4 (by decide)).trans <|
    (W10_keep m ρ c main_v4 (by decide)).trans <|
    (W9_keep m ρ c main_v4 (by decide)).trans <|
    (W8_keep m ρ c main_v4 (by decide)).trans <|
    (W7_keep m ρ c main_v4 (by decide)).trans <|
    (W6_keep m ρ c main_v4 (by decide)).trans <|
    (W5_keep m ρ c main_v4 (by decide)).trans <|
    (W4_keep m ρ c main_v4 (by decide)).trans <|
    (W3_keep m ρ c main_v4 (by decide))

theorem W2_main_v0 (c : Dev nD) : W2 m ρ c (Proc.devRef .tc main_v0) = W1 m ρ c (Proc.devRef .tc main_v0) :=
  (W2_keep m ρ c main_v0 (by decide))

theorem W17_main_v0 (c : Dev nD) : W17 m ρ c (Proc.devRef .tc main_v0) = W1 m ρ c (Proc.devRef .tc main_v0) :=
  (W17_keep m ρ c main_v0 (by decide)).trans <|
    (W16_keep m ρ c main_v0 (by decide)).trans <|
    (W15_keep m ρ c main_v0 (by decide)).trans <|
    (W14_keep m ρ c main_v0 (by decide)).trans <|
    (W13_keep m ρ c main_v0 (by decide)).trans <|
    (W12_keep m ρ c main_v0 (by decide)).trans <|
    (W11_keep m ρ c main_v0 (by decide)).trans <|
    (W10_keep m ρ c main_v0 (by decide)).trans <|
    (W9_keep m ρ c main_v0 (by decide)).trans <|
    (W8_keep m ρ c main_v0 (by decide)).trans <|
    (W7_keep m ρ c main_v0 (by decide)).trans <|
    (W6_keep m ρ c main_v0 (by decide)).trans <|
    (W5_keep m ρ c main_v0 (by decide)).trans <|
    (W4_keep m ρ c main_v0 (by decide)).trans <|
    (W3_keep m ρ c main_v0 (by decide)).trans <|
    (W2_keep m ρ c main_v0 (by decide))

theorem W6_main_v49 (c : Dev nD) : W6 m ρ c (Proc.devRef .tc main_v49) = W5 m ρ c (Proc.devRef .tc main_v49) :=
  (W6_keep m ρ c main_v49 (by decide))

theorem W17_main_v49 (c : Dev nD) : W17 m ρ c (Proc.devRef .tc main_v49) = W5 m ρ c (Proc.devRef .tc main_v49) :=
  (W17_keep m ρ c main_v49 (by decide)).trans <|
    (W16_keep m ρ c main_v49 (by decide)).trans <|
    (W15_keep m ρ c main_v49 (by decide)).trans <|
    (W14_keep m ρ c main_v49 (by decide)).trans <|
    (W13_keep m ρ c main_v49 (by decide)).trans <|
    (W12_keep m ρ c main_v49 (by decide)).trans <|
    (W11_keep m ρ c main_v49 (by decide)).trans <|
    (W10_keep m ρ c main_v49 (by decide)).trans <|
    (W9_keep m ρ c main_v49 (by decide)).trans <|
    (W8_keep m ρ c main_v49 (by decide)).trans <|
    (W7_keep m ρ c main_v49 (by decide)).trans <|
    (W6_keep m ρ c main_v49 (by decide))

theorem W10_main_v94 (c : Dev nD) : W10 m ρ c (Proc.devRef .tc main_v94) = W9 m ρ c (Proc.devRef .tc main_v94) :=
  (W10_keep m ρ c main_v94 (by decide))

theorem W17_main_v94 (c : Dev nD) : W17 m ρ c (Proc.devRef .tc main_v94) = W9 m ρ c (Proc.devRef .tc main_v94) :=
  (W17_keep m ρ c main_v94 (by decide)).trans <|
    (W16_keep m ρ c main_v94 (by decide)).trans <|
    (W15_keep m ρ c main_v94 (by decide)).trans <|
    (W14_keep m ρ c main_v94 (by decide)).trans <|
    (W13_keep m ρ c main_v94 (by decide)).trans <|
    (W12_keep m ρ c main_v94 (by decide)).trans <|
    (W11_keep m ρ c main_v94 (by decide)).trans <|
    (W10_keep m ρ c main_v94 (by decide))

theorem W14_main_v139 (c : Dev nD) : W14 m ρ c (Proc.devRef .tc main_v139) = W13 m ρ c (Proc.devRef .tc main_v139) :=
  (W14_keep m ρ c main_v139 (by decide))

theorem W17_main_v139 (c : Dev nD) : W17 m ρ c (Proc.devRef .tc main_v139) = W13 m ρ c (Proc.devRef .tc main_v139) :=
  (W17_keep m ρ c main_v139 (by decide)).trans <|
    (W16_keep m ρ c main_v139 (by decide)).trans <|
    (W15_keep m ρ c main_v139 (by decide)).trans <|
    (W14_keep m ρ c main_v139 (by decide))

theorem W4_main_v28_0 (c : Dev nD) : W4 m ρ c (Proc.devRef .tc main_v28_0) = W3 m ρ c (Proc.devRef .tc main_v28_0) :=
  (W4_keep m ρ c main_v28_0 (by decide))

theorem W8_main_v73_0 (c : Dev nD) : W8 m ρ c (Proc.devRef .tc main_v73_0) = W7 m ρ c (Proc.devRef .tc main_v73_0) :=
  (W8_keep m ρ c main_v73_0 (by decide))

theorem W12_main_v118_0 (c : Dev nD) : W12 m ρ c (Proc.devRef .tc main_v118_0) = W11 m ρ c (Proc.devRef .tc main_v118_0) :=
  (W12_keep m ρ c main_v118_0 (by decide))

theorem W16_main_v163_0 (c : Dev nD) : W16 m ρ c (Proc.devRef .tc main_v163_0) = W15 m ρ c (Proc.devRef .tc main_v163_0) :=
  (W16_keep m ρ c main_v163_0 (by decide))

theorem W20_main_v189 (c : Dev nD) : W20 m ρ c (Proc.devRef .tc main_v189) = W19 m ρ c (Proc.devRef .tc main_v189) :=
  (W20_keep m ρ c main_v189 (by decide))

end Cert.KernelIdeal.Hand

end
-- ==== Proof.LibNary5.lean ====
/-
  An operation with five operands given as a literal family of references.

  The general law for an operation of `n` operands reads them under a binder, `fun k => F (xs k)`, where no operand is a
  literal reference any more and nothing further can be rewritten.  For five operands written out, the family is the
  five contents consed together, each at its own reference.
-/
import Idealize.ShloMosaic.Lib.StableHlo.Run

namespace Nary5

open Idealize.ShloMosaic Idealize.ShloMosaic.StableHlo

variable {τ : Topo} {sig : RefSig} {Val : EltTy → Type}
variable {x a b c d y : Ref sig .tc}

/-- The result of a five-operand operation, each operand's contents at its own reference. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same law with the result reference stated un-indexed, so that it can be used as a rewrite rule. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Nary5
-- ==== Proof.KI.HostRead.lean ====
/- The stretches of host operations of the kernel's program, read as pure functions of what the buffers held before
   them: the edge lists, the neighbour sums, each layer's parameters cut out of the stacked arrays, the five feature
   tables laid side by side and pooled, the leaky rectifier on the pooled rows, the classifier's biases as rows.  The
   same operations in the same order as the reference's lines, so the terms are the reference network's own pieces. -/
import proofs.«116561_j3624952397847_1_alg».proof.Proof.KI.Fold
import proofs.«116561_j3624952397847_1_alg».proof.Proof.Ref.Net
import proofs.«116561_j3624952397847_1_alg».proof.Proof.LibNary5
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem StableHlo

variable (m : (ℓ : Loc nD τ sig) → Buf (Elt Ideal) ℓ) (ρ : Dev nD → PrngReg)

/-! ## Before the first region -/

theorem U1_v0 (c : Dev nD) : (U1 m ρ c main_v0 : S100000x128.Idx → EReal)
    = Cert.ReferenceIdeal.Hand.oneHot (F := Ideal) (m ((c.tc : Thread nD τ).loc main_arg0)) := by
  show StableHlo.after hostOps0 (W0 m ρ c) (Proc.devRef .tc main_v0) = _
  after_results
  rfl

theorem U2_v2 (c : Dev nD) : (U2 m ρ c main_v2 : S1600000.Idx → BitVec 32) = Cert.ReferenceIdeal.Hand.edgeSrc (m ((c.tc : Thread nD τ).loc main_arg1)) := by
  show StableHlo.after hostOps0_1 (StableHlo.after hostOps0 (W0 m ρ c)) (Proc.devRef .tc main_v2) = _
  after_results_simp
  rfl

theorem U2_v4 (c : Dev nD) : (U2 m ρ c main_v4 : S1600000.Idx → BitVec 32) = Cert.ReferenceIdeal.Hand.edgeDst (m ((c.tc : Thread nD τ).loc main_arg1)) := by
  show StableHlo.after hostOps0_1 (StableHlo.after hostOps0 (W0 m ρ c)) (Proc.devRef .tc main_v4) = _
  after_results_simp
  rfl

/-! ## The stretch before layer 0's first region -/

theorem U2_agg (c : Dev nD) : (U2 m ρ c main_v14 : S100000x128.Idx → EReal)
    = Cert.ReferenceIdeal.Hand.aggregate (F := Ideal) (Cert.ReferenceIdeal.Hand.oneHot (F := Ideal) (m ((c.tc : Thread nD τ).loc main_arg0))) (Cert.ReferenceIdeal.Hand.edgeSrc (m ((c.tc : Thread nD τ).loc main_arg1))) (Cert.ReferenceIdeal.Hand.edgeDst (m ((c.tc : Thread nD τ).loc main_arg1))) := by
  show StableHlo.after hostOps0_1 (StableHlo.after hostOps0 (W0 m ρ c)) (Proc.devRef .tc main_v14) = _
  after_results_simp
  rfl

theorem U2_eps (c : Dev nD) : (U2 m ρ c main_v17 : S1x128.Idx → EReal)
    = broadcastInDim S1x128 ![] bcast_S_S1x128 (shapeCast S_ (Cert.ReferenceIdeal.Hand.eps0 (F := Ideal) (m ((c.tc : Thread nD τ).loc main_arg3))) shapeCasts_S1_S_) := by
  show StableHlo.after hostOps0_1 (StableHlo.after hostOps0 (W0 m ρ c)) (Proc.devRef .tc main_v17) = _
  after_results_simp
  rfl

theorem U2_w1 (c : Dev nD) : (U2 m ρ c main_v19 : S128x128.Idx → EReal) = Cert.ReferenceIdeal.Hand.mat (F := Ideal) (Cert.ReferenceIdeal.Hand.page0 (m ((c.tc : Thread nD τ).loc main_arg4))) := by
  show StableHlo.after hostOps0_1 (StableHlo.after hostOps0 (W0 m ρ c)) (Proc.devRef .tc main_v19) = _
  after_results_simp
  rfl

theorem U2_b1 (c : Dev nD) : (U2 m ρ c main_v22 : S1x128.Idx → EReal)
    = shapeCast S1x128 (Cert.ReferenceIdeal.Hand.vec (F := Ideal) (Cert.ReferenceIdeal.Hand.row0 (m ((c.tc : Thread nD τ).loc main_arg5)))) shapeCasts_S128_S1x128 := by
  show StableHlo.after hostOps0_1 (StableHlo.after hostOps0 (W0 m ρ c)) (Proc.devRef .tc main_v22) = _
  after_results_simp
  rfl

theorem U2_w2 (c : Dev nD) : (U2 m ρ c main_v24 : S128x128.Idx → EReal) = Cert.ReferenceIdeal.Hand.mat (F := Ideal) (Cert.ReferenceIdeal.Hand.page0 (m ((c.tc : Thread nD τ).loc main_arg6))) := by
  show StableHlo.after hostOps0_1 (StableHlo.after hostOps0 (W0 m ρ c)) (Proc.devRef .tc main_v24) = _
  after_results_simp
  rfl

theorem U2_b2 (c : Dev nD) : (U2 m ρ c main_v27 : S1x128.Idx → EReal)
    = shapeCast S1x128 (Cert.ReferenceIdeal.Hand.vec (F := Ideal) (Cert.ReferenceIdeal.Hand.row0 (m ((c.tc : Thread nD τ).loc main_arg7)))) shapeCasts_S128_S1x128 := by
  show StableHlo.after hostOps0_1 (StableHlo.after hostOps0 (W0 m ρ c)) (Proc.devRef .tc main_v27) = _
  after_results_simp
  rfl

/-! ## The stretch before layer 1's first region -/

theorem U6_agg (c : Dev nD) : (U6 m ρ c main_v59 : S100000x128.Idx → EReal)
    = Cert.ReferenceIdeal.Hand.aggregate (F := Ideal) (U5 m ρ c main_v49 : S100000x128.Idx → EReal) (U5 m ρ c main_v2 : S1600000.Idx → BitVec 32) (U5 m ρ c main_v4 : S1600000.Idx → BitVec 32) := by
  show StableHlo.after hostOps2 (W5 m ρ c) (Proc.devRef .tc main_v59) = _
  after_results_simp
  rfl

theorem U6_eps (c : Dev nD) : (U6 m ρ c main_v62 : S1x128.Idx → EReal)
    = broadcastInDim S1x128 ![] bcast_S_S1x128 (shapeCast S_ (Cert.ReferenceIdeal.Hand.eps1 (F := Ideal) (U5 m ρ c main_arg3 : S4.Idx → EReal)) shapeCasts_S1_S_) := by
  show StableHlo.after hostOps2 (W5 m ρ c) (Proc.devRef .tc main_v62) = _
  after_results_simp
  rfl

theorem U6_w1 (c : Dev nD) : (U6 m ρ c main_v64 : S128x128.Idx → EReal) = Cert.ReferenceIdeal.Hand.mat (F := Ideal) (Cert.ReferenceIdeal.Hand.page1 (U5 m ρ c main_arg4 : S4x128x128.Idx → EReal)) := by
  show StableHlo.after hostOps2 (W5 m ρ c) (Proc.devRef .tc main_v64) = _
  after_results_simp
  rfl

theorem U6_b1 (c : Dev nD) : (U6 m ρ c main_v67 : S1x128.Idx → EReal)
    = shapeCast S1x128 (Cert.ReferenceIdeal.Hand.vec (F := Ideal) (Cert.ReferenceIdeal.Hand.row1 (U5 m ρ c main_arg5 : S4x128.Idx → EReal))) shapeCasts_S128_S1x128 := by
  show StableHlo.after hostOps2 (W5 m ρ c) (Proc.devRef .tc main_v67) = _
  after_results_simp
  rfl

theorem U6_w2 (c : Dev nD) : (U6 m ρ c main_v69 : S128x128.Idx → EReal) = Cert.ReferenceIdeal.Hand.mat (F := Ideal) (Cert.ReferenceIdeal.Hand.page1 (U5 m ρ c main_arg6 : S4x128x128.Idx → EReal)) := by
  show StableHlo.after hostOps2 (W5 m ρ c) (Proc.devRef .tc main_v69) = _
  after_results_simp
  rfl

theorem U6_b2 (c : Dev nD) : (U6 m ρ c main_v72 : S1x128.Idx → EReal)
    = shapeCast S1x128 (Cert.ReferenceIdeal.Hand.vec (F := Ideal) (Cert.ReferenceIdeal.Hand.row1 (U5 m ρ c main_arg7 : S4x128.Idx → EReal))) shapeCasts_S128_S1x128 := by
  show StableHlo.after hostOps2 (W5 m ρ c) (Proc.devRef .tc main_v72) = _
  after_results_simp
  rfl

/-! ## The stretch before layer 2's first region -/

theorem U10_agg (c : Dev nD) : (U10 m ρ c main_v104 : S100000x128.Idx → EReal)
    = Cert.ReferenceIdeal.Hand.aggregate (F := Ideal) (U9 m ρ c main_v94 : S100000x128.Idx → EReal) (U9 m ρ c main_v2 : S1600000.Idx → BitVec 32) (U9 m ρ c main_v4 : S1600000.Idx → BitVec 32) := by
  show StableHlo.after hostOps4 (W9 m ρ c) (Proc.devRef .tc main_v104) = _
  after_results_simp
  rfl

theorem U10_eps (c : Dev nD) : (U10 m ρ c main_v107 : S1x128.Idx → EReal)
    = broadcastInDim S1x128 ![] bcast_S_S1x128 (shapeCast S_ (Cert.ReferenceIdeal.Hand.eps2 (F := Ideal) (U9 m ρ c main_arg3 : S4.Idx → EReal)) shapeCasts_S1_S_) := by
  show StableHlo.after hostOps4 (W9 m ρ c) (Proc.devRef .tc main_v107) = _
  after_results_simp
  rfl

theorem U10_w1 (c : Dev nD) : (U10 m ρ c main_v109 : S128x128.Idx → EReal) = Cert.ReferenceIdeal.Hand.mat (F := Ideal) (Cert.ReferenceIdeal.Hand.page2 (U9 m ρ c main_arg4 : S4x128x128.Idx → EReal)) := by
  show StableHlo.after hostOps4 (W9 m ρ c) (Proc.devRef .tc main_v109) = _
  after_results_simp
  rfl

theorem U10_b1 (c : Dev nD) : (U10 m ρ c main_v112 : S1x128.Idx → EReal)
    = shapeCast S1x128 (Cert.ReferenceIdeal.Hand.vec (F := Ideal) (Cert.ReferenceIdeal.Hand.row2 (U9 m ρ c main_arg5 : S4x128.Idx → EReal))) shapeCasts_S128_S1x128 := by
  show StableHlo.after hostOps4 (W9 m ρ c) (Proc.devRef .tc main_v112) = _
  after_results_simp
  rfl

theorem U10_w2 (c : Dev nD) : (U10 m ρ c main_v114 : S128x128.Idx → EReal) = Cert.ReferenceIdeal.Hand.mat (F := Ideal) (Cert.ReferenceIdeal.Hand.page2 (U9 m ρ c main_arg6 : S4x128x128.Idx → EReal)) := by
  show StableHlo.after hostOps4 (W9 m ρ c) (Proc.devRef .tc main_v114) = _
  after_results_simp
  rfl

theorem U10_b2 (c : Dev nD) : (U10 m ρ c main_v117 : S1x128.Idx → EReal)
    = shapeCast S1x128 (Cert.ReferenceIdeal.Hand.vec (F := Ideal) (Cert.ReferenceIdeal.Hand.row2 (U9 m ρ c main_arg7 : S4x128.Idx → EReal))) shapeCasts_S128_S1x128 := by
  show StableHlo.after hostOps4 (W9 m ρ c) (Proc.devRef .tc main_v117) = _
  after_results_simp
  rfl

/-! ## The stretch before layer 3's first region -/

theorem U14_agg (c : Dev nD) : (U14 m ρ c main_v149 : S100000x128.Idx → EReal)
    = Cert.ReferenceIdeal.Hand.aggregate (F := Ideal) (U13 m ρ c main_v139 : S100000x128.Idx → EReal) (U13 m ρ c main_v2 : S1600000.Idx → BitVec 32) (U13 m ρ c main_v4 : S1600000.Idx → BitVec 32) := by
  show StableHlo.after hostOps6 (W13 m ρ c) (Proc.devRef .tc main_v149) = _
  after_results_simp
  rfl

theorem U14_eps (c : Dev nD) : (U14 m ρ c main_v152 : S1x128.Idx → EReal)
    = broadcastInDim S1x128 ![] bcast_S_S1x128 (shapeCast S_ (Cert.ReferenceIdeal.Hand.eps3 (F := Ideal) (U13 m ρ c main_arg3 : S4.Idx → EReal)) shapeCasts_S1_S_) := by
  show StableHlo.after hostOps6 (W13 m ρ c) (Proc.devRef .tc main_v152) = _
  after_results_simp
  rfl

theorem U14_w1 (c : Dev nD) : (U14 m ρ c main_v154 : S128x128.Idx → EReal) = Cert.ReferenceIdeal.Hand.mat (F := Ideal) (Cert.ReferenceIdeal.Hand.page3 (U13 m ρ c main_arg4 : S4x128x128.Idx → EReal)) := by
  show StableHlo.after hostOps6 (W13 m ρ c) (Proc.devRef .tc main_v154) = _
  after_results_simp
  rfl

theorem U14_b1 (c : Dev nD) : (U14 m ρ c main_v157 : S1x128.Idx → EReal)
    = shapeCast S1x128 (Cert.ReferenceIdeal.Hand.vec (F := Ideal) (Cert.ReferenceIdeal.Hand.row3 (U13 m ρ c main_arg5 : S4x128.Idx → EReal))) shapeCasts_S128_S1x128 := by
  show StableHlo.after hostOps6 (W13 m ρ c) (Proc.devRef .tc main_v157) = _
  after_results_simp
  rfl

theorem U14_w2 (c : Dev nD) : (U14 m ρ c main_v159 : S128x128.Idx → EReal) = Cert.ReferenceIdeal.Hand.mat (F := Ideal) (Cert.ReferenceIdeal.Hand.page3 (U13 m ρ c main_arg6 : S4x128x128.Idx → EReal)) := by
  show StableHlo.after hostOps6 (W13 m ρ c) (Proc.devRef .tc main_v159) = _
  after_results_simp
  rfl

theorem U14_b2 (c : Dev nD) : (U14 m ρ c main_v162 : S1x128.Idx → EReal)
    = shapeCast S1x128 (Cert.ReferenceIdeal.Hand.vec (F := Ideal) (Cert.ReferenceIdeal.Hand.row3 (U13 m ρ c main_arg7 : S4x128.Idx → EReal))) shapeCasts_S128_S1x128 := by
  show StableHlo.after hostOps6 (W13 m ρ c) (Proc.devRef .tc main_v162) = _
  after_results_simp
  rfl

/-! ## After the last layer: the tables side by side, pooled; the leaky rectifier; the classifier's biases as rows -/

set_option maxRecDepth 8192 in
theorem hostOps8_pool (V : Valuation τ sig (Elt Ideal)) :
    StableHlo.after hostOps8 V (Proc.devRef .tc main_v188)
      = Cert.ReferenceIdeal.Hand.pool (F := Ideal) (V (Proc.devRef .tc main_arg2))
          (Cert.ReferenceIdeal.Hand.concat5 (V (Proc.devRef .tc main_v0)) (V (Proc.devRef .tc main_v49)) (V (Proc.devRef .tc main_v94))
            (V (Proc.devRef .tc main_v139)) (V (Proc.devRef .tc main_v184))) := by
  after_results_simp
  rfl

theorem U18_pool (c : Dev nD) : (U18 m ρ c main_v188 : S64x640.Idx → EReal)
    = Cert.ReferenceIdeal.Hand.pool (F := Ideal) (U17 m ρ c main_arg2 : S100000.Idx → BitVec 32)
        (Cert.ReferenceIdeal.Hand.concat5 (U17 m ρ c main_v0 : S100000x128.Idx → EReal) (U17 m ρ c main_v49 : S100000x128.Idx → EReal)
          (U17 m ρ c main_v94 : S100000x128.Idx → EReal) (U17 m ρ c main_v139 : S100000x128.Idx → EReal) (U17 m ρ c main_v184 : S100000x128.Idx → EReal)) :=
  hostOps8_pool (W17 m ρ c)

set_option maxRecDepth 8192 in
theorem hostOps8_1_act (V : Valuation τ sig (Elt Ideal)) :
    StableHlo.after hostOps8_1 V (Proc.devRef .tc main_v189)
      = Cert.ReferenceIdeal.Hand.lrelu (F := Ideal) bcast_S_S64x640 (V (Proc.devRef .tc main_v188)) := by
  after_results_simp
  rfl

theorem U19_act (c : Dev nD) : (U19 m ρ c main_v189 : S64x640.Idx → EReal)
    = Cert.ReferenceIdeal.Hand.lrelu (F := Ideal) bcast_S_S64x640 (U18 m ρ c main_v188 : S64x640.Idx → EReal) :=
  hostOps8_1_act (W18 m ρ c)

theorem hostOps8_2_c1 (V : Valuation τ sig (Elt Ideal)) :
    StableHlo.after hostOps8_2 V (Proc.devRef .tc main_v190) = shapeCast S1x256 (V (Proc.devRef .tc main_arg11)) shapeCasts_S256_S1x256 := by
  after_results_simp
  rfl

theorem hostOps8_2_c2 (V : Valuation τ sig (Elt Ideal)) :
    StableHlo.after hostOps8_2 V (Proc.devRef .tc main_v191) = shapeCast S1x10 (V (Proc.devRef .tc main_arg13)) shapeCasts_S10_S1x10 := by
  after_results_simp
  rfl

theorem U20_c1 (c : Dev nD) : (U20 m ρ c main_v190 : S1x256.Idx → EReal)
    = shapeCast S1x256 (U19 m ρ c main_arg11 : S256.Idx → EReal) shapeCasts_S256_S1x256 :=
  hostOps8_2_c1 (W19 m ρ c)

theorem U20_c2 (c : Dev nD) : (U20 m ρ c main_v191 : S1x10.Idx → EReal)
    = shapeCast S1x10 (U19 m ρ c main_arg13 : S10.Idx → EReal) shapeCasts_S10_S1x10 :=
  hostOps8_2_c2 (W19 m ρ c)

end Cert.KernelIdeal.Hand

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LibBnLaw.lean ====
/-
  The batch-normalization law that joins the two programs, on one column.

  A column of N real numbers c has the sums s1 = Σ c and s2 = Σ c², and the mean μ = s1 / N.
  One program normalizes an entry x of the column as
      x · (g · r) + (b − μ · (g · r)),   r = 1 / √(max (s2 / N − μ · μ) 0 + ε),
  the other as
      ((x − μ) · r') · g + b,            r' = 1 / √(v + ε),   v = (Σ (c − μ) · (c − μ)) / N.
  Over the reals  s2 / N − μ² = (Σ (c − μ)²) / N ≥ 0,  so the maximum with zero changes nothing and r = r'; since
  v + ε > 0 the inverse square root is a real number, and the two expressions are one polynomial identity
  (distributivity, which is why every quantity must be finite: on the extended reals it fails at the infinities).
-/
import Idealize.ShloMosaic.PureOps.Ideal
import proofs.«116561_j3624952397847_1_alg».proof.Proof.LibRealSums

noncomputable section

open scoped BigOperators

namespace BnLaw

open Idealize.ShloMosaic

/-- One entry as the first program computes it from the column sums s1, s2: the affine map folded into a scale and
    a shift.  "z" is the zero the variance is clamped at. -/
def foldedOut (n eps z s1 s2 g b x : EReal) : EReal :=
  x * (g * Ideal.rsqrt (max (Ideal.div s2 n - Ideal.div s1 n * Ideal.div s1 n) z + eps))
    + (b - Ideal.div s1 n * (g * Ideal.rsqrt (max (Ideal.div s2 n - Ideal.div s1 n * Ideal.div s1 n) z + eps)))

/-- One entry as the second program computes it from the column sum s1 and the centred second moment v. -/
def centredOut (n eps v s1 g b x : EReal) : EReal :=
  (x - Ideal.div s1 n) * Ideal.rsqrt (v + eps) * g + b

/-- The quotient of a real by a nonzero real, on the extended reals, is the real quotient. -/
theorem div_real (a : ℝ) {y : ℝ} (hy : y ≠ 0) : Ideal.div (a : EReal) (y : EReal) = ((a / y : ℝ) : EReal) := by
  rw [Ideal.div_coe hy, ← EReal.coe_mul]
  congr 1
  field_simp

/-- The inverse square root of a positive real is a real number. -/
theorem rsqrt_pos {r : ℝ} (hr : 0 < r) : Ideal.rsqrt (r : EReal) = (((Real.sqrt r)⁻¹ : ℝ) : EReal) := by
  rw [Ideal.rsqrt_coe, if_neg (not_lt.2 hr.le), if_neg hr.ne']

/-- The second moment about the mean: Σ (c − μ)² / N = Σ c² / N − μ², for μ = Σ c / N. -/
theorem centred_moment {N : ℕ} (hN : 0 < N) (c : Fin N → ℝ) :
    (∑ r, c r * c r) / (N : ℝ) - (∑ r, c r) / (N : ℝ) * ((∑ r, c r) / (N : ℝ))
      = (∑ r, (c r - (∑ r', c r') / (N : ℝ)) * (c r - (∑ r', c r') / (N : ℝ))) / (N : ℝ) := by
  have hN' : (N : ℝ) ≠ 0 := by exact_mod_cast hN.ne'
  set μ := (∑ r, c r) / (N : ℝ) with hμ
  have hs : ∑ r, c r = (N : ℝ) * μ := by rw [hμ]; field_simp
  have h1 : ∑ r, (c r - μ) * (c r - μ) = (∑ r, c r * c r) - 2 * μ * (∑ r, c r) + (N : ℝ) * (μ * μ) := by
    have : ∀ r, (c r - μ) * (c r - μ) = c r * c r - 2 * μ * c r + μ * μ := fun r => by ring
    simp only [this, Finset.sum_add_distrib, Finset.sum_sub_distrib, ← Finset.mul_sum, Finset.sum_const, Finset.card_univ,
      Fintype.card_fin, nsmul_eq_mul]
    ring
  rw [h1, hs]
  field_simp
  ring

theorem centred_moment_nonneg {N : ℕ} (c : Fin N → ℝ) (μ : ℝ) : 0 ≤ (∑ r, (c r - μ) * (c r - μ)) / (N : ℝ) :=
  div_nonneg (Finset.sum_nonneg fun r _ => mul_self_nonneg _) (Nat.cast_nonneg N)

/-- THE LAW.  For a column of real numbers, a positive ε and real g, b, x, the folded form and the centred form
    of the normalized entry are equal. -/
theorem folded_eq_centred {N : ℕ} (hN : 0 < N) (c : Fin N → ℝ) (e : ℝ) (he : 0 < e) (g b x : ℝ) :
    foldedOut ((N : ℝ) : EReal) (e : EReal) 0 (∑ r, (c r : EReal)) (∑ r, (c r : EReal) * (c r : EReal)) (g : EReal) (b : EReal) (x : EReal)
      = centredOut ((N : ℝ) : EReal) (e : EReal)
          (Ideal.div (∑ r, ((c r : EReal) - Ideal.div (∑ r', (c r' : EReal)) ((N : ℝ) : EReal))
              * ((c r : EReal) - Ideal.div (∑ r', (c r' : EReal)) ((N : ℝ) : EReal))) ((N : ℝ) : EReal))
          (∑ r, (c r : EReal)) (g : EReal) (b : EReal) (x : EReal) := by
  have hN' : (N : ℝ) ≠ 0 := by exact_mod_cast hN.ne'
  have hs1 : ∑ r, (c r : EReal) = ((∑ r, c r : ℝ) : EReal) := (RealSums.coe_sum_real _ _).symm
  have hs2 : ∑ r, (c r : EReal) * (c r : EReal) = ((∑ r, c r * c r : ℝ) : EReal) := by
    rw [RealSums.coe_sum_real]; exact Finset.sum_congr rfl fun r _ => (EReal.coe_mul _ _).symm
  unfold foldedOut centredOut
  rw [hs1, hs2, div_real _ hN', div_real _ hN']
  set μ : ℝ := (∑ r, c r) / (N : ℝ) with hμ
  have hv : ∑ r, ((c r : EReal) - (μ : EReal)) * ((c r : EReal) - (μ : EReal))
      = ((∑ r, (c r - μ) * (c r - μ) : ℝ) : EReal) := by
    rw [RealSums.coe_sum_real]
    exact Finset.sum_congr rfl fun r _ => by rw [← EReal.coe_sub, ← EReal.coe_mul]
  rw [hv, div_real _ hN']
  have hm := centred_moment hN c
  rw [← hμ] at hm
  have hnn : 0 ≤ (∑ r, (c r - μ) * (c r - μ)) / (N : ℝ) := centred_moment_nonneg c μ
  rw [← EReal.coe_mul, ← EReal.coe_sub, hm, max_eq_left (by exact_mod_cast hnn), ← EReal.coe_add,
    rsqrt_pos (by linarith)]
  set ρ : ℝ := (Real.sqrt ((∑ r, (c r - μ) * (c r - μ)) / (N : ℝ) + e))⁻¹
  simp only [← EReal.coe_mul, ← EReal.coe_sub, ← EReal.coe_add]
  congr 1
  ring

end BnLaw

end
-- ==== Proof.BnPlain.lean ====
/-
  The batch-normalization law of this network, on one column, without a clamp.

  A column of N real numbers c has the sums s1 = Σ c and s2 = Σ c², and the mean μ = s1 / N.  One program normalizes an
  entry x of the column as  x · (g · r) + (b − μ · (g · r))  with  r = 1 / √((s2 / N − μ · μ) + ε),  the other as
  ((x − μ) · r') · g + b  with  r' = 1 / √(v + ε),  v = (Σ (c − μ) · (c − μ)) / N.  Over the reals
  s2 / N − μ² = v ≥ 0, so v + ε > 0, the inverse square root is a real number and r = r'; the two expressions are then one
  polynomial identity.  Distributivity is used, which is why every quantity must be a real number: on the extended
  reals it fails at the infinities.
-/
import proofs.«116561_j3624952397847_1_alg».proof.Proof.LibBnLaw

noncomputable section

open scoped BigOperators

namespace BnPlain

open Idealize.ShloMosaic BnLaw

/-- One entry as the first program computes it from the column sums s1, s2: the affine map folded into a scale and a shift. -/
def foldedOut (n eps s1 s2 g b x : EReal) : EReal :=
  x * (g * Ideal.rsqrt ((Ideal.div s2 n - Ideal.div s1 n * Ideal.div s1 n) + eps))
    + (b - Ideal.div s1 n * (g * Ideal.rsqrt ((Ideal.div s2 n - Ideal.div s1 n * Ideal.div s1 n) + eps)))

/-- THE LAW.  For a column of real numbers, a positive ε and real g, b, x, the folded form and the centred form of the
    normalized entry are equal. -/
theorem folded_eq_centred {N : ℕ} (hN : 0 < N) (c : Fin N → ℝ) (e : ℝ) (he : 0 < e) (g b x : ℝ) :
    foldedOut ((N : ℝ) : EReal) (e : EReal) (∑ r, (c r : EReal)) (∑ r, (c r : EReal) * (c r : EReal)) (g : EReal) (b : EReal) (x : EReal)
      = centredOut ((N : ℝ) : EReal) (e : EReal)
          (Ideal.div (∑ r, ((c r : EReal) - Ideal.div (∑ r', (c r' : EReal)) ((N : ℝ) : EReal))
              * ((c r : EReal) - Ideal.div (∑ r', (c r' : EReal)) ((N : ℝ) : EReal))) ((N : ℝ) : EReal))
          (∑ r, (c r : EReal)) (g : EReal) (b : EReal) (x : EReal) := by
  have h := BnLaw.folded_eq_centred hN c e he g b x
  rw [← h]
  unfold foldedOut BnLaw.foldedOut
  have hN' : (N : ℝ) ≠ 0 := by exact_mod_cast hN.ne'
  have hs1 : ∑ r, (c r : EReal) = ((∑ r, c r : ℝ) : EReal) := (RealSums.coe_sum_real _ _).symm
  have hs2 : ∑ r, (c r : EReal) * (c r : EReal) = ((∑ r, c r * c r : ℝ) : EReal) := by
    rw [RealSums.coe_sum_real]; exact Finset.sum_congr rfl fun r _ => (EReal.coe_mul _ _).symm
  rw [hs1, hs2, div_real _ hN', div_real _ hN']
  have hm := centred_moment hN c
  have hnn : 0 ≤ (∑ r, c r * c r) / (N : ℝ) - (∑ r, c r) / (N : ℝ) * ((∑ r, c r) / (N : ℝ)) := by
    rw [hm]; exact centred_moment_nonneg c _
  rw [← EReal.coe_mul, ← EReal.coe_sub, max_eq_left (by exact_mod_cast hnn)]

end BnPlain

end
-- ==== Proof.Consts.lean ====
/-
  The float constants the two programs spell, as the extended reals their bit patterns denote: the number of rows
  100000, one, zero, the batch-norm epsilon (a positive real), the slope of the leaky rectifier (a real).
-/
import Idealize.ShloMosaic.PureOps.Ideal

noncomputable section

namespace Gin.Consts

open Idealize.ShloMosaic

/-- `100000.0` denotes the real 100000. -/
theorem ofBits_n : Ideal.ofBits .f32 0x47C35000#32 = ((100000 : ℝ) : EReal) := by
  simp [Ideal.ofBits, Ideal.ieee, -EReal.coe_mul]; norm_num

/-- `1.0` denotes 1. -/
theorem ofBits_one : Ideal.ofBits .f32 0x3F800000#32 = ((1 : ℝ) : EReal) := by
  simp [Ideal.ofBits, Ideal.ieee, -EReal.coe_mul]; norm_num

/-- The batch-norm epsilon denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The leaky rectifier's slope denotes a real. -/
theorem ofBits_slope : ∃ s : ℝ, Ideal.ofBits .f32 0x3C23D70A#32 = (s : EReal) := by
  exact ⟨_, by simp [Ideal.ofBits, Ideal.ieee, -EReal.coe_mul]; rfl⟩

end Gin.Consts

end
-- ==== Proof.LibEdgeOps.lean ====
/-
  Gathers of rows and of vector entries along a list of edges, and the accumulating scatter of rows, read at coordinates.

  A graph computation keeps one node number per edge in an m × 1 array of words.  Three of the host's indexed
  operations meet such an array:

    * the gather of rows: result row e is the operand's row whose number is the edge's word, read as a signed integer
      and clamped into the operand's range ("gather_rows_apply");
    * the gather of vector entries: result entry e is the operand's entry at that clamped number
      ("gather_vec_apply");
    * the scatter of rows: update entry (e, c) lands on operand entry (v, c') exactly when the edge's word, read as a
      signed integer and NOT clamped, is v and c' is c ("scatter_rows_resultIdx"); an edge whose word is negative or
      too large lands nowhere.

  Each statement takes the dimension numbers as an arbitrary record whose fields are the ones such an operation
  carries, so it applies to whichever record a program spells them with.
-/
import Idealize.ShloMosaic.Lib.ValueIdx
import Idealize.ShloMosaic.PureOps.Ideal.Laws

noncomputable section

open scoped BigOperators

namespace EdgeOps

open Idealize.ShloMosaic Idealize.ShloMosaic.ValueIdx

variable {α : Type} {n m q w : ℕ}

/-! ## The gather of rows -/

/-- The dimension numbers of "row idx[e] of an n × q array, for every edge e", as a literal record over given
    conditions. -/
abbrev rowDims (n m q : ℕ)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

theorem rowDims_apply (hn : 0 < n)
    (wf : GatherDims.WF ⟨2, ![n, q]⟩ ⟨2, ![m, 1]⟩ ⟨2, ![m, q]⟩ [1] [0] [] [0] [] 1 ![1, q])
    (x : (⟨2, ![n, q]⟩ : Shape).Idx → α) (idx : IVec (⟨2, ![m, 1]⟩ : Shape) w) (e : Fin m) (c : Fin q) :
    Host.gather (rowDims n m q wf) x idx (ix2 e c)
      = x (ix2 ⟨min (idx (ix2 e (0 : Fin 1))).toInt.toNat (n - 1), by omega⟩ c) := by
  unfold Host.gather
  congr 1
  funext a
  refine Fin.ext ?_
  match a with
  | ⟨0, _⟩ =>
    show (rowDims n m q wf).start (ix2 e c) idx 0 + (rowDims n m q wf).batchCoord (ix2 e c) 0
      + (rowDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n m q wf).startIndexMap from List.mem_singleton.mpr rfl)]
    have hsi : (rowDims n m q wf).siIdx (ix2 e c) ⟨List.idxOf (0 : Fin 2) (rowDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims n m q wf).start (ix2 e c) idx 1 + (rowDims n m q wf).batchCoord (ix2 e c) 1
      + (rowDims n m q wf).offCoord (ix2 e c) 1 = c.val
    rw [GatherDims.batchCoord_eq_zero _ _ _ List.not_mem_nil]
    have hst : (rowDims n m q wf).start (ix2 e c) idx 1 = 0 := by
      unfold GatherDims.start
      rw [dif_neg (show (1 : Fin 2) ∉ ([0] : List (Fin 2)) by decide)]
    have hoff : (rowDims n m q wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hst, hoff, Nat.zero_add]

/-- THE GATHER OF ROWS READ AT (e, c): the operand at row "the edge's word, signed and clamped into [0, n − 1]",
    column c. -/
theorem gather_rows_apply
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) w) (e : Fin m) (c : Fin q) :
    Host.gather gd x idx (ix2 e c)
      = x (ix2 ⟨min (idx (ix2 e (0 : Fin 1))).toInt.toNat (n - 1), by omega⟩ c) := by
  obtain ⟨od, cs, ob, sb, sm, iv, ss, wf⟩ := gd
  dsimp only at ho hc hob hsb hm hv hs
  subst ho hc hob hsb hm hv hs
  exact rowDims_apply hn wf x idx e c

/-! ## The gather of vector entries -/

/-- The dimension numbers of "entry idx[e] of a vector of n, for every edge e", as a literal record over given
    conditions. -/
abbrev vecDims (n m : ℕ)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

theorem vecDims_apply (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec (⟨2, ![m, 1]⟩ : Shape) w) (e : Fin m) :
    Host.gather (vecDims n m wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (vecDims n m wf).start (ix1 e) idx 0 + (vecDims n m wf).batchCoord (ix1 e) 0
    + (vecDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims n m wf).startIndexMap from List.mem_singleton.mpr rfl)]
  have hsi : (vecDims n m wf).siIdx (ix1 e) ⟨List.idxOf (0 : Fin 1) (vecDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF VECTOR ENTRIES READ AT e: the operand at "the edge's word, signed and clamped into [0, n − 1]". -/
theorem gather_vec_apply
    (g1 : GatherDims (⟨1, ![n]⟩ : Shape) (⟨2, ![m, 1]⟩ : Shape) (⟨1, ![m]⟩ : Shape))
    (ho : g1.offsetDims = []) (hc : g1.collapsedSliceDims = [0]) (hob : g1.operandBatchingDims = [])
    (hsb : g1.startIndicesBatchingDims = []) (hm : g1.startIndexMap = [0]) (hv : g1.indexVectorDim = 1)
    (hs : g1.sliceSizes = ![1]) (hn : 0 < n)
    (x : (⟨1, ![n]⟩ : Shape).Idx → α) (idx : IVec (⟨2, ![m, 1]⟩ : Shape) w) (e : Fin m) :
    Host.gather g1 x idx (ix1 e)
      = x (ix1 ⟨min (idx (ix2 e (0 : Fin 1))).toInt.toNat (n - 1), by omega⟩) := by
  obtain ⟨od, cs, ob, sb, sm, iv, ss, wf⟩ := g1
  dsimp only at ho hc hob hsb hm hv hs
  subst ho hc hob hsb hm hv hs
  exact vecDims_apply hn wf x idx e

/-! ## The scatter of rows -/

/-- The dimension numbers of "add row e of an m × q array into row idx[e] of an n × q array", as a literal record over
    given conditions. -/
abbrev scatDims (n m q : ℕ)
    (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

section Scatter
variable (wf : ScatterDims.WF ⟨2, ![n, q]⟩ ⟨2, ![m, 1]⟩ ⟨2, ![m, q]⟩ [1] [0] [0] 1)
  (idx : IVec (⟨2, ![m, 1]⟩ : Shape) w) (e : Fin m) (c : Fin q)

/-- On the row axis the window starts at the edge's word, read signed. -/
theorem scatDims_start0 :
    (scatDims n m q wf).start (ix2 e c) idx 0 = (idx (ix2 e (0 : Fin 1))).toInt := by
  unfold ScatterDims.start
  rw [dif_pos (show (0 : Fin 2) ∈ (scatDims n m q wf).scatterDimsToOperandDims from List.mem_singleton.mpr rfl)]
  have hsi : (scatDims n m q wf).siIdx (ix2 e c)
      ⟨List.idxOf (0 : Fin 2) (scatDims n m q wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatDims_start1 : (scatDims n m q wf).start (ix2 e c) idx 1 = 0 := by
  unfold ScatterDims.start
  rw [dif_neg (show (1 : Fin 2) ∉ ([0] : List (Fin 2)) by decide)]

/-- The row axis is inserted: its window coordinate is 0. -/
theorem scatDims_window0 : (scatDims n m q wf).window (ix2 e c) 0 = 0 := by
  unfold ScatterDims.window
  have h0 : (0 : Fin 2) ∉ (scatDims n m q wf).sKept := by
    intro h
    have h2 := (List.mem_filter.mp h).2
    simp at h2
  rw [dif_neg h0]

/-- The column axis carries the update's column. -/
theorem scatDims_window1 : (scatDims n m q wf).window (ix2 e c) 1 = c.val := by
  unfold ScatterDims.window
  have h1 : (1 : Fin 2) ∈ (scatDims n m q wf).sKept :=
    List.mem_filter.mpr ⟨List.mem_finRange _, by simp⟩
  rw [dif_pos h1]
  rfl

theorem scatDims_resultIdx (i : (⟨2, ![n, q]⟩ : Shape).Idx) :
    (scatDims n m q wf).resultIdx? (ix2 e c) idx = some i
      ↔ (idx (ix2 e (0 : Fin 1))).toInt = ((i 0).val : ℤ) ∧ (i 1).val = c.val := by
  have hs0 := scatDims_start0 wf idx e c
  have hs1 := scatDims_start1 wf idx e c
  have hw0 := scatDims_window0 wf e c
  have hw1 := scatDims_window1 wf e c
  have hi0 : (i 0).val < n := idx2_lt0 i
  have hi1 : (i 1).val < q := idx2_lt1 i
  have hc : c.val < q := c.isLt
  unfold ScatterDims.resultIdx?
  split
  next h =>
    have g0 := h 0
    have g1 := h 1
    rw [hs0, hw0] at g0
    rw [hs1, hw1] at g1
    constructor
    · intro heq
      have hi := Option.some.inj heq
      have e0 : ((scatDims n m q wf).start (ix2 e c) idx 0
          + ((scatDims n m q wf).window (ix2 e c) 0 : ℕ)).toNat = (i 0).val := congrArg Fin.val (congrFun hi 0)
      have e1 : ((scatDims n m q wf).start (ix2 e c) idx 1
          + ((scatDims n m q wf).window (ix2 e c) 1 : ℕ)).toNat = (i 1).val := congrArg Fin.val (congrFun hi 1)
      rw [hs0, hw0] at e0
      rw [hs1, hw1] at e1
      generalize (idx (ix2 e (0 : Fin 1))).toInt = z at *
      omega
    · rintro ⟨h0, h1⟩
      refine congrArg some (funext fun a => Fin.ext ?_)
      match a with
      | ⟨0, _⟩ =>
        show ((scatDims n m q wf).start (ix2 e c) idx 0
          + ((scatDims n m q wf).window (ix2 e c) 0 : ℕ)).toNat = (i 0).val
        rw [hs0, hw0, h0]; omega
      | ⟨1, _⟩ =>
        show ((scatDims n m q wf).start (ix2 e c) idx 1
          + ((scatDims n m q wf).window (ix2 e c) 1 : ℕ)).toNat = (i 1).val
        rw [hs1, hw1, h1]; omega
  next h =>
    constructor
    · intro heq; exact absurd heq (by simp)
    · rintro ⟨h0, h1⟩
      exfalso
      apply h
      intro a
      match a with
      | ⟨0, _⟩ =>
        show 0 ≤ (scatDims n m q wf).start (ix2 e c) idx 0 + ((scatDims n m q wf).window (ix2 e c) 0 : ℕ)
          ∧ (scatDims n m q wf).start (ix2 e c) idx 0 + ((scatDims n m q wf).window (ix2 e c) 0 : ℕ) < ((n : ℕ) : ℤ)
        rw [hs0, hw0, h0]; omega
      | ⟨1, _⟩ =>
        show 0 ≤ (scatDims n m q wf).start (ix2 e c) idx 1 + ((scatDims n m q wf).window (ix2 e c) 1 : ℕ)
          ∧ (scatDims n m q wf).start (ix2 e c) idx 1 + ((scatDims n m q wf).window (ix2 e c) 1 : ℕ) < ((q : ℕ) : ℤ)
        rw [hs1, hw1]; omega

end Scatter

/-- THE SCATTER OF ROWS: update entry (e, c) lands on operand entry i exactly when the edge's word, read signed and not
    clamped, is i's row, and i's column is c. -/
theorem scatter_rows_resultIdx
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (idx : IVec (⟨2, ![m, 1]⟩ : Shape) w) (e : Fin m) (c : Fin q) (i : (⟨2, ![n, q]⟩ : Shape).Idx) :
    sd.resultIdx? (ix2 e c) idx = some i
      ↔ (idx (ix2 e (0 : Fin 1))).toInt = ((i 0).val : ℤ) ∧ (i 1).val = c.val := by
  obtain ⟨uw, iw, sdo, iv, wf⟩ := sd
  dsimp only at hu hi hd hv
  subst hu hi hd hv
  exact scatDims_resultIdx wf idx e c i

end EdgeOps

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibSageLayer.lean ====
/-
  One layer of a mean-aggregation graph network on arrays of extended reals, and the law that joins its two spellings.

  A layer takes, for every node r, the row M(r, ·) of aggregated neighbour features already divided by the node's
  in-degree ("the mean"), and the node's own row h(r, ·).  Entry (r, c) of its result is

      (sum over l of M(r, l) * Wl(l, c))  +  b(c)  +  (sum over l of h(r, l) * Wr(l, c)),

  followed, in every layer but the last, by the maximum with zero.  The bias is added to the first product before
  the second product is added: that is the grouping both programs use, so no re-association is needed.

  The two programs differ only in how they form the mean from the aggregated sum A and the clamped degree d:
  one multiplies the row by the reciprocal 1 / d computed once, the other divides every entry by d.  On the
  extended reals  x * (1 / d) = x / d  holds for every x as soon as d is not zero (both sides are x times the
  inverse of d; at d = 0 they would differ, 0 * (1 / 0) = 0 against 0 / 0 = bottom).  The clamped degree is the
  maximum of 1 and a count, hence at least 1 and never zero, whatever the count is: the law needs no finiteness.

  The layer is ROW-WISE: row r of the result depends on row r of M, row r of h and the parameters only.  So a band
  of rows computed from the band of M and the band of h is the band of the whole result ("layer_row").
-/
import Idealize.ShloMosaic.Lib.ValueIdx
import Idealize.ShloMosaic.PureOps.Ideal.Laws
import proofs.«116561_j3624952397847_1_alg».proof.Proof.LibRowWise
import proofs.«116561_j3624952397847_1_alg».proof.Proof.LibMatProd

noncomputable section

open scoped BigOperators

namespace Sage

open Idealize.ShloMosaic Idealize.ShloMosaic.ValueIdx GcnSpec

/-- What follows the two products and the bias: the maximum with zero, or nothing (the last layer). -/
def post (relu : Bool) (z : EReal) : EReal := if relu then max z zeroF else z

theorem post_true (z : EReal) : post true z = max z zeroF := rfl
theorem post_false (z : EReal) : post false z = z := rfl

/-- One layer, from the mean M and the nodes' own features h. -/
def layer (relu : Bool) {n k q : ℕ} (M h : Arr n k) (Wl : Arr k q) (b : Arr 1 q) (Wr : Arr k q) : Arr n q :=
  fun i => post relu
    ((lin M Wl i + b (ix2 (0 : Fin 1) (⟨(i 1).val, idx2_lt1 i⟩ : Fin q))) + lin h Wr i)

/-- The layer read at a pair of coordinates: the two products as plain sums. -/
theorem layer_ix2 (relu : Bool) {n k q : ℕ} (M h : Arr n k) (Wl : Arr k q) (b : Arr 1 q) (Wr : Arr k q)
    (r : Fin n) (c : Fin q) :
    layer relu M h Wl b Wr (ix2 r c)
      = post relu (((∑ l : Fin k, M (ix2 r l) * Wl (ix2 l c)) + b (ix2 (0 : Fin 1) c))
          + ∑ l : Fin k, h (ix2 r l) * Wr (ix2 l c)) := rfl

/-- To show an array is the layer it is enough to read it at every pair of coordinates. -/
theorem eq_layer (relu : Bool) {n k q : ℕ} (M h : Arr n k) (Wl : Arr k q) (b : Arr 1 q) (Wr : Arr k q) (y : Arr n q)
    (hy : ∀ (r : Fin n) (c : Fin q), y (ix2 r c)
      = post relu (((∑ l : Fin k, M (ix2 r l) * Wl (ix2 l c)) + b (ix2 (0 : Fin 1) c))
          + ∑ l : Fin k, h (ix2 r l) * Wr (ix2 l c))) :
    y = layer relu M h Wl b Wr := by
  funext i
  obtain ⟨r, c, rfl⟩ : ∃ (r : Fin n) (c : Fin q), i = ix2 r c := ⟨i 0, i 1, eq_ix2 i⟩
  rw [hy, layer_ix2]

/-- Row-wise: a row of the result is fixed by the same row of the mean and of the own features, and column c of the
    result by column c of the parameters.  Row r of a band and row r' of the whole array give the same entry when the
    two rows of M agree, the two rows of h agree, and the parameters agree in column c. -/
theorem layer_row (relu : Bool) {n n' k q : ℕ} (M h : Arr n k) (M' h' : Arr n' k) (Wl Wl' : Arr k q) (b b' : Arr 1 q)
    (Wr Wr' : Arr k q) (r : Fin n) (r' : Fin n') (c : Fin q)
    (hM : ∀ l : Fin k, M (ix2 r l) = M' (ix2 r' l)) (hh : ∀ l : Fin k, h (ix2 r l) = h' (ix2 r' l))
    (hWl : ∀ l : Fin k, Wl (ix2 l c) = Wl' (ix2 l c)) (hb : b (ix2 (0 : Fin 1) c) = b' (ix2 (0 : Fin 1) c))
    (hWr : ∀ l : Fin k, Wr (ix2 l c) = Wr' (ix2 l c)) :
    layer relu M h Wl b Wr (ix2 r c) = layer relu M' h' Wl' b' Wr' (ix2 r' c) := by
  rw [layer_ix2, layer_ix2]
  have e1 : (∑ l : Fin k, M (ix2 r l) * Wl (ix2 l c)) = ∑ l : Fin k, M' (ix2 r' l) * Wl' (ix2 l c) :=
    Finset.sum_congr rfl fun l _ => by rw [hM l, hWl l]
  have e2 : (∑ l : Fin k, h (ix2 r l) * Wr (ix2 l c)) = ∑ l : Fin k, h' (ix2 r' l) * Wr' (ix2 l c) :=
    Finset.sum_congr rfl fun l _ => by rw [hh l, hWr l]
  rw [e1, e2, hb]

/-! ## The mean, two ways -/

/-- Every row of A times that row's entry of the one-column array s. -/
def scaleRows {n k : ℕ} (A : Arr n k) (s : Arr n 1) : Arr n k :=
  fun i => A i * s (ix2 (⟨(i 0).val, idx2_lt0 i⟩ : Fin n) (0 : Fin 1))

theorem scaleRows_ix2 {n k : ℕ} (A : Arr n k) (s : Arr n 1) (r : Fin n) (l : Fin k) :
    scaleRows A s (ix2 r l) = A (ix2 r l) * s (ix2 r (0 : Fin 1)) := rfl

/-- Every entry of A divided by its row's entry of the vector d. -/
def divRows {n k : ℕ} (A : Arr n k) (d : (⟨1, ![n]⟩ : Shape).Idx → EReal) : Arr n k :=
  fun i => Ideal.div (A i) (d (ix1 (⟨(i 0).val, idx2_lt0 i⟩ : Fin n)))

theorem divRows_ix2 {n k : ℕ} (A : Arr n k) (d : (⟨1, ![n]⟩ : Shape).Idx → EReal) (r : Fin n) (l : Fin k) :
    divRows A d (ix2 r l) = Ideal.div (A (ix2 r l)) (d (ix1 r)) := rfl

/-- Multiplying by the reciprocal is dividing, off zero: both are the product with the inverse. -/
theorem mul_div_one (x : EReal) {y : EReal} (hy : y ≠ 0) : x * Ideal.div 1 y = Ideal.div x y := by
  unfold Ideal.div
  rw [if_neg hy, if_neg hy, one_mul]

/-- The float one, kept as the word the programs spell it with, is the number one. -/
def oneF : EReal := Ideal.ofBits .f32 0x3F800000#32

theorem oneF_eq : oneF = 1 := by
  unfold oneF
  simp [Ideal.ofBits, Ideal.ieee, -EReal.coe_mul]; norm_num

/-- A count clamped below at one is not zero, whatever the count. -/
theorem clamp_ne_zero (g : EReal) : max oneF g ≠ 0 := by
  have h1 : (0 : EReal) < oneF := by rw [oneF_eq]; exact zero_lt_one
  exact ne_of_gt (lt_of_lt_of_le h1 (le_max_left _ _))

/-- Scaling the rows by the reciprocals of a vector with no zero entry is dividing the rows by the vector. -/
theorem scaleRows_eq_divRows {n k : ℕ} (A : Arr n k) (s : Arr n 1) (d : (⟨1, ![n]⟩ : Shape).Idx → EReal)
    (hs : ∀ r : Fin n, s (ix2 r (0 : Fin 1)) = Ideal.div oneF (d (ix1 r))) (hd : ∀ r : Fin n, d (ix1 r) ≠ 0) :
    scaleRows A s = divRows A d := by
  funext i
  obtain ⟨r, l, rfl⟩ : ∃ (r : Fin n) (l : Fin k), i = ix2 r l := ⟨i 0, i 1, eq_ix2 i⟩
  rw [scaleRows_ix2, divRows_ix2, hs r, oneF_eq]
  exact mul_div_one _ (hd r)

end Sage

end
-- ==== Proof.LibSegSum.lean ====
/-
  Sums over the edges that point at a node, on extended reals that are real numbers.

  A graph has m edges; edge e carries a source word and a target word.  The aggregate of an n × k array h has, at
  (r, l), a starting value plus the sum, over the edges whose target word read as a signed integer is r, of
  h (src e, l), where src e is the source word read signed and clamped into [0, n − 1].  An edge whose target word
  is negative or at least n contributes to no row.

  Three things are proved.

    * "IsReal": an extended real that is the reading of a real number.  The reals are closed under everything the
      aggregate and a linear layer are made of: sums, products, differences, finite sums, maxima, minima, the
      exponential, and division by a real number that is not zero.  So an accumulating scatter, a gather and a
      product of arrays with real entries have real entries, and a count clamped below at one is a real number
      that is not zero.

    * "scatterAdd_rows_apply": the accumulating scatter of rows read at (r, c) is the operand's entry plus the
      sum, over the edges whose target word is r, of the update's entry (e, c).  The sum over all update indices
      is a double sum over edge and column; update (e, c') lands on (r, c) exactly when the edge's word is r and
      c' is c, so the inner sum over the column keeps one term.

    * "agg_proj_exchange": aggregating commutes with projecting by a k × q matrix W and averaging by a real
      d ≠ 0, when h and W have real entries and the starting value is zero:

          A(h · W)(r, c) · (1 / d)  =  sum over l of (A(h)(r, l) / d) · W(l, c).

      Over the reals both sides are the double sum, over the edges e pointing at r and over l, of
      h (src e, l) · W (l, c) · (1 / d): the two finite sums are exchanged and the factors 1 / d and W (l, c) are
      moved across them.  On the extended reals the exchange fails at the infinities (a product of 0 and an
      infinity is 0, so a factor cannot be moved across a sum that contains both), which is why the entries must
      be real.
-/
import Idealize.ShloMosaic.Lib.ValueIdx
import Idealize.ShloMosaic.PureOps.Ideal.Laws
import proofs.«116561_j3624952397847_1_alg».proof.Proof.LibEdgeOps
import proofs.«116561_j3624952397847_1_alg».proof.Proof.LibRealSums
import proofs.«116561_j3624952397847_1_alg».proof.Proof.LibRowWise
import proofs.«116561_j3624952397847_1_alg».proof.Proof.LibMatProd
import proofs.«116561_j3624952397847_1_alg».proof.Proof.LibSageLayer

noncomputable section

open scoped BigOperators

namespace SegSum

open Idealize.ShloMosaic Idealize.ShloMosaic.ValueIdx GcnSpec Sage

/-! ## Extended reals that are real numbers -/

/-- The extended real is the reading of a real number: it is neither infinity. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem isReal_zeroF : IsReal zeroF := by rw [zeroF_eq]; exact isReal_zero

theorem isReal_oneF : IsReal oneF := by rw [oneF_eq]; exact isReal_one

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_neg {x : EReal} (hx : IsReal x) : IsReal (-x) := by
  obtain ⟨a, rfl⟩ := hx
  exact ⟨-a, (EReal.coe_neg a).symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

/-- A finite sum of real numbers is a real number: by induction on the index set. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a t ha ih =>
    rw [Finset.sum_insert ha]
    exact isReal_add (h a (Finset.mem_insert_self a t)) (ih fun i hi => h i (Finset.mem_insert_of_mem hi))

/-- A real number divided by a real number that is not zero: the product with the reciprocal. -/
theorem isReal_div {x y : EReal} (hx : IsReal x) (hy : IsReal y) (h0 : y ≠ 0) : IsReal (Ideal.div x y) := by
  obtain ⟨a, rfl⟩ := hx; obtain ⟨b, rfl⟩ := hy
  have hb : b ≠ 0 := fun hb => h0 (by rw [hb, EReal.coe_zero])
  rw [Ideal.div_coe hb, ← EReal.coe_mul]
  exact isReal_coe _

theorem isReal_max {x y : EReal} (hx : IsReal x) (hy : IsReal y) : IsReal (max x y) := by
  rcases le_total x y with h | h
  · rw [max_eq_right h]; exact hy
  · rw [max_eq_left h]; exact hx

theorem isReal_min {x y : EReal} (hx : IsReal x) (hy : IsReal y) : IsReal (min x y) := by
  rcases le_total x y with h | h
  · rw [min_eq_left h]; exact hx
  · rw [min_eq_right h]; exact hy

theorem isReal_exp {x : EReal} (hx : IsReal x) : IsReal (Ideal.exp x) := by
  obtain ⟨a, rfl⟩ := hx
  exact ⟨Real.exp a, Ideal.exp_coe a⟩

/-! ## Arrays with real entries -/

/-- The accumulating scatter, at the ideal instance, read at an index: the operand's entry plus the sum of the
    updates that land there. -/
theorem scatterAdd_apply {s si su : Shape} {w : ℕ} {φ : FTy} (sd : ScatterDims s si su) (x : s.Idx → EReal)
    (idx : IVec si w) (upd : su.Idx → EReal) (i : s.Idx) :
    Host.scatterAdd (F := Ideal) (φ := φ) sd x idx upd i = Ideal.hostScatterAdd sd x idx upd i := rfl

/-- An accumulating scatter of real updates into a real operand is real at every index. -/
theorem isReal_scatterAdd {s si su : Shape} {w : ℕ} {φ : FTy} (sd : ScatterDims s si su) (x : s.Idx → EReal)
    (idx : IVec si w) (upd : su.Idx → EReal) (hx : ∀ i, IsReal (x i)) (hu : ∀ j, IsReal (upd j)) (i : s.Idx) :
    IsReal (Host.scatterAdd (F := Ideal) (φ := φ) sd x idx upd i) := by
  rw [scatterAdd_apply]
  unfold Ideal.hostScatterAdd
  exact isReal_add (hx i) (isReal_sum _ _ fun j _ => hu j)

/-- A gather reads entries of its operand: real if they all are. -/
theorem isReal_gather {s si t : Shape} {w : ℕ} (gd : GatherDims s si t) (x : s.Idx → EReal) (idx : IVec si w)
    (hx : ∀ i, IsReal (x i)) (j : t.Idx) : IsReal (Host.gather gd x idx j) :=
  hx _

/-- The product of arrays read at a pair of coordinates. -/
theorem lin_ix2 {n k q : ℕ} (x : Arr n k) (W : Arr k q) (r : Fin n) (c : Fin q) :
    lin x W (ix2 r c) = ∑ l : Fin k, x (ix2 r l) * W (ix2 l c) := rfl

/-- A product of arrays with real entries has real entries. -/
theorem isReal_lin {n k q : ℕ} (x : Arr n k) (W : Arr k q) (hx : ∀ i, IsReal (x i)) (hW : ∀ i, IsReal (W i))
    (i : (⟨2, ![n, q]⟩ : Shape).Idx) : IsReal (lin x W i) := by
  obtain ⟨r, c, rfl⟩ : ∃ (r : Fin n) (c : Fin q), i = ix2 r c := ⟨i 0, i 1, eq_ix2 i⟩
  rw [lin_ix2]
  exact isReal_sum _ _ fun l _ => isReal_mul (hx _) (hW _)

/-- A count clamped below at one is a real number that is not zero.  The count is the accumulating scatter of ones
    into zeros: zero plus a finite sum of ones. -/
theorem clampDeg_real {s si su : Shape} {w : ℕ} {φ : FTy} (sd1 : ScatterDims s si su) (idx : IVec si w) (i : s.Idx) :
    IsReal (max (Host.scatterAdd (F := Ideal) (φ := φ) sd1 (fun _ => zeroF) idx (fun _ => oneF) i) oneF)
      ∧ max (Host.scatterAdd (F := Ideal) (φ := φ) sd1 (fun _ => zeroF) idx (fun _ => oneF) i) oneF ≠ 0 := by
  refine ⟨isReal_max (isReal_scatterAdd sd1 _ idx _ (fun _ => isReal_zeroF) (fun _ => isReal_oneF) i) isReal_oneF, ?_⟩
  rw [max_comm]
  exact clamp_ne_zero _

/-! ## The accumulating scatter of rows, read at coordinates -/

/-- Entry (r, c) of the accumulating scatter of rows: the operand's entry plus the sum, over the edges whose word
    read signed is r, of the update's entry (e, c). -/
theorem scatterAdd_rows_apply {n m q w : ℕ} {φ : FTy}
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (x : Arr n q) (idx : IVec (⟨2, ![m, 1]⟩ : Shape) w) (upd : Arr m q) (r : Fin n) (c : Fin q) :
    Host.scatterAdd (F := Ideal) (φ := φ) sd x idx upd (ix2 r c)
      = x (ix2 r c) + ∑ e ∈ Finset.univ.filter (fun e : Fin m => (idx (ix2 e (0 : Fin 1))).toInt = (r.val : ℤ)),
          upd (ix2 e c) := by
  rw [scatterAdd_apply]
  unfold Ideal.hostScatterAdd
  congr 1
  rw [Finset.sum_filter, Finset.sum_filter, sum_idx2]
  refine Finset.sum_congr rfl fun e _ => ?_
  have key : ∀ b : Fin q, (sd.resultIdx? (ix2 e b) idx = some (ix2 r c))
      ↔ ((idx (ix2 e (0 : Fin 1))).toInt = (r.val : ℤ) ∧ c = b) := by
    intro b
    rw [EdgeOps.scatter_rows_resultIdx sd hu hi hd hv idx e b (ix2 r c)]
    constructor
    · rintro ⟨h0, h1⟩; exact ⟨h0, Fin.ext h1⟩
    · rintro ⟨h0, rfl⟩; exact ⟨h0, rfl⟩
  simp only [key]
  by_cases h : (idx (ix2 e (0 : Fin 1))).toInt = (r.val : ℤ)
  · simp [h]
  · simp [h]

/-! ## Aggregating commutes with projecting and averaging -/

/-- THE LAW.  With a zero starting value, real entries in h and W and a real d that is not zero:
    the aggregate of the projected array h · W, times 1 / d, is the aggregate of h divided by d, projected.
    Both scatters are read at coordinates as sums over the same set of edges (those pointing at r) and both gathers as
    the same clamped source row; then everything is the reading of a real number, and over the reals the two finite
    sums are exchanged and the factors 1 / d and W (l, c) are moved across them. -/
theorem agg_proj_exchange {n m k q w : ℕ} {φ : FTy}
    (gk : GatherDims (⟨2, ![n, k]⟩ : Shape) (⟨2, ![m, 1]⟩ : Shape) (⟨2, ![m, k]⟩ : Shape))
    (hgko : gk.offsetDims = [1]) (hgkc : gk.collapsedSliceDims = [0]) (hgkob : gk.operandBatchingDims = [])
    (hgksb : gk.startIndicesBatchingDims = []) (hgkm : gk.startIndexMap = [0]) (hgkv : gk.indexVectorDim = 1)
    (hgks : gk.sliceSizes = ![1, k])
    (gq : GatherDims (⟨2, ![n, q]⟩ : Shape) (⟨2, ![m, 1]⟩ : Shape) (⟨2, ![m, q]⟩ : Shape))
    (hgqo : gq.offsetDims = [1]) (hgqc : gq.collapsedSliceDims = [0]) (hgqob : gq.operandBatchingDims = [])
    (hgqsb : gq.startIndicesBatchingDims = []) (hgqm : gq.startIndexMap = [0]) (hgqv : gq.indexVectorDim = 1)
    (hgqs : gq.sliceSizes = ![1, q])
    (sk : ScatterDims (⟨2, ![n, k]⟩ : Shape) (⟨2, ![m, 1]⟩ : Shape) (⟨2, ![m, k]⟩ : Shape))
    (hsku : sk.updateWindowDims = [1]) (hski : sk.insertedWindowDims = [0])
    (hskd : sk.scatterDimsToOperandDims = [0]) (hskv : sk.indexVectorDim = 1)
    (sq : ScatterDims (⟨2, ![n, q]⟩ : Shape) (⟨2, ![m, 1]⟩ : Shape) (⟨2, ![m, q]⟩ : Shape))
    (hsqu : sq.updateWindowDims = [1]) (hsqi : sq.insertedWindowDims = [0])
    (hsqd : sq.scatterDimsToOperandDims = [0]) (hsqv : sq.indexVectorDim = 1)
    (hn : 0 < n) (S D : IVec (⟨2, ![m, 1]⟩ : Shape) w) (h : Arr n k) (W : Arr k q) (d : EReal)
    (hh : ∀ i, IsReal (h i)) (hW : ∀ i, IsReal (W i)) (hd : IsReal d) (hd0 : d ≠ 0) (r : Fin n) (c : Fin q) :
    Host.scatterAdd (F := Ideal) (φ := φ) sq (fun _ => zeroF) D (Host.gather gq (lin h W) S) (ix2 r c)
        * Ideal.div oneF d
      = ∑ l : Fin k,
          Ideal.div (Host.scatterAdd (F := Ideal) (φ := φ) sk (fun _ => zeroF) D (Host.gather gk h S) (ix2 r l)) d
            * W (ix2 l c) := by
  rw [scatterAdd_rows_apply sq hsqu hsqi hsqd hsqv]
  simp only [scatterAdd_rows_apply sk hsku hski hskd hskv,
    EdgeOps.gather_rows_apply gq hgqo hgqc hgqob hgqsb hgqm hgqv hgqs hn,
    EdgeOps.gather_rows_apply gk hgko hgkc hgkob hgksb hgkm hgkv hgks hn, lin_ix2]
  have hh' : ∀ i, ∃ a : ℝ, h i = (a : EReal) := hh
  have hW' : ∀ i, ∃ a : ℝ, W i = (a : EReal) := hW
  choose hr hhr using hh'
  choose wr hwr using hW'
  obtain ⟨dr, rfl⟩ := hd
  have hdr : dr ≠ 0 := fun e => hd0 (by rw [e, EReal.coe_zero])
  simp only [hhr, hwr, zeroF_eq, oneF_eq, Ideal.div_coe hdr, zero_add, one_mul]
  simp only [← EReal.coe_mul, ← RealSums.coe_sum_real]
  rw [EReal.coe_eq_coe_iff, Finset.sum_comm, Finset.sum_mul]
  refine Finset.sum_congr rfl fun l _ => ?_
  rw [← Finset.sum_mul]
  ring

end SegSum

end
-- ==== Proof.Spec.lean ====
/-
  The batch normalisation of one layer, entry by entry, in the two arrangements the programs use, and the law that
  joins them.

  For a table x of N rows and 128 columns, column j has the sums s1 = Σ_r x(r, j) and s2 = Σ_r x(r, j)².  One program
  normalises entry (r, j) in the folded form  x · (g · ρ) + (b − μ · (g · ρ)),  μ = s1 / N,  ρ = 1 / √((s2 / N − μ²) + ε);
  the other in the centred form  ((x − μ) · ρ') · g + b,  ρ' = 1 / √(v + ε),  v = (Σ_r (x(r, j) − μ)²) / N.  When every
  entry of the column, g and b are real numbers the two agree (the law of BnPlain: the second moment about the mean is
  the mean square less the squared mean, it is not negative, so the inverse square root is a real number, and the rest
  is distributivity).  The leaky rectifier, applied to both, keeps real numbers real.
-/
import proofs.«116561_j3624952397847_1_alg».proof.Proof.BnPlain
import proofs.«116561_j3624952397847_1_alg».proof.Proof.Consts
import proofs.«116561_j3624952397847_1_alg».proof.Proof.LibSegSum
import proofs.«116561_j3624952397847_1_alg».proof.Proof.LibMatProd

noncomputable section

open scoped BigOperators

namespace Gin

open Idealize.ShloMosaic Idealize.ShloMosaic.ValueIdx GcnSpec SegSum

/-- The constants the programs spell. -/
def slopeC : EReal := Ideal.ofBits .f32 0x3C23D70A#32
def oneC : EReal := Ideal.ofBits .f32 0x3F800000#32
def nC : EReal := Ideal.ofBits .f32 0x47C35000#32
def epsC : EReal := Ideal.ofBits .f32 0x3727C5AC#32
def zeroC : EReal := Ideal.ofBits .f32 0x00000000#32

/-- The leaky rectifier on one number: x where x ≥ 0, else slope · x. -/
def lr (x : EReal) : EReal := Scalar.select (Ideal.cmp .oge x zeroC) x (slopeC * x)

theorem isReal_slope : IsReal slopeC := by
  obtain ⟨s, hs⟩ := Consts.ofBits_slope
  exact ⟨s, hs⟩

theorem isReal_lr {x : EReal} (hx : IsReal x) : IsReal (lr x) := by
  unfold lr Scalar.select
  split
  · exact hx
  · exact isReal_mul isReal_slope hx

/-- Entry (r, j) normalised in the folded form, from the column's two sums. -/
def bnFold {n : ℕ} (g b : Fin 128 → EReal) (x : Arr n 128) (r : Fin n) (j : Fin 128) : EReal :=
  BnPlain.foldedOut nC epsC (∑ r' : Fin n, x (ix2 r' j)) (∑ r' : Fin n, x (ix2 r' j) * x (ix2 r' j)) (g j) (b j) (x (ix2 r j))

/-- Entry (r, j) normalised in the centred form, from the column's sum and its second moment about the mean. -/
def bnCent {n : ℕ} (g b : Fin 128 → EReal) (x : Arr n 128) (r : Fin n) (j : Fin 128) : EReal :=
  BnLaw.centredOut nC epsC
    (Ideal.div (∑ r' : Fin n, (x (ix2 r' j) - Ideal.div (∑ r'' : Fin n, x (ix2 r'' j)) nC)
        * (x (ix2 r' j) - Ideal.div (∑ r'' : Fin n, x (ix2 r'' j)) nC)) nC)
    (∑ r' : Fin n, x (ix2 r' j)) (g j) (b j) (x (ix2 r j))

/-- THE LAW at an entry of a table of 100000 rows of real numbers. -/
theorem bnFold_eq_bnCent (g b : Fin 128 → EReal) (x : Arr 100000 128) (hx : ∀ i, IsReal (x i))
    (hg : ∀ j, IsReal (g j)) (hb : ∀ j, IsReal (b j)) (r : Fin 100000) (j : Fin 128) :
    bnFold g b x r j = bnCent g b x r j := by
  choose c hc using fun r' : Fin 100000 => hx (ix2 r' j)
  obtain ⟨gg, hgg⟩ := hg j
  obtain ⟨bb, hbb⟩ := hb j
  obtain ⟨e, he, hee⟩ := Consts.ofBits_eps
  have hN : nC = (((100000 : ℕ) : ℝ) : EReal) := by
    unfold nC; rw [Consts.ofBits_n]; norm_num
  have h := BnPlain.folded_eq_centred (N := 100000) (by norm_num) c e he gg bb (c r)
  unfold bnFold bnCent
  simp only [hc, hgg, hbb, hN]
  unfold epsC
  rw [hee]
  exact h

/-- The folded form of a real column with real scale and shift is a real number. -/
theorem isReal_bnCent (g b : Fin 128 → EReal) (x : Arr 100000 128) (hx : ∀ i, IsReal (x i))
    (hg : ∀ j, IsReal (g j)) (hb : ∀ j, IsReal (b j)) (r : Fin 100000) (j : Fin 128) : IsReal (bnCent g b x r j) := by
  choose c hc using fun r' : Fin 100000 => hx (ix2 r' j)
  obtain ⟨e, he, hee⟩ := Consts.ofBits_eps
  have hN : nC = ((100000 : ℝ) : EReal) := by unfold nC; rw [Consts.ofBits_n]
  have hN0 : (100000 : ℝ) ≠ 0 := by norm_num
  unfold bnCent BnLaw.centredOut
  simp only [hc, hN]
  have hs1 : ∑ r' : Fin 100000, (c r' : EReal) = ((∑ r', c r' : ℝ) : EReal) := (RealSums.coe_sum_real _ _).symm
  rw [hs1, BnLaw.div_real _ hN0]
  set μ : ℝ := (∑ r', c r') / 100000
  have hv : ∑ r' : Fin 100000, ((c r' : EReal) - (μ : EReal)) * ((c r' : EReal) - (μ : EReal))
      = ((∑ r', (c r' - μ) * (c r' - μ) : ℝ) : EReal) := by
    rw [RealSums.coe_sum_real]
    exact Finset.sum_congr rfl fun r' _ => by rw [← EReal.coe_sub, ← EReal.coe_mul]
  rw [hv, BnLaw.div_real _ hN0]
  unfold epsC
  rw [hee, ← EReal.coe_add]
  have hpos : 0 < (∑ r', (c r' - μ) * (c r' - μ)) / 100000 + e := by
    have : 0 ≤ (∑ r' : Fin 100000, (c r' - μ) * (c r' - μ)) / (100000 : ℝ) :=
      div_nonneg (Finset.sum_nonneg fun r' _ => mul_self_nonneg _) (by norm_num)
    linarith
  rw [BnLaw.rsqrt_pos hpos]
  exact isReal_add (isReal_mul (isReal_mul (isReal_sub (isReal_coe _) (isReal_coe _)) (isReal_coe _)) (hg j)) (hb j)

/-! ## The perceptron of one layer, entry by entry -/

/-- The column of an index of a table. -/
abbrev colOf {n k : ℕ} (i : (⟨2, ![n, k]⟩ : Shape).Idx) : Fin k := ⟨(i 1).val, idx2_lt1 i⟩

/-- (1 + eps) · h + sum, entry by entry (eps given along a row: the programs lay the layer's one eps along 128 columns). -/
def ginIn {n : ℕ} (e : Fin 128 → EReal) (h g : Arr n 128) : Arr n 128 := fun i => (oneC + e (colOf i)) * h i + g i

/-- A table times a matrix, plus a row of biases. -/
def affine {n k q : ℕ} (x : Arr n k) (W : Arr k q) (c : Fin q → EReal) : Arr n q := fun i => MatProd.mm x W i + c (colOf i)

/-- The leaky rectifier on every entry. -/
def lrArr {n k : ℕ} (x : Arr n k) : Arr n k := fun i => lr (x i)

/-- One layer's rows before normalisation. -/
def mlpE {n : ℕ} (e : Fin 128 → EReal) (h g : Arr n 128) (W1 : Arr 128 128) (c1 : Fin 128 → EReal) (W2 : Arr 128 128) (c2 : Fin 128 → EReal) :
    Arr n 128 :=
  affine (lrArr (affine (ginIn e h g) W1 c1)) W2 c2

theorem isReal_oneC : IsReal oneC := ⟨1, Consts.ofBits_one⟩

theorem isReal_mm {n k q : ℕ} (x : Arr n k) (W : Arr k q) (hx : ∀ i, IsReal (x i)) (hW : ∀ i, IsReal (W i))
    (i : (⟨2, ![n, q]⟩ : Shape).Idx) : IsReal (MatProd.mm x W i) := by
  unfold MatProd.mm MatProd.entry
  exact isReal_sum _ _ fun l _ => isReal_mul (hx _) (hW _)

theorem isReal_affine {n k q : ℕ} (x : Arr n k) (W : Arr k q) (c : Fin q → EReal) (hx : ∀ i, IsReal (x i))
    (hW : ∀ i, IsReal (W i)) (hc : ∀ j, IsReal (c j)) (i : (⟨2, ![n, q]⟩ : Shape).Idx) : IsReal (affine x W c i) :=
  isReal_add (isReal_mm x W hx hW i) (hc _)

theorem isReal_mlpE {n : ℕ} (e : Fin 128 → EReal) (h g : Arr n 128) (W1 : Arr 128 128) (c1 : Fin 128 → EReal) (W2 : Arr 128 128)
    (c2 : Fin 128 → EReal) (he : ∀ j, IsReal (e j)) (hh : ∀ i, IsReal (h i)) (hg : ∀ i, IsReal (g i)) (hW1 : ∀ i, IsReal (W1 i))
    (hc1 : ∀ j, IsReal (c1 j)) (hW2 : ∀ i, IsReal (W2 i)) (hc2 : ∀ j, IsReal (c2 j)) (i : (⟨2, ![n, 128]⟩ : Shape).Idx) :
    IsReal (mlpE e h g W1 c1 W2 c2 i) :=
  isReal_affine _ _ _ (fun i => isReal_lr (isReal_affine _ _ _
    (fun i => isReal_add (isReal_mul (isReal_add isReal_oneC (he _)) (hh i)) (hg i)) hW1 hc1 i)) hW2 hc2 i

/-- The classifier on the pooled rows: leaky rectifier, matrix, bias, leaky rectifier, matrix, bias. -/
def clsE {n k q m : ℕ} (p : Arr n k) (W1 : Arr k q) (c1 : Fin q → EReal) (W2 : Arr q m) (c2 : Fin m → EReal) : Arr n m :=
  affine (lrArr (affine (lrArr p) W1 c1)) W2 c2

/-- One layer's output in the folded arrangement, and in the centred one. -/
def layerFold (g b : Fin 128 → EReal) (x : Arr 100000 128) : Arr 100000 128 :=
  fun i => lr (bnFold g b x ⟨(i 0).val, idx2_lt0 i⟩ (colOf i))
def layerCent (g b : Fin 128 → EReal) (x : Arr 100000 128) : Arr 100000 128 :=
  fun i => lr (bnCent g b x ⟨(i 0).val, idx2_lt0 i⟩ (colOf i))

theorem layerFold_eq_layerCent (g b : Fin 128 → EReal) (x : Arr 100000 128) (hx : ∀ i, IsReal (x i))
    (hg : ∀ j, IsReal (g j)) (hb : ∀ j, IsReal (b j)) : layerFold g b x = layerCent g b x :=
  funext fun i => congrArg lr (bnFold_eq_bnCent g b x hx hg hb _ _)

theorem isReal_layerCent (g b : Fin 128 → EReal) (x : Arr 100000 128) (hx : ∀ i, IsReal (x i))
    (hg : ∀ j, IsReal (g j)) (hb : ∀ j, IsReal (b j)) (i : (⟨2, ![100000, 128]⟩ : Shape).Idx) : IsReal (layerCent g b x i) :=
  isReal_lr (isReal_bnCent g b x hx hg hb _ _)

end Gin

end
-- ==== Proof.KI.HostBN.lean ====
/- The four stretches of host operations that turn a layer's column sums into the normalisation's scale and shift
   rows, read entry by entry on the extended reals.

   From the column sums s1 = Σ x and s2 = Σ x² (one-row tables) and the layer's rows g, b of the scale and shift
   parameters, the stretch computes the mean μ = s1 / N, the mean square s2 / N, the variance s2 / N − μ · μ, the
   reciprocal root ρ of the variance plus ε, the scale g · ρ and the shift b − μ · (g · ρ). So x · scale + shift
   at a column is the folded form of the normalised entry. -/
import proofs.«116561_j3624952397847_1_alg».proof.Proof.KI.Fold
import proofs.«116561_j3624952397847_1_alg».proof.Proof.Spec
import proofs.«116561_j3624952397847_1_alg».proof.Proof.Ref.Net
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

section Pure

variable {F : FTy → Type} [FloatOps F]

/-- A one-row table of column sums over the row count, as a vector: the column means. -/
def hostMean (s : FVec F S1x128 .f32) : FVec F S128 .f32 :=
  Host.divf (shapeCast S128 s shapeCasts_S1x128_S128) (broadcastInDim S128 ![] bcast_S_S128 (constant S_ .f32 0x47C35000#32))

/-- The scale: g over the root of (mean square − mean · mean + ε). -/
def hostScale (s1 s2 g : FVec F S1x128 .f32) : FVec F S128 .f32 :=
  mulf (shapeCast S128 g shapeCasts_S1x128_S128)
    (Host.rsqrt (addf (subf (hostMean s2) (mulf (hostMean s1) (hostMean s1)))
      (broadcastInDim S128 ![] bcast_S_S128 (constant S_ .f32 0x3727C5AC#32))))

/-- The shift: b less the mean times the scale. -/
def hostShift (s1 s2 g b : FVec F S1x128 .f32) : FVec F S128 .f32 :=
  subf (shapeCast S128 b shapeCasts_S1x128_S128) (mulf (hostMean s1) (hostScale s1 s2 g))

end Pure

/-- The host's reciprocal square root at an index. -/
theorem hostRsqrt_apply {s : Shape} (v : FVec Ideal s .f32) (i : s.Idx) : Host.rsqrt v i = Ideal.rsqrt (v i) := rfl

/-- The mean of column j. -/
theorem hostMean_apply (s : FVec Ideal S1x128 .f32) (j : Fin 128) :
    hostMean s (ix1 j) = Ideal.div (s (ix2 (0 : Fin 1) j)) Gin.nC := by
  unfold hostMean
  rw [hostDivf_apply, shapeCast_1a_a_apply, broadcastInDim_scalar_apply, constant_apply]
  rfl

/-- The scale at column j. -/
theorem hostScale_apply (s1 s2 g : FVec Ideal S1x128 .f32) (j : Fin 128) :
    hostScale s1 s2 g (ix1 j)
      = g (ix2 (0 : Fin 1) j) * Ideal.rsqrt ((Ideal.div (s2 (ix2 (0 : Fin 1) j)) Gin.nC
          - Ideal.div (s1 (ix2 (0 : Fin 1) j)) Gin.nC * Ideal.div (s1 (ix2 (0 : Fin 1) j)) Gin.nC) + Gin.epsC) := by
  unfold hostScale
  rw [mulf_apply, shapeCast_1a_a_apply, hostRsqrt_apply, addf_apply, subf_apply, mulf_apply, hostMean_apply, hostMean_apply, broadcastInDim_scalar_apply, constant_apply]
  rfl

/-- x · scale + shift at column j is the folded form of the normalised entry. -/
theorem fold_read (s1 s2 g b : FVec Ideal S1x128 .f32) (x : EReal) (j : Fin 128) :
    x * shapeCast S1x128 (hostScale s1 s2 g) shapeCasts_S128_S1x128 (ix2 (0 : Fin 1) j)
        + shapeCast S1x128 (hostShift s1 s2 g b) shapeCasts_S128_S1x128 (ix2 (0 : Fin 1) j)
      = BnPlain.foldedOut Gin.nC Gin.epsC (s1 (ix2 (0 : Fin 1) j)) (s2 (ix2 (0 : Fin 1) j)) (g (ix2 (0 : Fin 1) j))
          (b (ix2 (0 : Fin 1) j)) x := by
  rw [shapeCast_a_1a_apply, shapeCast_a_1a_apply]
  unfold hostShift
  rw [subf_apply, mulf_apply, shapeCast_1a_a_apply, hostMean_apply, hostScale_apply]
  rfl

/-- Row l of a table of four rows, cut out as a one-row table, at (0, j): the table's entry (l, j). -/
theorem rowCut_apply {α : Type} (l : ℕ) (hl : l < 4) (a : S4x128.Idx → α) (h : S4x128.Slices ![l, 0] S1x128) (j : Fin 128) :
    extractStridedSlice S1x128 ![l, 0] a h (ix2 (0 : Fin 1) j) = a (ix2 (⟨l, hl⟩ : Fin 4) j) :=
  slice2_axis0_apply l a h (0 : Fin 1) j ⟨l, hl⟩ (by simp)

/-! ## The four stretches -/

section Read

variable (m : (ℓ : Loc nD τ sig) → Buf (Elt Ideal) ℓ) (ρ : Dev nD → PrngReg)

/-- Layer 0's scale row after the stretch: the scale of the two sums rows and the parameters' row 0, as a one-row table. -/
theorem U4_scale (c : Dev nD) :
    @Eq (S1x128.Idx → EReal) (U4 m ρ c main_v47)
      (shapeCast S1x128 (hostScale (F := Ideal) (U3 m ρ c main_v28_1 : S1x128.Idx → EReal) (U3 m ρ c main_v28_2 : S1x128.Idx → EReal)
          (extractStridedSlice S1x128 ![0, 0] (U3 m ρ c main_arg8 : S4x128.Idx → EReal) slices_S4x128_S1x128_0_0)) shapeCasts_S128_S1x128) := by
  show StableHlo.after hostOps1 (W3 m ρ c) (Proc.devRef .tc main_v47) = _
  after_results_simp
  rfl

/-- Layer 0's shift row after the stretch. -/
theorem U4_shift (c : Dev nD) :
    @Eq (S1x128.Idx → EReal) (U4 m ρ c main_v48)
      (shapeCast S1x128 (hostShift (F := Ideal) (U3 m ρ c main_v28_1 : S1x128.Idx → EReal) (U3 m ρ c main_v28_2 : S1x128.Idx → EReal)
          (extractStridedSlice S1x128 ![0, 0] (U3 m ρ c main_arg8 : S4x128.Idx → EReal) slices_S4x128_S1x128_0_0)
          (extractStridedSlice S1x128 ![0, 0] (U3 m ρ c main_arg9 : S4x128.Idx → EReal) slices_S4x128_S1x128_0_0)) shapeCasts_S128_S1x128) := by
  show StableHlo.after hostOps1 (W3 m ρ c) (Proc.devRef .tc main_v48) = _
  after_results_simp
  rfl

/-- Layer 0: x · scale + shift at column j is the folded form of the normalised entry, from the sums the region left. -/
theorem U4_fold_entry (c : Dev nD) (x : EReal) (j : Fin 128) :
    x * (U4 m ρ c main_v47 : S1x128.Idx → EReal) (ix2 (0 : Fin 1) j) + (U4 m ρ c main_v48 : S1x128.Idx → EReal) (ix2 (0 : Fin 1) j)
      = BnPlain.foldedOut Gin.nC Gin.epsC ((U3 m ρ c main_v28_1 : S1x128.Idx → EReal) (ix2 (0 : Fin 1) j))
          ((U3 m ρ c main_v28_2 : S1x128.Idx → EReal) (ix2 (0 : Fin 1) j))
          ((U3 m ρ c main_arg8 : S4x128.Idx → EReal) (ix2 (0 : Fin 4) j))
          ((U3 m ρ c main_arg9 : S4x128.Idx → EReal) (ix2 (0 : Fin 4) j)) x := by
  rw [U4_scale, U4_shift, fold_read, rowCut_apply 0 (by decide), rowCut_apply 0 (by decide)]
  rfl

/-- The same with the parameters' row spelt as the reference's cut of row 0. -/
theorem U4_fold (c : Dev nD) (x : EReal) (j : Fin 128) :
    x * (U4 m ρ c main_v47 : S1x128.Idx → EReal) (ix2 (0 : Fin 1) j) + (U4 m ρ c main_v48 : S1x128.Idx → EReal) (ix2 (0 : Fin 1) j)
      = BnPlain.foldedOut Gin.nC Gin.epsC ((U3 m ρ c main_v28_1 : S1x128.Idx → EReal) (ix2 (0 : Fin 1) j))
          ((U3 m ρ c main_v28_2 : S1x128.Idx → EReal) (ix2 (0 : Fin 1) j))
          (Cert.ReferenceIdeal.Hand.row0 (F := Ideal) (U3 m ρ c main_arg8 : S4x128.Idx → EReal) (ix2 (0 : Fin 1) j))
          (Cert.ReferenceIdeal.Hand.row0 (F := Ideal) (U3 m ρ c main_arg9 : S4x128.Idx → EReal) (ix2 (0 : Fin 1) j)) x := by
  rw [U4_scale, U4_shift, fold_read]
  rfl

/-- Layer 1's scale row after the stretch: the scale of the two sums rows and the parameters' row 1, as a one-row table. -/
theorem U8_scale (c : Dev nD) :
    @Eq (S1x128.Idx → EReal) (U8 m ρ c main_v92)
      (shapeCast S1x128 (hostScale (F := Ideal) (U7 m ρ c main_v73_1 : S1x128.Idx → EReal) (U7 m ρ c main_v73_2 : S1x128.Idx → EReal)
          (extractStridedSlice S1x128 ![1, 0] (U7 m ρ c main_arg8 : S4x128.Idx → EReal) slices_S4x128_S1x128_1_0)) shapeCasts_S128_S1x128) := by
  show StableHlo.after hostOps3 (W7 m ρ c) (Proc.devRef .tc main_v92) = _
  after_results_simp
  rfl

/-- Layer 1's shift row after the stretch. -/
theorem U8_shift (c : Dev nD) :
    @Eq (S1x128.Idx → EReal) (U8 m ρ c main_v93)
      (shapeCast S1x128 (hostShift (F := Ideal) (U7 m ρ c main_v73_1 : S1x128.Idx → EReal) (U7 m ρ c main_v73_2 : S1x128.Idx → EReal)
          (extractStridedSlice S1x128 ![1, 0] (U7 m ρ c main_arg8 : S4x128.Idx → EReal) slices_S4x128_S1x128_1_0)
          (extractStridedSlice S1x128 ![1, 0] (U7 m ρ c main_arg9 : S4x128.Idx → EReal) slices_S4x128_S1x128_1_0)) shapeCasts_S128_S1x128) := by
  show StableHlo.after hostOps3 (W7 m ρ c) (Proc.devRef .tc main_v93) = _
  after_results_simp
  rfl

/-- Layer 1: x · scale + shift at column j is the folded form of the normalised entry, from the sums the region left. -/
theorem U8_fold_entry (c : Dev nD) (x : EReal) (j : Fin 128) :
    x * (U8 m ρ c main_v92 : S1x128.Idx → EReal) (ix2 (0 : Fin 1) j) + (U8 m ρ c main_v93 : S1x128.Idx → EReal) (ix2 (0 : Fin 1) j)
      = BnPlain.foldedOut Gin.nC Gin.epsC ((U7 m ρ c main_v73_1 : S1x128.Idx → EReal) (ix2 (0 : Fin 1) j))
          ((U7 m ρ c main_v73_2 : S1x128.Idx → EReal) (ix2 (0 : Fin 1) j))
          ((U7 m ρ c main_arg8 : S4x128.Idx → EReal) (ix2 (1 : Fin 4) j))
          ((U7 m ρ c main_arg9 : S4x128.Idx → EReal) (ix2 (1 : Fin 4) j)) x := by
  rw [U8_scale, U8_shift, fold_read, rowCut_apply 1 (by decide), rowCut_apply 1 (by decide)]
  rfl

/-- The same with the parameters' row spelt as the reference's cut of row 1. -/
theorem U8_fold (c : Dev nD) (x : EReal) (j : Fin 128) :
    x * (U8 m ρ c main_v92 : S1x128.Idx → EReal) (ix2 (0 : Fin 1) j) + (U8 m ρ c main_v93 : S1x128.Idx → EReal) (ix2 (0 : Fin 1) j)
      = BnPlain.foldedOut Gin.nC Gin.epsC ((U7 m ρ c main_v73_1 : S1x128.Idx → EReal) (ix2 (0 : Fin 1) j))
          ((U7 m ρ c main_v73_2 : S1x128.Idx → EReal) (ix2 (0 : Fin 1) j))
          (Cert.ReferenceIdeal.Hand.row1 (F := Ideal) (U7 m ρ c main_arg8 : S4x128.Idx → EReal) (ix2 (0 : Fin 1) j))
          (Cert.ReferenceIdeal.Hand.row1 (F := Ideal) (U7 m ρ c main_arg9 : S4x128.Idx → EReal) (ix2 (0 : Fin 1) j)) x := by
  rw [U8_scale, U8_shift, fold_read]
  rfl

/-- Layer 2's scale row after the stretch: the scale of the two sums rows and the parameters' row 2, as a one-row table. -/
theorem U12_scale (c : Dev nD) :
    @Eq (S1x128.Idx → EReal) (U12 m ρ c main_v137)
      (shapeCast S1x128 (hostScale (F := Ideal) (U11 m ρ c main_v118_1 : S1x128.Idx → EReal) (U11 m ρ c main_v118_2 : S1x128.Idx → EReal)
          (extractStridedSlice S1x128 ![2, 0] (U11 m ρ c main_arg8 : S4x128.Idx → EReal) slices_S4x128_S1x128_2_0)) shapeCasts_S128_S1x128) := by
  show StableHlo.after hostOps5 (W11 m ρ c) (Proc.devRef .tc main_v137) = _
  after_results_simp
  rfl

/-- Layer 2's shift row after the stretch. -/
theorem U12_shift (c : Dev nD) :
    @Eq (S1x128.Idx → EReal) (U12 m ρ c main_v138)
      (shapeCast S1x128 (hostShift (F := Ideal) (U11 m ρ c main_v118_1 : S1x128.Idx → EReal) (U11 m ρ c main_v118_2 : S1x128.Idx → EReal)
          (extractStridedSlice S1x128 ![2, 0] (U11 m ρ c main_arg8 : S4x128.Idx → EReal) slices_S4x128_S1x128_2_0)
          (extractStridedSlice S1x128 ![2, 0] (U11 m ρ c main_arg9 : S4x128.Idx → EReal) slices_S4x128_S1x128_2_0)) shapeCasts_S128_S1x128) := by
  show StableHlo.after hostOps5 (W11 m ρ c) (Proc.devRef .tc main_v138) = _
  after_results_simp
  rfl

/-- Layer 2: x · scale + shift at column j is the folded form of the normalised entry, from the sums the region left. -/
theorem U12_fold_entry (c : Dev nD) (x : EReal) (j : Fin 128) :
    x * (U12 m ρ c main_v137 : S1x128.Idx → EReal) (ix2 (0 : Fin 1) j) + (U12 m ρ c main_v138 : S1x128.Idx → EReal) (ix2 (0 : Fin 1) j)
      = BnPlain.foldedOut Gin.nC Gin.epsC ((U11 m ρ c main_v118_1 : S1x128.Idx → EReal) (ix2 (0 : Fin 1) j))
          ((U11 m ρ c main_v118_2 : S1x128.Idx → EReal) (ix2 (0 : Fin 1) j))
          ((U11 m ρ c main_arg8 : S4x128.Idx → EReal) (ix2 (2 : Fin 4) j))
          ((U11 m ρ c main_arg9 : S4x128.Idx → EReal) (ix2 (2 : Fin 4) j)) x := by
  rw [U12_scale, U12_shift, fold_read, rowCut_apply 2 (by decide), rowCut_apply 2 (by decide)]
  rfl

/-- The same with the parameters' row spelt as the reference's cut of row 2. -/
theorem U12_fold (c : Dev nD) (x : EReal) (j : Fin 128) :
    x * (U12 m ρ c main_v137 : S1x128.Idx → EReal) (ix2 (0 : Fin 1) j) + (U12 m ρ c main_v138 : S1x128.Idx → EReal) (ix2 (0 : Fin 1) j)
      = BnPlain.foldedOut Gin.nC Gin.epsC ((U11 m ρ c main_v118_1 : S1x128.Idx → EReal) (ix2 (0 : Fin 1) j))
          ((U11 m ρ c main_v118_2 : S1x128.Idx → EReal) (ix2 (0 : Fin 1) j))
          (Cert.ReferenceIdeal.Hand.row2 (F := Ideal) (U11 m ρ c main_arg8 : S4x128.Idx → EReal) (ix2 (0 : Fin 1) j))
          (Cert.ReferenceIdeal.Hand.row2 (F := Ideal) (U11 m ρ c main_arg9 : S4x128.Idx → EReal) (ix2 (0 : Fin 1) j)) x := by
  rw [U12_scale, U12_shift, fold_read]
  rfl

/-- Layer 3's scale row after the stretch: the scale of the two sums rows and the parameters' row 3, as a one-row table. -/
theorem U16_scale (c : Dev nD) :
    @Eq (S1x128.Idx → EReal) (U16 m ρ c main_v182)
      (shapeCast S1x128 (hostScale (F := Ideal) (U15 m ρ c main_v163_1 : S1x128.Idx → EReal) (U15 m ρ c main_v163_2 : S1x128.Idx → EReal)
          (extractStridedSlice S1x128 ![3, 0] (U15 m ρ c main_arg8 : S4x128.Idx → EReal) slices_S4x128_S1x128_3_0)) shapeCasts_S128_S1x128) := by
  show StableHlo.after hostOps7 (W15 m ρ c) (Proc.devRef .tc main_v182) = _
  after_results_simp
  rfl

/-- Layer 3's shift row after the stretch. -/
theorem U16_shift (c : Dev nD) :
    @Eq (S1x128.Idx → EReal) (U16 m ρ c main_v183)
      (shapeCast S1x128 (hostShift (F := Ideal) (U15 m ρ c main_v163_1 : S1x128.Idx → EReal) (U15 m ρ c main_v163_2 : S1x128.Idx → EReal)
          (extractStridedSlice S1x128 ![3, 0] (U15 m ρ c main_arg8 : S4x128.Idx → EReal) slices_S4x128_S1x128_3_0)
          (extractStridedSlice S1x128 ![3, 0] (U15 m ρ c main_arg9 : S4x128.Idx → EReal) slices_S4x128_S1x128_3_0)) shapeCasts_S128_S1x128) := by
  show StableHlo.after hostOps7 (W15 m ρ c) (Proc.devRef .tc main_v183) = _
  after_results_simp
  rfl

/-- Layer 3: x · scale + shift at column j is the folded form of the normalised entry, from the sums the region left. -/
theorem U16_fold_entry (c : Dev nD) (x : EReal) (j : Fin 128) :
    x * (U16 m ρ c main_v182 : S1x128.Idx → EReal) (ix2 (0 : Fin 1) j) + (U16 m ρ c main_v183 : S1x128.Idx → EReal) (ix2 (0 : Fin 1) j)
      = BnPlain.foldedOut Gin.nC Gin.epsC ((U15 m ρ c main_v163_1 : S1x128.Idx → EReal) (ix2 (0 : Fin 1) j))
          ((U15 m ρ c main_v163_2 : S1x128.Idx → EReal) (ix2 (0 : Fin 1) j))
          ((U15 m ρ c main_arg8 : S4x128.Idx → EReal) (ix2 (3 : Fin 4) j))
          ((U15 m ρ c main_arg9 : S4x128.Idx → EReal) (ix2 (3 : Fin 4) j)) x := by
  rw [U16_scale, U16_shift, fold_read, rowCut_apply 3 (by decide), rowCut_apply 3 (by decide)]
  rfl

/-- The same with the parameters' row spelt as the reference's cut of row 3. -/
theorem U16_fold (c : Dev nD) (x : EReal) (j : Fin 128) :
    x * (U16 m ρ c main_v182 : S1x128.Idx → EReal) (ix2 (0 : Fin 1) j) + (U16 m ρ c main_v183 : S1x128.Idx → EReal) (ix2 (0 : Fin 1) j)
      = BnPlain.foldedOut Gin.nC Gin.epsC ((U15 m ρ c main_v163_1 : S1x128.Idx → EReal) (ix2 (0 : Fin 1) j))
          ((U15 m ρ c main_v163_2 : S1x128.Idx → EReal) (ix2 (0 : Fin 1) j))
          (Cert.ReferenceIdeal.Hand.row3 (F := Ideal) (U15 m ρ c main_arg8 : S4x128.Idx → EReal) (ix2 (0 : Fin 1) j))
          (Cert.ReferenceIdeal.Hand.row3 (F := Ideal) (U15 m ρ c main_arg9 : S4x128.Idx → EReal) (ix2 (0 : Fin 1) j)) x := by
  rw [U16_scale, U16_shift, fold_read]
  rfl

end Read

end Cert.KernelIdeal.Hand

end
-- ==== Proof.KI.ValB1.lean ====
/- Region 1's value: the array its output window's write-backs leave, as one function of the three arrays its
   input windows read — at every index the affine map of the entry by its column's scale and shift, then the
   leaky rectifier of slope 0.01. -/
import proofs.«116561_j3624952397847_1_alg».proof.Proof.KI.RegB1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The pass on scalars: `z = x·s + b`, then `z` where `z ≥ 0` and `0.01·z` elsewhere. -/
def act1 (x s b : F .f32) : F .f32 :=
  Scalar.select (FloatOps.cmpf .oge (FloatOps.addf (FloatOps.mulf x s) b) (FloatOps.ofBits .f32 0x00000000#32))
    (FloatOps.addf (FloatOps.mulf x s) b)
    (FloatOps.mulf (FloatOps.ofBits .f32 0x3C23D70A#32) (FloatOps.addf (FloatOps.mulf x s) b))

/-- The body's payload at an index: the scalar pass of the block's entry there and of the scale and shift rows'
    entries at its column. -/
theorem pay1_apply (x0 : Vec F S5000x128 .f32) (x1 x2 : Vec F S1x128 .f32) (p : Fin 5000) (q : Fin 128) :
    k1_pay1 x0 x1 x2 (ix2 p q) = act1 (x0 (ix2 p q)) (x1 (ix2 0 q)) (x2 (ix2 0 q)) := by
  have hb : ∀ (v : FVec F S1x128 .f32), broadcastTo S5000x128 v broadcasts_S1x128_S5000x128 (ix2 p q) = v (ix2 0 q) := fun v =>
    broadcastTo_apply v _ (ix2 p q) (ix2 0 q) (fun a => by match a with | ⟨0, _⟩ => rfl | ⟨1, _⟩ => rfl)
  have hm : ∀ (a b : FVec F S5000x128 .f32) (i : S5000x128.Idx), mulf a b i = FloatOps.mulf (a i) (b i) := fun _ _ _ => rfl
  have ha : ∀ (a b : FVec F S5000x128 .f32) (i : S5000x128.Idx), addf a b i = FloatOps.addf (a i) (b i) := fun _ _ _ => rfl
  unfold k1_pay1 act1
  simp only [shapeCast_self, select_apply, cmpf_apply, broadcast_apply, hm, ha, hb]

/-- The whole-shape rectangle's offsets are zero. -/
theorem hz1 : (![0, 0] : Fin 2 → Nat) = fun _ => 0 := funext fun a => by fin_cases a <;> rfl

/-- What the output window's array ends holding: the scalar pass of the input array's entry and of the scale and
    shift rows' entries at the entry's column. -/
def G1_3 (a0 : S100000x128.Idx → Elt F .f32) (a1 a2 : S1x128.Idx → Elt F .f32) : S100000x128.Idx → Elt F .f32 :=
  fun i => act1 (a0 i) (a1 (ix2 0 (i 1))) (a2 (ix2 0 (i 1)))

/-- `G1_3` at an index whose column is `q`. -/
theorem G1_3_apply (a0 : S100000x128.Idx → Elt F .f32) (a1 a2 : S1x128.Idx → Elt F .f32) (i : S100000x128.Idx) (q : Fin 128)
    (h : (i (1 : Fin 2) : Fin 128) = q) : G1_3 a0 a1 a2 i = act1 (a0 i) (a1 (ix2 (0 : Fin 1) q)) (a2 (ix2 (0 : Fin 1) q)) := by
  subst h; rfl

/-- The index maps over the grid: the input and output blocks of rows move together, one block of 5000 rows a
    point; the scale and shift rows stay. -/
theorem idx_facts1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- An element of the input block of rows at point `t` sits in its array where the same element of the output block
    sits in the output's. -/
theorem emb1_0 (t : Fin cfg1.N) (p : Fin 5000) (q : Fin 128) :
    ((cfg1.win 0).blk t).view.emb (ix2 p q : S5000x128.Idx) = ((cfg1.win 3).blk t).view.emb (ix2 p q : S5000x128.Idx) := by
  obtain ⟨e0, e1, e2, e3, e4, e5, e6, e7⟩ := idx_facts1 t
  funext a; apply Fin.ext
  match a with
  | ⟨0, _⟩ => show win1_0.index t (0 : Fin 2) * 5000 + 1 * p.val = win1_3.index t (0 : Fin 2) * 5000 + 1 * p.val; omega
  | ⟨1, _⟩ => show win1_0.index t (1 : Fin 2) * 128 + 1 * q.val = win1_3.index t (1 : Fin 2) * 128 + 1 * q.val; omega
/-- The scale row's and the shift row's blocks are their whole arrays at every point. -/
theorem emb1_1 (t : Fin cfg1.N) (q : Fin 128) :
    ((cfg1.win 1).blk t).view.emb (ix2 (0 : Fin 1) q : S1x128.Idx) = (ix2 (0 : Fin 1) q : S1x128.Idx) := by
  obtain ⟨e0, e1, e2, e3, e4, e5, e6, e7⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega
theorem emb1_2 (t : Fin cfg1.N) (q : Fin 128) :
    ((cfg1.win 2).blk t).view.emb (ix2 (0 : Fin 1) q : S1x128.Idx) = (ix2 (0 : Fin 1) q : S1x128.Idx) := by
  obtain ⟨e0, e1, e2, e3, e4, e5, e6, e7⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega
/-- An element of the output block keeps its column in the array. -/
theorem col1_3 (t : Fin cfg1.N) (p : Fin 5000) (q : Fin 128) :
    (((cfg1.win 3).blk t).view.emb (ix2 p q : S5000x128.Idx) (1 : Fin 2) : Fin 128) = q := by
  obtain ⟨e0, e1, e2, e3, e4, e5, e6, e7⟩ := idx_facts1 t
  exact Fin.ext (show win1_3.index t (1 : Fin 2) * 128 + 1 * q.val = q.val by omega)

/-- So each input block's entry is its array's at the place the output block's element has, or at its column. -/
theorem blk1_0 (V : (c : Dev nD) → (b : Ref sig .tc) → Buf (Elt F) ((c : Thread nD τ).loc b)) (c : Dev nD) (t : Fin cfg1.N) (p : Fin 5000) (q : Fin 128) :
    iblk1 V c 0 t (ix2 p q) = V c (Pipeline.arrRef spec1 0) (((cfg1.win 3).blk t).view.emb (ix2 p q : S5000x128.Idx)) :=
  congrArg (V c (Pipeline.arrRef spec1 0)) (emb1_0 t p q)
theorem blk1_1 (V : (c : Dev nD) → (b : Ref sig .tc) → Buf (Elt F) ((c : Thread nD τ).loc b)) (c : Dev nD) (t : Fin cfg1.N) (q : Fin 128) :
    iblk1 V c 1 t (ix2 (0 : Fin 1) q) = V c (Pipeline.arrRef spec1 1) (ix2 (0 : Fin 1) q : S1x128.Idx) :=
  congrArg (V c (Pipeline.arrRef spec1 1)) (emb1_1 t q)
theorem blk1_2 (V : (c : Dev nD) → (b : Ref sig .tc) → Buf (Elt F) ((c : Thread nD τ).loc b)) (c : Dev nD) (t : Fin cfg1.N) (q : Fin 128) :
    iblk1 V c 2 t (ix2 (0 : Fin 1) q) = V c (Pipeline.arrRef spec1 2) (ix2 (0 : Fin 1) q : S1x128.Idx) :=
  congrArg (V c (Pipeline.arrRef spec1 2)) (emb1_2 t q)

/-- What point `t` writes back is block `t` of `G1_3` of the arrays as the region finds them. -/
theorem flushed1_3_eq (V : (c : Dev nD) → (b : Ref sig .tc) → Buf (Elt F) ((c : Thread nD τ).loc b)) (c : Dev nD) (t : Fin cfg1.N) :
    (dat1 V c).flushed 3 t = ((cfg1.win 3).blk t).view.read (Elt F)
      (G1_3 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1]
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) p q).trans ?_
  refine (congr (congr (congrArg act1 (blk1_0 V c t p q)) (blk1_1 V c t q)) (blk1_2 V c t q)).trans ?_
  show _ = G1_3 (V c (Pipeline.arrRef spec1 0)) (V c (Pipeline.arrRef spec1 1)) (V c (Pipeline.arrRef spec1 2)) (((cfg1.win 3).blk t).view.emb (ix2 p q : S5000x128.Idx))
  exact (G1_3_apply (V c (Pipeline.arrRef spec1 0)) (V c (Pipeline.arrRef spec1 1)) (V c (Pipeline.arrRef spec1 2))
      (((cfg1.win 3).blk t).view.emb (ix2 p q : S5000x128.Idx)) q (col1_3 t p q)).symm

/-- An index of the array is in point `t`'s block iff each coordinate is in the block's range on its axis. -/
theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v49).slice (win1_3.rect t)).set ↔ _
  rw [View.set_slice_whole, Rect.mem_set_unit]
  exact Iff.rfl

/-- Every row is in the block of the point its number divided by 5000 names: the blocks tile the array. -/
theorem covered1_3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e0, e1, e2, e3, e4, e5, e6, e7⟩ := idx_facts1 ⟨(i 0).val / 5000, hlt⟩
  have e2' : win1_3.index ⟨(i 0).val / 5000, hlt⟩ (0 : Fin 2) = (i 0).val / 5000 := e2
  refine ⟨⟨(i 0).val / 5000, hlt⟩, flush1_3 _, ?_⟩
  rw [mem_blk1_3]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 128 ≤ (i 1).val ∧ (i 1).val < win1_3.index ⟨(i 0).val / 5000, hlt⟩ (1 : Fin 2) * 128 + 128; omega

/-- THE ARRAY after the region: `G1_3` of the three arrays the input windows read, as the region finds them. -/
theorem final1_3 (V : (c : Dev nD) → (b : Ref sig .tc) → Buf (Elt F) ((c : Thread nD τ).loc b)) (c : Dev nD) :
    (dat1 V c).arrAt 3 cfg1.N
      = G1_3 (V c (Pipeline.arrRef spec1 0)) (V c (Pipeline.arrRef spec1 1)) (V c (Pipeline.arrRef spec1 2)) :=
  (dat1 V c).arrAt_eq_of_cover 3 _ (fun t _ => flushed1_3_eq V c t) covered1_3

end Cert.KernelIdeal.Hand

end
-- ==== Proof.KI.ValB3.lean ====
/- Region 3's value: the array its output window's write-backs leave, as one function of the three arrays its
   input windows read — at every index the affine map of the entry by its column's scale and shift, then the
   leaky rectifier of slope 0.01. -/
import proofs.«116561_j3624952397847_1_alg».proof.Proof.KI.RegB3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The pass on scalars: `z = x·s + b`, then `z` where `z ≥ 0` and `0.01·z` elsewhere. -/
def act3 (x s b : F .f32) : F .f32 :=
  Scalar.select (FloatOps.cmpf .oge (FloatOps.addf (FloatOps.mulf x s) b) (FloatOps.ofBits .f32 0x00000000#32))
    (FloatOps.addf (FloatOps.mulf x s) b)
    (FloatOps.mulf (FloatOps.ofBits .f32 0x3C23D70A#32) (FloatOps.addf (FloatOps.mulf x s) b))

/-- The body's payload at an index: the scalar pass of the block's entry there and of the scale and shift rows'
    entries at its column. -/
theorem pay3_apply (x0 : Vec F S5000x128 .f32) (x1 x2 : Vec F S1x128 .f32) (p : Fin 5000) (q : Fin 128) :
    k3_pay1 x0 x1 x2 (ix2 p q) = act3 (x0 (ix2 p q)) (x1 (ix2 0 q)) (x2 (ix2 0 q)) := by
  have hb : ∀ (v : FVec F S1x128 .f32), broadcastTo S5000x128 v broadcasts_S1x128_S5000x128 (ix2 p q) = v (ix2 0 q) := fun v =>
    broadcastTo_apply v _ (ix2 p q) (ix2 0 q) (fun a => by match a with | ⟨0, _⟩ => rfl | ⟨1, _⟩ => rfl)
  have hm : ∀ (a b : FVec F S5000x128 .f32) (i : S5000x128.Idx), mulf a b i = FloatOps.mulf (a i) (b i) := fun _ _ _ => rfl
  have ha : ∀ (a b : FVec F S5000x128 .f32) (i : S5000x128.Idx), addf a b i = FloatOps.addf (a i) (b i) := fun _ _ _ => rfl
  unfold k3_pay1 act3
  simp only [shapeCast_self, select_apply, cmpf_apply, broadcast_apply, hm, ha, hb]

/-- The whole-shape rectangle's offsets are zero. -/
theorem hz3 : (![0, 0] : Fin 2 → Nat) = fun _ => 0 := funext fun a => by fin_cases a <;> rfl

/-- What the output window's array ends holding: the scalar pass of the input array's entry and of the scale and
    shift rows' entries at the entry's column. -/
def G3_3 (a0 : S100000x128.Idx → Elt F .f32) (a1 a2 : S1x128.Idx → Elt F .f32) : S100000x128.Idx → Elt F .f32 :=
  fun i => act3 (a0 i) (a1 (ix2 0 (i 1))) (a2 (ix2 0 (i 1)))

/-- `G3_3` at an index whose column is `q`. -/
theorem G3_3_apply (a0 : S100000x128.Idx → Elt F .f32) (a1 a2 : S1x128.Idx → Elt F .f32) (i : S100000x128.Idx) (q : Fin 128)
    (h : (i (1 : Fin 2) : Fin 128) = q) : G3_3 a0 a1 a2 i = act3 (a0 i) (a1 (ix2 (0 : Fin 1) q)) (a2 (ix2 (0 : Fin 1) q)) := by
  subst h; rfl

/-- The index maps over the grid: the input and output blocks of rows move together, one block of 5000 rows a
    point; the scale and shift rows stay. -/
theorem idx_facts3 : ∀ t : Fin cfg3.N, win3_0.index t (0 : Fin 2) = t.val ∧ win3_0.index t (1 : Fin 2) = 0
    ∧ win3_3.index t (0 : Fin 2) = t.val ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- An element of the input block of rows at point `t` sits in its array where the same element of the output block
    sits in the output's. -/
theorem emb3_0 (t : Fin cfg3.N) (p : Fin 5000) (q : Fin 128) :
    ((cfg3.win 0).blk t).view.emb (ix2 p q : S5000x128.Idx) = ((cfg3.win 3).blk t).view.emb (ix2 p q : S5000x128.Idx) := by
  obtain ⟨e0, e1, e2, e3, e4, e5, e6, e7⟩ := idx_facts3 t
  funext a; apply Fin.ext
  match a with
  | ⟨0, _⟩ => show win3_0.index t (0 : Fin 2) * 5000 + 1 * p.val = win3_3.index t (0 : Fin 2) * 5000 + 1 * p.val; omega
  | ⟨1, _⟩ => show win3_0.index t (1 : Fin 2) * 128 + 1 * q.val = win3_3.index t (1 : Fin 2) * 128 + 1 * q.val; omega
/-- The scale row's and the shift row's blocks are their whole arrays at every point. -/
theorem emb3_1 (t : Fin cfg3.N) (q : Fin 128) :
    ((cfg3.win 1).blk t).view.emb (ix2 (0 : Fin 1) q : S1x128.Idx) = (ix2 (0 : Fin 1) q : S1x128.Idx) := by
  obtain ⟨e0, e1, e2, e3, e4, e5, e6, e7⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * q.val = q.val; omega
theorem emb3_2 (t : Fin cfg3.N) (q : Fin 128) :
    ((cfg3.win 2).blk t).view.emb (ix2 (0 : Fin 1) q : S1x128.Idx) = (ix2 (0 : Fin 1) q : S1x128.Idx) := by
  obtain ⟨e0, e1, e2, e3, e4, e5, e6, e7⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega
/-- An element of the output block keeps its column in the array. -/
theorem col3_3 (t : Fin cfg3.N) (p : Fin 5000) (q : Fin 128) :
    (((cfg3.win 3).blk t).view.emb (ix2 p q : S5000x128.Idx) (1 : Fin 2) : Fin 128) = q := by
  obtain ⟨e0, e1, e2, e3, e4, e5, e6, e7⟩ := idx_facts3 t
  exact Fin.ext (show win3_3.index t (1 : Fin 2) * 128 + 1 * q.val = q.val by omega)

/-- So each input block's entry is its array's at the place the output block's element has, or at its column. -/
theorem blk3_0 (V : (c : Dev nD) → (b : Ref sig .tc) → Buf (Elt F) ((c : Thread nD τ).loc b)) (c : Dev nD) (t : Fin cfg3.N) (p : Fin 5000) (q : Fin 128) :
    iblk3 V c 0 t (ix2 p q) = V c (Pipeline.arrRef spec3 0) (((cfg3.win 3).blk t).view.emb (ix2 p q : S5000x128.Idx)) :=
  congrArg (V c (Pipeline.arrRef spec3 0)) (emb3_0 t p q)
theorem blk3_1 (V : (c : Dev nD) → (b : Ref sig .tc) → Buf (Elt F) ((c : Thread nD τ).loc b)) (c : Dev nD) (t : Fin cfg3.N) (q : Fin 128) :
    iblk3 V c 1 t (ix2 (0 : Fin 1) q) = V c (Pipeline.arrRef spec3 1) (ix2 (0 : Fin 1) q : S1x128.Idx) :=
  congrArg (V c (Pipeline.arrRef spec3 1)) (emb3_1 t q)
theorem blk3_2 (V : (c : Dev nD) → (b : Ref sig .tc) → Buf (Elt F) ((c : Thread nD τ).loc b)) (c : Dev nD) (t : Fin cfg3.N) (q : Fin 128) :
    iblk3 V c 2 t (ix2 (0 : Fin 1) q) = V c (Pipeline.arrRef spec3 2) (ix2 (0 : Fin 1) q : S1x128.Idx) :=
  congrArg (V c (Pipeline.arrRef spec3 2)) (emb3_2 t q)

/-- What point `t` writes back is block `t` of `G3_3` of the arrays as the region finds them. -/
theorem flushed3_3_eq (V : (c : Dev nD) → (b : Ref sig .tc) → Buf (Elt F) ((c : Thread nD τ).loc b)) (c : Dev nD) (t : Fin cfg3.N) :
    (dat3 V c).flushed 3 t = ((cfg3.win 3).blk t).view.read (Elt F)
      (G3_3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S1x128) hz3]
  funext j
  obtain ⟨p, q, rfl⟩ : ∃ (p : Fin 5000) (q : Fin 128), j = ix2 p q := ⟨j 0, j 1, eq_ix2 j⟩
  refine (pay3_apply (iblk3 V c 0 t) (iblk3 V c 1 t) (iblk3 V c 2 t) p q).trans ?_
  refine (congr (congr (congrArg act3 (blk3_0 V c t p q)) (blk3_1 V c t q)) (blk3_2 V c t q)).trans ?_
  show _ = G3_3 (V c (Pipeline.arrRef spec3 0)) (V c (Pipeline.arrRef spec3 1)) (V c (Pipeline.arrRef spec3 2)) (((cfg3.win 3).blk t).view.emb (ix2 p q : S5000x128.Idx))
  exact (G3_3_apply (V c (Pipeline.arrRef spec3 0)) (V c (Pipeline.arrRef spec3 1)) (V c (Pipeline.arrRef spec3 2))
      (((cfg3.win 3).blk t).view.emb (ix2 p q : S5000x128.Idx)) q (col3_3 t p q)).symm

/-- An index of the array is in point `t`'s block iff each coordinate is in the block's range on its axis. -/
theorem mem_blk3_3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v94).slice (win3_3.rect t)).set ↔ _
  rw [View.set_slice_whole, Rect.mem_set_unit]
  exact Iff.rfl

/-- Every row is in the block of the point its number divided by 5000 names: the blocks tile the array. -/
theorem covered3_3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨e0, e1, e2, e3, e4, e5, e6, e7⟩ := idx_facts3 ⟨(i 0).val / 5000, hlt⟩
  have e2' : win3_3.index ⟨(i 0).val / 5000, hlt⟩ (0 : Fin 2) = (i 0).val / 5000 := e2
  refine ⟨⟨(i 0).val / 5000, hlt⟩, flush3_3 _, ?_⟩
  rw [mem_blk3_3]
  intro a
  match a with
  | ⟨0, _⟩ => show win3_3.index ⟨(i 0).val / 5000, hlt⟩ (0 : Fin 2) * 5000 ≤ (i 0).val ∧ (i 0).val < win3_3.index ⟨(i 0).val / 5000, hlt⟩ (0 : Fin 2) * 5000 + 5000; omega
  | ⟨1, _⟩ => show win3_3.index ⟨(i 0).val / 5000, hlt⟩ (1 : Fin 2) * 128 ≤ (i 1).val ∧ (i 1).val < win3_3.index ⟨(i 0).val / 5000, hlt⟩ (1 : Fin 2) * 128 + 128; omega

/-- THE ARRAY after the region: `G3_3` of the three arrays the input windows read, as the region finds them. -/
theorem final3_3 (V : (c : Dev nD) → (b : Ref sig .tc) → Buf (Elt F) ((c : Thread nD τ).loc b)) (c : Dev nD) :
    (dat3 V c).arrAt 3 cfg3.N
      = G3_3 (V c (Pipeline.arrRef spec3 0)) (V c (Pipeline.arrRef spec3 1)) (V c (Pipeline.arrRef spec3 2)) :=
  (dat3 V c).arrAt_eq_of_cover 3 _ (fun t _ => flushed3_3_eq V c t) covered3_3

end Cert.KernelIdeal.Hand

end
-- ==== Proof.KI.ValB5.lean ====
/- Region 5's value: the array its output window's write-backs leave, as one function of the three arrays its
   input windows read — at every index the affine map of the entry by its column's scale and shift, then the
   leaky rectifier of slope 0.01. -/
import proofs.«116561_j3624952397847_1_alg».proof.Proof.KI.RegB5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The pass on scalars: `z = x·s + b`, then `z` where `z ≥ 0` and `0.01·z` elsewhere. -/
def act5 (x s b : F .f32) : F .f32 :=
  Scalar.select (FloatOps.cmpf .oge (FloatOps.addf (FloatOps.mulf x s) b) (FloatOps.ofBits .f32 0x00000000#32))
    (FloatOps.addf (FloatOps.mulf x s) b)
    (FloatOps.mulf (FloatOps.ofBits .f32 0x3C23D70A#32) (FloatOps.addf (FloatOps.mulf x s) b))

/-- The body's payload at an index: the scalar pass of the block's entry there and of the scale and shift rows'
    entries at its column. -/
theorem pay5_apply (x0 : Vec F S5000x128 .f32) (x1 x2 : Vec F S1x128 .f32) (p : Fin 5000) (q : Fin 128) :
    k5_pay1 x0 x1 x2 (ix2 p q) = act5 (x0 (ix2 p q)) (x1 (ix2 0 q)) (x2 (ix2 0 q)) := by
  have hb : ∀ (v : FVec F S1x128 .f32), broadcastTo S5000x128 v broadcasts_S1x128_S5000x128 (ix2 p q) = v (ix2 0 q) := fun v =>
    broadcastTo_apply v _ (ix2 p q) (ix2 0 q) (fun a => by match a with | ⟨0, _⟩ => rfl | ⟨1, _⟩ => rfl)
  have hm : ∀ (a b : FVec F S5000x128 .f32) (i : S5000x128.Idx), mulf a b i = FloatOps.mulf (a i) (b i) := fun _ _ _ => rfl
  have ha : ∀ (a b : FVec F S5000x128 .f32) (i : S5000x128.Idx), addf a b i = FloatOps.addf (a i) (b i) := fun _ _ _ => rfl
  unfold k5_pay1 act5
  simp only [shapeCast_self, select_apply, cmpf_apply, broadcast_apply, hm, ha, hb]

/-- The whole-shape rectangle's offsets are zero. -/
theorem hz5 : (![0, 0] : Fin 2 → Nat) = fun _ => 0 := funext fun a => by fin_cases a <;> rfl

/-- What the output window's array ends holding: the scalar pass of the input array's entry and of the scale and
    shift rows' entries at the entry's column. -/
def G5_3 (a0 : S100000x128.Idx → Elt F .f32) (a1 a2 : S1x128.Idx → Elt F .f32) : S100000x128.Idx → Elt F .f32 :=
  fun i => act5 (a0 i) (a1 (ix2 0 (i 1))) (a2 (ix2 0 (i 1)))

/-- `G5_3` at an index whose column is `q`. -/
theorem G5_3_apply (a0 : S100000x128.Idx → Elt F .f32) (a1 a2 : S1x128.Idx → Elt F .f32) (i : S100000x128.Idx) (q : Fin 128)
    (h : (i (1 : Fin 2) : Fin 128) = q) : G5_3 a0 a1 a2 i = act5 (a0 i) (a1 (ix2 (0 : Fin 1) q)) (a2 (ix2 (0 : Fin 1) q)) := by
  subst h; rfl

/-- The index maps over the grid: the input and output blocks of rows move together, one block of 5000 rows a
    point; the scale and shift rows stay. -/
theorem idx_facts5 : ∀ t : Fin cfg5.N, win5_0.index t (0 : Fin 2) = t.val ∧ win5_0.index t (1 : Fin 2) = 0
    ∧ win5_3.index t (0 : Fin 2) = t.val ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- An element of the input block of rows at point `t` sits in its array where the same element of the output block
    sits in the output's. -/
theorem emb5_0 (t : Fin cfg5.N) (p : Fin 5000) (q : Fin 128) :
    ((cfg5.win 0).blk t).view.emb (ix2 p q : S5000x128.Idx) = ((cfg5.win 3).blk t).view.emb (ix2 p q : S5000x128.Idx) := by
  obtain ⟨e0, e1, e2, e3, e4, e5, e6, e7⟩ := idx_facts5 t
  funext a; apply Fin.ext
  match a with
  | ⟨0, _⟩ => show win5_0.index t (0 : Fin 2) * 5000 + 1 * p.val = win5_3.index t (0 : Fin 2) * 5000 + 1 * p.val; omega
  | ⟨1, _⟩ => show win5_0.index t (1 : Fin 2) * 128 + 1 * q.val = win5_3.index t (1 : Fin 2) * 128 + 1 * q.val; omega
/-- The scale row's and the shift row's blocks are their whole arrays at every point. -/
theorem emb5_1 (t : Fin cfg5.N) (q : Fin 128) :
    ((cfg5.win 1).blk t).view.emb (ix2 (0 : Fin 1) q : S1x128.Idx) = (ix2 (0 : Fin 1) q : S1x128.Idx) := by
  obtain ⟨e0, e1, e2, e3, e4, e5, e6, e7⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * q.val = q.val; omega
theorem emb5_2 (t : Fin cfg5.N) (q : Fin 128) :
    ((cfg5.win 2).blk t).view.emb (ix2 (0 : Fin 1) q : S1x128.Idx) = (ix2 (0 : Fin 1) q : S1x128.Idx) := by
  obtain ⟨e0, e1, e2, e3, e4, e5, e6, e7⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * q.val = q.val; omega
/-- An element of the output block keeps its column in the array. -/
theorem col5_3 (t : Fin cfg5.N) (p : Fin 5000) (q : Fin 128) :
    (((cfg5.win 3).blk t).view.emb (ix2 p q : S5000x128.Idx) (1 : Fin 2) : Fin 128) = q := by
  obtain ⟨e0, e1, e2, e3, e4, e5, e6, e7⟩ := idx_facts5 t
  exact Fin.ext (show win5_3.index t (1 : Fin 2) * 128 + 1 * q.val = q.val by omega)

/-- So each input block's entry is its array's at the place the output block's element has, or at its column. -/
theorem blk5_0 (V : (c : Dev nD) → (b : Ref sig .tc) → Buf (Elt F) ((c : Thread nD τ).loc b)) (c : Dev nD) (t : Fin cfg5.N) (p : Fin 5000) (q : Fin 128) :
    iblk5 V c 0 t (ix2 p q) = V c (Pipeline.arrRef spec5 0) (((cfg5.win 3).blk t).view.emb (ix2 p q : S5000x128.Idx)) :=
  congrArg (V c (Pipeline.arrRef spec5 0)) (emb5_0 t p q)
theorem blk5_1 (V : (c : Dev nD) → (b : Ref sig .tc) → Buf (Elt F) ((c : Thread nD τ).loc b)) (c : Dev nD) (t : Fin cfg5.N) (q : Fin 128) :
    iblk5 V c 1 t (ix2 (0 : Fin 1) q) = V c (Pipeline.arrRef spec5 1) (ix2 (0 : Fin 1) q : S1x128.Idx) :=
  congrArg (V c (Pipeline.arrRef spec5 1)) (emb5_1 t q)
theorem blk5_2 (V : (c : Dev nD) → (b : Ref sig .tc) → Buf (Elt F) ((c : Thread nD τ).loc b)) (c : Dev nD) (t : Fin cfg5.N) (q : Fin 128) :
    iblk5 V c 2 t (ix2 (0 : Fin 1) q) = V c (Pipeline.arrRef spec5 2) (ix2 (0 : Fin 1) q : S1x128.Idx) :=
  congrArg (V c (Pipeline.arrRef spec5 2)) (emb5_2 t q)

/-- What point `t` writes back is block `t` of `G5_3` of the arrays as the region finds them. -/
theorem flushed5_3_eq (V : (c : Dev nD) → (b : Ref sig .tc) → Buf (Elt F) ((c : Thread nD τ).loc b)) (c : Dev nD) (t : Fin cfg5.N) :
    (dat5 V c).flushed 3 t = ((cfg5.win 3).blk t).view.read (Elt F)
      (G5_3 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S1x128) hz5]
  funext j
  obtain ⟨p, q, rfl⟩ : ∃ (p : Fin 5000) (q : Fin 128), j = ix2 p q := ⟨j 0, j 1, eq_ix2 j⟩
  refine (pay5_apply (iblk5 V c 0 t) (iblk5 V c 1 t) (iblk5 V c 2 t) p q).trans ?_
  refine (congr (congr (congrArg act5 (blk5_0 V c t p q)) (blk5_1 V c t q)) (blk5_2 V c t q)).trans ?_
  show _ = G5_3 (V c (Pipeline.arrRef spec5 0)) (V c (Pipeline.arrRef spec5 1)) (V c (Pipeline.arrRef spec5 2)) (((cfg5.win 3).blk t).view.emb (ix2 p q : S5000x128.Idx))
  exact (G5_3_apply (V c (Pipeline.arrRef spec5 0)) (V c (Pipeline.arrRef spec5 1)) (V c (Pipeline.arrRef spec5 2))
      (((cfg5.win 3).blk t).view.emb (ix2 p q : S5000x128.Idx)) q (col5_3 t p q)).symm

/-- An index of the array is in point `t`'s block iff each coordinate is in the block's range on its axis. -/
theorem mem_blk5_3 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v139).slice (win5_3.rect t)).set ↔ _
  rw [View.set_slice_whole, Rect.mem_set_unit]
  exact Iff.rfl

/-- Every row is in the block of the point its number divided by 5000 names: the blocks tile the array. -/
theorem covered5_3 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  have hlt : (i 0).val / 5000 < cfg5.N := by rw [hN]; omega
  obtain ⟨e0, e1, e2, e3, e4, e5, e6, e7⟩ := idx_facts5 ⟨(i 0).val / 5000, hlt⟩
  have e2' : win5_3.index ⟨(i 0).val / 5000, hlt⟩ (0 : Fin 2) = (i 0).val / 5000 := e2
  refine ⟨⟨(i 0).val / 5000, hlt⟩, flush5_3 _, ?_⟩
  rw [mem_blk5_3]
  intro a
  match a with
  | ⟨0, _⟩ => show win5_3.index ⟨(i 0).val / 5000, hlt⟩ (0 : Fin 2) * 5000 ≤ (i 0).val ∧ (i 0).val < win5_3.index ⟨(i 0).val / 5000, hlt⟩ (0 : Fin 2) * 5000 + 5000; omega
  | ⟨1, _⟩ => show win5_3.index ⟨(i 0).val / 5000, hlt⟩ (1 : Fin 2) * 128 ≤ (i 1).val ∧ (i 1).val < win5_3.index ⟨(i 0).val / 5000, hlt⟩ (1 : Fin 2) * 128 + 128; omega

/-- THE ARRAY after the region: `G5_3` of the three arrays the input windows read, as the region finds them. -/
theorem final5_3 (V : (c : Dev nD) → (b : Ref sig .tc) → Buf (Elt F) ((c : Thread nD τ).loc b)) (c : Dev nD) :
    (dat5 V c).arrAt 3 cfg5.N
      = G5_3 (V c (Pipeline.arrRef spec5 0)) (V c (Pipeline.arrRef spec5 1)) (V c (Pipeline.arrRef spec5 2)) :=
  (dat5 V c).arrAt_eq_of_cover 3 _ (fun t _ => flushed5_3_eq V c t) covered5_3

end Cert.KernelIdeal.Hand

end
-- ==== Proof.KI.ValB7.lean ====
/- Region 7's value: the array its output window's write-backs leave, as one function of the three arrays its
   input windows read — at every index the affine map of the entry by its column's scale and shift, then the
   leaky rectifier of slope 0.01. -/
import proofs.«116561_j3624952397847_1_alg».proof.Proof.KI.RegB7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The pass on scalars: `z = x·s + b`, then `z` where `z ≥ 0` and `0.01·z` elsewhere. -/
def act7 (x s b : F .f32) : F .f32 :=
  Scalar.select (FloatOps.cmpf .oge (FloatOps.addf (FloatOps.mulf x s) b) (FloatOps.ofBits .f32 0x00000000#32))
    (FloatOps.addf (FloatOps.mulf x s) b)
    (FloatOps.mulf (FloatOps.ofBits .f32 0x3C23D70A#32) (FloatOps.addf (FloatOps.mulf x s) b))

/-- The body's payload at an index: the scalar pass of the block's entry there and of the scale and shift rows'
    entries at its column. -/
theorem pay7_apply (x0 : Vec F S5000x128 .f32) (x1 x2 : Vec F S1x128 .f32) (p : Fin 5000) (q : Fin 128) :
    k7_pay1 x0 x1 x2 (ix2 p q) = act7 (x0 (ix2 p q)) (x1 (ix2 0 q)) (x2 (ix2 0 q)) := by
  have hb : ∀ (v : FVec F S1x128 .f32), broadcastTo S5000x128 v broadcasts_S1x128_S5000x128 (ix2 p q) = v (ix2 0 q) := fun v =>
    broadcastTo_apply v _ (ix2 p q) (ix2 0 q) (fun a => by match a with | ⟨0, _⟩ => rfl | ⟨1, _⟩ => rfl)
  have hm : ∀ (a b : FVec F S5000x128 .f32) (i : S5000x128.Idx), mulf a b i = FloatOps.mulf (a i) (b i) := fun _ _ _ => rfl
  have ha : ∀ (a b : FVec F S5000x128 .f32) (i : S5000x128.Idx), addf a b i = FloatOps.addf (a i) (b i) := fun _ _ _ => rfl
  unfold k7_pay1 act7
  simp only [shapeCast_self, select_apply, cmpf_apply, broadcast_apply, hm, ha, hb]

/-- The whole-shape rectangle's offsets are zero. -/
theorem hz7 : (![0, 0] : Fin 2 → Nat) = fun _ => 0 := funext fun a => by fin_cases a <;> rfl

/-- What the output window's array ends holding: the scalar pass of the input array's entry and of the scale and
    shift rows' entries at the entry's column. -/
def G7_3 (a0 : S100000x128.Idx → Elt F .f32) (a1 a2 : S1x128.Idx → Elt F .f32) : S100000x128.Idx → Elt F .f32 :=
  fun i => act7 (a0 i) (a1 (ix2 0 (i 1))) (a2 (ix2 0 (i 1)))

/-- `G7_3` at an index whose column is `q`. -/
theorem G7_3_apply (a0 : S100000x128.Idx → Elt F .f32) (a1 a2 : S1x128.Idx → Elt F .f32) (i : S100000x128.Idx) (q : Fin 128)
    (h : (i (1 : Fin 2) : Fin 128) = q) : G7_3 a0 a1 a2 i = act7 (a0 i) (a1 (ix2 (0 : Fin 1) q)) (a2 (ix2 (0 : Fin 1) q)) := by
  subst h; rfl

/-- The index maps over the grid: the input and output blocks of rows move together, one block of 5000 rows a
    point; the scale and shift rows stay. -/
theorem idx_facts7 : ∀ t : Fin cfg7.N, win7_0.index t (0 : Fin 2) = t.val ∧ win7_0.index t (1 : Fin 2) = 0
    ∧ win7_3.index t (0 : Fin 2) = t.val ∧ win7_3.index t (1 : Fin 2) = 0
    ∧ win7_1.index t (0 : Fin 2) = 0 ∧ win7_1.index t (1 : Fin 2) = 0
    ∧ win7_2.index t (0 : Fin 2) = 0 ∧ win7_2.index t (1 : Fin 2) = 0 :=
  (by decide +kernel : ∀ t : Fin grid7.N, _)

/-- An element of the input block of rows at point `t` sits in its array where the same element of the output block
    sits in the output's. -/
theorem emb7_0 (t : Fin cfg7.N) (p : Fin 5000) (q : Fin 128) :
    ((cfg7.win 0).blk t).view.emb (ix2 p q : S5000x128.Idx) = ((cfg7.win 3).blk t).view.emb (ix2 p q : S5000x128.Idx) := by
  obtain ⟨e0, e1, e2, e3, e4, e5, e6, e7⟩ := idx_facts7 t
  funext a; apply Fin.ext
  match a with
  | ⟨0, _⟩ => show win7_0.index t (0 : Fin 2) * 5000 + 1 * p.val = win7_3.index t (0 : Fin 2) * 5000 + 1 * p.val; omega
  | ⟨1, _⟩ => show win7_0.index t (1 : Fin 2) * 128 + 1 * q.val = win7_3.index t (1 : Fin 2) * 128 + 1 * q.val; omega
/-- The scale row's and the shift row's blocks are their whole arrays at every point. -/
theorem emb7_1 (t : Fin cfg7.N) (q : Fin 128) :
    ((cfg7.win 1).blk t).view.emb (ix2 (0 : Fin 1) q : S1x128.Idx) = (ix2 (0 : Fin 1) q : S1x128.Idx) := by
  obtain ⟨e0, e1, e2, e3, e4, e5, e6, e7⟩ := idx_facts7 t
  funext a; apply Fin.ext
  match a with
  | ⟨0, _⟩ => show win7_1.index t (0 : Fin 2) * 1 + 1 * 0 = 0; omega
  | ⟨1, _⟩ => show win7_1.index t (1 : Fin 2) * 128 + 1 * q.val = q.val; omega
theorem emb7_2 (t : Fin cfg7.N) (q : Fin 128) :
    ((cfg7.win 2).blk t).view.emb (ix2 (0 : Fin 1) q : S1x128.Idx) = (ix2 (0 : Fin 1) q : S1x128.Idx) := by
  obtain ⟨e0, e1, e2, e3, e4, e5, e6, e7⟩ := idx_facts7 t
  funext a; apply Fin.ext
  match a with
  | ⟨0, _⟩ => show win7_2.index t (0 : Fin 2) * 1 + 1 * 0 = 0; omega
  | ⟨1, _⟩ => show win7_2.index t (1 : Fin 2) * 128 + 1 * q.val = q.val; omega
/-- An element of the output block keeps its column in the array. -/
theorem col7_3 (t : Fin cfg7.N) (p : Fin 5000) (q : Fin 128) :
    (((cfg7.win 3).blk t).view.emb (ix2 p q : S5000x128.Idx) (1 : Fin 2) : Fin 128) = q := by
  obtain ⟨e0, e1, e2, e3, e4, e5, e6, e7⟩ := idx_facts7 t
  exact Fin.ext (show win7_3.index t (1 : Fin 2) * 128 + 1 * q.val = q.val by omega)

/-- So each input block's entry is its array's at the place the output block's element has, or at its column. -/
theorem blk7_0 (V : (c : Dev nD) → (b : Ref sig .tc) → Buf (Elt F) ((c : Thread nD τ).loc b)) (c : Dev nD) (t : Fin cfg7.N) (p : Fin 5000) (q : Fin 128) :
    iblk7 V c 0 t (ix2 p q) = V c (Pipeline.arrRef spec7 0) (((cfg7.win 3).blk t).view.emb (ix2 p q : S5000x128.Idx)) :=
  congrArg (V c (Pipeline.arrRef spec7 0)) (emb7_0 t p q)
theorem blk7_1 (V : (c : Dev nD) → (b : Ref sig .tc) → Buf (Elt F) ((c : Thread nD τ).loc b)) (c : Dev nD) (t : Fin cfg7.N) (q : Fin 128) :
    iblk7 V c 1 t (ix2 (0 : Fin 1) q) = V c (Pipeline.arrRef spec7 1) (ix2 (0 : Fin 1) q : S1x128.Idx) :=
  congrArg (V c (Pipeline.arrRef spec7 1)) (emb7_1 t q)
theorem blk7_2 (V : (c : Dev nD) → (b : Ref sig .tc) → Buf (Elt F) ((c : Thread nD τ).loc b)) (c : Dev nD) (t : Fin cfg7.N) (q : Fin 128) :
    iblk7 V c 2 t (ix2 (0 : Fin 1) q) = V c (Pipeline.arrRef spec7 2) (ix2 (0 : Fin 1) q : S1x128.Idx) :=
  congrArg (V c (Pipeline.arrRef spec7 2)) (emb7_2 t q)

/-- What point `t` writes back is block `t` of `G7_3` of the arrays as the region finds them. -/
theorem flushed7_3_eq (V : (c : Dev nD) → (b : Ref sig .tc) → Buf (Elt F) ((c : Thread nD τ).loc b)) (c : Dev nD) (t : Fin cfg7.N) :
    (dat7 V c).flushed 3 t = ((cfg7.win 3).blk t).view.read (Elt F)
      (G7_3 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S5000x128) hz7, View.ld_unit_zero (S := S1x128) hz7]
  funext j
  obtain ⟨p, q, rfl⟩ : ∃ (p : Fin 5000) (q : Fin 128), j = ix2 p q := ⟨j 0, j 1, eq_ix2 j⟩
  refine (pay7_apply (iblk7 V c 0 t) (iblk7 V c 1 t) (iblk7 V c 2 t) p q).trans ?_
  refine (congr (congr (congrArg act7 (blk7_0 V c t p q)) (blk7_1 V c t q)) (blk7_2 V c t q)).trans ?_
  show _ = G7_3 (V c (Pipeline.arrRef spec7 0)) (V c (Pipeline.arrRef spec7 1)) (V c (Pipeline.arrRef spec7 2)) (((cfg7.win 3).blk t).view.emb (ix2 p q : S5000x128.Idx))
  exact (G7_3_apply (V c (Pipeline.arrRef spec7 0)) (V c (Pipeline.arrRef spec7 1)) (V c (Pipeline.arrRef spec7 2))
      (((cfg7.win 3).blk t).view.emb (ix2 p q : S5000x128.Idx)) q (col7_3 t p q)).symm

/-- An index of the array is in point `t`'s block iff each coordinate is in the block's range on its axis. -/
theorem mem_blk7_3 (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v184).slice (win7_3.rect t)).set ↔ _
  rw [View.set_slice_whole, Rect.mem_set_unit]
  exact Iff.rfl

/-- Every row is in the block of the point its number divided by 5000 names: the blocks tile the array. -/
theorem covered7_3 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  have hlt : (i 0).val / 5000 < cfg7.N := by rw [hN]; omega
  obtain ⟨e0, e1, e2, e3, e4, e5, e6, e7⟩ := idx_facts7 ⟨(i 0).val / 5000, hlt⟩
  have e2' : win7_3.index ⟨(i 0).val / 5000, hlt⟩ (0 : Fin 2) = (i 0).val / 5000 := e2
  refine ⟨⟨(i 0).val / 5000, hlt⟩, flush7_3 _, ?_⟩
  rw [mem_blk7_3]
  intro a
  match a with
  | ⟨0, _⟩ => show win7_3.index ⟨(i 0).val / 5000, hlt⟩ (0 : Fin 2) * 5000 ≤ (i 0).val ∧ (i 0).val < win7_3.index ⟨(i 0).val / 5000, hlt⟩ (0 : Fin 2) * 5000 + 5000; omega
  | ⟨1, _⟩ => show win7_3.index ⟨(i 0).val / 5000, hlt⟩ (1 : Fin 2) * 128 ≤ (i 1).val ∧ (i 1).val < win7_3.index ⟨(i 0).val / 5000, hlt⟩ (1 : Fin 2) * 128 + 128; omega

/-- THE ARRAY after the region: `G7_3` of the three arrays the input windows read, as the region finds them. -/
theorem final7_3 (V : (c : Dev nD) → (b : Ref sig .tc) → Buf (Elt F) ((c : Thread nD τ).loc b)) (c : Dev nD) :
    (dat7 V c).arrAt 3 cfg7.N
      = G7_3 (V c (Pipeline.arrRef spec7 0)) (V c (Pipeline.arrRef spec7 1)) (V c (Pipeline.arrRef spec7 2)) :=
  (dat7 V c).arrAt_eq_of_cover 3 _ (fun t _ => flushed7_3_eq V c t) covered7_3

end Cert.KernelIdeal.Hand

end
-- ==== Proof.KI.BridgeB.lean ====
/- The pointwise pass at the extended reals, in the vocabulary of the shared specification: the scalar pass is the
   leaky rectifier of the affine map, so each of the four regions' arrays is that, entry by entry. -/
import proofs.«116561_j3624952397847_1_alg».proof.Proof.KI.ValB1
import proofs.«116561_j3624952397847_1_alg».proof.Proof.KI.ValB3
import proofs.«116561_j3624952397847_1_alg».proof.Proof.KI.ValB5
import proofs.«116561_j3624952397847_1_alg».proof.Proof.KI.ValB7
import proofs.«116561_j3624952397847_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The leaky rectifier of the affine map, entry by entry: the scale and the shift are rows, read at the entry's column. -/
def lrAff (a0 : S100000x128.Idx → EReal) (a1 a2 : S1x128.Idx → EReal) : S100000x128.Idx → EReal :=
  fun i => Gin.lr (a0 i * a1 (ix2 (0 : Fin 1) (Gin.colOf i)) + a2 (ix2 (0 : Fin 1) (Gin.colOf i)))

theorem lrAff_apply (a0 : S100000x128.Idx → EReal) (a1 a2 : S1x128.Idx → EReal) (i : S100000x128.Idx) :
    lrAff a0 a1 a2 i = Gin.lr (a0 i * a1 (ix2 (0 : Fin 1) (Gin.colOf i)) + a2 (ix2 (0 : Fin 1) (Gin.colOf i))) := rfl

/-- Region 1: the scalar pass at the extended reals is the leaky rectifier of `x·s + b`. -/
theorem act1_eq_lr (x s b : EReal) : act1 (F := Ideal) x s b = Gin.lr (x * s + b) := rfl

/-- So the region's array function is that at every entry. -/
theorem G1_3_lr (a0 : S100000x128.Idx → EReal) (a1 a2 : S1x128.Idx → EReal) :
    G1_3 (F := Ideal) a0 a1 a2 = lrAff a0 a1 a2 := by
  funext i
  have hc : (i (1 : Fin 2) : Fin 128) = Gin.colOf i := rfl
  rw [G1_3_apply (F := Ideal) a0 a1 a2 i (Gin.colOf i) hc, lrAff_apply]
  exact act1_eq_lr _ _ _

/-- THE ARRAY after region 1, at the extended reals. -/
theorem final1_3_lr (V : (c : Dev nD) → (b : Ref sig .tc) → Buf (Elt Ideal) ((c : Thread nD τ).loc b)) (c : Dev nD) :
    (dat1 (F := Ideal) V c).arrAt 3 cfg1.N
      = lrAff (V c (Pipeline.arrRef spec1 0)) (V c (Pipeline.arrRef spec1 1)) (V c (Pipeline.arrRef spec1 2)) :=
  (final1_3 V c).trans (G1_3_lr _ _ _)

/-- Region 3: the scalar pass at the extended reals is the leaky rectifier of `x·s + b`. -/
theorem act3_eq_lr (x s b : EReal) : act3 (F := Ideal) x s b = Gin.lr (x * s + b) := rfl

/-- So the region's array function is that at every entry. -/
theorem G3_3_lr (a0 : S100000x128.Idx → EReal) (a1 a2 : S1x128.Idx → EReal) :
    G3_3 (F := Ideal) a0 a1 a2 = lrAff a0 a1 a2 := by
  funext i
  have hc : (i (1 : Fin 2) : Fin 128) = Gin.colOf i := rfl
  rw [G3_3_apply (F := Ideal) a0 a1 a2 i (Gin.colOf i) hc, lrAff_apply]
  exact act3_eq_lr _ _ _

/-- THE ARRAY after region 3, at the extended reals. -/
theorem final3_3_lr (V : (c : Dev nD) → (b : Ref sig .tc) → Buf (Elt Ideal) ((c : Thread nD τ).loc b)) (c : Dev nD) :
    (dat3 (F := Ideal) V c).arrAt 3 cfg3.N
      = lrAff (V c (Pipeline.arrRef spec3 0)) (V c (Pipeline.arrRef spec3 1)) (V c (Pipeline.arrRef spec3 2)) :=
  (final3_3 V c).trans (G3_3_lr _ _ _)

/-- Region 5: the scalar pass at the extended reals is the leaky rectifier of `x·s + b`. -/
theorem act5_eq_lr (x s b : EReal) : act5 (F := Ideal) x s b = Gin.lr (x * s + b) := rfl

/-- So the region's array function is that at every entry. -/
theorem G5_3_lr (a0 : S100000x128.Idx → EReal) (a1 a2 : S1x128.Idx → EReal) :
    G5_3 (F := Ideal) a0 a1 a2 = lrAff a0 a1 a2 := by
  funext i
  have hc : (i (1 : Fin 2) : Fin 128) = Gin.colOf i := rfl
  rw [G5_3_apply (F := Ideal) a0 a1 a2 i (Gin.colOf i) hc, lrAff_apply]
  exact act5_eq_lr _ _ _

/-- THE ARRAY after region 5, at the extended reals. -/
theorem final5_3_lr (V : (c : Dev nD) → (b : Ref sig .tc) → Buf (Elt Ideal) ((c : Thread nD τ).loc b)) (c : Dev nD) :
    (dat5 (F := Ideal) V c).arrAt 3 cfg5.N
      = lrAff (V c (Pipeline.arrRef spec5 0)) (V c (Pipeline.arrRef spec5 1)) (V c (Pipeline.arrRef spec5 2)) :=
  (final5_3 V c).trans (G5_3_lr _ _ _)

/-- Region 7: the scalar pass at the extended reals is the leaky rectifier of `x·s + b`. -/
theorem act7_eq_lr (x s b : EReal) : act7 (F := Ideal) x s b = Gin.lr (x * s + b) := rfl

/-- So the region's array function is that at every entry. -/
theorem G7_3_lr (a0 : S100000x128.Idx → EReal) (a1 a2 : S1x128.Idx → EReal) :
    G7_3 (F := Ideal) a0 a1 a2 = lrAff a0 a1 a2 := by
  funext i
  have hc : (i (1 : Fin 2) : Fin 128) = Gin.colOf i := rfl
  rw [G7_3_apply (F := Ideal) a0 a1 a2 i (Gin.colOf i) hc, lrAff_apply]
  exact act7_eq_lr _ _ _

/-- THE ARRAY after region 7, at the extended reals. -/
theorem final7_3_lr (V : (c : Dev nD) → (b : Ref sig .tc) → Buf (Elt Ideal) ((c : Thread nD τ).loc b)) (c : Dev nD) :
    (dat7 (F := Ideal) V c).arrAt 3 cfg7.N
      = lrAff (V c (Pipeline.arrRef spec7 0)) (V c (Pipeline.arrRef spec7 1)) (V c (Pipeline.arrRef spec7 2)) :=
  (final7_3 V c).trans (G7_3_lr _ _ _)

end Cert.KernelIdeal.Hand

end
-- ==== Proof.KI.BridgeL.lean ====
/- The pointwise pass as the layer's output: when the scale and shift rows are the folded normalisation's, the leaky
   rectifier of the affine map is the layer's output in the folded arrangement of the shared specification. -/
import proofs.«116561_j3624952397847_1_alg».proof.Proof.KI.BridgeB
import proofs.«116561_j3624952397847_1_alg».proof.Proof.Spec

noncomputable section

namespace Cert.KernelIdeal.Hand

open Cert.KernelIdeal
open Idealize.ShloMosaic Idealize.ShloMosaic.ValueIdx

/-- When the scale and shift rows make the affine map the folded normalisation of the table's entries (`h`), the
    leaky rectifier of the affine map is the layer's output in the folded arrangement. -/
theorem lrAff_eq_layerFold (g b : Fin 128 → EReal) (pre : S100000x128.Idx → EReal) (sc sh : S1x128.Idx → EReal)
    (h : ∀ (x : EReal) (j : Fin 128), x * sc (ix2 (0 : Fin 1) j) + sh (ix2 (0 : Fin 1) j)
      = BnPlain.foldedOut Gin.nC Gin.epsC (∑ r : Fin 100000, pre (ix2 r j)) (∑ r : Fin 100000, pre (ix2 r j) * pre (ix2 r j)) (g j) (b j) x) :
    lrAff pre sc sh = Gin.layerFold g b pre := by
  funext i
  have hi : (ix2 (⟨(i 0).val, idx2_lt0 i⟩ : Fin 100000) (Gin.colOf i) : S100000x128.Idx) = i := (eq_ix2 i).symm
  rw [lrAff_apply]
  unfold Gin.layerFold Gin.bnFold
  refine congrArg Gin.lr ?_
  rw [h (pre i) (Gin.colOf i), hi]

end Cert.KernelIdeal.Hand

end
-- ==== Proof.LibColSum.lean ====
/-
  Reading a host column sum and a unit-axis cast at coordinates, on the extended reals, over generic extents.

  A host sum of an n × k array along axis 0, started from the zero pattern, is at column c the sum over the rows r of
  the entry (r, c) ("colSum_host"; "lift0" names the index the reduction puts back).  An [a, 1, b] array cast to
  [a, b] reads, at (i, j), the operand at (i, 0, j) ("cast_a1b_ab").
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace BnRead

open Idealize.ShloMosaic Idealize.ShloMosaic.ValueIdx

/-- Index (r, c) is the reduced index c with the coordinate r put back on axis 0. -/
theorem lift0 {n k : ℕ} (h : (⟨2, ![n, k]⟩ : Shape).Reduces [0] (⟨1, ![k]⟩ : Shape)) (c : Fin k)
    (l : Fin ((⟨2, ![n, k]⟩ : Shape).size 0)) : h.lift (ix1 c) l = ix2 (⟨l.val, l.isLt⟩ : Fin n) c :=
  funext fun ax => Fin.ext (by match ax with | ⟨0, _⟩ => rfl | ⟨1, _⟩ => rfl)

/-- The host's sum down a column, from zero. -/
theorem colSum_host {n k : ℕ} (y : FVec Ideal (⟨2, ![n, k]⟩ : Shape) .f32)
    (hR' : (⟨2, ![n, k]⟩ : Shape).ReducesTo [0] (⟨1, ![k]⟩ : Shape))
    (hR : (⟨2, ![n, k]⟩ : Shape).Reduces [0] (⟨1, ![k]⟩ : Shape)) (hu : 0 < (⟨0, ![]⟩ : Shape).numel) (c : Fin k) :
    Host.reduceAdd y (constant (F := Ideal) (⟨0, ![]⟩ : Shape) .f32 0x00000000#32) hR' hu (ix1 c) = ∑ r : Fin n, y (ix2 r c) := by
  simp only [Host.reduceAdd, Ideal.hostReduceAdd_def]
  rw [Ideal.hostReduceAdd_single hR' hR, constant_apply, Ideal.ofBits_zero_f32, zero_add]
  exact Finset.sum_congr rfl fun l _ => congrArg y (lift0 hR c l)

/-- An [a, 1, b] array cast to [a, b] reads, at (i, j), the operand at (i, 0, j). -/
theorem cast_a1b_ab {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h (ix2 i j) (ix3 i (0 : Fin 1) j) (by
    rw [Shape.rowMajor_val_three, Shape.rowMajor_val_two]
    show (i.val * 1 + 0) * b + j.val = i.val * b + j.val
    rw [Nat.mul_one, Nat.add_zero])

end BnRead

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«116561_j3624952397847_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.Ref.Read.lean ====
/- The reference network's pieces read entry by entry, on the extended reals.

   Each piece of Ref/Terms.lean is a composition of whole-array operations; at an index every one of them reads one
   entry of its operand (a broadcast, a cast), or combines the operands' entries there (the arithmetic), or sums a
   column (the reduction along the rows). Reading the composition at an index gives the scalar formula the shared
   specification states: the batch normalisation in its centred form followed by the leaky rectifier, the perceptron
   as two affine maps around the leaky rectifier, the classifier likewise. -/
import proofs.«116561_j3624952397847_1_alg».proof.Proof.Ref.Net
import proofs.«116561_j3624952397847_1_alg».proof.Proof.Spec
import proofs.«116561_j3624952397847_1_alg».proof.Proof.LibColSum
import proofs.«116561_j3624952397847_1_alg».proof.Proof.LibProdRows
import proofs.«116561_j3624952397847_1_alg».proof.Proof.LibSegSum
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

noncomputable section

open scoped BigOperators

namespace Cert.ReferenceIdeal.Hand

open Cert.ReferenceIdeal Cert.ReferenceIdeal.Gen Idealize.ShloMosaic Idealize.ShloMosaic.ValueIdx Idealize.SL.Sem

/-! ## Layout pieces at an index -/

/-- A vector as a one-row table, at (0, t): its entry t. -/
theorem asRow_apply {α : Type} (v : S128.Idx → α) (t : Fin 128) :
    broadcastInDim S1x128 ![1] bcast_S128_S1x128_1 v (ix2 (0 : Fin 1) t) = v (ix1 t) :=
  broadcastInDim_apply ![1] bcast_S128_S1x128_1 v (ix2 (0 : Fin 1) t) (ix1 t) (fun a => by
    match a with
    | ⟨0, _⟩ => show t.val = if (128 : ℕ) = 1 then 0 else t.val; rw [if_neg (by decide)])

/-- A vector laid along the rows, at (r, t): its entry t. -/
theorem rows_apply (v : FVec Ideal S128 .f32) (r : Fin 100000) (t : Fin 128) : rows v (ix2 r t) = v (ix1 t) := by
  unfold rows
  rw [broadcastInDim_oneRow_apply, asRow_apply]

/-- A one-row table as its row, at t. -/
theorem vec_apply (g : FVec Ideal S1x128 .f32) (t : Fin 128) : vec g (ix1 t) = g (ix2 (0 : Fin 1) t) := by
  unfold vec; exact shapeCast_1a_a_apply g _ t

/-- A one-page stack as its page, at (p, q). -/
theorem mat_apply (w : FVec Ideal S1x128x128 .f32) (p q : Fin 128) : mat w (ix2 p q) = w (ix3 (0 : Fin 1) p q) := by
  unfold mat; exact shapeCast_1ab_ab_apply w _ p q

/-- A scalar laid over any shape reads the scalar everywhere. -/
theorem splat_apply {T : Shape} (h : S_.BroadcastsInDim T ![]) (c : BitVec 32) (j : T.Idx) :
    broadcastInDim T ![] h (constant (F := Ideal) S_ .f32 c) j = Ideal.ofBits .f32 c := by
  rw [broadcastInDim_scalar_apply, constant_apply]

/-! ## The leaky rectifier at an index -/

/-- The leaky rectifier on one number: x where x ≥ 0, else the slope times x. -/
def lr1 (x : EReal) : EReal :=
  Scalar.select (Ideal.cmp .oge x (Ideal.ofBits .f32 0x00000000#32)) x (Ideal.ofBits .f32 0x3C23D70A#32 * x)

theorem lrelu_apply {s : Shape} (hb : S_.BroadcastsInDim s (![] : Fin 0 → Fin s.rank)) (x : FVec Ideal s .f32) (i : s.Idx) :
    lrelu hb x i = lr1 (x i) := by
  unfold lrelu lr1
  rw [select_apply, cmpf_apply, mulf_apply, splat_apply, splat_apply]
  rfl

/-! ## The column statistics at an index -/

/-- The mean of column t: the column's sum over the row count. -/
theorem colMean_apply (x : FVec Ideal S100000x128 .f32) (t : Fin 128) :
    colMean x (ix1 t) = Ideal.div (∑ r : Fin 100000, x (ix2 r t)) (Ideal.ofBits .f32 0x47C35000#32) := by
  unfold colMean
  rw [hostDivf_apply, splat_apply, BnRead.colSum_host x reducesTo_S100000x128_S128_d0 (by decide) h_S_ t]

/-- The centred table at (r, t): the entry less its column's mean. -/
theorem centred_apply (x : FVec Ideal S100000x128 .f32) (r : Fin 100000) (t : Fin 128) :
    centred x (ix2 r t) = x (ix2 r t) - Ideal.div (∑ r' : Fin 100000, x (ix2 r' t)) (Ideal.ofBits .f32 0x47C35000#32) := by
  unfold centred
  rw [subf_apply, broadcastInDim_oneRow_apply, hostDivf_apply, splat_apply, asRow_apply,
    BnRead.colSum_host x reducesTo_S100000x128_S128_d0 (by decide) h_S_ t]

/-- The variance's divisor is the row count: 100000 less the integer 0 read as a float. -/
theorem varCount_apply (j : S_.Idx) : varCount (F := Ideal) j = Ideal.ofBits .f32 0x47C35000#32 := by
  unfold varCount
  rw [subf_apply, constant_apply]
  show Ideal.ofBits .f32 0x47C35000#32 - (((0#32 : BitVec 32).toInt : ℝ) : EReal) = _
  simp

/-- The row count is above zero. -/
theorem count_pos : Ideal.cmp .ogt (Ideal.ofBits .f32 0x47C35000#32) (Ideal.ofBits .f32 0x00000000#32) = 1#1 := by
  rw [Gin.Consts.ofBits_n, Ideal.ofBits_zero_f32]
  unfold Ideal.cmp
  simp

/-- The variance of column t: the mean of the squares of the centred entries. -/
theorem colVar_apply (x : FVec Ideal S100000x128 .f32) (t : Fin 128) :
    colVar x (ix1 t)
      = Ideal.div (∑ r : Fin 100000,
            (x (ix2 r t) - Ideal.div (∑ r' : Fin 100000, x (ix2 r' t)) (Ideal.ofBits .f32 0x47C35000#32))
              * (x (ix2 r t) - Ideal.div (∑ r' : Fin 100000, x (ix2 r' t)) (Ideal.ofBits .f32 0x47C35000#32)))
          (Ideal.ofBits .f32 0x47C35000#32) := by
  unfold colVar
  rw [select_apply, broadcastInDim_scalar_apply, cmpf_apply, varCount_apply, constant_apply]
  rw [show FloatOps.cmpf (F := Ideal) .ogt (Ideal.ofBits .f32 0x47C35000#32) (Ideal.ofBits .f32 0x00000000#32) = 1#1 from count_pos]
  rw [select_one, hostDivf_apply, broadcastInDim_scalar_apply, varCount_apply]
  rw [BnRead.colSum_host (mulf (centred x) (centred x)) reducesTo_S100000x128_S128_d0 (by decide) h_S_ t]
  simp only [mulf_apply, centred_apply]

/-- The host's reciprocal square root at an index. -/
theorem hostRsqrt_apply {s : Shape} (v : FVec Ideal s .f32) (i : s.Idx) : Host.rsqrt v i = Ideal.rsqrt (v i) := rfl

/-- The scalar rectifier is the specification's. -/
theorem lr1_eq (x : EReal) : lr1 x = Gin.lr x := rfl

/-! ## The normalisation with its activation is the specification's centred layer -/

theorem bnAct_apply (g b : FVec Ideal S1x128 .f32) (x : FVec Ideal S100000x128 .f32) :
    bnAct g b x = Gin.layerCent (fun j => g (ix2 (0 : Fin 1) j)) (fun j => b (ix2 (0 : Fin 1) j)) x := by
  funext i
  obtain ⟨r, t, rfl⟩ : ∃ (r : Fin 100000) (t : Fin 128), i = ix2 r t := ⟨i 0, i 1, eq_ix2 i⟩
  unfold bnAct
  rw [lrelu_apply, addf_apply, mulf_apply, mulf_apply, subf_apply, rows_apply, rows_apply, rows_apply, rows_apply,
    vec_apply, vec_apply, colMean_apply, hostRsqrt_apply, addf_apply, colVar_apply, splat_apply, lr1_eq]
  rfl

/-! ## The perceptron is two affine maps around the rectifier -/

/-- The rectifier on a whole array is the specification's, entry by entry. -/
theorem lrelu_eq {n k : ℕ} (hb : S_.BroadcastsInDim (⟨2, ![n, k]⟩ : Shape) ![]) (x : FVec Ideal (⟨2, ![n, k]⟩ : Shape) .f32) :
    lrelu hb x = Gin.lrArr x :=
  funext fun i => (lrelu_apply hb x i).trans (lr1_eq _)

/-- A product with a row of biases added to every row is the specification's affine map. -/
theorem affine_read {n k m : ℕ} {d : DotDims (⟨2, ![n, k]⟩ : Shape) (⟨2, ![k, m]⟩ : Shape) (⟨2, ![n, m]⟩ : Shape)}
    (hd : MatProd.Plain d) (X : FVec Ideal (⟨2, ![n, k]⟩ : Shape) .f32) (W : FVec Ideal (⟨2, ![k, m]⟩ : Shape) .f32)
    (cb : FVec Ideal (⟨2, ![n, m]⟩ : Shape) .f32) (c : Fin m → EReal) (hc : ∀ (r : Fin n) (t : Fin m), cb (ix2 r t) = c t) :
    addf (Host.dotGeneral d none X W) cb = Gin.affine X W c := by
  funext i
  obtain ⟨r, t, rfl⟩ : ∃ (r : Fin n) (t : Fin m), i = ix2 r t := ⟨i 0, i 1, eq_ix2 i⟩
  rw [addf_apply, hc]
  show FloatOps.dotGeneral d none .single X W (ix2 r t) + c t = MatProd.mm X W (ix2 r t) + c t
  rw [MatProd.dotGeneral_mm hd]

/-- The layer's products contract the left operand's columns against the right operand's rows. -/
theorem plain_layer : MatProd.Plain dot_S100000x128_S128x128_S100000x128_1_0_0_1_n_n where
  hr := rfl
  hs := rfl
  hl0 := fun j c => by simp [DotDims.lhsIdx, dot_S100000x128_S128x128_S100000x128_1_0_0_1_n_n]; rfl
  hl1 := fun j c => by simp [DotDims.lhsIdx, dot_S100000x128_S128x128_S100000x128_1_0_0_1_n_n]; rfl
  hr0 := fun j c => by simp [DotDims.rhsIdx, dot_S100000x128_S128x128_S100000x128_1_0_0_1_n_n]; rfl
  hr1 := fun j c => by simp [DotDims.rhsIdx, dot_S100000x128_S128x128_S100000x128_1_0_0_1_n_n]; rfl

/-- (1 + eps) · h + sum, entry by entry. -/
theorem ginIn_read (e : FVec Ideal S1 .f32) (h g : FVec Ideal S100000x128 .f32) :
    addf (mulf (broadcastInDim S100000x128 ![] bcast_S_S100000x128
        (addf (constant S_ .f32 0x3F800000#32) (shapeCast S_ e shapeCasts_S1_S_))) h) g
      = Gin.ginIn (fun _ => e (ix1 (0 : Fin 1))) h g := by
  funext i
  rw [addf_apply, mulf_apply, broadcastInDim_scalar_apply, addf_apply, constant_apply]
  have hs : shapeCast S_ e shapeCasts_S1_S_ ix0 = e (ix1 (0 : Fin 1)) :=
    shapeCast_apply e shapeCasts_S1_S_ ix0 (ix1 (0 : Fin 1)) (by decide)
  rw [hs]
  rfl

theorem mlp_apply (e : FVec Ideal S1 .f32) (w1 : FVec Ideal S1x128x128 .f32) (c1 : FVec Ideal S1x128 .f32)
    (w2 : FVec Ideal S1x128x128 .f32) (c2 : FVec Ideal S1x128 .f32) (h g : FVec Ideal S100000x128 .f32) :
    mlp e w1 c1 w2 c2 h g
      = Gin.mlpE (fun _ => e (ix1 (0 : Fin 1))) h g (mat w1) (fun j => c1 (ix2 (0 : Fin 1) j)) (mat w2)
          (fun j => c2 (ix2 (0 : Fin 1) j)) := by
  unfold mlp Gin.mlpE
  rw [ginIn_read,
    affine_read plain_layer _ (mat w1) (rows (vec c1)) (fun j => c1 (ix2 (0 : Fin 1) j))
      (fun r t => by rw [rows_apply, vec_apply]),
    lrelu_eq,
    affine_read plain_layer _ (mat w2) (rows (vec c2)) (fun j => c2 (ix2 (0 : Fin 1) j))
      (fun r t => by rw [rows_apply, vec_apply])]

/-! ## The classifier -/

theorem plain_cls1 : MatProd.Plain dot_S64x640_S640x256_S64x256_1_0_0_1_n_n where
  hr := rfl
  hs := rfl
  hl0 := fun j c => by simp [DotDims.lhsIdx, dot_S64x640_S640x256_S64x256_1_0_0_1_n_n]; rfl
  hl1 := fun j c => by simp [DotDims.lhsIdx, dot_S64x640_S640x256_S64x256_1_0_0_1_n_n]; rfl
  hr0 := fun j c => by simp [DotDims.rhsIdx, dot_S64x640_S640x256_S64x256_1_0_0_1_n_n]; rfl
  hr1 := fun j c => by simp [DotDims.rhsIdx, dot_S64x640_S640x256_S64x256_1_0_0_1_n_n]; rfl

theorem plain_cls2 : MatProd.Plain dot_S64x256_S256x10_S64x10_1_0_0_1_n_n where
  hr := rfl
  hs := rfl
  hl0 := fun j c => by simp [DotDims.lhsIdx, dot_S64x256_S256x10_S64x10_1_0_0_1_n_n]; rfl
  hl1 := fun j c => by simp [DotDims.lhsIdx, dot_S64x256_S256x10_S64x10_1_0_0_1_n_n]; rfl
  hr0 := fun j c => by simp [DotDims.rhsIdx, dot_S64x256_S256x10_S64x10_1_0_0_1_n_n]; rfl
  hr1 := fun j c => by simp [DotDims.rhsIdx, dot_S64x256_S256x10_S64x10_1_0_0_1_n_n]; rfl

/-- A vector of 256 entries laid along each of the 64 rows, at (r, t): its entry t. -/
theorem rows256_apply (c : FVec Ideal S256 .f32) (r : Fin 64) (t : Fin 256) :
    broadcastInDim S64x256 ![0, 1] bcast_S1x256_S64x256_0_1 (broadcastInDim S1x256 ![1] bcast_S256_S1x256_1 c) (ix2 r t) = c (ix1 t) := by
  rw [broadcastInDim_oneRow_apply]
  exact broadcastInDim_apply ![1] bcast_S256_S1x256_1 c (ix2 (0 : Fin 1) t) (ix1 t) (fun a => by
    match a with
    | ⟨0, _⟩ => show t.val = if (256 : ℕ) = 1 then 0 else t.val; rw [if_neg (by decide)])

/-- A vector of 10 entries laid along each of the 64 rows, at (r, t): its entry t. -/
theorem rows10_apply (c : FVec Ideal S10 .f32) (r : Fin 64) (t : Fin 10) :
    broadcastInDim S64x10 ![0, 1] bcast_S1x10_S64x10_0_1 (broadcastInDim S1x10 ![1] bcast_S10_S1x10_1 c) (ix2 r t) = c (ix1 t) := by
  rw [broadcastInDim_oneRow_apply]
  exact broadcastInDim_apply ![1] bcast_S10_S1x10_1 c (ix2 (0 : Fin 1) t) (ix1 t) (fun a => by
    match a with
    | ⟨0, _⟩ => show t.val = if (10 : ℕ) = 1 then 0 else t.val; rw [if_neg (by decide)])

theorem classify_apply (w1 : FVec Ideal S640x256 .f32) (c1 : FVec Ideal S256 .f32) (w2 : FVec Ideal S256x10 .f32)
    (c2 : FVec Ideal S10 .f32) (p : FVec Ideal S64x640 .f32) :
    classify w1 c1 w2 c2 p = Gin.clsE p w1 (fun j => c1 (ix1 j)) w2 (fun j => c2 (ix1 j)) := by
  unfold classify Gin.clsE
  rw [lrelu_eq,
    affine_read plain_cls1 _ w1 _ (fun j => c1 (ix1 j)) (fun r t => rows256_apply c1 r t),
    lrelu_eq,
    affine_read plain_cls2 _ w2 _ (fun j => c2 (ix1 j)) (fun r t => rows10_apply c2 r t)]

/-! ## Real entries stay real -/

open SegSum

/-- The zero pattern denotes a real number. -/
theorem isReal_zeroBits : IsReal (Ideal.ofBits .f32 0x00000000#32) := by
  rw [Ideal.ofBits_zero_f32]; exact isReal_zero

/-- A one-hot entry is the integer 0 or 1 read as a float: a real number. -/
theorem isReal_oneHot (d : IVec S100000 32) (i : S100000x128.Idx) : IsReal (oneHot (F := Ideal) d i) := ⟨_, rfl⟩

/-- The neighbour sum of a table of real numbers is a table of real numbers: zero plus a finite sum of entries. -/
theorem isReal_aggregate (h : FVec Ideal S100000x128 .f32) (s d : IVec S1600000 32) (hh : ∀ i, IsReal (h i))
    (i : S100000x128.Idx) : IsReal (aggregate h s d i) := by
  unfold aggregate
  exact isReal_scatterAdd _ _ _ _ (fun j => by rw [splat_apply]; exact isReal_zeroBits)
    (fun j => isReal_gather _ _ _ hh j) i

/-- A cast and a slice read entries of their operand. -/
theorem isReal_mat (w : FVec Ideal S1x128x128 .f32) (hw : ∀ i, IsReal (w i)) (i : S128x128.Idx) : IsReal (mat w i) := hw _
theorem isReal_vec (g : FVec Ideal S1x128 .f32) (hg : ∀ i, IsReal (g i)) (i : S128.Idx) : IsReal (vec g i) := hg _
theorem isReal_eps0 (a : FVec Ideal S4 .f32) (ha : ∀ i, IsReal (a i)) (i : S1.Idx) : IsReal (eps0 a i) := ha _
theorem isReal_page0 (a : FVec Ideal S4x128x128 .f32) (ha : ∀ i, IsReal (a i)) (i : S1x128x128.Idx) : IsReal (page0 a i) := ha _
theorem isReal_row0 (a : FVec Ideal S4x128 .f32) (ha : ∀ i, IsReal (a i)) (i : S1x128.Idx) : IsReal (row0 a i) := ha _
theorem isReal_eps1 (a : FVec Ideal S4 .f32) (ha : ∀ i, IsReal (a i)) (i : S1.Idx) : IsReal (eps1 a i) := ha _
theorem isReal_page1 (a : FVec Ideal S4x128x128 .f32) (ha : ∀ i, IsReal (a i)) (i : S1x128x128.Idx) : IsReal (page1 a i) := ha _
theorem isReal_row1 (a : FVec Ideal S4x128 .f32) (ha : ∀ i, IsReal (a i)) (i : S1x128.Idx) : IsReal (row1 a i) := ha _
theorem isReal_eps2 (a : FVec Ideal S4 .f32) (ha : ∀ i, IsReal (a i)) (i : S1.Idx) : IsReal (eps2 a i) := ha _
theorem isReal_page2 (a : FVec Ideal S4x128x128 .f32) (ha : ∀ i, IsReal (a i)) (i : S1x128x128.Idx) : IsReal (page2 a i) := ha _
theorem isReal_row2 (a : FVec Ideal S4x128 .f32) (ha : ∀ i, IsReal (a i)) (i : S1x128.Idx) : IsReal (row2 a i) := ha _
theorem isReal_eps3 (a : FVec Ideal S4 .f32) (ha : ∀ i, IsReal (a i)) (i : S1.Idx) : IsReal (eps3 a i) := ha _
theorem isReal_page3 (a : FVec Ideal S4x128x128 .f32) (ha : ∀ i, IsReal (a i)) (i : S1x128x128.Idx) : IsReal (page3 a i) := ha _
theorem isReal_row3 (a : FVec Ideal S4x128 .f32) (ha : ∀ i, IsReal (a i)) (i : S1x128.Idx) : IsReal (row3 a i) := ha _

/-- The perceptron of real arrays is a real array. -/
theorem isReal_mlp (e : FVec Ideal S1 .f32) (w1 : FVec Ideal S1x128x128 .f32) (c1 : FVec Ideal S1x128 .f32)
    (w2 : FVec Ideal S1x128x128 .f32) (c2 : FVec Ideal S1x128 .f32) (h g : FVec Ideal S100000x128 .f32)
    (he : ∀ i, IsReal (e i)) (hw1 : ∀ i, IsReal (w1 i)) (hc1 : ∀ i, IsReal (c1 i)) (hw2 : ∀ i, IsReal (w2 i))
    (hc2 : ∀ i, IsReal (c2 i)) (hh : ∀ i, IsReal (h i)) (hg : ∀ i, IsReal (g i)) (i : S100000x128.Idx) :
    IsReal (mlp e w1 c1 w2 c2 h g i) := by
  rw [mlp_apply]
  exact Gin.isReal_mlpE _ _ _ _ _ _ _ (fun _ => he _) hh hg (isReal_mat w1 hw1) (fun _ => hc1 _) (isReal_mat w2 hw2)
    (fun _ => hc2 _) i

/-- The normalisation with its activation of a real array, with real scale and shift, is a real array. -/
theorem isReal_bnAct (g b : FVec Ideal S1x128 .f32) (x : FVec Ideal S100000x128 .f32) (hg : ∀ i, IsReal (g i))
    (hb : ∀ i, IsReal (b i)) (hx : ∀ i, IsReal (x i)) (i : S100000x128.Idx) : IsReal (bnAct g b x i) := by
  rw [bnAct_apply]
  exact Gin.isReal_layerCent _ _ x hx (fun _ => hg _) (fun _ => hb _) i

end Cert.ReferenceIdeal.Hand

end
-- ==== Proof.Ref.Real.lean ====
/- With real parameters every table of the reference network has real entries: the one-hot features are zeros and
   ones, a neighbour sum is a finite sum of entries, the perceptron is sums of products with real constants, and the
   normalisation of a real column divides by the root of a positive real. Layer by layer. -/
import proofs.«116561_j3624952397847_1_alg».proof.Proof.Ref.Read

noncomputable section

namespace Cert.ReferenceIdeal.Hand

open Cert.ReferenceIdeal Cert.ReferenceIdeal.Gen Idealize.ShloMosaic Idealize.ShloMosaic.ValueIdx Idealize.SL.Sem SegSum

theorem isReal_h0 (a0 : IVec S100000 32) (i : S100000x128.Idx) : IsReal (h0 (F := Ideal) a0 i) := isReal_oneHot a0 i

theorem isReal_agg0 (a0 : IVec S100000 32) (a1 : IVec S2x1600000 32) (i : S100000x128.Idx) : IsReal (agg0 (F := Ideal) a0 a1 i) :=
  isReal_aggregate _ _ _ (isReal_h0 a0) i

theorem isReal_pre0 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (i : S100000x128.Idx) :
    IsReal (pre0 a0 a1 a3 a4 a5 a6 a7 i) :=
  isReal_mlp _ _ _ _ _ _ _ (isReal_eps0 a3 r3) (isReal_page0 a4 r4) (isReal_row0 a5 r5) (isReal_page0 a6 r6) (isReal_row0 a7 r7)
    (isReal_h0 a0) (isReal_agg0 a0 a1) i

theorem isReal_h1 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (h1 a0 a1 a3 a4 a5 a6 a7 a8 a9 i) :=
  isReal_bnAct _ _ _ (isReal_row0 a8 r8) (isReal_row0 a9 r9) (isReal_pre0 a0 a1 a3 a4 a5 a6 a7 r3 r4 r5 r6 r7) i

theorem isReal_agg1 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (agg1 a0 a1 a3 a4 a5 a6 a7 a8 a9 i) :=
  isReal_aggregate _ _ _ (isReal_h1 a0 a1 a3 a4 a5 a6 a7 a8 a9 r3 r4 r5 r6 r7 r8 r9) i

theorem isReal_pre1 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (pre1 a0 a1 a3 a4 a5 a6 a7 a8 a9 i) :=
  isReal_mlp _ _ _ _ _ _ _ (isReal_eps1 a3 r3) (isReal_page1 a4 r4) (isReal_row1 a5 r5) (isReal_page1 a6 r6) (isReal_row1 a7 r7)
    (isReal_h1 a0 a1 a3 a4 a5 a6 a7 a8 a9 r3 r4 r5 r6 r7 r8 r9) (isReal_agg1 a0 a1 a3 a4 a5 a6 a7 a8 a9 r3 r4 r5 r6 r7 r8 r9) i

theorem isReal_h2 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (h2 a0 a1 a3 a4 a5 a6 a7 a8 a9 i) :=
  isReal_bnAct _ _ _ (isReal_row1 a8 r8) (isReal_row1 a9 r9) (isReal_pre1 a0 a1 a3 a4 a5 a6 a7 a8 a9 r3 r4 r5 r6 r7 r8 r9) i

theorem isReal_agg2 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (agg2 a0 a1 a3 a4 a5 a6 a7 a8 a9 i) :=
  isReal_aggregate _ _ _ (isReal_h2 a0 a1 a3 a4 a5 a6 a7 a8 a9 r3 r4 r5 r6 r7 r8 r9) i

theorem isReal_pre2 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (pre2 a0 a1 a3 a4 a5 a6 a7 a8 a9 i) :=
  isReal_mlp _ _ _ _ _ _ _ (isReal_eps2 a3 r3) (isReal_page2 a4 r4) (isReal_row2 a5 r5) (isReal_page2 a6 r6) (isReal_row2 a7 r7)
    (isReal_h2 a0 a1 a3 a4 a5 a6 a7 a8 a9 r3 r4 r5 r6 r7 r8 r9) (isReal_agg2 a0 a1 a3 a4 a5 a6 a7 a8 a9 r3 r4 r5 r6 r7 r8 r9) i

theorem isReal_h3 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (h3 a0 a1 a3 a4 a5 a6 a7 a8 a9 i) :=
  isReal_bnAct _ _ _ (isReal_row2 a8 r8) (isReal_row2 a9 r9) (isReal_pre2 a0 a1 a3 a4 a5 a6 a7 a8 a9 r3 r4 r5 r6 r7 r8 r9) i

theorem isReal_agg3 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (agg3 a0 a1 a3 a4 a5 a6 a7 a8 a9 i) :=
  isReal_aggregate _ _ _ (isReal_h3 a0 a1 a3 a4 a5 a6 a7 a8 a9 r3 r4 r5 r6 r7 r8 r9) i

theorem isReal_pre3 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (pre3 a0 a1 a3 a4 a5 a6 a7 a8 a9 i) :=
  isReal_mlp _ _ _ _ _ _ _ (isReal_eps3 a3 r3) (isReal_page3 a4 r4) (isReal_row3 a5 r5) (isReal_page3 a6 r6) (isReal_row3 a7 r7)
    (isReal_h3 a0 a1 a3 a4 a5 a6 a7 a8 a9 r3 r4 r5 r6 r7 r8 r9) (isReal_agg3 a0 a1 a3 a4 a5 a6 a7 a8 a9 r3 r4 r5 r6 r7 r8 r9) i

theorem isReal_h4 (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) (i : S100000x128.Idx) :
    IsReal (h4 a0 a1 a3 a4 a5 a6 a7 a8 a9 i) :=
  isReal_bnAct _ _ _ (isReal_row3 a8 r8) (isReal_row3 a9 r9) (isReal_pre3 a0 a1 a3 a4 a5 a6 a7 a8 a9 r3 r4 r5 r6 r7 r8 r9) i

/-! ## Each layer read against the specification -/

/-- Layer 0's rows before normalisation are the specification's perceptron of the layer's parameters. -/
theorem pre0_mlpE (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) :
    pre0 a0 a1 a3 a4 a5 a6 a7
      = Gin.mlpE (fun _ => eps0 a3 (ix1 (0 : Fin 1))) (h0 (F := Ideal) a0) (agg0 (F := Ideal) a0 a1) (mat (page0 a4))
          (fun j => row0 a5 (ix2 (0 : Fin 1) j)) (mat (page0 a6)) (fun j => row0 a7 (ix2 (0 : Fin 1) j)) := by
  unfold pre0
  exact mlp_apply _ _ _ _ _ _ _

/-- Layer 0's output is the specification's layer in the folded arrangement (real parameters: the two arrangements agree). -/
theorem h1_fold (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) :
    h1 a0 a1 a3 a4 a5 a6 a7 a8 a9
      = Gin.layerFold (fun j => row0 a8 (ix2 (0 : Fin 1) j)) (fun j => row0 a9 (ix2 (0 : Fin 1) j)) (pre0 a0 a1 a3 a4 a5 a6 a7) := by
  unfold h1
  rw [bnAct_apply]
  exact (Gin.layerFold_eq_layerCent _ _ _ (isReal_pre0 a0 a1 a3 a4 a5 a6 a7 r3 r4 r5 r6 r7) (fun j => isReal_row0 a8 r8 _) (fun j => isReal_row0 a9 r9 _)).symm

/-- The same in the centred arrangement (no hypothesis needed). -/
theorem h1_cent (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    h1 a0 a1 a3 a4 a5 a6 a7 a8 a9
      = Gin.layerCent (fun j => row0 a8 (ix2 (0 : Fin 1) j)) (fun j => row0 a9 (ix2 (0 : Fin 1) j)) (pre0 a0 a1 a3 a4 a5 a6 a7) := by
  unfold h1
  exact bnAct_apply _ _ _

/-- Layer 1's rows before normalisation are the specification's perceptron of the layer's parameters. -/
theorem pre1_mlpE (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    pre1 a0 a1 a3 a4 a5 a6 a7 a8 a9
      = Gin.mlpE (fun _ => eps1 a3 (ix1 (0 : Fin 1))) (h1 a0 a1 a3 a4 a5 a6 a7 a8 a9) (agg1 a0 a1 a3 a4 a5 a6 a7 a8 a9) (mat (page1 a4))
          (fun j => row1 a5 (ix2 (0 : Fin 1) j)) (mat (page1 a6)) (fun j => row1 a7 (ix2 (0 : Fin 1) j)) := by
  unfold pre1
  exact mlp_apply _ _ _ _ _ _ _

/-- Layer 1's output is the specification's layer in the folded arrangement (real parameters: the two arrangements agree). -/
theorem h2_fold (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) :
    h2 a0 a1 a3 a4 a5 a6 a7 a8 a9
      = Gin.layerFold (fun j => row1 a8 (ix2 (0 : Fin 1) j)) (fun j => row1 a9 (ix2 (0 : Fin 1) j)) (pre1 a0 a1 a3 a4 a5 a6 a7 a8 a9) := by
  unfold h2
  rw [bnAct_apply]
  exact (Gin.layerFold_eq_layerCent _ _ _ (isReal_pre1 a0 a1 a3 a4 a5 a6 a7 a8 a9 r3 r4 r5 r6 r7 r8 r9) (fun j => isReal_row1 a8 r8 _) (fun j => isReal_row1 a9 r9 _)).symm

/-- The same in the centred arrangement (no hypothesis needed). -/
theorem h2_cent (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    h2 a0 a1 a3 a4 a5 a6 a7 a8 a9
      = Gin.layerCent (fun j => row1 a8 (ix2 (0 : Fin 1) j)) (fun j => row1 a9 (ix2 (0 : Fin 1) j)) (pre1 a0 a1 a3 a4 a5 a6 a7 a8 a9) := by
  unfold h2
  exact bnAct_apply _ _ _

/-- Layer 2's rows before normalisation are the specification's perceptron of the layer's parameters. -/
theorem pre2_mlpE (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    pre2 a0 a1 a3 a4 a5 a6 a7 a8 a9
      = Gin.mlpE (fun _ => eps2 a3 (ix1 (0 : Fin 1))) (h2 a0 a1 a3 a4 a5 a6 a7 a8 a9) (agg2 a0 a1 a3 a4 a5 a6 a7 a8 a9) (mat (page2 a4))
          (fun j => row2 a5 (ix2 (0 : Fin 1) j)) (mat (page2 a6)) (fun j => row2 a7 (ix2 (0 : Fin 1) j)) := by
  unfold pre2
  exact mlp_apply _ _ _ _ _ _ _

/-- Layer 2's output is the specification's layer in the folded arrangement (real parameters: the two arrangements agree). -/
theorem h3_fold (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) :
    h3 a0 a1 a3 a4 a5 a6 a7 a8 a9
      = Gin.layerFold (fun j => row2 a8 (ix2 (0 : Fin 1) j)) (fun j => row2 a9 (ix2 (0 : Fin 1) j)) (pre2 a0 a1 a3 a4 a5 a6 a7 a8 a9) := by
  unfold h3
  rw [bnAct_apply]
  exact (Gin.layerFold_eq_layerCent _ _ _ (isReal_pre2 a0 a1 a3 a4 a5 a6 a7 a8 a9 r3 r4 r5 r6 r7 r8 r9) (fun j => isReal_row2 a8 r8 _) (fun j => isReal_row2 a9 r9 _)).symm

/-- The same in the centred arrangement (no hypothesis needed). -/
theorem h3_cent (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    h3 a0 a1 a3 a4 a5 a6 a7 a8 a9
      = Gin.layerCent (fun j => row2 a8 (ix2 (0 : Fin 1) j)) (fun j => row2 a9 (ix2 (0 : Fin 1) j)) (pre2 a0 a1 a3 a4 a5 a6 a7 a8 a9) := by
  unfold h3
  exact bnAct_apply _ _ _

/-- Layer 3's rows before normalisation are the specification's perceptron of the layer's parameters. -/
theorem pre3_mlpE (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    pre3 a0 a1 a3 a4 a5 a6 a7 a8 a9
      = Gin.mlpE (fun _ => eps3 a3 (ix1 (0 : Fin 1))) (h3 a0 a1 a3 a4 a5 a6 a7 a8 a9) (agg3 a0 a1 a3 a4 a5 a6 a7 a8 a9) (mat (page3 a4))
          (fun j => row3 a5 (ix2 (0 : Fin 1) j)) (mat (page3 a6)) (fun j => row3 a7 (ix2 (0 : Fin 1) j)) := by
  unfold pre3
  exact mlp_apply _ _ _ _ _ _ _

/-- Layer 3's output is the specification's layer in the folded arrangement (real parameters: the two arrangements agree). -/
theorem h4_fold (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32)
    (r3 : ∀ i, IsReal (a3 i)) (r4 : ∀ i, IsReal (a4 i)) (r5 : ∀ i, IsReal (a5 i)) (r6 : ∀ i, IsReal (a6 i)) (r7 : ∀ i, IsReal (a7 i)) (r8 : ∀ i, IsReal (a8 i)) (r9 : ∀ i, IsReal (a9 i)) :
    h4 a0 a1 a3 a4 a5 a6 a7 a8 a9
      = Gin.layerFold (fun j => row3 a8 (ix2 (0 : Fin 1) j)) (fun j => row3 a9 (ix2 (0 : Fin 1) j)) (pre3 a0 a1 a3 a4 a5 a6 a7 a8 a9) := by
  unfold h4
  rw [bnAct_apply]
  exact (Gin.layerFold_eq_layerCent _ _ _ (isReal_pre3 a0 a1 a3 a4 a5 a6 a7 a8 a9 r3 r4 r5 r6 r7 r8 r9) (fun j => isReal_row3 a8 r8 _) (fun j => isReal_row3 a9 r9 _)).symm

/-- The same in the centred arrangement (no hypothesis needed). -/
theorem h4_cent (a0 : IVec S100000 32) (a1 : IVec S2x1600000 32) (a3 : FVec Ideal S4 .f32) (a4 : FVec Ideal S4x128x128 .f32) (a5 : FVec Ideal S4x128 .f32) (a6 : FVec Ideal S4x128x128 .f32) (a7 : FVec Ideal S4x128 .f32) (a8 : FVec Ideal S4x128 .f32) (a9 : FVec Ideal S4x128 .f32) :
    h4 a0 a1 a3 a4 a5 a6 a7 a8 a9
      = Gin.layerCent (fun j => row3 a8 (ix2 (0 : Fin 1) j)) (fun j => row3 a9 (ix2 (0 : Fin 1) j)) (pre3 a0 a1 a3 a4 a5 a6 a7 a8 a9) := by
  unfold h4
  exact bnAct_apply _ _ _

end Cert.ReferenceIdeal.Hand

end
-- ==== Proof.KI.NetLayer.lean ====
/- The four layers of the kernel's program joined to the reference network's terms.

   A layer of the kernel's program is a stretch of host operations (the neighbour sums, the layer's parameters cut
   out of the stacked arrays), a region that computes the perceptron's rows and their column sums and sums of
   squares, a stretch that turns the sums into the normalisation's scale and shift rows, and a region that applies
   them and the leaky rectifier. Read with the shared specification: the first region's table is the perceptron of
   the layer's input and neighbour sums; the scale and shift make the affine map the folded normalisation of that
   table's entries; so the second region's table is the layer's output in the folded arrangement, which for real
   parameters is the reference's layer. What the first region leaves (its table and the two sums) enters as
   hypotheses stated over the buffers the region finds. -/
import proofs.«116561_j3624952397847_1_alg».proof.Proof.KI.Kept
import proofs.«116561_j3624952397847_1_alg».proof.Proof.KI.HostRead
import proofs.«116561_j3624952397847_1_alg».proof.Proof.KI.HostBN
import proofs.«116561_j3624952397847_1_alg».proof.Proof.KI.BridgeL
import proofs.«116561_j3624952397847_1_alg».proof.Proof.Ref.Real

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first feature table is the reference's. -/
theorem table0 (c : Dev nD) :
    (U1 m ρ c main_v0 : S100000x128.Idx → EReal) = Cert.ReferenceIdeal.Hand.h0 (F := Ideal) (m ((c.tc : Thread nD τ).loc main_arg0)) :=
  U1_v0 m ρ c

/-- The edge lists, as every later stretch finds them. -/
theorem src2 (c : Dev nD) : (U2 m ρ c main_v2 : S1600000.Idx → BitVec 32) = Cert.ReferenceIdeal.Hand.edgeSrc (m ((c.tc : Thread nD τ).loc main_arg1)) := U2_v2 m ρ c
theorem dst2 (c : Dev nD) : (U2 m ρ c main_v4 : S1600000.Idx → BitVec 32) = Cert.ReferenceIdeal.Hand.edgeDst (m ((c.tc : Thread nD τ).loc main_arg1)) := U2_v4 m ρ c

/-- A one-entry vector as a scalar laid along a row reads the entry at every column. -/
theorem epsRow_apply (e : S1.Idx → EReal) (j : Fin 128) :
    broadcastInDim S1x128 ![] bcast_S_S1x128 (shapeCast S_ e shapeCasts_S1_S_) (ix2 (0 : Fin 1) j) = e (ix1 (0 : Fin 1)) := by
  rw [broadcastInDim_scalar_apply]
  exact shapeCast_apply e shapeCasts_S1_S_ ix0 (ix1 (0 : Fin 1)) (by decide)

/-- A vector as a one-row table reads the vector's entry. -/
theorem biasRow_apply (g : S1x128.Idx → EReal) (j : Fin 128) :
    shapeCast S1x128 (Cert.ReferenceIdeal.Hand.vec (F := Ideal) g) shapeCasts_S128_S1x128 (ix2 (0 : Fin 1) j) = g (ix2 (0 : Fin 1) j) := by
  rw [shapeCast_a_1a_apply]
  exact Cert.ReferenceIdeal.Hand.vec_apply g j

/-! ## Layer 0 -/

/-- The three arrays layer 0's first region leaves, as tables of extended reals: the rows before normalisation, their
    column sums, their column sums of squares. -/
def preT0 (c : Dev nD) : S100000x128.Idx → EReal := U3 m ρ c main_v28_0
def sumT0 (c : Dev nD) : S1x128.Idx → EReal := U3 m ρ c main_v28_1
def sqT0 (c : Dev nD) : S1x128.Idx → EReal := U3 m ρ c main_v28_2

/-- What the layer's first region reads, as the reference's pieces. -/
theorem in0_eps (c : Dev nD) (j : Fin 128) :
    (U2 m ρ c main_v17 : S1x128.Idx → EReal) (ix2 (0 : Fin 1) j) = Cert.ReferenceIdeal.Hand.eps0 (F := Ideal) (m ((c.tc : Thread nD τ).loc main_arg3)) (ix1 (0 : Fin 1)) := by
  rw [U2_eps m ρ c]
  exact epsRow_apply _ j
theorem in0_h (c : Dev nD) : (U2 m ρ c main_v0 : S100000x128.Idx → EReal) = Cert.ReferenceIdeal.Hand.h0 (F := Ideal) (m ((c.tc : Thread nD τ).loc main_arg0)) :=
  (W2_main_v0 m ρ c).trans (U1_v0 m ρ c)
theorem in0_agg (c : Dev nD) : (U2 m ρ c main_v14 : S100000x128.Idx → EReal) = Cert.ReferenceIdeal.Hand.agg0 (F := Ideal) (m ((c.tc : Thread nD τ).loc main_arg0)) (m ((c.tc : Thread nD τ).loc main_arg1)) :=
  U2_agg m ρ c
theorem in0_w1 (c : Dev nD) : (U2 m ρ c main_v19 : S128x128.Idx → EReal) = Cert.ReferenceIdeal.Hand.mat (F := Ideal) (Cert.ReferenceIdeal.Hand.page0 (m ((c.tc : Thread nD τ).loc main_arg4))) := U2_w1 m ρ c
theorem in0_w2 (c : Dev nD) : (U2 m ρ c main_v24 : S128x128.Idx → EReal) = Cert.ReferenceIdeal.Hand.mat (F := Ideal) (Cert.ReferenceIdeal.Hand.page0 (m ((c.tc : Thread nD τ).loc main_arg6))) := U2_w2 m ρ c
theorem in0_b1 (c : Dev nD) (j : Fin 128) : (U2 m ρ c main_v22 : S1x128.Idx → EReal) (ix2 (0 : Fin 1) j) = Cert.ReferenceIdeal.Hand.row0 (F := Ideal) (m ((c.tc : Thread nD τ).loc main_arg5)) (ix2 (0 : Fin 1) j) := by
  rw [U2_b1 m ρ c]; exact biasRow_apply _ j
theorem in0_b2 (c : Dev nD) (j : Fin 128) : (U2 m ρ c main_v27 : S1x128.Idx → EReal) (ix2 (0 : Fin 1) j) = Cert.ReferenceIdeal.Hand.row0 (F := Ideal) (m ((c.tc : Thread nD τ).loc main_arg7)) (ix2 (0 : Fin 1) j) := by
  rw [U2_b2 m ρ c]; exact biasRow_apply _ j

/-- The first region's table is the reference's rows before normalisation. -/
theorem pre0_kernel (c : Dev nD)
    (hA7 : preT0 m ρ c = Gin.mlpE (fun j => (U2 m ρ c main_v17 : S1x128.Idx → EReal) (ix2 (0 : Fin 1) j)) (U2 m ρ c main_v0 : S100000x128.Idx → EReal) (U2 m ρ c main_v14 : S100000x128.Idx → EReal)
      (U2 m ρ c main_v19 : S128x128.Idx → EReal) (fun j => (U2 m ρ c main_v22 : S1x128.Idx → EReal) (ix2 (0 : Fin 1) j)) (U2 m ρ c main_v24 : S128x128.Idx → EReal)
      (fun j => (U2 m ρ c main_v27 : S1x128.Idx → EReal) (ix2 (0 : Fin 1) j))) :
    preT0 m ρ c = Cert.ReferenceIdeal.Hand.pre0 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have he : (fun j : Fin 128 => (U2 m ρ c main_v17 : S1x128.Idx → EReal) (ix2 (0 : Fin 1) j))
      = fun _ => Cert.ReferenceIdeal.Hand.eps0 (F := Ideal) (m ((c.tc : Thread nD τ).loc main_arg3)) (ix1 (0 : Fin 1)) := funext fun j => in0_eps m ρ c j
  have hb1 : (fun j : Fin 128 => (U2 m ρ c main_v22 : S1x128.Idx → EReal) (ix2 (0 : Fin 1) j))
      = fun j => Cert.ReferenceIdeal.Hand.row0 (F := Ideal) (m ((c.tc : Thread nD τ).loc main_arg5)) (ix2 (0 : Fin 1) j) := funext fun j => in0_b1 m ρ c j
  have hb2 : (fun j : Fin 128 => (U2 m ρ c main_v27 : S1x128.Idx → EReal) (ix2 (0 : Fin 1) j))
      = fun j => Cert.ReferenceIdeal.Hand.row0 (F := Ideal) (m ((c.tc : Thread nD τ).loc main_arg7)) (ix2 (0 : Fin 1) j) := funext fun j => in0_b2 m ρ c j
  rw [hA7, he, hb1, hb2, in0_h m ρ c, in0_agg m ρ c, in0_w1 m ρ c, in0_w2 m ρ c]
  exact (Cert.ReferenceIdeal.Hand.pre0_mlpE (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

/-- Layer 0's output table is the reference's. -/
theorem layer0_out (c : Dev nD)
    (hA7 : preT0 m ρ c = Gin.mlpE (fun j => (U2 m ρ c main_v17 : S1x128.Idx → EReal) (ix2 (0 : Fin 1) j)) (U2 m ρ c main_v0 : S100000x128.Idx → EReal) (U2 m ρ c main_v14 : S100000x128.Idx → EReal)
      (U2 m ρ c main_v19 : S128x128.Idx → EReal) (fun j => (U2 m ρ c main_v22 : S1x128.Idx → EReal) (ix2 (0 : Fin 1) j)) (U2 m ρ c main_v24 : S128x128.Idx → EReal)
      (fun j => (U2 m ρ c main_v27 : S1x128.Idx → EReal) (ix2 (0 : Fin 1) j)))
    (hA8 : ∀ j : Fin 128, sumT0 m ρ c (ix2 (0 : Fin 1) j) = ∑ r : Fin 100000, preT0 m ρ c (ix2 r j))
    (hA9 : ∀ j : Fin 128, sqT0 m ρ c (ix2 (0 : Fin 1) j) = ∑ r : Fin 100000, preT0 m ρ c (ix2 r j) * preT0 m ρ c (ix2 r j))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have eo : (U5 m ρ c main_v49 : S100000x128.Idx → EReal) = (dat1 (F := Ideal) (U4 m ρ) c).arrAt 3 cfg1.N := W5_arr m ρ c 3
  have hpre : preT0 m ρ c = Cert.ReferenceIdeal.Hand.pre0 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := pre0_kernel m ρ c hA7
  have epre : (U4 m ρ c main_v28_0 : S100000x128.Idx → EReal) = Cert.ReferenceIdeal.Hand.pre0 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := (W4_main_v28_0 m ρ c).trans hpre
  have e8 : (U3 m ρ c main_arg8 : S4x128.Idx → EReal) = (m ((c.tc : Thread nD τ).loc main_arg8)) := W3_main_arg8 m ρ c
  have e9 : (U3 m ρ c main_arg9 : S4x128.Idx → EReal) = (m ((c.tc : Thread nD τ).loc main_arg9)) := W3_main_arg9 m ρ c
  rw [eo, final1_3_lr (U4 m ρ) c]
  show lrAff (U4 m ρ c main_v28_0 : S100000x128.Idx → EReal) (U4 m ρ c main_v47 : S1x128.Idx → EReal) (U4 m ρ c main_v48 : S1x128.Idx → EReal) = _
  rw [epre, Cert.ReferenceIdeal.Hand.h1_fold (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r3 r4 r5 r6 r7 r8 r9]
  refine lrAff_eq_layerFold _ _ _ _ _ (fun x j => ?_)
  rw [U4_fold m ρ c x j]
  show BnPlain.foldedOut Gin.nC Gin.epsC (sumT0 m ρ c (ix2 (0 : Fin 1) j)) (sqT0 m ρ c (ix2 (0 : Fin 1) j))
      (Cert.ReferenceIdeal.Hand.row0 (F := Ideal) (U3 m ρ c main_arg8 : S4x128.Idx → EReal) (ix2 (0 : Fin 1) j))
      (Cert.ReferenceIdeal.Hand.row0 (F := Ideal) (U3 m ρ c main_arg9 : S4x128.Idx → EReal) (ix2 (0 : Fin 1) j)) x = _
  rw [hA8 j, hA9 j, hpre, e8, e9]

/-! ## Layer 1 -/

/-- The three arrays layer 1's first region leaves, as tables of extended reals: the rows before normalisation, their
    column sums, their column sums of squares. -/
def preT1 (c : Dev nD) : S100000x128.Idx → EReal := U7 m ρ c main_v73_0
def sumT1 (c : Dev nD) : S1x128.Idx → EReal := U7 m ρ c main_v73_1
def sqT1 (c : Dev nD) : S1x128.Idx → EReal := U7 m ρ c main_v73_2

theorem par1_3 (c : Dev nD) : (U5 m ρ c main_arg3 : S4.Idx → EReal) = (m ((c.tc : Thread nD τ).loc main_arg3)) := W5_main_arg3 m ρ c
theorem par1_4 (c : Dev nD) : (U5 m ρ c main_arg4 : S4x128x128.Idx → EReal) = (m ((c.tc : Thread nD τ).loc main_arg4)) := W5_main_arg4 m ρ c
theorem par1_5 (c : Dev nD) : (U5 m ρ c main_arg5 : S4x128.Idx → EReal) = (m ((c.tc : Thread nD τ).loc main_arg5)) := W5_main_arg5 m ρ c
theorem par1_6 (c : Dev nD) : (U5 m ρ c main_arg6 : S4x128x128.Idx → EReal) = (m ((c.tc : Thread nD τ).loc main_arg6)) := W5_main_arg6 m ρ c
theorem par1_7 (c : Dev nD) : (U5 m ρ c main_arg7 : S4x128.Idx → EReal) = (m ((c.tc : Thread nD τ).loc main_arg7)) := W5_main_arg7 m ρ c
theorem src5 (c : Dev nD) : (U5 m ρ c main_v2 : S1600000.Idx → BitVec 32) = Cert.ReferenceIdeal.Hand.edgeSrc (m ((c.tc : Thread nD τ).loc main_arg1)) := (W5_main_v2 m ρ c).trans (src2 m ρ c)
theorem dst5 (c : Dev nD) : (U5 m ρ c main_v4 : S1600000.Idx → BitVec 32) = Cert.ReferenceIdeal.Hand.edgeDst (m ((c.tc : Thread nD τ).loc main_arg1)) := (W5_main_v4 m ρ c).trans (dst2 m ρ c)

/-- What the layer's first region reads, as the reference's pieces. -/
theorem in1_eps (c : Dev nD) (j : Fin 128) :
    (U6 m ρ c main_v62 : S1x128.Idx → EReal) (ix2 (0 : Fin 1) j) = Cert.ReferenceIdeal.Hand.eps1 (F := Ideal) (m ((c.tc : Thread nD τ).loc main_arg3)) (ix1 (0 : Fin 1)) := by
  rw [U6_eps m ρ c, par1_3 m ρ c]
  exact epsRow_apply _ j
theorem in1_h (c : Dev nD) (hprev : (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (U6 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W6_main_v49 m ρ c).trans hprev
theorem in1_agg (c : Dev nD) (hprev : (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (U6 m ρ c main_v59 : S100000x128.Idx → EReal) = Cert.ReferenceIdeal.Hand.agg1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [U6_agg m ρ c, hprev, src5 m ρ c, dst5 m ρ c]
  rfl
theorem in1_w1 (c : Dev nD) : (U6 m ρ c main_v64 : S128x128.Idx → EReal) = Cert.ReferenceIdeal.Hand.mat (F := Ideal) (Cert.ReferenceIdeal.Hand.page1 (m ((c.tc : Thread nD τ).loc main_arg4))) := by
  rw [U6_w1 m ρ c, par1_4 m ρ c]
theorem in1_w2 (c : Dev nD) : (U6 m ρ c main_v69 : S128x128.Idx → EReal) = Cert.ReferenceIdeal.Hand.mat (F := Ideal) (Cert.ReferenceIdeal.Hand.page1 (m ((c.tc : Thread nD τ).loc main_arg6))) := by
  rw [U6_w2 m ρ c, par1_6 m ρ c]
theorem in1_b1 (c : Dev nD) (j : Fin 128) : (U6 m ρ c main_v67 : S1x128.Idx → EReal) (ix2 (0 : Fin 1) j) = Cert.ReferenceIdeal.Hand.row1 (F := Ideal) (m ((c.tc : Thread nD τ).loc main_arg5)) (ix2 (0 : Fin 1) j) := by
  rw [U6_b1 m ρ c, par1_5 m ρ c]; exact biasRow_apply _ j
theorem in1_b2 (c : Dev nD) (j : Fin 128) : (U6 m ρ c main_v72 : S1x128.Idx → EReal) (ix2 (0 : Fin 1) j) = Cert.ReferenceIdeal.Hand.row1 (F := Ideal) (m ((c.tc : Thread nD τ).loc main_arg7)) (ix2 (0 : Fin 1) j) := by
  rw [U6_b2 m ρ c, par1_7 m ρ c]; exact biasRow_apply _ j

/-- The first region's table is the reference's rows before normalisation. -/
theorem pre1_kernel (c : Dev nD) (hprev : (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hA7 : preT1 m ρ c = Gin.mlpE (fun j => (U6 m ρ c main_v62 : S1x128.Idx → EReal) (ix2 (0 : Fin 1) j)) (U6 m ρ c main_v49 : S100000x128.Idx → EReal) (U6 m ρ c main_v59 : S100000x128.Idx → EReal)
      (U6 m ρ c main_v64 : S128x128.Idx → EReal) (fun j => (U6 m ρ c main_v67 : S1x128.Idx → EReal) (ix2 (0 : Fin 1) j)) (U6 m ρ c main_v69 : S128x128.Idx → EReal)
      (fun j => (U6 m ρ c main_v72 : S1x128.Idx → EReal) (ix2 (0 : Fin 1) j))) :
    preT1 m ρ c = Cert.ReferenceIdeal.Hand.pre1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have he : (fun j : Fin 128 => (U6 m ρ c main_v62 : S1x128.Idx → EReal) (ix2 (0 : Fin 1) j))
      = fun _ => Cert.ReferenceIdeal.Hand.eps1 (F := Ideal) (m ((c.tc : Thread nD τ).loc main_arg3)) (ix1 (0 : Fin 1)) := funext fun j => in1_eps m ρ c j
  have hb1 : (fun j : Fin 128 => (U6 m ρ c main_v67 : S1x128.Idx → EReal) (ix2 (0 : Fin 1) j))
      = fun j => Cert.ReferenceIdeal.Hand.row1 (F := Ideal) (m ((c.tc : Thread nD τ).loc main_arg5)) (ix2 (0 : Fin 1) j) := funext fun j => in1_b1 m ρ c j
  have hb2 : (fun j : Fin 128 => (U6 m ρ c main_v72 : S1x128.Idx → EReal) (ix2 (0 : Fin 1) j))
      = fun j => Cert.ReferenceIdeal.Hand.row1 (F := Ideal) (m ((c.tc : Thread nD τ).loc main_arg7)) (ix2 (0 : Fin 1) j) := funext fun j => in1_b2 m ρ c j
  rw [hA7, he, hb1, hb2, in1_h m ρ c hprev, in1_agg m ρ c hprev, in1_w1 m ρ c, in1_w2 m ρ c]
  exact (Cert.ReferenceIdeal.Hand.pre1_mlpE (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).symm

/-- Layer 1's output table is the reference's. -/
theorem layer1_out (c : Dev nD) (hprev : (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hA7 : preT1 m ρ c = Gin.mlpE (fun j => (U6 m ρ c main_v62 : S1x128.Idx → EReal) (ix2 (0 : Fin 1) j)) (U6 m ρ c main_v49 : S100000x128.Idx → EReal) (U6 m ρ c main_v59 : S100000x128.Idx → EReal)
      (U6 m ρ c main_v64 : S128x128.Idx → EReal) (fun j => (U6 m ρ c main_v67 : S1x128.Idx → EReal) (ix2 (0 : Fin 1) j)) (U6 m ρ c main_v69 : S128x128.Idx → EReal)
      (fun j => (U6 m ρ c main_v72 : S1x128.Idx → EReal) (ix2 (0 : Fin 1) j)))
    (hA8 : ∀ j : Fin 128, sumT1 m ρ c (ix2 (0 : Fin 1) j) = ∑ r : Fin 100000, preT1 m ρ c (ix2 r j))
    (hA9 : ∀ j : Fin 128, sqT1 m ρ c (ix2 (0 : Fin 1) j) = ∑ r : Fin 100000, preT1 m ρ c (ix2 r j) * preT1 m ρ c (ix2 r j))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have eo : (U9 m ρ c main_v94 : S100000x128.Idx → EReal) = (dat3 (F := Ideal) (U8 m ρ) c).arrAt 3 cfg3.N := W9_arr m ρ c 3
  have hpre : preT1 m ρ c = Cert.ReferenceIdeal.Hand.pre1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := pre1_kernel m ρ c hprev hA7
  have epre : (U8 m ρ c main_v73_0 : S100000x128.Idx → EReal) = Cert.ReferenceIdeal.Hand.pre1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := (W8_main_v73_0 m ρ c).trans hpre
  have e8 : (U7 m ρ c main_arg8 : S4x128.Idx → EReal) = (m ((c.tc : Thread nD τ).loc main_arg8)) := W7_main_arg8 m ρ c
  have e9 : (U7 m ρ c main_arg9 : S4x128.Idx → EReal) = (m ((c.tc : Thread nD τ).loc main_arg9)) := W7_main_arg9 m ρ c
  rw [eo, final3_3_lr (U8 m ρ) c]
  show lrAff (U8 m ρ c main_v73_0 : S100000x128.Idx → EReal) (U8 m ρ c main_v92 : S1x128.Idx → EReal) (U8 m ρ c main_v93 : S1x128.Idx → EReal) = _
  rw [epre, Cert.ReferenceIdeal.Hand.h2_fold (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r3 r4 r5 r6 r7 r8 r9]
  refine lrAff_eq_layerFold _ _ _ _ _ (fun x j => ?_)
  rw [U8_fold m ρ c x j]
  show BnPlain.foldedOut Gin.nC Gin.epsC (sumT1 m ρ c (ix2 (0 : Fin 1) j)) (sqT1 m ρ c (ix2 (0 : Fin 1) j))
      (Cert.ReferenceIdeal.Hand.row1 (F := Ideal) (U7 m ρ c main_arg8 : S4x128.Idx → EReal) (ix2 (0 : Fin 1) j))
      (Cert.ReferenceIdeal.Hand.row1 (F := Ideal) (U7 m ρ c main_arg9 : S4x128.Idx → EReal) (ix2 (0 : Fin 1) j)) x = _
  rw [hA8 j, hA9 j, hpre, e8, e9]

/-! ## Layer 2 -/

/-- The three arrays layer 2's first region leaves, as tables of extended reals: the rows before normalisation, their
    column sums, their column sums of squares. -/
def preT2 (c : Dev nD) : S100000x128.Idx → EReal := U11 m ρ c main_v118_0
def sumT2 (c : Dev nD) : S1x128.Idx → EReal := U11 m ρ c main_v118_1
def sqT2 (c : Dev nD) : S1x128.Idx → EReal := U11 m ρ c main_v118_2

theorem par2_3 (c : Dev nD) : (U9 m ρ c main_arg3 : S4.Idx → EReal) = (m ((c.tc : Thread nD τ).loc main_arg3)) := W9_main_arg3 m ρ c
theorem par2_4 (c : Dev nD) : (U9 m ρ c main_arg4 : S4x128x128.Idx → EReal) = (m ((c.tc : Thread nD τ).loc main_arg4)) := W9_main_arg4 m ρ c
theorem par2_5 (c : Dev nD) : (U9 m ρ c main_arg5 : S4x128.Idx → EReal) = (m ((c.tc : Thread nD τ).loc main_arg5)) := W9_main_arg5 m ρ c
theorem par2_6 (c : Dev nD) : (U9 m ρ c main_arg6 : S4x128x128.Idx → EReal) = (m ((c.tc : Thread nD τ).loc main_arg6)) := W9_main_arg6 m ρ c
theorem par2_7 (c : Dev nD) : (U9 m ρ c main_arg7 : S4x128.Idx → EReal) = (m ((c.tc : Thread nD τ).loc main_arg7)) := W9_main_arg7 m ρ c
theorem src9 (c : Dev nD) : (U9 m ρ c main_v2 : S1600000.Idx → BitVec 32) = Cert.ReferenceIdeal.Hand.edgeSrc (m ((c.tc : Thread nD τ).loc main_arg1)) := (W9_main_v2 m ρ c).trans (src2 m ρ c)
theorem dst9 (c : Dev nD) : (U9 m ρ c main_v4 : S1600000.Idx → BitVec 32) = Cert.ReferenceIdeal.Hand.edgeDst (m ((c.tc : Thread nD τ).loc main_arg1)) := (W9_main_v4 m ρ c).trans (dst2 m ρ c)

/-- What the layer's first region reads, as the reference's pieces. -/
theorem in2_eps (c : Dev nD) (j : Fin 128) :
    (U10 m ρ c main_v107 : S1x128.Idx → EReal) (ix2 (0 : Fin 1) j) = Cert.ReferenceIdeal.Hand.eps2 (F := Ideal) (m ((c.tc : Thread nD τ).loc main_arg3)) (ix1 (0 : Fin 1)) := by
  rw [U10_eps m ρ c, par2_3 m ρ c]
  exact epsRow_apply _ j
theorem in2_h (c : Dev nD) (hprev : (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (U10 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W10_main_v94 m ρ c).trans hprev
theorem in2_agg (c : Dev nD) (hprev : (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (U10 m ρ c main_v104 : S100000x128.Idx → EReal) = Cert.ReferenceIdeal.Hand.agg2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [U10_agg m ρ c, hprev, src9 m ρ c, dst9 m ρ c]
  rfl
theorem in2_w1 (c : Dev nD) : (U10 m ρ c main_v109 : S128x128.Idx → EReal) = Cert.ReferenceIdeal.Hand.mat (F := Ideal) (Cert.ReferenceIdeal.Hand.page2 (m ((c.tc : Thread nD τ).loc main_arg4))) := by
  rw [U10_w1 m ρ c, par2_4 m ρ c]
theorem in2_w2 (c : Dev nD) : (U10 m ρ c main_v114 : S128x128.Idx → EReal) = Cert.ReferenceIdeal.Hand.mat (F := Ideal) (Cert.ReferenceIdeal.Hand.page2 (m ((c.tc : Thread nD τ).loc main_arg6))) := by
  rw [U10_w2 m ρ c, par2_6 m ρ c]
theorem in2_b1 (c : Dev nD) (j : Fin 128) : (U10 m ρ c main_v112 : S1x128.Idx → EReal) (ix2 (0 : Fin 1) j) = Cert.ReferenceIdeal.Hand.row2 (F := Ideal) (m ((c.tc : Thread nD τ).loc main_arg5)) (ix2 (0 : Fin 1) j) := by
  rw [U10_b1 m ρ c, par2_5 m ρ c]; exact biasRow_apply _ j
theorem in2_b2 (c : Dev nD) (j : Fin 128) : (U10 m ρ c main_v117 : S1x128.Idx → EReal) (ix2 (0 : Fin 1) j) = Cert.ReferenceIdeal.Hand.row2 (F := Ideal) (m ((c.tc : Thread nD τ).loc main_arg7)) (ix2 (0 : Fin 1) j) := by
  rw [U10_b2 m ρ c, par2_7 m ρ c]; exact biasRow_apply _ j

/-- The first region's table is the reference's rows before normalisation. -/
theorem pre2_kernel (c : Dev nD) (hprev : (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hA7 : preT2 m ρ c = Gin.mlpE (fun j => (U10 m ρ c main_v107 : S1x128.Idx → EReal) (ix2 (0 : Fin 1) j)) (U10 m ρ c main_v94 : S100000x128.Idx → EReal) (U10 m ρ c main_v104 : S100000x128.Idx → EReal)
      (U10 m ρ c main_v109 : S128x128.Idx → EReal) (fun j => (U10 m ρ c main_v112 : S1x128.Idx → EReal) (ix2 (0 : Fin 1) j)) (U10 m ρ c main_v114 : S128x128.Idx → EReal)
      (fun j => (U10 m ρ c main_v117 : S1x128.Idx → EReal) (ix2 (0 : Fin 1) j))) :
    preT2 m ρ c = Cert.ReferenceIdeal.Hand.pre2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have he : (fun j : Fin 128 => (U10 m ρ c main_v107 : S1x128.Idx → EReal) (ix2 (0 : Fin 1) j))
      = fun _ => Cert.ReferenceIdeal.Hand.eps2 (F := Ideal) (m ((c.tc : Thread nD τ).loc main_arg3)) (ix1 (0 : Fin 1)) := funext fun j => in2_eps m ρ c j
  have hb1 : (fun j : Fin 128 => (U10 m ρ c main_v112 : S1x128.Idx → EReal) (ix2 (0 : Fin 1) j))
      = fun j => Cert.ReferenceIdeal.Hand.row2 (F := Ideal) (m ((c.tc : Thread nD τ).loc main_arg5)) (ix2 (0 : Fin 1) j) := funext fun j => in2_b1 m ρ c j
  have hb2 : (fun j : Fin 128 => (U10 m ρ c main_v117 : S1x128.Idx → EReal) (ix2 (0 : Fin 1) j))
      = fun j => Cert.ReferenceIdeal.Hand.row2 (F := Ideal) (m ((c.tc : Thread nD τ).loc main_arg7)) (ix2 (0 : Fin 1) j) := funext fun j => in2_b2 m ρ c j
  rw [hA7, he, hb1, hb2, in2_h m ρ c hprev, in2_agg m ρ c hprev, in2_w1 m ρ c, in2_w2 m ρ c]
  exact (Cert.ReferenceIdeal.Hand.pre2_mlpE (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).symm

/-- Layer 2's output table is the reference's. -/
theorem layer2_out (c : Dev nD) (hprev : (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hA7 : preT2 m ρ c = Gin.mlpE (fun j => (U10 m ρ c main_v107 : S1x128.Idx → EReal) (ix2 (0 : Fin 1) j)) (U10 m ρ c main_v94 : S100000x128.Idx → EReal) (U10 m ρ c main_v104 : S100000x128.Idx → EReal)
      (U10 m ρ c main_v109 : S128x128.Idx → EReal) (fun j => (U10 m ρ c main_v112 : S1x128.Idx → EReal) (ix2 (0 : Fin 1) j)) (U10 m ρ c main_v114 : S128x128.Idx → EReal)
      (fun j => (U10 m ρ c main_v117 : S1x128.Idx → EReal) (ix2 (0 : Fin 1) j)))
    (hA8 : ∀ j : Fin 128, sumT2 m ρ c (ix2 (0 : Fin 1) j) = ∑ r : Fin 100000, preT2 m ρ c (ix2 r j))
    (hA9 : ∀ j : Fin 128, sqT2 m ρ c (ix2 (0 : Fin 1) j) = ∑ r : Fin 100000, preT2 m ρ c (ix2 r j) * preT2 m ρ c (ix2 r j))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have eo : (U13 m ρ c main_v139 : S100000x128.Idx → EReal) = (dat5 (F := Ideal) (U12 m ρ) c).arrAt 3 cfg5.N := W13_arr m ρ c 3
  have hpre : preT2 m ρ c = Cert.ReferenceIdeal.Hand.pre2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := pre2_kernel m ρ c hprev hA7
  have epre : (U12 m ρ c main_v118_0 : S100000x128.Idx → EReal) = Cert.ReferenceIdeal.Hand.pre2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := (W12_main_v118_0 m ρ c).trans hpre
  have e8 : (U11 m ρ c main_arg8 : S4x128.Idx → EReal) = (m ((c.tc : Thread nD τ).loc main_arg8)) := W11_main_arg8 m ρ c
  have e9 : (U11 m ρ c main_arg9 : S4x128.Idx → EReal) = (m ((c.tc : Thread nD τ).loc main_arg9)) := W11_main_arg9 m ρ c
  rw [eo, final5_3_lr (U12 m ρ) c]
  show lrAff (U12 m ρ c main_v118_0 : S100000x128.Idx → EReal) (U12 m ρ c main_v137 : S1x128.Idx → EReal) (U12 m ρ c main_v138 : S1x128.Idx → EReal) = _
  rw [epre, Cert.ReferenceIdeal.Hand.h3_fold (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r3 r4 r5 r6 r7 r8 r9]
  refine lrAff_eq_layerFold _ _ _ _ _ (fun x j => ?_)
  rw [U12_fold m ρ c x j]
  show BnPlain.foldedOut Gin.nC Gin.epsC (sumT2 m ρ c (ix2 (0 : Fin 1) j)) (sqT2 m ρ c (ix2 (0 : Fin 1) j))
      (Cert.ReferenceIdeal.Hand.row2 (F := Ideal) (U11 m ρ c main_arg8 : S4x128.Idx → EReal) (ix2 (0 : Fin 1) j))
      (Cert.ReferenceIdeal.Hand.row2 (F := Ideal) (U11 m ρ c main_arg9 : S4x128.Idx → EReal) (ix2 (0 : Fin 1) j)) x = _
  rw [hA8 j, hA9 j, hpre, e8, e9]

/-! ## Layer 3 -/

/-- The three arrays layer 3's first region leaves, as tables of extended reals: the rows before normalisation, their
    column sums, their column sums of squares. -/
def preT3 (c : Dev nD) : S100000x128.Idx → EReal := U15 m ρ c main_v163_0
def sumT3 (c : Dev nD) : S1x128.Idx → EReal := U15 m ρ c main_v163_1
def sqT3 (c : Dev nD) : S1x128.Idx → EReal := U15 m ρ c main_v163_2

theorem par3_3 (c : Dev nD) : (U13 m ρ c main_arg3 : S4.Idx → EReal) = (m ((c.tc : Thread nD τ).loc main_arg3)) := W13_main_arg3 m ρ c
theorem par3_4 (c : Dev nD) : (U13 m ρ c main_arg4 : S4x128x128.Idx → EReal) = (m ((c.tc : Thread nD τ).loc main_arg4)) := W13_main_arg4 m ρ c
theorem par3_5 (c : Dev nD) : (U13 m ρ c main_arg5 : S4x128.Idx → EReal) = (m ((c.tc : Thread nD τ).loc main_arg5)) := W13_main_arg5 m ρ c
theorem par3_6 (c : Dev nD) : (U13 m ρ c main_arg6 : S4x128x128.Idx → EReal) = (m ((c.tc : Thread nD τ).loc main_arg6)) := W13_main_arg6 m ρ c
theorem par3_7 (c : Dev nD) : (U13 m ρ c main_arg7 : S4x128.Idx → EReal) = (m ((c.tc : Thread nD τ).loc main_arg7)) := W13_main_arg7 m ρ c
theorem src13 (c : Dev nD) : (U13 m ρ c main_v2 : S1600000.Idx → BitVec 32) = Cert.ReferenceIdeal.Hand.edgeSrc (m ((c.tc : Thread nD τ).loc main_arg1)) := (W13_main_v2 m ρ c).trans (src2 m ρ c)
theorem dst13 (c : Dev nD) : (U13 m ρ c main_v4 : S1600000.Idx → BitVec 32) = Cert.ReferenceIdeal.Hand.edgeDst (m ((c.tc : Thread nD τ).loc main_arg1)) := (W13_main_v4 m ρ c).trans (dst2 m ρ c)

/-- What the layer's first region reads, as the reference's pieces. -/
theorem in3_eps (c : Dev nD) (j : Fin 128) :
    (U14 m ρ c main_v152 : S1x128.Idx → EReal) (ix2 (0 : Fin 1) j) = Cert.ReferenceIdeal.Hand.eps3 (F := Ideal) (m ((c.tc : Thread nD τ).loc main_arg3)) (ix1 (0 : Fin 1)) := by
  rw [U14_eps m ρ c, par3_3 m ρ c]
  exact epsRow_apply _ j
theorem in3_h (c : Dev nD) (hprev : (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (U14 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W14_main_v139 m ρ c).trans hprev
theorem in3_agg (c : Dev nD) (hprev : (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : (U14 m ρ c main_v149 : S100000x128.Idx → EReal) = Cert.ReferenceIdeal.Hand.agg3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [U14_agg m ρ c, hprev, src13 m ρ c, dst13 m ρ c]
  rfl
theorem in3_w1 (c : Dev nD) : (U14 m ρ c main_v154 : S128x128.Idx → EReal) = Cert.ReferenceIdeal.Hand.mat (F := Ideal) (Cert.ReferenceIdeal.Hand.page3 (m ((c.tc : Thread nD τ).loc main_arg4))) := by
  rw [U14_w1 m ρ c, par3_4 m ρ c]
theorem in3_w2 (c : Dev nD) : (U14 m ρ c main_v159 : S128x128.Idx → EReal) = Cert.ReferenceIdeal.Hand.mat (F := Ideal) (Cert.ReferenceIdeal.Hand.page3 (m ((c.tc : Thread nD τ).loc main_arg6))) := by
  rw [U14_w2 m ρ c, par3_6 m ρ c]
theorem in3_b1 (c : Dev nD) (j : Fin 128) : (U14 m ρ c main_v157 : S1x128.Idx → EReal) (ix2 (0 : Fin 1) j) = Cert.ReferenceIdeal.Hand.row3 (F := Ideal) (m ((c.tc : Thread nD τ).loc main_arg5)) (ix2 (0 : Fin 1) j) := by
  rw [U14_b1 m ρ c, par3_5 m ρ c]; exact biasRow_apply _ j
theorem in3_b2 (c : Dev nD) (j : Fin 128) : (U14 m ρ c main_v162 : S1x128.Idx → EReal) (ix2 (0 : Fin 1) j) = Cert.ReferenceIdeal.Hand.row3 (F := Ideal) (m ((c.tc : Thread nD τ).loc main_arg7)) (ix2 (0 : Fin 1) j) := by
  rw [U14_b2 m ρ c, par3_7 m ρ c]; exact biasRow_apply _ j

/-- The first region's table is the reference's rows before normalisation. -/
theorem pre3_kernel (c : Dev nD) (hprev : (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hA7 : preT3 m ρ c = Gin.mlpE (fun j => (U14 m ρ c main_v152 : S1x128.Idx → EReal) (ix2 (0 : Fin 1) j)) (U14 m ρ c main_v139 : S100000x128.Idx → EReal) (U14 m ρ c main_v149 : S100000x128.Idx → EReal)
      (U14 m ρ c main_v154 : S128x128.Idx → EReal) (fun j => (U14 m ρ c main_v157 : S1x128.Idx → EReal) (ix2 (0 : Fin 1) j)) (U14 m ρ c main_v159 : S128x128.Idx → EReal)
      (fun j => (U14 m ρ c main_v162 : S1x128.Idx → EReal) (ix2 (0 : Fin 1) j))) :
    preT3 m ρ c = Cert.ReferenceIdeal.Hand.pre3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have he : (fun j : Fin 128 => (U14 m ρ c main_v152 : S1x128.Idx → EReal) (ix2 (0 : Fin 1) j))
      = fun _ => Cert.ReferenceIdeal.Hand.eps3 (F := Ideal) (m ((c.tc : Thread nD τ).loc main_arg3)) (ix1 (0 : Fin 1)) := funext fun j => in3_eps m ρ c j
  have hb1 : (fun j : Fin 128 => (U14 m ρ c main_v157 : S1x128.Idx → EReal) (ix2 (0 : Fin 1) j))
      = fun j => Cert.ReferenceIdeal.Hand.row3 (F := Ideal) (m ((c.tc : Thread nD τ).loc main_arg5)) (ix2 (0 : Fin 1) j) := funext fun j => in3_b1 m ρ c j
  have hb2 : (fun j : Fin 128 => (U14 m ρ c main_v162 : S1x128.Idx → EReal) (ix2 (0 : Fin 1) j))
      = fun j => Cert.ReferenceIdeal.Hand.row3 (F := Ideal) (m ((c.tc : Thread nD τ).loc main_arg7)) (ix2 (0 : Fin 1) j) := funext fun j => in3_b2 m ρ c j
  rw [hA7, he, hb1, hb2, in3_h m ρ c hprev, in3_agg m ρ c hprev, in3_w1 m ρ c, in3_w2 m ρ c]
  exact (Cert.ReferenceIdeal.Hand.pre3_mlpE (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).symm

/-- Layer 3's output table is the reference's. -/
theorem layer3_out (c : Dev nD) (hprev : (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hA7 : preT3 m ρ c = Gin.mlpE (fun j => (U14 m ρ c main_v152 : S1x128.Idx → EReal) (ix2 (0 : Fin 1) j)) (U14 m ρ c main_v139 : S100000x128.Idx → EReal) (U14 m ρ c main_v149 : S100000x128.Idx → EReal)
      (U14 m ρ c main_v154 : S128x128.Idx → EReal) (fun j => (U14 m ρ c main_v157 : S1x128.Idx → EReal) (ix2 (0 : Fin 1) j)) (U14 m ρ c main_v159 : S128x128.Idx → EReal)
      (fun j => (U14 m ρ c main_v162 : S1x128.Idx → EReal) (ix2 (0 : Fin 1) j)))
    (hA8 : ∀ j : Fin 128, sumT3 m ρ c (ix2 (0 : Fin 1) j) = ∑ r : Fin 100000, preT3 m ρ c (ix2 r j))
    (hA9 : ∀ j : Fin 128, sqT3 m ρ c (ix2 (0 : Fin 1) j) = ∑ r : Fin 100000, preT3 m ρ c (ix2 r j) * preT3 m ρ c (ix2 r j))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U17 m ρ c main_v184 : S100000x128.Idx → EReal) = Cert.ReferenceIdeal.Hand.h4 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have eo : (U17 m ρ c main_v184 : S100000x128.Idx → EReal) = (dat7 (F := Ideal) (U16 m ρ) c).arrAt 3 cfg7.N := W17_arr m ρ c 3
  have hpre : preT3 m ρ c = Cert.ReferenceIdeal.Hand.pre3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := pre3_kernel m ρ c hprev hA7
  have epre : (U16 m ρ c main_v163_0 : S100000x128.Idx → EReal) = Cert.ReferenceIdeal.Hand.pre3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := (W16_main_v163_0 m ρ c).trans hpre
  have e8 : (U15 m ρ c main_arg8 : S4x128.Idx → EReal) = (m ((c.tc : Thread nD τ).loc main_arg8)) := W15_main_arg8 m ρ c
  have e9 : (U15 m ρ c main_arg9 : S4x128.Idx → EReal) = (m ((c.tc : Thread nD τ).loc main_arg9)) := W15_main_arg9 m ρ c
  rw [eo, final7_3_lr (U16 m ρ) c]
  show lrAff (U16 m ρ c main_v163_0 : S100000x128.Idx → EReal) (U16 m ρ c main_v182 : S1x128.Idx → EReal) (U16 m ρ c main_v183 : S1x128.Idx → EReal) = _
  rw [epre, Cert.ReferenceIdeal.Hand.h4_fold (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r3 r4 r5 r6 r7 r8 r9]
  refine lrAff_eq_layerFold _ _ _ _ _ (fun x j => ?_)
  rw [U16_fold m ρ c x j]
  show BnPlain.foldedOut Gin.nC Gin.epsC (sumT3 m ρ c (ix2 (0 : Fin 1) j)) (sqT3 m ρ c (ix2 (0 : Fin 1) j))
      (Cert.ReferenceIdeal.Hand.row3 (F := Ideal) (U15 m ρ c main_arg8 : S4x128.Idx → EReal) (ix2 (0 : Fin 1) j))
      (Cert.ReferenceIdeal.Hand.row3 (F := Ideal) (U15 m ρ c main_arg9 : S4x128.Idx → EReal) (ix2 (0 : Fin 1) j)) x = _
  rw [hA8 j, hA9 j, hpre, e8, e9]

end Cert.KernelIdeal.Hand

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.KI.ValA0.lean ====
/- Region 0's values: what the three output windows' arrays hold after the region. Window 7's array is, at the
   extended reals, the layer's perceptron of the arrays the region finds, row by row; windows 8 and 9 hold the running
   rows after the last point, which at the extended reals are each column's sum, and sum of squares, over all rows of
   window 7's array. -/
import proofs.«116561_j3624952397847_1_alg».proof.Proof.KI.RegA0
import proofs.«116561_j3624952397847_1_alg».proof.Proof.LibProdRows
import proofs.«116561_j3624952397847_1_alg».proof.Proof.LibLayout
import proofs.«116561_j3624952397847_1_alg».proof.Proof.LibTiles
import proofs.«116561_j3624952397847_1_alg».proof.Proof.Spec
import Idealize.ShloMosaic.Lib.Pipeline.Value
import Idealize.ShloMosaic.Lib.ValueIdx
import Idealize.ShloMosaic.PureOps.Ideal.Laws

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at the extended reals, entry by entry -/

/-- Both products contract the left operand's columns against the right operand's rows. -/
theorem plainA0 : MatProd.Plain dot_S5000x128_S128x128_S5000x128_1_0_0_1_n_n :=
  ⟨rfl, rfl, fun _ _ => rfl, fun _ _ => rfl, fun _ _ => rfl, fun _ _ => rfl⟩

/-- A matrix product accumulated onto the zero array is the product of arrays. -/
theorem mmA0 (L : FVec Ideal S5000x128 .bf16) (R : FVec Ideal S128x128 .bf16) :
    (matmul (F := Ideal) dot_S5000x128_S128x128_S5000x128_1_0_0_1_n_n none L R (constant (F := Ideal) S5000x128 .f32 0x00000000#32) : FVec Ideal S5000x128 .f32)
      = MatProd.mm L R := MatProd.matmul_zero_mm plainA0 none L R

/-- A row laid along every row of a tile, at an entry: the row's entry at the column. -/
theorem bcastA0 (v : FVec Ideal S1x128 .f32) (p : Fin 5000) (q : Fin 128) :
    broadcastTo S5000x128 v broadcasts_S1x128_S5000x128 (ix2 p q) = v (ix2 (0 : Fin 1) q) :=
  broadcastTo_apply v _ (ix2 p q) (ix2 (0 : Fin 1) q) (fun a => by match a with | ⟨0, _⟩ => rfl | ⟨1, _⟩ => rfl)

/-- The aggregation's input: (1 + eps) · h + sum, entry by entry. -/
theorem ginA0 (x0 : Vec Ideal S1x128 .f32) (x1 x2 : Vec Ideal S5000x128 .f32) :
    (addf (mulf (broadcastTo S5000x128 (addf (broadcast S1x128 (FloatOps.ofBits (F := Ideal) .f32 0x3F800000#32)) x0) broadcasts_S1x128_S5000x128) x1) x2
      : FVec Ideal S5000x128 .f32) = Gin.ginIn (fun j => x0 (ix2 (0 : Fin 1) j)) x1 x2 := by
  funext i
  obtain ⟨p, q, rfl⟩ : ∃ (p : Fin 5000) (q : Fin 128), i = ix2 p q := ⟨i 0, i 1, eq_ix2 i⟩
  show broadcastTo S5000x128 (addf (broadcast S1x128 (FloatOps.ofBits (F := Ideal) .f32 0x3F800000#32)) x0) broadcasts_S1x128_S5000x128 (ix2 p q) * x1 (ix2 p q) + x2 (ix2 p q) = _
  rw [bcastA0]
  rfl

/-- The hidden layer: the first affine map of the aggregation's input, then the leaky rectifier, entry by entry. -/
theorem hiddenA0 (x0 : Vec Ideal S1x128 .f32) (x1 x2 : Vec Ideal S5000x128 .f32) (x3 : Vec Ideal S128x128 .f32) (x4 : Vec Ideal S1x128 .f32)
    (G : FVec Ideal S5000x128 .f32) (hG : G = Gin.ginIn (fun j => x0 (ix2 (0 : Fin 1) j)) x1 x2) (p : Fin 5000) (l : Fin 128) :
    (select (cmpf .oge (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
        (broadcast S5000x128 (FloatOps.ofBits (F := Ideal) .f32 0x00000000#32)))
      (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
      (mulf (broadcast S5000x128 (FloatOps.ofBits (F := Ideal) .f32 0x3C23D70A#32))
        (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128)))
      : FVec Ideal S5000x128 .f32) (ix2 p l)
      = Gin.lrArr (Gin.affine (Gin.ginIn (fun j => x0 (ix2 (0 : Fin 1) j)) x1 x2) x3 (fun j => x4 (ix2 (0 : Fin 1) j))) (ix2 p l) := by
  subst hG
  rw [mmA0]
  show Scalar.select (Ideal.cmp .oge (MatProd.mm (Gin.ginIn (fun j => x0 (ix2 (0 : Fin 1) j)) x1 x2) x3 (ix2 p l) + broadcastTo S5000x128 x4 broadcasts_S1x128_S5000x128 (ix2 p l)) (Ideal.ofBits .f32 0x00000000#32))
      (MatProd.mm (Gin.ginIn (fun j => x0 (ix2 (0 : Fin 1) j)) x1 x2) x3 (ix2 p l) + broadcastTo S5000x128 x4 broadcasts_S1x128_S5000x128 (ix2 p l))
      (Ideal.ofBits .f32 0x3C23D70A#32 * (MatProd.mm (Gin.ginIn (fun j => x0 (ix2 (0 : Fin 1) j)) x1 x2) x3 (ix2 p l) + broadcastTo S5000x128 x4 broadcasts_S1x128_S5000x128 (ix2 p l))) = _
  rw [bcastA0]
  rfl

/-- The tile's rows before normalisation, at the extended reals: the layer's perceptron of the tile's rows. -/
theorem pay5A0_eq (x0 : Vec Ideal S1x128 .f32) (x1 x2 : Vec Ideal S5000x128 .f32) (x3 : Vec Ideal S128x128 .f32) (x4 : Vec Ideal S1x128 .f32)
    (x5 : Vec Ideal S128x128 .f32) (x6 : Vec Ideal S1x128 .f32) :
    k0_pay5 (F := Ideal) x0 x1 x2 x3 x4 x5 x6
      = Gin.mlpE (fun j => x0 (ix2 (0 : Fin 1) j)) x1 x2 x3 (fun j => x4 (ix2 (0 : Fin 1) j)) x5 (fun j => x6 (ix2 (0 : Fin 1) j)) := by
  funext i
  obtain ⟨p, q, rfl⟩ : ∃ (p : Fin 5000) (q : Fin 128), i = ix2 p q := ⟨i 0, i 1, eq_ix2 i⟩
  unfold k0_pay5
  simp only [shapeCast_self]
  rw [addf_apply, bcastA0, mmA0]
  show _ = MatProd.mm (Gin.lrArr (Gin.affine (Gin.ginIn (fun j => x0 (ix2 (0 : Fin 1) j)) x1 x2) x3 (fun j => x4 (ix2 (0 : Fin 1) j)))) x5 (ix2 p q) + x6 (ix2 (0 : Fin 1) q)
  refine congrArg (· + x6 (ix2 (0 : Fin 1) q)) ?_
  rw [MatProd.mm_ix2, MatProd.mm_ix2]
  unfold MatProd.entry
  refine Finset.sum_congr rfl fun l _ => ?_
  exact congrArg (· * x5 (ix2 l q)) (hiddenA0 x0 x1 x2 x3 x4 _ (ginA0 x0 x1 x2) p l)

/-- A row of 128 laid as a 1 × 128 table, at an entry. -/
theorem castRowA0 {α : Type} (x : S128.Idx → α) (j : Fin 128) :
    shapeCast S1x128 x shapeCasts_S128_S1x128 (ix2 (0 : Fin 1) j) = x (ix1 j) :=
  shapeCast_apply x shapeCasts_S128_S1x128 _ _ (by
    rw [Shape.rowMajor_val_one, Shape.rowMajor_val_two]
    show j.val = 0 * 128 + j.val
    omega)

/-- The running row of sums after a tile: the row before, plus the tile's column sums. -/
theorem pay1A0_apply (v : FVec Ideal S5000x128 .f32) (s : Vec Ideal S1x128 .f32) (j : Fin 128) :
    k0_pay1 (F := Ideal) v s (ix2 (0 : Fin 1) j) = s (ix2 (0 : Fin 1) j) + ∑ p : Fin 5000, v (ix2 p j) := by
  unfold k0_pay1
  simp only [shapeCast_self]
  rw [addf_apply, castRowA0]
  exact congrArg (s (ix2 (0 : Fin 1) j) + ·) (PushPull.Layout.sum_ab_0 (a := 5000) (b := 128) v _ _ _ _ j)

/-- The running row of sums of squares after a tile: the row before, plus the tile's column sums of squares. -/
theorem pay2A0_apply (v : FVec Ideal S5000x128 .f32) (s : Vec Ideal S1x128 .f32) (j : Fin 128) :
    k0_pay2 (F := Ideal) v s (ix2 (0 : Fin 1) j) = s (ix2 (0 : Fin 1) j) + ∑ p : Fin 5000, v (ix2 p j) * v (ix2 p j) := by
  unfold k0_pay2
  simp only [shapeCast_self]
  rw [addf_apply, castRowA0]
  exact congrArg (s (ix2 (0 : Fin 1) j) + ·) (PushPull.Layout.sum_ab_0 (a := 5000) (b := 128) (mulf v v) _ _ _ _ j)

/-- The zero rows the first point stores. -/
theorem pay3A0_apply (j : Fin 128) : k0_pay3 (F := Ideal) (ix2 (0 : Fin 1) j) = 0 := by
  unfold k0_pay3
  simp only [shapeCast_self]
  show Ideal.ofBits .f32 0x00000000#32 = 0
  exact Ideal.ofBits_zero_f32
theorem pay4A0_apply (j : Fin 128) : k0_pay4 (F := Ideal) (ix2 (0 : Fin 1) j) = 0 := by
  unfold k0_pay4
  simp only [shapeCast_self]
  show Ideal.ofBits .f32 0x00000000#32 = 0
  exact Ideal.ofBits_zero_f32

/-! ## A row of the perceptron reads one row of its two tables -/

/-- If row `p` of the short tables is row `r` of the tall ones, the perceptron's row `p` over the short tables is
    its row `r` over the tall ones: each entry reads one row of `h` and of the neighbour sums only. -/
theorem mlpE_rowsA0 {n N : ℕ} (e : Fin 128 → EReal) (a ga : GcnSpec.Arr n 128) (A gA : GcnSpec.Arr N 128)
    (W1 : GcnSpec.Arr 128 128) (c1 : Fin 128 → EReal) (W2 : GcnSpec.Arr 128 128) (c2 : Fin 128 → EReal) (p : Fin n) (r : Fin N)
    (ha : ∀ m, a (ix2 p m) = A (ix2 r m)) (hg : ∀ m, ga (ix2 p m) = gA (ix2 r m)) (q : Fin 128) :
    Gin.mlpE e a ga W1 c1 W2 c2 (ix2 p q) = Gin.mlpE e A gA W1 c1 W2 c2 (ix2 r q) := by
  show MatProd.mm (Gin.lrArr (Gin.affine (Gin.ginIn e a ga) W1 c1)) W2 (ix2 p q) + c2 q
      = MatProd.mm (Gin.lrArr (Gin.affine (Gin.ginIn e A gA) W1 c1)) W2 (ix2 r q) + c2 q
  refine congrArg (· + c2 q) ?_
  rw [MatProd.mm_ix2, MatProd.mm_ix2]
  unfold MatProd.entry
  refine Finset.sum_congr rfl fun l _ => congrArg (· * W2 (ix2 l q)) ?_
  show Gin.lr (MatProd.mm (Gin.ginIn e a ga) W1 (ix2 p l) + c1 l) = Gin.lr (MatProd.mm (Gin.ginIn e A gA) W1 (ix2 r l) + c1 l)
  refine congrArg (fun z => Gin.lr (z + c1 l)) ?_
  rw [MatProd.mm_ix2, MatProd.mm_ix2]
  unfold MatProd.entry
  refine Finset.sum_congr rfl fun m _ => congrArg (· * W1 (ix2 m l)) ?_
  show (Gin.oneC + e m) * a (ix2 p m) + ga (ix2 p m) = (Gin.oneC + e m) * A (ix2 r m) + gA (ix2 r m)
  rw [ha m, hg m]

/-! ## Where the windows' blocks sit in their arrays -/

/-- The index maps over the grid: the two input tables' and the output table's blocks of 5000 rows move together,
    one block a point; -/
theorem idxR0 : ∀ t : Fin cfg0.N, (win0_1.index t (0 : Fin 2) = t.val ∧ win0_1.index t (1 : Fin 2) = 0)
    ∧ (win0_2.index t (0 : Fin 2) = t.val ∧ win0_2.index t (1 : Fin 2) = 0)
    ∧ (win0_7.index t (0 : Fin 2) = t.val ∧ win0_7.index t (1 : Fin 2) = 0) :=
  (by decide +kernel : ∀ t : Fin grid0.N, _)
/-- every other window's block is its whole array at every point. -/
theorem idxF0 : ∀ t : Fin cfg0.N, (win0_0.index t (0 : Fin 2) = 0 ∧ win0_0.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The array's row that row `p` of point `t`'s block is. -/
def rowOf0 (t : Fin cfg0.N) (p : Fin 5000) : Fin 100000 :=
  ⟨t.val * 5000 + p.val, by have := lt_of_lt_of_eq t.isLt (show cfg0.N = 20 from N_0); have := p.isLt; omega⟩

theorem embT0_1 (t : Fin cfg0.N) (p : Fin 5000) (q : Fin 128) :
    ((cfg0.win 1).blk t).view.emb (ix2 p q : S5000x128.Idx) = (ix2 (rowOf0 t p) q : S100000x128.Idx) := by
  obtain ⟨⟨e10, e11⟩, ⟨e20, e21⟩, ⟨e70, e71⟩⟩ := idxR0 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega
theorem embT0_2 (t : Fin cfg0.N) (p : Fin 5000) (q : Fin 128) :
    ((cfg0.win 2).blk t).view.emb (ix2 p q : S5000x128.Idx) = (ix2 (rowOf0 t p) q : S100000x128.Idx) := by
  obtain ⟨⟨e10, e11⟩, ⟨e20, e21⟩, ⟨e70, e71⟩⟩ := idxR0 t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega
theorem embT0_7 (t : Fin cfg0.N) (p : Fin 5000) (q : Fin 128) :
    ((cfg0.win 7).blk t).view.emb (ix2 p q : S5000x128.Idx) = (ix2 (rowOf0 t p) q : S100000x128.Idx) := by
  obtain ⟨⟨e10, e11⟩, ⟨e20, e21⟩, ⟨e70, e71⟩⟩ := idxR0 t
  funext a; apply Fin.ext
  match a with
  | ⟨0, _⟩ => show win0_7.index t (0 : Fin 2) * 5000 + 1 * p.val = t.val * 5000 + p.val; omega
  | ⟨1, _⟩ => show win0_7.index t (1 : Fin 2) * 128 + 1 * q.val = q.val; omega

theorem embF0_0 (t : Fin cfg0.N) (u : Fin 1) (q : Fin 128) :
    ((cfg0.win 0).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_0.index t (0 : Fin 2) * 1 + 1 * u.val = u.val; omega
  | ⟨1, _⟩ => show win0_0.index t (1 : Fin 2) * 128 + 1 * q.val = q.val; omega
theorem embF0_3 (t : Fin cfg0.N) (u : Fin 128) (q : Fin 128) :
    ((cfg0.win 3).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_3.index t (0 : Fin 2) * 128 + 1 * u.val = u.val; omega
  | ⟨1, _⟩ => show win0_3.index t (1 : Fin 2) * 128 + 1 * q.val = q.val; omega
theorem embF0_4 (t : Fin cfg0.N) (u : Fin 1) (q : Fin 128) :
    ((cfg0.win 4).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_4.index t (0 : Fin 2) * 1 + 1 * u.val = u.val; omega
  | ⟨1, _⟩ => show win0_4.index t (1 : Fin 2) * 128 + 1 * q.val = q.val; omega
theorem embF0_5 (t : Fin cfg0.N) (u : Fin 128) (q : Fin 128) :
    ((cfg0.win 5).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_5.index t (0 : Fin 2) * 128 + 1 * u.val = u.val; omega
  | ⟨1, _⟩ => show win0_5.index t (1 : Fin 2) * 128 + 1 * q.val = q.val; omega
theorem embF0_6 (t : Fin cfg0.N) (u : Fin 1) (q : Fin 128) :
    ((cfg0.win 6).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_6.index t (0 : Fin 2) * 1 + 1 * u.val = u.val; omega
  | ⟨1, _⟩ => show win0_6.index t (1 : Fin 2) * 128 + 1 * q.val = q.val; omega
theorem embF0_8 (t : Fin cfg0.N) (u : Fin 1) (q : Fin 128) :
    ((cfg0.win 8).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_8.index t (0 : Fin 2) * 1 + 1 * u.val = u.val; omega
  | ⟨1, _⟩ => show win0_8.index t (1 : Fin 2) * 128 + 1 * q.val = q.val; omega
theorem embF0_9 (t : Fin cfg0.N) (u : Fin 1) (q : Fin 128) :
    ((cfg0.win 9).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF0 t
  funext x; apply Fin.ext
  match x with
  | ⟨0, _⟩ => show win0_9.index t (0 : Fin 2) * 1 + 1 * u.val = u.val; omega
  | ⟨1, _⟩ => show win0_9.index t (1 : Fin 2) * 128 + 1 * q.val = q.val; omega

section Arrays
variable {F : FTy → Type} [FloatOps F]
variable (V : (c : Dev nD) → (b : Ref sig .tc) → Buf (Elt F) ((c : Thread nD τ).loc b))

/-- Each whole-array input block is its array; each block of rows is the array's rows from `5000 · t`. -/
theorem blkF0_0 (c : Dev nD) (t : Fin cfg0.N) : (iblk0 V c 0 t : S1x128.Idx → Elt F .f32) = V c (Pipeline.arrRef spec0 0) := by
  funext i
  obtain ⟨u, q, rfl⟩ : ∃ (u : Fin 1) (q : Fin 128), i = ix2 u q := ⟨i 0, i 1, eq_ix2 i⟩
  exact congrArg (V c (Pipeline.arrRef spec0 0)) (embF0_0 t u q)
theorem blkF0_3 (c : Dev nD) (t : Fin cfg0.N) : (iblk0 V c 3 t : S128x128.Idx → Elt F .f32) = V c (Pipeline.arrRef spec0 3) := by
  funext i
  obtain ⟨u, q, rfl⟩ : ∃ (u : Fin 128) (q : Fin 128), i = ix2 u q := ⟨i 0, i 1, eq_ix2 i⟩
  exact congrArg (V c (Pipeline.arrRef spec0 3)) (embF0_3 t u q)
theorem blkF0_4 (c : Dev nD) (t : Fin cfg0.N) : (iblk0 V c 4 t : S1x128.Idx → Elt F .f32) = V c (Pipeline.arrRef spec0 4) := by
  funext i
  obtain ⟨u, q, rfl⟩ : ∃ (u : Fin 1) (q : Fin 128), i = ix2 u q := ⟨i 0, i 1, eq_ix2 i⟩
  exact congrArg (V c (Pipeline.arrRef spec0 4)) (embF0_4 t u q)
theorem blkF0_5 (c : Dev nD) (t : Fin cfg0.N) : (iblk0 V c 5 t : S128x128.Idx → Elt F .f32) = V c (Pipeline.arrRef spec0 5) := by
  funext i
  obtain ⟨u, q, rfl⟩ : ∃ (u : Fin 128) (q : Fin 128), i = ix2 u q := ⟨i 0, i 1, eq_ix2 i⟩
  exact congrArg (V c (Pipeline.arrRef spec0 5)) (embF0_5 t u q)
theorem blkF0_6 (c : Dev nD) (t : Fin cfg0.N) : (iblk0 V c 6 t : S1x128.Idx → Elt F .f32) = V c (Pipeline.arrRef spec0 6) := by
  funext i
  obtain ⟨u, q, rfl⟩ : ∃ (u : Fin 1) (q : Fin 128), i = ix2 u q := ⟨i 0, i 1, eq_ix2 i⟩
  exact congrArg (V c (Pipeline.arrRef spec0 6)) (embF0_6 t u q)
theorem blkT0_1 (c : Dev nD) (t : Fin cfg0.N) (p : Fin 5000) (q : Fin 128) :
    iblk0 V c 1 t (ix2 p q) = V c (Pipeline.arrRef spec0 1) (ix2 (rowOf0 t p) q : S100000x128.Idx) :=
  congrArg (V c (Pipeline.arrRef spec0 1)) (embT0_1 t p q)
theorem blkT0_2 (c : Dev nD) (t : Fin cfg0.N) (p : Fin 5000) (q : Fin 128) :
    iblk0 V c 2 t (ix2 p q) = V c (Pipeline.arrRef spec0 2) (ix2 (rowOf0 t p) q : S100000x128.Idx) :=
  congrArg (V c (Pipeline.arrRef spec0 2)) (embT0_2 t p q)

/-! ## Windows 8 and 9: the one write-back, after the last point, writes the running rows -/

theorem last0_of_flush (t : Fin cfg0.N) (h : t.val % 20 = 19) : t.val = 19 := by
  have := lt_of_lt_of_eq t.isLt (show cfg0.N = 20 from N_0); omega

theorem flushed0_8_eq (c : Dev nD) (t : Fin cfg0.N) (hf : (cfg0.win 8).flush t = true) :
    (dat0 V c).flushed 8 t = ((cfg0.win 8).blk t).view.read (Elt F) (sumAt0 V c 20 : S1x128.Idx → Elt F .f32) := by
  have h19 : t.val = 19 := last0_of_flush t ((flush0_8 t).mp hf)
  show (cfg0.win 8).cut (grid0.coords t) ((dat0 V c).after 8 t) = _
  rw [after0_8, h19]
  funext i
  obtain ⟨u, q, rfl⟩ : ∃ (u : Fin 1) (q : Fin 128), i = ix2 u q := ⟨i 0, i 1, eq_ix2 i⟩
  exact (congrArg (sumAt0 V c 20 : S1x128.Idx → Elt F .f32) (embF0_8 t u q)).symm

theorem covered0_8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  have hlt : 19 < cfg0.N := by rw [show cfg0.N = 20 from N_0]; omega
  obtain ⟨⟨f00, f01⟩, ⟨f30, f31⟩, ⟨f40, f41⟩, ⟨f50, f51⟩, ⟨f60, f61⟩, ⟨f80, f81⟩, ⟨f90, f91⟩⟩ := idxF0 ⟨19, hlt⟩
  refine ⟨⟨19, hlt⟩, (flush0_8 _).mpr rfl, ?_⟩
  show i ∈ ((View.whole main_v28_1).slice (win0_8.rect ⟨19, hlt⟩)).set
  rw [View.set_slice_whole, Rect.mem_set_unit]
  intro a
  match a with
  | ⟨0, _⟩ => show win0_8.index ⟨19, hlt⟩ (0 : Fin 2) * 1 ≤ (i 0).val ∧ (i 0).val < win0_8.index ⟨19, hlt⟩ (0 : Fin 2) * 1 + 1; omega
  | ⟨1, _⟩ => show win0_8.index ⟨19, hlt⟩ (1 : Fin 2) * 128 ≤ (i 1).val ∧ (i 1).val < win0_8.index ⟨19, hlt⟩ (1 : Fin 2) * 128 + 128; omega

/-- THE ARRAY of window 8 after the region: the running row after all 20 points. -/
theorem arr0_8 (c : Dev nD) : (dat0 V c).arrAt 8 cfg0.N = (sumAt0 V c 20 : S1x128.Idx → Elt F .f32) :=
  (dat0 V c).arrAt_eq_of_cover 8 _ (flushed0_8_eq V c) covered0_8

theorem flushed0_9_eq (c : Dev nD) (t : Fin cfg0.N) (hf : (cfg0.win 9).flush t = true) :
    (dat0 V c).flushed 9 t = ((cfg0.win 9).blk t).view.read (Elt F) (sqAt0 V c 20 : S1x128.Idx → Elt F .f32) := by
  have h19 : t.val = 19 := last0_of_flush t ((flush0_9 t).mp hf)
  show (cfg0.win 9).cut (grid0.coords t) ((dat0 V c).after 9 t) = _
  rw [after0_9, h19]
  funext i
  obtain ⟨u, q, rfl⟩ : ∃ (u : Fin 1) (q : Fin 128), i = ix2 u q := ⟨i 0, i 1, eq_ix2 i⟩
  exact (congrArg (sqAt0 V c 20 : S1x128.Idx → Elt F .f32) (embF0_9 t u q)).symm

theorem covered0_9 (i : S1x128.Idx) : ∃ t : Fin cfg0.N, (cfg0.win 9).flush t = true ∧ i ∈ ((cfg0.win 9).blk t).view.set := by
  have hi0 : (i 0).val < 1 := (i 0).isLt
  have hi1 : (i 1).val < 128 := (i 1).isLt
  have hlt : 19 < cfg0.N := by rw [show cfg0.N = 20 from N_0]; omega
  obtain ⟨⟨f00, f01⟩, ⟨f30, f31⟩, ⟨f40, f41⟩, ⟨f50, f51⟩, ⟨f60, f61⟩, ⟨f80, f81⟩, ⟨f90, f91⟩⟩ := idxF0 ⟨19, hlt⟩
  refine ⟨⟨19, hlt⟩, (flush0_9 _).mpr rfl, ?_⟩
  show i ∈ ((View.whole main_v28_2).slice (win0_9.rect ⟨19, hlt⟩)).set
  rw [View.set_slice_whole, Rect.mem_set_unit]
  intro a
  match a with
  | ⟨0, _⟩ => show win0_9.index ⟨19, hlt⟩ (0 : Fin 2) * 1 ≤ (i 0).val ∧ (i 0).val < win0_9.index ⟨19, hlt⟩ (0 : Fin 2) * 1 + 1; omega
  | ⟨1, _⟩ => show win0_9.index ⟨19, hlt⟩ (1 : Fin 2) * 128 ≤ (i 1).val ∧ (i 1).val < win0_9.index ⟨19, hlt⟩ (1 : Fin 2) * 128 + 128; omega

/-- THE ARRAY of window 9 after the region: the running row after all 20 points. -/
theorem arr0_9 (c : Dev nD) : (dat0 V c).arrAt 9 cfg0.N = (sqAt0 V c 20 : S1x128.Idx → Elt F .f32) :=
  (dat0 V c).arrAt_eq_of_cover 9 _ (flushed0_9_eq V c) covered0_9

/-! ## Window 7: every point writes its tile of rows -/

theorem covered0_7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨⟨e10, e11⟩, ⟨e20, e21⟩, ⟨e70, e71⟩⟩ := idxR0 ⟨(i 0).val / 5000, hlt⟩
  have e70' : win0_7.index ⟨(i 0).val / 5000, hlt⟩ (0 : Fin 2) = (i 0).val / 5000 := e70
  refine ⟨⟨(i 0).val / 5000, hlt⟩, flush0_7 _, ?_⟩
  show i ∈ ((View.whole main_v28_0).slice (win0_7.rect ⟨(i 0).val / 5000, hlt⟩)).set
  rw [View.set_slice_whole, Rect.mem_set_unit]
  intro a
  match a with
  | ⟨0, _⟩ => show win0_7.index ⟨(i 0).val / 5000, hlt⟩ (0 : Fin 2) * 5000 ≤ (i 0).val ∧ (i 0).val < win0_7.index ⟨(i 0).val / 5000, hlt⟩ (0 : Fin 2) * 5000 + 5000; omega
  | ⟨1, _⟩ => show win0_7.index ⟨(i 0).val / 5000, hlt⟩ (1 : Fin 2) * 128 ≤ (i 1).val ∧ (i 1).val < win0_7.index ⟨(i 0).val / 5000, hlt⟩ (1 : Fin 2) * 128 + 128; omega

end Arrays

/-! ## The values at the extended reals -/

/-- The rows before normalisation of all 100000 nodes: the layer's perceptron of the arrays the region finds. -/
def G7_0 (V : (c : Dev nD) → (b : Ref sig .tc) → Buf (Elt Ideal) ((c : Thread nD τ).loc b)) (c : Dev nD) : S100000x128.Idx → EReal :=
  Gin.mlpE (fun j => ((V c (Pipeline.arrRef spec0 0)) : S1x128.Idx → EReal) (ix2 (0 : Fin 1) j)) ((V c (Pipeline.arrRef spec0 1)) : S100000x128.Idx → EReal) ((V c (Pipeline.arrRef spec0 2)) : S100000x128.Idx → EReal)
      ((V c (Pipeline.arrRef spec0 3)) : S128x128.Idx → EReal) (fun j => ((V c (Pipeline.arrRef spec0 4)) : S1x128.Idx → EReal) (ix2 (0 : Fin 1) j)) ((V c (Pipeline.arrRef spec0 5)) : S128x128.Idx → EReal)
      (fun j => ((V c (Pipeline.arrRef spec0 6)) : S1x128.Idx → EReal) (ix2 (0 : Fin 1) j))

/-- Tile `t`'s rows are rows `5000 · t …` of it. -/
theorem hpre0_apply (V : (c : Dev nD) → (b : Ref sig .tc) → Buf (Elt Ideal) ((c : Thread nD τ).loc b)) (c : Dev nD) (t : Fin cfg0.N) (p : Fin 5000) (q : Fin 128) :
    hpre0 (F := Ideal) V c t (ix2 p q) = G7_0 V c (ix2 (rowOf0 t p) q) := by
  unfold hpre0 G7_0
  rw [pay5A0_eq, blkF0_0, blkF0_3, blkF0_4, blkF0_5, blkF0_6]
  exact mlpE_rowsA0 _ _ _ _ _ _ _ _ _ p (rowOf0 t p) (fun m => blkT0_1 V c t p m) (fun m => blkT0_2 V c t p m) q

theorem flushed0_7_eq (V : (c : Dev nD) → (b : Ref sig .tc) → Buf (Elt Ideal) ((c : Thread nD τ).loc b)) (c : Dev nD) (t : Fin cfg0.N) :
    (dat0 (F := Ideal) V c).flushed 7 t = ((cfg0.win 7).blk t).view.read (Elt Ideal) (G7_0 V c) := by
  show (cfg0.win 7).cut (grid0.coords t) ((dat0 V c).after 7 t) = _
  rw [after0_7]
  funext i
  obtain ⟨p, q, rfl⟩ : ∃ (p : Fin 5000) (q : Fin 128), i = ix2 p q := ⟨i 0, i 1, eq_ix2 i⟩
  refine (hpre0_apply V c t p q).trans ?_
  exact (congrArg (G7_0 V c) (embT0_7 t p q)).symm

/-- THE ARRAY of window 7 after the region, at the extended reals: the perceptron's rows of all nodes. -/
theorem final0_7 (V : (c : Dev nD) → (b : Ref sig .tc) → Buf (Elt Ideal) ((c : Thread nD τ).loc b)) (c : Dev nD) :
    (dat0 (F := Ideal) V c).arrAt 7 cfg0.N
      = Gin.mlpE (fun j => ((V c (Pipeline.arrRef spec0 0)) : S1x128.Idx → EReal) (ix2 (0 : Fin 1) j)) ((V c (Pipeline.arrRef spec0 1)) : S100000x128.Idx → EReal) ((V c (Pipeline.arrRef spec0 2)) : S100000x128.Idx → EReal)
      ((V c (Pipeline.arrRef spec0 3)) : S128x128.Idx → EReal) (fun j => ((V c (Pipeline.arrRef spec0 4)) : S1x128.Idx → EReal) (ix2 (0 : Fin 1) j)) ((V c (Pipeline.arrRef spec0 5)) : S128x128.Idx → EReal)
      (fun j => ((V c (Pipeline.arrRef spec0 6)) : S1x128.Idx → EReal) (ix2 (0 : Fin 1) j)) :=
  (dat0 V c).arrAt_eq_of_cover 7 (G7_0 V c) (fun t _ => flushed0_7_eq V c t) covered0_7

/-- A function of an entry of it, by its row's number, zero past the table: the summand of the tile sums. -/
def colF0 (V : (c : Dev nD) → (b : Ref sig .tc) → Buf (Elt Ideal) ((c : Thread nD τ).loc b)) (c : Dev nD) (g : EReal → EReal) (j : Fin 128) (k : ℕ) : EReal :=
  if h : k < 100000 then g (G7_0 V c (ix2 ⟨k, h⟩ j)) else 0

theorem colF0_row (V : (c : Dev nD) → (b : Ref sig .tc) → Buf (Elt Ideal) ((c : Thread nD τ).loc b)) (c : Dev nD) (g : EReal → EReal) (j : Fin 128) (r : Fin 100000) :
    colF0 V c g j r.val = g (G7_0 V c (ix2 r j)) := by
  unfold colF0; rw [dif_pos r.isLt]

/-- The running rows after `n` points: the sums over the first `n` tiles' rows. -/
theorem sumAt0_apply (V : (c : Dev nD) → (b : Ref sig .tc) → Buf (Elt Ideal) ((c : Thread nD τ).loc b)) (c : Dev nD) (j : Fin 128) : ∀ n, n ≤ 20 →
    sumAt0 (F := Ideal) V c n (ix2 (0 : Fin 1) j) = ∑ J ∈ Finset.range n, ∑ b : Fin 5000, colF0 V c (fun x => x) j (J * 5000 + b.val)
  | 0, _ => by rw [sumAt0_zero, pay3A0_apply, Finset.range_zero, Finset.sum_empty]
  | n + 1, hn => by
    have hlt : n < cfg0.N := by rw [show cfg0.N = 20 from N_0]; omega
    rw [sumAt0_succ V c ⟨n, hlt⟩, pay1A0_apply, Finset.sum_range_succ]
    show sumAt0 V c n (ix2 (0 : Fin 1) j) + _ = _
    rw [sumAt0_apply V c j n (by omega)]
    refine congrArg (_ + ·) (Finset.sum_congr rfl fun b _ => ?_)
    rw [hpre0_apply]
    exact (colF0_row V c (fun x => x) j (rowOf0 ⟨n, hlt⟩ b)).symm
theorem sqAt0_apply (V : (c : Dev nD) → (b : Ref sig .tc) → Buf (Elt Ideal) ((c : Thread nD τ).loc b)) (c : Dev nD) (j : Fin 128) : ∀ n, n ≤ 20 →
    sqAt0 (F := Ideal) V c n (ix2 (0 : Fin 1) j) = ∑ J ∈ Finset.range n, ∑ b : Fin 5000, colF0 V c (fun x => x * x) j (J * 5000 + b.val)
  | 0, _ => by rw [sqAt0_zero, pay4A0_apply, Finset.range_zero, Finset.sum_empty]
  | n + 1, hn => by
    have hlt : n < cfg0.N := by rw [show cfg0.N = 20 from N_0]; omega
    rw [sqAt0_succ V c ⟨n, hlt⟩, pay2A0_apply, Finset.sum_range_succ]
    show sqAt0 V c n (ix2 (0 : Fin 1) j) + _ = _
    rw [sqAt0_apply V c j n (by omega)]
    refine congrArg (_ + ·) (Finset.sum_congr rfl fun b _ => ?_)
    rw [hpre0_apply]
    exact (colF0_row V c (fun x => x * x) j (rowOf0 ⟨n, hlt⟩ b)).symm

/-- Twenty tiles of 5000 rows are the 100000 rows. -/
theorem tiles0 (V : (c : Dev nD) → (b : Ref sig .tc) → Buf (Elt Ideal) ((c : Thread nD τ).loc b)) (c : Dev nD) (g : EReal → EReal) (j : Fin 128) :
    ∑ J ∈ Finset.range 20, ∑ b : Fin 5000, colF0 V c g j (J * 5000 + b.val) = ∑ r : Fin 100000, g (G7_0 V c (ix2 r j)) := by
  rw [← Fin.sum_univ_eq_sum_range (fun J => ∑ b : Fin 5000, colF0 V c g j (J * 5000 + b.val)) 20]
  refine (Tiles.sum_tiles 20 5000 (colF0 V c g j)).trans ?_
  exact Finset.sum_congr rfl fun r _ => colF0_row V c g j r

/-- The three output arrays after the region, at the extended reals, as tables of extended reals. -/
def out7_0 (V : (c : Dev nD) → (b : Ref sig .tc) → Buf (Elt Ideal) ((c : Thread nD τ).loc b)) (c : Dev nD) : S100000x128.Idx → EReal := (dat0 (F := Ideal) V c).arrAt 7 cfg0.N
def out8_0 (V : (c : Dev nD) → (b : Ref sig .tc) → Buf (Elt Ideal) ((c : Thread nD τ).loc b)) (c : Dev nD) : S1x128.Idx → EReal := (dat0 (F := Ideal) V c).arrAt 8 cfg0.N
def out9_0 (V : (c : Dev nD) → (b : Ref sig .tc) → Buf (Elt Ideal) ((c : Thread nD τ).loc b)) (c : Dev nD) : S1x128.Idx → EReal := (dat0 (F := Ideal) V c).arrAt 9 cfg0.N

theorem out7_0_eq (V : (c : Dev nD) → (b : Ref sig .tc) → Buf (Elt Ideal) ((c : Thread nD τ).loc b)) (c : Dev nD) : out7_0 V c = G7_0 V c := final0_7 V c

/-- The array of window 8 after the region, at the extended reals: each column's sum over all 100000 rows of
    window 7's array. -/
theorem final0_8 (V : (c : Dev nD) → (b : Ref sig .tc) → Buf (Elt Ideal) ((c : Thread nD τ).loc b)) (c : Dev nD) (j : Fin 128) :
    out8_0 V c (ix2 (0 : Fin 1) j) = ∑ r : Fin 100000, out7_0 V c (ix2 r j) := by
  rw [out7_0_eq]
  unfold out8_0
  rw [arr0_8]
  exact (sumAt0_apply V c j 20 (le_refl _)).trans (tiles0 V c (fun x => x) j)

/-- The array of window 9: each column's sum of squares over all 100000 rows of window 7's array. -/
theorem final0_9 (V : (c : Dev nD) → (b : Ref sig .tc) → Buf (Elt Ideal) ((c : Thread nD τ).loc b)) (c : Dev nD) (j : Fin 128) :
    out9_0 V c (ix2 (0 : Fin 1) j) = ∑ r : Fin 100000, out7_0 V c (ix2 r j) * out7_0 V c (ix2 r j) := by
  rw [out7_0_eq]
  unfold out9_0
  rw [arr0_9]
  exact (sqAt0_apply V c j 20 (le_refl _)).trans (tiles0 V c (fun x => x * x) j)

end Cert.KernelIdeal.Hand

end
-- ==== Proof.KI.ValA2.lean ====
/- Region 2's values: what the three output windows' arrays hold after the region. Window 7's array is, at the
   extended reals, the layer's perceptron of the arrays the region finds, row by row; windows 8 and 9 hold the running
   rows after the last point, which at the extended reals are each column's sum, and sum of squares, over all rows of
   window 7's array. -/
import proofs.«116561_j3624952397847_1_alg».proof.Proof.KI.RegA2
import proofs.«116561_j3624952397847_1_alg».proof.Proof.LibProdRows
import proofs.«116561_j3624952397847_1_alg».proof.Proof.LibLayout
import proofs.«116561_j3624952397847_1_alg».proof.Proof.LibTiles
import proofs.«116561_j3624952397847_1_alg».proof.Proof.Spec
import Idealize.ShloMosaic.Lib.Pipeline.Value
import Idealize.ShloMosaic.Lib.ValueIdx
import Idealize.ShloMosaic.PureOps.Ideal.Laws

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at the extended reals, entry by entry -/

/-- Both products contract the left operand's columns against the right operand's rows. -/
theorem plainA2 : MatProd.Plain dot_S5000x128_S128x128_S5000x128_1_0_0_1_n_n :=
  ⟨rfl, rfl, fun _ _ => rfl, fun _ _ => rfl, fun _ _ => rfl, fun _ _ => rfl⟩

/-- A matrix product accumulated onto the zero array is the product of arrays. -/
theorem mmA2 (L : FVec Ideal S5000x128 .bf16) (R : FVec Ideal S128x128 .bf16) :
    (matmul (F := Ideal) dot_S5000x128_S128x128_S5000x128_1_0_0_1_n_n none L R (constant (F := Ideal) S5000x128 .f32 0x00000000#32) : FVec Ideal S5000x128 .f32)
      = MatProd.mm L R := MatProd.matmul_zero_mm plainA2 none L R

/-- A row laid along every row of a tile, at an entry: the row's entry at the column. -/
theorem bcastA2 (v : FVec Ideal S1x128 .f32) (p : Fin 5000) (q : Fin 128) :
    broadcastTo S5000x128 v broadcasts_S1x128_S5000x128 (ix2 p q) = v (ix2 (0 : Fin 1) q) :=
  broadcastTo_apply v _ (ix2 p q) (ix2 (0 : Fin 1) q) (fun a => by match a with | ⟨0, _⟩ => rfl | ⟨1, _⟩ => rfl)

/-- The aggregation's input: (1 + eps) · h + sum, entry by entry. -/
theorem ginA2 (x0 : Vec Ideal S1x128 .f32) (x1 x2 : Vec Ideal S5000x128 .f32) :
    (addf (mulf (broadcastTo S5000x128 (addf (broadcast S1x128 (FloatOps.ofBits (F := Ideal) .f32 0x3F800000#32)) x0) broadcasts_S1x128_S5000x128) x1) x2
      : FVec Ideal S5000x128 .f32) = Gin.ginIn (fun j => x0 (ix2 (0 : Fin 1) j)) x1 x2 := by
  funext i
  obtain ⟨p, q, rfl⟩ : ∃ (p : Fin 5000) (q : Fin 128), i = ix2 p q := ⟨i 0, i 1, eq_ix2 i⟩
  show broadcastTo S5000x128 (addf (broadcast S1x128 (FloatOps.ofBits (F := Ideal) .f32 0x3F800000#32)) x0) broadcasts_S1x128_S5000x128 (ix2 p q) * x1 (ix2 p q) + x2 (ix2 p q) = _
  rw [bcastA2]
  rfl

/-- The hidden layer: the first affine map of the aggregation's input, then the leaky rectifier, entry by entry. -/
theorem hiddenA2 (x0 : Vec Ideal S1x128 .f32) (x1 x2 : Vec Ideal S5000x128 .f32) (x3 : Vec Ideal S128x128 .f32) (x4 : Vec Ideal S1x128 .f32)
    (G : FVec Ideal S5000x128 .f32) (hG : G = Gin.ginIn (fun j => x0 (ix2 (0 : Fin 1) j)) x1 x2) (p : Fin 5000) (l : Fin 128) :
    (select (cmpf .oge (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
        (broadcast S5000x128 (FloatOps.ofBits (F := Ideal) .f32 0x00000000#32)))
      (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
      (mulf (broadcast S5000x128 (FloatOps.ofBits (F := Ideal) .f32 0x3C23D70A#32))
        (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128)))
      : FVec Ideal S5000x128 .f32) (ix2 p l)
      = Gin.lrArr (Gin.affine (Gin.ginIn (fun j => x0 (ix2 (0 : Fin 1) j)) x1 x2) x3 (fun j => x4 (ix2 (0 : Fin 1) j))) (ix2 p l) := by
  subst hG
  rw [mmA2]
  show Scalar.select (Ideal.cmp .oge (MatProd.mm (Gin.ginIn (fun j => x0 (ix2 (0 : Fin 1) j)) x1 x2) x3 (ix2 p l) + broadcastTo S5000x128 x4 broadcasts_S1x128_S5000x128 (ix2 p l)) (Ideal.ofBits .f32 0x00000000#32))
      (MatProd.mm (Gin.ginIn (fun j => x0 (ix2 (0 : Fin 1) j)) x1 x2) x3 (ix2 p l) + broadcastTo S5000x128 x4 broadcasts_S1x128_S5000x128 (ix2 p l))
      (Ideal.ofBits .f32 0x3C23D70A#32 * (MatProd.mm (Gin.ginIn (fun j => x0 (ix2 (0 : Fin 1) j)) x1 x2) x3 (ix2 p l) + broadcastTo S5000x128 x4 broadcasts_S1x128_S5000x128 (ix2 p l))) = _
  rw [bcastA2]
  rfl

/-- The tile's rows before normalisation, at the extended reals: the layer's perceptron of the tile's rows. -/
theorem pay5A2_eq (x0 : Vec Ideal S1x128 .f32) (x1 x2 : Vec Ideal S5000x128 .f32) (x3 : Vec Ideal S128x128 .f32) (x4 : Vec Ideal S1x128 .f32)
    (x5 : Vec Ideal S128x128 .f32) (x6 : Vec Ideal S1x128 .f32) :
    k2_pay5 (F := Ideal) x0 x1 x2 x3 x4 x5 x6
      = Gin.mlpE (fun j => x0 (ix2 (0 : Fin 1) j)) x1 x2 x3 (fun j => x4 (ix2 (0 : Fin 1) j)) x5 (fun j => x6 (ix2 (0 : Fin 1) j)) := by
  funext i
  obtain ⟨p, q, rfl⟩ : ∃ (p : Fin 5000) (q : Fin 128), i = ix2 p q := ⟨i 0, i 1, eq_ix2 i⟩
  unfold k2_pay5
  simp only [shapeCast_self]
  rw [addf_apply, bcastA2, mmA2]
  show _ = MatProd.mm (Gin.lrArr (Gin.affine (Gin.ginIn (fun j => x0 (ix2 (0 : Fin 1) j)) x1 x2) x3 (fun j => x4 (ix2 (0 : Fin 1) j)))) x5 (ix2 p q) + x6 (ix2 (0 : Fin 1) q)
  refine congrArg (· + x6 (ix2 (0 : Fin 1) q)) ?_
  rw [MatProd.mm_ix2, MatProd.mm_ix2]
  unfold MatProd.entry
  refine Finset.sum_congr rfl fun l _ => ?_
  exact congrArg (· * x5 (ix2 l q)) (hiddenA2 x0 x1 x2 x3 x4 _ (ginA2 x0 x1 x2) p l)

/-- A row of 128 laid as a 1 × 128 table, at an entry. -/
theorem castRowA2 {α : Type} (x : S128.Idx → α) (j : Fin 128) :
    shapeCast S1x128 x shapeCasts_S128_S1x128 (ix2 (0 : Fin 1) j) = x (ix1 j) :=
  shapeCast_apply x shapeCasts_S128_S1x128 _ _ (by
    rw [Shape.rowMajor_val_one, Shape.rowMajor_val_two]
    show j.val = 0 * 128 + j.val
    omega)

/-- The running row of sums after a tile: the row before, plus the tile's column sums. -/
theorem pay1A2_apply (v : FVec Ideal S5000x128 .f32) (s : Vec Ideal S1x128 .f32) (j : Fin 128) :
    k2_pay1 (F := Ideal) v s (ix2 (0 : Fin 1) j) = s (ix2 (0 : Fin 1) j) + ∑ p : Fin 5000, v (ix2 p j) := by
  unfold k2_pay1
  simp only [shapeCast_self]
  rw [addf_apply, castRowA2]
  exact congrArg (s (ix2 (0 : Fin 1) j) + ·) (PushPull.Layout.sum_ab_0 (a := 5000) (b := 128) v _ _ _ _ j)

/-- The running row of sums of squares after a tile: the row before, plus the tile's column sums of squares. -/
theorem pay2A2_apply (v : FVec Ideal S5000x128 .f32) (s : Vec Ideal S1x128 .f32) (j : Fin 128) :
    k2_pay2 (F := Ideal) v s (ix2 (0 : Fin 1) j) = s (ix2 (0 : Fin 1) j) + ∑ p : Fin 5000, v (ix2 p j) * v (ix2 p j) := by
  unfold k2_pay2
  simp only [shapeCast_self]
  rw [addf_apply, castRowA2]
  exact congrArg (s (ix2 (0 : Fin 1) j) + ·) (PushPull.Layout.sum_ab_0 (a := 5000) (b := 128) (mulf v v) _ _ _ _ j)

/-- The zero rows the first point stores. -/
theorem pay3A2_apply (j : Fin 128) : k2_pay3 (F := Ideal) (ix2 (0 : Fin 1) j) = 0 := by
  unfold k2_pay3
  simp only [shapeCast_self]
  show Ideal.ofBits .f32 0x00000000#32 = 0
  exact Ideal.ofBits_zero_f32
theorem pay4A2_apply (j : Fin 128) : k2_pay4 (F := Ideal) (ix2 (0 : Fin 1) j) = 0 := by
  unfold k2_pay4
  simp only [shapeCast_self]
  show Ideal.ofBits .f32 0x00000000#32 = 0
  exact Ideal.ofBits_zero_f32

/-! ## A row of the perceptron reads one row of its two tables -/

/-- If row `p` of the short tables is row `r` of the tall ones, the perceptron's row `p` over the short tables is
    its row `r` over the tall ones: each entry reads one row of `h` and of the neighbour sums only. -/
theorem mlpE_rowsA2 {n N : ℕ} (e : Fin 128 → EReal) (a ga : GcnSpec.Arr n 128) (A gA : GcnSpec.Arr N 128)
    (W1 : GcnSpec.Arr 128 128) (c1 : Fin 128 → EReal) (W2 : GcnSpec.Arr 128 128) (c2 : Fin 128 → EReal) (p : Fin n) (r : Fin N)
    (ha : ∀ m, a (ix2 p m) = A (ix2 r m)) (hg : ∀ m, ga (ix2 p m) = gA (ix2 r m)) (q : Fin 128) :
    Gin.mlpE e a ga W1 c1 W2 c2 (ix2 p q) = Gin.mlpE e A gA W1 c1 W2 c2 (ix2 r q) := by
  show MatProd.mm (Gin.lrArr (Gin.affine (Gin.ginIn e a ga) W1 c1)) W2 (ix2 p q) + c2 q
      = MatProd.mm (Gin.lrArr (Gin.affine (Gin.ginIn e A gA) W1 c1)) W2 (ix2 r q) + c2 q
  refine congrArg (· + c2 q) ?_
  rw [MatProd.mm_ix2, MatProd.mm_ix2]
  unfold MatProd.entry
  refine Finset.sum_congr rfl fun l _ => congrArg (· * W2 (ix2 l q)) ?_
  show Gin.lr (MatProd.mm (Gin.ginIn e a ga) W1 (ix2 p l) + c1 l) = Gin.lr (MatProd.mm (Gin.ginIn e A gA) W1 (ix2 r l) + c1 l)
  refine congrArg (fun z => Gin.lr (z + c1 l)) ?_
  rw [MatProd.mm_ix2, MatProd.mm_ix2]
  unfold MatProd.entry
  refine Finset.sum_congr rfl fun m _ => congrArg (· * W1 (ix2 m l)) ?_
  show (Gin.oneC + e m) * a (ix2 p m) + ga (ix2 p m) = (Gin.oneC + e m) * A (ix2 r m) + gA (ix2 r m)
  rw [ha m, hg m]

/-! ## Where the windows' blocks sit in their arrays -/

/-- The index maps over the grid: the two input tables' and the output table's blocks of 5000 rows move together,
    one block a point; -/
theorem idxR2 : ∀ t : Fin cfg2.N, (win2_1.index t (0 : Fin 2) = t.val ∧ win2_1.index t (1 : Fin 2) = 0)
    ∧ (win2_2.index t (0 : Fin 2) = t.val ∧ win2_2.index t (1 : Fin 2) = 0)
    ∧ (win2_7.index t (0 : Fin 2) = t.val ∧ win2_7.index t (1 : Fin 2) = 0) :=
  (by decide +kernel : ∀ t : Fin grid2.N, _)
/-- every other window's block is its whole array at every point. -/
theorem idxF2 : ∀ t : Fin cfg2.N, (win2_0.index t (0 : Fin 2) = 0 ∧ win2_0.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- The array's row that row `p` of point `t`'s block is. -/
def rowOf2 (t : Fin cfg2.N) (p : Fin 5000) : Fin 100000 :=
  ⟨t.val * 5000 + p.val, by have := lt_of_lt_of_eq t.isLt (show cfg2.N = 20 from N_2); have := p.isLt; omega⟩

theorem embT2_1 (t : Fin cfg2.N) (p : Fin 5000) (q : Fin 128) :
    ((cfg2.win 1).blk t).view.emb (ix2 p q : S5000x128.Idx) = (ix2 (rowOf2 t p) q : S100000x128.Idx) := by
  obtain ⟨⟨e10, e11⟩, ⟨e20, e21⟩, ⟨e70, e71⟩⟩ := idxR2 t
  funext a; apply Fin.ext
  match a with
  | ⟨0, _⟩ => show win2_1.index t (0 : Fin 2) * 5000 + 1 * p.val = t.val * 5000 + p.val; omega
  | ⟨1, _⟩ => show win2_1.index t (1 : Fin 2) * 128 + 1 * q.val = q.val; omega
theorem embT2_2 (t : Fin cfg2.N) (p : Fin 5000) (q : Fin 128) :
    ((cfg2.win 2).blk t).view.emb (ix2 p q : S5000x128.Idx) = (ix2 (rowOf2 t p) q : S100000x128.Idx) := by
  obtain ⟨⟨e10, e11⟩, ⟨e20, e21⟩, ⟨e70, e71⟩⟩ := idxR2 t
  funext a; apply Fin.ext
  match a with
  | ⟨0, _⟩ => show win2_2.index t (0 : Fin 2) * 5000 + 1 * p.val = t.val * 5000 + p.val; omega
  | ⟨1, _⟩ => show win2_2.index t (1 : Fin 2) * 128 + 1 * q.val = q.val; omega
theorem embT2_7 (t : Fin cfg2.N) (p : Fin 5000) (q : Fin 128) :
    ((cfg2.win 7).blk t).view.emb (ix2 p q : S5000x128.Idx) = (ix2 (rowOf2 t p) q : S100000x128.Idx) := by
  obtain ⟨⟨e10, e11⟩, ⟨e20, e21⟩, ⟨e70, e71⟩⟩ := idxR2 t
  funext a; apply Fin.ext
  match a with
  | ⟨0, _⟩ => show win2_7.index t (0 : Fin 2) * 5000 + 1 * p.val = t.val * 5000 + p.val; omega
  | ⟨1, _⟩ => show win2_7.index t (1 : Fin 2) * 128 + 1 * q.val = q.val; omega

theorem embF2_0 (t : Fin cfg2.N) (u : Fin 1) (q : Fin 128) :
    ((cfg2.win 0).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_0.index t (0 : Fin 2) * 1 + 1 * u.val = u.val; omega
  | ⟨1, _⟩ => show win2_0.index t (1 : Fin 2) * 128 + 1 * q.val = q.val; omega
theorem embF2_3 (t : Fin cfg2.N) (u : Fin 128) (q : Fin 128) :
    ((cfg2.win 3).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_3.index t (0 : Fin 2) * 128 + 1 * u.val = u.val; omega
  | ⟨1, _⟩ => show win2_3.index t (1 : Fin 2) * 128 + 1 * q.val = q.val; omega
theorem embF2_4 (t : Fin cfg2.N) (u : Fin 1) (q : Fin 128) :
    ((cfg2.win 4).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_4.index t (0 : Fin 2) * 1 + 1 * u.val = u.val; omega
  | ⟨1, _⟩ => show win2_4.index t (1 : Fin 2) * 128 + 1 * q.val = q.val; omega
theorem embF2_5 (t : Fin cfg2.N) (u : Fin 128) (q : Fin 128) :
    ((cfg2.win 5).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_5.index t (0 : Fin 2) * 128 + 1 * u.val = u.val; omega
  | ⟨1, _⟩ => show win2_5.index t (1 : Fin 2) * 128 + 1 * q.val = q.val; omega
theorem embF2_6 (t : Fin cfg2.N) (u : Fin 1) (q : Fin 128) :
    ((cfg2.win 6).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_6.index t (0 : Fin 2) * 1 + 1 * u.val = u.val; omega
  | ⟨1, _⟩ => show win2_6.index t (1 : Fin 2) * 128 + 1 * q.val = q.val; omega
theorem embF2_8 (t : Fin cfg2.N) (u : Fin 1) (q : Fin 128) :
    ((cfg2.win 8).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_8.index t (0 : Fin 2) * 1 + 1 * u.val = u.val; omega
  | ⟨1, _⟩ => show win2_8.index t (1 : Fin 2) * 128 + 1 * q.val = q.val; omega
theorem embF2_9 (t : Fin cfg2.N) (u : Fin 1) (q : Fin 128) :
    ((cfg2.win 9).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF2 t
  funext x; apply Fin.ext
  match x with
  | ⟨0, _⟩ => show win2_9.index t (0 : Fin 2) * 1 + 1 * u.val = u.val; omega
  | ⟨1, _⟩ => show win2_9.index t (1 : Fin 2) * 128 + 1 * q.val = q.val; omega

section Arrays
variable {F : FTy → Type} [FloatOps F]
variable (V : (c : Dev nD) → (b : Ref sig .tc) → Buf (Elt F) ((c : Thread nD τ).loc b))

/-- Each whole-array input block is its array; each block of rows is the array's rows from `5000 · t`. -/
theorem blkF2_0 (c : Dev nD) (t : Fin cfg2.N) : (iblk2 V c 0 t : S1x128.Idx → Elt F .f32) = V c (Pipeline.arrRef spec2 0) := by
  funext i
  obtain ⟨u, q, rfl⟩ : ∃ (u : Fin 1) (q : Fin 128), i = ix2 u q := ⟨i 0, i 1, eq_ix2 i⟩
  exact congrArg (V c (Pipeline.arrRef spec2 0)) (embF2_0 t u q)
theorem blkF2_3 (c : Dev nD) (t : Fin cfg2.N) : (iblk2 V c 3 t : S128x128.Idx → Elt F .f32) = V c (Pipeline.arrRef spec2 3) := by
  funext i
  obtain ⟨u, q, rfl⟩ : ∃ (u : Fin 128) (q : Fin 128), i = ix2 u q := ⟨i 0, i 1, eq_ix2 i⟩
  exact congrArg (V c (Pipeline.arrRef spec2 3)) (embF2_3 t u q)
theorem blkF2_4 (c : Dev nD) (t : Fin cfg2.N) : (iblk2 V c 4 t : S1x128.Idx → Elt F .f32) = V c (Pipeline.arrRef spec2 4) := by
  funext i
  obtain ⟨u, q, rfl⟩ : ∃ (u : Fin 1) (q : Fin 128), i = ix2 u q := ⟨i 0, i 1, eq_ix2 i⟩
  exact congrArg (V c (Pipeline.arrRef spec2 4)) (embF2_4 t u q)
theorem blkF2_5 (c : Dev nD) (t : Fin cfg2.N) : (iblk2 V c 5 t : S128x128.Idx → Elt F .f32) = V c (Pipeline.arrRef spec2 5) := by
  funext i
  obtain ⟨u, q, rfl⟩ : ∃ (u : Fin 128) (q : Fin 128), i = ix2 u q := ⟨i 0, i 1, eq_ix2 i⟩
  exact congrArg (V c (Pipeline.arrRef spec2 5)) (embF2_5 t u q)
theorem blkF2_6 (c : Dev nD) (t : Fin cfg2.N) : (iblk2 V c 6 t : S1x128.Idx → Elt F .f32) = V c (Pipeline.arrRef spec2 6) := by
  funext i
  obtain ⟨u, q, rfl⟩ : ∃ (u : Fin 1) (q : Fin 128), i = ix2 u q := ⟨i 0, i 1, eq_ix2 i⟩
  exact congrArg (V c (Pipeline.arrRef spec2 6)) (embF2_6 t u q)
theorem blkT2_1 (c : Dev nD) (t : Fin cfg2.N) (p : Fin 5000) (q : Fin 128) :
    iblk2 V c 1 t (ix2 p q) = V c (Pipeline.arrRef spec2 1) (ix2 (rowOf2 t p) q : S100000x128.Idx) :=
  congrArg (V c (Pipeline.arrRef spec2 1)) (embT2_1 t p q)
theorem blkT2_2 (c : Dev nD) (t : Fin cfg2.N) (p : Fin 5000) (q : Fin 128) :
    iblk2 V c 2 t (ix2 p q) = V c (Pipeline.arrRef spec2 2) (ix2 (rowOf2 t p) q : S100000x128.Idx) :=
  congrArg (V c (Pipeline.arrRef spec2 2)) (embT2_2 t p q)

/-! ## Windows 8 and 9: the one write-back, after the last point, writes the running rows -/

theorem last2_of_flush (t : Fin cfg2.N) (h : t.val % 20 = 19) : t.val = 19 := by
  have := lt_of_lt_of_eq t.isLt (show cfg2.N = 20 from N_2); omega

theorem flushed2_8_eq (c : Dev nD) (t : Fin cfg2.N) (hf : (cfg2.win 8).flush t = true) :
    (dat2 V c).flushed 8 t = ((cfg2.win 8).blk t).view.read (Elt F) (sumAt2 V c 20 : S1x128.Idx → Elt F .f32) := by
  have h19 : t.val = 19 := last2_of_flush t ((flush2_8 t).mp hf)
  show (cfg2.win 8).cut (grid2.coords t) ((dat2 V c).after 8 t) = _
  rw [after2_8, h19]
  funext i
  obtain ⟨u, q, rfl⟩ : ∃ (u : Fin 1) (q : Fin 128), i = ix2 u q := ⟨i 0, i 1, eq_ix2 i⟩
  exact (congrArg (sumAt2 V c 20 : S1x128.Idx → Elt F .f32) (embF2_8 t u q)).symm

theorem covered2_8 (i : S1x128.Idx) : ∃ t : Fin cfg2.N, (cfg2.win 8).flush t = true ∧ i ∈ ((cfg2.win 8).blk t).view.set := by
  have hi0 : (i 0).val < 1 := (i 0).isLt
  have hi1 : (i 1).val < 128 := (i 1).isLt
  have hlt : 19 < cfg2.N := by rw [show cfg2.N = 20 from N_2]; omega
  obtain ⟨⟨f00, f01⟩, ⟨f30, f31⟩, ⟨f40, f41⟩, ⟨f50, f51⟩, ⟨f60, f61⟩, ⟨f80, f81⟩, ⟨f90, f91⟩⟩ := idxF2 ⟨19, hlt⟩
  refine ⟨⟨19, hlt⟩, (flush2_8 _).mpr rfl, ?_⟩
  show i ∈ ((View.whole main_v73_1).slice (win2_8.rect ⟨19, hlt⟩)).set
  rw [View.set_slice_whole, Rect.mem_set_unit]
  intro a
  match a with
  | ⟨0, _⟩ => show win2_8.index ⟨19, hlt⟩ (0 : Fin 2) * 1 ≤ (i 0).val ∧ (i 0).val < win2_8.index ⟨19, hlt⟩ (0 : Fin 2) * 1 + 1; omega
  | ⟨1, _⟩ => show win2_8.index ⟨19, hlt⟩ (1 : Fin 2) * 128 ≤ (i 1).val ∧ (i 1).val < win2_8.index ⟨19, hlt⟩ (1 : Fin 2) * 128 + 128; omega

/-- THE ARRAY of window 8 after the region: the running row after all 20 points. -/
theorem arr2_8 (c : Dev nD) : (dat2 V c).arrAt 8 cfg2.N = (sumAt2 V c 20 : S1x128.Idx → Elt F .f32) :=
  (dat2 V c).arrAt_eq_of_cover 8 _ (flushed2_8_eq V c) covered2_8

theorem flushed2_9_eq (c : Dev nD) (t : Fin cfg2.N) (hf : (cfg2.win 9).flush t = true) :
    (dat2 V c).flushed 9 t = ((cfg2.win 9).blk t).view.read (Elt F) (sqAt2 V c 20 : S1x128.Idx → Elt F .f32) := by
  have h19 : t.val = 19 := last2_of_flush t ((flush2_9 t).mp hf)
  show (cfg2.win 9).cut (grid2.coords t) ((dat2 V c).after 9 t) = _
  rw [after2_9, h19]
  funext i
  obtain ⟨u, q, rfl⟩ : ∃ (u : Fin 1) (q : Fin 128), i = ix2 u q := ⟨i 0, i 1, eq_ix2 i⟩
  exact (congrArg (sqAt2 V c 20 : S1x128.Idx → Elt F .f32) (embF2_9 t u q)).symm

theorem covered2_9 (i : S1x128.Idx) : ∃ t : Fin cfg2.N, (cfg2.win 9).flush t = true ∧ i ∈ ((cfg2.win 9).blk t).view.set := by
  have hi0 : (i 0).val < 1 := (i 0).isLt
  have hi1 : (i 1).val < 128 := (i 1).isLt
  have hlt : 19 < cfg2.N := by rw [show cfg2.N = 20 from N_2]; omega
  obtain ⟨⟨f00, f01⟩, ⟨f30, f31⟩, ⟨f40, f41⟩, ⟨f50, f51⟩, ⟨f60, f61⟩, ⟨f80, f81⟩, ⟨f90, f91⟩⟩ := idxF2 ⟨19, hlt⟩
  refine ⟨⟨19, hlt⟩, (flush2_9 _).mpr rfl, ?_⟩
  show i ∈ ((View.whole main_v73_2).slice (win2_9.rect ⟨19, hlt⟩)).set
  rw [View.set_slice_whole, Rect.mem_set_unit]
  intro a
  match a with
  | ⟨0, _⟩ => show win2_9.index ⟨19, hlt⟩ (0 : Fin 2) * 1 ≤ (i 0).val ∧ (i 0).val < win2_9.index ⟨19, hlt⟩ (0 : Fin 2) * 1 + 1; omega
  | ⟨1, _⟩ => show win2_9.index ⟨19, hlt⟩ (1 : Fin 2) * 128 ≤ (i 1).val ∧ (i 1).val < win2_9.index ⟨19, hlt⟩ (1 : Fin 2) * 128 + 128; omega

/-- THE ARRAY of window 9 after the region: the running row after all 20 points. -/
theorem arr2_9 (c : Dev nD) : (dat2 V c).arrAt 9 cfg2.N = (sqAt2 V c 20 : S1x128.Idx → Elt F .f32) :=
  (dat2 V c).arrAt_eq_of_cover 9 _ (flushed2_9_eq V c) covered2_9

/-! ## Window 7: every point writes its tile of rows -/

theorem covered2_7 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨⟨e10, e11⟩, ⟨e20, e21⟩, ⟨e70, e71⟩⟩ := idxR2 ⟨(i 0).val / 5000, hlt⟩
  have e70' : win2_7.index ⟨(i 0).val / 5000, hlt⟩ (0 : Fin 2) = (i 0).val / 5000 := e70
  refine ⟨⟨(i 0).val / 5000, hlt⟩, flush2_7 _, ?_⟩
  show i ∈ ((View.whole main_v73_0).slice (win2_7.rect ⟨(i 0).val / 5000, hlt⟩)).set
  rw [View.set_slice_whole, Rect.mem_set_unit]
  intro a
  match a with
  | ⟨0, _⟩ => show win2_7.index ⟨(i 0).val / 5000, hlt⟩ (0 : Fin 2) * 5000 ≤ (i 0).val ∧ (i 0).val < win2_7.index ⟨(i 0).val / 5000, hlt⟩ (0 : Fin 2) * 5000 + 5000; omega
  | ⟨1, _⟩ => show win2_7.index ⟨(i 0).val / 5000, hlt⟩ (1 : Fin 2) * 128 ≤ (i 1).val ∧ (i 1).val < win2_7.index ⟨(i 0).val / 5000, hlt⟩ (1 : Fin 2) * 128 + 128; omega

end Arrays

/-! ## The values at the extended reals -/

/-- The rows before normalisation of all 100000 nodes: the layer's perceptron of the arrays the region finds. -/
def G7_2 (V : (c : Dev nD) → (b : Ref sig .tc) → Buf (Elt Ideal) ((c : Thread nD τ).loc b)) (c : Dev nD) : S100000x128.Idx → EReal :=
  Gin.mlpE (fun j => ((V c (Pipeline.arrRef spec2 0)) : S1x128.Idx → EReal) (ix2 (0 : Fin 1) j)) ((V c (Pipeline.arrRef spec2 1)) : S100000x128.Idx → EReal) ((V c (Pipeline.arrRef spec2 2)) : S100000x128.Idx → EReal)
      ((V c (Pipeline.arrRef spec2 3)) : S128x128.Idx → EReal) (fun j => ((V c (Pipeline.arrRef spec2 4)) : S1x128.Idx → EReal) (ix2 (0 : Fin 1) j)) ((V c (Pipeline.arrRef spec2 5)) : S128x128.Idx → EReal)
      (fun j => ((V c (Pipeline.arrRef spec2 6)) : S1x128.Idx → EReal) (ix2 (0 : Fin 1) j))

/-- Tile `t`'s rows are rows `5000 · t …` of it. -/
theorem hpre2_apply (V : (c : Dev nD) → (b : Ref sig .tc) → Buf (Elt Ideal) ((c : Thread nD τ).loc b)) (c : Dev nD) (t : Fin cfg2.N) (p : Fin 5000) (q : Fin 128) :
    hpre2 (F := Ideal) V c t (ix2 p q) = G7_2 V c (ix2 (rowOf2 t p) q) := by
  unfold hpre2 G7_2
  rw [pay5A2_eq, blkF2_0, blkF2_3, blkF2_4, blkF2_5, blkF2_6]
  exact mlpE_rowsA2 _ _ _ _ _ _ _ _ _ p (rowOf2 t p) (fun m => blkT2_1 V c t p m) (fun m => blkT2_2 V c t p m) q

theorem flushed2_7_eq (V : (c : Dev nD) → (b : Ref sig .tc) → Buf (Elt Ideal) ((c : Thread nD τ).loc b)) (c : Dev nD) (t : Fin cfg2.N) :
    (dat2 (F := Ideal) V c).flushed 7 t = ((cfg2.win 7).blk t).view.read (Elt Ideal) (G7_2 V c) := by
  show (cfg2.win 7).cut (grid2.coords t) ((dat2 V c).after 7 t) = _
  rw [after2_7]
  funext i
  obtain ⟨p, q, rfl⟩ : ∃ (p : Fin 5000) (q : Fin 128), i = ix2 p q := ⟨i 0, i 1, eq_ix2 i⟩
  refine (hpre2_apply V c t p q).trans ?_
  exact (congrArg (G7_2 V c) (embT2_7 t p q)).symm

/-- THE ARRAY of window 7 after the region, at the extended reals: the perceptron's rows of all nodes. -/
theorem final2_7 (V : (c : Dev nD) → (b : Ref sig .tc) → Buf (Elt Ideal) ((c : Thread nD τ).loc b)) (c : Dev nD) :
    (dat2 (F := Ideal) V c).arrAt 7 cfg2.N
      = Gin.mlpE (fun j => ((V c (Pipeline.arrRef spec2 0)) : S1x128.Idx → EReal) (ix2 (0 : Fin 1) j)) ((V c (Pipeline.arrRef spec2 1)) : S100000x128.Idx → EReal) ((V c (Pipeline.arrRef spec2 2)) : S100000x128.Idx → EReal)
      ((V c (Pipeline.arrRef spec2 3)) : S128x128.Idx → EReal) (fun j => ((V c (Pipeline.arrRef spec2 4)) : S1x128.Idx → EReal) (ix2 (0 : Fin 1) j)) ((V c (Pipeline.arrRef spec2 5)) : S128x128.Idx → EReal)
      (fun j => ((V c (Pipeline.arrRef spec2 6)) : S1x128.Idx → EReal) (ix2 (0 : Fin 1) j)) :=
  (dat2 V c).arrAt_eq_of_cover 7 (G7_2 V c) (fun t _ => flushed2_7_eq V c t) covered2_7

/-- A function of an entry of it, by its row's number, zero past the table: the summand of the tile sums. -/
def colF2 (V : (c : Dev nD) → (b : Ref sig .tc) → Buf (Elt Ideal) ((c : Thread nD τ).loc b)) (c : Dev nD) (g : EReal → EReal) (j : Fin 128) (k : ℕ) : EReal :=
  if h : k < 100000 then g (G7_2 V c (ix2 ⟨k, h⟩ j)) else 0

theorem colF2_row (V : (c : Dev nD) → (b : Ref sig .tc) → Buf (Elt Ideal) ((c : Thread nD τ).loc b)) (c : Dev nD) (g : EReal → EReal) (j : Fin 128) (r : Fin 100000) :
    colF2 V c g j r.val = g (G7_2 V c (ix2 r j)) := by
  unfold colF2; rw [dif_pos r.isLt]

/-- The running rows after `n` points: the sums over the first `n` tiles' rows. -/
theorem sumAt2_apply (V : (c : Dev nD) → (b : Ref sig .tc) → Buf (Elt Ideal) ((c : Thread nD τ).loc b)) (c : Dev nD) (j : Fin 128) : ∀ n, n ≤ 20 →
    sumAt2 (F := Ideal) V c n (ix2 (0 : Fin 1) j) = ∑ J ∈ Finset.range n, ∑ b : Fin 5000, colF2 V c (fun x => x) j (J * 5000 + b.val)
  | 0, _ => by rw [sumAt2_zero, pay3A2_apply, Finset.range_zero, Finset.sum_empty]
  | n + 1, hn => by
    have hlt : n < cfg2.N := by rw [show cfg2.N = 20 from N_2]; omega
    rw [sumAt2_succ V c ⟨n, hlt⟩, pay1A2_apply, Finset.sum_range_succ]
    show sumAt2 V c n (ix2 (0 : Fin 1) j) + _ = _
    rw [sumAt2_apply V c j n (by omega)]
    refine congrArg (_ + ·) (Finset.sum_congr rfl fun b _ => ?_)
    rw [hpre2_apply]
    exact (colF2_row V c (fun x => x) j (rowOf2 ⟨n, hlt⟩ b)).symm
theorem sqAt2_apply (V : (c : Dev nD) → (b : Ref sig .tc) → Buf (Elt Ideal) ((c : Thread nD τ).loc b)) (c : Dev nD) (j : Fin 128) : ∀ n, n ≤ 20 →
    sqAt2 (F := Ideal) V c n (ix2 (0 : Fin 1) j) = ∑ J ∈ Finset.range n, ∑ b : Fin 5000, colF2 V c (fun x => x * x) j (J * 5000 + b.val)
  | 0, _ => by rw [sqAt2_zero, pay4A2_apply, Finset.range_zero, Finset.sum_empty]
  | n + 1, hn => by
    have hlt : n < cfg2.N := by rw [show cfg2.N = 20 from N_2]; omega
    rw [sqAt2_succ V c ⟨n, hlt⟩, pay2A2_apply, Finset.sum_range_succ]
    show sqAt2 V c n (ix2 (0 : Fin 1) j) + _ = _
    rw [sqAt2_apply V c j n (by omega)]
    refine congrArg (_ + ·) (Finset.sum_congr rfl fun b _ => ?_)
    rw [hpre2_apply]
    exact (colF2_row V c (fun x => x * x) j (rowOf2 ⟨n, hlt⟩ b)).symm

/-- Twenty tiles of 5000 rows are the 100000 rows. -/
theorem tiles2 (V : (c : Dev nD) → (b : Ref sig .tc) → Buf (Elt Ideal) ((c : Thread nD τ).loc b)) (c : Dev nD) (g : EReal → EReal) (j : Fin 128) :
    ∑ J ∈ Finset.range 20, ∑ b : Fin 5000, colF2 V c g j (J * 5000 + b.val) = ∑ r : Fin 100000, g (G7_2 V c (ix2 r j)) := by
  rw [← Fin.sum_univ_eq_sum_range (fun J => ∑ b : Fin 5000, colF2 V c g j (J * 5000 + b.val)) 20]
  refine (Tiles.sum_tiles 20 5000 (colF2 V c g j)).trans ?_
  exact Finset.sum_congr rfl fun r _ => colF2_row V c g j r

/-- The three output arrays after the region, at the extended reals, as tables of extended reals. -/
def out7_2 (V : (c : Dev nD) → (b : Ref sig .tc) → Buf (Elt Ideal) ((c : Thread nD τ).loc b)) (c : Dev nD) : S100000x128.Idx → EReal := (dat2 (F := Ideal) V c).arrAt 7 cfg2.N
def out8_2 (V : (c : Dev nD) → (b : Ref sig .tc) → Buf (Elt Ideal) ((c : Thread nD τ).loc b)) (c : Dev nD) : S1x128.Idx → EReal := (dat2 (F := Ideal) V c).arrAt 8 cfg2.N
def out9_2 (V : (c : Dev nD) → (b : Ref sig .tc) → Buf (Elt Ideal) ((c : Thread nD τ).loc b)) (c : Dev nD) : S1x128.Idx → EReal := (dat2 (F := Ideal) V c).arrAt 9 cfg2.N

theorem out7_2_eq (V : (c : Dev nD) → (b : Ref sig .tc) → Buf (Elt Ideal) ((c : Thread nD τ).loc b)) (c : Dev nD) : out7_2 V c = G7_2 V c := final2_7 V c

/-- The array of window 8 after the region, at the extended reals: each column's sum over all 100000 rows of
    window 7's array. -/
theorem final2_8 (V : (c : Dev nD) → (b : Ref sig .tc) → Buf (Elt Ideal) ((c : Thread nD τ).loc b)) (c : Dev nD) (j : Fin 128) :
    out8_2 V c (ix2 (0 : Fin 1) j) = ∑ r : Fin 100000, out7_2 V c (ix2 r j) := by
  rw [out7_2_eq]
  unfold out8_2
  rw [arr2_8]
  exact (sumAt2_apply V c j 20 (le_refl _)).trans (tiles2 V c (fun x => x) j)

/-- The array of window 9: each column's sum of squares over all 100000 rows of window 7's array. -/
theorem final2_9 (V : (c : Dev nD) → (b : Ref sig .tc) → Buf (Elt Ideal) ((c : Thread nD τ).loc b)) (c : Dev nD) (j : Fin 128) :
    out9_2 V c (ix2 (0 : Fin 1) j) = ∑ r : Fin 100000, out7_2 V c (ix2 r j) * out7_2 V c (ix2 r j) := by
  rw [out7_2_eq]
  unfold out9_2
  rw [arr2_9]
  exact (sqAt2_apply V c j 20 (le_refl _)).trans (tiles2 V c (fun x => x * x) j)

end Cert.KernelIdeal.Hand

end
-- ==== Proof.KI.ValA4.lean ====
/- Region 4's values: what the three output windows' arrays hold after the region. Window 7's array is, at the
   extended reals, the layer's perceptron of the arrays the region finds, row by row; windows 8 and 9 hold the running
   rows after the last point, which at the extended reals are each column's sum, and sum of squares, over all rows of
   window 7's array. -/
import proofs.«116561_j3624952397847_1_alg».proof.Proof.KI.RegA4
import proofs.«116561_j3624952397847_1_alg».proof.Proof.LibProdRows
import proofs.«116561_j3624952397847_1_alg».proof.Proof.LibLayout
import proofs.«116561_j3624952397847_1_alg».proof.Proof.LibTiles
import proofs.«116561_j3624952397847_1_alg».proof.Proof.Spec
import Idealize.ShloMosaic.Lib.Pipeline.Value
import Idealize.ShloMosaic.Lib.ValueIdx
import Idealize.ShloMosaic.PureOps.Ideal.Laws

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at the extended reals, entry by entry -/

/-- Both products contract the left operand's columns against the right operand's rows. -/
theorem plainA4 : MatProd.Plain dot_S5000x128_S128x128_S5000x128_1_0_0_1_n_n :=
  ⟨rfl, rfl, fun _ _ => rfl, fun _ _ => rfl, fun _ _ => rfl, fun _ _ => rfl⟩

/-- A matrix product accumulated onto the zero array is the product of arrays. -/
theorem mmA4 (L : FVec Ideal S5000x128 .bf16) (R : FVec Ideal S128x128 .bf16) :
    (matmul (F := Ideal) dot_S5000x128_S128x128_S5000x128_1_0_0_1_n_n none L R (constant (F := Ideal) S5000x128 .f32 0x00000000#32) : FVec Ideal S5000x128 .f32)
      = MatProd.mm L R := MatProd.matmul_zero_mm plainA4 none L R

/-- A row laid along every row of a tile, at an entry: the row's entry at the column. -/
theorem bcastA4 (v : FVec Ideal S1x128 .f32) (p : Fin 5000) (q : Fin 128) :
    broadcastTo S5000x128 v broadcasts_S1x128_S5000x128 (ix2 p q) = v (ix2 (0 : Fin 1) q) :=
  broadcastTo_apply v _ (ix2 p q) (ix2 (0 : Fin 1) q) (fun a => by match a with | ⟨0, _⟩ => rfl | ⟨1, _⟩ => rfl)

/-- The aggregation's input: (1 + eps) · h + sum, entry by entry. -/
theorem ginA4 (x0 : Vec Ideal S1x128 .f32) (x1 x2 : Vec Ideal S5000x128 .f32) :
    (addf (mulf (broadcastTo S5000x128 (addf (broadcast S1x128 (FloatOps.ofBits (F := Ideal) .f32 0x3F800000#32)) x0) broadcasts_S1x128_S5000x128) x1) x2
      : FVec Ideal S5000x128 .f32) = Gin.ginIn (fun j => x0 (ix2 (0 : Fin 1) j)) x1 x2 := by
  funext i
  obtain ⟨p, q, rfl⟩ : ∃ (p : Fin 5000) (q : Fin 128), i = ix2 p q := ⟨i 0, i 1, eq_ix2 i⟩
  show broadcastTo S5000x128 (addf (broadcast S1x128 (FloatOps.ofBits (F := Ideal) .f32 0x3F800000#32)) x0) broadcasts_S1x128_S5000x128 (ix2 p q) * x1 (ix2 p q) + x2 (ix2 p q) = _
  rw [bcastA4]
  rfl

/-- The hidden layer: the first affine map of the aggregation's input, then the leaky rectifier, entry by entry. -/
theorem hiddenA4 (x0 : Vec Ideal S1x128 .f32) (x1 x2 : Vec Ideal S5000x128 .f32) (x3 : Vec Ideal S128x128 .f32) (x4 : Vec Ideal S1x128 .f32)
    (G : FVec Ideal S5000x128 .f32) (hG : G = Gin.ginIn (fun j => x0 (ix2 (0 : Fin 1) j)) x1 x2) (p : Fin 5000) (l : Fin 128) :
    (select (cmpf .oge (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
        (broadcast S5000x128 (FloatOps.ofBits (F := Ideal) .f32 0x00000000#32)))
      (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
      (mulf (broadcast S5000x128 (FloatOps.ofBits (F := Ideal) .f32 0x3C23D70A#32))
        (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128)))
      : FVec Ideal S5000x128 .f32) (ix2 p l)
      = Gin.lrArr (Gin.affine (Gin.ginIn (fun j => x0 (ix2 (0 : Fin 1) j)) x1 x2) x3 (fun j => x4 (ix2 (0 : Fin 1) j))) (ix2 p l) := by
  subst hG
  rw [mmA4]
  show Scalar.select (Ideal.cmp .oge (MatProd.mm (Gin.ginIn (fun j => x0 (ix2 (0 : Fin 1) j)) x1 x2) x3 (ix2 p l) + broadcastTo S5000x128 x4 broadcasts_S1x128_S5000x128 (ix2 p l)) (Ideal.ofBits .f32 0x00000000#32))
      (MatProd.mm (Gin.ginIn (fun j => x0 (ix2 (0 : Fin 1) j)) x1 x2) x3 (ix2 p l) + broadcastTo S5000x128 x4 broadcasts_S1x128_S5000x128 (ix2 p l))
      (Ideal.ofBits .f32 0x3C23D70A#32 * (MatProd.mm (Gin.ginIn (fun j => x0 (ix2 (0 : Fin 1) j)) x1 x2) x3 (ix2 p l) + broadcastTo S5000x128 x4 broadcasts_S1x128_S5000x128 (ix2 p l))) = _
  rw [bcastA4]
  rfl

/-- The tile's rows before normalisation, at the extended reals: the layer's perceptron of the tile's rows. -/
theorem pay5A4_eq (x0 : Vec Ideal S1x128 .f32) (x1 x2 : Vec Ideal S5000x128 .f32) (x3 : Vec Ideal S128x128 .f32) (x4 : Vec Ideal S1x128 .f32)
    (x5 : Vec Ideal S128x128 .f32) (x6 : Vec Ideal S1x128 .f32) :
    k4_pay5 (F := Ideal) x0 x1 x2 x3 x4 x5 x6
      = Gin.mlpE (fun j => x0 (ix2 (0 : Fin 1) j)) x1 x2 x3 (fun j => x4 (ix2 (0 : Fin 1) j)) x5 (fun j => x6 (ix2 (0 : Fin 1) j)) := by
  funext i
  obtain ⟨p, q, rfl⟩ : ∃ (p : Fin 5000) (q : Fin 128), i = ix2 p q := ⟨i 0, i 1, eq_ix2 i⟩
  unfold k4_pay5
  simp only [shapeCast_self]
  rw [addf_apply, bcastA4, mmA4]
  show _ = MatProd.mm (Gin.lrArr (Gin.affine (Gin.ginIn (fun j => x0 (ix2 (0 : Fin 1) j)) x1 x2) x3 (fun j => x4 (ix2 (0 : Fin 1) j)))) x5 (ix2 p q) + x6 (ix2 (0 : Fin 1) q)
  refine congrArg (· + x6 (ix2 (0 : Fin 1) q)) ?_
  rw [MatProd.mm_ix2, MatProd.mm_ix2]
  unfold MatProd.entry
  refine Finset.sum_congr rfl fun l _ => ?_
  exact congrArg (· * x5 (ix2 l q)) (hiddenA4 x0 x1 x2 x3 x4 _ (ginA4 x0 x1 x2) p l)

/-- A row of 128 laid as a 1 × 128 table, at an entry. -/
theorem castRowA4 {α : Type} (x : S128.Idx → α) (j : Fin 128) :
    shapeCast S1x128 x shapeCasts_S128_S1x128 (ix2 (0 : Fin 1) j) = x (ix1 j) :=
  shapeCast_apply x shapeCasts_S128_S1x128 _ _ (by
    rw [Shape.rowMajor_val_one, Shape.rowMajor_val_two]
    show j.val = 0 * 128 + j.val
    omega)

/-- The running row of sums after a tile: the row before, plus the tile's column sums. -/
theorem pay1A4_apply (v : FVec Ideal S5000x128 .f32) (s : Vec Ideal S1x128 .f32) (j : Fin 128) :
    k4_pay1 (F := Ideal) v s (ix2 (0 : Fin 1) j) = s (ix2 (0 : Fin 1) j) + ∑ p : Fin 5000, v (ix2 p j) := by
  unfold k4_pay1
  simp only [shapeCast_self]
  rw [addf_apply, castRowA4]
  exact congrArg (s (ix2 (0 : Fin 1) j) + ·) (PushPull.Layout.sum_ab_0 (a := 5000) (b := 128) v _ _ _ _ j)

/-- The running row of sums of squares after a tile: the row before, plus the tile's column sums of squares. -/
theorem pay2A4_apply (v : FVec Ideal S5000x128 .f32) (s : Vec Ideal S1x128 .f32) (j : Fin 128) :
    k4_pay2 (F := Ideal) v s (ix2 (0 : Fin 1) j) = s (ix2 (0 : Fin 1) j) + ∑ p : Fin 5000, v (ix2 p j) * v (ix2 p j) := by
  unfold k4_pay2
  simp only [shapeCast_self]
  rw [addf_apply, castRowA4]
  exact congrArg (s (ix2 (0 : Fin 1) j) + ·) (PushPull.Layout.sum_ab_0 (a := 5000) (b := 128) (mulf v v) _ _ _ _ j)

/-- The zero rows the first point stores. -/
theorem pay3A4_apply (j : Fin 128) : k4_pay3 (F := Ideal) (ix2 (0 : Fin 1) j) = 0 := by
  unfold k4_pay3
  simp only [shapeCast_self]
  show Ideal.ofBits .f32 0x00000000#32 = 0
  exact Ideal.ofBits_zero_f32
theorem pay4A4_apply (j : Fin 128) : k4_pay4 (F := Ideal) (ix2 (0 : Fin 1) j) = 0 := by
  unfold k4_pay4
  simp only [shapeCast_self]
  show Ideal.ofBits .f32 0x00000000#32 = 0
  exact Ideal.ofBits_zero_f32

/-! ## A row of the perceptron reads one row of its two tables -/

/-- If row `p` of the short tables is row `r` of the tall ones, the perceptron's row `p` over the short tables is
    its row `r` over the tall ones: each entry reads one row of `h` and of the neighbour sums only. -/
theorem mlpE_rowsA4 {n N : ℕ} (e : Fin 128 → EReal) (a ga : GcnSpec.Arr n 128) (A gA : GcnSpec.Arr N 128)
    (W1 : GcnSpec.Arr 128 128) (c1 : Fin 128 → EReal) (W2 : GcnSpec.Arr 128 128) (c2 : Fin 128 → EReal) (p : Fin n) (r : Fin N)
    (ha : ∀ m, a (ix2 p m) = A (ix2 r m)) (hg : ∀ m, ga (ix2 p m) = gA (ix2 r m)) (q : Fin 128) :
    Gin.mlpE e a ga W1 c1 W2 c2 (ix2 p q) = Gin.mlpE e A gA W1 c1 W2 c2 (ix2 r q) := by
  show MatProd.mm (Gin.lrArr (Gin.affine (Gin.ginIn e a ga) W1 c1)) W2 (ix2 p q) + c2 q
      = MatProd.mm (Gin.lrArr (Gin.affine (Gin.ginIn e A gA) W1 c1)) W2 (ix2 r q) + c2 q
  refine congrArg (· + c2 q) ?_
  rw [MatProd.mm_ix2, MatProd.mm_ix2]
  unfold MatProd.entry
  refine Finset.sum_congr rfl fun l _ => congrArg (· * W2 (ix2 l q)) ?_
  show Gin.lr (MatProd.mm (Gin.ginIn e a ga) W1 (ix2 p l) + c1 l) = Gin.lr (MatProd.mm (Gin.ginIn e A gA) W1 (ix2 r l) + c1 l)
  refine congrArg (fun z => Gin.lr (z + c1 l)) ?_
  rw [MatProd.mm_ix2, MatProd.mm_ix2]
  unfold MatProd.entry
  refine Finset.sum_congr rfl fun m _ => congrArg (· * W1 (ix2 m l)) ?_
  show (Gin.oneC + e m) * a (ix2 p m) + ga (ix2 p m) = (Gin.oneC + e m) * A (ix2 r m) + gA (ix2 r m)
  rw [ha m, hg m]

/-! ## Where the windows' blocks sit in their arrays -/

/-- The index maps over the grid: the two input tables' and the output table's blocks of 5000 rows move together,
    one block a point; -/
theorem idxR4 : ∀ t : Fin cfg4.N, (win4_1.index t (0 : Fin 2) = t.val ∧ win4_1.index t (1 : Fin 2) = 0)
    ∧ (win4_2.index t (0 : Fin 2) = t.val ∧ win4_2.index t (1 : Fin 2) = 0)
    ∧ (win4_7.index t (0 : Fin 2) = t.val ∧ win4_7.index t (1 : Fin 2) = 0) :=
  (by decide +kernel : ∀ t : Fin grid4.N, _)
/-- every other window's block is its whole array at every point. -/
theorem idxF4 : ∀ t : Fin cfg4.N, (win4_0.index t (0 : Fin 2) = 0 ∧ win4_0.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_8.index t (0 : Fin 2) = 0 ∧ win4_8.index t (1 : Fin 2) = 0)
    ∧ (win4_9.index t (0 : Fin 2) = 0 ∧ win4_9.index t (1 : Fin 2) = 0) :=
  (by decide +kernel : ∀ t : Fin grid4.N, _)

/-- The array's row that row `p` of point `t`'s block is. -/
def rowOf4 (t : Fin cfg4.N) (p : Fin 5000) : Fin 100000 :=
  ⟨t.val * 5000 + p.val, by have := lt_of_lt_of_eq t.isLt (show cfg4.N = 20 from N_4); have := p.isLt; omega⟩

theorem embT4_1 (t : Fin cfg4.N) (p : Fin 5000) (q : Fin 128) :
    ((cfg4.win 1).blk t).view.emb (ix2 p q : S5000x128.Idx) = (ix2 (rowOf4 t p) q : S100000x128.Idx) := by
  obtain ⟨⟨e10, e11⟩, ⟨e20, e21⟩, ⟨e70, e71⟩⟩ := idxR4 t
  funext a; apply Fin.ext
  match a with
  | ⟨0, _⟩ => show win4_1.index t (0 : Fin 2) * 5000 + 1 * p.val = t.val * 5000 + p.val; omega
  | ⟨1, _⟩ => show win4_1.index t (1 : Fin 2) * 128 + 1 * q.val = q.val; omega
theorem embT4_2 (t : Fin cfg4.N) (p : Fin 5000) (q : Fin 128) :
    ((cfg4.win 2).blk t).view.emb (ix2 p q : S5000x128.Idx) = (ix2 (rowOf4 t p) q : S100000x128.Idx) := by
  obtain ⟨⟨e10, e11⟩, ⟨e20, e21⟩, ⟨e70, e71⟩⟩ := idxR4 t
  funext a; apply Fin.ext
  match a with
  | ⟨0, _⟩ => show win4_2.index t (0 : Fin 2) * 5000 + 1 * p.val = t.val * 5000 + p.val; omega
  | ⟨1, _⟩ => show win4_2.index t (1 : Fin 2) * 128 + 1 * q.val = q.val; omega
theorem embT4_7 (t : Fin cfg4.N) (p : Fin 5000) (q : Fin 128) :
    ((cfg4.win 7).blk t).view.emb (ix2 p q : S5000x128.Idx) = (ix2 (rowOf4 t p) q : S100000x128.Idx) := by
  obtain ⟨⟨e10, e11⟩, ⟨e20, e21⟩, ⟨e70, e71⟩⟩ := idxR4 t
  funext a; apply Fin.ext
  match a with
  | ⟨0, _⟩ => show win4_7.index t (0 : Fin 2) * 5000 + 1 * p.val = t.val * 5000 + p.val; omega
  | ⟨1, _⟩ => show win4_7.index t (1 : Fin 2) * 128 + 1 * q.val = q.val; omega

theorem embF4_0 (t : Fin cfg4.N) (u : Fin 1) (q : Fin 128) :
    ((cfg4.win 0).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_0.index t (0 : Fin 2) * 1 + 1 * u.val = u.val; omega
  | ⟨1, _⟩ => show win4_0.index t (1 : Fin 2) * 128 + 1 * q.val = q.val; omega
theorem embF4_3 (t : Fin cfg4.N) (u : Fin 128) (q : Fin 128) :
    ((cfg4.win 3).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_3.index t (0 : Fin 2) * 128 + 1 * u.val = u.val; omega
  | ⟨1, _⟩ => show win4_3.index t (1 : Fin 2) * 128 + 1 * q.val = q.val; omega
theorem embF4_4 (t : Fin cfg4.N) (u : Fin 1) (q : Fin 128) :
    ((cfg4.win 4).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_4.index t (0 : Fin 2) * 1 + 1 * u.val = u.val; omega
  | ⟨1, _⟩ => show win4_4.index t (1 : Fin 2) * 128 + 1 * q.val = q.val; omega
theorem embF4_5 (t : Fin cfg4.N) (u : Fin 128) (q : Fin 128) :
    ((cfg4.win 5).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_5.index t (0 : Fin 2) * 128 + 1 * u.val = u.val; omega
  | ⟨1, _⟩ => show win4_5.index t (1 : Fin 2) * 128 + 1 * q.val = q.val; omega
theorem embF4_6 (t : Fin cfg4.N) (u : Fin 1) (q : Fin 128) :
    ((cfg4.win 6).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_6.index t (0 : Fin 2) * 1 + 1 * u.val = u.val; omega
  | ⟨1, _⟩ => show win4_6.index t (1 : Fin 2) * 128 + 1 * q.val = q.val; omega
theorem embF4_8 (t : Fin cfg4.N) (u : Fin 1) (q : Fin 128) :
    ((cfg4.win 8).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_8.index t (0 : Fin 2) * 1 + 1 * u.val = u.val; omega
  | ⟨1, _⟩ => show win4_8.index t (1 : Fin 2) * 128 + 1 * q.val = q.val; omega
theorem embF4_9 (t : Fin cfg4.N) (u : Fin 1) (q : Fin 128) :
    ((cfg4.win 9).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF4 t
  funext x; apply Fin.ext
  match x with
  | ⟨0, _⟩ => show win4_9.index t (0 : Fin 2) * 1 + 1 * u.val = u.val; omega
  | ⟨1, _⟩ => show win4_9.index t (1 : Fin 2) * 128 + 1 * q.val = q.val; omega

section Arrays
variable {F : FTy → Type} [FloatOps F]
variable (V : (c : Dev nD) → (b : Ref sig .tc) → Buf (Elt F) ((c : Thread nD τ).loc b))

/-- Each whole-array input block is its array; each block of rows is the array's rows from `5000 · t`. -/
theorem blkF4_0 (c : Dev nD) (t : Fin cfg4.N) : (iblk4 V c 0 t : S1x128.Idx → Elt F .f32) = V c (Pipeline.arrRef spec4 0) := by
  funext i
  obtain ⟨u, q, rfl⟩ : ∃ (u : Fin 1) (q : Fin 128), i = ix2 u q := ⟨i 0, i 1, eq_ix2 i⟩
  exact congrArg (V c (Pipeline.arrRef spec4 0)) (embF4_0 t u q)
theorem blkF4_3 (c : Dev nD) (t : Fin cfg4.N) : (iblk4 V c 3 t : S128x128.Idx → Elt F .f32) = V c (Pipeline.arrRef spec4 3) := by
  funext i
  obtain ⟨u, q, rfl⟩ : ∃ (u : Fin 128) (q : Fin 128), i = ix2 u q := ⟨i 0, i 1, eq_ix2 i⟩
  exact congrArg (V c (Pipeline.arrRef spec4 3)) (embF4_3 t u q)
theorem blkF4_4 (c : Dev nD) (t : Fin cfg4.N) : (iblk4 V c 4 t : S1x128.Idx → Elt F .f32) = V c (Pipeline.arrRef spec4 4) := by
  funext i
  obtain ⟨u, q, rfl⟩ : ∃ (u : Fin 1) (q : Fin 128), i = ix2 u q := ⟨i 0, i 1, eq_ix2 i⟩
  exact congrArg (V c (Pipeline.arrRef spec4 4)) (embF4_4 t u q)
theorem blkF4_5 (c : Dev nD) (t : Fin cfg4.N) : (iblk4 V c 5 t : S128x128.Idx → Elt F .f32) = V c (Pipeline.arrRef spec4 5) := by
  funext i
  obtain ⟨u, q, rfl⟩ : ∃ (u : Fin 128) (q : Fin 128), i = ix2 u q := ⟨i 0, i 1, eq_ix2 i⟩
  exact congrArg (V c (Pipeline.arrRef spec4 5)) (embF4_5 t u q)
theorem blkF4_6 (c : Dev nD) (t : Fin cfg4.N) : (iblk4 V c 6 t : S1x128.Idx → Elt F .f32) = V c (Pipeline.arrRef spec4 6) := by
  funext i
  obtain ⟨u, q, rfl⟩ : ∃ (u : Fin 1) (q : Fin 128), i = ix2 u q := ⟨i 0, i 1, eq_ix2 i⟩
  exact congrArg (V c (Pipeline.arrRef spec4 6)) (embF4_6 t u q)
theorem blkT4_1 (c : Dev nD) (t : Fin cfg4.N) (p : Fin 5000) (q : Fin 128) :
    iblk4 V c 1 t (ix2 p q) = V c (Pipeline.arrRef spec4 1) (ix2 (rowOf4 t p) q : S100000x128.Idx) :=
  congrArg (V c (Pipeline.arrRef spec4 1)) (embT4_1 t p q)
theorem blkT4_2 (c : Dev nD) (t : Fin cfg4.N) (p : Fin 5000) (q : Fin 128) :
    iblk4 V c 2 t (ix2 p q) = V c (Pipeline.arrRef spec4 2) (ix2 (rowOf4 t p) q : S100000x128.Idx) :=
  congrArg (V c (Pipeline.arrRef spec4 2)) (embT4_2 t p q)

/-! ## Windows 8 and 9: the one write-back, after the last point, writes the running rows -/

theorem last4_of_flush (t : Fin cfg4.N) (h : t.val % 20 = 19) : t.val = 19 := by
  have := lt_of_lt_of_eq t.isLt (show cfg4.N = 20 from N_4); omega

theorem flushed4_8_eq (c : Dev nD) (t : Fin cfg4.N) (hf : (cfg4.win 8).flush t = true) :
    (dat4 V c).flushed 8 t = ((cfg4.win 8).blk t).view.read (Elt F) (sumAt4 V c 20 : S1x128.Idx → Elt F .f32) := by
  have h19 : t.val = 19 := last4_of_flush t ((flush4_8 t).mp hf)
  show (cfg4.win 8).cut (grid4.coords t) ((dat4 V c).after 8 t) = _
  rw [after4_8, h19]
  funext i
  obtain ⟨u, q, rfl⟩ : ∃ (u : Fin 1) (q : Fin 128), i = ix2 u q := ⟨i 0, i 1, eq_ix2 i⟩
  exact (congrArg (sumAt4 V c 20 : S1x128.Idx → Elt F .f32) (embF4_8 t u q)).symm

theorem covered4_8 (i : S1x128.Idx) : ∃ t : Fin cfg4.N, (cfg4.win 8).flush t = true ∧ i ∈ ((cfg4.win 8).blk t).view.set := by
  have hi0 : (i 0).val < 1 := (i 0).isLt
  have hi1 : (i 1).val < 128 := (i 1).isLt
  have hlt : 19 < cfg4.N := by rw [show cfg4.N = 20 from N_4]; omega
  obtain ⟨⟨f00, f01⟩, ⟨f30, f31⟩, ⟨f40, f41⟩, ⟨f50, f51⟩, ⟨f60, f61⟩, ⟨f80, f81⟩, ⟨f90, f91⟩⟩ := idxF4 ⟨19, hlt⟩
  refine ⟨⟨19, hlt⟩, (flush4_8 _).mpr rfl, ?_⟩
  show i ∈ ((View.whole main_v118_1).slice (win4_8.rect ⟨19, hlt⟩)).set
  rw [View.set_slice_whole, Rect.mem_set_unit]
  intro a
  match a with
  | ⟨0, _⟩ => show win4_8.index ⟨19, hlt⟩ (0 : Fin 2) * 1 ≤ (i 0).val ∧ (i 0).val < win4_8.index ⟨19, hlt⟩ (0 : Fin 2) * 1 + 1; omega
  | ⟨1, _⟩ => show win4_8.index ⟨19, hlt⟩ (1 : Fin 2) * 128 ≤ (i 1).val ∧ (i 1).val < win4_8.index ⟨19, hlt⟩ (1 : Fin 2) * 128 + 128; omega

/-- THE ARRAY of window 8 after the region: the running row after all 20 points. -/
theorem arr4_8 (c : Dev nD) : (dat4 V c).arrAt 8 cfg4.N = (sumAt4 V c 20 : S1x128.Idx → Elt F .f32) :=
  (dat4 V c).arrAt_eq_of_cover 8 _ (flushed4_8_eq V c) covered4_8

theorem flushed4_9_eq (c : Dev nD) (t : Fin cfg4.N) (hf : (cfg4.win 9).flush t = true) :
    (dat4 V c).flushed 9 t = ((cfg4.win 9).blk t).view.read (Elt F) (sqAt4 V c 20 : S1x128.Idx → Elt F .f32) := by
  have h19 : t.val = 19 := last4_of_flush t ((flush4_9 t).mp hf)
  show (cfg4.win 9).cut (grid4.coords t) ((dat4 V c).after 9 t) = _
  rw [after4_9, h19]
  funext i
  obtain ⟨u, q, rfl⟩ : ∃ (u : Fin 1) (q : Fin 128), i = ix2 u q := ⟨i 0, i 1, eq_ix2 i⟩
  exact (congrArg (sqAt4 V c 20 : S1x128.Idx → Elt F .f32) (embF4_9 t u q)).symm

theorem covered4_9 (i : S1x128.Idx) : ∃ t : Fin cfg4.N, (cfg4.win 9).flush t = true ∧ i ∈ ((cfg4.win 9).blk t).view.set := by
  have hi0 : (i 0).val < 1 := (i 0).isLt
  have hi1 : (i 1).val < 128 := (i 1).isLt
  have hlt : 19 < cfg4.N := by rw [show cfg4.N = 20 from N_4]; omega
  obtain ⟨⟨f00, f01⟩, ⟨f30, f31⟩, ⟨f40, f41⟩, ⟨f50, f51⟩, ⟨f60, f61⟩, ⟨f80, f81⟩, ⟨f90, f91⟩⟩ := idxF4 ⟨19, hlt⟩
  refine ⟨⟨19, hlt⟩, (flush4_9 _).mpr rfl, ?_⟩
  show i ∈ ((View.whole main_v118_2).slice (win4_9.rect ⟨19, hlt⟩)).set
  rw [View.set_slice_whole, Rect.mem_set_unit]
  intro a
  match a with
  | ⟨0, _⟩ => show win4_9.index ⟨19, hlt⟩ (0 : Fin 2) * 1 ≤ (i 0).val ∧ (i 0).val < win4_9.index ⟨19, hlt⟩ (0 : Fin 2) * 1 + 1; omega
  | ⟨1, _⟩ => show win4_9.index ⟨19, hlt⟩ (1 : Fin 2) * 128 ≤ (i 1).val ∧ (i 1).val < win4_9.index ⟨19, hlt⟩ (1 : Fin 2) * 128 + 128; omega

/-- THE ARRAY of window 9 after the region: the running row after all 20 points. -/
theorem arr4_9 (c : Dev nD) : (dat4 V c).arrAt 9 cfg4.N = (sqAt4 V c 20 : S1x128.Idx → Elt F .f32) :=
  (dat4 V c).arrAt_eq_of_cover 9 _ (flushed4_9_eq V c) covered4_9

/-! ## Window 7: every point writes its tile of rows -/

theorem covered4_7 (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  have hN : cfg4.N = 20 := N_4
  have hlt : (i 0).val / 5000 < cfg4.N := by rw [hN]; omega
  obtain ⟨⟨e10, e11⟩, ⟨e20, e21⟩, ⟨e70, e71⟩⟩ := idxR4 ⟨(i 0).val / 5000, hlt⟩
  have e70' : win4_7.index ⟨(i 0).val / 5000, hlt⟩ (0 : Fin 2) = (i 0).val / 5000 := e70
  refine ⟨⟨(i 0).val / 5000, hlt⟩, flush4_7 _, ?_⟩
  show i ∈ ((View.whole main_v118_0).slice (win4_7.rect ⟨(i 0).val / 5000, hlt⟩)).set
  rw [View.set_slice_whole, Rect.mem_set_unit]
  intro a
  match a with
  | ⟨0, _⟩ => show win4_7.index ⟨(i 0).val / 5000, hlt⟩ (0 : Fin 2) * 5000 ≤ (i 0).val ∧ (i 0).val < win4_7.index ⟨(i 0).val / 5000, hlt⟩ (0 : Fin 2) * 5000 + 5000; omega
  | ⟨1, _⟩ => show win4_7.index ⟨(i 0).val / 5000, hlt⟩ (1 : Fin 2) * 128 ≤ (i 1).val ∧ (i 1).val < win4_7.index ⟨(i 0).val / 5000, hlt⟩ (1 : Fin 2) * 128 + 128; omega

end Arrays

/-! ## The values at the extended reals -/

/-- The rows before normalisation of all 100000 nodes: the layer's perceptron of the arrays the region finds. -/
def G7_4 (V : (c : Dev nD) → (b : Ref sig .tc) → Buf (Elt Ideal) ((c : Thread nD τ).loc b)) (c : Dev nD) : S100000x128.Idx → EReal :=
  Gin.mlpE (fun j => ((V c (Pipeline.arrRef spec4 0)) : S1x128.Idx → EReal) (ix2 (0 : Fin 1) j)) ((V c (Pipeline.arrRef spec4 1)) : S100000x128.Idx → EReal) ((V c (Pipeline.arrRef spec4 2)) : S100000x128.Idx → EReal)
      ((V c (Pipeline.arrRef spec4 3)) : S128x128.Idx → EReal) (fun j => ((V c (Pipeline.arrRef spec4 4)) : S1x128.Idx → EReal) (ix2 (0 : Fin 1) j)) ((V c (Pipeline.arrRef spec4 5)) : S128x128.Idx → EReal)
      (fun j => ((V c (Pipeline.arrRef spec4 6)) : S1x128.Idx → EReal) (ix2 (0 : Fin 1) j))

/-- Tile `t`'s rows are rows `5000 · t …` of it. -/
theorem hpre4_apply (V : (c : Dev nD) → (b : Ref sig .tc) → Buf (Elt Ideal) ((c : Thread nD τ).loc b)) (c : Dev nD) (t : Fin cfg4.N) (p : Fin 5000) (q : Fin 128) :
    hpre4 (F := Ideal) V c t (ix2 p q) = G7_4 V c (ix2 (rowOf4 t p) q) := by
  unfold hpre4 G7_4
  rw [pay5A4_eq, blkF4_0, blkF4_3, blkF4_4, blkF4_5, blkF4_6]
  exact mlpE_rowsA4 _ _ _ _ _ _ _ _ _ p (rowOf4 t p) (fun m => blkT4_1 V c t p m) (fun m => blkT4_2 V c t p m) q

theorem flushed4_7_eq (V : (c : Dev nD) → (b : Ref sig .tc) → Buf (Elt Ideal) ((c : Thread nD τ).loc b)) (c : Dev nD) (t : Fin cfg4.N) :
    (dat4 (F := Ideal) V c).flushed 7 t = ((cfg4.win 7).blk t).view.read (Elt Ideal) (G7_4 V c) := by
  show (cfg4.win 7).cut (grid4.coords t) ((dat4 V c).after 7 t) = _
  rw [after4_7]
  funext i
  obtain ⟨p, q, rfl⟩ : ∃ (p : Fin 5000) (q : Fin 128), i = ix2 p q := ⟨i 0, i 1, eq_ix2 i⟩
  refine (hpre4_apply V c t p q).trans ?_
  exact (congrArg (G7_4 V c) (embT4_7 t p q)).symm

/-- THE ARRAY of window 7 after the region, at the extended reals: the perceptron's rows of all nodes. -/
theorem final4_7 (V : (c : Dev nD) → (b : Ref sig .tc) → Buf (Elt Ideal) ((c : Thread nD τ).loc b)) (c : Dev nD) :
    (dat4 (F := Ideal) V c).arrAt 7 cfg4.N
      = Gin.mlpE (fun j => ((V c (Pipeline.arrRef spec4 0)) : S1x128.Idx → EReal) (ix2 (0 : Fin 1) j)) ((V c (Pipeline.arrRef spec4 1)) : S100000x128.Idx → EReal) ((V c (Pipeline.arrRef spec4 2)) : S100000x128.Idx → EReal)
      ((V c (Pipeline.arrRef spec4 3)) : S128x128.Idx → EReal) (fun j => ((V c (Pipeline.arrRef spec4 4)) : S1x128.Idx → EReal) (ix2 (0 : Fin 1) j)) ((V c (Pipeline.arrRef spec4 5)) : S128x128.Idx → EReal)
      (fun j => ((V c (Pipeline.arrRef spec4 6)) : S1x128.Idx → EReal) (ix2 (0 : Fin 1) j)) :=
  (dat4 V c).arrAt_eq_of_cover 7 (G7_4 V c) (fun t _ => flushed4_7_eq V c t) covered4_7

/-- A function of an entry of it, by its row's number, zero past the table: the summand of the tile sums. -/
def colF4 (V : (c : Dev nD) → (b : Ref sig .tc) → Buf (Elt Ideal) ((c : Thread nD τ).loc b)) (c : Dev nD) (g : EReal → EReal) (j : Fin 128) (k : ℕ) : EReal :=
  if h : k < 100000 then g (G7_4 V c (ix2 ⟨k, h⟩ j)) else 0

theorem colF4_row (V : (c : Dev nD) → (b : Ref sig .tc) → Buf (Elt Ideal) ((c : Thread nD τ).loc b)) (c : Dev nD) (g : EReal → EReal) (j : Fin 128) (r : Fin 100000) :
    colF4 V c g j r.val = g (G7_4 V c (ix2 r j)) := by
  unfold colF4; rw [dif_pos r.isLt]

/-- The running rows after `n` points: the sums over the first `n` tiles' rows. -/
theorem sumAt4_apply (V : (c : Dev nD) → (b : Ref sig .tc) → Buf (Elt Ideal) ((c : Thread nD τ).loc b)) (c : Dev nD) (j : Fin 128) : ∀ n, n ≤ 20 →
    sumAt4 (F := Ideal) V c n (ix2 (0 : Fin 1) j) = ∑ J ∈ Finset.range n, ∑ b : Fin 5000, colF4 V c (fun x => x) j (J * 5000 + b.val)
  | 0, _ => by rw [sumAt4_zero, pay3A4_apply, Finset.range_zero, Finset.sum_empty]
  | n + 1, hn => by
    have hlt : n < cfg4.N := by rw [show cfg4.N = 20 from N_4]; omega
    rw [sumAt4_succ V c ⟨n, hlt⟩, pay1A4_apply, Finset.sum_range_succ]
    show sumAt4 V c n (ix2 (0 : Fin 1) j) + _ = _
    rw [sumAt4_apply V c j n (by omega)]
    refine congrArg (_ + ·) (Finset.sum_congr rfl fun b _ => ?_)
    rw [hpre4_apply]
    exact (colF4_row V c (fun x => x) j (rowOf4 ⟨n, hlt⟩ b)).symm
theorem sqAt4_apply (V : (c : Dev nD) → (b : Ref sig .tc) → Buf (Elt Ideal) ((c : Thread nD τ).loc b)) (c : Dev nD) (j : Fin 128) : ∀ n, n ≤ 20 →
    sqAt4 (F := Ideal) V c n (ix2 (0 : Fin 1) j) = ∑ J ∈ Finset.range n, ∑ b : Fin 5000, colF4 V c (fun x => x * x) j (J * 5000 + b.val)
  | 0, _ => by rw [sqAt4_zero, pay4A4_apply, Finset.range_zero, Finset.sum_empty]
  | n + 1, hn => by
    have hlt : n < cfg4.N := by rw [show cfg4.N = 20 from N_4]; omega
    rw [sqAt4_succ V c ⟨n, hlt⟩, pay2A4_apply, Finset.sum_range_succ]
    show sqAt4 V c n (ix2 (0 : Fin 1) j) + _ = _
    rw [sqAt4_apply V c j n (by omega)]
    refine congrArg (_ + ·) (Finset.sum_congr rfl fun b _ => ?_)
    rw [hpre4_apply]
    exact (colF4_row V c (fun x => x * x) j (rowOf4 ⟨n, hlt⟩ b)).symm

/-- Twenty tiles of 5000 rows are the 100000 rows. -/
theorem tiles4 (V : (c : Dev nD) → (b : Ref sig .tc) → Buf (Elt Ideal) ((c : Thread nD τ).loc b)) (c : Dev nD) (g : EReal → EReal) (j : Fin 128) :
    ∑ J ∈ Finset.range 20, ∑ b : Fin 5000, colF4 V c g j (J * 5000 + b.val) = ∑ r : Fin 100000, g (G7_4 V c (ix2 r j)) := by
  rw [← Fin.sum_univ_eq_sum_range (fun J => ∑ b : Fin 5000, colF4 V c g j (J * 5000 + b.val)) 20]
  refine (Tiles.sum_tiles 20 5000 (colF4 V c g j)).trans ?_
  exact Finset.sum_congr rfl fun r _ => colF4_row V c g j r

/-- The three output arrays after the region, at the extended reals, as tables of extended reals. -/
def out7_4 (V : (c : Dev nD) → (b : Ref sig .tc) → Buf (Elt Ideal) ((c : Thread nD τ).loc b)) (c : Dev nD) : S100000x128.Idx → EReal := (dat4 (F := Ideal) V c).arrAt 7 cfg4.N
def out8_4 (V : (c : Dev nD) → (b : Ref sig .tc) → Buf (Elt Ideal) ((c : Thread nD τ).loc b)) (c : Dev nD) : S1x128.Idx → EReal := (dat4 (F := Ideal) V c).arrAt 8 cfg4.N
def out9_4 (V : (c : Dev nD) → (b : Ref sig .tc) → Buf (Elt Ideal) ((c : Thread nD τ).loc b)) (c : Dev nD) : S1x128.Idx → EReal := (dat4 (F := Ideal) V c).arrAt 9 cfg4.N

theorem out7_4_eq (V : (c : Dev nD) → (b : Ref sig .tc) → Buf (Elt Ideal) ((c : Thread nD τ).loc b)) (c : Dev nD) : out7_4 V c = G7_4 V c := final4_7 V c

/-- The array of window 8 after the region, at the extended reals: each column's sum over all 100000 rows of
    window 7's array. -/
theorem final4_8 (V : (c : Dev nD) → (b : Ref sig .tc) → Buf (Elt Ideal) ((c : Thread nD τ).loc b)) (c : Dev nD) (j : Fin 128) :
    out8_4 V c (ix2 (0 : Fin 1) j) = ∑ r : Fin 100000, out7_4 V c (ix2 r j) := by
  rw [out7_4_eq]
  unfold out8_4
  rw [arr4_8]
  exact (sumAt4_apply V c j 20 (le_refl _)).trans (tiles4 V c (fun x => x) j)

/-- The array of window 9: each column's sum of squares over all 100000 rows of window 7's array. -/
theorem final4_9 (V : (c : Dev nD) → (b : Ref sig .tc) → Buf (Elt Ideal) ((c : Thread nD τ).loc b)) (c : Dev nD) (j : Fin 128) :
    out9_4 V c (ix2 (0 : Fin 1) j) = ∑ r : Fin 100000, out7_4 V c (ix2 r j) * out7_4 V c (ix2 r j) := by
  rw [out7_4_eq]
  unfold out9_4
  rw [arr4_9]
  exact (sqAt4_apply V c j 20 (le_refl _)).trans (tiles4 V c (fun x => x * x) j)

end Cert.KernelIdeal.Hand

end
-- ==== Proof.KI.ValA6.lean ====
/- Region 6's values: what the three output windows' arrays hold after the region. Window 7's array is, at the
   extended reals, the layer's perceptron of the arrays the region finds, row by row; windows 8 and 9 hold the running
   rows after the last point, which at the extended reals are each column's sum, and sum of squares, over all rows of
   window 7's array. -/
import proofs.«116561_j3624952397847_1_alg».proof.Proof.KI.RegA6
import proofs.«116561_j3624952397847_1_alg».proof.Proof.LibProdRows
import proofs.«116561_j3624952397847_1_alg».proof.Proof.LibLayout
import proofs.«116561_j3624952397847_1_alg».proof.Proof.LibTiles
import proofs.«116561_j3624952397847_1_alg».proof.Proof.Spec
import Idealize.ShloMosaic.Lib.Pipeline.Value
import Idealize.ShloMosaic.Lib.ValueIdx
import Idealize.ShloMosaic.PureOps.Ideal.Laws

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at the extended reals, entry by entry -/

/-- Both products contract the left operand's columns against the right operand's rows. -/
theorem plainA6 : MatProd.Plain dot_S5000x128_S128x128_S5000x128_1_0_0_1_n_n :=
  ⟨rfl, rfl, fun _ _ => rfl, fun _ _ => rfl, fun _ _ => rfl, fun _ _ => rfl⟩

/-- A matrix product accumulated onto the zero array is the product of arrays. -/
theorem mmA6 (L : FVec Ideal S5000x128 .bf16) (R : FVec Ideal S128x128 .bf16) :
    (matmul (F := Ideal) dot_S5000x128_S128x128_S5000x128_1_0_0_1_n_n none L R (constant (F := Ideal) S5000x128 .f32 0x00000000#32) : FVec Ideal S5000x128 .f32)
      = MatProd.mm L R := MatProd.matmul_zero_mm plainA6 none L R

/-- A row laid along every row of a tile, at an entry: the row's entry at the column. -/
theorem bcastA6 (v : FVec Ideal S1x128 .f32) (p : Fin 5000) (q : Fin 128) :
    broadcastTo S5000x128 v broadcasts_S1x128_S5000x128 (ix2 p q) = v (ix2 (0 : Fin 1) q) :=
  broadcastTo_apply v _ (ix2 p q) (ix2 (0 : Fin 1) q) (fun a => by match a with | ⟨0, _⟩ => rfl | ⟨1, _⟩ => rfl)

/-- The aggregation's input: (1 + eps) · h + sum, entry by entry. -/
theorem ginA6 (x0 : Vec Ideal S1x128 .f32) (x1 x2 : Vec Ideal S5000x128 .f32) :
    (addf (mulf (broadcastTo S5000x128 (addf (broadcast S1x128 (FloatOps.ofBits (F := Ideal) .f32 0x3F800000#32)) x0) broadcasts_S1x128_S5000x128) x1) x2
      : FVec Ideal S5000x128 .f32) = Gin.ginIn (fun j => x0 (ix2 (0 : Fin 1) j)) x1 x2 := by
  funext i
  obtain ⟨p, q, rfl⟩ : ∃ (p : Fin 5000) (q : Fin 128), i = ix2 p q := ⟨i 0, i 1, eq_ix2 i⟩
  show broadcastTo S5000x128 (addf (broadcast S1x128 (FloatOps.ofBits (F := Ideal) .f32 0x3F800000#32)) x0) broadcasts_S1x128_S5000x128 (ix2 p q) * x1 (ix2 p q) + x2 (ix2 p q) = _
  rw [bcastA6]
  rfl

/-- The hidden layer: the first affine map of the aggregation's input, then the leaky rectifier, entry by entry. -/
theorem hiddenA6 (x0 : Vec Ideal S1x128 .f32) (x1 x2 : Vec Ideal S5000x128 .f32) (x3 : Vec Ideal S128x128 .f32) (x4 : Vec Ideal S1x128 .f32)
    (G : FVec Ideal S5000x128 .f32) (hG : G = Gin.ginIn (fun j => x0 (ix2 (0 : Fin 1) j)) x1 x2) (p : Fin 5000) (l : Fin 128) :
    (select (cmpf .oge (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
        (broadcast S5000x128 (FloatOps.ofBits (F := Ideal) .f32 0x00000000#32)))
      (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128))
      (mulf (broadcast S5000x128 (FloatOps.ofBits (F := Ideal) .f32 0x3C23D70A#32))
        (addf (matmul dot_S5000x128_S128x128_S5000x128_1_0_0_1_n_n none (truncf .bf16 G bitsLt_bf16_f32) (truncf .bf16 x3 bitsLt_bf16_f32) (constant S5000x128 .f32 0x00000000#32)) (broadcastTo S5000x128 x4 broadcasts_S1x128_S5000x128)))
      : FVec Ideal S5000x128 .f32) (ix2 p l)
      = Gin.lrArr (Gin.affine (Gin.ginIn (fun j => x0 (ix2 (0 : Fin 1) j)) x1 x2) x3 (fun j => x4 (ix2 (0 : Fin 1) j))) (ix2 p l) := by
  subst hG
  rw [mmA6]
  show Scalar.select (Ideal.cmp .oge (MatProd.mm (Gin.ginIn (fun j => x0 (ix2 (0 : Fin 1) j)) x1 x2) x3 (ix2 p l) + broadcastTo S5000x128 x4 broadcasts_S1x128_S5000x128 (ix2 p l)) (Ideal.ofBits .f32 0x00000000#32))
      (MatProd.mm (Gin.ginIn (fun j => x0 (ix2 (0 : Fin 1) j)) x1 x2) x3 (ix2 p l) + broadcastTo S5000x128 x4 broadcasts_S1x128_S5000x128 (ix2 p l))
      (Ideal.ofBits .f32 0x3C23D70A#32 * (MatProd.mm (Gin.ginIn (fun j => x0 (ix2 (0 : Fin 1) j)) x1 x2) x3 (ix2 p l) + broadcastTo S5000x128 x4 broadcasts_S1x128_S5000x128 (ix2 p l))) = _
  rw [bcastA6]
  rfl

/-- The tile's rows before normalisation, at the extended reals: the layer's perceptron of the tile's rows. -/
theorem pay5A6_eq (x0 : Vec Ideal S1x128 .f32) (x1 x2 : Vec Ideal S5000x128 .f32) (x3 : Vec Ideal S128x128 .f32) (x4 : Vec Ideal S1x128 .f32)
    (x5 : Vec Ideal S128x128 .f32) (x6 : Vec Ideal S1x128 .f32) :
    k6_pay5 (F := Ideal) x0 x1 x2 x3 x4 x5 x6
      = Gin.mlpE (fun j => x0 (ix2 (0 : Fin 1) j)) x1 x2 x3 (fun j => x4 (ix2 (0 : Fin 1) j)) x5 (fun j => x6 (ix2 (0 : Fin 1) j)) := by
  funext i
  obtain ⟨p, q, rfl⟩ : ∃ (p : Fin 5000) (q : Fin 128), i = ix2 p q := ⟨i 0, i 1, eq_ix2 i⟩
  unfold k6_pay5
  simp only [shapeCast_self]
  rw [addf_apply, bcastA6, mmA6]
  show _ = MatProd.mm (Gin.lrArr (Gin.affine (Gin.ginIn (fun j => x0 (ix2 (0 : Fin 1) j)) x1 x2) x3 (fun j => x4 (ix2 (0 : Fin 1) j)))) x5 (ix2 p q) + x6 (ix2 (0 : Fin 1) q)
  refine congrArg (· + x6 (ix2 (0 : Fin 1) q)) ?_
  rw [MatProd.mm_ix2, MatProd.mm_ix2]
  unfold MatProd.entry
  refine Finset.sum_congr rfl fun l _ => ?_
  exact congrArg (· * x5 (ix2 l q)) (hiddenA6 x0 x1 x2 x3 x4 _ (ginA6 x0 x1 x2) p l)

/-- A row of 128 laid as a 1 × 128 table, at an entry. -/
theorem castRowA6 {α : Type} (x : S128.Idx → α) (j : Fin 128) :
    shapeCast S1x128 x shapeCasts_S128_S1x128 (ix2 (0 : Fin 1) j) = x (ix1 j) :=
  shapeCast_apply x shapeCasts_S128_S1x128 _ _ (by
    rw [Shape.rowMajor_val_one, Shape.rowMajor_val_two]
    show j.val = 0 * 128 + j.val
    omega)

/-- The running row of sums after a tile: the row before, plus the tile's column sums. -/
theorem pay1A6_apply (v : FVec Ideal S5000x128 .f32) (s : Vec Ideal S1x128 .f32) (j : Fin 128) :
    k6_pay1 (F := Ideal) v s (ix2 (0 : Fin 1) j) = s (ix2 (0 : Fin 1) j) + ∑ p : Fin 5000, v (ix2 p j) := by
  unfold k6_pay1
  simp only [shapeCast_self]
  rw [addf_apply, castRowA6]
  exact congrArg (s (ix2 (0 : Fin 1) j) + ·) (PushPull.Layout.sum_ab_0 (a := 5000) (b := 128) v _ _ _ _ j)

/-- The running row of sums of squares after a tile: the row before, plus the tile's column sums of squares. -/
theorem pay2A6_apply (v : FVec Ideal S5000x128 .f32) (s : Vec Ideal S1x128 .f32) (j : Fin 128) :
    k6_pay2 (F := Ideal) v s (ix2 (0 : Fin 1) j) = s (ix2 (0 : Fin 1) j) + ∑ p : Fin 5000, v (ix2 p j) * v (ix2 p j) := by
  unfold k6_pay2
  simp only [shapeCast_self]
  rw [addf_apply, castRowA6]
  exact congrArg (s (ix2 (0 : Fin 1) j) + ·) (PushPull.Layout.sum_ab_0 (a := 5000) (b := 128) (mulf v v) _ _ _ _ j)

/-- The zero rows the first point stores. -/
theorem pay3A6_apply (j : Fin 128) : k6_pay3 (F := Ideal) (ix2 (0 : Fin 1) j) = 0 := by
  unfold k6_pay3
  simp only [shapeCast_self]
  show Ideal.ofBits .f32 0x00000000#32 = 0
  exact Ideal.ofBits_zero_f32
theorem pay4A6_apply (j : Fin 128) : k6_pay4 (F := Ideal) (ix2 (0 : Fin 1) j) = 0 := by
  unfold k6_pay4
  simp only [shapeCast_self]
  show Ideal.ofBits .f32 0x00000000#32 = 0
  exact Ideal.ofBits_zero_f32

/-! ## A row of the perceptron reads one row of its two tables -/

/-- If row `p` of the short tables is row `r` of the tall ones, the perceptron's row `p` over the short tables is
    its row `r` over the tall ones: each entry reads one row of `h` and of the neighbour sums only. -/
theorem mlpE_rowsA6 {n N : ℕ} (e : Fin 128 → EReal) (a ga : GcnSpec.Arr n 128) (A gA : GcnSpec.Arr N 128)
    (W1 : GcnSpec.Arr 128 128) (c1 : Fin 128 → EReal) (W2 : GcnSpec.Arr 128 128) (c2 : Fin 128 → EReal) (p : Fin n) (r : Fin N)
    (ha : ∀ m, a (ix2 p m) = A (ix2 r m)) (hg : ∀ m, ga (ix2 p m) = gA (ix2 r m)) (q : Fin 128) :
    Gin.mlpE e a ga W1 c1 W2 c2 (ix2 p q) = Gin.mlpE e A gA W1 c1 W2 c2 (ix2 r q) := by
  show MatProd.mm (Gin.lrArr (Gin.affine (Gin.ginIn e a ga) W1 c1)) W2 (ix2 p q) + c2 q
      = MatProd.mm (Gin.lrArr (Gin.affine (Gin.ginIn e A gA) W1 c1)) W2 (ix2 r q) + c2 q
  refine congrArg (· + c2 q) ?_
  rw [MatProd.mm_ix2, MatProd.mm_ix2]
  unfold MatProd.entry
  refine Finset.sum_congr rfl fun l _ => congrArg (· * W2 (ix2 l q)) ?_
  show Gin.lr (MatProd.mm (Gin.ginIn e a ga) W1 (ix2 p l) + c1 l) = Gin.lr (MatProd.mm (Gin.ginIn e A gA) W1 (ix2 r l) + c1 l)
  refine congrArg (fun z => Gin.lr (z + c1 l)) ?_
  rw [MatProd.mm_ix2, MatProd.mm_ix2]
  unfold MatProd.entry
  refine Finset.sum_congr rfl fun m _ => congrArg (· * W1 (ix2 m l)) ?_
  show (Gin.oneC + e m) * a (ix2 p m) + ga (ix2 p m) = (Gin.oneC + e m) * A (ix2 r m) + gA (ix2 r m)
  rw [ha m, hg m]

/-! ## Where the windows' blocks sit in their arrays -/

/-- The index maps over the grid: the two input tables' and the output table's blocks of 5000 rows move together,
    one block a point; -/
theorem idxR6 : ∀ t : Fin cfg6.N, (win6_1.index t (0 : Fin 2) = t.val ∧ win6_1.index t (1 : Fin 2) = 0)
    ∧ (win6_2.index t (0 : Fin 2) = t.val ∧ win6_2.index t (1 : Fin 2) = 0)
    ∧ (win6_7.index t (0 : Fin 2) = t.val ∧ win6_7.index t (1 : Fin 2) = 0) :=
  (by decide +kernel : ∀ t : Fin grid6.N, _)
/-- every other window's block is its whole array at every point. -/
theorem idxF6 : ∀ t : Fin cfg6.N, (win6_0.index t (0 : Fin 2) = 0 ∧ win6_0.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_8.index t (0 : Fin 2) = 0 ∧ win6_8.index t (1 : Fin 2) = 0)
    ∧ (win6_9.index t (0 : Fin 2) = 0 ∧ win6_9.index t (1 : Fin 2) = 0) :=
  (by decide +kernel : ∀ t : Fin grid6.N, _)

/-- The array's row that row `p` of point `t`'s block is. -/
def rowOf6 (t : Fin cfg6.N) (p : Fin 5000) : Fin 100000 :=
  ⟨t.val * 5000 + p.val, by have := lt_of_lt_of_eq t.isLt (show cfg6.N = 20 from N_6); have := p.isLt; omega⟩

theorem embT6_1 (t : Fin cfg6.N) (p : Fin 5000) (q : Fin 128) :
    ((cfg6.win 1).blk t).view.emb (ix2 p q : S5000x128.Idx) = (ix2 (rowOf6 t p) q : S100000x128.Idx) := by
  obtain ⟨⟨e10, e11⟩, ⟨e20, e21⟩, ⟨e70, e71⟩⟩ := idxR6 t
  funext a; apply Fin.ext
  match a with
  | ⟨0, _⟩ => show win6_1.index t (0 : Fin 2) * 5000 + 1 * p.val = t.val * 5000 + p.val; omega
  | ⟨1, _⟩ => show win6_1.index t (1 : Fin 2) * 128 + 1 * q.val = q.val; omega
theorem embT6_2 (t : Fin cfg6.N) (p : Fin 5000) (q : Fin 128) :
    ((cfg6.win 2).blk t).view.emb (ix2 p q : S5000x128.Idx) = (ix2 (rowOf6 t p) q : S100000x128.Idx) := by
  obtain ⟨⟨e10, e11⟩, ⟨e20, e21⟩, ⟨e70, e71⟩⟩ := idxR6 t
  funext a; apply Fin.ext
  match a with
  | ⟨0, _⟩ => show win6_2.index t (0 : Fin 2) * 5000 + 1 * p.val = t.val * 5000 + p.val; omega
  | ⟨1, _⟩ => show win6_2.index t (1 : Fin 2) * 128 + 1 * q.val = q.val; omega
theorem embT6_7 (t : Fin cfg6.N) (p : Fin 5000) (q : Fin 128) :
    ((cfg6.win 7).blk t).view.emb (ix2 p q : S5000x128.Idx) = (ix2 (rowOf6 t p) q : S100000x128.Idx) := by
  obtain ⟨⟨e10, e11⟩, ⟨e20, e21⟩, ⟨e70, e71⟩⟩ := idxR6 t
  funext a; apply Fin.ext
  match a with
  | ⟨0, _⟩ => show win6_7.index t (0 : Fin 2) * 5000 + 1 * p.val = t.val * 5000 + p.val; omega
  | ⟨1, _⟩ => show win6_7.index t (1 : Fin 2) * 128 + 1 * q.val = q.val; omega

theorem embF6_0 (t : Fin cfg6.N) (u : Fin 1) (q : Fin 128) :
    ((cfg6.win 0).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_0.index t (0 : Fin 2) * 1 + 1 * u.val = u.val; omega
  | ⟨1, _⟩ => show win6_0.index t (1 : Fin 2) * 128 + 1 * q.val = q.val; omega
theorem embF6_3 (t : Fin cfg6.N) (u : Fin 128) (q : Fin 128) :
    ((cfg6.win 3).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_3.index t (0 : Fin 2) * 128 + 1 * u.val = u.val; omega
  | ⟨1, _⟩ => show win6_3.index t (1 : Fin 2) * 128 + 1 * q.val = q.val; omega
theorem embF6_4 (t : Fin cfg6.N) (u : Fin 1) (q : Fin 128) :
    ((cfg6.win 4).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_4.index t (0 : Fin 2) * 1 + 1 * u.val = u.val; omega
  | ⟨1, _⟩ => show win6_4.index t (1 : Fin 2) * 128 + 1 * q.val = q.val; omega
theorem embF6_5 (t : Fin cfg6.N) (u : Fin 128) (q : Fin 128) :
    ((cfg6.win 5).blk t).view.emb (ix2 u q : S128x128.Idx) = (ix2 u q : S128x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_5.index t (0 : Fin 2) * 128 + 1 * u.val = u.val; omega
  | ⟨1, _⟩ => show win6_5.index t (1 : Fin 2) * 128 + 1 * q.val = q.val; omega
theorem embF6_6 (t : Fin cfg6.N) (u : Fin 1) (q : Fin 128) :
    ((cfg6.win 6).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_6.index t (0 : Fin 2) * 1 + 1 * u.val = u.val; omega
  | ⟨1, _⟩ => show win6_6.index t (1 : Fin 2) * 128 + 1 * q.val = q.val; omega
theorem embF6_8 (t : Fin cfg6.N) (u : Fin 1) (q : Fin 128) :
    ((cfg6.win 8).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_8.index t (0 : Fin 2) * 1 + 1 * u.val = u.val; omega
  | ⟨1, _⟩ => show win6_8.index t (1 : Fin 2) * 128 + 1 * q.val = q.val; omega
theorem embF6_9 (t : Fin cfg6.N) (u : Fin 1) (q : Fin 128) :
    ((cfg6.win 9).blk t).view.emb (ix2 u q : S1x128.Idx) = (ix2 u q : S1x128.Idx) := by
  obtain ⟨⟨f00, f01⟩, ⟨f30, f31⟩, ⟨f40, f41⟩, ⟨f50, f51⟩, ⟨f60, f61⟩, ⟨f80, f81⟩, ⟨f90, f91⟩⟩ := idxF6 t
  funext x; apply Fin.ext
  match x with
  | ⟨0, _⟩ => show win6_9.index t (0 : Fin 2) * 1 + 1 * u.val = u.val; omega
  | ⟨1, _⟩ => show win6_9.index t (1 : Fin 2) * 128 + 1 * q.val = q.val; omega

section Arrays
variable {F : FTy → Type} [FloatOps F]
variable (V : (c : Dev nD) → (b : Ref sig .tc) → Buf (Elt F) ((c : Thread nD τ).loc b))

/-- Each whole-array input block is its array; each block of rows is the array's rows from `5000 · t`. -/
theorem blkF6_0 (c : Dev nD) (t : Fin cfg6.N) : (iblk6 V c 0 t : S1x128.Idx → Elt F .f32) = V c (Pipeline.arrRef spec6 0) := by
  funext i
  obtain ⟨u, q, rfl⟩ : ∃ (u : Fin 1) (q : Fin 128), i = ix2 u q := ⟨i 0, i 1, eq_ix2 i⟩
  exact congrArg (V c (Pipeline.arrRef spec6 0)) (embF6_0 t u q)
theorem blkF6_3 (c : Dev nD) (t : Fin cfg6.N) : (iblk6 V c 3 t : S128x128.Idx → Elt F .f32) = V c (Pipeline.arrRef spec6 3) := by
  funext i
  obtain ⟨u, q, rfl⟩ : ∃ (u : Fin 128) (q : Fin 128), i = ix2 u q := ⟨i 0, i 1, eq_ix2 i⟩
  exact congrArg (V c (Pipeline.arrRef spec6 3)) (embF6_3 t u q)
theorem blkF6_4 (c : Dev nD) (t : Fin cfg6.N) : (iblk6 V c 4 t : S1x128.Idx → Elt F .f32) = V c (Pipeline.arrRef spec6 4) := by
  funext i
  obtain ⟨u, q, rfl⟩ : ∃ (u : Fin 1) (q : Fin 128), i = ix2 u q := ⟨i 0, i 1, eq_ix2 i⟩
  exact congrArg (V c (Pipeline.arrRef spec6 4)) (embF6_4 t u q)
theorem blkF6_5 (c : Dev nD) (t : Fin cfg6.N) : (iblk6 V c 5 t : S128x128.Idx → Elt F .f32) = V c (Pipeline.arrRef spec6 5) := by
  funext i
  obtain ⟨u, q, rfl⟩ : ∃ (u : Fin 128) (q : Fin 128), i = ix2 u q := ⟨i 0, i 1, eq_ix2 i⟩
  exact congrArg (V c (Pipeline.arrRef spec6 5)) (embF6_5 t u q)
theorem blkF6_6 (c : Dev nD) (t : Fin cfg6.N) : (iblk6 V c 6 t : S1x128.Idx → Elt F .f32) = V c (Pipeline.arrRef spec6 6) := by
  funext i
  obtain ⟨u, q, rfl⟩ : ∃ (u : Fin 1) (q : Fin 128), i = ix2 u q := ⟨i 0, i 1, eq_ix2 i⟩
  exact congrArg (V c (Pipeline.arrRef spec6 6)) (embF6_6 t u q)
theorem blkT6_1 (c : Dev nD) (t : Fin cfg6.N) (p : Fin 5000) (q : Fin 128) :
    iblk6 V c 1 t (ix2 p q) = V c (Pipeline.arrRef spec6 1) (ix2 (rowOf6 t p) q : S100000x128.Idx) :=
  congrArg (V c (Pipeline.arrRef spec6 1)) (embT6_1 t p q)
theorem blkT6_2 (c : Dev nD) (t : Fin cfg6.N) (p : Fin 5000) (q : Fin 128) :
    iblk6 V c 2 t (ix2 p q) = V c (Pipeline.arrRef spec6 2) (ix2 (rowOf6 t p) q : S100000x128.Idx) :=
  congrArg (V c (Pipeline.arrRef spec6 2)) (embT6_2 t p q)

/-! ## Windows 8 and 9: the one write-back, after the last point, writes the running rows -/

theorem last6_of_flush (t : Fin cfg6.N) (h : t.val % 20 = 19) : t.val = 19 := by
  have := lt_of_lt_of_eq t.isLt (show cfg6.N = 20 from N_6); omega

theorem flushed6_8_eq (c : Dev nD) (t : Fin cfg6.N) (hf : (cfg6.win 8).flush t = true) :
    (dat6 V c).flushed 8 t = ((cfg6.win 8).blk t).view.read (Elt F) (sumAt6 V c 20 : S1x128.Idx → Elt F .f32) := by
  have h19 : t.val = 19 := last6_of_flush t ((flush6_8 t).mp hf)
  show (cfg6.win 8).cut (grid6.coords t) ((dat6 V c).after 8 t) = _
  rw [after6_8, h19]
  funext i
  obtain ⟨u, q, rfl⟩ : ∃ (u : Fin 1) (q : Fin 128), i = ix2 u q := ⟨i 0, i 1, eq_ix2 i⟩
  exact (congrArg (sumAt6 V c 20 : S1x128.Idx → Elt F .f32) (embF6_8 t u q)).symm

theorem covered6_8 (i : S1x128.Idx) : ∃ t : Fin cfg6.N, (cfg6.win 8).flush t = true ∧ i ∈ ((cfg6.win 8).blk t).view.set := by
  have hi0 : (i 0).val < 1 := (i 0).isLt
  have hi1 : (i 1).val < 128 := (i 1).isLt
  have hlt : 19 < cfg6.N := by rw [show cfg6.N = 20 from N_6]; omega
  obtain ⟨⟨f00, f01⟩, ⟨f30, f31⟩, ⟨f40, f41⟩, ⟨f50, f51⟩, ⟨f60, f61⟩, ⟨f80, f81⟩, ⟨f90, f91⟩⟩ := idxF6 ⟨19, hlt⟩
  refine ⟨⟨19, hlt⟩, (flush6_8 _).mpr rfl, ?_⟩
  show i ∈ ((View.whole main_v163_1).slice (win6_8.rect ⟨19, hlt⟩)).set
  rw [View.set_slice_whole, Rect.mem_set_unit]
  intro a
  match a with
  | ⟨0, _⟩ => show win6_8.index ⟨19, hlt⟩ (0 : Fin 2) * 1 ≤ (i 0).val ∧ (i 0).val < win6_8.index ⟨19, hlt⟩ (0 : Fin 2) * 1 + 1; omega
  | ⟨1, _⟩ => show win6_8.index ⟨19, hlt⟩ (1 : Fin 2) * 128 ≤ (i 1).val ∧ (i 1).val < win6_8.index ⟨19, hlt⟩ (1 : Fin 2) * 128 + 128; omega

/-- THE ARRAY of window 8 after the region: the running row after all 20 points. -/
theorem arr6_8 (c : Dev nD) : (dat6 V c).arrAt 8 cfg6.N = (sumAt6 V c 20 : S1x128.Idx → Elt F .f32) :=
  (dat6 V c).arrAt_eq_of_cover 8 _ (flushed6_8_eq V c) covered6_8

theorem flushed6_9_eq (c : Dev nD) (t : Fin cfg6.N) (hf : (cfg6.win 9).flush t = true) :
    (dat6 V c).flushed 9 t = ((cfg6.win 9).blk t).view.read (Elt F) (sqAt6 V c 20 : S1x128.Idx → Elt F .f32) := by
  have h19 : t.val = 19 := last6_of_flush t ((flush6_9 t).mp hf)
  show (cfg6.win 9).cut (grid6.coords t) ((dat6 V c).after 9 t) = _
  rw [after6_9, h19]
  funext i
  obtain ⟨u, q, rfl⟩ : ∃ (u : Fin 1) (q : Fin 128), i = ix2 u q := ⟨i 0, i 1, eq_ix2 i⟩
  exact (congrArg (sqAt6 V c 20 : S1x128.Idx → Elt F .f32) (embF6_9 t u q)).symm

theorem covered6_9 (i : S1x128.Idx) : ∃ t : Fin cfg6.N, (cfg6.win 9).flush t = true ∧ i ∈ ((cfg6.win 9).blk t).view.set := by
  have hi0 : (i 0).val < 1 := (i 0).isLt
  have hi1 : (i 1).val < 128 := (i 1).isLt
  have hlt : 19 < cfg6.N := by rw [show cfg6.N = 20 from N_6]; omega
  obtain ⟨⟨f00, f01⟩, ⟨f30, f31⟩, ⟨f40, f41⟩, ⟨f50, f51⟩, ⟨f60, f61⟩, ⟨f80, f81⟩, ⟨f90, f91⟩⟩ := idxF6 ⟨19, hlt⟩
  refine ⟨⟨19, hlt⟩, (flush6_9 _).mpr rfl, ?_⟩
  show i ∈ ((View.whole main_v163_2).slice (win6_9.rect ⟨19, hlt⟩)).set
  rw [View.set_slice_whole, Rect.mem_set_unit]
  intro a
  match a with
  | ⟨0, _⟩ => show win6_9.index ⟨19, hlt⟩ (0 : Fin 2) * 1 ≤ (i 0).val ∧ (i 0).val < win6_9.index ⟨19, hlt⟩ (0 : Fin 2) * 1 + 1; omega
  | ⟨1, _⟩ => show win6_9.index ⟨19, hlt⟩ (1 : Fin 2) * 128 ≤ (i 1).val ∧ (i 1).val < win6_9.index ⟨19, hlt⟩ (1 : Fin 2) * 128 + 128; omega

/-- THE ARRAY of window 9 after the region: the running row after all 20 points. -/
theorem arr6_9 (c : Dev nD) : (dat6 V c).arrAt 9 cfg6.N = (sqAt6 V c 20 : S1x128.Idx → Elt F .f32) :=
  (dat6 V c).arrAt_eq_of_cover 9 _ (flushed6_9_eq V c) covered6_9

/-! ## Window 7: every point writes its tile of rows -/

theorem covered6_7 (i : S100000x128.Idx) : ∃ t : Fin cfg6.N, (cfg6.win 7).flush t = true ∧ i ∈ ((cfg6.win 7).blk t).view.set := by
  have hi0 : (i 0).val < 100000 := (i 0).isLt
  have hi1 : (i 1).val < 128 := (i 1).isLt
  have hN : cfg6.N = 20 := N_6
  have hlt : (i 0).val / 5000 < cfg6.N := by rw [hN]; omega
  obtain ⟨⟨e10, e11⟩, ⟨e20, e21⟩, ⟨e70, e71⟩⟩ := idxR6 ⟨(i 0).val / 5000, hlt⟩
  have e70' : win6_7.index ⟨(i 0).val / 5000, hlt⟩ (0 : Fin 2) = (i 0).val / 5000 := e70
  refine ⟨⟨(i 0).val / 5000, hlt⟩, flush6_7 _, ?_⟩
  show i ∈ ((View.whole main_v163_0).slice (win6_7.rect ⟨(i 0).val / 5000, hlt⟩)).set
  rw [View.set_slice_whole, Rect.mem_set_unit]
  intro a
  match a with
  | ⟨0, _⟩ => show win6_7.index ⟨(i 0).val / 5000, hlt⟩ (0 : Fin 2) * 5000 ≤ (i 0).val ∧ (i 0).val < win6_7.index ⟨(i 0).val / 5000, hlt⟩ (0 : Fin 2) * 5000 + 5000; omega
  | ⟨1, _⟩ => show win6_7.index ⟨(i 0).val / 5000, hlt⟩ (1 : Fin 2) * 128 ≤ (i 1).val ∧ (i 1).val < win6_7.index ⟨(i 0).val / 5000, hlt⟩ (1 : Fin 2) * 128 + 128; omega

end Arrays

/-! ## The values at the extended reals -/

/-- The rows before normalisation of all 100000 nodes: the layer's perceptron of the arrays the region finds. -/
def G7_6 (V : (c : Dev nD) → (b : Ref sig .tc) → Buf (Elt Ideal) ((c : Thread nD τ).loc b)) (c : Dev nD) : S100000x128.Idx → EReal :=
  Gin.mlpE (fun j => ((V c (Pipeline.arrRef spec6 0)) : S1x128.Idx → EReal) (ix2 (0 : Fin 1) j)) ((V c (Pipeline.arrRef spec6 1)) : S100000x128.Idx → EReal) ((V c (Pipeline.arrRef spec6 2)) : S100000x128.Idx → EReal)
      ((V c (Pipeline.arrRef spec6 3)) : S128x128.Idx → EReal) (fun j => ((V c (Pipeline.arrRef spec6 4)) : S1x128.Idx → EReal) (ix2 (0 : Fin 1) j)) ((V c (Pipeline.arrRef spec6 5)) : S128x128.Idx → EReal)
      (fun j => ((V c (Pipeline.arrRef spec6 6)) : S1x128.Idx → EReal) (ix2 (0 : Fin 1) j))

/-- Tile `t`'s rows are rows `5000 · t …` of it. -/
theorem hpre6_apply (V : (c : Dev nD) → (b : Ref sig .tc) → Buf (Elt Ideal) ((c : Thread nD τ).loc b)) (c : Dev nD) (t : Fin cfg6.N) (p : Fin 5000) (q : Fin 128) :
    hpre6 (F := Ideal) V c t (ix2 p q) = G7_6 V c (ix2 (rowOf6 t p) q) := by
  unfold hpre6 G7_6
  rw [pay5A6_eq, blkF6_0, blkF6_3, blkF6_4, blkF6_5, blkF6_6]
  exact mlpE_rowsA6 _ _ _ _ _ _ _ _ _ p (rowOf6 t p) (fun m => blkT6_1 V c t p m) (fun m => blkT6_2 V c t p m) q

theorem flushed6_7_eq (V : (c : Dev nD) → (b : Ref sig .tc) → Buf (Elt Ideal) ((c : Thread nD τ).loc b)) (c : Dev nD) (t : Fin cfg6.N) :
    (dat6 (F := Ideal) V c).flushed 7 t = ((cfg6.win 7).blk t).view.read (Elt Ideal) (G7_6 V c) := by
  show (cfg6.win 7).cut (grid6.coords t) ((dat6 V c).after 7 t) = _
  rw [after6_7]
  funext i
  obtain ⟨p, q, rfl⟩ : ∃ (p : Fin 5000) (q : Fin 128), i = ix2 p q := ⟨i 0, i 1, eq_ix2 i⟩
  refine (hpre6_apply V c t p q).trans ?_
  exact (congrArg (G7_6 V c) (embT6_7 t p q)).symm

/-- THE ARRAY of window 7 after the region, at the extended reals: the perceptron's rows of all nodes. -/
theorem final6_7 (V : (c : Dev nD) → (b : Ref sig .tc) → Buf (Elt Ideal) ((c : Thread nD τ).loc b)) (c : Dev nD) :
    (dat6 (F := Ideal) V c).arrAt 7 cfg6.N
      = Gin.mlpE (fun j => ((V c (Pipeline.arrRef spec6 0)) : S1x128.Idx → EReal) (ix2 (0 : Fin 1) j)) ((V c (Pipeline.arrRef spec6 1)) : S100000x128.Idx → EReal) ((V c (Pipeline.arrRef spec6 2)) : S100000x128.Idx → EReal)
      ((V c (Pipeline.arrRef spec6 3)) : S128x128.Idx → EReal) (fun j => ((V c (Pipeline.arrRef spec6 4)) : S1x128.Idx → EReal) (ix2 (0 : Fin 1) j)) ((V c (Pipeline.arrRef spec6 5)) : S128x128.Idx → EReal)
      (fun j => ((V c (Pipeline.arrRef spec6 6)) : S1x128.Idx → EReal) (ix2 (0 : Fin 1) j)) :=
  (dat6 V c).arrAt_eq_of_cover 7 (G7_6 V c) (fun t _ => flushed6_7_eq V c t) covered6_7

/-- A function of an entry of it, by its row's number, zero past the table: the summand of the tile sums. -/
def colF6 (V : (c : Dev nD) → (b : Ref sig .tc) → Buf (Elt Ideal) ((c : Thread nD τ).loc b)) (c : Dev nD) (g : EReal → EReal) (j : Fin 128) (k : ℕ) : EReal :=
  if h : k < 100000 then g (G7_6 V c (ix2 ⟨k, h⟩ j)) else 0

theorem colF6_row (V : (c : Dev nD) → (b : Ref sig .tc) → Buf (Elt Ideal) ((c : Thread nD τ).loc b)) (c : Dev nD) (g : EReal → EReal) (j : Fin 128) (r : Fin 100000) :
    colF6 V c g j r.val = g (G7_6 V c (ix2 r j)) := by
  unfold colF6; rw [dif_pos r.isLt]

/-- The running rows after `n` points: the sums over the first `n` tiles' rows. -/
theorem sumAt6_apply (V : (c : Dev nD) → (b : Ref sig .tc) → Buf (Elt Ideal) ((c : Thread nD τ).loc b)) (c : Dev nD) (j : Fin 128) : ∀ n, n ≤ 20 →
    sumAt6 (F := Ideal) V c n (ix2 (0 : Fin 1) j) = ∑ J ∈ Finset.range n, ∑ b : Fin 5000, colF6 V c (fun x => x) j (J * 5000 + b.val)
  | 0, _ => by rw [sumAt6_zero, pay3A6_apply, Finset.range_zero, Finset.sum_empty]
  | n + 1, hn => by
    have hlt : n < cfg6.N := by rw [show cfg6.N = 20 from N_6]; omega
    rw [sumAt6_succ V c ⟨n, hlt⟩, pay1A6_apply, Finset.sum_range_succ]
    show sumAt6 V c n (ix2 (0 : Fin 1) j) + _ = _
    rw [sumAt6_apply V c j n (by omega)]
    refine congrArg (_ + ·) (Finset.sum_congr rfl fun b _ => ?_)
    rw [hpre6_apply]
    exact (colF6_row V c (fun x => x) j (rowOf6 ⟨n, hlt⟩ b)).symm
theorem sqAt6_apply (V : (c : Dev nD) → (b : Ref sig .tc) → Buf (Elt Ideal) ((c : Thread nD τ).loc b)) (c : Dev nD) (j : Fin 128) : ∀ n, n ≤ 20 →
    sqAt6 (F := Ideal) V c n (ix2 (0 : Fin 1) j) = ∑ J ∈ Finset.range n, ∑ b : Fin 5000, colF6 V c (fun x => x * x) j (J * 5000 + b.val)
  | 0, _ => by rw [sqAt6_zero, pay4A6_apply, Finset.range_zero, Finset.sum_empty]
  | n + 1, hn => by
    have hlt : n < cfg6.N := by rw [show cfg6.N = 20 from N_6]; omega
    rw [sqAt6_succ V c ⟨n, hlt⟩, pay2A6_apply, Finset.sum_range_succ]
    show sqAt6 V c n (ix2 (0 : Fin 1) j) + _ = _
    rw [sqAt6_apply V c j n (by omega)]
    refine congrArg (_ + ·) (Finset.sum_congr rfl fun b _ => ?_)
    rw [hpre6_apply]
    exact (colF6_row V c (fun x => x * x) j (rowOf6 ⟨n, hlt⟩ b)).symm

/-- Twenty tiles of 5000 rows are the 100000 rows. -/
theorem tiles6 (V : (c : Dev nD) → (b : Ref sig .tc) → Buf (Elt Ideal) ((c : Thread nD τ).loc b)) (c : Dev nD) (g : EReal → EReal) (j : Fin 128) :
    ∑ J ∈ Finset.range 20, ∑ b : Fin 5000, colF6 V c g j (J * 5000 + b.val) = ∑ r : Fin 100000, g (G7_6 V c (ix2 r j)) := by
  rw [← Fin.sum_univ_eq_sum_range (fun J => ∑ b : Fin 5000, colF6 V c g j (J * 5000 + b.val)) 20]
  refine (Tiles.sum_tiles 20 5000 (colF6 V c g j)).trans ?_
  exact Finset.sum_congr rfl fun r _ => colF6_row V c g j r

/-- The three output arrays after the region, at the extended reals, as tables of extended reals. -/
def out7_6 (V : (c : Dev nD) → (b : Ref sig .tc) → Buf (Elt Ideal) ((c : Thread nD τ).loc b)) (c : Dev nD) : S100000x128.Idx → EReal := (dat6 (F := Ideal) V c).arrAt 7 cfg6.N
def out8_6 (V : (c : Dev nD) → (b : Ref sig .tc) → Buf (Elt Ideal) ((c : Thread nD τ).loc b)) (c : Dev nD) : S1x128.Idx → EReal := (dat6 (F := Ideal) V c).arrAt 8 cfg6.N
def out9_6 (V : (c : Dev nD) → (b : Ref sig .tc) → Buf (Elt Ideal) ((c : Thread nD τ).loc b)) (c : Dev nD) : S1x128.Idx → EReal := (dat6 (F := Ideal) V c).arrAt 9 cfg6.N

theorem out7_6_eq (V : (c : Dev nD) → (b : Ref sig .tc) → Buf (Elt Ideal) ((c : Thread nD τ).loc b)) (c : Dev nD) : out7_6 V c = G7_6 V c := final6_7 V c

/-- The array of window 8 after the region, at the extended reals: each column's sum over all 100000 rows of
    window 7's array. -/
theorem final6_8 (V : (c : Dev nD) → (b : Ref sig .tc) → Buf (Elt Ideal) ((c : Thread nD τ).loc b)) (c : Dev nD) (j : Fin 128) :
    out8_6 V c (ix2 (0 : Fin 1) j) = ∑ r : Fin 100000, out7_6 V c (ix2 r j) := by
  rw [out7_6_eq]
  unfold out8_6
  rw [arr6_8]
  exact (sumAt6_apply V c j 20 (le_refl _)).trans (tiles6 V c (fun x => x) j)

/-- The array of window 9: each column's sum of squares over all 100000 rows of window 7's array. -/
theorem final6_9 (V : (c : Dev nD) → (b : Ref sig .tc) → Buf (Elt Ideal) ((c : Thread nD τ).loc b)) (c : Dev nD) (j : Fin 128) :
    out9_6 V c (ix2 (0 : Fin 1) j) = ∑ r : Fin 100000, out7_6 V c (ix2 r j) * out7_6 V c (ix2 r j) := by
  rw [out7_6_eq]
  unfold out9_6
  rw [arr6_9]
  exact (sqAt6_apply V c j 20 (le_refl _)).trans (tiles6 V c (fun x => x * x) j)

end Cert.KernelIdeal.Hand

end
-- ==== Proof.KI.NetLayerA.lean ====
/- The four layers joined, with the first regions' tables and sums as the region modules state them. -/
import proofs.«116561_j3624952397847_1_alg».proof.Proof.KI.NetLayer
import proofs.«116561_j3624952397847_1_alg».proof.Proof.KI.ValA0
import proofs.«116561_j3624952397847_1_alg».proof.Proof.KI.ValA2
import proofs.«116561_j3624952397847_1_alg».proof.Proof.KI.ValA4
import proofs.«116561_j3624952397847_1_alg».proof.Proof.KI.ValA6

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Layer 0 -/

theorem preT0_eq (c : Dev nD) : preT0 m ρ c = out7_0 (U2 m ρ) c := W3_arr m ρ c 7
theorem sumT0_eq (c : Dev nD) : sumT0 m ρ c = out8_0 (U2 m ρ) c := W3_arr m ρ c 8
theorem sqT0_eq (c : Dev nD) : sqT0 m ρ c = out9_0 (U2 m ρ) c := W3_arr m ρ c 9

theorem layer0_final (c : Dev nD)
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  layer0_out m ρ c ((preT0_eq m ρ c).trans (out7_0_eq (U2 m ρ) c))
    (fun j => by rw [sumT0_eq, preT0_eq]; exact final0_8 (U2 m ρ) c j)
    (fun j => by rw [sqT0_eq, preT0_eq]; exact final0_9 (U2 m ρ) c j)
    r3 r4 r5 r6 r7 r8 r9

/-! ## Layer 1 -/

theorem preT1_eq (c : Dev nD) : preT1 m ρ c = out7_2 (U6 m ρ) c := W7_arr m ρ c 7
theorem sumT1_eq (c : Dev nD) : sumT1 m ρ c = out8_2 (U6 m ρ) c := W7_arr m ρ c 8
theorem sqT1_eq (c : Dev nD) : sqT1 m ρ c = out9_2 (U6 m ρ) c := W7_arr m ρ c 9

theorem layer1_final (c : Dev nD) (hprev : (U5 m ρ c main_v49 : S100000x128.Idx → EReal) = Cert.ReferenceIdeal.Hand.h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  layer1_out m ρ c hprev ((preT1_eq m ρ c).trans (out7_2_eq (U6 m ρ) c))
    (fun j => by rw [sumT1_eq, preT1_eq]; exact final2_8 (U6 m ρ) c j)
    (fun j => by rw [sqT1_eq, preT1_eq]; exact final2_9 (U6 m ρ) c j)
    r3 r4 r5 r6 r7 r8 r9

/-! ## Layer 2 -/

theorem preT2_eq (c : Dev nD) : preT2 m ρ c = out7_4 (U10 m ρ) c := W11_arr m ρ c 7
theorem sumT2_eq (c : Dev nD) : sumT2 m ρ c = out8_4 (U10 m ρ) c := W11_arr m ρ c 8
theorem sqT2_eq (c : Dev nD) : sqT2 m ρ c = out9_4 (U10 m ρ) c := W11_arr m ρ c 9

theorem layer2_final (c : Dev nD) (hprev : (U9 m ρ c main_v94 : S100000x128.Idx → EReal) = Cert.ReferenceIdeal.Hand.h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  layer2_out m ρ c hprev ((preT2_eq m ρ c).trans (out7_4_eq (U10 m ρ) c))
    (fun j => by rw [sumT2_eq, preT2_eq]; exact final4_8 (U10 m ρ) c j)
    (fun j => by rw [sqT2_eq, preT2_eq]; exact final4_9 (U10 m ρ) c j)
    r3 r4 r5 r6 r7 r8 r9

/-! ## Layer 3 -/

theorem preT3_eq (c : Dev nD) : preT3 m ρ c = out7_6 (U14 m ρ) c := W15_arr m ρ c 7
theorem sumT3_eq (c : Dev nD) : sumT3 m ρ c = out8_6 (U14 m ρ) c := W15_arr m ρ c 8
theorem sqT3_eq (c : Dev nD) : sqT3 m ρ c = out9_6 (U14 m ρ) c := W15_arr m ρ c 9

theorem layer3_final (c : Dev nD) (hprev : (U13 m ρ c main_v139 : S100000x128.Idx → EReal) = Cert.ReferenceIdeal.Hand.h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (r3 : ∀ i, SegSum.IsReal ((m ((c.tc : Thread nD τ).loc main_arg3) : S4.Idx → EReal) i))
    (r4 : ∀ i, SegSum.IsReal ((m ((c.tc : Thread nD τ).loc main_arg4) : S4x128x128.Idx → EReal) i))
    (r5 : ∀ i, SegSum.IsReal ((m ((c.tc : Thread nD τ).loc main_arg5) : S4x128.Idx → EReal) i))
    (r6 : ∀ i, SegSum.IsReal ((m ((c.tc : Thread nD τ).loc main_arg6) : S4x128x128.Idx → EReal) i))
    (r7 : ∀ i, SegSum.IsReal ((m ((c.tc : Thread nD τ).loc main_arg7) : S4x128.Idx → EReal) i))
    (r8 : ∀ i, SegSum.IsReal ((m ((c.tc : Thread nD τ).loc main_arg8) : S4x128.Idx → EReal) i))
    (r9 : ∀ i, SegSum.IsReal ((m ((c.tc : Thread nD τ).loc main_arg9) : S4x128.Idx → EReal) i)) :
    (U17 m ρ c main_v184 : S100000x128.Idx → EReal) = Cert.ReferenceIdeal.Hand.h4 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  layer3_out m ρ c hprev ((preT3_eq m ρ c).trans (out7_6_eq (U14 m ρ) c))
    (fun j => by rw [sumT3_eq, preT3_eq]; exact final6_8 (U14 m ρ) c j)
    (fun j => by rw [sqT3_eq, preT3_eq]; exact final6_9 (U14 m ρ) c j)
    r3 r4 r5 r6 r7 r8 r9

end Cert.KernelIdeal.Hand

end
-- ==== Proof.KI.ValC8.lean ====
/- Region 8's value: the array its output window's one write-back leaves is the body's payload of the five arrays
   its input windows read (each window's block is its whole array, the grid one point). -/
import proofs.«116561_j3624952397847_1_alg».proof.Proof.KI.RegC8
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The whole-shape rectangle's offsets are zero. -/
theorem hz8 : (![0, 0] : Fin 2 → Nat) = fun _ => 0 := funext fun a => by fin_cases a <;> rfl

/-- Every window's block index at the grid's one point is zero on both axes. -/
theorem idx_facts8 : ∀ t : Fin cfg8.N, (win8_0.index t (0 : Fin 2) = 0 ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0) :=
  (by decide +kernel : ∀ t : Fin grid8.N, _)

/-- So an element of a window's block has the same coordinates in the window's array. -/
theorem emb8_0 (t : Fin cfg8.N) (p : Fin 64) (q : Fin 640) :
    ((cfg8.win 0).blk t).view.emb (ix2 p q : S64x640.Idx) = (ix2 p q : S64x640.Idx) := by
  obtain ⟨e0, e1⟩ := (idx_facts8 t).1
  funext a; apply Fin.ext
  match a with
  | ⟨0, _⟩ => show win8_0.index t (0 : Fin 2) * 64 + 1 * p.val = p.val; omega
  | ⟨1, _⟩ => show win8_0.index t (1 : Fin 2) * 640 + 1 * q.val = q.val; omega
theorem emb8_1 (t : Fin cfg8.N) (p : Fin 640) (q : Fin 256) :
    ((cfg8.win 1).blk t).view.emb (ix2 p q : S640x256.Idx) = (ix2 p q : S640x256.Idx) := by
  obtain ⟨e0, e1⟩ := (idx_facts8 t).2.1
  funext a; apply Fin.ext
  match a with
  | ⟨0, _⟩ => show win8_1.index t (0 : Fin 2) * 640 + 1 * p.val = p.val; omega
  | ⟨1, _⟩ => show win8_1.index t (1 : Fin 2) * 256 + 1 * q.val = q.val; omega
theorem emb8_2 (t : Fin cfg8.N) (p : Fin 1) (q : Fin 256) :
    ((cfg8.win 2).blk t).view.emb (ix2 p q : S1x256.Idx) = (ix2 p q : S1x256.Idx) := by
  obtain ⟨e0, e1⟩ := (idx_facts8 t).2.2.1
  funext a; apply Fin.ext
  match a with
  | ⟨0, _⟩ => show win8_2.index t (0 : Fin 2) * 1 + 1 * p.val = p.val; omega
  | ⟨1, _⟩ => show win8_2.index t (1 : Fin 2) * 256 + 1 * q.val = q.val; omega
theorem emb8_3 (t : Fin cfg8.N) (p : Fin 256) (q : Fin 10) :
    ((cfg8.win 3).blk t).view.emb (ix2 p q : S256x10.Idx) = (ix2 p q : S256x10.Idx) := by
  obtain ⟨e0, e1⟩ := (idx_facts8 t).2.2.2.1
  funext a; apply Fin.ext
  match a with
  | ⟨0, _⟩ => show win8_3.index t (0 : Fin 2) * 256 + 1 * p.val = p.val; omega
  | ⟨1, _⟩ => show win8_3.index t (1 : Fin 2) * 10 + 1 * q.val = q.val; omega
theorem emb8_4 (t : Fin cfg8.N) (p : Fin 1) (q : Fin 10) :
    ((cfg8.win 4).blk t).view.emb (ix2 p q : S1x10.Idx) = (ix2 p q : S1x10.Idx) := by
  obtain ⟨e0, e1⟩ := (idx_facts8 t).2.2.2.2.1
  funext a; apply Fin.ext
  match a with
  | ⟨0, _⟩ => show win8_4.index t (0 : Fin 2) * 1 + 1 * p.val = p.val; omega
  | ⟨1, _⟩ => show win8_4.index t (1 : Fin 2) * 10 + 1 * q.val = q.val; omega
theorem emb8_5 (t : Fin cfg8.N) (p : Fin 64) (q : Fin 10) :
    ((cfg8.win 5).blk t).view.emb (ix2 p q : S64x10.Idx) = (ix2 p q : S64x10.Idx) := by
  obtain ⟨e0, e1⟩ := (idx_facts8 t).2.2.2.2.2
  funext a; apply Fin.ext
  match a with
  | ⟨0, _⟩ => show win8_5.index t (0 : Fin 2) * 64 + 1 * p.val = p.val; omega
  | ⟨1, _⟩ => show win8_5.index t (1 : Fin 2) * 10 + 1 * q.val = q.val; omega

/-- So each input window's block is its array as the region finds it. -/
theorem iblk8_0_eq (V : (c : Dev nD) → (b : Ref sig .tc) → Buf (Elt F) ((c : Thread nD τ).loc b)) (c : Dev nD) (t : Fin cfg8.N) :
    (iblk8 V c 0 t : S64x640.Idx → Elt F .f32) = V c (Pipeline.arrRef spec8 0) := by
  funext y
  obtain ⟨p, q, rfl⟩ : ∃ (p : Fin 64) (q : Fin 640), y = ix2 p q := ⟨y 0, y 1, eq_ix2 y⟩
  exact congrArg (V c (Pipeline.arrRef spec8 0)) (emb8_0 t p q)
theorem iblk8_1_eq (V : (c : Dev nD) → (b : Ref sig .tc) → Buf (Elt F) ((c : Thread nD τ).loc b)) (c : Dev nD) (t : Fin cfg8.N) :
    (iblk8 V c 1 t : S640x256.Idx → Elt F .f32) = V c (Pipeline.arrRef spec8 1) := by
  funext y
  obtain ⟨p, q, rfl⟩ : ∃ (p : Fin 640) (q : Fin 256), y = ix2 p q := ⟨y 0, y 1, eq_ix2 y⟩
  exact congrArg (V c (Pipeline.arrRef spec8 1)) (emb8_1 t p q)
theorem iblk8_2_eq (V : (c : Dev nD) → (b : Ref sig .tc) → Buf (Elt F) ((c : Thread nD τ).loc b)) (c : Dev nD) (t : Fin cfg8.N) :
    (iblk8 V c 2 t : S1x256.Idx → Elt F .f32) = V c (Pipeline.arrRef spec8 2) := by
  funext y
  obtain ⟨p, q, rfl⟩ : ∃ (p : Fin 1) (q : Fin 256), y = ix2 p q := ⟨y 0, y 1, eq_ix2 y⟩
  exact congrArg (V c (Pipeline.arrRef spec8 2)) (emb8_2 t p q)
theorem iblk8_3_eq (V : (c : Dev nD) → (b : Ref sig .tc) → Buf (Elt F) ((c : Thread nD τ).loc b)) (c : Dev nD) (t : Fin cfg8.N) :
    (iblk8 V c 3 t : S256x10.Idx → Elt F .f32) = V c (Pipeline.arrRef spec8 3) := by
  funext y
  obtain ⟨p, q, rfl⟩ : ∃ (p : Fin 256) (q : Fin 10), y = ix2 p q := ⟨y 0, y 1, eq_ix2 y⟩
  exact congrArg (V c (Pipeline.arrRef spec8 3)) (emb8_3 t p q)
theorem iblk8_4_eq (V : (c : Dev nD) → (b : Ref sig .tc) → Buf (Elt F) ((c : Thread nD τ).loc b)) (c : Dev nD) (t : Fin cfg8.N) :
    (iblk8 V c 4 t : S1x10.Idx → Elt F .f32) = V c (Pipeline.arrRef spec8 4) := by
  funext y
  obtain ⟨p, q, rfl⟩ : ∃ (p : Fin 1) (q : Fin 10), y = ix2 p q := ⟨y 0, y 1, eq_ix2 y⟩
  exact congrArg (V c (Pipeline.arrRef spec8 4)) (emb8_4 t p q)

/-- So the payload of the five blocks is the payload of the five arrays. -/
theorem pay8_blocks (V : (c : Dev nD) → (b : Ref sig .tc) → Buf (Elt F) ((c : Thread nD τ).loc b)) (c : Dev nD) (t : Fin cfg8.N) :
    k8_pay1 (iblk8 V c 0 t) (iblk8 V c 1 t) (iblk8 V c 2 t) (iblk8 V c 3 t) (iblk8 V c 4 t) = k8_pay1 (V c (Pipeline.arrRef spec8 0)) (V c (Pipeline.arrRef spec8 1)) (V c (Pipeline.arrRef spec8 2)) (V c (Pipeline.arrRef spec8 3)) (V c (Pipeline.arrRef spec8 4)) :=
  congr (congr (congr (congr (congrArg (k8_pay1 (F := F)) (iblk8_0_eq V c t)) (iblk8_1_eq V c t)) (iblk8_2_eq V c t)) (iblk8_3_eq V c t)) (iblk8_4_eq V c t)

/-- What the grid's point writes back is the payload of the five arrays, read through the output window's block. -/
theorem flushed8_5_eq (V : (c : Dev nD) → (b : Ref sig .tc) → Buf (Elt F) ((c : Thread nD τ).loc b)) (c : Dev nD) (t : Fin cfg8.N) :
    (dat8 V c).flushed 5 t = ((cfg8.win 5).blk t).view.read (Elt F)
      (k8_pay1 (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero hz8]
  simp only [View.ld_unit_zero (S := S64x640) hz8, View.ld_unit_zero (S := S640x256) hz8, View.ld_unit_zero (S := S1x256) hz8,
    View.ld_unit_zero (S := S256x10) hz8, View.ld_unit_zero (S := S1x10) hz8]
  funext j
  obtain ⟨p, q, rfl⟩ : ∃ (p : Fin 64) (q : Fin 10), j = ix2 p q := ⟨j 0, j 1, eq_ix2 j⟩
  refine (congrFun (pay8_blocks V c t) (ix2 p q)).trans ?_
  exact (congrArg (k8_pay1 (V c (Pipeline.arrRef spec8 0)) (V c (Pipeline.arrRef spec8 1)) (V c (Pipeline.arrRef spec8 2)) (V c (Pipeline.arrRef spec8 3)) (V c (Pipeline.arrRef spec8 4))) (emb8_5 t p q)).symm

/-- The one point's block is the whole output array. -/
theorem covered8_5 (i : S64x10.Idx) :
    ∃ t : Fin cfg8.N, (cfg8.win 5).flush t = true ∧ i ∈ ((cfg8.win 5).blk t).view.set := by
  obtain ⟨p, q, rfl⟩ : ∃ (p : Fin 64) (q : Fin 10), i = ix2 p q := ⟨i 0, i 1, eq_ix2 i⟩
  refine ⟨t8_0, flush8_5 _, ?_⟩
  rw [← emb8_5 t8_0 p q]
  exact Finset.mem_map_of_mem _ (Finset.mem_univ _)

/-- THE ARRAY after the region: the payload of the five arrays the input windows read, as the region finds them. -/
theorem final8_5_pay (V : (c : Dev nD) → (b : Ref sig .tc) → Buf (Elt F) ((c : Thread nD τ).loc b)) (c : Dev nD) :
    (dat8 V c).arrAt 5 cfg8.N = k8_pay1 (V c (Pipeline.arrRef spec8 0)) (V c (Pipeline.arrRef spec8 1)) (V c (Pipeline.arrRef spec8 2)) (V c (Pipeline.arrRef spec8 3)) (V c (Pipeline.arrRef spec8 4)) :=
  (dat8 V c).arrAt_eq_of_cover 5 _ (fun t _ => flushed8_5_eq V c t) covered8_5

end Cert.KernelIdeal.Hand

end
-- ==== Proof.KI.BridgeC8.lean ====
/- Region 8's value at the extended reals: the classifier's payload is two affine maps (a product of arrays plus a row
   of biases laid along every row) with the leaky rectifier between them; narrowing an operand's format is the
   identity on extended reals, and a matrix product accumulated onto the zero array is the product of arrays. -/
import proofs.«116561_j3624952397847_1_alg».proof.Proof.KI.ValC8
import proofs.«116561_j3624952397847_1_alg».proof.Proof.LibProdRows
import proofs.«116561_j3624952397847_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The two products contract the left operand's columns against the right operand's rows. -/
theorem plain8_a : MatProd.Plain dot_S64x640_S640x256_S64x256_1_0_0_1_n_n :=
  ⟨rfl, rfl, fun _ _ => rfl, fun _ _ => rfl, fun _ _ => rfl, fun _ _ => rfl⟩
theorem plain8_b : MatProd.Plain dot_S64x256_S256x10_S64x10_1_0_0_1_n_n :=
  ⟨rfl, rfl, fun _ _ => rfl, fun _ _ => rfl, fun _ _ => rfl, fun _ _ => rfl⟩

/-- The hidden layer: the first affine map, then the leaky rectifier, entry by entry. -/
theorem hidden8 (x0 : Vec Ideal S64x640 .f32) (x1 : Vec Ideal S640x256 .f32) (x2 : Vec Ideal S1x256 .f32) (r : Fin 64) (j : Fin 256) :
    (select (cmpf .oge (addf (matmul dot_S64x640_S640x256_S64x256_1_0_0_1_n_n none (truncf .bf16 x0 bitsLt_bf16_f32) (truncf .bf16 x1 bitsLt_bf16_f32) (constant S64x256 .f32 0x00000000#32)) (broadcastTo S64x256 x2 broadcasts_S1x256_S64x256))
        (broadcast S64x256 (FloatOps.ofBits (F := Ideal) .f32 0x00000000#32)))
      (addf (matmul dot_S64x640_S640x256_S64x256_1_0_0_1_n_n none (truncf .bf16 x0 bitsLt_bf16_f32) (truncf .bf16 x1 bitsLt_bf16_f32) (constant S64x256 .f32 0x00000000#32)) (broadcastTo S64x256 x2 broadcasts_S1x256_S64x256))
      (mulf (broadcast S64x256 (FloatOps.ofBits (F := Ideal) .f32 0x3C23D70A#32))
        (addf (matmul dot_S64x640_S640x256_S64x256_1_0_0_1_n_n none (truncf .bf16 x0 bitsLt_bf16_f32) (truncf .bf16 x1 bitsLt_bf16_f32) (constant S64x256 .f32 0x00000000#32)) (broadcastTo S64x256 x2 broadcasts_S1x256_S64x256)))
      : FVec Ideal S64x256 .f32) (ix2 r j)
      = Gin.lrArr (Gin.affine x0 x1 (fun j => x2 (ix2 (0 : Fin 1) j))) (ix2 r j) := by
  have hb : broadcastTo S64x256 x2 broadcasts_S1x256_S64x256 (ix2 r j) = x2 (ix2 (0 : Fin 1) j) :=
    broadcastTo_apply x2 _ (ix2 r j) (ix2 (0 : Fin 1) j) (fun a => by match a with | ⟨0, _⟩ => rfl | ⟨1, _⟩ => rfl)
  have hm : (matmul (F := Ideal) dot_S64x640_S640x256_S64x256_1_0_0_1_n_n none (truncf (F := Ideal) .bf16 x0 bitsLt_bf16_f32) (truncf (F := Ideal) .bf16 x1 bitsLt_bf16_f32) (constant (F := Ideal) S64x256 .f32 0x00000000#32) : FVec Ideal S64x256 .f32)
      = MatProd.mm x0 x1 :=
    MatProd.matmul_zero_mm plain8_a none (truncf (F := Ideal) .bf16 x0 bitsLt_bf16_f32) (truncf (F := Ideal) .bf16 x1 bitsLt_bf16_f32)
  rw [hm]
  show Scalar.select (Ideal.cmp .oge (MatProd.mm x0 x1 (ix2 r j) + broadcastTo S64x256 x2 broadcasts_S1x256_S64x256 (ix2 r j)) (Ideal.ofBits .f32 0x00000000#32))
      (MatProd.mm x0 x1 (ix2 r j) + broadcastTo S64x256 x2 broadcasts_S1x256_S64x256 (ix2 r j))
      (Ideal.ofBits .f32 0x3C23D70A#32 * (MatProd.mm x0 x1 (ix2 r j) + broadcastTo S64x256 x2 broadcasts_S1x256_S64x256 (ix2 r j))) = _
  rw [hb]
  rfl

/-- The classifier's payload at the extended reals: the second affine map of the leaky rectifier of the first. -/
theorem pay8_eq (x0 : Vec Ideal S64x640 .f32) (x1 : Vec Ideal S640x256 .f32) (x2 : Vec Ideal S1x256 .f32)
    (x3 : Vec Ideal S256x10 .f32) (x4 : Vec Ideal S1x10 .f32) :
    k8_pay1 (F := Ideal) x0 x1 x2 x3 x4
      = Gin.affine (Gin.lrArr (Gin.affine x0 x1 (fun j => x2 (ix2 (0 : Fin 1) j)))) x3 (fun k => x4 (ix2 (0 : Fin 1) k)) := by
  funext i
  obtain ⟨r, k, rfl⟩ : ∃ (r : Fin 64) (k : Fin 10), i = ix2 r k := ⟨i 0, i 1, eq_ix2 i⟩
  have hb : broadcastTo S64x10 x4 broadcasts_S1x10_S64x10 (ix2 r k) = x4 (ix2 (0 : Fin 1) k) :=
    broadcastTo_apply x4 _ (ix2 r k) (ix2 (0 : Fin 1) k) (fun a => by match a with | ⟨0, _⟩ => rfl | ⟨1, _⟩ => rfl)
  have hm : ∀ (L : FVec Ideal S64x256 .bf16) (R : FVec Ideal S256x10 .bf16),
      (matmul (F := Ideal) dot_S64x256_S256x10_S64x10_1_0_0_1_n_n none L R (constant (F := Ideal) S64x10 .f32 0x00000000#32) : FVec Ideal S64x10 .f32)
        = MatProd.mm L R := fun L R => MatProd.matmul_zero_mm plain8_b none L R
  unfold k8_pay1
  simp only [shapeCast_self]
  rw [addf_apply, hb, hm]
  show _ = MatProd.mm (Gin.lrArr (Gin.affine x0 x1 (fun j => x2 (ix2 (0 : Fin 1) j)))) x3 (ix2 r k) + x4 (ix2 (0 : Fin 1) k)
  refine congrArg (· + x4 (ix2 (0 : Fin 1) k)) ?_
  rw [MatProd.mm_ix2, MatProd.mm_ix2]
  unfold MatProd.entry
  refine Finset.sum_congr rfl fun l _ => ?_
  exact congrArg (· * x3 (ix2 l k)) (hidden8 x0 x1 x2 r l)

/-- THE ARRAY after region 8, at the extended reals: the two affine maps with the leaky rectifier between them, of
    the five arrays the region's input windows read. -/
theorem final8_5 (V : (c : Dev nD) → (b : Ref sig .tc) → Buf (Elt Ideal) ((c : Thread nD τ).loc b)) (c : Dev nD) :
    (dat8 (F := Ideal) V c).arrAt 5 cfg8.N
      = Gin.affine (Gin.lrArr (Gin.affine (V c (Pipeline.arrRef spec8 0) : S64x640.Idx → EReal) (V c (Pipeline.arrRef spec8 1) : S640x256.Idx → EReal)
            (fun j => (V c (Pipeline.arrRef spec8 2) : S1x256.Idx → EReal) (ix2 (0 : Fin 1) j))))
          (V c (Pipeline.arrRef spec8 3) : S256x10.Idx → EReal) (fun k => (V c (Pipeline.arrRef spec8 4) : S1x10.Idx → EReal) (ix2 (0 : Fin 1) k)) :=
  (final8_5_pay V c).trans (pay8_eq _ _ _ _ _)

end Cert.KernelIdeal.Hand

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.KI.NetCls.lean ====
/- The end of the kernel's program: the five feature tables laid side by side and pooled, the leaky rectifier on the
   pooled rows, and the classifier region's two affine maps around the leaky rectifier, are the reference network's
   readout of the same five tables. -/
import proofs.«116561_j3624952397847_1_alg».proof.Proof.KI.Fold
import proofs.«116561_j3624952397847_1_alg».proof.Proof.KI.Kept
import proofs.«116561_j3624952397847_1_alg».proof.Proof.KI.HostRead
import proofs.«116561_j3624952397847_1_alg».proof.Proof.KI.BridgeC8
import proofs.«116561_j3624952397847_1_alg».proof.Proof.Ref.Read
import proofs.«116561_j3624952397847_1_alg».proof.Proof.LibRowCol

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- A vector cast to one row, read at column `j`, is its entry `j`. -/
theorem castRow_apply {k : ℕ} (v : (⟨1, ![k]⟩ : Shape).Idx → EReal) (h : (⟨1, ![k]⟩ : Shape).ShapeCasts ⟨2, ![1, k]⟩) (j : Fin k) :
    shapeCast ⟨2, ![1, k]⟩ v h (ix2 (0 : Fin 1) j) = v (ix1 j) :=
  (congrFun (RowCol.shapeCast_row v h) (ix2 (0 : Fin 1) j)).trans (RowCol.rowOf_ix2 v (0 : Fin 1) j)

/-- The two affine maps around the leaky rectifier depend on their five operands only. -/
theorem cls_congr {n k q r : ℕ} {P P' : GcnSpec.Arr n k} {W1 W1' : GcnSpec.Arr k q} {c1 c1' : Fin q → EReal} {W2 W2' : GcnSpec.Arr q r}
    {c2 c2' : Fin r → EReal} (hP : P = P') (hW1 : W1 = W1') (hc1 : c1 = c1') (hW2 : W2 = W2') (hc2 : c2 = c2') :
    Gin.affine (Gin.lrArr (Gin.affine P W1 c1)) W2 c2 = Gin.affine (Gin.lrArr (Gin.affine P' W1' c1')) W2' c2' := by
  subst hP hW1 hc1 hW2 hc2; rfl

/-- Pooling the five tables side by side depends on the graph numbers and the five tables only. -/
theorem pool_congr {b b' : IVec Cert.ReferenceIdeal.S100000 32} {x0 x0' x1 x1' x2 x2' x3 x3' x4 x4' : FVec Ideal Cert.ReferenceIdeal.S100000x128 .f32}
    (hb : b = b') (h0 : x0 = x0') (h1 : x1 = x1') (h2 : x2 = x2') (h3 : x3 = x3') (h4 : x4 = x4') :
    Cert.ReferenceIdeal.Hand.pool (F := Ideal) b (Cert.ReferenceIdeal.Hand.concat5 x0 x1 x2 x3 x4) = Cert.ReferenceIdeal.Hand.pool (F := Ideal) b' (Cert.ReferenceIdeal.Hand.concat5 x0' x1' x2' x3' x4') := by
  subst hb h0 h1 h2 h3 h4; rfl

variable (m : (ℓ : Loc nD τ sig) → Buf (Elt Ideal) ℓ) (ρ : Dev nD → PrngReg)

/-- The pooled rows, as the stretch of host operations after the last layer leaves them. -/
theorem cls_pool (c : Dev nD) : (U18 m ρ c main_v188 : S64x640.Idx → EReal) = (Cert.ReferenceIdeal.Hand.pool (F := Ideal) (m ((c.tc : Thread nD τ).loc main_arg2))
          (Cert.ReferenceIdeal.Hand.concat5 (U1 m ρ c main_v0) (U5 m ρ c main_v49) (U9 m ρ c main_v94) (U13 m ρ c main_v139) (U17 m ρ c main_v184))) :=
  (U18_pool m ρ c).trans
    (pool_congr (W17_main_arg2 m ρ c) (W17_main_v0 m ρ c) (W17_main_v49 m ρ c) (W17_main_v94 m ρ c) (W17_main_v139 m ρ c) rfl)

/-- The classifier region's first window reads the leaky rectifier of the pooled rows. -/
theorem cls_P (c : Dev nD) : (U20 m ρ c (Pipeline.arrRef spec8 0) : S64x640.Idx → EReal) = Gin.lrArr (Cert.ReferenceIdeal.Hand.pool (F := Ideal) (m ((c.tc : Thread nD τ).loc main_arg2))
          (Cert.ReferenceIdeal.Hand.concat5 (U1 m ρ c main_v0) (U5 m ρ c main_v49) (U9 m ρ c main_v94) (U13 m ρ c main_v139) (U17 m ρ c main_v184))) :=
  (W20_main_v189 m ρ c).trans ((U19_act m ρ c).trans ((Cert.ReferenceIdeal.Hand.lrelu_eq _ _).trans (congrArg Gin.lrArr (cls_pool m ρ c))))

/-- Its two matrices are the program's arguments. -/
theorem cls_W1 (c : Dev nD) : (U20 m ρ c (Pipeline.arrRef spec8 1) : S640x256.Idx → EReal) = (m ((c.tc : Thread nD τ).loc main_arg10)) := W20_main_arg10 m ρ c
theorem cls_W2 (c : Dev nD) : (U20 m ρ c (Pipeline.arrRef spec8 3) : S256x10.Idx → EReal) = (m ((c.tc : Thread nD τ).loc main_arg12)) := W20_main_arg12 m ρ c

/-- Its two bias rows are the program's bias vectors cast to one row. -/
theorem cls_c1 (c : Dev nD) : (fun j : Fin 256 => (U20 m ρ c (Pipeline.arrRef spec8 2) : S1x256.Idx → EReal) (ix2 (0 : Fin 1) j))
    = fun j : Fin 256 => ((m ((c.tc : Thread nD τ).loc main_arg11)) : S256.Idx → EReal) (ix1 j) := by
  funext j
  have h := congrFun (U20_c1 m ρ c) (ix2 (0 : Fin 1) j)
  refine h.trans ((castRow_apply _ _ j).trans ?_)
  exact congrFun (W19_main_arg11 m ρ c) (ix1 j)
theorem cls_c2 (c : Dev nD) : (fun j : Fin 10 => (U20 m ρ c (Pipeline.arrRef spec8 4) : S1x10.Idx → EReal) (ix2 (0 : Fin 1) j))
    = fun j : Fin 10 => ((m ((c.tc : Thread nD τ).loc main_arg13)) : S10.Idx → EReal) (ix1 j) := by
  funext j
  have h := congrFun (U20_c2 m ρ c) (ix2 (0 : Fin 1) j)
  refine h.trans ((castRow_apply _ _ j).trans ?_)
  exact congrFun (W19_main_arg13 m ρ c) (ix1 j)

/-- The result buffer after the last region, in the specification's vocabulary. -/
theorem cls_gin (c : Dev nD) : (W21 m ρ c (Proc.devRef .tc main_v192) : S64x10.Idx → EReal)
    = Gin.affine (Gin.lrArr (Gin.affine (Gin.lrArr (Cert.ReferenceIdeal.Hand.pool (F := Ideal) (m ((c.tc : Thread nD τ).loc main_arg2))
          (Cert.ReferenceIdeal.Hand.concat5 (U1 m ρ c main_v0) (U5 m ρ c main_v49) (U9 m ρ c main_v94) (U13 m ρ c main_v139) (U17 m ρ c main_v184)))) (m ((c.tc : Thread nD τ).loc main_arg10))
        (fun j : Fin 256 => ((m ((c.tc : Thread nD τ).loc main_arg11)) : S256.Idx → EReal) (ix1 j)))) (m ((c.tc : Thread nD τ).loc main_arg12))
        (fun j : Fin 10 => ((m ((c.tc : Thread nD τ).loc main_arg13)) : S10.Idx → EReal) (ix1 j)) :=
  (W21_arr m ρ c 5).trans ((final8_5 (U20 m ρ) c).trans
    (cls_congr (cls_P m ρ c) (cls_W1 m ρ c) (cls_c1 m ρ c) (cls_W2 m ρ c) (cls_c2 m ρ c)))

/-- THE RESULT BUFFER after the last region is the reference's readout of the five feature tables, the graph numbers
    and the classifier's four parameter arrays. -/
theorem cls_out (c : Dev nD) (x0 x1 x2 x3 x4 : Cert.ReferenceIdeal.S100000x128.Idx → EReal)
    (e0 : (U1 m ρ c main_v0 : S100000x128.Idx → EReal) = x0) (e1 : (U5 m ρ c main_v49 : S100000x128.Idx → EReal) = x1)
    (e2 : (U9 m ρ c main_v94 : S100000x128.Idx → EReal) = x2) (e3 : (U13 m ρ c main_v139 : S100000x128.Idx → EReal) = x3)
    (e4 : (U17 m ρ c main_v184 : S100000x128.Idx → EReal) = x4) :
    (W21 m ρ c (Proc.devRef .tc main_v192) : S64x10.Idx → EReal)
      = Cert.ReferenceIdeal.Hand.readout (F := Ideal) x0 x1 x2 x3 x4 (m ((c.tc : Thread nD τ).loc main_arg2)) (m ((c.tc : Thread nD τ).loc main_arg10))
          (m ((c.tc : Thread nD τ).loc main_arg11)) (m ((c.tc : Thread nD τ).loc main_arg12)) (m ((c.tc : Thread nD τ).loc main_arg13)) := by
  subst e0 e1 e2 e3 e4
  exact (cls_gin m ρ c).trans (Cert.ReferenceIdeal.Hand.classify_apply _ _ _ _ _).symm

end Cert.KernelIdeal.Hand

end
-- ==== Proof.KI.PreReal.lean ====
/- The precondition read back: when the predicate "every float argument is finite" is all ones, every
   entry of every float argument is the reading of a real number.  The predicate is a conjunction of eleven
   "all entries have absolute value below +∞"; an extended real whose absolute value is below +∞ is neither
   infinity. -/
import proofs.«116561_j3624952397847_1_alg».proof.Defs
import proofs.«116561_j3624952397847_1_alg».proof.Proof.Gen.KernelIdeal
import proofs.«116561_j3624952397847_1_alg».proof.Proof.Gen.Pre_finite_inputs
import proofs.«116561_j3624952397847_1_alg».proof.Proof.LibSegSum
import Idealize.ShloMosaic.Lib.ReduceAll
import Idealize.ShloMosaic.Lib.Pipeline.Value
import Idealize.ShloMosaic.Lib.ValueIdx

noncomputable section

namespace Cert.KernelIdeal.Hand

open Cert.KernelIdeal
open Idealize.ShloMosaic Idealize.ShloMosaic.TcCoe Idealize.ShloMosaic.ValueIdx Idealize.SL.Sem

/-- The scalar shape has one index. -/
instance subsingleton_scalarIdx : Subsingleton (⟨0, ![]⟩ : Shape).Idx := ⟨fun a b => funext fun d => d.elim0⟩

/-- An extended real whose absolute value compares below +∞ is the reading of a real number. -/
theorem isReal_of_abs_lt_inf (x : EReal)
    (h : FloatOps.cmpf (F := Ideal) (φ := .f32) .olt (FloatOps.hostAbsf (F := Ideal) (φ := .f32) x) (Ideal.ofBits .f32 0x7F800000#32) = 1#1) :
    SegSum.IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | coe r => exact ⟨r, rfl⟩
  | top => simp at h'

/-- One "all entries are finite" of the predicate: if the reduction by "and" of the comparisons is one, every
    entry is real. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x) (broadcastInDim s ![] hb (constant (F := Ideal) (⟨0, ![]⟩ : Shape) .f32 0x7F800000#32)))
        (constantI (⟨0, ![]⟩ : Shape) 1 1#1) hr hu ix0 = 1#1) (i : s.Idx) : SegSum.IsReal (x i) := by
  have hi := Host.reduce_andi_all _ _ hr hu ix0 e i
  have hbc : broadcastInDim s ![] hb (constant (F := Ideal) (⟨0, ![]⟩ : Shape) .f32 0x7F800000#32) i = Ideal.ofBits .f32 0x7F800000#32 :=
    broadcastInDim_apply ![] hb _ i ix0 (fun a => a.elim0)
  refine isReal_of_abs_lt_inf (x i) ?_
  rw [← hbc]
  exact hi

/-- A conjunction of two one-bit words that is one has both conjuncts one. -/
theorem andi_split {a b : IVec (⟨0, ![]⟩ : Shape) 1} (h : andi a b ix0 = 1#1) : a ix0 = 1#1 ∧ b ix0 = 1#1 :=
  IntOp.andi_eq_one.1 h

open Cert.Pre_finite_inputs.Facts in
/-- THE PRECONDITION READ BACK: every entry of every float argument is real. -/
theorem args_real (m : (ℓ : Loc nD τ sig) → Buf (Elt Ideal) ℓ) (h : Cert.Pre_KernelIdeal m) (c : Dev nD) :
    (∀ i, SegSum.IsReal ((m ((c.tc : Thread nD τ).loc main_arg3) : S4.Idx → EReal) i))
    ∧ (∀ i, SegSum.IsReal ((m ((c.tc : Thread nD τ).loc main_arg4) : S4x128x128.Idx → EReal) i))
    ∧ (∀ i, SegSum.IsReal ((m ((c.tc : Thread nD τ).loc main_arg5) : S4x128.Idx → EReal) i))
    ∧ (∀ i, SegSum.IsReal ((m ((c.tc : Thread nD τ).loc main_arg6) : S4x128x128.Idx → EReal) i))
    ∧ (∀ i, SegSum.IsReal ((m ((c.tc : Thread nD τ).loc main_arg7) : S4x128.Idx → EReal) i))
    ∧ (∀ i, SegSum.IsReal ((m ((c.tc : Thread nD τ).loc main_arg8) : S4x128.Idx → EReal) i))
    ∧ (∀ i, SegSum.IsReal ((m ((c.tc : Thread nD τ).loc main_arg9) : S4x128.Idx → EReal) i))
    ∧ (∀ i, SegSum.IsReal ((m ((c.tc : Thread nD τ).loc main_arg10) : S640x256.Idx → EReal) i))
    ∧ (∀ i, SegSum.IsReal ((m ((c.tc : Thread nD τ).loc main_arg11) : S256.Idx → EReal) i))
    ∧ (∀ i, SegSum.IsReal ((m ((c.tc : Thread nD τ).loc main_arg12) : S256x10.Idx → EReal) i))
    ∧ (∀ i, SegSum.IsReal ((m ((c.tc : Thread nD τ).loc main_arg13) : S10.Idx → EReal) i)) := by
  have h0 := congrFun (h c) ix0
  dsimp only [Cert.Pre_finite_inputs.fn, Cert.Pre_finite_inputs.fn_part1, Cert.Pre_finite_inputs.fn_part2, Cert.Pre_finite_inputs.fn_part3] at h0
  obtain ⟨r0, h13⟩ := andi_split h0
  obtain ⟨r1, h12⟩ := andi_split r0
  obtain ⟨r2, h11⟩ := andi_split r1
  obtain ⟨r3, h10⟩ := andi_split r2
  obtain ⟨r4, h9⟩ := andi_split r3
  obtain ⟨r5, h8⟩ := andi_split r4
  obtain ⟨r6, h7⟩ := andi_split r5
  obtain ⟨r7, h6⟩ := andi_split r6
  obtain ⟨r8, h5⟩ := andi_split r7
  obtain ⟨h3, h4⟩ := andi_split r8
  exact ⟨all_real _ bcast_S_S4 _ _ h3,
    all_real _ bcast_S_S4x128x128 _ _ h4,
    all_real _ bcast_S_S4x128 _ _ h5,
    all_real _ bcast_S_S4x128x128 _ _ h6,
    all_real _ bcast_S_S4x128 _ _ h7,
    all_real _ bcast_S_S4x128 _ _ h8,
    all_real _ bcast_S_S4x128 _ _ h9,
    all_real _ bcast_S_S640x256 _ _ h10,
    all_real _ bcast_S_S256 _ _ h11,
    all_real _ bcast_S_S256x10 _ _ h12,
    all_real _ bcast_S_S10 _ _ h13⟩

end Cert.KernelIdeal.Hand

end
-- ==== Proof.KI.Net.lean ====
/- The kernel's program computes the reference network: on a core whose float arguments are real numbers, the result
   buffer ends at the reference's term of the fourteen arguments.  The one-hot table and every layer's output are the
   reference's tables (the layers: the perceptron entry by entry, then the normalisation in the folded arrangement, equal
   to the centred one on real columns); the five tables side by side, pooled, through the leaky rectifier and the
   classifier are then the reference's readout. -/
import proofs.«116561_j3624952397847_1_alg».proof.Proof.KI.NetLayerA
import proofs.«116561_j3624952397847_1_alg».proof.Proof.KI.NetCls
import proofs.«116561_j3624952397847_1_alg».proof.Proof.KI.PreReal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Under the precondition the result buffer's last contents are the reference network's term of the arguments. -/
theorem kernel_out (hpre : Cert.Pre_KernelIdeal (hPre_finite_inputs := Cert.Pre_finite_inputs.Gen.facts) m) (c : Dev nD) :
    (W21 m ρ c (Proc.devRef .tc main_v192) : S64x10.Idx → EReal)
      = Cert.ReferenceIdeal.Hand.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  obtain ⟨r3, r4, r5, r6, r7, r8, r9, -, -, -, -⟩ := args_real m hpre c
  have e1 := layer0_final m ρ c r3 r4 r5 r6 r7 r8 r9
  have e2 := layer1_final m ρ c e1 r3 r4 r5 r6 r7 r8 r9
  have e3 := layer2_final m ρ c e2 r3 r4 r5 r6 r7 r8 r9
  have e4 := layer3_final m ρ c e3 r3 r4 r5 r6 r7 r8 r9
  exact cls_out m ρ c _ _ _ _ _ (table0 m ρ c) e1 e2 e3 e4

end Cert.KernelIdeal.Hand

end
-- ==== Proof.lean ====
/-
  The certificate of a four-layer graph isomorphism network computed by nine kernel regions among stretches of host
  operations, against its plain reference.

  Frames.  The kernel's program, at either instance, runs as twenty-one items: twelve stretches of host operations and
  nine regions.  Between two items every unscoped buffer of a core holds known contents (KI/Fold, K/Fold): a stretch
  applies its operations, a region leaves its arrays at what its write-backs fold to.  Each region's body is run once
  per grid point — the two accumulating scratch rows of the first kind of region carried from point to point, zeroed at
  the first —, which gives the body obligations (KI/RegA*, RegB*, RegC8 and their word-level copies), and the launch
  theorem for a program of several regions then gives termination without fault and the final contents; no item writes
  an argument array (KI/Args, K/Args).  The reference is host operations only: its run is the fold of its operations
  (Ref/Frame).

  Values.  At the ideal instance the reference's result is one pure term of the fourteen arguments (Ref/Net, Ref/Val).
  The kernel's result buffer ends at the same term (KI/Net): its host stretches are the reference's own pieces
  (KI/HostRead, KI/HostBN), each region's arrays are read as whole-array functions (KI/ValA*, ValB*, ValC8), the
  perceptron agrees entry by entry, and the normalisation — folded into a scale and a shift from the column sums on one
  side, centred on the other — agrees on real columns (Spec, BnPlain), which the precondition provides (KI/PreReal).
-/
import proofs.«116561_j3624952397847_1_alg».proof.Defs
import proofs.«116561_j3624952397847_1_alg».proof.Proof.Gen.Kernel
import proofs.«116561_j3624952397847_1_alg».proof.Proof.Gen.KernelIdeal
import proofs.«116561_j3624952397847_1_alg».proof.Proof.Gen.ReferenceIdeal
import proofs.«116561_j3624952397847_1_alg».proof.Proof.Gen.Pre_finite_inputs
import proofs.«116561_j3624952397847_1_alg».proof.Proof.K.Args
import proofs.«116561_j3624952397847_1_alg».proof.Proof.KI.Args
import proofs.«116561_j3624952397847_1_alg».proof.Proof.Ref.Run
import proofs.«116561_j3624952397847_1_alg».proof.Proof.KI.Net
import proofs.«116561_j3624952397847_1_alg».proof.Proof.Ref.Val
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m g _ => Cert.ReferenceIdeal.Hand.run_args (F := Ideal) m g

/-- The two idealized programs, from memories agreeing on the arguments, end with equal results: the kernel's program's
    result buffer holds the reference network's term of its arguments (KI/Net: under the precondition every float argument
    is a real number, which the normalisation's law needs), the reference's holds the same term of its own arguments
    (Ref/Val), and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Hand.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run (Cert.KernelIdeal.defs (F := Ideal)) _ _).mono (fun r h c => ⟨?_, (h c _ (Cert.KernelIdeal.Hand.mem_uc Cert.KernelIdeal.main_arg0 (by decide))).trans (Cert.KernelIdeal.Hand.W21_main_arg0 m ρ c),
      (h c _ (Cert.KernelIdeal.Hand.mem_uc Cert.KernelIdeal.main_arg1 (by decide))).trans (Cert.KernelIdeal.Hand.W21_main_arg1 m ρ c),
      (h c _ (Cert.KernelIdeal.Hand.mem_uc Cert.KernelIdeal.main_arg2 (by decide))).trans (Cert.KernelIdeal.Hand.W21_main_arg2 m ρ c),
      (h c _ (Cert.KernelIdeal.Hand.mem_uc Cert.KernelIdeal.main_arg3 (by decide))).trans (Cert.KernelIdeal.Hand.W21_main_arg3 m ρ c),
      (h c _ (Cert.KernelIdeal.Hand.mem_uc Cert.KernelIdeal.main_arg4 (by decide))).trans (Cert.KernelIdeal.Hand.W21_main_arg4 m ρ c),
      (h c _ (Cert.KernelIdeal.Hand.mem_uc Cert.KernelIdeal.main_arg5 (by decide))).trans (Cert.KernelIdeal.Hand.W21_main_arg5 m ρ c),
      (h c _ (Cert.KernelIdeal.Hand.mem_uc Cert.KernelIdeal.main_arg6 (by decide))).trans (Cert.KernelIdeal.Hand.W21_main_arg6 m ρ c),
      (h c _ (Cert.KernelIdeal.Hand.mem_uc Cert.KernelIdeal.main_arg7 (by decide))).trans (Cert.KernelIdeal.Hand.W21_main_arg7 m ρ c),
      (h c _ (Cert.KernelIdeal.Hand.mem_uc Cert.KernelIdeal.main_arg8 (by decide))).trans (Cert.KernelIdeal.Hand.W21_main_arg8 m ρ c),
      (h c _ (Cert.KernelIdeal.Hand.mem_uc Cert.KernelIdeal.main_arg9 (by decide))).trans (Cert.KernelIdeal.Hand.W21_main_arg9 m ρ c),
      (h c _ (Cert.KernelIdeal.Hand.mem_uc Cert.KernelIdeal.main_arg10 (by decide))).trans (Cert.KernelIdeal.Hand.W21_main_arg10 m ρ c),
      (h c _ (Cert.KernelIdeal.Hand.mem_uc Cert.KernelIdeal.main_arg11 (by decide))).trans (Cert.KernelIdeal.Hand.W21_main_arg11 m ρ c),
      (h c _ (Cert.KernelIdeal.Hand.mem_uc Cert.KernelIdeal.main_arg12 (by decide))).trans (Cert.KernelIdeal.Hand.W21_main_arg12 m ρ c),
      (h c _ (Cert.KernelIdeal.Hand.mem_uc Cert.KernelIdeal.main_arg13 (by decide))).trans (Cert.KernelIdeal.Hand.W21_main_arg13 m ρ c)⟩)
      (Cert.KernelIdeal.Hand.run_all (F := Ideal) m ρ)
    exact (h c _ (Cert.KernelIdeal.Hand.mem_uc Cert.KernelIdeal.main_v192 (by decide))).trans (Cert.KernelIdeal.Hand.kernel_out m ρ hpre c)
  · refine (θ_run (Cert.ReferenceIdeal.defs (F := Ideal)) _ _).mono (fun r h c => ⟨?_, (h c).2⟩)
      (Cert.ReferenceIdeal.Hand.run (F := Ideal) m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
